-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg1 : IVec S16384 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S16384 32 := broadcastInDim S16384 ![] bcast_S_S16384 main_c_6
  let main_v20 : IVec S16384 1 := cmpi .sge main_arg0 main_v19
  let main_c_7 : IVec S_ 32 := constantI S_ 32 99999#32
  let main_v21 : IVec S16384 32 := broadcastInDim S16384 ![] bcast_S_S16384 main_c_7
  let main_v22 : IVec S16384 1 := cmpi .sle main_arg0 main_v21
  let main_v23 : IVec S16384 1 := andi main_v20 main_v22
  let main_c_8 : IVec S_ 1 := constantI S_ 1 1#1
  let main_v24 : IVec S_ 1 := (fun x v => Host.reduce IntOp.andi x v reducesTo_S16384_S_d0 h_S_) main_v23 main_c_8
  let main_v25 : IVec S_ 1 := andi main_v18 main_v24
  let main_c_9 : IVec S_ 32 := constantI S_ 32 0#32
  let main_v26 : IVec S16384 32 := broadcastInDim S16384 ![] bcast_S_S16384 main_c_9
  let main_v27 : IVec S16384 1 := cmpi .sge main_arg1 main_v26
  let main_c_10 : IVec S_ 32 := constantI S_ 32 99999#32
  let main_v28 : IVec S16384 32 := broadcastInDim S16384 ![] bcast_S_S16384 main_c_10
  let main_v29 : IVec S16384 1 := cmpi .sle main_arg1 main_v28
  let main_v30 : IVec S16384 1 := andi main_v27 main_v29
  let main_c_11 : IVec S_ 1 := constantI S_ 1 1#1
  let main_v31 : IVec S_ 1 := (fun x v => Host.reduce IntOp.andi x v reducesTo_S16384_S_d0 h_S_) main_v30 main_c_11
  let main_v32 : IVec S_ 1 := andi main_v25 main_v31
  main_v32

def fn {F : FTy → Type} [FloatOps F] (main_arg0 : IVec S16384 32) (main_arg1 : IVec S16384 32) (main_arg2 : FVec F S100000x128 .f32) (main_arg3 : FVec F S100000x128 .f32) (main_arg4 : FVec F S256x128 .f32) (main_arg5 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_v13 main_v16
-- ==== Kernel.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S32x128 : Shape := ⟨2, ![32, 128]⟩
abbrev S4096x128 : Shape := ⟨2, ![4096, 128]⟩
abbrev S2x128 : Shape := ⟨2, ![2, 128]⟩
abbrev S_ : Shape := ⟨0, ![]⟩
abbrev S16384x128 : Shape := ⟨2, ![16384, 128]⟩

abbrev nBuf : Table → Nat
  | .hbm => 29
  | .local .tc .vmem => 20
  | .local .scVector .vmem => 12
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x128, .i32⟩
  | .hbm, ⟨7, _⟩ => ⟨S128x128, .i32⟩
  | .hbm, ⟨8, _⟩ => ⟨S1x128, .f32⟩
  | .hbm, ⟨9, _⟩ => ⟨S32x128, .i32⟩
  | .hbm, ⟨10, _⟩ => ⟨S32x128, .i32⟩
  | .hbm, ⟨11, _⟩ => ⟨S4096x128, .f32⟩
  | .hbm, ⟨12, _⟩ => ⟨S4096x128, .f32⟩
  | .hbm, ⟨13, _⟩ => ⟨S32x128, .i32⟩
  | .hbm, ⟨14, _⟩ => ⟨S32x128, .i32⟩
  | .hbm, ⟨15, _⟩ => ⟨S4096x128, .f32⟩
  | .hbm, ⟨16, _⟩ => ⟨S4096x128, .f32⟩
  | .hbm, ⟨17, _⟩ => ⟨S32x128, .i32⟩
  | .hbm, ⟨18, _⟩ => ⟨S32x128, .i32⟩
  | .hbm, ⟨19, _⟩ => ⟨S4096x128, .f32⟩
  | .hbm, ⟨20, _⟩ => ⟨S4096x128, .f32⟩
  | .hbm, ⟨21, _⟩ => ⟨S32x128, .i32⟩
  | .hbm, ⟨22, _⟩ => ⟨S32x128, .i32⟩
  | .hbm, ⟨23, _⟩ => ⟨S4096x128, .f32⟩
  | .hbm, ⟨24, _⟩ => ⟨S4096x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .local .tc .vmem, ⟨0, _⟩ => ⟨S4096x128, .f32⟩
  | .local .tc .vmem, ⟨1, _⟩ => ⟨S4096x128, .f32⟩
  | .local .tc .vmem, ⟨2, _⟩ => ⟨S256x128, .f32⟩
  | .local .tc .vmem, ⟨3, _⟩ => ⟨S1x128, .f32⟩
  | .local .tc .vmem, ⟨4, _⟩ => ⟨S4096x128, .f32⟩
  | .local .tc .vmem, ⟨5, _⟩ => ⟨S4096x128, .f32⟩
  | .local .tc .vmem, ⟨6, _⟩ => ⟨S4096x128, .f32⟩
  | .local .tc .vmem, ⟨7, _⟩ => ⟨S256x128, .f32⟩
  | .local .tc .vmem, ⟨8, _⟩ => ⟨S1x128, .f32⟩
  | .local .tc .vmem, ⟨9, _⟩ => ⟨S4096x128, .f32⟩
  | .local .tc .vmem, ⟨10, _⟩ => ⟨S4096x128, .f32⟩
  | .local .tc .vmem, ⟨11, _⟩ => ⟨S4096x128, .f32⟩
  | .local .tc .vmem, ⟨12, _⟩ => ⟨S256x128, .f32⟩
  | .local .tc .vmem, ⟨13, _⟩ => ⟨S1x128, .f32⟩
  | .local .tc .vmem, ⟨14, _⟩ => ⟨S4096x128, .f32⟩
  | .local .tc .vmem, ⟨15, _⟩ => ⟨S4096x128, .f32⟩
  | .local .tc .vmem, ⟨16, _⟩ => ⟨S4096x128, .f32⟩
  | .local .tc .vmem, ⟨17, _⟩ => ⟨S256x128, .f32⟩
  | .local .tc .vmem, ⟨18, _⟩ => ⟨S1x128, .f32⟩
  | .local .tc .vmem, ⟨19, _⟩ => ⟨S4096x128, .f32⟩
  | .local .scVector .vmem, ⟨0, _⟩ => ⟨S2x128, .i32⟩
  | .local .scVector .vmem, ⟨1, _⟩ => ⟨S128x128, .f32⟩
  | .local .scVector .vmem, ⟨2, _⟩ => ⟨S128x128, .f32⟩
  | .local .scVector .vmem, ⟨3, _⟩ => ⟨S2x128, .i32⟩
  | .local .scVector .vmem, ⟨4, _⟩ => ⟨S128x128, .f32⟩
  | .local .scVector .vmem, ⟨5, _⟩ => ⟨S128x128, .f32⟩
  | .local .scVector .vmem, ⟨6, _⟩ => ⟨S2x128, .i32⟩
  | .local .scVector .vmem, ⟨7, _⟩ => ⟨S128x128, .f32⟩
  | .local .scVector .vmem, ⟨8, _⟩ => ⟨S128x128, .f32⟩
  | .local .scVector .vmem, ⟨9, _⟩ => ⟨S2x128, .i32⟩
  | .local .scVector .vmem, ⟨10, _⟩ => ⟨S128x128, .f32⟩
  | .local .scVector .vmem, ⟨11, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v3_scv : Ref sig .scVector := ⟨.hbm, 9, rfl⟩
abbrev main_v4_scv : Ref sig .scVector := ⟨.hbm, 10, rfl⟩
abbrev main_arg2_scv : Ref sig .scVector := ⟨.hbm, 2, rfl⟩
abbrev main_arg3_scv : Ref sig .scVector := ⟨.hbm, 3, rfl⟩
abbrev main_v5_0_scv : Ref sig .scVector := ⟨.hbm, 11, rfl⟩
abbrev main_v5_1_scv : Ref sig .scVector := ⟨.hbm, 12, rfl⟩
abbrev main_v6_scv : Ref sig .scVector := ⟨.hbm, 13, rfl⟩
abbrev main_v7_scv : Ref sig .scVector := ⟨.hbm, 14, rfl⟩
abbrev main_v8_0_scv : Ref sig .scVector := ⟨.hbm, 15, rfl⟩
abbrev main_v8_1_scv : Ref sig .scVector := ⟨.hbm, 16, rfl⟩
abbrev main_v9_scv : Ref sig .scVector := ⟨.hbm, 17, rfl⟩
abbrev main_v10_scv : Ref sig .scVector := ⟨.hbm, 18, rfl⟩
abbrev main_v11_0_scv : Ref sig .scVector := ⟨.hbm, 19, rfl⟩
abbrev main_v11_1_scv : Ref sig .scVector := ⟨.hbm, 20, rfl⟩
abbrev main_v12_scv : Ref sig .scVector := ⟨.hbm, 21, rfl⟩
abbrev main_v13_scv : Ref sig .scVector := ⟨.hbm, 22, rfl⟩
abbrev main_v14_0_scv : Ref sig .scVector := ⟨.hbm, 23, rfl⟩
abbrev main_v14_1_scv : Ref sig .scVector := ⟨.hbm, 24, rfl⟩
abbrev cc4_stg0_0 : Ref sig .tc := ⟨.vmem, 0, rfl⟩
abbrev cc4_stg1_0 : Ref sig .tc := ⟨.vmem, 1, rfl⟩
abbrev cc4_stg2_0 : Ref sig .tc := ⟨.vmem, 2, rfl⟩
abbrev cc4_stg3_0 : Ref sig .tc := ⟨.vmem, 3, rfl⟩
abbrev cc4_stg4_0 : Ref sig .tc := ⟨.vmem, 4, rfl⟩
abbrev cc5_stg0_0 : Ref sig .tc := ⟨.vmem, 5, rfl⟩
abbrev cc5_stg1_0 : Ref sig .tc := ⟨.vmem, 6, rfl⟩
abbrev cc5_stg2_0 : Ref sig .tc := ⟨.vmem, 7, rfl⟩
abbrev cc5_stg3_0 : Ref sig .tc := ⟨.vmem, 8, rfl⟩
abbrev cc5_stg4_0 : Ref sig .tc := ⟨.vmem, 9, rfl⟩
abbrev cc6_stg0_0 : Ref sig .tc := ⟨.vmem, 10, rfl⟩
abbrev cc6_stg1_0 : Ref sig .tc := ⟨.vmem, 11, rfl⟩
abbrev cc6_stg2_0 : Ref sig .tc := ⟨.vmem, 12, rfl⟩
abbrev cc6_stg3_0 : Ref sig .tc := ⟨.vmem, 13, rfl⟩
abbrev cc6_stg4_0 : Ref sig .tc := ⟨.vmem, 14, rfl⟩
abbrev cc7_stg0_0 : Ref sig .tc := ⟨.vmem, 15, rfl⟩
abbrev cc7_stg1_0 : Ref sig .tc := ⟨.vmem, 16, rfl⟩
abbrev cc7_stg2_0 : Ref sig .tc := ⟨.vmem, 17, rfl⟩
abbrev cc7_stg3_0 : Ref sig .tc := ⟨.vmem, 18, rfl⟩
abbrev cc7_stg4_0 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc5_sem0_0 : DmaSem sig := 29
abbrev cc5_sem1_0 : DmaSem sig := 30
abbrev cc5_sem2_0 : DmaSem sig := 31
abbrev cc5_sem3_0 : DmaSem sig := 32
abbrev cc5_sem4_0 : DmaSem sig := 33
abbrev cc6_sem0_0 : DmaSem sig := 34
abbrev cc6_sem1_0 : DmaSem sig := 35
abbrev cc6_sem2_0 : DmaSem sig := 36
abbrev cc6_sem3_0 : DmaSem sig := 37
abbrev cc6_sem4_0 : DmaSem sig := 38
abbrev cc7_sem0_0 : DmaSem sig := 39
abbrev cc7_sem1_0 : DmaSem sig := 40
abbrev cc7_sem2_0 : DmaSem sig := 41
abbrev cc7_sem3_0 : DmaSem sig := 42
abbrev cc7_sem4_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v3 : BitVec 32 := Scalar.muli v1 c1_i32
  let c0_i32_28_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let v14 : BitVec 32 := Scalar.addi v2 c0_i32_12
  let c0_i32_13 : BitVec 32 := 0#32
  ![v14.toNat, 0]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v3 : BitVec 32 := Scalar.muli v1 c1_i32
  let c0_i32_28_r0 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let v14 : BitVec 32 := Scalar.addi v2 c0_i32_12
  let c0_i32_13 : BitVec 32 := 0#32
  ![v14.toNat, 0]
abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v3 : BitVec 32 := Scalar.muli v1 c1_i32
  let c0_i32_28_r0 : BitVec 32 := 0#32
  ![v3.toNat, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let v14 : BitVec 32 := Scalar.addi v2 c0_i32_12
  let c0_i32_13 : BitVec 32 := 0#32
  ![v14.toNat, 0]
abbrev grid3 : Pipeline.Grid := ⟨2, ![2, 16], ![false, false]⟩

def k3_off1 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let v3 : BitVec 32 := Scalar.muli v1 c1_i32
  let c0_i32_28_r0 : BitVec 32 := 0#32
  ![v3.toNat, 0]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let v14 : BitVec 32 := Scalar.addi v2 c0_i32_12
  let c0_i32_13 : BitVec 32 := 0#32
  ![v14.toNat, 0]
abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage4_0 : Fin 1 → Memref sig .tc .vmem S4096x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S4096x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4096x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage5_0 : Fin 1 → Memref sig .tc .vmem S4096x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S4096x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S256x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4096x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage6_0 : Fin 1 → Memref sig .tc .vmem S4096x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S4096x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S4096x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

abbrev stage7_0 : Fin 1 → Memref sig .tc .vmem S4096x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4096x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S4096x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S16384_S128x128 : S16384.ShapeCasts S128x128
  shapeCasts_S128_S1x128 : S128.ShapeCasts S1x128
  slices_S128x128_S32x128_0_0 : S128x128.Slices ![0, 0] S32x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  slices_S128x128_S32x128_32_0 : S128x128.Slices ![32, 0] S32x128
  slices_S128x128_S32x128_64_0 : S128x128.Slices ![64, 0] S32x128
  slices_S128x128_S32x128_96_0 : S128x128.Slices ![96, 0] S32x128
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S128x128_S4096x128_1_0_0_1_n_n_wf : DotDims.WF S4096x128 S128x128 S4096x128 [1] [0] [0] [1] [] []
  hcc0_scratch3 : 0 + S_.numel ≤ 44
  hcc0_scratch4 : 1 + S_.numel ≤ 44
  hcc0_scratch5 : 2 + S_.numel ≤ 44
  hcc0_scratch6 : 3 + S_.numel ≤ 44
  hcc0_scoped0 : 4 + S_.numel ≤ 44
  hcc0_scoped1 : 5 + S_.numel ≤ 44
  hcc1_scratch3 : 6 + S_.numel ≤ 44
  hcc1_scratch4 : 7 + S_.numel ≤ 44
  hcc1_scratch5 : 8 + S_.numel ≤ 44
  hcc1_scratch6 : 9 + S_.numel ≤ 44
  hcc1_scoped0 : 10 + S_.numel ≤ 44
  hcc1_scoped1 : 11 + S_.numel ≤ 44
  hcc2_scratch3 : 12 + S_.numel ≤ 44
  hcc2_scratch4 : 13 + S_.numel ≤ 44
  hcc2_scratch5 : 14 + S_.numel ≤ 44
  hcc2_scratch6 : 15 + S_.numel ≤ 44
  hcc2_scoped0 : 16 + S_.numel ≤ 44
  hcc2_scoped1 : 17 + S_.numel ≤ 44
  hcc3_scratch3 : 18 + S_.numel ≤ 44
  hcc3_scratch4 : 19 + S_.numel ≤ 44
  hcc3_scratch5 : 20 + S_.numel ≤ 44
  hcc3_scratch6 : 21 + S_.numel ≤ 44
  hcc3_scoped0 : 22 + S_.numel ≤ 44
  hcc3_scoped1 : 23 + S_.numel ≤ 44
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x128.size a ≤ S32x128.size a
  k0_off2_inb : ∀ i : grid0.Coords, ∀ a, (k0_off2 i) a + S128x128.size a ≤ S4096x128.size a
  hcore1 : grid1.bound 0 ≤ τ.nSC
  hsub1 : grid1.bound 1 ≤ τ.nSub
  k1_off1_inb : ∀ i : grid1.Coords, ∀ a, (k1_off1 i) a + S1x128.size a ≤ S32x128.size a
  k1_off2_inb : ∀ i : grid1.Coords, ∀ a, (k1_off2 i) a + S128x128.size a ≤ S4096x128.size a
  hcore2 : grid2.bound 0 ≤ τ.nSC
  hsub2 : grid2.bound 1 ≤ τ.nSub
  k2_off1_inb : ∀ i : grid2.Coords, ∀ a, (k2_off1 i) a + S1x128.size a ≤ S32x128.size a
  k2_off2_inb : ∀ i : grid2.Coords, ∀ a, (k2_off2 i) a + S128x128.size a ≤ S4096x128.size a
  hcore3 : grid3.bound 0 ≤ τ.nSC
  hsub3 : grid3.bound 1 ≤ τ.nSub
  k3_off1_inb : ∀ i : grid3.Coords, ∀ a, (k3_off1 i) a + S1x128.size a ≤ S32x128.size a
  k3_off2_inb : ∀ i : grid3.Coords, ∀ a, (k3_off2 i) a + S128x128.size a ≤ S4096x128.size a
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S4096x128.size a
  hwx4_0 : ∀ i : grid4.Coords, EltTy.bits .f32 = 32 ∨ (Rect.block (s := S4096x128) S4096x128.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S4096x128.size a
  hwx4_1 : ∀ i : grid4.Coords, EltTy.bits .f32 = 32 ∨ (Rect.block (s := S4096x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 1
  hreads4_4 : ∀ i i' : grid4.Coords, (∀ a, reads4_4 a = true → i a = i' a) → cc4_transform_4 i = cc4_transform_4 i'
  hinb4_4 : ∀ (i : grid4.Coords) a, (cc4_transform_4 i a + 1) * S4096x128.size a ≤ S16384x128.size a
  hwx4_4 : ∀ i : grid4.Coords, EltTy.bits .f32 = 32 ∨ (Rect.block (s := S16384x128) S4096x128.size (cc4_transform_4 i) (hinb4_4 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S4096x128.size a ≤ S4096x128.size a
  hwx5_0 : ∀ i : grid5.Coords, EltTy.bits .f32 = 32 ∨ (Rect.block (s := S4096x128) S4096x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S4096x128.size a
  hwx5_1 : ∀ i : grid5.Coords, EltTy.bits .f32 = 32 ∨ (Rect.block (s := S4096x128) S4096x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S256x128.size a
  hwx5_2 : ∀ i : grid5.Coords, EltTy.bits .f32 = 32 ∨ (Rect.block (s := S256x128) S256x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_5 i = cc5_transform_5 i'
  hinb5_4 : ∀ (i : grid5.Coords) a, (cc5_transform_5 i a + 1) * S4096x128.size a ≤ S16384x128.size a
  hwx5_4 : ∀ i : grid5.Coords, EltTy.bits .f32 = 32 ∨ (Rect.block (s := S16384x128) S4096x128.size (cc5_transform_5 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S4096x128.size a ≤ S4096x128.size a
  hwx6_0 : ∀ i : grid6.Coords, EltTy.bits .f32 = 32 ∨ (Rect.block (s := S4096x128) S4096x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S4096x128.size a ≤ S4096x128.size a
  hwx6_1 : ∀ i : grid6.Coords, EltTy.bits .f32 = 32 ∨ (Rect.block (s := S4096x128) S4096x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 1
  hreads6_4 : ∀ i i' : grid6.Coords, (∀ a, reads6_4 a = true → i a = i' a) → cc6_transform_5 i = cc6_transform_5 i'
  hinb6_4 : ∀ (i : grid6.Coords) a, (cc6_transform_5 i a + 1) * S4096x128.size a ≤ S16384x128.size a
  hwx6_4 : ∀ i : grid6.Coords, EltTy.bits .f32 = 32 ∨ (Rect.block (s := S16384x128) S4096x128.size (cc6_transform_5 i) (hinb6_4 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4096x128.size a ≤ S4096x128.size a
  hwx7_0 : ∀ i : grid7.Coords, EltTy.bits .f32 = 32 ∨ (Rect.block (s := S4096x128) S4096x128.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S4096x128.size a ≤ S4096x128.size a
  hwx7_1 : ∀ i : grid7.Coords, EltTy.bits .f32 = 32 ∨ (Rect.block (s := S4096x128) S4096x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 1
  hreads7_4 : ∀ i i' : grid7.Coords, (∀ a, reads7_4 a = true → i a = i' a) → cc7_transform_5 i = cc7_transform_5 i'
  hinb7_4 : ∀ (i : grid7.Coords) a, (cc7_transform_5 i a + 1) * S4096x128.size a ≤ S16384x128.size a
  hwx7_4 : ∀ i : grid7.Coords, EltTy.bits .f32 = 32 ∨ (Rect.block (s := S16384x128) S4096x128.size (cc7_transform_5 i) (hinb7_4 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0
abbrev cc0_scoped1 : DmaSems sig S_ := SemArray.consecutive 5 S_ hcc0_scoped1
abbrev cc1_scratch3 : DmaSems sig S_ := SemArray.consecutive 6 S_ hcc1_scratch3
abbrev cc1_scratch4 : DmaSems sig S_ := SemArray.consecutive 7 S_ hcc1_scratch4
abbrev cc1_scratch5 : DmaSems sig S_ := SemArray.consecutive 8 S_ hcc1_scratch5
abbrev cc1_scratch6 : DmaSems sig S_ := SemArray.consecutive 9 S_ hcc1_scratch6
abbrev cc1_scoped0 : DmaSems sig S_ := SemArray.consecutive 10 S_ hcc1_scoped0
abbrev cc1_scoped1 : DmaSems sig S_ := SemArray.consecutive 11 S_ hcc1_scoped1
abbrev cc2_scratch3 : DmaSems sig S_ := SemArray.consecutive 12 S_ hcc2_scratch3
abbrev cc2_scratch4 : DmaSems sig S_ := SemArray.consecutive 13 S_ hcc2_scratch4
abbrev cc2_scratch5 : DmaSems sig S_ := SemArray.consecutive 14 S_ hcc2_scratch5
abbrev cc2_scratch6 : DmaSems sig S_ := SemArray.consecutive 15 S_ hcc2_scratch6
abbrev cc2_scoped0 : DmaSems sig S_ := SemArray.consecutive 16 S_ hcc2_scoped0
abbrev cc2_scoped1 : DmaSems sig S_ := SemArray.consecutive 17 S_ hcc2_scoped1
abbrev cc3_scratch3 : DmaSems sig S_ := SemArray.consecutive 18 S_ hcc3_scratch3
abbrev cc3_scratch4 : DmaSems sig S_ := SemArray.consecutive 19 S_ hcc3_scratch4
abbrev cc3_scratch5 : DmaSems sig S_ := SemArray.consecutive 20 S_ hcc3_scratch5
abbrev cc3_scratch6 : DmaSems sig S_ := SemArray.consecutive 21 S_ hcc3_scratch6
abbrev cc3_scoped0 : DmaSems sig S_ := SemArray.consecutive 22 S_ hcc3_scoped0
abbrev cc3_scoped1 : DmaSems sig S_ := SemArray.consecutive 23 S_ hcc3_scoped1
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win4_0 : Pipeline.Window sig grid4 :=
  Pipeline.Window.ofSpec (Memref.whole main_v5_0) S4096x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v5_1) S4096x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v2) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S4096x128.size cc4_transform_4 reads4_4 true false 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v8_0) S4096x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v8_1) S4096x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S256x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v2) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v16) S4096x128.size cc5_transform_5 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v11_0) S4096x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v11_1) S4096x128.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_arg4) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v2) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v17) S4096x128.size cc6_transform_5 reads6_4 true false 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v14_0) S4096x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v14_1) S4096x128.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S256x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v2) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v18) S4096x128.size cc7_transform_5 reads7_4 true false 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x256 : Shape := ⟨2, ![16384, 256]⟩
abbrev S1x128 : Shape := ⟨2, ![1, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x128, .f32⟩
  | .hbm, ⟨48, _⟩ => ⟨S16384x128, .i1⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384x256, .f32⟩
  | .hbm, ⟨53, _⟩ => ⟨S16384x128, .f32⟩
  | .hbm, ⟨54, _⟩ => ⟨S1x128, .f32⟩
  | .hbm, ⟨55, _⟩ => ⟨S16384x128, .f32⟩
  | .hbm, ⟨56, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  gather_S100000x128_S16384x1_S16384x128_1_0_n_n_0_1_1128_wf : GatherDims.WF S100000x128 S16384x1 S16384x128 [1] [0] [] [0] [] 1 ![1, 128]
  dot_S16384x256_S256x128_S16384x128_1_0_0_1_n_n_wf : DotDims.WF S16384x256 S256x128 S16384x128 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Spec.lean ====
/-
  The function both programs compute, stated once over plain arrays and explicit coordinates.

  Row `r` of the result is the affine image of the concatenation of two looked-up rows: with `t0 = tok0 r` and
  `t1 = tok1 r` the two tokens of batch entry `r`,
      out[r, n] = (∑ k < 128, tab0[t0, k] · W[k, n]  +  ∑ k < 128, tab1[t1, k] · W[128 + k, n])  +  b[n]
  on the extended reals. The first sum is the contribution of the first table's row through the upper half of `W`, the
  second that of the second table's row through the lower half. A token names its row by its value as a natural number;
  `rowOf` reduces it modulo the table's height only so that the function is total — where the token is below the
  height (which the precondition says of every token) the row is the token itself (`rowOf_of_lt`).
-/
import Idealize.ShloMosaic.PureOps.Ideal
import Idealize.ShloMosaic.Lib.ValueIdx

noncomputable section

open scoped BigOperators

namespace Cert.Spec

open Idealize.ShloMosaic Idealize.ShloMosaic.ValueIdx

abbrev STok : Shape := ⟨1, ![16384]⟩
abbrev STab : Shape := ⟨2, ![100000, 128]⟩
abbrev SW : Shape := ⟨2, ![256, 128]⟩
abbrev SB : Shape := ⟨1, ![128]⟩
abbrev SOut : Shape := ⟨2, ![16384, 128]⟩

/-- The table row a token names. -/
def rowOf (t : BitVec 32) : Fin 100000 := ⟨t.toNat % 100000, Nat.mod_lt _ (by decide)⟩

theorem rowOf_of_lt {t : BitVec 32} (h : t.toNat < 100000) : (rowOf t).val = t.toNat := Nat.mod_eq_of_lt h

/-- Row `k` of the upper half of `W`, and of its lower half. -/
def upper (k : Fin 128) : Fin 256 := ⟨k.val, by omega⟩
def lower (k : Fin 128) : Fin 256 := ⟨128 + k.val, by omega⟩

/-- The result at row `r`, column `n`. -/
def at' (tok0 tok1 : STok.Idx → BitVec 32) (tab0 tab1 : STab.Idx → EReal) (W : SW.Idx → EReal) (b : SB.Idx → EReal)
    (r : Fin 16384) (n : Fin 128) : EReal :=
  ((∑ k : Fin 128, tab0 (ix2 (rowOf (tok0 (ix1 r))) k) * W (ix2 (upper k) n))
    + (∑ k : Fin 128, tab1 (ix2 (rowOf (tok1 (ix1 r))) k) * W (ix2 (lower k) n)))
  + b (ix1 n)

/-- The whole result array. -/
def G (tok0 tok1 : STok.Idx → BitVec 32) (tab0 tab1 : STab.Idx → EReal) (W : SW.Idx → EReal) (b : SB.Idx → EReal) :
    SOut.Idx → EReal :=
  fun j => at' tok0 tok1 tab0 tab1 W b (j 0) (j 1)

theorem G_apply (tok0 tok1 : STok.Idx → BitVec 32) (tab0 tab1 : STab.Idx → EReal) (W : SW.Idx → EReal) (b : SB.Idx → EReal)
    (r : Fin 16384) (n : Fin 128) : G tok0 tok1 tab0 tab1 W b (ix2 r n) = at' tok0 tok1 tab0 tab1 W b r n := rfl

end Cert.Spec

end
-- ==== Proof.Common.lean ====
/-
  The idealized kernel's program as the launch theorem for programs with SparseCore kernels reads it, and the ghost
  state every module of this proof shares.

  The program is @main on the TensorCore — four calls of a row-gather kernel on the vector subcores, then four
  matrix-product kernel regions on the TensorCore — beside the fixed programs of the two sequencers and thirty-two
  vector subcores. Its threads synchronise only through the four launch handshakes; every copy a vector subcore makes is
  local to it and waited for on a semaphore of its own, so the kernels need no schedule of their own: the ghost state is
  the handshakes' rounds, beside the rounds of the TensorCore regions' staging cells and a copy of the transfers'
  counters.
-/
import proofs.«204601_g21792664060648_cont_8to1_111_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«204601_g21792664060648_cont_8to1_111_20_alg».proof.Proof.Gen.KernelIdeal
import proofs.«204601_g21792664060648_cont_8to1_111_20_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

/-- The handshakes' rounds, the left factor. -/
abbrev EH : Emb UH (MT nD τ sig (HIx 4) (Elt F) ℕ UU ℕ) := embL
/-- The staging cells' rounds, the middle factor. -/
def EP : Emb UP (MT nD τ sig (HIx 4) (Elt F) ℕ UU ℕ) :=
  (Emb.inl : Emb UP (UP × Counters)).trans (embR : Emb (UP × Counters) (MT nD τ sig (HIx 4) (Elt F) ℕ UU ℕ))

instance EP_landsIn : (EP : Emb UP 𝕄).LandsIn (upEmb : UEmb _ 𝕄) := by unfold EP embR; infer_instance

end Cert.Proof.KI

end
-- ==== Proof.TileRes.lean ====
/-
  The resources of one vector subcore's task in the row-gather kernel, and the value the task leaves.

  Tile `w = 2·subcore + core` of the 32 reads row `w` of each of two 32×128 token arrays, looks up in each of two
  100000×128 tables the 128 rows those tokens name, and writes them to rows `[128w, 128w + 128)` of each of two
  4096×128 result arrays. So row `y` of a result is the table's row named by token `(y / 128, y % 128)` of the token
  array: `gathered`, one function of the whole arrays, of which each tile writes its own block.
-/
import proofs.«204601_g21792664060648_cont_8to1_111_20_alg».proof.Proof.Spec
import proofs.«204601_g21792664060648_cont_8to1_111_20_alg».proof.Proof.Common

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The value -/

/-- Row `y` of a gathered array: the table's row named by token `(y / 128, y % 128)`. -/
def gathered (i : S32x128.Idx → BitVec 32) (t : S100000x128.Idx → Elt F .f32) : S4096x128.Idx → Elt F .f32 :=
  fun y => t (ix2 (Cert.Spec.rowOf (i (ix2 (⟨(y 0).val / 128, Nat.div_lt_of_lt_mul (y 0).isLt⟩ : Fin 32) (⟨(y 0).val % 128, Nat.mod_lt _ (by decide)⟩ : Fin 128)))) (y 1))

/-! ## Call 0: the tile, its slices, what it is handed and what it hands back -/

/-- The SparseCore and the vector subcore of the tile at grid coordinates `L`. -/
abbrev cV (L : grid0.Coords) : Fin τ.nSC := (L 0).castLE hcore0
abbrev jV (L : grid0.Coords) : Fin τ.nSub := (L 1).castLE hsub0

/-- The tile's row of the first and of the second token array, and its block of the first and of the second result,
    as the body slices them. -/
abbrev rowA0 (L : grid0.Coords) : Memref sig .scVector .hbm S1x128 .i32 :=
  (Memref.whole main_v3_scv).slice (Rect.unit (s := S32x128) (k0_off1 L) S1x128.size (k0_off1_inb L)) (fun _ => rfl)
abbrev rowB0 (L : grid0.Coords) : Memref sig .scVector .hbm S1x128 .i32 :=
  (Memref.whole main_v4_scv).slice (Rect.unit (s := S32x128) (k0_off1 L) S1x128.size (k0_off1_inb L)) (fun _ => rfl)
abbrev blkA0 (L : grid0.Coords) : Memref sig .scVector .hbm S128x128 .f32 :=
  (Memref.whole main_v5_0_scv).slice (Rect.unit (s := S4096x128) (k0_off2 L) S128x128.size (k0_off2_inb L)) (fun _ => rfl)
abbrev blkB0 (L : grid0.Coords) : Memref sig .scVector .hbm S128x128 .f32 :=
  (Memref.whole main_v5_1_scv).slice (Rect.unit (s := S4096x128) (k0_off2 L) S128x128.size (k0_off2_inb L)) (fun _ => rfl)

/-- The arrays in HBM, as the TensorCore names them: the two token arrays, the two tables, the two results. -/
abbrev tokA0 (d : Dev nD) : Loc nD τ sig := (SparseCore.T d).loc main_v3
abbrev tokB0 (d : Dev nD) : Loc nD τ sig := (SparseCore.T d).loc main_v4
abbrev tabA (d : Dev nD) : Loc nD τ sig := (SparseCore.T d).loc main_arg2
abbrev tabB (d : Dev nD) : Loc nD τ sig := (SparseCore.T d).loc main_arg3
abbrev outA0 (d : Dev nD) : Loc nD τ sig := (SparseCore.T d).loc main_v5_0
abbrev outB0 (d : Dev nD) : Loc nD τ sig := (SparseCore.T d).loc main_v5_1

variable (d : Dev nD) (L : grid0.Coords) (sh : PosShare TreeShare)
  (i0 i1 : S32x128.Idx → BitVec 32) (t0 t1 : S100000x128.Idx → Elt F .f32)

/-- What the tile is handed: its row of each token array, a read share of each table whole, its block of each result
    at some contents. -/
def goRes0 : sProp 𝕄 :=
  iprop((tokA0 d ↦[(rowA0 L).view.set]{fullShare} i0)
    ∗ (tokB0 d ↦[(rowB0 L).view.set]{fullShare} i1)
    ∗ (tabA d ↦{sh} (t0 : Buf (Elt F) (tabA d)))
    ∗ (tabB d ↦{sh} (t1 : Buf (Elt F) (tabB d)))
    ∗ (∃ f, outA0 d ↦[(blkA0 L).view.set]{fullShare} f)
    ∗ (∃ f, outB0 d ↦[(blkB0 L).view.set]{fullShare} f))

/-- What the tile hands back: the same, its two blocks now at the gathered arrays. -/
def tdRes0 : sProp 𝕄 :=
  iprop((tokA0 d ↦[(rowA0 L).view.set]{fullShare} i0)
    ∗ (tokB0 d ↦[(rowB0 L).view.set]{fullShare} i1)
    ∗ (tabA d ↦{sh} (t0 : Buf (Elt F) (tabA d)))
    ∗ (tabB d ↦{sh} (t1 : Buf (Elt F) (tabB d)))
    ∗ (outA0 d ↦[(blkA0 L).view.set]{fullShare} gathered i0 t0)
    ∗ (outB0 d ↦[(blkB0 L).view.set]{fullShare} gathered i1 t1))

end Cert.Proof.KI

end
-- ==== Proof.TileRes1.lean ====
/-
  The resources of one vector subcore's task in call 1 of the row-gather kernel: the same as call 0's, over this
  call's token slices and result arrays (the tables, and the gathered value, are the same).
-/
import proofs.«204601_g21792664060648_cont_8to1_111_20_alg».proof.Proof.TileRes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 1: the tile, its slices, what it is handed and what it hands back -/

/-- The SparseCore and the vector subcore of the tile at grid coordinates `L`. -/
abbrev cV1 (L : grid1.Coords) : Fin τ.nSC := (L 0).castLE hcore1
abbrev jV1 (L : grid1.Coords) : Fin τ.nSub := (L 1).castLE hsub1

/-- The tile's row of the first and of the second token array, and its block of the first and of the second result,
    as the body slices them. -/
abbrev rowA1 (L : grid1.Coords) : Memref sig .scVector .hbm S1x128 .i32 :=
  (Memref.whole main_v6_scv).slice (Rect.unit (s := S32x128) (k1_off1 L) S1x128.size (k1_off1_inb L)) (fun _ => rfl)
abbrev rowB1 (L : grid1.Coords) : Memref sig .scVector .hbm S1x128 .i32 :=
  (Memref.whole main_v7_scv).slice (Rect.unit (s := S32x128) (k1_off1 L) S1x128.size (k1_off1_inb L)) (fun _ => rfl)
abbrev blkA1 (L : grid1.Coords) : Memref sig .scVector .hbm S128x128 .f32 :=
  (Memref.whole main_v8_0_scv).slice (Rect.unit (s := S4096x128) (k1_off2 L) S128x128.size (k1_off2_inb L)) (fun _ => rfl)
abbrev blkB1 (L : grid1.Coords) : Memref sig .scVector .hbm S128x128 .f32 :=
  (Memref.whole main_v8_1_scv).slice (Rect.unit (s := S4096x128) (k1_off2 L) S128x128.size (k1_off2_inb L)) (fun _ => rfl)

/-- The arrays in HBM, as the TensorCore names them: the two token arrays, the two tables, the two results. -/
abbrev tokA1 (d : Dev nD) : Loc nD τ sig := (SparseCore.T d).loc main_v6
abbrev tokB1 (d : Dev nD) : Loc nD τ sig := (SparseCore.T d).loc main_v7
abbrev outA1 (d : Dev nD) : Loc nD τ sig := (SparseCore.T d).loc main_v8_0
abbrev outB1 (d : Dev nD) : Loc nD τ sig := (SparseCore.T d).loc main_v8_1

variable (d : Dev nD) (L : grid1.Coords) (sh : PosShare TreeShare)
  (i0 i1 : S32x128.Idx → BitVec 32) (t0 t1 : S100000x128.Idx → Elt F .f32)

/-- What the tile is handed: its row of each token array, a read share of each table whole, its block of each result
    at some contents. -/
def goRes1 : sProp 𝕄 :=
  iprop((tokA1 d ↦[(rowA1 L).view.set]{fullShare} i0)
    ∗ (tokB1 d ↦[(rowB1 L).view.set]{fullShare} i1)
    ∗ (tabA d ↦{sh} (t0 : Buf (Elt F) (tabA d)))
    ∗ (tabB d ↦{sh} (t1 : Buf (Elt F) (tabB d)))
    ∗ (∃ f, outA1 d ↦[(blkA1 L).view.set]{fullShare} f)
    ∗ (∃ f, outB1 d ↦[(blkB1 L).view.set]{fullShare} f))

/-- What the tile hands back: the same, its two blocks now at the gathered arrays. -/
def tdRes1 : sProp 𝕄 :=
  iprop((tokA1 d ↦[(rowA1 L).view.set]{fullShare} i0)
    ∗ (tokB1 d ↦[(rowB1 L).view.set]{fullShare} i1)
    ∗ (tabA d ↦{sh} (t0 : Buf (Elt F) (tabA d)))
    ∗ (tabB d ↦{sh} (t1 : Buf (Elt F) (tabB d)))
    ∗ (outA1 d ↦[(blkA1 L).view.set]{fullShare} gathered i0 t0)
    ∗ (outB1 d ↦[(blkB1 L).view.set]{fullShare} gathered i1 t1))

end Cert.Proof.KI

end
-- ==== Proof.TileRes2.lean ====
/-
  The resources of one vector subcore's task in call 2 of the row-gather kernel: the same as call 0's, over this
  call's token slices and result arrays (the tables, and the gathered value, are the same).
-/
import proofs.«204601_g21792664060648_cont_8to1_111_20_alg».proof.Proof.TileRes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 2: the tile, its slices, what it is handed and what it hands back -/

/-- The SparseCore and the vector subcore of the tile at grid coordinates `L`. -/
abbrev cV2 (L : grid2.Coords) : Fin τ.nSC := (L 0).castLE hcore2
abbrev jV2 (L : grid2.Coords) : Fin τ.nSub := (L 1).castLE hsub2

/-- The tile's row of the first and of the second token array, and its block of the first and of the second result,
    as the body slices them. -/
abbrev rowA2 (L : grid2.Coords) : Memref sig .scVector .hbm S1x128 .i32 :=
  (Memref.whole main_v9_scv).slice (Rect.unit (s := S32x128) (k2_off1 L) S1x128.size (k2_off1_inb L)) (fun _ => rfl)
abbrev rowB2 (L : grid2.Coords) : Memref sig .scVector .hbm S1x128 .i32 :=
  (Memref.whole main_v10_scv).slice (Rect.unit (s := S32x128) (k2_off1 L) S1x128.size (k2_off1_inb L)) (fun _ => rfl)
abbrev blkA2 (L : grid2.Coords) : Memref sig .scVector .hbm S128x128 .f32 :=
  (Memref.whole main_v11_0_scv).slice (Rect.unit (s := S4096x128) (k2_off2 L) S128x128.size (k2_off2_inb L)) (fun _ => rfl)
abbrev blkB2 (L : grid2.Coords) : Memref sig .scVector .hbm S128x128 .f32 :=
  (Memref.whole main_v11_1_scv).slice (Rect.unit (s := S4096x128) (k2_off2 L) S128x128.size (k2_off2_inb L)) (fun _ => rfl)

/-- The arrays in HBM, as the TensorCore names them: the two token arrays, the two tables, the two results. -/
abbrev tokA2 (d : Dev nD) : Loc nD τ sig := (SparseCore.T d).loc main_v9
abbrev tokB2 (d : Dev nD) : Loc nD τ sig := (SparseCore.T d).loc main_v10
abbrev outA2 (d : Dev nD) : Loc nD τ sig := (SparseCore.T d).loc main_v11_0
abbrev outB2 (d : Dev nD) : Loc nD τ sig := (SparseCore.T d).loc main_v11_1

variable (d : Dev nD) (L : grid2.Coords) (sh : PosShare TreeShare)
  (i0 i1 : S32x128.Idx → BitVec 32) (t0 t1 : S100000x128.Idx → Elt F .f32)

/-- What the tile is handed: its row of each token array, a read share of each table whole, its block of each result
    at some contents. -/
def goRes2 : sProp 𝕄 :=
  iprop((tokA2 d ↦[(rowA2 L).view.set]{fullShare} i0)
    ∗ (tokB2 d ↦[(rowB2 L).view.set]{fullShare} i1)
    ∗ (tabA d ↦{sh} (t0 : Buf (Elt F) (tabA d)))
    ∗ (tabB d ↦{sh} (t1 : Buf (Elt F) (tabB d)))
    ∗ (∃ f, outA2 d ↦[(blkA2 L).view.set]{fullShare} f)
    ∗ (∃ f, outB2 d ↦[(blkB2 L).view.set]{fullShare} f))

/-- What the tile hands back: the same, its two blocks now at the gathered arrays. -/
def tdRes2 : sProp 𝕄 :=
  iprop((tokA2 d ↦[(rowA2 L).view.set]{fullShare} i0)
    ∗ (tokB2 d ↦[(rowB2 L).view.set]{fullShare} i1)
    ∗ (tabA d ↦{sh} (t0 : Buf (Elt F) (tabA d)))
    ∗ (tabB d ↦{sh} (t1 : Buf (Elt F) (tabB d)))
    ∗ (outA2 d ↦[(blkA2 L).view.set]{fullShare} gathered i0 t0)
    ∗ (outB2 d ↦[(blkB2 L).view.set]{fullShare} gathered i1 t1))

end Cert.Proof.KI

end
-- ==== Proof.TileRes3.lean ====
/-
  The resources of one vector subcore's task in call 3 of the row-gather kernel: the same as call 0's, over this
  call's token slices and result arrays (the tables, and the gathered value, are the same).
-/
import proofs.«204601_g21792664060648_cont_8to1_111_20_alg».proof.Proof.TileRes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 3: the tile, its slices, what it is handed and what it hands back -/

/-- The SparseCore and the vector subcore of the tile at grid coordinates `L`. -/
abbrev cV3 (L : grid3.Coords) : Fin τ.nSC := (L 0).castLE hcore3
abbrev jV3 (L : grid3.Coords) : Fin τ.nSub := (L 1).castLE hsub3

/-- The tile's row of the first and of the second token array, and its block of the first and of the second result,
    as the body slices them. -/
abbrev rowA3 (L : grid3.Coords) : Memref sig .scVector .hbm S1x128 .i32 :=
  (Memref.whole main_v12_scv).slice (Rect.unit (s := S32x128) (k3_off1 L) S1x128.size (k3_off1_inb L)) (fun _ => rfl)
abbrev rowB3 (L : grid3.Coords) : Memref sig .scVector .hbm S1x128 .i32 :=
  (Memref.whole main_v13_scv).slice (Rect.unit (s := S32x128) (k3_off1 L) S1x128.size (k3_off1_inb L)) (fun _ => rfl)
abbrev blkA3 (L : grid3.Coords) : Memref sig .scVector .hbm S128x128 .f32 :=
  (Memref.whole main_v14_0_scv).slice (Rect.unit (s := S4096x128) (k3_off2 L) S128x128.size (k3_off2_inb L)) (fun _ => rfl)
abbrev blkB3 (L : grid3.Coords) : Memref sig .scVector .hbm S128x128 .f32 :=
  (Memref.whole main_v14_1_scv).slice (Rect.unit (s := S4096x128) (k3_off2 L) S128x128.size (k3_off2_inb L)) (fun _ => rfl)

/-- The arrays in HBM, as the TensorCore names them: the two token arrays, the two tables, the two results. -/
abbrev tokA3 (d : Dev nD) : Loc nD τ sig := (SparseCore.T d).loc main_v12
abbrev tokB3 (d : Dev nD) : Loc nD τ sig := (SparseCore.T d).loc main_v13
abbrev outA3 (d : Dev nD) : Loc nD τ sig := (SparseCore.T d).loc main_v14_0
abbrev outB3 (d : Dev nD) : Loc nD τ sig := (SparseCore.T d).loc main_v14_1

variable (d : Dev nD) (L : grid3.Coords) (sh : PosShare TreeShare)
  (i0 i1 : S32x128.Idx → BitVec 32) (t0 t1 : S100000x128.Idx → Elt F .f32)

/-- What the tile is handed: its row of each token array, a read share of each table whole, its block of each result
    at some contents. -/
def goRes3 : sProp 𝕄 :=
  iprop((tokA3 d ↦[(rowA3 L).view.set]{fullShare} i0)
    ∗ (tokB3 d ↦[(rowB3 L).view.set]{fullShare} i1)
    ∗ (tabA d ↦{sh} (t0 : Buf (Elt F) (tabA d)))
    ∗ (tabB d ↦{sh} (t1 : Buf (Elt F) (tabB d)))
    ∗ (∃ f, outA3 d ↦[(blkA3 L).view.set]{fullShare} f)
    ∗ (∃ f, outB3 d ↦[(blkB3 L).view.set]{fullShare} f))

/-- What the tile hands back: the same, its two blocks now at the gathered arrays. -/
def tdRes3 : sProp 𝕄 :=
  iprop((tokA3 d ↦[(rowA3 L).view.set]{fullShare} i0)
    ∗ (tokB3 d ↦[(rowB3 L).view.set]{fullShare} i1)
    ∗ (tabA d ↦{sh} (t0 : Buf (Elt F) (tabA d)))
    ∗ (tabB d ↦{sh} (t1 : Buf (Elt F) (tabB d)))
    ∗ (outA3 d ↦[(blkA3 L).view.set]{fullShare} gathered i0 t0)
    ∗ (outB3 d ↦[(blkB3 L).view.set]{fullShare} gathered i1 t1))

end Cert.Proof.KI

end
-- ==== Proof.Pay.lean ====
/-
  What the four launch handshakes carry for the four row-gather calls.

  When call `q` runs, its two token arrays hold rows `[32q, 32q + 32)` of the two token inputs reshaped to 128 × 128:
  `tokA q`, `tokB q`, functions of the launch memory. The TensorCore hands SparseCore `c` the resources of its sixteen
  tiles — tile `i` of SparseCore `c` works on token row `2i + c` and result rows `[128(2i + c), 128(2i + c) + 128)`
  and reads both tables through a read share of its own (the full share split in two, one part per SparseCore, each part
  in sixteen) — and takes back the same with the tiles' result blocks at the gathered arrays. A SparseCore's operands are
  its tiles' by definition, so the split of a call's operands among its tasks is the identity.
-/
import proofs.«204601_g21792664060648_cont_8to1_111_20_alg».proof.Proof.TileRes1
import proofs.«204601_g21792664060648_cont_8to1_111_20_alg».proof.Proof.TileRes2
import proofs.«204601_g21792664060648_cont_8to1_111_20_alg».proof.Proof.TileRes3

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ)

/-! ## The token arrays each call sees, and the tables -/

/-- The two token inputs reshaped to 128 × 128. -/
def tokSqA (d : Dev nD) : S128x128.Idx → BitVec 32 := shapeCast S128x128 (m ((SparseCore.T d).loc main_arg0)) shapeCasts_S16384_S128x128
def tokSqB (d : Dev nD) : S128x128.Idx → BitVec 32 := shapeCast S128x128 (m ((SparseCore.T d).loc main_arg1)) shapeCasts_S16384_S128x128

/-- Rows `[32q, 32q + 32)` of them: what call `q`'s token arrays hold. -/
def tokA (d : Dev nD) : Fin 4 → S32x128.Idx → BitVec 32
  | 0 => extractStridedSlice S32x128 ![0, 0] (tokSqA m d) slices_S128x128_S32x128_0_0
  | 1 => extractStridedSlice S32x128 ![32, 0] (tokSqA m d) slices_S128x128_S32x128_32_0
  | 2 => extractStridedSlice S32x128 ![64, 0] (tokSqA m d) slices_S128x128_S32x128_64_0
  | 3 => extractStridedSlice S32x128 ![96, 0] (tokSqA m d) slices_S128x128_S32x128_96_0
def tokB (d : Dev nD) : Fin 4 → S32x128.Idx → BitVec 32
  | 0 => extractStridedSlice S32x128 ![0, 0] (tokSqB m d) slices_S128x128_S32x128_0_0
  | 1 => extractStridedSlice S32x128 ![32, 0] (tokSqB m d) slices_S128x128_S32x128_32_0
  | 2 => extractStridedSlice S32x128 ![64, 0] (tokSqB m d) slices_S128x128_S32x128_64_0
  | 3 => extractStridedSlice S32x128 ![96, 0] (tokSqB m d) slices_S128x128_S32x128_96_0

/-- The two tables, at their launch contents throughout. -/
abbrev tblA (d : Dev nD) : S100000x128.Idx → Elt F .f32 := m (tabA d)
abbrev tblB (d : Dev nD) : S100000x128.Idx → Elt F .f32 := m (tabB d)

/-! ## Tiles -/

/-- The read share of tile `i` of SparseCore `c`. -/
def shT (c : Fin 2) (i : Fin 16) : PosShare TreeShare := Transfers.shareTok (Transfers.shareTok fullShare 2 c) 16 i

/-- Grid coordinates of tile `i` of SparseCore `c`, in each call's grid. -/
def co0 (c : Fin 2) (i : Fin 16) : grid0.Coords := fun | 0 => c | 1 => i | ⟨_ + 2, h⟩ => absurd h (Nat.not_lt.2 (Nat.le_add_left _ _))
def co1 (c : Fin 2) (i : Fin 16) : grid1.Coords := fun | 0 => c | 1 => i | ⟨_ + 2, h⟩ => absurd h (Nat.not_lt.2 (Nat.le_add_left _ _))
def co2 (c : Fin 2) (i : Fin 16) : grid2.Coords := fun | 0 => c | 1 => i | ⟨_ + 2, h⟩ => absurd h (Nat.not_lt.2 (Nat.le_add_left _ _))
def co3 (c : Fin 2) (i : Fin 16) : grid3.Coords := fun | 0 => c | 1 => i | ⟨_ + 2, h⟩ => absurd h (Nat.not_lt.2 (Nat.le_add_left _ _))

variable [FloatOps F]

/-- What tile `(c, i)` is handed at call `q`, and what it hands back. -/
def goAt (d : Dev nD) (c : Fin 2) (i : Fin 16) : Fin 4 → sProp 𝕄
  | 0 => goRes0 d (co0 c i) (shT c i) (tokA m d 0) (tokB m d 0) (tblA m d) (tblB m d)
  | 1 => goRes1 d (co1 c i) (shT c i) (tokA m d 1) (tokB m d 1) (tblA m d) (tblB m d)
  | 2 => goRes2 d (co2 c i) (shT c i) (tokA m d 2) (tokB m d 2) (tblA m d) (tblB m d)
  | 3 => goRes3 d (co3 c i) (shT c i) (tokA m d 3) (tokB m d 3) (tblA m d) (tblB m d)
def tdAt (d : Dev nD) (c : Fin 2) (i : Fin 16) : Fin 4 → sProp 𝕄
  | 0 => tdRes0 d (co0 c i) (shT c i) (tokA m d 0) (tokB m d 0) (tblA m d) (tblB m d)
  | 1 => tdRes1 d (co1 c i) (shT c i) (tokA m d 1) (tokB m d 1) (tblA m d) (tblB m d)
  | 2 => tdRes2 d (co2 c i) (shT c i) (tokA m d 2) (tokB m d 2) (tblA m d) (tblB m d)
  | 3 => tdRes3 d (co3 c i) (shT c i) (tokA m d 3) (tokB m d 3) (tblA m d) (tblB m d)

instance goAt_storable (d : Dev nD) (c : Fin 2) (i : Fin 16) (q : Fin 4) : BI.Storable (upEmb : UEmb _ 𝕄) (goAt m d c i q) := by
  match q with
  | 0 => unfold goAt goRes0; infer_instance
  | 1 => unfold goAt goRes1; infer_instance
  | 2 => unfold goAt goRes2; infer_instance
  | 3 => unfold goAt goRes3; infer_instance
instance tdAt_storable (d : Dev nD) (c : Fin 2) (i : Fin 16) (q : Fin 4) : BI.Storable (upEmb : UEmb _ 𝕄) (tdAt m d c i q) := by
  match q with
  | 0 => unfold tdAt tdRes0; infer_instance
  | 1 => unfold tdAt tdRes1; infer_instance
  | 2 => unfold tdAt tdRes2; infer_instance
  | 3 => unfold tdAt tdRes3; infer_instance

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

/-- The four calls' payloads. -/
def P : (K (F := F)).Pay (nD := nD) (Val := Elt F) (Name := ℕ) (U := UU) where
  st := fun q d c => bigSep Finset.univ fun i : Fin ((K (F := F)).nSub q) => goAt m d (Fin.cast (nCore_eq q) c) (Fin.cast (nSub_eq q) i) q
  dn := fun q d c => bigSep Finset.univ fun i : Fin ((K (F := F)).nSub q) => tdAt m d (Fin.cast (nCore_eq q) c) (Fin.cast (nSub_eq q) i) q
  go := fun q d c i => goAt m d (Fin.cast (nCore_eq q) c) (Fin.cast (nSub_eq q) i) q
  td := fun q d c i => tdAt m d (Fin.cast (nCore_eq q) c) (Fin.cast (nSub_eq q) i) q
  x := fun _ _ => iprop(emp)

instance P_storable : (P (F := F) m).IsStorable where
  st q d c := by unfold P; infer_instance
  dn q d c := by unfold P; infer_instance
  go q d c i := by unfold P; infer_instance
  td q d c i := by unfold P; infer_instance

/-- A SparseCore's operands are its tiles'; its results, theirs. -/
theorem vecSplit (q : Fin 4) : (K (F := F)).VecSplit' (P m) q := by
  intro d c
  show (bigSep Finset.univ fun i : Fin ((K (F := F)).nSub q) => (P m).go q d c i) ⊢ |={Set.univ}=> iprop(
      (bigSep Finset.univ fun i : Fin ((K (F := F)).nSub q) => (P m).go q d c i)
      ∗ ((bigSep Finset.univ fun i : Fin ((K (F := F)).nSub q) => (P m).td q d c i) -∗ bigSep Finset.univ fun i : Fin ((K (F := F)).nSub q) => (P m).td q d c i))
  iintro H; imodintro
  isplitl [H]; · iexact H
  iintro H; iexact H

end Cert.Proof.KI

end
-- ==== Proof.TileSets.lean ====
/-
  The tiles' rows and blocks partition the arrays.

  Tile `(c, i)` (SparseCore `c < 2`, vector subcore `i < 16`) owns row `2i + c` of a 32 × 128 token array and rows
  `[128(2i + c), 128(2i + c) + 128)` of a 4096 × 128 result array. Since `(c, i) ↦ 2i + c` is a bijection onto
  `[0, 32)`, the 32 rows are pairwise disjoint and cover the token array, and the 32 blocks the result array.
-/
import proofs.«204601_g21792664060648_cont_8to1_111_20_alg».proof.Proof.Common

namespace Cert.Proof.KI

open Cert.KernelIdeal
open Idealize.ShloMosaic

/-- Membership in tile `(c, i)`'s token row. -/
theorem mem_tokRow (c : Fin 2) (i : Fin 16) (off : Fin 2 → Nat) (hoff : off = ![2 * i.val + c.val, 0])
    (inb : ∀ a, off a + S1x128.size a ≤ S32x128.size a) (y : S32x128.Idx) :
    y ∈ (Rect.unit (s := S32x128) off S1x128.size inb).set ↔ (y 0).val = 2 * i.val + c.val := by
  subst hoff
  rw [Rect.mem_set_unit]
  constructor
  · intro h
    have h0 := h 0
    simp only [Matrix.cons_val_zero] at h0
    have : S1x128.size 0 = 1 := rfl
    omega
  · intro h a
    match a with
    | ⟨0, _⟩ =>
      have : S1x128.size 0 = 1 := rfl
      show (![2 * i.val + c.val, 0] : Fin 2 → Nat) 0 ≤ (y 0).val ∧ (y 0).val < (![2 * i.val + c.val, 0] : Fin 2 → Nat) 0 + S1x128.size 0
      simp only [Matrix.cons_val_zero]; omega
    | ⟨1, _⟩ =>
      have h1 : (y 1).val < 128 := (y 1).isLt
      have : S1x128.size 1 = 128 := rfl
      show (![2 * i.val + c.val, 0] : Fin 2 → Nat) 1 ≤ (y 1).val ∧ (y 1).val < (![2 * i.val + c.val, 0] : Fin 2 → Nat) 1 + S1x128.size 1
      simp only [Matrix.cons_val_one, Matrix.cons_val_zero]; omega

/-- Membership in tile `(c, i)`'s result block. -/
theorem mem_outBlk (c : Fin 2) (i : Fin 16) (off : Fin 2 → Nat) (hoff : off = ![256 * i.val + 128 * c.val, 0])
    (inb : ∀ a, off a + S128x128.size a ≤ S4096x128.size a) (y : S4096x128.Idx) :
    y ∈ (Rect.unit (s := S4096x128) off S128x128.size inb).set ↔ (y 0).val / 128 = 2 * i.val + c.val := by
  subst hoff
  rw [Rect.mem_set_unit]
  constructor
  · intro h
    have h0 := h 0
    simp only [Matrix.cons_val_zero] at h0
    have : S128x128.size 0 = 128 := rfl
    omega
  · intro h a
    match a with
    | ⟨0, _⟩ =>
      have : S128x128.size 0 = 128 := rfl
      show (![256 * i.val + 128 * c.val, 0] : Fin 2 → Nat) 0 ≤ (y 0).val ∧ (y 0).val < (![256 * i.val + 128 * c.val, 0] : Fin 2 → Nat) 0 + S128x128.size 0
      simp only [Matrix.cons_val_zero]; omega
    | ⟨1, _⟩ =>
      have h1 : (y 1).val < 128 := (y 1).isLt
      have : S128x128.size 1 = 128 := rfl
      show (![256 * i.val + 128 * c.val, 0] : Fin 2 → Nat) 1 ≤ (y 1).val ∧ (y 1).val < (![256 * i.val + 128 * c.val, 0] : Fin 2 → Nat) 1 + S128x128.size 1
      simp only [Matrix.cons_val_one, Matrix.cons_val_zero]; omega

/-- A family of sets of a 32 × 128 array, the one of `(c, i)` being the indices of row `2i + c`, is a partition. -/
theorem rows_partition (K : Fin 2 × Fin 16 → Finset S32x128.Idx) (hK : ∀ p y, y ∈ K p ↔ (y 0).val = 2 * p.2.val + p.1.val) :
    (∀ p ∈ (Finset.univ : Finset (Fin 2 × Fin 16)), ∀ p' ∈ (Finset.univ : Finset (Fin 2 × Fin 16)), p ≠ p' → Disjoint (K p) (K p'))
      ∧ (Finset.univ : Finset (Fin 2 × Fin 16)).biUnion K = Finset.univ := by
  constructor
  · intro p _ p' _ hne
    refine Finset.disjoint_left.mpr fun y h h' => hne ?_
    have e := (hK p y).mp h; have e' := (hK p' y).mp h'
    have h1 := p.1.isLt; have h2 := p'.1.isLt
    exact Prod.ext (Fin.ext (by omega)) (Fin.ext (by omega))
  · refine Finset.eq_univ_iff_forall.mpr fun y => Finset.mem_biUnion.mpr ?_
    have hy : (y 0).val < 32 := (y 0).isLt
    exact ⟨(⟨(y 0).val % 2, Nat.mod_lt _ (by decide)⟩, ⟨(y 0).val / 2, by omega⟩), Finset.mem_univ _, (hK _ y).mpr (by show (y 0).val = 2 * ((y 0).val / 2) + (y 0).val % 2; omega)⟩

/-- The same for blocks of 128 rows of a 4096 × 128 array. -/
theorem blocks_partition (K : Fin 2 × Fin 16 → Finset S4096x128.Idx) (hK : ∀ p y, y ∈ K p ↔ (y 0).val / 128 = 2 * p.2.val + p.1.val) :
    (∀ p ∈ (Finset.univ : Finset (Fin 2 × Fin 16)), ∀ p' ∈ (Finset.univ : Finset (Fin 2 × Fin 16)), p ≠ p' → Disjoint (K p) (K p'))
      ∧ (Finset.univ : Finset (Fin 2 × Fin 16)).biUnion K = Finset.univ := by
  constructor
  · intro p _ p' _ hne
    refine Finset.disjoint_left.mpr fun y h h' => hne ?_
    have e := (hK p y).mp h; have e' := (hK p' y).mp h'
    have h1 := p.1.isLt; have h2 := p'.1.isLt
    exact Prod.ext (Fin.ext (by omega)) (Fin.ext (by omega))
  · refine Finset.eq_univ_iff_forall.mpr fun y => Finset.mem_biUnion.mpr ?_
    have hy : (y 0).val < 4096 := (y 0).isLt
    exact ⟨(⟨(y 0).val / 128 % 2, Nat.mod_lt _ (by decide)⟩, ⟨(y 0).val / 128 / 2, by omega⟩), Finset.mem_univ _,
      (hK _ y).mpr (by show (y 0).val / 128 = 2 * ((y 0).val / 128 / 2) + (y 0).val / 128 % 2; omega)⟩

end Cert.Proof.KI
-- ==== Proof.Split1.lean ====
/-
  Call 1: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Pay
import proofs.«204601_g21792664060648_cont_8to1_111_20_alg».proof.Proof.TileSets

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co1 (c : Fin 2) (i : Fin 16) : k1_off1 (co1 c i) = ![2 * i.val + c.val, 0] := k1_off1_eq (co1 c i)
theorem off2_co1 (c : Fin 2) (i : Fin 16) : k1_off2 (co1 c i) = ![256 * i.val + 128 * c.val, 0] := k1_off2_eq (co1 c i)

theorem mem_rowA1 (p : Fin 2 × Fin 16) (y : S32x128.Idx) : y ∈ (rowA1 (co1 p.1 p.2)).view.set ↔ (y 0).val = 2 * p.2.val + p.1.val := by
  rw [show (rowA1 (co1 p.1 p.2)).view.set = (Rect.unit (s := S32x128) (k1_off1 (co1 p.1 p.2)) S1x128.size (k1_off1_inb (co1 p.1 p.2))).set from View.set_slice_whole _ _]
  exact mem_tokRow p.1 p.2 _ (off1_co1 p.1 p.2) _ y
theorem mem_rowB1 (p : Fin 2 × Fin 16) (y : S32x128.Idx) : y ∈ (rowB1 (co1 p.1 p.2)).view.set ↔ (y 0).val = 2 * p.2.val + p.1.val := by
  rw [show (rowB1 (co1 p.1 p.2)).view.set = (Rect.unit (s := S32x128) (k1_off1 (co1 p.1 p.2)) S1x128.size (k1_off1_inb (co1 p.1 p.2))).set from View.set_slice_whole _ _]
  exact mem_tokRow p.1 p.2 _ (off1_co1 p.1 p.2) _ y
theorem mem_blkA1 (p : Fin 2 × Fin 16) (y : S4096x128.Idx) : y ∈ (blkA1 (co1 p.1 p.2)).view.set ↔ (y 0).val / 128 = 2 * p.2.val + p.1.val := by
  rw [show (blkA1 (co1 p.1 p.2)).view.set = (Rect.unit (s := S4096x128) (k1_off2 (co1 p.1 p.2)) S128x128.size (k1_off2_inb (co1 p.1 p.2))).set from View.set_slice_whole _ _]
  exact mem_outBlk p.1 p.2 _ (off2_co1 p.1 p.2) _ y
theorem mem_blkB1 (p : Fin 2 × Fin 16) (y : S4096x128.Idx) : y ∈ (blkB1 (co1 p.1 p.2)).view.set ↔ (y 0).val / 128 = 2 * p.2.val + p.1.val := by
  rw [show (blkB1 (co1 p.1 p.2)).view.set = (Rect.unit (s := S4096x128) (k1_off2 (co1 p.1 p.2)) S128x128.size (k1_off2_inb (co1 p.1 p.2))).set from View.set_slice_whole _ _]
  exact mem_outBlk p.1 p.2 _ (off2_co1 p.1 p.2) _ y

/-! ## Whole arrays as the tiles' pieces -/

variable (d : Dev nD)

theorem tokA1_rows (f : Buf (Elt F) (tokA1 d)) :
    (tokA1 d ↦{fullShare} f : sProp 𝕄) = bigSep Finset.univ fun c : Fin 2 => bigSep Finset.univ fun i : Fin 16 => tokA1 d ↦[(rowA1 (co1 c i)).view.set]{fullShare} f := by
  have hp := rows_partition (fun p : Fin 2 × Fin 16 => (rowA1 (co1 p.1 p.2)).view.set) mem_rowA1
  rw [← bigSep_univ_prod (fun p : Fin 2 × Fin 16 => (tokA1 d ↦[(rowA1 (co1 p.1 p.2)).view.set]{fullShare} f : sProp 𝕄)),
    ← pointsTo_biUnion Finset.univ (ℓ := tokA1 d) (fun p : Fin 2 × Fin 16 => (rowA1 (co1 p.1 p.2)).view.set) hp.1, hp.2]
theorem tokB1_rows (f : Buf (Elt F) (tokB1 d)) :
    (tokB1 d ↦{fullShare} f : sProp 𝕄) = bigSep Finset.univ fun c : Fin 2 => bigSep Finset.univ fun i : Fin 16 => tokB1 d ↦[(rowB1 (co1 c i)).view.set]{fullShare} f := by
  have hp := rows_partition (fun p : Fin 2 × Fin 16 => (rowB1 (co1 p.1 p.2)).view.set) mem_rowB1
  rw [← bigSep_univ_prod (fun p : Fin 2 × Fin 16 => (tokB1 d ↦[(rowB1 (co1 p.1 p.2)).view.set]{fullShare} f : sProp 𝕄)),
    ← pointsTo_biUnion Finset.univ (ℓ := tokB1 d) (fun p : Fin 2 × Fin 16 => (rowB1 (co1 p.1 p.2)).view.set) hp.1, hp.2]
theorem outA1_blks (f : Buf (Elt F) (outA1 d)) :
    (outA1 d ↦{fullShare} f : sProp 𝕄) = bigSep Finset.univ fun c : Fin 2 => bigSep Finset.univ fun i : Fin 16 => outA1 d ↦[(blkA1 (co1 c i)).view.set]{fullShare} f := by
  have hp := blocks_partition (fun p : Fin 2 × Fin 16 => (blkA1 (co1 p.1 p.2)).view.set) mem_blkA1
  rw [← bigSep_univ_prod (fun p : Fin 2 × Fin 16 => (outA1 d ↦[(blkA1 (co1 p.1 p.2)).view.set]{fullShare} f : sProp 𝕄)),
    ← pointsTo_biUnion Finset.univ (ℓ := outA1 d) (fun p : Fin 2 × Fin 16 => (blkA1 (co1 p.1 p.2)).view.set) hp.1, hp.2]
theorem outB1_blks (f : Buf (Elt F) (outB1 d)) :
    (outB1 d ↦{fullShare} f : sProp 𝕄) = bigSep Finset.univ fun c : Fin 2 => bigSep Finset.univ fun i : Fin 16 => outB1 d ↦[(blkB1 (co1 c i)).view.set]{fullShare} f := by
  have hp := blocks_partition (fun p : Fin 2 × Fin 16 => (blkB1 (co1 p.1 p.2)).view.set) mem_blkB1
  rw [← bigSep_univ_prod (fun p : Fin 2 × Fin 16 => (outB1 d ↦[(blkB1 (co1 p.1 p.2)).view.set]{fullShare} f : sProp 𝕄)),
    ← pointsTo_biUnion Finset.univ (ℓ := outB1 d) (fun p : Fin 2 × Fin 16 => (blkB1 (co1 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split1 (fa : Buf (Elt F) (outA1 d)) (fb : Buf (Elt F) (outB1 d)) :
    iprop((tokA1 d ↦{fullShare} i0) ∗ (tokB1 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA1 d ↦{fullShare} fa) ∗ (outB1 d ↦{fullShare} fb))
      ⊢ (bigSep Finset.univ fun c : Fin 2 => bigSep Finset.univ fun i : Fin 16 => goRes1 (F := F) d (co1 c i) (shT c i) i0 i1 t0 t1 : sProp 𝕄) := by
  rw [tokA1_rows, tokB1_rows, outA1_blks, outB1_blks]
  unfold goRes1
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA1 d ↦[(blkA1 (co1 c i)).view.set]{fullShare} fa : sProp 𝕄))
      ⊢ bigSep Finset.univ fun c : Fin 2 => bigSep Finset.univ fun i : Fin 16 => (iprop(∃ f, outA1 d ↦[(blkA1 (co1 c i)).view.set]{fullShare} f) : sProp 𝕄) :=
    bigSep_mono fun c _ => bigSep_mono fun i _ => exists_intro (Φ := fun f => (outA1 d ↦[(blkA1 (co1 c i)).view.set]{fullShare} f : sProp 𝕄)) fa
  have hob : (bigSep Finset.univ fun c : Fin 2 => bigSep Finset.univ fun i : Fin 16 => (outB1 d ↦[(blkB1 (co1 c i)).view.set]{fullShare} fb : sProp 𝕄))
      ⊢ bigSep Finset.univ fun c : Fin 2 => bigSep Finset.univ fun i : Fin 16 => (iprop(∃ f, outB1 d ↦[(blkB1 (co1 c i)).view.set]{fullShare} f) : sProp 𝕄) :=
    bigSep_mono fun c _ => bigSep_mono fun i _ => exists_intro (Φ := fun f => (outB1 d ↦[(blkB1 (co1 c i)).view.set]{fullShare} f : sProp 𝕄)) fb
  isplitl [Hoa]
  · iapply hoa; iexact Hoa
  · iapply hob; iexact Hob

/-- What the tiles hand back is the call's arrays again, the results at the gathered arrays. -/
theorem join1 :
    (bigSep Finset.univ fun c : Fin 2 => bigSep Finset.univ fun i : Fin 16 => tdRes1 (F := F) d (co1 c i) (shT c i) i0 i1 t0 t1 : sProp 𝕄)
      ⊢ iprop((tokA1 d ↦{fullShare} i0) ∗ (tokB1 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA1 d ↦{fullShare} gathered i0 t0) ∗ (outB1 d ↦{fullShare} gathered i1 t1)) := by
  rw [tokA1_rows, tokB1_rows, outA1_blks, outB1_blks]
  unfold tdRes1
  simp only [bigSep_sep']
  exact Entails.refl _

end Cert.Proof.KI

end
-- ==== Proof.Split0.lean ====
/-
  Call 0: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Pay
import proofs.«204601_g21792664060648_cont_8to1_111_20_alg».proof.Proof.TileSets

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co0 (c : Fin 2) (i : Fin 16) : k0_off1 (co0 c i) = ![2 * i.val + c.val, 0] := k0_off1_eq (co0 c i)
theorem off2_co0 (c : Fin 2) (i : Fin 16) : k0_off2 (co0 c i) = ![256 * i.val + 128 * c.val, 0] := k0_off2_eq (co0 c i)

theorem mem_rowA0 (p : Fin 2 × Fin 16) (y : S32x128.Idx) : y ∈ (rowA0 (co0 p.1 p.2)).view.set ↔ (y 0).val = 2 * p.2.val + p.1.val := by
  rw [show (rowA0 (co0 p.1 p.2)).view.set = (Rect.unit (s := S32x128) (k0_off1 (co0 p.1 p.2)) S1x128.size (k0_off1_inb (co0 p.1 p.2))).set from View.set_slice_whole _ _]
  exact mem_tokRow p.1 p.2 _ (off1_co0 p.1 p.2) _ y
theorem mem_rowB0 (p : Fin 2 × Fin 16) (y : S32x128.Idx) : y ∈ (rowB0 (co0 p.1 p.2)).view.set ↔ (y 0).val = 2 * p.2.val + p.1.val := by
  rw [show (rowB0 (co0 p.1 p.2)).view.set = (Rect.unit (s := S32x128) (k0_off1 (co0 p.1 p.2)) S1x128.size (k0_off1_inb (co0 p.1 p.2))).set from View.set_slice_whole _ _]
  exact mem_tokRow p.1 p.2 _ (off1_co0 p.1 p.2) _ y
theorem mem_blkA0 (p : Fin 2 × Fin 16) (y : S4096x128.Idx) : y ∈ (blkA0 (co0 p.1 p.2)).view.set ↔ (y 0).val / 128 = 2 * p.2.val + p.1.val := by
  rw [show (blkA0 (co0 p.1 p.2)).view.set = (Rect.unit (s := S4096x128) (k0_off2 (co0 p.1 p.2)) S128x128.size (k0_off2_inb (co0 p.1 p.2))).set from View.set_slice_whole _ _]
  exact mem_outBlk p.1 p.2 _ (off2_co0 p.1 p.2) _ y
theorem mem_blkB0 (p : Fin 2 × Fin 16) (y : S4096x128.Idx) : y ∈ (blkB0 (co0 p.1 p.2)).view.set ↔ (y 0).val / 128 = 2 * p.2.val + p.1.val := by
  rw [show (blkB0 (co0 p.1 p.2)).view.set = (Rect.unit (s := S4096x128) (k0_off2 (co0 p.1 p.2)) S128x128.size (k0_off2_inb (co0 p.1 p.2))).set from View.set_slice_whole _ _]
  exact mem_outBlk p.1 p.2 _ (off2_co0 p.1 p.2) _ y

/-! ## Whole arrays as the tiles' pieces -/

variable (d : Dev nD)

theorem tokA0_rows (f : Buf (Elt F) (tokA0 d)) :
    (tokA0 d ↦{fullShare} f : sProp 𝕄) = bigSep Finset.univ fun c : Fin 2 => bigSep Finset.univ fun i : Fin 16 => tokA0 d ↦[(rowA0 (co0 c i)).view.set]{fullShare} f := by
  have hp := rows_partition (fun p : Fin 2 × Fin 16 => (rowA0 (co0 p.1 p.2)).view.set) mem_rowA0
  rw [← bigSep_univ_prod (fun p : Fin 2 × Fin 16 => (tokA0 d ↦[(rowA0 (co0 p.1 p.2)).view.set]{fullShare} f : sProp 𝕄)),
    ← pointsTo_biUnion Finset.univ (ℓ := tokA0 d) (fun p : Fin 2 × Fin 16 => (rowA0 (co0 p.1 p.2)).view.set) hp.1, hp.2]
theorem tokB0_rows (f : Buf (Elt F) (tokB0 d)) :
    (tokB0 d ↦{fullShare} f : sProp 𝕄) = bigSep Finset.univ fun c : Fin 2 => bigSep Finset.univ fun i : Fin 16 => tokB0 d ↦[(rowB0 (co0 c i)).view.set]{fullShare} f := by
  have hp := rows_partition (fun p : Fin 2 × Fin 16 => (rowB0 (co0 p.1 p.2)).view.set) mem_rowB0
  rw [← bigSep_univ_prod (fun p : Fin 2 × Fin 16 => (tokB0 d ↦[(rowB0 (co0 p.1 p.2)).view.set]{fullShare} f : sProp 𝕄)),
    ← pointsTo_biUnion Finset.univ (ℓ := tokB0 d) (fun p : Fin 2 × Fin 16 => (rowB0 (co0 p.1 p.2)).view.set) hp.1, hp.2]
theorem outA0_blks (f : Buf (Elt F) (outA0 d)) :
    (outA0 d ↦{fullShare} f : sProp 𝕄) = bigSep Finset.univ fun c : Fin 2 => bigSep Finset.univ fun i : Fin 16 => outA0 d ↦[(blkA0 (co0 c i)).view.set]{fullShare} f := by
  have hp := blocks_partition (fun p : Fin 2 × Fin 16 => (blkA0 (co0 p.1 p.2)).view.set) mem_blkA0
  rw [← bigSep_univ_prod (fun p : Fin 2 × Fin 16 => (outA0 d ↦[(blkA0 (co0 p.1 p.2)).view.set]{fullShare} f : sProp 𝕄)),
    ← pointsTo_biUnion Finset.univ (ℓ := outA0 d) (fun p : Fin 2 × Fin 16 => (blkA0 (co0 p.1 p.2)).view.set) hp.1, hp.2]
theorem outB0_blks (f : Buf (Elt F) (outB0 d)) :
    (outB0 d ↦{fullShare} f : sProp 𝕄) = bigSep Finset.univ fun c : Fin 2 => bigSep Finset.univ fun i : Fin 16 => outB0 d ↦[(blkB0 (co0 c i)).view.set]{fullShare} f := by
  have hp := blocks_partition (fun p : Fin 2 × Fin 16 => (blkB0 (co0 p.1 p.2)).view.set) mem_blkB0
  rw [← bigSep_univ_prod (fun p : Fin 2 × Fin 16 => (outB0 d ↦[(blkB0 (co0 p.1 p.2)).view.set]{fullShare} f : sProp 𝕄)),
    ← pointsTo_biUnion Finset.univ (ℓ := outB0 d) (fun p : Fin 2 × Fin 16 => (blkB0 (co0 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split0 (fa : Buf (Elt F) (outA0 d)) (fb : Buf (Elt F) (outB0 d)) :
    iprop((tokA0 d ↦{fullShare} i0) ∗ (tokB0 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA0 d ↦{fullShare} fa) ∗ (outB0 d ↦{fullShare} fb))
      ⊢ (bigSep Finset.univ fun c : Fin 2 => bigSep Finset.univ fun i : Fin 16 => goRes0 (F := F) d (co0 c i) (shT c i) i0 i1 t0 t1 : sProp 𝕄) := by
  rw [tokA0_rows, tokB0_rows, outA0_blks, outB0_blks]
  unfold goRes0
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA0 d ↦[(blkA0 (co0 c i)).view.set]{fullShare} fa : sProp 𝕄))
      ⊢ bigSep Finset.univ fun c : Fin 2 => bigSep Finset.univ fun i : Fin 16 => (iprop(∃ f, outA0 d ↦[(blkA0 (co0 c i)).view.set]{fullShare} f) : sProp 𝕄) :=
    bigSep_mono fun c _ => bigSep_mono fun i _ => exists_intro (Φ := fun f => (outA0 d ↦[(blkA0 (co0 c i)).view.set]{fullShare} f : sProp 𝕄)) fa
  have hob : (bigSep Finset.univ fun c : Fin 2 => bigSep Finset.univ fun i : Fin 16 => (outB0 d ↦[(blkB0 (co0 c i)).view.set]{fullShare} fb : sProp 𝕄))
      ⊢ bigSep Finset.univ fun c : Fin 2 => bigSep Finset.univ fun i : Fin 16 => (iprop(∃ f, outB0 d ↦[(blkB0 (co0 c i)).view.set]{fullShare} f) : sProp 𝕄) :=
    bigSep_mono fun c _ => bigSep_mono fun i _ => exists_intro (Φ := fun f => (outB0 d ↦[(blkB0 (co0 c i)).view.set]{fullShare} f : sProp 𝕄)) fb
  isplitl [Hoa]
  · iapply hoa; iexact Hoa
  · iapply hob; iexact Hob

/-- What the tiles hand back is the call's arrays again, the results at the gathered arrays. -/
theorem join0 :
    (bigSep Finset.univ fun c : Fin 2 => bigSep Finset.univ fun i : Fin 16 => tdRes0 (F := F) d (co0 c i) (shT c i) i0 i1 t0 t1 : sProp 𝕄)
      ⊢ iprop((tokA0 d ↦{fullShare} i0) ∗ (tokB0 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA0 d ↦{fullShare} gathered i0 t0) ∗ (outB0 d ↦{fullShare} gathered i1 t1)) := by
  rw [tokA0_rows, tokB0_rows, outA0_blks, outB0_blks]
  unfold tdRes0
  simp only [bigSep_sep']
  exact Entails.refl _

end Cert.Proof.KI

end
-- ==== Proof.Run0.lean ====
/-
  Call 0 on the TensorCore: the call's arrays go out to the two SparseCores' tiles and come back, the two results at
  the gathered arrays.
-/
import proofs.«204601_g21792664060648_cont_8to1_111_20_alg».proof.Proof.Split0

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

/-- The tables as the thirty-two tiles' read shares. -/
abbrev tabShares (ℓ : Loc nD τ sig) (t : Buf (Elt F) ℓ) : sProp 𝕄 :=
  bigSep Finset.univ fun c : Fin 2 => bigSep Finset.univ fun i : Fin 16 => ℓ ↦{shT c i} t

theorem st0_eq (d : Dev nD) :
    (bigSep Finset.univ fun c : Fin ((K (F := F)).nCore 0) => (P m).st 0 d c)
      = bigSep Finset.univ fun c : Fin 2 => bigSep Finset.univ fun i : Fin 16 => goRes0 (F := F) d (co0 c i) (shT c i) (tokA m d 0) (tokB m d 0) (tblA m d) (tblB m d) := rfl
theorem dn0_eq (d : Dev nD) :
    (bigSep Finset.univ fun c : Fin ((K (F := F)).nCore 0) => (P m).dn 0 d c)
      = bigSep Finset.univ fun c : Fin 2 => bigSep Finset.univ fun i : Fin 16 => tdRes0 (F := F) d (co0 c i) (shT c i) (tokA m d 0) (tokB m d 0) (tblA m d) (tblB m d) := rfl

theorem run0 (κ : GSem nD τ sig → ℕ) (d : Dev nD) (fa : Buf (Elt F) (outA0 d)) (fb : Buf (Elt F) (outB0 d)) {Φ : PUnit → sProp 𝕄} :
    iprop((K (F := F)).ctx EH (P m) κ ∗ (K (F := F)).tcSt EH d 0
        ∗ (tokA0 d ↦{fullShare} tokA m d 0) ∗ (tokB0 d ↦{fullShare} tokB m d 0)
        ∗ tabShares (tabA d) (tblA m d) ∗ tabShares (tabB d) (tblB m d)
        ∗ (outA0 d ↦{fullShare} fa) ∗ (outB0 d ↦{fullShare} fb)
        ∗ (((K (F := F)).tcSt EH d 1
            ∗ (tokA0 d ↦{fullShare} tokA m d 0) ∗ (tokB0 d ↦{fullShare} tokB m d 0)
            ∗ tabShares (tabA d) (tblA m d) ∗ tabShares (tabB d) (tblB m d)
            ∗ (outA0 d ↦{fullShare} gathered (tokA m d 0) (tblA m d)) ∗ (outB0 d ↦{fullShare} gathered (tokB m d 0) (tblB m d))) -∗ Φ ⟨⟩))
      ⊢ wp frame (wpE ((K (F := F)).defs (D (F := F))) 𝒱 (SparseCore.T d) none) Set.univ ((K (F := F)).run d 0) Φ := by
  iintro ⟨#Hctx, Hst, Ha, Hb, Hta, Htb, Hoa, Hob, Hk⟩
  iapply ((K (F := F)).wp_run (D (F := F)) 𝒱 (EH := EH) (P := P m) κ d 0)
  isplitr; · iexact Hctx
  isplitl [Hst]; · iexact Hst
  isplitl [Ha Hb Hta Htb Hoa Hob]
  · rw [st0_eq]
    iapply (split0 (F := F) d (tokA m d 0) (tokB m d 0) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn0_eq m d)) $$ Hdn
  iapply (join0 (F := F) d (tokA m d 0) (tokB m d 0) (tblA m d) (tblB m d)); iexact Hdn'

end Cert.Proof.KI

end
-- ==== Proof.Run1.lean ====
/-
  Call 1 on the TensorCore: the call's arrays go out to the two SparseCores' tiles and come back, the two results at
  the gathered arrays.
-/
import proofs.«204601_g21792664060648_cont_8to1_111_20_alg».proof.Proof.Split1
import proofs.«204601_g21792664060648_cont_8to1_111_20_alg».proof.Proof.Run0

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st1_eq (d : Dev nD) :
    (bigSep Finset.univ fun c : Fin ((K (F := F)).nCore 1) => (P m).st 1 d c)
      = bigSep Finset.univ fun c : Fin 2 => bigSep Finset.univ fun i : Fin 16 => goRes1 (F := F) d (co1 c i) (shT c i) (tokA m d 1) (tokB m d 1) (tblA m d) (tblB m d) := rfl
theorem dn1_eq (d : Dev nD) :
    (bigSep Finset.univ fun c : Fin ((K (F := F)).nCore 1) => (P m).dn 1 d c)
      = bigSep Finset.univ fun c : Fin 2 => bigSep Finset.univ fun i : Fin 16 => tdRes1 (F := F) d (co1 c i) (shT c i) (tokA m d 1) (tokB m d 1) (tblA m d) (tblB m d) := rfl

theorem run1 (κ : GSem nD τ sig → ℕ) (d : Dev nD) (fa : Buf (Elt F) (outA1 d)) (fb : Buf (Elt F) (outB1 d)) {Φ : PUnit → sProp 𝕄} :
    iprop((K (F := F)).ctx EH (P m) κ ∗ (K (F := F)).tcSt EH d 1
        ∗ (tokA1 d ↦{fullShare} tokA m d 1) ∗ (tokB1 d ↦{fullShare} tokB m d 1)
        ∗ tabShares (tabA d) (tblA m d) ∗ tabShares (tabB d) (tblB m d)
        ∗ (outA1 d ↦{fullShare} fa) ∗ (outB1 d ↦{fullShare} fb)
        ∗ (((K (F := F)).tcSt EH d 2
            ∗ (tokA1 d ↦{fullShare} tokA m d 1) ∗ (tokB1 d ↦{fullShare} tokB m d 1)
            ∗ tabShares (tabA d) (tblA m d) ∗ tabShares (tabB d) (tblB m d)
            ∗ (outA1 d ↦{fullShare} gathered (tokA m d 1) (tblA m d)) ∗ (outB1 d ↦{fullShare} gathered (tokB m d 1) (tblB m d))) -∗ Φ ⟨⟩))
      ⊢ wp frame (wpE ((K (F := F)).defs (D (F := F))) 𝒱 (SparseCore.T d) none) Set.univ ((K (F := F)).run d 1) Φ := by
  iintro ⟨#Hctx, Hst, Ha, Hb, Hta, Htb, Hoa, Hob, Hk⟩
  iapply ((K (F := F)).wp_run (D (F := F)) 𝒱 (EH := EH) (P := P m) κ d 1)
  isplitr; · iexact Hctx
  isplitl [Hst]; · iexact Hst
  isplitl [Ha Hb Hta Htb Hoa Hob]
  · rw [st1_eq]
    iapply (split1 (F := F) d (tokA m d 1) (tokB m d 1) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn1_eq m d)) $$ Hdn
  iapply (join1 (F := F) d (tokA m d 1) (tokB m d 1) (tblA m d) (tblB m d)); iexact Hdn'

end Cert.Proof.KI

end
-- ==== Proof.Split2.lean ====
/-
  Call 2: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Pay
import proofs.«204601_g21792664060648_cont_8to1_111_20_alg».proof.Proof.TileSets

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co2 (c : Fin 2) (i : Fin 16) : k2_off1 (co2 c i) = ![2 * i.val + c.val, 0] := k2_off1_eq (co2 c i)
theorem off2_co2 (c : Fin 2) (i : Fin 16) : k2_off2 (co2 c i) = ![256 * i.val + 128 * c.val, 0] := k2_off2_eq (co2 c i)

theorem mem_rowA2 (p : Fin 2 × Fin 16) (y : S32x128.Idx) : y ∈ (rowA2 (co2 p.1 p.2)).view.set ↔ (y 0).val = 2 * p.2.val + p.1.val := by
  rw [show (rowA2 (co2 p.1 p.2)).view.set = (Rect.unit (s := S32x128) (k2_off1 (co2 p.1 p.2)) S1x128.size (k2_off1_inb (co2 p.1 p.2))).set from View.set_slice_whole _ _]
  exact mem_tokRow p.1 p.2 _ (off1_co2 p.1 p.2) _ y
theorem mem_rowB2 (p : Fin 2 × Fin 16) (y : S32x128.Idx) : y ∈ (rowB2 (co2 p.1 p.2)).view.set ↔ (y 0).val = 2 * p.2.val + p.1.val := by
  rw [show (rowB2 (co2 p.1 p.2)).view.set = (Rect.unit (s := S32x128) (k2_off1 (co2 p.1 p.2)) S1x128.size (k2_off1_inb (co2 p.1 p.2))).set from View.set_slice_whole _ _]
  exact mem_tokRow p.1 p.2 _ (off1_co2 p.1 p.2) _ y
theorem mem_blkA2 (p : Fin 2 × Fin 16) (y : S4096x128.Idx) : y ∈ (blkA2 (co2 p.1 p.2)).view.set ↔ (y 0).val / 128 = 2 * p.2.val + p.1.val := by
  rw [show (blkA2 (co2 p.1 p.2)).view.set = (Rect.unit (s := S4096x128) (k2_off2 (co2 p.1 p.2)) S128x128.size (k2_off2_inb (co2 p.1 p.2))).set from View.set_slice_whole _ _]
  exact mem_outBlk p.1 p.2 _ (off2_co2 p.1 p.2) _ y
theorem mem_blkB2 (p : Fin 2 × Fin 16) (y : S4096x128.Idx) : y ∈ (blkB2 (co2 p.1 p.2)).view.set ↔ (y 0).val / 128 = 2 * p.2.val + p.1.val := by
  rw [show (blkB2 (co2 p.1 p.2)).view.set = (Rect.unit (s := S4096x128) (k2_off2 (co2 p.1 p.2)) S128x128.size (k2_off2_inb (co2 p.1 p.2))).set from View.set_slice_whole _ _]
  exact mem_outBlk p.1 p.2 _ (off2_co2 p.1 p.2) _ y

/-! ## Whole arrays as the tiles' pieces -/

variable (d : Dev nD)

theorem tokA2_rows (f : Buf (Elt F) (tokA2 d)) :
    (tokA2 d ↦{fullShare} f : sProp 𝕄) = bigSep Finset.univ fun c : Fin 2 => bigSep Finset.univ fun i : Fin 16 => tokA2 d ↦[(rowA2 (co2 c i)).view.set]{fullShare} f := by
  have hp := rows_partition (fun p : Fin 2 × Fin 16 => (rowA2 (co2 p.1 p.2)).view.set) mem_rowA2
  rw [← bigSep_univ_prod (fun p : Fin 2 × Fin 16 => (tokA2 d ↦[(rowA2 (co2 p.1 p.2)).view.set]{fullShare} f : sProp 𝕄)),
    ← pointsTo_biUnion Finset.univ (ℓ := tokA2 d) (fun p : Fin 2 × Fin 16 => (rowA2 (co2 p.1 p.2)).view.set) hp.1, hp.2]
theorem tokB2_rows (f : Buf (Elt F) (tokB2 d)) :
    (tokB2 d ↦{fullShare} f : sProp 𝕄) = bigSep Finset.univ fun c : Fin 2 => bigSep Finset.univ fun i : Fin 16 => tokB2 d ↦[(rowB2 (co2 c i)).view.set]{fullShare} f := by
  have hp := rows_partition (fun p : Fin 2 × Fin 16 => (rowB2 (co2 p.1 p.2)).view.set) mem_rowB2
  rw [← bigSep_univ_prod (fun p : Fin 2 × Fin 16 => (tokB2 d ↦[(rowB2 (co2 p.1 p.2)).view.set]{fullShare} f : sProp 𝕄)),
    ← pointsTo_biUnion Finset.univ (ℓ := tokB2 d) (fun p : Fin 2 × Fin 16 => (rowB2 (co2 p.1 p.2)).view.set) hp.1, hp.2]
theorem outA2_blks (f : Buf (Elt F) (outA2 d)) :
    (outA2 d ↦{fullShare} f : sProp 𝕄) = bigSep Finset.univ fun c : Fin 2 => bigSep Finset.univ fun i : Fin 16 => outA2 d ↦[(blkA2 (co2 c i)).view.set]{fullShare} f := by
  have hp := blocks_partition (fun p : Fin 2 × Fin 16 => (blkA2 (co2 p.1 p.2)).view.set) mem_blkA2
  rw [← bigSep_univ_prod (fun p : Fin 2 × Fin 16 => (outA2 d ↦[(blkA2 (co2 p.1 p.2)).view.set]{fullShare} f : sProp 𝕄)),
    ← pointsTo_biUnion Finset.univ (ℓ := outA2 d) (fun p : Fin 2 × Fin 16 => (blkA2 (co2 p.1 p.2)).view.set) hp.1, hp.2]
theorem outB2_blks (f : Buf (Elt F) (outB2 d)) :
    (outB2 d ↦{fullShare} f : sProp 𝕄) = bigSep Finset.univ fun c : Fin 2 => bigSep Finset.univ fun i : Fin 16 => outB2 d ↦[(blkB2 (co2 c i)).view.set]{fullShare} f := by
  have hp := blocks_partition (fun p : Fin 2 × Fin 16 => (blkB2 (co2 p.1 p.2)).view.set) mem_blkB2
  rw [← bigSep_univ_prod (fun p : Fin 2 × Fin 16 => (outB2 d ↦[(blkB2 (co2 p.1 p.2)).view.set]{fullShare} f : sProp 𝕄)),
    ← pointsTo_biUnion Finset.univ (ℓ := outB2 d) (fun p : Fin 2 × Fin 16 => (blkB2 (co2 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split2 (fa : Buf (Elt F) (outA2 d)) (fb : Buf (Elt F) (outB2 d)) :
    iprop((tokA2 d ↦{fullShare} i0) ∗ (tokB2 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA2 d ↦{fullShare} fa) ∗ (outB2 d ↦{fullShare} fb))
      ⊢ (bigSep Finset.univ fun c : Fin 2 => bigSep Finset.univ fun i : Fin 16 => goRes2 (F := F) d (co2 c i) (shT c i) i0 i1 t0 t1 : sProp 𝕄) := by
  rw [tokA2_rows, tokB2_rows, outA2_blks, outB2_blks]
  unfold goRes2
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA2 d ↦[(blkA2 (co2 c i)).view.set]{fullShare} fa : sProp 𝕄))
      ⊢ bigSep Finset.univ fun c : Fin 2 => bigSep Finset.univ fun i : Fin 16 => (iprop(∃ f, outA2 d ↦[(blkA2 (co2 c i)).view.set]{fullShare} f) : sProp 𝕄) :=
    bigSep_mono fun c _ => bigSep_mono fun i _ => exists_intro (Φ := fun f => (outA2 d ↦[(blkA2 (co2 c i)).view.set]{fullShare} f : sProp 𝕄)) fa
  have hob : (bigSep Finset.univ fun c : Fin 2 => bigSep Finset.univ fun i : Fin 16 => (outB2 d ↦[(blkB2 (co2 c i)).view.set]{fullShare} fb : sProp 𝕄))
      ⊢ bigSep Finset.univ fun c : Fin 2 => bigSep Finset.univ fun i : Fin 16 => (iprop(∃ f, outB2 d ↦[(blkB2 (co2 c i)).view.set]{fullShare} f) : sProp 𝕄) :=
    bigSep_mono fun c _ => bigSep_mono fun i _ => exists_intro (Φ := fun f => (outB2 d ↦[(blkB2 (co2 c i)).view.set]{fullShare} f : sProp 𝕄)) fb
  isplitl [Hoa]
  · iapply hoa; iexact Hoa
  · iapply hob; iexact Hob

/-- What the tiles hand back is the call's arrays again, the results at the gathered arrays. -/
theorem join2 :
    (bigSep Finset.univ fun c : Fin 2 => bigSep Finset.univ fun i : Fin 16 => tdRes2 (F := F) d (co2 c i) (shT c i) i0 i1 t0 t1 : sProp 𝕄)
      ⊢ iprop((tokA2 d ↦{fullShare} i0) ∗ (tokB2 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA2 d ↦{fullShare} gathered i0 t0) ∗ (outB2 d ↦{fullShare} gathered i1 t1)) := by
  rw [tokA2_rows, tokB2_rows, outA2_blks, outB2_blks]
  unfold tdRes2
  simp only [bigSep_sep']
  exact Entails.refl _

end Cert.Proof.KI

end
-- ==== Proof.Run2.lean ====
/-
  Call 2 on the TensorCore: the call's arrays go out to the two SparseCores' tiles and come back, the two results at
  the gathered arrays.
-/
import proofs.«204601_g21792664060648_cont_8to1_111_20_alg».proof.Proof.Split2
import proofs.«204601_g21792664060648_cont_8to1_111_20_alg».proof.Proof.Run0

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st2_eq (d : Dev nD) :
    (bigSep Finset.univ fun c : Fin ((K (F := F)).nCore 2) => (P m).st 2 d c)
      = bigSep Finset.univ fun c : Fin 2 => bigSep Finset.univ fun i : Fin 16 => goRes2 (F := F) d (co2 c i) (shT c i) (tokA m d 2) (tokB m d 2) (tblA m d) (tblB m d) := rfl
theorem dn2_eq (d : Dev nD) :
    (bigSep Finset.univ fun c : Fin ((K (F := F)).nCore 2) => (P m).dn 2 d c)
      = bigSep Finset.univ fun c : Fin 2 => bigSep Finset.univ fun i : Fin 16 => tdRes2 (F := F) d (co2 c i) (shT c i) (tokA m d 2) (tokB m d 2) (tblA m d) (tblB m d) := rfl

theorem run2 (κ : GSem nD τ sig → ℕ) (d : Dev nD) (fa : Buf (Elt F) (outA2 d)) (fb : Buf (Elt F) (outB2 d)) {Φ : PUnit → sProp 𝕄} :
    iprop((K (F := F)).ctx EH (P m) κ ∗ (K (F := F)).tcSt EH d 2
        ∗ (tokA2 d ↦{fullShare} tokA m d 2) ∗ (tokB2 d ↦{fullShare} tokB m d 2)
        ∗ tabShares (tabA d) (tblA m d) ∗ tabShares (tabB d) (tblB m d)
        ∗ (outA2 d ↦{fullShare} fa) ∗ (outB2 d ↦{fullShare} fb)
        ∗ (((K (F := F)).tcSt EH d 3
            ∗ (tokA2 d ↦{fullShare} tokA m d 2) ∗ (tokB2 d ↦{fullShare} tokB m d 2)
            ∗ tabShares (tabA d) (tblA m d) ∗ tabShares (tabB d) (tblB m d)
            ∗ (outA2 d ↦{fullShare} gathered (tokA m d 2) (tblA m d)) ∗ (outB2 d ↦{fullShare} gathered (tokB m d 2) (tblB m d))) -∗ Φ ⟨⟩))
      ⊢ wp frame (wpE ((K (F := F)).defs (D (F := F))) 𝒱 (SparseCore.T d) none) Set.univ ((K (F := F)).run d 2) Φ := by
  iintro ⟨#Hctx, Hst, Ha, Hb, Hta, Htb, Hoa, Hob, Hk⟩
  iapply ((K (F := F)).wp_run (D (F := F)) 𝒱 (EH := EH) (P := P m) κ d 2)
  isplitr; · iexact Hctx
  isplitl [Hst]; · iexact Hst
  isplitl [Ha Hb Hta Htb Hoa Hob]
  · rw [st2_eq]
    iapply (split2 (F := F) d (tokA m d 2) (tokB m d 2) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn2_eq m d)) $$ Hdn
  iapply (join2 (F := F) d (tokA m d 2) (tokB m d 2) (tblA m d) (tblB m d)); iexact Hdn'

end Cert.Proof.KI

end
-- ==== Proof.Split3.lean ====
/-
  Call 3: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Pay
import proofs.«204601_g21792664060648_cont_8to1_111_20_alg».proof.Proof.TileSets

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co3 (c : Fin 2) (i : Fin 16) : k3_off1 (co3 c i) = ![2 * i.val + c.val, 0] := k3_off1_eq (co3 c i)
theorem off2_co3 (c : Fin 2) (i : Fin 16) : k3_off2 (co3 c i) = ![256 * i.val + 128 * c.val, 0] := k3_off2_eq (co3 c i)

theorem mem_rowA3 (p : Fin 2 × Fin 16) (y : S32x128.Idx) : y ∈ (rowA3 (co3 p.1 p.2)).view.set ↔ (y 0).val = 2 * p.2.val + p.1.val := by
  rw [show (rowA3 (co3 p.1 p.2)).view.set = (Rect.unit (s := S32x128) (k3_off1 (co3 p.1 p.2)) S1x128.size (k3_off1_inb (co3 p.1 p.2))).set from View.set_slice_whole _ _]
  exact mem_tokRow p.1 p.2 _ (off1_co3 p.1 p.2) _ y
theorem mem_rowB3 (p : Fin 2 × Fin 16) (y : S32x128.Idx) : y ∈ (rowB3 (co3 p.1 p.2)).view.set ↔ (y 0).val = 2 * p.2.val + p.1.val := by
  rw [show (rowB3 (co3 p.1 p.2)).view.set = (Rect.unit (s := S32x128) (k3_off1 (co3 p.1 p.2)) S1x128.size (k3_off1_inb (co3 p.1 p.2))).set from View.set_slice_whole _ _]
  exact mem_tokRow p.1 p.2 _ (off1_co3 p.1 p.2) _ y
theorem mem_blkA3 (p : Fin 2 × Fin 16) (y : S4096x128.Idx) : y ∈ (blkA3 (co3 p.1 p.2)).view.set ↔ (y 0).val / 128 = 2 * p.2.val + p.1.val := by
  rw [show (blkA3 (co3 p.1 p.2)).view.set = (Rect.unit (s := S4096x128) (k3_off2 (co3 p.1 p.2)) S128x128.size (k3_off2_inb (co3 p.1 p.2))).set from View.set_slice_whole _ _]
  exact mem_outBlk p.1 p.2 _ (off2_co3 p.1 p.2) _ y
theorem mem_blkB3 (p : Fin 2 × Fin 16) (y : S4096x128.Idx) : y ∈ (blkB3 (co3 p.1 p.2)).view.set ↔ (y 0).val / 128 = 2 * p.2.val + p.1.val := by
  rw [show (blkB3 (co3 p.1 p.2)).view.set = (Rect.unit (s := S4096x128) (k3_off2 (co3 p.1 p.2)) S128x128.size (k3_off2_inb (co3 p.1 p.2))).set from View.set_slice_whole _ _]
  exact mem_outBlk p.1 p.2 _ (off2_co3 p.1 p.2) _ y

/-! ## Whole arrays as the tiles' pieces -/

variable (d : Dev nD)

theorem tokA3_rows (f : Buf (Elt F) (tokA3 d)) :
    (tokA3 d ↦{fullShare} f : sProp 𝕄) = bigSep Finset.univ fun c : Fin 2 => bigSep Finset.univ fun i : Fin 16 => tokA3 d ↦[(rowA3 (co3 c i)).view.set]{fullShare} f := by
  have hp := rows_partition (fun p : Fin 2 × Fin 16 => (rowA3 (co3 p.1 p.2)).view.set) mem_rowA3
  rw [← bigSep_univ_prod (fun p : Fin 2 × Fin 16 => (tokA3 d ↦[(rowA3 (co3 p.1 p.2)).view.set]{fullShare} f : sProp 𝕄)),
    ← pointsTo_biUnion Finset.univ (ℓ := tokA3 d) (fun p : Fin 2 × Fin 16 => (rowA3 (co3 p.1 p.2)).view.set) hp.1, hp.2]
theorem tokB3_rows (f : Buf (Elt F) (tokB3 d)) :
    (tokB3 d ↦{fullShare} f : sProp 𝕄) = bigSep Finset.univ fun c : Fin 2 => bigSep Finset.univ fun i : Fin 16 => tokB3 d ↦[(rowB3 (co3 c i)).view.set]{fullShare} f := by
  have hp := rows_partition (fun p : Fin 2 × Fin 16 => (rowB3 (co3 p.1 p.2)).view.set) mem_rowB3
  rw [← bigSep_univ_prod (fun p : Fin 2 × Fin 16 => (tokB3 d ↦[(rowB3 (co3 p.1 p.2)).view.set]{fullShare} f : sProp 𝕄)),
    ← pointsTo_biUnion Finset.univ (ℓ := tokB3 d) (fun p : Fin 2 × Fin 16 => (rowB3 (co3 p.1 p.2)).view.set) hp.1, hp.2]
theorem outA3_blks (f : Buf (Elt F) (outA3 d)) :
    (outA3 d ↦{fullShare} f : sProp 𝕄) = bigSep Finset.univ fun c : Fin 2 => bigSep Finset.univ fun i : Fin 16 => outA3 d ↦[(blkA3 (co3 c i)).view.set]{fullShare} f := by
  have hp := blocks_partition (fun p : Fin 2 × Fin 16 => (blkA3 (co3 p.1 p.2)).view.set) mem_blkA3
  rw [← bigSep_univ_prod (fun p : Fin 2 × Fin 16 => (outA3 d ↦[(blkA3 (co3 p.1 p.2)).view.set]{fullShare} f : sProp 𝕄)),
    ← pointsTo_biUnion Finset.univ (ℓ := outA3 d) (fun p : Fin 2 × Fin 16 => (blkA3 (co3 p.1 p.2)).view.set) hp.1, hp.2]
theorem outB3_blks (f : Buf (Elt F) (outB3 d)) :
    (outB3 d ↦{fullShare} f : sProp 𝕄) = bigSep Finset.univ fun c : Fin 2 => bigSep Finset.univ fun i : Fin 16 => outB3 d ↦[(blkB3 (co3 c i)).view.set]{fullShare} f := by
  have hp := blocks_partition (fun p : Fin 2 × Fin 16 => (blkB3 (co3 p.1 p.2)).view.set) mem_blkB3
  rw [← bigSep_univ_prod (fun p : Fin 2 × Fin 16 => (outB3 d ↦[(blkB3 (co3 p.1 p.2)).view.set]{fullShare} f : sProp 𝕄)),
    ← pointsTo_biUnion Finset.univ (ℓ := outB3 d) (fun p : Fin 2 × Fin 16 => (blkB3 (co3 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split3 (fa : Buf (Elt F) (outA3 d)) (fb : Buf (Elt F) (outB3 d)) :
    iprop((tokA3 d ↦{fullShare} i0) ∗ (tokB3 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA3 d ↦{fullShare} fa) ∗ (outB3 d ↦{fullShare} fb))
      ⊢ (bigSep Finset.univ fun c : Fin 2 => bigSep Finset.univ fun i : Fin 16 => goRes3 (F := F) d (co3 c i) (shT c i) i0 i1 t0 t1 : sProp 𝕄) := by
  rw [tokA3_rows, tokB3_rows, outA3_blks, outB3_blks]
  unfold goRes3
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA3 d ↦[(blkA3 (co3 c i)).view.set]{fullShare} fa : sProp 𝕄))
      ⊢ bigSep Finset.univ fun c : Fin 2 => bigSep Finset.univ fun i : Fin 16 => (iprop(∃ f, outA3 d ↦[(blkA3 (co3 c i)).view.set]{fullShare} f) : sProp 𝕄) :=
    bigSep_mono fun c _ => bigSep_mono fun i _ => exists_intro (Φ := fun f => (outA3 d ↦[(blkA3 (co3 c i)).view.set]{fullShare} f : sProp 𝕄)) fa
  have hob : (bigSep Finset.univ fun c : Fin 2 => bigSep Finset.univ fun i : Fin 16 => (outB3 d ↦[(blkB3 (co3 c i)).view.set]{fullShare} fb : sProp 𝕄))
      ⊢ bigSep Finset.univ fun c : Fin 2 => bigSep Finset.univ fun i : Fin 16 => (iprop(∃ f, outB3 d ↦[(blkB3 (co3 c i)).view.set]{fullShare} f) : sProp 𝕄) :=
    bigSep_mono fun c _ => bigSep_mono fun i _ => exists_intro (Φ := fun f => (outB3 d ↦[(blkB3 (co3 c i)).view.set]{fullShare} f : sProp 𝕄)) fb
  isplitl [Hoa]
  · iapply hoa; iexact Hoa
  · iapply hob; iexact Hob

/-- What the tiles hand back is the call's arrays again, the results at the gathered arrays. -/
theorem join3 :
    (bigSep Finset.univ fun c : Fin 2 => bigSep Finset.univ fun i : Fin 16 => tdRes3 (F := F) d (co3 c i) (shT c i) i0 i1 t0 t1 : sProp 𝕄)
      ⊢ iprop((tokA3 d ↦{fullShare} i0) ∗ (tokB3 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA3 d ↦{fullShare} gathered i0 t0) ∗ (outB3 d ↦{fullShare} gathered i1 t1)) := by
  rw [tokA3_rows, tokB3_rows, outA3_blks, outB3_blks]
  unfold tdRes3
  simp only [bigSep_sep']
  exact Entails.refl _

end Cert.Proof.KI

end
-- ==== Proof.Run3.lean ====
/-
  Call 3 on the TensorCore: the call's arrays go out to the two SparseCores' tiles and come back, the two results at
  the gathered arrays.
-/
import proofs.«204601_g21792664060648_cont_8to1_111_20_alg».proof.Proof.Split3
import proofs.«204601_g21792664060648_cont_8to1_111_20_alg».proof.Proof.Run0

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st3_eq (d : Dev nD) :
    (bigSep Finset.univ fun c : Fin ((K (F := F)).nCore 3) => (P m).st 3 d c)
      = bigSep Finset.univ fun c : Fin 2 => bigSep Finset.univ fun i : Fin 16 => goRes3 (F := F) d (co3 c i) (shT c i) (tokA m d 3) (tokB m d 3) (tblA m d) (tblB m d) := rfl
theorem dn3_eq (d : Dev nD) :
    (bigSep Finset.univ fun c : Fin ((K (F := F)).nCore 3) => (P m).dn 3 d c)
      = bigSep Finset.univ fun c : Fin 2 => bigSep Finset.univ fun i : Fin 16 => tdRes3 (F := F) d (co3 c i) (shT c i) (tokA m d 3) (tokB m d 3) (tblA m d) (tblB m d) := rfl

theorem run3 (κ : GSem nD τ sig → ℕ) (d : Dev nD) (fa : Buf (Elt F) (outA3 d)) (fb : Buf (Elt F) (outB3 d)) {Φ : PUnit → sProp 𝕄} :
    iprop((K (F := F)).ctx EH (P m) κ ∗ (K (F := F)).tcSt EH d 3
        ∗ (tokA3 d ↦{fullShare} tokA m d 3) ∗ (tokB3 d ↦{fullShare} tokB m d 3)
        ∗ tabShares (tabA d) (tblA m d) ∗ tabShares (tabB d) (tblB m d)
        ∗ (outA3 d ↦{fullShare} fa) ∗ (outB3 d ↦{fullShare} fb)
        ∗ (((K (F := F)).tcSt EH d 4
            ∗ (tokA3 d ↦{fullShare} tokA m d 3) ∗ (tokB3 d ↦{fullShare} tokB m d 3)
            ∗ tabShares (tabA d) (tblA m d) ∗ tabShares (tabB d) (tblB m d)
            ∗ (outA3 d ↦{fullShare} gathered (tokA m d 3) (tblA m d)) ∗ (outB3 d ↦{fullShare} gathered (tokB m d 3) (tblB m d))) -∗ Φ ⟨⟩))
      ⊢ wp frame (wpE ((K (F := F)).defs (D (F := F))) 𝒱 (SparseCore.T d) none) Set.univ ((K (F := F)).run d 3) Φ := by
  iintro ⟨#Hctx, Hst, Ha, Hb, Hta, Htb, Hoa, Hob, Hk⟩
  iapply ((K (F := F)).wp_run (D (F := F)) 𝒱 (EH := EH) (P := P m) κ d 3)
  isplitr; · iexact Hctx
  isplitl [Hst]; · iexact Hst
  isplitl [Ha Hb Hta Htb Hoa Hob]
  · rw [st3_eq]
    iapply (split3 (F := F) d (tokA m d 3) (tokB m d 3) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn3_eq m d)) $$ Hdn
  iapply (join3 (F := F) d (tokA m d 3) (tokB m d 3) (tblA m d) (tblB m d)); iexact Hdn'

end Cert.Proof.KI

end
-- ==== Proof.TabShares.lean ====
/-
  A table's full share as the thirty-two tiles' read shares and a remainder.

  All thirty-two tiles read both tables whole at the same time, so each holds a read share of its own: the full share
  is split in two read tokens, one per SparseCore, and each of those in sixteen, one per tile; what is left over at each
  level stays with the TensorCore for the duration of the four calls and is joined back afterwards.
-/
import proofs.«204601_g21792664060648_cont_8to1_111_20_alg».proof.Proof.Run0

noncomputable section

namespace Cert.Proof.KI

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

/-- What stays with the TensorCore: the share left after the two SparseCores' tokens, and per SparseCore the share left
    after its sixteen tiles'. -/
def tabRem (ℓ : Loc nD τ sig) (t : Buf (Elt F) ℓ) : sProp 𝕄 :=
  iprop((ℓ ↦{Transfers.shareDrop fullShare 2} t)
    ∗ bigSep Finset.univ fun c : Fin 2 => ℓ ↦{Transfers.shareDrop (Transfers.shareTok fullShare 2 c) 16} t)

theorem tab_split (ℓ : Loc nD τ sig) (t : Buf (Elt F) ℓ) : (ℓ ↦{fullShare} t : sProp 𝕄) ⊢ iprop(tabRem ℓ t ∗ tabShares ℓ t) := by
  have e1 : (bigSep Finset.univ fun c : Fin 2 => (ℓ ↦{Transfers.shareTok fullShare 2 c} t : sProp 𝕄))
      ⊢ iprop((bigSep Finset.univ fun c : Fin 2 => ℓ ↦{Transfers.shareDrop (Transfers.shareTok fullShare 2 c) 16} t)
          ∗ bigSep Finset.univ fun c : Fin 2 => bigSep Finset.univ fun i : Fin 16 => ℓ ↦{shT c i} t) := by
    rw [← bigSep_sep']
    exact bigSep_mono fun c _ => (Transfers.pointsTo_toks (Transfers.shareTok fullShare 2 c) 16).1
  refine (Transfers.pointsTo_toks fullShare 2).1.trans ?_
  unfold tabRem
  iintro ⟨Hd, Hts⟩
  ihave H := e1 $$ Hts
  icases H with ⟨Hr, Hs⟩
  isplitl [Hd Hr]
  · isplitl [Hd] <;> iassumption
  · iexact Hs

theorem tab_join (ℓ : Loc nD τ sig) (t : Buf (Elt F) ℓ) : iprop(tabRem ℓ t ∗ tabShares ℓ t) ⊢ (ℓ ↦{fullShare} t : sProp 𝕄) := by
  have e1 : iprop((bigSep Finset.univ fun c : Fin 2 => ℓ ↦{Transfers.shareDrop (Transfers.shareTok fullShare 2 c) 16} t)
          ∗ bigSep Finset.univ fun c : Fin 2 => bigSep Finset.univ fun i : Fin 16 => ℓ ↦{shT c i} t)
      ⊢ (bigSep Finset.univ fun c : Fin 2 => (ℓ ↦{Transfers.shareTok fullShare 2 c} t : sProp 𝕄)) := by
    rw [← bigSep_sep']
    exact bigSep_mono fun c _ => (Transfers.pointsTo_toks (Transfers.shareTok fullShare 2 c) 16).2
  refine BIBase.Entails.trans ?_ (Transfers.pointsTo_toks fullShare 2).2
  unfold tabRem
  iintro ⟨⟨Hd, Hr⟩, Hs⟩
  isplitl [Hd]; · iexact Hd
  iapply e1
  isplitl [Hr] <;> iassumption

end Cert.Proof.KI

end
-- ==== Proof.HostStep.lean ====
/-
  One host operation of @main, stepped over on the TensorCore.

  A host operation with one operand `x` and one result `y` reads `x`'s array whole and writes `y`'s whole: holding
  both arrays, the one at `a` and the other at anything, the program goes on holding `x` at `a` still and `y` at the
  operation's function of `a` — `f a` for an elementwise or slicing operation, `a`'s elements in row-major order at
  `y`'s shape for a reshape. Every other array is untouched, so the rest of what @main holds is framed around the step.
-/
import proofs.«204601_g21792664060648_cont_8to1_111_20_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}
local notation "𝕄" => MT nD τ sig (HIx 4) (Elt F) ℕ UU ℕ

theorem held_pair (d : Dev nD) {x' y' : DevRef τ sig} (hne : x' ≠ y') (W : Valuation τ sig (Elt F)) :
    (held (SparseCore.T d) {x', y'} W : sProp 𝕄) = iprop(((d, x') ↦{fullShare} W x') ∗ ((d, y') ↦{fullShare} W y')) := by
  unfold held
  rw [SparseCore.bigSep_insert' (by simpa using hne), bigSep_singleton]

variable [FloatOps F]

theorem wp_unary_step (d : Dev nD) (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hxy : (Proc.devRef .tc x : DevRef τ sig) ≠ Proc.devRef .tc y)
    (V₀ : Valuation τ sig (Elt F)) (a : x.ty.Contents (Elt F)) (b0 : y.ty.Contents (Elt F)) {Q : PUnit → sProp 𝕄} :
    iprop(boundary (SparseCore.T d) ∗ ((d, Proc.devRef .tc x) ↦{fullShare} a) ∗ ((d, Proc.devRef .tc y) ↦{fullShare} b0)
        ∗ ((boundary (SparseCore.T d) ∗ ((d, Proc.devRef .tc x) ↦{fullShare} a) ∗ ((d, Proc.devRef .tc y) ↦{fullShare} f a)) -∗ Q ⟨⟩))
      ⊢ wp frame (wpE ((K (F := F)).defs (D (F := F))) 𝒱 (SparseCore.T d) none) Set.univ
          (hlo rfl (StableHlo.unary x y f hx hy) (fun _ => .ret ⟨⟩)) Q := by
  iintro ⟨Hb, Hx, Hy, Hk⟩
  iapply (wp_hlo_within 𝒱 (SparseCore.T d) none Set.univ (op := StableHlo.unary x y f hx hy) (S := {Proc.devRef .tc x, Proc.devRef .tc y}) (Finset.Subset.refl _)
    (V := Function.update (Function.update V₀ (Proc.devRef .tc x) a) (Proc.devRef .tc y) b0)) $$ [Hb Hx Hy]
  · isplitl [Hb]; · iexact Hb
    rw [held_pair d hxy, Function.update_of_ne hxy, Function.update_self, Function.update_self]
    isplitl [Hx] <;> iassumption
  iintro ⟨Hb, Hheld⟩
  have e : (held (SparseCore.T d) {Proc.devRef .tc x, Proc.devRef .tc y}
      ((StableHlo.unary x y f hx hy).result (Function.update (Function.update V₀ (Proc.devRef .tc x) a) (Proc.devRef .tc y) b0)) : sProp 𝕄)
      = iprop(((d, Proc.devRef .tc x) ↦{fullShare} a) ∗ ((d, Proc.devRef .tc y) ↦{fullShare} f a)) := by
    rw [held_pair d hxy,
      (StableHlo.unary x y f hx hy).result_of_not_mem _ (show Proc.devRef .tc x ∉ (StableHlo.unary (τ := τ) x y f hx hy).writes from Finset.notMem_singleton.mpr hxy),
      StableHlo.unary_result, Function.update_of_ne hxy, Function.update_self]
  ihave Hh := (Entails.of_eq e) $$ Hheld
  icases Hh with ⟨Hx, Hy⟩
  rw [wp_ret]; imodintro
  iapply Hk
  isplitl [Hb]; · iexact Hb
  isplitl [Hx] <;> iassumption

theorem wp_reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : (Proc.devRef .tc x : DevRef τ sig) ≠ Proc.devRef .tc y)
    (V₀ : Valuation τ sig (Elt F)) (a : x.ty.Contents (Elt F)) (b0 : y.ty.Contents (Elt F)) {Q : PUnit → sProp 𝕄} :
    iprop(boundary (SparseCore.T d) ∗ ((d, Proc.devRef .tc x) ↦{fullShare} a) ∗ ((d, Proc.devRef .tc y) ↦{fullShare} b0)
        ∗ ((boundary (SparseCore.T d) ∗ ((d, Proc.devRef .tc x) ↦{fullShare} a)
            ∗ ((d, Proc.devRef .tc y) ↦{fullShare} (fun i => he ▸ shapeCast y.ty.shape a hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  iintro ⟨Hb, Hx, Hy, Hk⟩
  iapply (wp_hlo_within 𝒱 (SparseCore.T d) none Set.univ (op := StableHlo.reshape x y he hn hx hy) (S := {Proc.devRef .tc x, Proc.devRef .tc y}) (Finset.Subset.refl _)
    (V := Function.update (Function.update V₀ (Proc.devRef .tc x) a) (Proc.devRef .tc y) b0)) $$ [Hb Hx Hy]
  · isplitl [Hb]; · iexact Hb
    rw [held_pair d hxy, Function.update_of_ne hxy, Function.update_self, Function.update_self]
    isplitl [Hx] <;> iassumption
  iintro ⟨Hb, Hheld⟩
  have e : (held (SparseCore.T d) {Proc.devRef .tc x, Proc.devRef .tc y}
      ((StableHlo.reshape x y he hn hx hy).result (Function.update (Function.update V₀ (Proc.devRef .tc x) a) (Proc.devRef .tc y) b0)) : sProp 𝕄)
      = iprop(((d, Proc.devRef .tc x) ↦{fullShare} a)
          ∗ ((d, Proc.devRef .tc y) ↦{fullShare} (fun i => he ▸ shapeCast y.ty.shape a hn i : y.ty.Contents (Elt F)))) := by
    rw [held_pair d hxy,
      (StableHlo.reshape x y he hn hx hy).result_of_not_mem _ (show Proc.devRef .tc x ∉ (StableHlo.reshape (τ := τ) (Val := Elt F) x y he hn hx hy).writes from Finset.notMem_singleton.mpr hxy),
      StableHlo.reshape_result, Function.update_of_ne hxy, Function.update_self]
  ihave Hh := (Entails.of_eq e) $$ Hheld
  icases Hh with ⟨Hx, Hy⟩
  rw [wp_ret]; imodintro
  iapply Hk
  isplitl [Hb]; · iexact Hb
  isplitl [Hx] <;> iassumption

end Cert.Proof.KI

end
-- ==== Proof.Arrays.lean ====
/-
  The arrays of @main, one by one.

  The launch deals the TensorCore every array of @main — the six arguments and the twenty-three values the program
  computes — whole, at its launch contents. Here that conjunction over all of them is written out array by array, so that
  each step of @main can name the ones it reads and writes.
-/
import proofs.«204601_g21792664060648_cont_8to1_111_20_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

set_option maxHeartbeats 4000000 in
theorem unscopedBufs_eq (d : Dev nD) (W : (b : Ref sig .tc) → Buf (Elt F) ((d.tc : Thread nD τ).loc b)) :
    (unscopedBufs d W : sProp 𝕄) = iprop(
      ((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5_0 ↦{fullShare} W main_v5_0)
      ∗ ((SparseCore.T d).loc main_v5_1 ↦{fullShare} W main_v5_1)
      ∗ ((SparseCore.T d).loc main_v6 ↦{fullShare} W main_v6)
      ∗ ((SparseCore.T d).loc main_v7 ↦{fullShare} W main_v7)
      ∗ ((SparseCore.T d).loc main_v8_0 ↦{fullShare} W main_v8_0)
      ∗ ((SparseCore.T d).loc main_v8_1 ↦{fullShare} W main_v8_1)
      ∗ ((SparseCore.T d).loc main_v9 ↦{fullShare} W main_v9)
      ∗ ((SparseCore.T d).loc main_v10 ↦{fullShare} W main_v10)
      ∗ ((SparseCore.T d).loc main_v11_0 ↦{fullShare} W main_v11_0)
      ∗ ((SparseCore.T d).loc main_v11_1 ↦{fullShare} W main_v11_1)
      ∗ ((SparseCore.T d).loc main_v12 ↦{fullShare} W main_v12)
      ∗ ((SparseCore.T d).loc main_v13 ↦{fullShare} W main_v13)
      ∗ ((SparseCore.T d).loc main_v14_0 ↦{fullShare} W main_v14_0)
      ∗ ((SparseCore.T d).loc main_v14_1 ↦{fullShare} W main_v14_1)
      ∗ ((SparseCore.T d).loc main_v15 ↦{fullShare} W main_v15)
      ∗ ((SparseCore.T d).loc main_v16 ↦{fullShare} W main_v16)
      ∗ ((SparseCore.T d).loc main_v17 ↦{fullShare} W main_v17)
      ∗ ((SparseCore.T d).loc main_v18 ↦{fullShare} W main_v18)) := by
  unfold unscopedBufs
  rw [show (Finset.univ.filter fun b : Ref sig .tc => ¬ b.isScoped) = {main_arg0, main_arg1, main_arg2, main_arg3, main_arg4, main_arg5, main_v0, main_v1, main_v2, main_v3, main_v4, main_v5_0, main_v5_1, main_v6, main_v7, main_v8_0, main_v8_1, main_v9, main_v10, main_v11_0, main_v11_1, main_v12, main_v13, main_v14_0, main_v14_1, main_v15, main_v16, main_v17, main_v18} by decide +kernel,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KI

end
-- ==== Proof.LaunchElem.lean ====
/-
  The launch element of the ghost state, and what the launch deals @main from it.

  The element has three parts: the four handshake cells' rounds at their launch state, the rounds of the staging
  cells of the four TensorCore regions at theirs, and the transfers' counters at the unit. The first goes to the launch
  theorem; the second funds, per device and region, the ghost state of that region's staging cells and its duty tokens
  (no counter is consumed and no invariant allocated yet: each region allocates its cells' invariants when @main
  reaches it); the counters are dropped, no kernel of this program needing a schedule of its own.
-/
import proofs.«204601_g21792664060648_cont_8to1_111_20_alg».proof.Proof.Common
import proofs.«204601_g21792664060648_cont_8to1_111_20_alg».proof.Proof.Gen.KernelIdeal.Launch

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-- The launch element: handshakes, staging cells, counters. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main on device `d` starts from beyond its arrays: each region's staging cells' ghost state and duty tokens. -/
def G (d : Dev nD) : sProp 𝕄 :=
  bigSep Finset.univ fun p : Fin 4 =>
    iprop(Pipeline.cellsGhost (nD := nD) (τ := τ) cfgs (EP (F := F)) p d ∗ Pipeline.toksInit (nD := nD) (τ := τ) cfgs (EP (F := F)) p d)

theorem bigSep_emp' {I : Type} (s : Finset I) : (bigSep s fun _ => iprop(emp)) = (iprop(emp) : sProp 𝕄) := bigSep_emp_const s

/-- The launch element yields the handshakes' rounds and every device's regions' ghost state. -/
theorem hu₀_core : (ownU (u₀ (F := F)) : sProp 𝕄)
    ⊢ |={Set.univ}=> iprop(BI.own (EH (initOf (K (F := F)).hsCells (K (F := F)).hsToks)) ∗ (bigSep Finset.univ fun d : Dev nD => G (F := F) d)) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄)) _) : sProp 𝕄) = BI.own ((EP (F := F)) _) from rfl)) $$ HP
  imod (Pipeline.fund_ghost (nD := nD) (τ := τ) cfgs (EP (F := F)) cellOf_inj) $$ HP' with ⟨Hg, Ht⟩
  imodintro
  isplitl [HH]; · iexact HH
  unfold G
  simp only [bigSep_sep']
  isplitl [Hg]; · iexact Hg
  iexact Ht

end Cert.Proof.KI

end
-- ==== Proof.TcSt4.lean ====
/-
  The TensorCore's handshake state after the last SparseCore call.

  After the fourth call the TensorCore owes the launch protocol nothing more: its state is what it owes — nothing —
  with its recorded waits bounded, beside its position on the handshake cells. The regions that follow wait only on
  their own staging semaphores, at the index no handshake uses, whose level is the lowest: recording such waits keeps
  the bound.
-/
import proofs.«204601_g21792664060648_cont_8to1_111_20_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-- The rest of the TensorCore's state before call 4 (there is none): its position on its `done` cell and the rounds
    reached. -/
def tcRest4 (d : Dev nD) : sProp 𝕄 :=
  iprop(atPos EH ((K (F := F)).doneCell d) 4 ∅ 0 ∗ reached EH ((K (F := F)).doneCell d) 4
    ∗ (bigSep Finset.univ fun c : Fin τ.nSC => reached EH ((K (F := F)).startCell d c) ((K (F := F)).sRank c 4))
    ∗ bigSep (SparseCore.Cfg.callsFrom (Q := 4) 4) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt4_eq (d : Dev nD) :
    ((K (F := F)).tcSt EH d 4 : sProp 𝕄)
      = iprop((∃ W, ⌜(K (F := F)).WBelow (SparseCore.T d) W (8 * 4)⌝ ∗ owes (SparseCore.T d) (0 : CellTallies nD τ sig (HIx 4)) W) ∗ tcRest4 (F := F) d) := by
  unfold SparseCore.Cfg.tcSt tcRest4
  rw [(K (F := F)).Otc_end d (le_refl 4)]

/-- Waits recorded at the index no handshake uses keep the bound on the recorded waits. -/
theorem wBelow_of_none {d : Dev nD} {W W' : Waits sig (HIx 4)} {b : ℕ} (hW : (K (F := F)).WBelow (SparseCore.T d) W b)
    (h : ∀ p ∈ W', p ∈ W ∨ p.2 = none) : (K (F := F)).WBelow (SparseCore.T d) W' b := by
  intro p hp
  rcases h p hp with hp' | hp'
  · exact hW p hp'
  · rw [hp']; exact Nat.zero_le _

end Cert.Proof.KI

end
-- ==== Proof.Final.lean ====
/-
  What @main leaves for the claim, and how the final memory reads it.

  At its end @main holds its result array whole at its final contents and its six argument arrays whole at their launch
  contents. Whatever the physical final state, a points-to pins the contents of the array it names, so the final memory has
  the result at those contents and the arguments unchanged.
-/
import proofs.«204601_g21792664060648_cont_8to1_111_20_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

variable (m : (ℓ : Loc nD τ sig) → Buf (Elt F) ℓ) (vf : (d : Dev nD) → Buf (Elt F) ((SparseCore.T d).loc main_v18))

def FIN (d : Dev nD) : sProp 𝕄 :=
  iprop((((SparseCore.T d).loc main_v18) ↦{fullShare} vf d)
    ∗ (((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5)))

def fq (d : Dev nD) (s' : Phys nD τ sig (Elt F)) : Prop :=
  s'.mem.mem ((SparseCore.T d).loc main_v18) = vf d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)

theorem hfin (d : Dev nD) (s' : Phys nD τ sig (Elt F)) : iprop(FIN m vf d ∗ SI s') ⊢ (⌜fq m vf d s'⌝ : sProp 𝕄) := by
  unfold FIN
  iintro ⟨⟨H0, H1, H2, H3, H4, H5, H6⟩, HSI⟩
  ihave H := (persistent_entails_right (SI_pointsTo_agree (st := s') (ℓ := ((SparseCore.T d).loc main_v18)) (I := Finset.univ) (q := fullShare) (f := vf d))) $$ [HSI H0]
  · isplitl [HSI] <;> iassumption
  icases H with ⟨%h0, HSI, -⟩
  ihave H := (persistent_entails_right (SI_pointsTo_agree (st := s') (ℓ := ((SparseCore.T d).loc main_arg0)) (I := Finset.univ) (q := fullShare) (f := m ((SparseCore.T d).loc main_arg0)))) $$ [HSI H1]
  · isplitl [HSI] <;> iassumption
  icases H with ⟨%h1, HSI, -⟩
  ihave H := (persistent_entails_right (SI_pointsTo_agree (st := s') (ℓ := ((SparseCore.T d).loc main_arg1)) (I := Finset.univ) (q := fullShare) (f := m ((SparseCore.T d).loc main_arg1)))) $$ [HSI H2]
  · isplitl [HSI] <;> iassumption
  icases H with ⟨%h2, HSI, -⟩
  ihave H := (persistent_entails_right (SI_pointsTo_agree (st := s') (ℓ := ((SparseCore.T d).loc main_arg2)) (I := Finset.univ) (q := fullShare) (f := m ((SparseCore.T d).loc main_arg2)))) $$ [HSI H3]
  · isplitl [HSI] <;> iassumption
  icases H with ⟨%h3, HSI, -⟩
  ihave H := (persistent_entails_right (SI_pointsTo_agree (st := s') (ℓ := ((SparseCore.T d).loc main_arg3)) (I := Finset.univ) (q := fullShare) (f := m ((SparseCore.T d).loc main_arg3)))) $$ [HSI H4]
  · isplitl [HSI] <;> iassumption
  icases H with ⟨%h4, HSI, -⟩
  ihave H := (persistent_entails_right (SI_pointsTo_agree (st := s') (ℓ := ((SparseCore.T d).loc main_arg4)) (I := Finset.univ) (q := fullShare) (f := m ((SparseCore.T d).loc main_arg4)))) $$ [HSI H5]
  · isplitl [HSI] <;> iassumption
  icases H with ⟨%h5, HSI, -⟩
  ihave H := (SI_pointsTo_agree (st := s') (ℓ := ((SparseCore.T d).loc main_arg5)) (I := Finset.univ) (q := fullShare) (f := m ((SparseCore.T d).loc main_arg5))) $$ [HSI H6]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i)⟩

def QC : PUnit × MemSt nD τ sig (Elt F) → Prop := fun r => ∀ c : Dev nD,
  r.2.mem ((SparseCore.T c).loc main_v18) = vf c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)

theorem hQC (s' : Phys nD τ sig (Elt F)) (h : ∀ d, fq m vf d s') : QC m vf (⟨⟩, s'.mem) := fun c => h c

end Cert.Proof.KI

end
-- ==== Proof.PreFacts.lean ====
/-
  What the precondition says of the two token arrays: every token, read as a natural number, is below the height
  100000 of the table it indexes.

  The precondition is a conjunction of six "all entries satisfy …" tests; the last two say of each token `t` that
  `0 ≤ t` and `t ≤ 99999` as signed 32-bit integers. A signed word that is nonnegative reads the same unsigned, so
  its value as a natural number is at most 99999.
-/
import proofs.«204601_g21792664060648_cont_8to1_111_20_alg».proof.Pre_input_domain
import Idealize.ShloMosaic.Lib.ReduceAll
import Idealize.ShloMosaic.Lib.ValueIdx

namespace Cert.PreFacts

open Idealize.ShloMosaic Cert.Pre_input_domain

/-- The rank-0 shape has one index. -/
instance : Subsingleton S_.Idx := ⟨fun a b => funext fun d => d.elim0⟩

/-- A 32-bit word that is at least 0 and at most 99999 as a signed integer is below 100000 as a natural number. -/
theorem toNat_lt_of_signed_bounds {x : BitVec 32} (h1 : IntOp.cmpi .sge x 0#32 = 1#1)
    (h2 : IntOp.cmpi .sle x 99999#32 = 1#1) : x.toNat < 100000 := by
  rw [IntOp.cmpi_sge, show (0#32 : BitVec 32).toInt = 0 from by decide] at h1
  rw [IntOp.cmpi_sle, show (99999#32 : BitVec 32).toInt = 99999 from by decide] at h2
  have hx := BitVec.toInt_eq_toNat_cond x
  split at hx <;> omega

/-- One "all tokens are within `[0, 99999]`" test, read back at every entry. -/
theorem all_lt (a : IVec S16384 32) (hb : S_.BroadcastsInDim S16384 (![] : Fin 0 → Fin S16384.rank))
    (hr : S16384.ReducesTo [0] S_) (hu : 0 < S_.numel) (j0 : S_.Idx)
    (e : Host.reduce IntOp.andi
          (andi (cmpi .sge a (broadcastInDim S16384 ![] hb (constantI S_ 32 0#32)))
                (cmpi .sle a (broadcastInDim S16384 ![] hb (constantI S_ 32 99999#32))))
          (constantI S_ 1 1#1) hr hu j0 = 1#1) :
    ∀ j, (a j).toNat < 100000 := by
  intro j
  have hj := Host.reduce_andi_all _ _ hr hu j0 e j
  obtain ⟨h1, h2⟩ := IntOp.andi_eq_one.1 hj
  exact toNat_lt_of_signed_bounds h1 h2

theorem tok_lt {F : FTy → Type} [FloatOps F] [Cert.Pre_input_domain.Facts]
    (a0 a1 : IVec Cert.Pre_input_domain.S16384 32) (a2 a3 : FVec F Cert.Pre_input_domain.S100000x128 .f32)
    (a4 : FVec F Cert.Pre_input_domain.S256x128 .f32) (a5 : FVec F Cert.Pre_input_domain.S128 .f32)
    (h : Cert.Pre_input_domain.fn (F := F) a0 a1 a2 a3 a4 a5 = fun _ => 1#1) :
    (∀ j, (a0 j).toNat < 100000) ∧ (∀ j, (a1 j).toNat < 100000) := by
  have h0 := congrFun h ValueIdx.ix0
  dsimp only [Cert.Pre_input_domain.fn, Cert.Pre_input_domain.fn_part1] at h0
  obtain ⟨h01, hA1⟩ := IntOp.andi_eq_one.1 h0
  obtain ⟨_, hA0⟩ := IntOp.andi_eq_one.1 h01
  exact ⟨all_lt a0 _ _ _ _ hA0, all_lt a1 _ _ _ _ hA1⟩

end Cert.PreFacts
-- ==== Proof.TokBound.lean ====
/-
  The tokens every call sees are in range.

  The precondition bounds every entry of both token inputs by `0 ≤ t ≤ 99999`; as a natural number each is then below
  the tables' height 100000. A reshape and a slice only re-index: every entry of a call's token array is an entry of
  the input, so it is below the height too — which is what makes every row gather of every call name a row that exists.
-/
import proofs.«204601_g21792664060648_cont_8to1_111_20_alg».proof.Proof.Pay
import proofs.«204601_g21792664060648_cont_8to1_111_20_alg».proof.Proof.PreFacts
import proofs.«204601_g21792664060648_cont_8to1_111_20_alg».proof.Proof.Gen.Pre_input_domain

noncomputable section

namespace Cert.Proof.KI

open Cert.KernelIdeal Cert.KernelIdeal.Gen
open Idealize.ShloMosaic
open Idealize.ShloMosaic.SparseCore (S V T)
open Idealize.SL.Sem

variable {F : FTy → Type}
variable (m : (ℓ : Loc nD τ sig) → Buf (Elt F) ℓ)

/-- Every token of both inputs, on every device, is below the tables' height. -/
def PreOK : Prop :=
  ∀ d : Dev nD, (∀ j, (m ((SparseCore.T d).loc main_arg0) j).toNat < 100000) ∧ (∀ j, (m ((SparseCore.T d).loc main_arg1) j).toNat < 100000)

variable {m}

theorem tokA_lt (h : PreOK m) (d : Dev nD) (q : Fin 4) (j : S32x128.Idx) : (tokA m d q j).toNat < 100000 := by
  match q with
  | 0 => exact (h d).1 _
  | 1 => exact (h d).1 _
  | 2 => exact (h d).1 _
  | 3 => exact (h d).1 _
theorem tokB_lt (h : PreOK m) (d : Dev nD) (q : Fin 4) (j : S32x128.Idx) : (tokB m d q j).toNat < 100000 := by
  match q with
  | 0 => exact (h d).2 _
  | 1 => exact (h d).2 _
  | 2 => exact (h d).2 _
  | 3 => exact (h d).2 _

/-- The claim's precondition gives it. -/
theorem preOK_of_pre [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))) = (fun _ => 1#1)) :
    PreOK m := fun d => Cert.PreFacts.tok_lt _ _ _ _ _ _ (h d)

end Cert.Proof.KI

end
-- ==== Proof.GatherRead.lean ====
/-
  Reading what whole-rectangle writes and row gathers leave.

  A buffer written whole through a view reads back as the payload. A gather of 128 rows of a 100000×128 table, by a
  list of 128 words, delivers at row `k` the table's row named by word `k` of the list. A rectangle at offset zero of
  full extent places every index at itself, so a table sliced whole reads as the table. Word `k` of a list of 128,
  seen as a 1×128 row, sits at column `k`.
-/
import proofs.«204601_g21792664060648_cont_8to1_111_20_alg».proof.Proof.TileRes
import Idealize.ShloMosaic.Lib.SparseCore.Stream

noncomputable section

namespace Cert.Proof.KI

open Cert.KernelIdeal Cert.KernelIdeal.Gen

open Idealize.ShloMosaic Idealize.ShloMosaic.ValueIdx
open Idealize.SL Idealize.SL.RA Idealize.SL.BI
open scoped Idealize.SL.BI

variable {F : FTy → Type}

/-- Two cells of one thread at different semaphores are different cells. -/
theorem cell_ne {thr : Thread nD τ} {a b : SemLoc sig} (h : a ≠ b) : ((thr, a) : GSem nD τ sig) ≠ (thr, b) :=
  fun e => h (Prod.mk.inj e).2

/-- A buffer written whole through a view reads as the payload through that view. -/
theorem read_writes_whole {sg : RefSig} {κ : Kind} {sp : Space} {s : Shape} {e : EltTy} {Val : EltTy → Type}
    (v : View sg κ sp s e) (f : v.ty.Contents Val) (w : s.Idx → Val e) (x : s.Idx) :
    v.read Val (v.writes Val f [⟨Rect.whole s, w⟩]) x = w x := by
  have h := View.read_writes_cons_emb v f (Rect.whole s) w [] x
  rwa [Rect.emb_whole_apply] at h

/-- Entry `k` of a list of 128 words, in row-major order, is the list at `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- The payload of a gather of 128 rows of a 100000×128 table: row `x 0` of the payload is the table's row named by
    word `x 0` of the list. -/
theorem gather_apply (t : S100000x128.Idx → Elt F .f32) (idx : S128.Idx → Elt F .i32)
    (hn : S128.numel = S128x128.size gathers_S100000x128_S128x128.axis')
    (h : ∀ x, (idx x).toNat < S100000x128.size gathers_S100000x128_S128x128.axis) (x : S128x128.Idx) :
    SparseCore.gatherPayload gathers_S100000x128_S128x128 t (SparseCore.rows idx hn h) x
      = t (ix2 (⟨(idx (ix1 (n := 128) (x 0))).toNat, h _⟩ : Fin 100000) (x 1)) := by
  unfold SparseCore.gatherPayload
  congr 1
  funext b
  apply Fin.ext
  match b with
  | ⟨0, _⟩ =>
    have h0 := Shape.Gathers.idx_axis gathers_S100000x128_S128x128 (SparseCore.rows idx hn h) x
    show ((gathers_S100000x128_S128x128.idx (SparseCore.rows idx hn h) x) gathers_S100000x128_S128x128.axis).val = _
    rw [h0]
    unfold SparseCore.rows
    simp only [rowMajor_symm_S128]
    rfl
  | ⟨1, _⟩ =>
    exact Shape.Gathers.idx_of_ne gathers_S100000x128_S128x128 (SparseCore.rows idx hn h) x ⟨1, by decide⟩ (by decide)

/-- The two tables, sliced whole as the kernels slice them. -/
abbrev srcA : Memref sig .scVector .hbm S100000x128 .f32 :=
  (Memref.whole main_arg2_scv).slice (Rect.unit (s := S100000x128) ![0, 0] S100000x128.size inb_S100000x128_S100000x128_0_0) (fun _ => rfl)
abbrev srcB : Memref sig .scVector .hbm S100000x128 .f32 :=
  (Memref.whole main_arg3_scv).slice (Rect.unit (s := S100000x128) ![0, 0] S100000x128.size inb_S100000x128_S100000x128_0_0) (fun _ => rfl)

/-- A rectangle at offset zero of full extent places an index at itself. -/
theorem full_emb (z : S100000x128.Idx) :
    (Rect.unit (s := S100000x128) ![0, 0] S100000x128.size inb_S100000x128_S100000x128_0_0).emb z = z := by
  funext a; apply Fin.ext
  rw [Rect.emb_apply]
  match a with
  | ⟨0, _⟩ => simp
  | ⟨1, _⟩ => simp

theorem srcA_read (t : S100000x128.Idx → Elt F .f32) (z : S100000x128.Idx) : srcA.view.read (Elt F) t z = t z := by
  rw [View.read_apply, cast_eq]
  show t ((Rect.unit (s := S100000x128) ![0, 0] S100000x128.size inb_S100000x128_S100000x128_0_0).emb z) = _
  rw [full_emb]
theorem srcB_read (t : S100000x128.Idx → Elt F .f32) (z : S100000x128.Idx) : srcB.view.read (Elt F) t z = t z := by
  rw [View.read_apply, cast_eq]
  show t ((Rect.unit (s := S100000x128) ![0, 0] S100000x128.size inb_S100000x128_S100000x128_0_0).emb z) = _
  rw [full_emb]

/-- Word `k` of a list of 128, seen as a 1×128 row, is at column `k`. -/
theorem unsq_apply (k : Fin 128) :
    Shape.reshapeEquiv squeezes_S1x128_S128.numel_eq (ix1 k) = (ix2 (0 : Fin 1) k : S1x128.Idx) :=
  Shape.reshapeEquiv_eq_of_rowMajor _ (by rw [Shape.rowMajor_val_two, Shape.rowMajor_val_one]; simp)

end Cert.Proof.KI

end
-- ==== Proof.Tile0.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.TileRes
import proofs.«204601_g21792664060648_cont_8to1_111_20_alg».proof.Proof.GatherRead
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid0.Coords)

/-- The cell of one of the tile's DMA semaphores. -/
abbrev cell_c0 (s : DmaSems sig S_) : GSem nD τ sig := (V d (cV L) (jV L), SemLoc.dma s.sem)

theorem cell_mem_c0 (s : DmaSems sig S_) (h : (SemLoc.dma s.sem : SemLoc sig).isScoped .scVector = true) :
    cell_c0 d L s ∈ ownCells (V d (cV L) (jV L)) := (mem_ownCells (g := cell_c0 d L s)).mpr ⟨rfl, h⟩

/-- The tile's own semaphores: the six this kernel uses, and the rest. -/
theorem sems_c0 :
    (ownSems0 (V d (cV L) (jV L)) : sProp 𝕄)
      = iprop(semVal (cell_c0 d L cc0_scratch3) 0 ∗ semVal (cell_c0 d L cc0_scratch4) 0 ∗ semVal (cell_c0 d L cc0_scratch5) 0
          ∗ semVal (cell_c0 d L cc0_scratch6) 0 ∗ semVal (cell_c0 d L cc0_scoped0) 0 ∗ semVal (cell_c0 d L cc0_scoped1) 0
          ∗ bigSep ((((((((ownCells (V d (cV L) (jV L))).erase (cell_c0 d L cc0_scratch3)).erase (cell_c0 d L cc0_scratch4)).erase (cell_c0 d L cc0_scratch5)).erase
              (cell_c0 d L cc0_scratch6)).erase (cell_c0 d L cc0_scoped0)).erase (cell_c0 d L cc0_scoped1))) fun g => semVal g 0) := by
  unfold SparseCore.Cfg.ownSems0
  rw [SparseCore.bigSep_erase' (cell_mem_c0 d L cc0_scratch3 (by decide)),
    SparseCore.bigSep_erase' (Finset.mem_erase.mpr ⟨cell_ne (by decide), cell_mem_c0 d L cc0_scratch4 (by decide)⟩),
    SparseCore.bigSep_erase' (Finset.mem_erase.mpr ⟨cell_ne (by decide), Finset.mem_erase.mpr ⟨cell_ne (by decide), cell_mem_c0 d L cc0_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c0 d L cc0_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c0 d L cc0_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c0 d L cc0_scoped1 (by decide)⟩⟩⟩⟩⟩)]

/-- The tile's own buffers: the three scratches of this kernel, at some contents, and the rest. -/
theorem bufs_c0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The arrays as the tile's memrefs address them are the TensorCore's arrays; the scratches are the tile's own. -/
theorem pts_rowA_c0 (f : Buf (Elt F) (tokA0 d)) :
    ((rowA0 L).view.loc (V d (cV L) (jV L)) ↦[(rowA0 L).view.set]{fullShare} f : sProp 𝕄) = tokA0 d ↦[(rowA0 L).view.set]{fullShare} f := rfl
theorem pts_rowB_c0 (f : Buf (Elt F) (tokB0 d)) :
    ((rowB0 L).view.loc (V d (cV L) (jV L)) ↦[(rowB0 L).view.set]{fullShare} f : sProp 𝕄) = tokB0 d ↦[(rowB0 L).view.set]{fullShare} f := rfl
theorem pts_blkA_c0 (f : Buf (Elt F) (outA0 d)) :
    ((blkA0 L).view.loc (V d (cV L) (jV L)) ↦[(blkA0 L).view.set]{fullShare} f : sProp 𝕄) = outA0 d ↦[(blkA0 L).view.set]{fullShare} f := rfl
theorem pts_blkB_c0 (f : Buf (Elt F) (outB0 d)) :
    ((blkB0 L).view.loc (V d (cV L) (jV L)) ↦[(blkB0 L).view.set]{fullShare} f : sProp 𝕄) = outB0 d ↦[(blkB0 L).view.set]{fullShare} f := rfl
theorem pts_tabA_c0 (q : PosShare TreeShare) (f : Buf (Elt F) (tabA d)) :
    ((Memref.whole main_arg2_scv : Memref sig .scVector .hbm S100000x128 .f32).view.loc (V d (cV L) (jV L)) ↦{q} f : sProp 𝕄) = tabA d ↦{q} f := rfl
theorem pts_tabB_c0 (q : PosShare TreeShare) (f : Buf (Elt F) (tabB d)) :
    ((Memref.whole main_arg3_scv : Memref sig .scVector .hbm S100000x128 .f32).view.loc (V d (cV L) (jV L)) ↦{q} f : sProp 𝕄) = tabB d ↦{q} f := rfl
theorem pts_s0_c0 (f : Buf (Elt F) ((V d (cV L) (jV L)).loc cc0_scratch0)) :
    ((Memref.whole cc0_scratch0 : Memref sig .scVector .vmem S2x128 .i32).view.loc (V d (cV L) (jV L)) ↦{fullShare} f : sProp 𝕄) = (V d (cV L) (jV L)).loc cc0_scratch0 ↦{fullShare} f := rfl
theorem pts_s1_c0 (f : Buf (Elt F) ((V d (cV L) (jV L)).loc cc0_scratch1)) :
    ((Memref.whole cc0_scratch1 : Memref sig .scVector .vmem S128x128 .f32).view.loc (V d (cV L) (jV L)) ↦{fullShare} f : sProp 𝕄) = (V d (cV L) (jV L)).loc cc0_scratch1 ↦{fullShare} f := rfl
theorem pts_s2_c0 (f : Buf (Elt F) ((V d (cV L) (jV L)).loc cc0_scratch2)) :
    ((Memref.whole cc0_scratch2 : Memref sig .scVector .vmem S128x128 .f32).view.loc (V d (cV L) (jV L)) ↦{fullShare} f : sProp 𝕄) = (V d (cV L) (jV L)).loc cc0_scratch2 ↦{fullShare} f := rfl

/-- The two rows of the index scratch, as offset lists. -/
abbrev idxA_c0 : Memref sig .scVector .vmem S128 .i32 :=
  ((Memref.whole cc0_scratch0).slice (Rect.unit (s := S2x128) ![0, 0] S1x128.size inb_S2x128_S1x128_0_0) (fun _ => rfl)).squeeze S128 squeezes_S1x128_S128
abbrev idxB_c0 : Memref sig .scVector .vmem S128 .i32 :=
  ((Memref.whole cc0_scratch0).slice (Rect.unit (s := S2x128) ![1, 0] S1x128.size inb_S2x128_S1x128_1_0) (fun _ => rfl)).squeeze S128 squeezes_S1x128_S128

/-- The index scratch after the two row copies, over any prior contents. -/
abbrev idxBuf_c0 (L : grid0.Coords) (i0 i1 : S32x128.Idx → BitVec 32) (g : Buf (Elt F) ((V d (cV L) (jV L)).loc cc0_scratch0)) :
    Buf (Elt F) ((V d (cV L) (jV L)).loc cc0_scratch0) :=
  (Memref.whole cc0_scratch0 : Memref sig .scVector .vmem S2x128 .i32).view.writes (Elt F) g
    [⟨Rect.unit (s := S2x128) ![1, 0] S1x128.size inb_S2x128_S1x128_1_0, ReadAs.same.apply ((rowB0 L).view.read (Elt F) i1)⟩,
     ⟨Rect.unit (s := S2x128) ![0, 0] S1x128.size inb_S2x128_S1x128_0_0, ReadAs.same.apply ((rowA0 L).view.read (Elt F) i0)⟩]

variable (i0 i1 : S32x128.Idx → BitVec 32)

/-- Entry `x` of the first offset list is the token at column `x` of the tile's row of the first token array,
    whatever the scratch held before the two row copies. -/
theorem idxA_read_c0 (g : Buf (Elt F) ((V d (cV L) (jV L)).loc cc0_scratch0)) (x : S128.Idx) :
    idxA_c0.view.read (Elt F) (idxBuf_c0 (F := F) d L i0 i1 g) x
      = (rowA0 L).view.read (Elt F) i0 (Shape.reshapeEquiv squeezes_S1x128_S128.numel_eq x) := by
  show (Memref.whole cc0_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc0_scratch0 : Memref sig .scVector .vmem S2x128 .i32).view g
    (⟨Rect.unit (s := S2x128) ![1, 0] S1x128.size inb_S2x128_S1x128_1_0, ReadAs.same.apply ((rowB0 L).view.read (Elt F) i1)⟩ : View.Piece (Elt F) S2x128 .i32)
    (⟨Rect.unit (s := S2x128) ![0, 0] S1x128.size inb_S2x128_S1x128_0_0, ReadAs.same.apply ((rowA0 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c0 (F := F) d L i0 i1 g = _ from hsw, View.read_writes_cons_emb]

theorem idxB_read_c0 (g : Buf (Elt F) ((V d (cV L) (jV L)).loc cc0_scratch0)) (x : S128.Idx) :
    idxB_c0.view.read (Elt F) (idxBuf_c0 (F := F) d L i0 i1 g) x
      = (rowB0 L).view.read (Elt F) i1 (Shape.reshapeEquiv squeezes_S1x128_S128.numel_eq x) := by
  show (Memref.whole cc0_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c0 (hin0 : ∀ j, (i0 j).toNat < 100000) (g : Buf (Elt F) ((V d (cV L) (jV L)).loc cc0_scratch0)) (x : S128.Idx) :
    (idxA_c0.view.read (Elt F) (idxBuf_c0 (F := F) d L i0 i1 g) x).toNat < 100000 := by
  rw [idxA_read_c0, View.read_apply, cast_eq]; exact hin0 _
theorem hinB_c0 (hin1 : ∀ j, (i1 j).toNat < 100000) (g : Buf (Elt F) ((V d (cV L) (jV L)).loc cc0_scratch0)) (x : S128.Idx) :
    (idxB_c0.view.read (Elt F) (idxBuf_c0 (F := F) d L i0 i1 g) x).toNat < 100000 := by
  rw [idxB_read_c0, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c0 (x : S128x128.Idx) :
    (rowA0 L).view.read (Elt F) i0 (Shape.reshapeEquiv squeezes_S1x128_S128.numel_eq (ix1 (n := 128) (x 0)))
      = i0 (ix2 (⟨(((blkA0 L).view.emb x) 0).val / 128, Nat.div_lt_of_lt_mul (((blkA0 L).view.emb x) 0).isLt⟩ : Fin 32)
          (⟨(((blkA0 L).view.emb x) 0).val % 128, Nat.mod_lt _ (by decide)⟩ : Fin 128)) := by
  rw [View.read_apply, cast_eq]
  refine congrArg i0 ?_
  refine (congrArg (rowA0 L).view.emb (unsq_apply (x 0))).trans ?_
  have hx : (x 0).val < 128 := (x 0).isLt
  have hL0 : (L 0).val < 2 := (L 0).isLt
  funext a; apply Fin.ext
  match a with
  | ⟨0, _⟩ =>
    show (k0_off1 L) 0 + 1 * 0 = ((k0_off2 L) 0 + 1 * (x 0).val) / 128
    rw [k0_off1_eq, k0_off2_eq]
    simp only [Matrix.cons_val_zero]
    omega
  | ⟨1, _⟩ =>
    show (k0_off1 L) 1 + 1 * (x 0).val = ((k0_off2 L) 0 + 1 * (x 0).val) % 128
    rw [k0_off1_eq, k0_off2_eq]
    simp only [Matrix.cons_val_zero, Matrix.cons_val_one]
    omega

/-- The block a tile writes of the first result is the gathered array's. -/
theorem valA_c0 (hin0 : ∀ j, (i0 j).toNat < 100000) (fo : Buf (Elt F) (outA0 d)) (fs : Buf (Elt F) ((V d (cV L) (jV L)).loc cc0_scratch1))
    (g0 : Buf (Elt F) ((V d (cV L) (jV L)).loc cc0_scratch0))
    (hn : S128.numel = S128x128.size gathers_S100000x128_S128x128.axis')
    (hin : ∀ x, (idxA_c0.view.read (Elt F) (idxBuf_c0 (F := F) d L i0 i1 g0) x).toNat < S100000x128.size gathers_S100000x128_S128x128.axis) :
    ∀ y ∈ (blkA0 L).view.set,
      (blkA0 L).view.writes (Elt F) fo [⟨Rect.whole S128x128, ReadAs.same.apply
          ((Memref.whole cc0_scratch1 : Memref sig .scVector .vmem S128x128 .f32).view.read (Elt F)
            ((Memref.whole cc0_scratch1 : Memref sig .scVector .vmem S128x128 .f32).view.writes (Elt F) fs
              [⟨Rect.whole S128x128, SparseCore.gatherPayload gathers_S100000x128_S128x128 (srcA.view.read (Elt F) t0)
                  (SparseCore.rows (idxA_c0.view.read (Elt F) (idxBuf_c0 (F := F) d L i0 i1 g0)) hn hin)⟩]))⟩] y
        = gathered i0 t0 y := by
  intro y hy
  obtain ⟨x, -, rfl⟩ := Finset.mem_map.mp hy
  have h1 := read_writes_whole (Val := Elt F) (blkA0 L).view fo (ReadAs.same.apply
          ((Memref.whole cc0_scratch1 : Memref sig .scVector .vmem S128x128 .f32).view.read (Elt F)
            ((Memref.whole cc0_scratch1 : Memref sig .scVector .vmem S128x128 .f32).view.writes (Elt F) fs
              [⟨Rect.whole S128x128, SparseCore.gatherPayload gathers_S100000x128_S128x128 (srcA.view.read (Elt F) t0)
                  (SparseCore.rows (idxA_c0.view.read (Elt F) (idxBuf_c0 (F := F) d L i0 i1 g0)) hn hin)⟩]))) x
  rw [View.read_apply, cast_eq] at h1
  refine h1.trans ?_
  refine (read_writes_whole (Val := Elt F) (Memref.whole cc0_scratch1 : Memref sig .scVector .vmem S128x128 .f32).view fs _ x).trans ?_
  refine (gather_apply (F := F) (srcA.view.read (Elt F) t0) (idxA_c0.view.read (Elt F) (idxBuf_c0 (F := F) d L i0 i1 g0)) hn hin x).trans ?_
  rw [srcA_read]
  unfold gathered
  refine congrArg t0 ?_
  funext a; apply Fin.ext
  match a with
  | ⟨0, _⟩ =>
    show (idxA_c0.view.read (Elt F) (idxBuf_c0 (F := F) d L i0 i1 g0) (ix1 (n := 128) (x 0))).toNat = (Cert.Spec.rowOf _).val
    rw [Cert.Spec.rowOf_of_lt (hin0 _), idxA_read_c0, tokA_c0]
  | ⟨1, _⟩ =>
    show (x 1).val = (k0_off2 L) 1 + 1 * (x 1).val
    rw [k0_off2_eq]
    simp

/-- The token by which row `x 0` of the tile's block is looked up: column `x 0` of the tile's row of the second token array is
    token `(y / 128, y % 128)` for `y` the row's place in the whole result. -/
theorem tokB_c0 (x : S128x128.Idx) :
    (rowB0 L).view.read (Elt F) i1 (Shape.reshapeEquiv squeezes_S1x128_S128.numel_eq (ix1 (n := 128) (x 0)))
      = i1 (ix2 (⟨(((blkB0 L).view.emb x) 0).val / 128, Nat.div_lt_of_lt_mul (((blkB0 L).view.emb x) 0).isLt⟩ : Fin 32)
          (⟨(((blkB0 L).view.emb x) 0).val % 128, Nat.mod_lt _ (by decide)⟩ : Fin 128)) := by
  rw [View.read_apply, cast_eq]
  refine congrArg i1 ?_
  refine (congrArg (rowB0 L).view.emb (unsq_apply (x 0))).trans ?_
  have hx : (x 0).val < 128 := (x 0).isLt
  have hL0 : (L 0).val < 2 := (L 0).isLt
  funext a; apply Fin.ext
  match a with
  | ⟨0, _⟩ =>
    show (k0_off1 L) 0 + 1 * 0 = ((k0_off2 L) 0 + 1 * (x 0).val) / 128
    rw [k0_off1_eq, k0_off2_eq]
    simp only [Matrix.cons_val_zero]
    omega
  | ⟨1, _⟩ =>
    show (k0_off1 L) 1 + 1 * (x 0).val = ((k0_off2 L) 0 + 1 * (x 0).val) % 128
    rw [k0_off1_eq, k0_off2_eq]
    simp only [Matrix.cons_val_zero, Matrix.cons_val_one]
    omega

/-- The block a tile writes of the second result is the gathered array's. -/
theorem valB_c0 (hin1 : ∀ j, (i1 j).toNat < 100000) (fo : Buf (Elt F) (outB0 d)) (fs : Buf (Elt F) ((V d (cV L) (jV L)).loc cc0_scratch2))
    (g0 : Buf (Elt F) ((V d (cV L) (jV L)).loc cc0_scratch0))
    (hn : S128.numel = S128x128.size gathers_S100000x128_S128x128.axis')
    (hin : ∀ x, (idxB_c0.view.read (Elt F) (idxBuf_c0 (F := F) d L i0 i1 g0) x).toNat < S100000x128.size gathers_S100000x128_S128x128.axis) :
    ∀ y ∈ (blkB0 L).view.set,
      (blkB0 L).view.writes (Elt F) fo [⟨Rect.whole S128x128, ReadAs.same.apply
          ((Memref.whole cc0_scratch2 : Memref sig .scVector .vmem S128x128 .f32).view.read (Elt F)
            ((Memref.whole cc0_scratch2 : Memref sig .scVector .vmem S128x128 .f32).view.writes (Elt F) fs
              [⟨Rect.whole S128x128, SparseCore.gatherPayload gathers_S100000x128_S128x128 (srcB.view.read (Elt F) t1)
                  (SparseCore.rows (idxB_c0.view.read (Elt F) (idxBuf_c0 (F := F) d L i0 i1 g0)) hn hin)⟩]))⟩] y
        = gathered i1 t1 y := by
  intro y hy
  obtain ⟨x, -, rfl⟩ := Finset.mem_map.mp hy
  have h1 := read_writes_whole (Val := Elt F) (blkB0 L).view fo (ReadAs.same.apply
          ((Memref.whole cc0_scratch2 : Memref sig .scVector .vmem S128x128 .f32).view.read (Elt F)
            ((Memref.whole cc0_scratch2 : Memref sig .scVector .vmem S128x128 .f32).view.writes (Elt F) fs
              [⟨Rect.whole S128x128, SparseCore.gatherPayload gathers_S100000x128_S128x128 (srcB.view.read (Elt F) t1)
                  (SparseCore.rows (idxB_c0.view.read (Elt F) (idxBuf_c0 (F := F) d L i0 i1 g0)) hn hin)⟩]))) x
  rw [View.read_apply, cast_eq] at h1
  refine h1.trans ?_
  refine (read_writes_whole (Val := Elt F) (Memref.whole cc0_scratch2 : Memref sig .scVector .vmem S128x128 .f32).view fs _ x).trans ?_
  refine (gather_apply (F := F) (srcB.view.read (Elt F) t1) (idxB_c0.view.read (Elt F) (idxBuf_c0 (F := F) d L i0 i1 g0)) hn hin x).trans ?_
  rw [srcB_read]
  unfold gathered
  refine congrArg t1 ?_
  funext a; apply Fin.ext
  match a with
  | ⟨0, _⟩ =>
    show (idxB_c0.view.read (Elt F) (idxBuf_c0 (F := F) d L i0 i1 g0) (ix1 (n := 128) (x 0))).toNat = (Cert.Spec.rowOf _).val
    rw [Cert.Spec.rowOf_of_lt (hin1 _), idxB_read_c0, tokB_c0]
  | ⟨1, _⟩ =>
    show (x 1).val = (k0_off2 L) 1 + 1 * (x 1).val
    rw [k0_off2_eq]
    simp

variable [FloatOps F] (sh : PosShare TreeShare)

/-- The task on the tile at grid coordinates `L`: from its rows of the token arrays, a read share of each table and
    its blocks of the results at any contents, to the same with the blocks at the gathered arrays. -/
theorem tile0 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes0 d L sh i0 i1 t0 t1
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L (Memref.whole main_v3_scv) (Memref.isWhole_whole _) (Memref.whole main_v4_scv) (Memref.isWhole_whole _) (Memref.whole main_arg2_scv) (Memref.isWhole_whole _) (Memref.whole main_arg3_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1)
          fun _ => iprop(tdRes0 d L sh i0 i1 t0 t1 ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton]; unfold k0_part1_skel
  rw [(K (F := F)).scopedBufs_V facts d (cV L) (jV L), SparseCore.Cfg.scopedSems0_V (Val := Elt F) d (cV L) (jV L), sems_c0, bufs_c0]
  unfold goRes0 tdRes0
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV L) (jV L)) hO) $$ Hlv
  ihave Hi0 := (Entails.of_eq (pts_rowA_c0 (F := F) d L _).symm) $$ Hi0
  ihave Hi1 := (Entails.of_eq (pts_rowB_c0 (F := F) d L _).symm) $$ Hi1
  ihave Ht0 := (Entails.of_eq (pts_tabA_c0 (F := F) d L _ _).symm) $$ Ht0
  ihave Ht1 := (Entails.of_eq (pts_tabB_c0 (F := F) d L _ _).symm) $$ Ht1
  ihave Ho0 := (Entails.of_eq (pts_blkA_c0 (F := F) d L _).symm) $$ Ho0
  ihave Ho1 := (Entails.of_eq (pts_blkB_c0 (F := F) d L _).symm) $$ Ho1
  ihave Hs0 := (Entails.of_eq (pts_s0_c0 (F := F) d L _).symm) $$ Hs0
  ihave Hs1 := (Entails.of_eq (pts_s1_c0 (F := F) d L _).symm) $$ Hs1
  ihave Hs2 := (Entails.of_eq (pts_s2_c0 (F := F) d L _).symm) $$ Hs2
  -- the offsets in range, at whatever the index scratch held before the two row copies
  have hinA := hinA_c0 (F := F) d L i0 i1 hin0
  have hinB := hinB_c0 (F := F) d L i0 i1 hin1
  sl_exec
  sl_step
  -- the two blocks are the gathered arrays'
  have hvA : ∀ y ∈ (blkA0 L).view.set,
      (blkA0 L).view.writes (Elt F) fo0 [⟨Rect.whole S128x128, tile0.sl.dma0_2 d L i0 i1 t0 fs1 hinA⟩] y = gathered i0 t0 y :=
    valA_c0 (F := F) d L i0 i1 t0 hin0 fo0 fs1 _ _ _
  have hvB : ∀ y ∈ (blkB0 L).view.set,
      (blkB0 L).view.writes (Elt F) fo1 [⟨Rect.whole S128x128, tile0.sl.dma0_3 d L i0 i1 t1 fs2 hinB⟩] y = gathered i1 t1 y :=
    valB_c0 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c0 (F := F) d L _)); iexact Hi0
    isplitl [Hi1]; · iapply (Entails.of_eq (pts_rowB_c0 (F := F) d L _)); iexact Hi1
    isplitl [Ht0]; · iapply (Entails.of_eq (pts_tabA_c0 (F := F) d L _ _)); iexact Ht0
    isplitl [Ht1]; · iapply (Entails.of_eq (pts_tabB_c0 (F := F) d L _ _)); iexact Ht1
    isplitl [Ho0]; · iapply (Entails.of_eq (pts_blkA_c0 (F := F) d L _)); iexact Ho0
    iapply (Entails.of_eq (pts_blkB_c0 (F := F) d L _)); iexact Ho1
  isplitl [Hs0 Hs1 Hs2 Hbufs]
  · isplitl [Hs0]; · iexists _; iapply (Entails.of_eq (pts_s0_c0 (F := F) d L _)); iexact Hs0
    isplitl [Hs1]; · iexists _; iapply (Entails.of_eq (pts_s1_c0 (F := F) d L _)); iexact Hs1
    isplitl [Hs2]; · iexists _; iapply (Entails.of_eq (pts_s2_c0 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KI

end
-- ==== Proof.Tile1.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.TileRes
import proofs.«204601_g21792664060648_cont_8to1_111_20_alg».proof.Proof.TileRes1
import proofs.«204601_g21792664060648_cont_8to1_111_20_alg».proof.Proof.GatherRead
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid1.Coords)

/-- The cell of one of the tile's DMA semaphores. -/
abbrev cell_c1 (s : DmaSems sig S_) : GSem nD τ sig := (V d (cV1 L) (jV1 L), SemLoc.dma s.sem)

theorem cell_mem_c1 (s : DmaSems sig S_) (h : (SemLoc.dma s.sem : SemLoc sig).isScoped .scVector = true) :
    cell_c1 d L s ∈ ownCells (V d (cV1 L) (jV1 L)) := (mem_ownCells (g := cell_c1 d L s)).mpr ⟨rfl, h⟩

/-- The tile's own semaphores: the six this kernel uses, and the rest. -/
theorem sems_c1 :
    (ownSems0 (V d (cV1 L) (jV1 L)) : sProp 𝕄)
      = iprop(semVal (cell_c1 d L cc1_scratch3) 0 ∗ semVal (cell_c1 d L cc1_scratch4) 0 ∗ semVal (cell_c1 d L cc1_scratch5) 0
          ∗ semVal (cell_c1 d L cc1_scratch6) 0 ∗ semVal (cell_c1 d L cc1_scoped0) 0 ∗ semVal (cell_c1 d L cc1_scoped1) 0
          ∗ bigSep ((((((((ownCells (V d (cV1 L) (jV1 L))).erase (cell_c1 d L cc1_scratch3)).erase (cell_c1 d L cc1_scratch4)).erase (cell_c1 d L cc1_scratch5)).erase
              (cell_c1 d L cc1_scratch6)).erase (cell_c1 d L cc1_scoped0)).erase (cell_c1 d L cc1_scoped1))) fun g => semVal g 0) := by
  unfold SparseCore.Cfg.ownSems0
  rw [SparseCore.bigSep_erase' (cell_mem_c1 d L cc1_scratch3 (by decide)),
    SparseCore.bigSep_erase' (Finset.mem_erase.mpr ⟨cell_ne (by decide), cell_mem_c1 d L cc1_scratch4 (by decide)⟩),
    SparseCore.bigSep_erase' (Finset.mem_erase.mpr ⟨cell_ne (by decide), Finset.mem_erase.mpr ⟨cell_ne (by decide), cell_mem_c1 d L cc1_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c1 d L cc1_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c1 d L cc1_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c1 d L cc1_scoped1 (by decide)⟩⟩⟩⟩⟩)]

/-- The tile's own buffers: the three scratches of this kernel, at some contents, and the rest. -/
theorem bufs_c1 :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f)
          ∗ (∃ f, (V d (cV1 L) (jV1 L)).loc cc1_scratch2 ↦{fullShare} f)
          ∗ bigSep ((((ownRefs (τ := τ) (.scVector (cV1 L) (jV1 L))).erase ((Proc.scVector (cV1 L) (jV1 L)).devRef cc1_scratch0)).erase
              ((Proc.scVector (cV1 L) (jV1 L)).devRef cc1_scratch1)).erase ((Proc.scVector (cV1 L) (jV1 L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV1 L) (jV1 L))
    (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV1 L) (jV1 L)) (b := (Proc.scVector (cV1 L) (jV1 L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV1 L) (jV1 L)) (b := (Proc.scVector (cV1 L) (jV1 L)).devRef cc1_scratch2) rfl⟩⟩)]

/-- The arrays as the tile's memrefs address them are the TensorCore's arrays; the scratches are the tile's own. -/
theorem pts_rowA_c1 (f : Buf (Elt F) (tokA1 d)) :
    ((rowA1 L).view.loc (V d (cV1 L) (jV1 L)) ↦[(rowA1 L).view.set]{fullShare} f : sProp 𝕄) = tokA1 d ↦[(rowA1 L).view.set]{fullShare} f := rfl
theorem pts_rowB_c1 (f : Buf (Elt F) (tokB1 d)) :
    ((rowB1 L).view.loc (V d (cV1 L) (jV1 L)) ↦[(rowB1 L).view.set]{fullShare} f : sProp 𝕄) = tokB1 d ↦[(rowB1 L).view.set]{fullShare} f := rfl
theorem pts_blkA_c1 (f : Buf (Elt F) (outA1 d)) :
    ((blkA1 L).view.loc (V d (cV1 L) (jV1 L)) ↦[(blkA1 L).view.set]{fullShare} f : sProp 𝕄) = outA1 d ↦[(blkA1 L).view.set]{fullShare} f := rfl
theorem pts_blkB_c1 (f : Buf (Elt F) (outB1 d)) :
    ((blkB1 L).view.loc (V d (cV1 L) (jV1 L)) ↦[(blkB1 L).view.set]{fullShare} f : sProp 𝕄) = outB1 d ↦[(blkB1 L).view.set]{fullShare} f := rfl
theorem pts_tabA_c1 (q : PosShare TreeShare) (f : Buf (Elt F) (tabA d)) :
    ((Memref.whole main_arg2_scv : Memref sig .scVector .hbm S100000x128 .f32).view.loc (V d (cV1 L) (jV1 L)) ↦{q} f : sProp 𝕄) = tabA d ↦{q} f := rfl
theorem pts_tabB_c1 (q : PosShare TreeShare) (f : Buf (Elt F) (tabB d)) :
    ((Memref.whole main_arg3_scv : Memref sig .scVector .hbm S100000x128 .f32).view.loc (V d (cV1 L) (jV1 L)) ↦{q} f : sProp 𝕄) = tabB d ↦{q} f := rfl
theorem pts_s0_c1 (f : Buf (Elt F) ((V d (cV1 L) (jV1 L)).loc cc1_scratch0)) :
    ((Memref.whole cc1_scratch0 : Memref sig .scVector .vmem S2x128 .i32).view.loc (V d (cV1 L) (jV1 L)) ↦{fullShare} f : sProp 𝕄) = (V d (cV1 L) (jV1 L)).loc cc1_scratch0 ↦{fullShare} f := rfl
theorem pts_s1_c1 (f : Buf (Elt F) ((V d (cV1 L) (jV1 L)).loc cc1_scratch1)) :
    ((Memref.whole cc1_scratch1 : Memref sig .scVector .vmem S128x128 .f32).view.loc (V d (cV1 L) (jV1 L)) ↦{fullShare} f : sProp 𝕄) = (V d (cV1 L) (jV1 L)).loc cc1_scratch1 ↦{fullShare} f := rfl
theorem pts_s2_c1 (f : Buf (Elt F) ((V d (cV1 L) (jV1 L)).loc cc1_scratch2)) :
    ((Memref.whole cc1_scratch2 : Memref sig .scVector .vmem S128x128 .f32).view.loc (V d (cV1 L) (jV1 L)) ↦{fullShare} f : sProp 𝕄) = (V d (cV1 L) (jV1 L)).loc cc1_scratch2 ↦{fullShare} f := rfl

/-- The two rows of the index scratch, as offset lists. -/
abbrev idxA_c1 : Memref sig .scVector .vmem S128 .i32 :=
  ((Memref.whole cc1_scratch0).slice (Rect.unit (s := S2x128) ![0, 0] S1x128.size inb_S2x128_S1x128_0_0) (fun _ => rfl)).squeeze S128 squeezes_S1x128_S128
abbrev idxB_c1 : Memref sig .scVector .vmem S128 .i32 :=
  ((Memref.whole cc1_scratch0).slice (Rect.unit (s := S2x128) ![1, 0] S1x128.size inb_S2x128_S1x128_1_0) (fun _ => rfl)).squeeze S128 squeezes_S1x128_S128

/-- The index scratch after the two row copies, over any prior contents. -/
abbrev idxBuf_c1 (L : grid1.Coords) (i0 i1 : S32x128.Idx → BitVec 32) (g : Buf (Elt F) ((V d (cV1 L) (jV1 L)).loc cc1_scratch0)) :
    Buf (Elt F) ((V d (cV1 L) (jV1 L)).loc cc1_scratch0) :=
  (Memref.whole cc1_scratch0 : Memref sig .scVector .vmem S2x128 .i32).view.writes (Elt F) g
    [⟨Rect.unit (s := S2x128) ![1, 0] S1x128.size inb_S2x128_S1x128_1_0, ReadAs.same.apply ((rowB1 L).view.read (Elt F) i1)⟩,
     ⟨Rect.unit (s := S2x128) ![0, 0] S1x128.size inb_S2x128_S1x128_0_0, ReadAs.same.apply ((rowA1 L).view.read (Elt F) i0)⟩]

variable (i0 i1 : S32x128.Idx → BitVec 32)

/-- Entry `x` of the first offset list is the token at column `x` of the tile's row of the first token array,
    whatever the scratch held before the two row copies. -/
theorem idxA_read_c1 (g : Buf (Elt F) ((V d (cV1 L) (jV1 L)).loc cc1_scratch0)) (x : S128.Idx) :
    idxA_c1.view.read (Elt F) (idxBuf_c1 (F := F) d L i0 i1 g) x
      = (rowA1 L).view.read (Elt F) i0 (Shape.reshapeEquiv squeezes_S1x128_S128.numel_eq x) := by
  show (Memref.whole cc1_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc1_scratch0 : Memref sig .scVector .vmem S2x128 .i32).view g
    (⟨Rect.unit (s := S2x128) ![1, 0] S1x128.size inb_S2x128_S1x128_1_0, ReadAs.same.apply ((rowB1 L).view.read (Elt F) i1)⟩ : View.Piece (Elt F) S2x128 .i32)
    (⟨Rect.unit (s := S2x128) ![0, 0] S1x128.size inb_S2x128_S1x128_0_0, ReadAs.same.apply ((rowA1 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c1 (F := F) d L i0 i1 g = _ from hsw, View.read_writes_cons_emb]

theorem idxB_read_c1 (g : Buf (Elt F) ((V d (cV1 L) (jV1 L)).loc cc1_scratch0)) (x : S128.Idx) :
    idxB_c1.view.read (Elt F) (idxBuf_c1 (F := F) d L i0 i1 g) x
      = (rowB1 L).view.read (Elt F) i1 (Shape.reshapeEquiv squeezes_S1x128_S128.numel_eq x) := by
  show (Memref.whole cc1_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c1 (hin0 : ∀ j, (i0 j).toNat < 100000) (g : Buf (Elt F) ((V d (cV1 L) (jV1 L)).loc cc1_scratch0)) (x : S128.Idx) :
    (idxA_c1.view.read (Elt F) (idxBuf_c1 (F := F) d L i0 i1 g) x).toNat < 100000 := by
  rw [idxA_read_c1, View.read_apply, cast_eq]; exact hin0 _
theorem hinB_c1 (hin1 : ∀ j, (i1 j).toNat < 100000) (g : Buf (Elt F) ((V d (cV1 L) (jV1 L)).loc cc1_scratch0)) (x : S128.Idx) :
    (idxB_c1.view.read (Elt F) (idxBuf_c1 (F := F) d L i0 i1 g) x).toNat < 100000 := by
  rw [idxB_read_c1, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c1 (x : S128x128.Idx) :
    (rowA1 L).view.read (Elt F) i0 (Shape.reshapeEquiv squeezes_S1x128_S128.numel_eq (ix1 (n := 128) (x 0)))
      = i0 (ix2 (⟨(((blkA1 L).view.emb x) 0).val / 128, Nat.div_lt_of_lt_mul (((blkA1 L).view.emb x) 0).isLt⟩ : Fin 32)
          (⟨(((blkA1 L).view.emb x) 0).val % 128, Nat.mod_lt _ (by decide)⟩ : Fin 128)) := by
  rw [View.read_apply, cast_eq]
  refine congrArg i0 ?_
  refine (congrArg (rowA1 L).view.emb (unsq_apply (x 0))).trans ?_
  have hx : (x 0).val < 128 := (x 0).isLt
  have hL0 : (L 0).val < 2 := (L 0).isLt
  funext a; apply Fin.ext
  match a with
  | ⟨0, _⟩ =>
    show (k1_off1 L) 0 + 1 * 0 = ((k1_off2 L) 0 + 1 * (x 0).val) / 128
    rw [k1_off1_eq, k1_off2_eq]
    simp only [Matrix.cons_val_zero]
    omega
  | ⟨1, _⟩ =>
    show (k1_off1 L) 1 + 1 * (x 0).val = ((k1_off2 L) 0 + 1 * (x 0).val) % 128
    rw [k1_off1_eq, k1_off2_eq]
    simp only [Matrix.cons_val_zero, Matrix.cons_val_one]
    omega

/-- The block a tile writes of the first result is the gathered array's. -/
theorem valA_c1 (hin0 : ∀ j, (i0 j).toNat < 100000) (fo : Buf (Elt F) (outA1 d)) (fs : Buf (Elt F) ((V d (cV1 L) (jV1 L)).loc cc1_scratch1))
    (g0 : Buf (Elt F) ((V d (cV1 L) (jV1 L)).loc cc1_scratch0))
    (hn : S128.numel = S128x128.size gathers_S100000x128_S128x128.axis')
    (hin : ∀ x, (idxA_c1.view.read (Elt F) (idxBuf_c1 (F := F) d L i0 i1 g0) x).toNat < S100000x128.size gathers_S100000x128_S128x128.axis) :
    ∀ y ∈ (blkA1 L).view.set,
      (blkA1 L).view.writes (Elt F) fo [⟨Rect.whole S128x128, ReadAs.same.apply
          ((Memref.whole cc1_scratch1 : Memref sig .scVector .vmem S128x128 .f32).view.read (Elt F)
            ((Memref.whole cc1_scratch1 : Memref sig .scVector .vmem S128x128 .f32).view.writes (Elt F) fs
              [⟨Rect.whole S128x128, SparseCore.gatherPayload gathers_S100000x128_S128x128 (srcA.view.read (Elt F) t0)
                  (SparseCore.rows (idxA_c1.view.read (Elt F) (idxBuf_c1 (F := F) d L i0 i1 g0)) hn hin)⟩]))⟩] y
        = gathered i0 t0 y := by
  intro y hy
  obtain ⟨x, -, rfl⟩ := Finset.mem_map.mp hy
  have h1 := read_writes_whole (Val := Elt F) (blkA1 L).view fo (ReadAs.same.apply
          ((Memref.whole cc1_scratch1 : Memref sig .scVector .vmem S128x128 .f32).view.read (Elt F)
            ((Memref.whole cc1_scratch1 : Memref sig .scVector .vmem S128x128 .f32).view.writes (Elt F) fs
              [⟨Rect.whole S128x128, SparseCore.gatherPayload gathers_S100000x128_S128x128 (srcA.view.read (Elt F) t0)
                  (SparseCore.rows (idxA_c1.view.read (Elt F) (idxBuf_c1 (F := F) d L i0 i1 g0)) hn hin)⟩]))) x
  rw [View.read_apply, cast_eq] at h1
  refine h1.trans ?_
  refine (read_writes_whole (Val := Elt F) (Memref.whole cc1_scratch1 : Memref sig .scVector .vmem S128x128 .f32).view fs _ x).trans ?_
  refine (gather_apply (F := F) (srcA.view.read (Elt F) t0) (idxA_c1.view.read (Elt F) (idxBuf_c1 (F := F) d L i0 i1 g0)) hn hin x).trans ?_
  rw [srcA_read]
  unfold gathered
  refine congrArg t0 ?_
  funext a; apply Fin.ext
  match a with
  | ⟨0, _⟩ =>
    show (idxA_c1.view.read (Elt F) (idxBuf_c1 (F := F) d L i0 i1 g0) (ix1 (n := 128) (x 0))).toNat = (Cert.Spec.rowOf _).val
    rw [Cert.Spec.rowOf_of_lt (hin0 _), idxA_read_c1, tokA_c1]
  | ⟨1, _⟩ =>
    show (x 1).val = (k1_off2 L) 1 + 1 * (x 1).val
    rw [k1_off2_eq]
    simp

/-- The token by which row `x 0` of the tile's block is looked up: column `x 0` of the tile's row of the second token array is
    token `(y / 128, y % 128)` for `y` the row's place in the whole result. -/
theorem tokB_c1 (x : S128x128.Idx) :
    (rowB1 L).view.read (Elt F) i1 (Shape.reshapeEquiv squeezes_S1x128_S128.numel_eq (ix1 (n := 128) (x 0)))
      = i1 (ix2 (⟨(((blkB1 L).view.emb x) 0).val / 128, Nat.div_lt_of_lt_mul (((blkB1 L).view.emb x) 0).isLt⟩ : Fin 32)
          (⟨(((blkB1 L).view.emb x) 0).val % 128, Nat.mod_lt _ (by decide)⟩ : Fin 128)) := by
  rw [View.read_apply, cast_eq]
  refine congrArg i1 ?_
  refine (congrArg (rowB1 L).view.emb (unsq_apply (x 0))).trans ?_
  have hx : (x 0).val < 128 := (x 0).isLt
  have hL0 : (L 0).val < 2 := (L 0).isLt
  funext a; apply Fin.ext
  match a with
  | ⟨0, _⟩ =>
    show (k1_off1 L) 0 + 1 * 0 = ((k1_off2 L) 0 + 1 * (x 0).val) / 128
    rw [k1_off1_eq, k1_off2_eq]
    simp only [Matrix.cons_val_zero]
    omega
  | ⟨1, _⟩ =>
    show (k1_off1 L) 1 + 1 * (x 0).val = ((k1_off2 L) 0 + 1 * (x 0).val) % 128
    rw [k1_off1_eq, k1_off2_eq]
    simp only [Matrix.cons_val_zero, Matrix.cons_val_one]
    omega

/-- The block a tile writes of the second result is the gathered array's. -/
theorem valB_c1 (hin1 : ∀ j, (i1 j).toNat < 100000) (fo : Buf (Elt F) (outB1 d)) (fs : Buf (Elt F) ((V d (cV1 L) (jV1 L)).loc cc1_scratch2))
    (g0 : Buf (Elt F) ((V d (cV1 L) (jV1 L)).loc cc1_scratch0))
    (hn : S128.numel = S128x128.size gathers_S100000x128_S128x128.axis')
    (hin : ∀ x, (idxB_c1.view.read (Elt F) (idxBuf_c1 (F := F) d L i0 i1 g0) x).toNat < S100000x128.size gathers_S100000x128_S128x128.axis) :
    ∀ y ∈ (blkB1 L).view.set,
      (blkB1 L).view.writes (Elt F) fo [⟨Rect.whole S128x128, ReadAs.same.apply
          ((Memref.whole cc1_scratch2 : Memref sig .scVector .vmem S128x128 .f32).view.read (Elt F)
            ((Memref.whole cc1_scratch2 : Memref sig .scVector .vmem S128x128 .f32).view.writes (Elt F) fs
              [⟨Rect.whole S128x128, SparseCore.gatherPayload gathers_S100000x128_S128x128 (srcB.view.read (Elt F) t1)
                  (SparseCore.rows (idxB_c1.view.read (Elt F) (idxBuf_c1 (F := F) d L i0 i1 g0)) hn hin)⟩]))⟩] y
        = gathered i1 t1 y := by
  intro y hy
  obtain ⟨x, -, rfl⟩ := Finset.mem_map.mp hy
  have h1 := read_writes_whole (Val := Elt F) (blkB1 L).view fo (ReadAs.same.apply
          ((Memref.whole cc1_scratch2 : Memref sig .scVector .vmem S128x128 .f32).view.read (Elt F)
            ((Memref.whole cc1_scratch2 : Memref sig .scVector .vmem S128x128 .f32).view.writes (Elt F) fs
              [⟨Rect.whole S128x128, SparseCore.gatherPayload gathers_S100000x128_S128x128 (srcB.view.read (Elt F) t1)
                  (SparseCore.rows (idxB_c1.view.read (Elt F) (idxBuf_c1 (F := F) d L i0 i1 g0)) hn hin)⟩]))) x
  rw [View.read_apply, cast_eq] at h1
  refine h1.trans ?_
  refine (read_writes_whole (Val := Elt F) (Memref.whole cc1_scratch2 : Memref sig .scVector .vmem S128x128 .f32).view fs _ x).trans ?_
  refine (gather_apply (F := F) (srcB.view.read (Elt F) t1) (idxB_c1.view.read (Elt F) (idxBuf_c1 (F := F) d L i0 i1 g0)) hn hin x).trans ?_
  rw [srcB_read]
  unfold gathered
  refine congrArg t1 ?_
  funext a; apply Fin.ext
  match a with
  | ⟨0, _⟩ =>
    show (idxB_c1.view.read (Elt F) (idxBuf_c1 (F := F) d L i0 i1 g0) (ix1 (n := 128) (x 0))).toNat = (Cert.Spec.rowOf _).val
    rw [Cert.Spec.rowOf_of_lt (hin1 _), idxB_read_c1, tokB_c1]
  | ⟨1, _⟩ =>
    show (x 1).val = (k1_off2 L) 1 + 1 * (x 1).val
    rw [k1_off2_eq]
    simp

variable [FloatOps F] (sh : PosShare TreeShare)

/-- The task on the tile at grid coordinates `L`: from its rows of the token arrays, a read share of each table and
    its blocks of the results at any contents, to the same with the blocks at the gathered arrays. -/
theorem tile1 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes1 d L sh i0 i1 t0 t1
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__sc_gather L (Memref.whole main_v6_scv) (Memref.isWhole_whole _) (Memref.whole main_v7_scv) (Memref.isWhole_whole _) (Memref.whole main_arg2_scv) (Memref.isWhole_whole _) (Memref.whole main_arg3_scv) (Memref.isWhole_whole _) (Memref.whole main_v8_0_scv) (Memref.isWhole_whole _) (Memref.whole main_v8_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0 cc1_scoped1)
          fun _ => iprop(tdRes1 d L sh i0 i1 t0 t1 ∗ scopedBufs (V d (cV1 L) (jV1 L)) ∗ scopedSems0 (V d (cV1 L) (jV1 L)) ∗ ∃ W', ⌜∀ p ∈ W', p ∈ W ∨ p.2 = none⌝ ∗ owes (V d (cV1 L) (jV1 L)) O W') := by
  simp only [cc1__sc_gather_eq_skeleton]; unfold cc1__sc_gather_skel
  simp only [k1_part1_eq_skeleton]; unfold k1_part1_skel
  rw [(K (F := F)).scopedBufs_V facts d (cV1 L) (jV1 L), SparseCore.Cfg.scopedSems0_V (Val := Elt F) d (cV1 L) (jV1 L), sems_c1, bufs_c1]
  unfold goRes1 tdRes1
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV1 L) (jV1 L)) hO) $$ Hlv
  ihave Hi0 := (Entails.of_eq (pts_rowA_c1 (F := F) d L _).symm) $$ Hi0
  ihave Hi1 := (Entails.of_eq (pts_rowB_c1 (F := F) d L _).symm) $$ Hi1
  ihave Ht0 := (Entails.of_eq (pts_tabA_c1 (F := F) d L _ _).symm) $$ Ht0
  ihave Ht1 := (Entails.of_eq (pts_tabB_c1 (F := F) d L _ _).symm) $$ Ht1
  ihave Ho0 := (Entails.of_eq (pts_blkA_c1 (F := F) d L _).symm) $$ Ho0
  ihave Ho1 := (Entails.of_eq (pts_blkB_c1 (F := F) d L _).symm) $$ Ho1
  ihave Hs0 := (Entails.of_eq (pts_s0_c1 (F := F) d L _).symm) $$ Hs0
  ihave Hs1 := (Entails.of_eq (pts_s1_c1 (F := F) d L _).symm) $$ Hs1
  ihave Hs2 := (Entails.of_eq (pts_s2_c1 (F := F) d L _).symm) $$ Hs2
  -- the offsets in range, at whatever the index scratch held before the two row copies
  have hinA := hinA_c1 (F := F) d L i0 i1 hin0
  have hinB := hinB_c1 (F := F) d L i0 i1 hin1
  sl_exec
  sl_step
  -- the two blocks are the gathered arrays'
  have hvA : ∀ y ∈ (blkA1 L).view.set,
      (blkA1 L).view.writes (Elt F) fo0 [⟨Rect.whole S128x128, tile1.sl.dma0_2 d L i0 i1 t0 fs1 hinA⟩] y = gathered i0 t0 y :=
    valA_c1 (F := F) d L i0 i1 t0 hin0 fo0 fs1 _ _ _
  have hvB : ∀ y ∈ (blkB1 L).view.set,
      (blkB1 L).view.writes (Elt F) fo1 [⟨Rect.whole S128x128, tile1.sl.dma0_3 d L i0 i1 t1 fs2 hinB⟩] y = gathered i1 t1 y :=
    valB_c1 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c1 (F := F) d L _)); iexact Hi0
    isplitl [Hi1]; · iapply (Entails.of_eq (pts_rowB_c1 (F := F) d L _)); iexact Hi1
    isplitl [Ht0]; · iapply (Entails.of_eq (pts_tabA_c1 (F := F) d L _ _)); iexact Ht0
    isplitl [Ht1]; · iapply (Entails.of_eq (pts_tabB_c1 (F := F) d L _ _)); iexact Ht1
    isplitl [Ho0]; · iapply (Entails.of_eq (pts_blkA_c1 (F := F) d L _)); iexact Ho0
    iapply (Entails.of_eq (pts_blkB_c1 (F := F) d L _)); iexact Ho1
  isplitl [Hs0 Hs1 Hs2 Hbufs]
  · isplitl [Hs0]; · iexists _; iapply (Entails.of_eq (pts_s0_c1 (F := F) d L _)); iexact Hs0
    isplitl [Hs1]; · iexists _; iapply (Entails.of_eq (pts_s1_c1 (F := F) d L _)); iexact Hs1
    isplitl [Hs2]; · iexists _; iapply (Entails.of_eq (pts_s2_c1 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KI

end
-- ==== Proof.Tile2.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.TileRes
import proofs.«204601_g21792664060648_cont_8to1_111_20_alg».proof.Proof.TileRes2
import proofs.«204601_g21792664060648_cont_8to1_111_20_alg».proof.Proof.GatherRead
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid2.Coords)

/-- The cell of one of the tile's DMA semaphores. -/
abbrev cell_c2 (s : DmaSems sig S_) : GSem nD τ sig := (V d (cV2 L) (jV2 L), SemLoc.dma s.sem)

theorem cell_mem_c2 (s : DmaSems sig S_) (h : (SemLoc.dma s.sem : SemLoc sig).isScoped .scVector = true) :
    cell_c2 d L s ∈ ownCells (V d (cV2 L) (jV2 L)) := (mem_ownCells (g := cell_c2 d L s)).mpr ⟨rfl, h⟩

/-- The tile's own semaphores: the six this kernel uses, and the rest. -/
theorem sems_c2 :
    (ownSems0 (V d (cV2 L) (jV2 L)) : sProp 𝕄)
      = iprop(semVal (cell_c2 d L cc2_scratch3) 0 ∗ semVal (cell_c2 d L cc2_scratch4) 0 ∗ semVal (cell_c2 d L cc2_scratch5) 0
          ∗ semVal (cell_c2 d L cc2_scratch6) 0 ∗ semVal (cell_c2 d L cc2_scoped0) 0 ∗ semVal (cell_c2 d L cc2_scoped1) 0
          ∗ bigSep ((((((((ownCells (V d (cV2 L) (jV2 L))).erase (cell_c2 d L cc2_scratch3)).erase (cell_c2 d L cc2_scratch4)).erase (cell_c2 d L cc2_scratch5)).erase
              (cell_c2 d L cc2_scratch6)).erase (cell_c2 d L cc2_scoped0)).erase (cell_c2 d L cc2_scoped1))) fun g => semVal g 0) := by
  unfold SparseCore.Cfg.ownSems0
  rw [SparseCore.bigSep_erase' (cell_mem_c2 d L cc2_scratch3 (by decide)),
    SparseCore.bigSep_erase' (Finset.mem_erase.mpr ⟨cell_ne (by decide), cell_mem_c2 d L cc2_scratch4 (by decide)⟩),
    SparseCore.bigSep_erase' (Finset.mem_erase.mpr ⟨cell_ne (by decide), Finset.mem_erase.mpr ⟨cell_ne (by decide), cell_mem_c2 d L cc2_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c2 d L cc2_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c2 d L cc2_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c2 d L cc2_scoped1 (by decide)⟩⟩⟩⟩⟩)]

/-- The tile's own buffers: the three scratches of this kernel, at some contents, and the rest. -/
theorem bufs_c2 :
    (ownBufs (V d (cV2 L) (jV2 L)) : sProp 𝕄)
      = iprop((∃ f, (V d (cV2 L) (jV2 L)).loc cc2_scratch0 ↦{fullShare} f) ∗ (∃ f, (V d (cV2 L) (jV2 L)).loc cc2_scratch1 ↦{fullShare} f)
          ∗ (∃ f, (V d (cV2 L) (jV2 L)).loc cc2_scratch2 ↦{fullShare} f)
          ∗ bigSep ((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV2 L) (jV2 L)) (b := (Proc.scVector (cV2 L) (jV2 L)).devRef cc2_scratch2) rfl⟩⟩)]

/-- The arrays as the tile's memrefs address them are the TensorCore's arrays; the scratches are the tile's own. -/
theorem pts_rowA_c2 (f : Buf (Elt F) (tokA2 d)) :
    ((rowA2 L).view.loc (V d (cV2 L) (jV2 L)) ↦[(rowA2 L).view.set]{fullShare} f : sProp 𝕄) = tokA2 d ↦[(rowA2 L).view.set]{fullShare} f := rfl
theorem pts_rowB_c2 (f : Buf (Elt F) (tokB2 d)) :
    ((rowB2 L).view.loc (V d (cV2 L) (jV2 L)) ↦[(rowB2 L).view.set]{fullShare} f : sProp 𝕄) = tokB2 d ↦[(rowB2 L).view.set]{fullShare} f := rfl
theorem pts_blkA_c2 (f : Buf (Elt F) (outA2 d)) :
    ((blkA2 L).view.loc (V d (cV2 L) (jV2 L)) ↦[(blkA2 L).view.set]{fullShare} f : sProp 𝕄) = outA2 d ↦[(blkA2 L).view.set]{fullShare} f := rfl
theorem pts_blkB_c2 (f : Buf (Elt F) (outB2 d)) :
    ((blkB2 L).view.loc (V d (cV2 L) (jV2 L)) ↦[(blkB2 L).view.set]{fullShare} f : sProp 𝕄) = outB2 d ↦[(blkB2 L).view.set]{fullShare} f := rfl
theorem pts_tabA_c2 (q : PosShare TreeShare) (f : Buf (Elt F) (tabA d)) :
    ((Memref.whole main_arg2_scv : Memref sig .scVector .hbm S100000x128 .f32).view.loc (V d (cV2 L) (jV2 L)) ↦{q} f : sProp 𝕄) = tabA d ↦{q} f := rfl
theorem pts_tabB_c2 (q : PosShare TreeShare) (f : Buf (Elt F) (tabB d)) :
    ((Memref.whole main_arg3_scv : Memref sig .scVector .hbm S100000x128 .f32).view.loc (V d (cV2 L) (jV2 L)) ↦{q} f : sProp 𝕄) = tabB d ↦{q} f := rfl
theorem pts_s0_c2 (f : Buf (Elt F) ((V d (cV2 L) (jV2 L)).loc cc2_scratch0)) :
    ((Memref.whole cc2_scratch0 : Memref sig .scVector .vmem S2x128 .i32).view.loc (V d (cV2 L) (jV2 L)) ↦{fullShare} f : sProp 𝕄) = (V d (cV2 L) (jV2 L)).loc cc2_scratch0 ↦{fullShare} f := rfl
theorem pts_s1_c2 (f : Buf (Elt F) ((V d (cV2 L) (jV2 L)).loc cc2_scratch1)) :
    ((Memref.whole cc2_scratch1 : Memref sig .scVector .vmem S128x128 .f32).view.loc (V d (cV2 L) (jV2 L)) ↦{fullShare} f : sProp 𝕄) = (V d (cV2 L) (jV2 L)).loc cc2_scratch1 ↦{fullShare} f := rfl
theorem pts_s2_c2 (f : Buf (Elt F) ((V d (cV2 L) (jV2 L)).loc cc2_scratch2)) :
    ((Memref.whole cc2_scratch2 : Memref sig .scVector .vmem S128x128 .f32).view.loc (V d (cV2 L) (jV2 L)) ↦{fullShare} f : sProp 𝕄) = (V d (cV2 L) (jV2 L)).loc cc2_scratch2 ↦{fullShare} f := rfl

/-- The two rows of the index scratch, as offset lists. -/
abbrev idxA_c2 : Memref sig .scVector .vmem S128 .i32 :=
  ((Memref.whole cc2_scratch0).slice (Rect.unit (s := S2x128) ![0, 0] S1x128.size inb_S2x128_S1x128_0_0) (fun _ => rfl)).squeeze S128 squeezes_S1x128_S128
abbrev idxB_c2 : Memref sig .scVector .vmem S128 .i32 :=
  ((Memref.whole cc2_scratch0).slice (Rect.unit (s := S2x128) ![1, 0] S1x128.size inb_S2x128_S1x128_1_0) (fun _ => rfl)).squeeze S128 squeezes_S1x128_S128

/-- The index scratch after the two row copies, over any prior contents. -/
abbrev idxBuf_c2 (L : grid2.Coords) (i0 i1 : S32x128.Idx → BitVec 32) (g : Buf (Elt F) ((V d (cV2 L) (jV2 L)).loc cc2_scratch0)) :
    Buf (Elt F) ((V d (cV2 L) (jV2 L)).loc cc2_scratch0) :=
  (Memref.whole cc2_scratch0 : Memref sig .scVector .vmem S2x128 .i32).view.writes (Elt F) g
    [⟨Rect.unit (s := S2x128) ![1, 0] S1x128.size inb_S2x128_S1x128_1_0, ReadAs.same.apply ((rowB2 L).view.read (Elt F) i1)⟩,
     ⟨Rect.unit (s := S2x128) ![0, 0] S1x128.size inb_S2x128_S1x128_0_0, ReadAs.same.apply ((rowA2 L).view.read (Elt F) i0)⟩]

variable (i0 i1 : S32x128.Idx → BitVec 32)

/-- Entry `x` of the first offset list is the token at column `x` of the tile's row of the first token array,
    whatever the scratch held before the two row copies. -/
theorem idxA_read_c2 (g : Buf (Elt F) ((V d (cV2 L) (jV2 L)).loc cc2_scratch0)) (x : S128.Idx) :
    idxA_c2.view.read (Elt F) (idxBuf_c2 (F := F) d L i0 i1 g) x
      = (rowA2 L).view.read (Elt F) i0 (Shape.reshapeEquiv squeezes_S1x128_S128.numel_eq x) := by
  show (Memref.whole cc2_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc2_scratch0 : Memref sig .scVector .vmem S2x128 .i32).view g
    (⟨Rect.unit (s := S2x128) ![1, 0] S1x128.size inb_S2x128_S1x128_1_0, ReadAs.same.apply ((rowB2 L).view.read (Elt F) i1)⟩ : View.Piece (Elt F) S2x128 .i32)
    (⟨Rect.unit (s := S2x128) ![0, 0] S1x128.size inb_S2x128_S1x128_0_0, ReadAs.same.apply ((rowA2 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c2 (F := F) d L i0 i1 g = _ from hsw, View.read_writes_cons_emb]

theorem idxB_read_c2 (g : Buf (Elt F) ((V d (cV2 L) (jV2 L)).loc cc2_scratch0)) (x : S128.Idx) :
    idxB_c2.view.read (Elt F) (idxBuf_c2 (F := F) d L i0 i1 g) x
      = (rowB2 L).view.read (Elt F) i1 (Shape.reshapeEquiv squeezes_S1x128_S128.numel_eq x) := by
  show (Memref.whole cc2_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c2 (hin0 : ∀ j, (i0 j).toNat < 100000) (g : Buf (Elt F) ((V d (cV2 L) (jV2 L)).loc cc2_scratch0)) (x : S128.Idx) :
    (idxA_c2.view.read (Elt F) (idxBuf_c2 (F := F) d L i0 i1 g) x).toNat < 100000 := by
  rw [idxA_read_c2, View.read_apply, cast_eq]; exact hin0 _
theorem hinB_c2 (hin1 : ∀ j, (i1 j).toNat < 100000) (g : Buf (Elt F) ((V d (cV2 L) (jV2 L)).loc cc2_scratch0)) (x : S128.Idx) :
    (idxB_c2.view.read (Elt F) (idxBuf_c2 (F := F) d L i0 i1 g) x).toNat < 100000 := by
  rw [idxB_read_c2, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c2 (x : S128x128.Idx) :
    (rowA2 L).view.read (Elt F) i0 (Shape.reshapeEquiv squeezes_S1x128_S128.numel_eq (ix1 (n := 128) (x 0)))
      = i0 (ix2 (⟨(((blkA2 L).view.emb x) 0).val / 128, Nat.div_lt_of_lt_mul (((blkA2 L).view.emb x) 0).isLt⟩ : Fin 32)
          (⟨(((blkA2 L).view.emb x) 0).val % 128, Nat.mod_lt _ (by decide)⟩ : Fin 128)) := by
  rw [View.read_apply, cast_eq]
  refine congrArg i0 ?_
  refine (congrArg (rowA2 L).view.emb (unsq_apply (x 0))).trans ?_
  have hx : (x 0).val < 128 := (x 0).isLt
  have hL0 : (L 0).val < 2 := (L 0).isLt
  funext a; apply Fin.ext
  match a with
  | ⟨0, _⟩ =>
    show (k2_off1 L) 0 + 1 * 0 = ((k2_off2 L) 0 + 1 * (x 0).val) / 128
    rw [k2_off1_eq, k2_off2_eq]
    simp only [Matrix.cons_val_zero]
    omega
  | ⟨1, _⟩ =>
    show (k2_off1 L) 1 + 1 * (x 0).val = ((k2_off2 L) 0 + 1 * (x 0).val) % 128
    rw [k2_off1_eq, k2_off2_eq]
    simp only [Matrix.cons_val_zero, Matrix.cons_val_one]
    omega

/-- The block a tile writes of the first result is the gathered array's. -/
theorem valA_c2 (hin0 : ∀ j, (i0 j).toNat < 100000) (fo : Buf (Elt F) (outA2 d)) (fs : Buf (Elt F) ((V d (cV2 L) (jV2 L)).loc cc2_scratch1))
    (g0 : Buf (Elt F) ((V d (cV2 L) (jV2 L)).loc cc2_scratch0))
    (hn : S128.numel = S128x128.size gathers_S100000x128_S128x128.axis')
    (hin : ∀ x, (idxA_c2.view.read (Elt F) (idxBuf_c2 (F := F) d L i0 i1 g0) x).toNat < S100000x128.size gathers_S100000x128_S128x128.axis) :
    ∀ y ∈ (blkA2 L).view.set,
      (blkA2 L).view.writes (Elt F) fo [⟨Rect.whole S128x128, ReadAs.same.apply
          ((Memref.whole cc2_scratch1 : Memref sig .scVector .vmem S128x128 .f32).view.read (Elt F)
            ((Memref.whole cc2_scratch1 : Memref sig .scVector .vmem S128x128 .f32).view.writes (Elt F) fs
              [⟨Rect.whole S128x128, SparseCore.gatherPayload gathers_S100000x128_S128x128 (srcA.view.read (Elt F) t0)
                  (SparseCore.rows (idxA_c2.view.read (Elt F) (idxBuf_c2 (F := F) d L i0 i1 g0)) hn hin)⟩]))⟩] y
        = gathered i0 t0 y := by
  intro y hy
  obtain ⟨x, -, rfl⟩ := Finset.mem_map.mp hy
  have h1 := read_writes_whole (Val := Elt F) (blkA2 L).view fo (ReadAs.same.apply
          ((Memref.whole cc2_scratch1 : Memref sig .scVector .vmem S128x128 .f32).view.read (Elt F)
            ((Memref.whole cc2_scratch1 : Memref sig .scVector .vmem S128x128 .f32).view.writes (Elt F) fs
              [⟨Rect.whole S128x128, SparseCore.gatherPayload gathers_S100000x128_S128x128 (srcA.view.read (Elt F) t0)
                  (SparseCore.rows (idxA_c2.view.read (Elt F) (idxBuf_c2 (F := F) d L i0 i1 g0)) hn hin)⟩]))) x
  rw [View.read_apply, cast_eq] at h1
  refine h1.trans ?_
  refine (read_writes_whole (Val := Elt F) (Memref.whole cc2_scratch1 : Memref sig .scVector .vmem S128x128 .f32).view fs _ x).trans ?_
  refine (gather_apply (F := F) (srcA.view.read (Elt F) t0) (idxA_c2.view.read (Elt F) (idxBuf_c2 (F := F) d L i0 i1 g0)) hn hin x).trans ?_
  rw [srcA_read]
  unfold gathered
  refine congrArg t0 ?_
  funext a; apply Fin.ext
  match a with
  | ⟨0, _⟩ =>
    show (idxA_c2.view.read (Elt F) (idxBuf_c2 (F := F) d L i0 i1 g0) (ix1 (n := 128) (x 0))).toNat = (Cert.Spec.rowOf _).val
    rw [Cert.Spec.rowOf_of_lt (hin0 _), idxA_read_c2, tokA_c2]
  | ⟨1, _⟩ =>
    show (x 1).val = (k2_off2 L) 1 + 1 * (x 1).val
    rw [k2_off2_eq]
    simp

/-- The token by which row `x 0` of the tile's block is looked up: column `x 0` of the tile's row of the second token array is
    token `(y / 128, y % 128)` for `y` the row's place in the whole result. -/
theorem tokB_c2 (x : S128x128.Idx) :
    (rowB2 L).view.read (Elt F) i1 (Shape.reshapeEquiv squeezes_S1x128_S128.numel_eq (ix1 (n := 128) (x 0)))
      = i1 (ix2 (⟨(((blkB2 L).view.emb x) 0).val / 128, Nat.div_lt_of_lt_mul (((blkB2 L).view.emb x) 0).isLt⟩ : Fin 32)
          (⟨(((blkB2 L).view.emb x) 0).val % 128, Nat.mod_lt _ (by decide)⟩ : Fin 128)) := by
  rw [View.read_apply, cast_eq]
  refine congrArg i1 ?_
  refine (congrArg (rowB2 L).view.emb (unsq_apply (x 0))).trans ?_
  have hx : (x 0).val < 128 := (x 0).isLt
  have hL0 : (L 0).val < 2 := (L 0).isLt
  funext a; apply Fin.ext
  match a with
  | ⟨0, _⟩ =>
    show (k2_off1 L) 0 + 1 * 0 = ((k2_off2 L) 0 + 1 * (x 0).val) / 128
    rw [k2_off1_eq, k2_off2_eq]
    simp only [Matrix.cons_val_zero]
    omega
  | ⟨1, _⟩ =>
    show (k2_off1 L) 1 + 1 * (x 0).val = ((k2_off2 L) 0 + 1 * (x 0).val) % 128
    rw [k2_off1_eq, k2_off2_eq]
    simp only [Matrix.cons_val_zero, Matrix.cons_val_one]
    omega

/-- The block a tile writes of the second result is the gathered array's. -/
theorem valB_c2 (hin1 : ∀ j, (i1 j).toNat < 100000) (fo : Buf (Elt F) (outB2 d)) (fs : Buf (Elt F) ((V d (cV2 L) (jV2 L)).loc cc2_scratch2))
    (g0 : Buf (Elt F) ((V d (cV2 L) (jV2 L)).loc cc2_scratch0))
    (hn : S128.numel = S128x128.size gathers_S100000x128_S128x128.axis')
    (hin : ∀ x, (idxB_c2.view.read (Elt F) (idxBuf_c2 (F := F) d L i0 i1 g0) x).toNat < S100000x128.size gathers_S100000x128_S128x128.axis) :
    ∀ y ∈ (blkB2 L).view.set,
      (blkB2 L).view.writes (Elt F) fo [⟨Rect.whole S128x128, ReadAs.same.apply
          ((Memref.whole cc2_scratch2 : Memref sig .scVector .vmem S128x128 .f32).view.read (Elt F)
            ((Memref.whole cc2_scratch2 : Memref sig .scVector .vmem S128x128 .f32).view.writes (Elt F) fs
              [⟨Rect.whole S128x128, SparseCore.gatherPayload gathers_S100000x128_S128x128 (srcB.view.read (Elt F) t1)
                  (SparseCore.rows (idxB_c2.view.read (Elt F) (idxBuf_c2 (F := F) d L i0 i1 g0)) hn hin)⟩]))⟩] y
        = gathered i1 t1 y := by
  intro y hy
  obtain ⟨x, -, rfl⟩ := Finset.mem_map.mp hy
  have h1 := read_writes_whole (Val := Elt F) (blkB2 L).view fo (ReadAs.same.apply
          ((Memref.whole cc2_scratch2 : Memref sig .scVector .vmem S128x128 .f32).view.read (Elt F)
            ((Memref.whole cc2_scratch2 : Memref sig .scVector .vmem S128x128 .f32).view.writes (Elt F) fs
              [⟨Rect.whole S128x128, SparseCore.gatherPayload gathers_S100000x128_S128x128 (srcB.view.read (Elt F) t1)
                  (SparseCore.rows (idxB_c2.view.read (Elt F) (idxBuf_c2 (F := F) d L i0 i1 g0)) hn hin)⟩]))) x
  rw [View.read_apply, cast_eq] at h1
  refine h1.trans ?_
  refine (read_writes_whole (Val := Elt F) (Memref.whole cc2_scratch2 : Memref sig .scVector .vmem S128x128 .f32).view fs _ x).trans ?_
  refine (gather_apply (F := F) (srcB.view.read (Elt F) t1) (idxB_c2.view.read (Elt F) (idxBuf_c2 (F := F) d L i0 i1 g0)) hn hin x).trans ?_
  rw [srcB_read]
  unfold gathered
  refine congrArg t1 ?_
  funext a; apply Fin.ext
  match a with
  | ⟨0, _⟩ =>
    show (idxB_c2.view.read (Elt F) (idxBuf_c2 (F := F) d L i0 i1 g0) (ix1 (n := 128) (x 0))).toNat = (Cert.Spec.rowOf _).val
    rw [Cert.Spec.rowOf_of_lt (hin1 _), idxB_read_c2, tokB_c2]
  | ⟨1, _⟩ =>
    show (x 1).val = (k2_off2 L) 1 + 1 * (x 1).val
    rw [k2_off2_eq]
    simp

variable [FloatOps F] (sh : PosShare TreeShare)

/-- The task on the tile at grid coordinates `L`: from its rows of the token arrays, a read share of each table and
    its blocks of the results at any contents, to the same with the blocks at the gathered arrays. -/
theorem tile2 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes2 d L sh i0 i1 t0 t1
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2__sc_gather L (Memref.whole main_v9_scv) (Memref.isWhole_whole _) (Memref.whole main_v10_scv) (Memref.isWhole_whole _) (Memref.whole main_arg2_scv) (Memref.isWhole_whole _) (Memref.whole main_arg3_scv) (Memref.isWhole_whole _) (Memref.whole main_v11_0_scv) (Memref.isWhole_whole _) (Memref.whole main_v11_1_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scoped0 cc2_scoped1)
          fun _ => iprop(tdRes2 d L sh i0 i1 t0 t1 ∗ scopedBufs (V d (cV2 L) (jV2 L)) ∗ scopedSems0 (V d (cV2 L) (jV2 L)) ∗ ∃ W', ⌜∀ p ∈ W', p ∈ W ∨ p.2 = none⌝ ∗ owes (V d (cV2 L) (jV2 L)) O W') := by
  simp only [cc2__sc_gather_eq_skeleton]; unfold cc2__sc_gather_skel
  simp only [k2_part1_eq_skeleton]; unfold k2_part1_skel
  rw [(K (F := F)).scopedBufs_V facts d (cV2 L) (jV2 L), SparseCore.Cfg.scopedSems0_V (Val := Elt F) d (cV2 L) (jV2 L), sems_c2, bufs_c2]
  unfold goRes2 tdRes2
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV2 L) (jV2 L)) hO) $$ Hlv
  ihave Hi0 := (Entails.of_eq (pts_rowA_c2 (F := F) d L _).symm) $$ Hi0
  ihave Hi1 := (Entails.of_eq (pts_rowB_c2 (F := F) d L _).symm) $$ Hi1
  ihave Ht0 := (Entails.of_eq (pts_tabA_c2 (F := F) d L _ _).symm) $$ Ht0
  ihave Ht1 := (Entails.of_eq (pts_tabB_c2 (F := F) d L _ _).symm) $$ Ht1
  ihave Ho0 := (Entails.of_eq (pts_blkA_c2 (F := F) d L _).symm) $$ Ho0
  ihave Ho1 := (Entails.of_eq (pts_blkB_c2 (F := F) d L _).symm) $$ Ho1
  ihave Hs0 := (Entails.of_eq (pts_s0_c2 (F := F) d L _).symm) $$ Hs0
  ihave Hs1 := (Entails.of_eq (pts_s1_c2 (F := F) d L _).symm) $$ Hs1
  ihave Hs2 := (Entails.of_eq (pts_s2_c2 (F := F) d L _).symm) $$ Hs2
  -- the offsets in range, at whatever the index scratch held before the two row copies
  have hinA := hinA_c2 (F := F) d L i0 i1 hin0
  have hinB := hinB_c2 (F := F) d L i0 i1 hin1
  sl_exec
  sl_step
  -- the two blocks are the gathered arrays'
  have hvA : ∀ y ∈ (blkA2 L).view.set,
      (blkA2 L).view.writes (Elt F) fo0 [⟨Rect.whole S128x128, tile2.sl.dma0_2 d L i0 i1 t0 fs1 hinA⟩] y = gathered i0 t0 y :=
    valA_c2 (F := F) d L i0 i1 t0 hin0 fo0 fs1 _ _ _
  have hvB : ∀ y ∈ (blkB2 L).view.set,
      (blkB2 L).view.writes (Elt F) fo1 [⟨Rect.whole S128x128, tile2.sl.dma0_3 d L i0 i1 t1 fs2 hinB⟩] y = gathered i1 t1 y :=
    valB_c2 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c2 (F := F) d L _)); iexact Hi0
    isplitl [Hi1]; · iapply (Entails.of_eq (pts_rowB_c2 (F := F) d L _)); iexact Hi1
    isplitl [Ht0]; · iapply (Entails.of_eq (pts_tabA_c2 (F := F) d L _ _)); iexact Ht0
    isplitl [Ht1]; · iapply (Entails.of_eq (pts_tabB_c2 (F := F) d L _ _)); iexact Ht1
    isplitl [Ho0]; · iapply (Entails.of_eq (pts_blkA_c2 (F := F) d L _)); iexact Ho0
    iapply (Entails.of_eq (pts_blkB_c2 (F := F) d L _)); iexact Ho1
  isplitl [Hs0 Hs1 Hs2 Hbufs]
  · isplitl [Hs0]; · iexists _; iapply (Entails.of_eq (pts_s0_c2 (F := F) d L _)); iexact Hs0
    isplitl [Hs1]; · iexists _; iapply (Entails.of_eq (pts_s1_c2 (F := F) d L _)); iexact Hs1
    isplitl [Hs2]; · iexists _; iapply (Entails.of_eq (pts_s2_c2 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KI

end
-- ==== Proof.Tile3.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.TileRes
import proofs.«204601_g21792664060648_cont_8to1_111_20_alg».proof.Proof.TileRes3
import proofs.«204601_g21792664060648_cont_8to1_111_20_alg».proof.Proof.GatherRead
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid3.Coords)

/-- The cell of one of the tile's DMA semaphores. -/
abbrev cell_c3 (s : DmaSems sig S_) : GSem nD τ sig := (V d (cV3 L) (jV3 L), SemLoc.dma s.sem)

theorem cell_mem_c3 (s : DmaSems sig S_) (h : (SemLoc.dma s.sem : SemLoc sig).isScoped .scVector = true) :
    cell_c3 d L s ∈ ownCells (V d (cV3 L) (jV3 L)) := (mem_ownCells (g := cell_c3 d L s)).mpr ⟨rfl, h⟩

/-- The tile's own semaphores: the six this kernel uses, and the rest. -/
theorem sems_c3 :
    (ownSems0 (V d (cV3 L) (jV3 L)) : sProp 𝕄)
      = iprop(semVal (cell_c3 d L cc3_scratch3) 0 ∗ semVal (cell_c3 d L cc3_scratch4) 0 ∗ semVal (cell_c3 d L cc3_scratch5) 0
          ∗ semVal (cell_c3 d L cc3_scratch6) 0 ∗ semVal (cell_c3 d L cc3_scoped0) 0 ∗ semVal (cell_c3 d L cc3_scoped1) 0
          ∗ bigSep ((((((((ownCells (V d (cV3 L) (jV3 L))).erase (cell_c3 d L cc3_scratch3)).erase (cell_c3 d L cc3_scratch4)).erase (cell_c3 d L cc3_scratch5)).erase
              (cell_c3 d L cc3_scratch6)).erase (cell_c3 d L cc3_scoped0)).erase (cell_c3 d L cc3_scoped1))) fun g => semVal g 0) := by
  unfold SparseCore.Cfg.ownSems0
  rw [SparseCore.bigSep_erase' (cell_mem_c3 d L cc3_scratch3 (by decide)),
    SparseCore.bigSep_erase' (Finset.mem_erase.mpr ⟨cell_ne (by decide), cell_mem_c3 d L cc3_scratch4 (by decide)⟩),
    SparseCore.bigSep_erase' (Finset.mem_erase.mpr ⟨cell_ne (by decide), Finset.mem_erase.mpr ⟨cell_ne (by decide), cell_mem_c3 d L cc3_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c3 d L cc3_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c3 d L cc3_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c3 d L cc3_scoped1 (by decide)⟩⟩⟩⟩⟩)]

/-- The tile's own buffers: the three scratches of this kernel, at some contents, and the rest. -/
theorem bufs_c3 :
    (ownBufs (V d (cV3 L) (jV3 L)) : sProp 𝕄)
      = iprop((∃ f, (V d (cV3 L) (jV3 L)).loc cc3_scratch0 ↦{fullShare} f) ∗ (∃ f, (V d (cV3 L) (jV3 L)).loc cc3_scratch1 ↦{fullShare} f)
          ∗ (∃ f, (V d (cV3 L) (jV3 L)).loc cc3_scratch2 ↦{fullShare} f)
          ∗ bigSep ((((ownRefs (τ := τ) (.scVector (cV3 L) (jV3 L))).erase ((Proc.scVector (cV3 L) (jV3 L)).devRef cc3_scratch0)).erase
              ((Proc.scVector (cV3 L) (jV3 L)).devRef cc3_scratch1)).erase ((Proc.scVector (cV3 L) (jV3 L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV3 L) (jV3 L)) (b := (Proc.scVector (cV3 L) (jV3 L)).devRef cc3_scratch2) rfl⟩⟩)]

/-- The arrays as the tile's memrefs address them are the TensorCore's arrays; the scratches are the tile's own. -/
theorem pts_rowA_c3 (f : Buf (Elt F) (tokA3 d)) :
    ((rowA3 L).view.loc (V d (cV3 L) (jV3 L)) ↦[(rowA3 L).view.set]{fullShare} f : sProp 𝕄) = tokA3 d ↦[(rowA3 L).view.set]{fullShare} f := rfl
theorem pts_rowB_c3 (f : Buf (Elt F) (tokB3 d)) :
    ((rowB3 L).view.loc (V d (cV3 L) (jV3 L)) ↦[(rowB3 L).view.set]{fullShare} f : sProp 𝕄) = tokB3 d ↦[(rowB3 L).view.set]{fullShare} f := rfl
theorem pts_blkA_c3 (f : Buf (Elt F) (outA3 d)) :
    ((blkA3 L).view.loc (V d (cV3 L) (jV3 L)) ↦[(blkA3 L).view.set]{fullShare} f : sProp 𝕄) = outA3 d ↦[(blkA3 L).view.set]{fullShare} f := rfl
theorem pts_blkB_c3 (f : Buf (Elt F) (outB3 d)) :
    ((blkB3 L).view.loc (V d (cV3 L) (jV3 L)) ↦[(blkB3 L).view.set]{fullShare} f : sProp 𝕄) = outB3 d ↦[(blkB3 L).view.set]{fullShare} f := rfl
theorem pts_tabA_c3 (q : PosShare TreeShare) (f : Buf (Elt F) (tabA d)) :
    ((Memref.whole main_arg2_scv : Memref sig .scVector .hbm S100000x128 .f32).view.loc (V d (cV3 L) (jV3 L)) ↦{q} f : sProp 𝕄) = tabA d ↦{q} f := rfl
theorem pts_tabB_c3 (q : PosShare TreeShare) (f : Buf (Elt F) (tabB d)) :
    ((Memref.whole main_arg3_scv : Memref sig .scVector .hbm S100000x128 .f32).view.loc (V d (cV3 L) (jV3 L)) ↦{q} f : sProp 𝕄) = tabB d ↦{q} f := rfl
theorem pts_s0_c3 (f : Buf (Elt F) ((V d (cV3 L) (jV3 L)).loc cc3_scratch0)) :
    ((Memref.whole cc3_scratch0 : Memref sig .scVector .vmem S2x128 .i32).view.loc (V d (cV3 L) (jV3 L)) ↦{fullShare} f : sProp 𝕄) = (V d (cV3 L) (jV3 L)).loc cc3_scratch0 ↦{fullShare} f := rfl
theorem pts_s1_c3 (f : Buf (Elt F) ((V d (cV3 L) (jV3 L)).loc cc3_scratch1)) :
    ((Memref.whole cc3_scratch1 : Memref sig .scVector .vmem S128x128 .f32).view.loc (V d (cV3 L) (jV3 L)) ↦{fullShare} f : sProp 𝕄) = (V d (cV3 L) (jV3 L)).loc cc3_scratch1 ↦{fullShare} f := rfl
theorem pts_s2_c3 (f : Buf (Elt F) ((V d (cV3 L) (jV3 L)).loc cc3_scratch2)) :
    ((Memref.whole cc3_scratch2 : Memref sig .scVector .vmem S128x128 .f32).view.loc (V d (cV3 L) (jV3 L)) ↦{fullShare} f : sProp 𝕄) = (V d (cV3 L) (jV3 L)).loc cc3_scratch2 ↦{fullShare} f := rfl

/-- The two rows of the index scratch, as offset lists. -/
abbrev idxA_c3 : Memref sig .scVector .vmem S128 .i32 :=
  ((Memref.whole cc3_scratch0).slice (Rect.unit (s := S2x128) ![0, 0] S1x128.size inb_S2x128_S1x128_0_0) (fun _ => rfl)).squeeze S128 squeezes_S1x128_S128
abbrev idxB_c3 : Memref sig .scVector .vmem S128 .i32 :=
  ((Memref.whole cc3_scratch0).slice (Rect.unit (s := S2x128) ![1, 0] S1x128.size inb_S2x128_S1x128_1_0) (fun _ => rfl)).squeeze S128 squeezes_S1x128_S128

/-- The index scratch after the two row copies, over any prior contents. -/
abbrev idxBuf_c3 (L : grid3.Coords) (i0 i1 : S32x128.Idx → BitVec 32) (g : Buf (Elt F) ((V d (cV3 L) (jV3 L)).loc cc3_scratch0)) :
    Buf (Elt F) ((V d (cV3 L) (jV3 L)).loc cc3_scratch0) :=
  (Memref.whole cc3_scratch0 : Memref sig .scVector .vmem S2x128 .i32).view.writes (Elt F) g
    [⟨Rect.unit (s := S2x128) ![1, 0] S1x128.size inb_S2x128_S1x128_1_0, ReadAs.same.apply ((rowB3 L).view.read (Elt F) i1)⟩,
     ⟨Rect.unit (s := S2x128) ![0, 0] S1x128.size inb_S2x128_S1x128_0_0, ReadAs.same.apply ((rowA3 L).view.read (Elt F) i0)⟩]

variable (i0 i1 : S32x128.Idx → BitVec 32)

/-- Entry `x` of the first offset list is the token at column `x` of the tile's row of the first token array,
    whatever the scratch held before the two row copies. -/
theorem idxA_read_c3 (g : Buf (Elt F) ((V d (cV3 L) (jV3 L)).loc cc3_scratch0)) (x : S128.Idx) :
    idxA_c3.view.read (Elt F) (idxBuf_c3 (F := F) d L i0 i1 g) x
      = (rowA3 L).view.read (Elt F) i0 (Shape.reshapeEquiv squeezes_S1x128_S128.numel_eq x) := by
  show (Memref.whole cc3_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc3_scratch0 : Memref sig .scVector .vmem S2x128 .i32).view g
    (⟨Rect.unit (s := S2x128) ![1, 0] S1x128.size inb_S2x128_S1x128_1_0, ReadAs.same.apply ((rowB3 L).view.read (Elt F) i1)⟩ : View.Piece (Elt F) S2x128 .i32)
    (⟨Rect.unit (s := S2x128) ![0, 0] S1x128.size inb_S2x128_S1x128_0_0, ReadAs.same.apply ((rowA3 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c3 (F := F) d L i0 i1 g = _ from hsw, View.read_writes_cons_emb]

theorem idxB_read_c3 (g : Buf (Elt F) ((V d (cV3 L) (jV3 L)).loc cc3_scratch0)) (x : S128.Idx) :
    idxB_c3.view.read (Elt F) (idxBuf_c3 (F := F) d L i0 i1 g) x
      = (rowB3 L).view.read (Elt F) i1 (Shape.reshapeEquiv squeezes_S1x128_S128.numel_eq x) := by
  show (Memref.whole cc3_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c3 (hin0 : ∀ j, (i0 j).toNat < 100000) (g : Buf (Elt F) ((V d (cV3 L) (jV3 L)).loc cc3_scratch0)) (x : S128.Idx) :
    (idxA_c3.view.read (Elt F) (idxBuf_c3 (F := F) d L i0 i1 g) x).toNat < 100000 := by
  rw [idxA_read_c3, View.read_apply, cast_eq]; exact hin0 _
theorem hinB_c3 (hin1 : ∀ j, (i1 j).toNat < 100000) (g : Buf (Elt F) ((V d (cV3 L) (jV3 L)).loc cc3_scratch0)) (x : S128.Idx) :
    (idxB_c3.view.read (Elt F) (idxBuf_c3 (F := F) d L i0 i1 g) x).toNat < 100000 := by
  rw [idxB_read_c3, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c3 (x : S128x128.Idx) :
    (rowA3 L).view.read (Elt F) i0 (Shape.reshapeEquiv squeezes_S1x128_S128.numel_eq (ix1 (n := 128) (x 0)))
      = i0 (ix2 (⟨(((blkA3 L).view.emb x) 0).val / 128, Nat.div_lt_of_lt_mul (((blkA3 L).view.emb x) 0).isLt⟩ : Fin 32)
          (⟨(((blkA3 L).view.emb x) 0).val % 128, Nat.mod_lt _ (by decide)⟩ : Fin 128)) := by
  rw [View.read_apply, cast_eq]
  refine congrArg i0 ?_
  refine (congrArg (rowA3 L).view.emb (unsq_apply (x 0))).trans ?_
  have hx : (x 0).val < 128 := (x 0).isLt
  have hL0 : (L 0).val < 2 := (L 0).isLt
  funext a; apply Fin.ext
  match a with
  | ⟨0, _⟩ =>
    show (k3_off1 L) 0 + 1 * 0 = ((k3_off2 L) 0 + 1 * (x 0).val) / 128
    rw [k3_off1_eq, k3_off2_eq]
    simp only [Matrix.cons_val_zero]
    omega
  | ⟨1, _⟩ =>
    show (k3_off1 L) 1 + 1 * (x 0).val = ((k3_off2 L) 0 + 1 * (x 0).val) % 128
    rw [k3_off1_eq, k3_off2_eq]
    simp only [Matrix.cons_val_zero, Matrix.cons_val_one]
    omega

/-- The block a tile writes of the first result is the gathered array's. -/
theorem valA_c3 (hin0 : ∀ j, (i0 j).toNat < 100000) (fo : Buf (Elt F) (outA3 d)) (fs : Buf (Elt F) ((V d (cV3 L) (jV3 L)).loc cc3_scratch1))
    (g0 : Buf (Elt F) ((V d (cV3 L) (jV3 L)).loc cc3_scratch0))
    (hn : S128.numel = S128x128.size gathers_S100000x128_S128x128.axis')
    (hin : ∀ x, (idxA_c3.view.read (Elt F) (idxBuf_c3 (F := F) d L i0 i1 g0) x).toNat < S100000x128.size gathers_S100000x128_S128x128.axis) :
    ∀ y ∈ (blkA3 L).view.set,
      (blkA3 L).view.writes (Elt F) fo [⟨Rect.whole S128x128, ReadAs.same.apply
          ((Memref.whole cc3_scratch1 : Memref sig .scVector .vmem S128x128 .f32).view.read (Elt F)
            ((Memref.whole cc3_scratch1 : Memref sig .scVector .vmem S128x128 .f32).view.writes (Elt F) fs
              [⟨Rect.whole S128x128, SparseCore.gatherPayload gathers_S100000x128_S128x128 (srcA.view.read (Elt F) t0)
                  (SparseCore.rows (idxA_c3.view.read (Elt F) (idxBuf_c3 (F := F) d L i0 i1 g0)) hn hin)⟩]))⟩] y
        = gathered i0 t0 y := by
  intro y hy
  obtain ⟨x, -, rfl⟩ := Finset.mem_map.mp hy
  have h1 := read_writes_whole (Val := Elt F) (blkA3 L).view fo (ReadAs.same.apply
          ((Memref.whole cc3_scratch1 : Memref sig .scVector .vmem S128x128 .f32).view.read (Elt F)
            ((Memref.whole cc3_scratch1 : Memref sig .scVector .vmem S128x128 .f32).view.writes (Elt F) fs
              [⟨Rect.whole S128x128, SparseCore.gatherPayload gathers_S100000x128_S128x128 (srcA.view.read (Elt F) t0)
                  (SparseCore.rows (idxA_c3.view.read (Elt F) (idxBuf_c3 (F := F) d L i0 i1 g0)) hn hin)⟩]))) x
  rw [View.read_apply, cast_eq] at h1
  refine h1.trans ?_
  refine (read_writes_whole (Val := Elt F) (Memref.whole cc3_scratch1 : Memref sig .scVector .vmem S128x128 .f32).view fs _ x).trans ?_
  refine (gather_apply (F := F) (srcA.view.read (Elt F) t0) (idxA_c3.view.read (Elt F) (idxBuf_c3 (F := F) d L i0 i1 g0)) hn hin x).trans ?_
  rw [srcA_read]
  unfold gathered
  refine congrArg t0 ?_
  funext a; apply Fin.ext
  match a with
  | ⟨0, _⟩ =>
    show (idxA_c3.view.read (Elt F) (idxBuf_c3 (F := F) d L i0 i1 g0) (ix1 (n := 128) (x 0))).toNat = (Cert.Spec.rowOf _).val
    rw [Cert.Spec.rowOf_of_lt (hin0 _), idxA_read_c3, tokA_c3]
  | ⟨1, _⟩ =>
    show (x 1).val = (k3_off2 L) 1 + 1 * (x 1).val
    rw [k3_off2_eq]
    simp

/-- The token by which row `x 0` of the tile's block is looked up: column `x 0` of the tile's row of the second token array is
    token `(y / 128, y % 128)` for `y` the row's place in the whole result. -/
theorem tokB_c3 (x : S128x128.Idx) :
    (rowB3 L).view.read (Elt F) i1 (Shape.reshapeEquiv squeezes_S1x128_S128.numel_eq (ix1 (n := 128) (x 0)))
      = i1 (ix2 (⟨(((blkB3 L).view.emb x) 0).val / 128, Nat.div_lt_of_lt_mul (((blkB3 L).view.emb x) 0).isLt⟩ : Fin 32)
          (⟨(((blkB3 L).view.emb x) 0).val % 128, Nat.mod_lt _ (by decide)⟩ : Fin 128)) := by
  rw [View.read_apply, cast_eq]
  refine congrArg i1 ?_
  refine (congrArg (rowB3 L).view.emb (unsq_apply (x 0))).trans ?_
  have hx : (x 0).val < 128 := (x 0).isLt
  have hL0 : (L 0).val < 2 := (L 0).isLt
  funext a; apply Fin.ext
  match a with
  | ⟨0, _⟩ =>
    show (k3_off1 L) 0 + 1 * 0 = ((k3_off2 L) 0 + 1 * (x 0).val) / 128
    rw [k3_off1_eq, k3_off2_eq]
    simp only [Matrix.cons_val_zero]
    omega
  | ⟨1, _⟩ =>
    show (k3_off1 L) 1 + 1 * (x 0).val = ((k3_off2 L) 0 + 1 * (x 0).val) % 128
    rw [k3_off1_eq, k3_off2_eq]
    simp only [Matrix.cons_val_zero, Matrix.cons_val_one]
    omega

/-- The block a tile writes of the second result is the gathered array's. -/
theorem valB_c3 (hin1 : ∀ j, (i1 j).toNat < 100000) (fo : Buf (Elt F) (outB3 d)) (fs : Buf (Elt F) ((V d (cV3 L) (jV3 L)).loc cc3_scratch2))
    (g0 : Buf (Elt F) ((V d (cV3 L) (jV3 L)).loc cc3_scratch0))
    (hn : S128.numel = S128x128.size gathers_S100000x128_S128x128.axis')
    (hin : ∀ x, (idxB_c3.view.read (Elt F) (idxBuf_c3 (F := F) d L i0 i1 g0) x).toNat < S100000x128.size gathers_S100000x128_S128x128.axis) :
    ∀ y ∈ (blkB3 L).view.set,
      (blkB3 L).view.writes (Elt F) fo [⟨Rect.whole S128x128, ReadAs.same.apply
          ((Memref.whole cc3_scratch2 : Memref sig .scVector .vmem S128x128 .f32).view.read (Elt F)
            ((Memref.whole cc3_scratch2 : Memref sig .scVector .vmem S128x128 .f32).view.writes (Elt F) fs
              [⟨Rect.whole S128x128, SparseCore.gatherPayload gathers_S100000x128_S128x128 (srcB.view.read (Elt F) t1)
                  (SparseCore.rows (idxB_c3.view.read (Elt F) (idxBuf_c3 (F := F) d L i0 i1 g0)) hn hin)⟩]))⟩] y
        = gathered i1 t1 y := by
  intro y hy
  obtain ⟨x, -, rfl⟩ := Finset.mem_map.mp hy
  have h1 := read_writes_whole (Val := Elt F) (blkB3 L).view fo (ReadAs.same.apply
          ((Memref.whole cc3_scratch2 : Memref sig .scVector .vmem S128x128 .f32).view.read (Elt F)
            ((Memref.whole cc3_scratch2 : Memref sig .scVector .vmem S128x128 .f32).view.writes (Elt F) fs
              [⟨Rect.whole S128x128, SparseCore.gatherPayload gathers_S100000x128_S128x128 (srcB.view.read (Elt F) t1)
                  (SparseCore.rows (idxB_c3.view.read (Elt F) (idxBuf_c3 (F := F) d L i0 i1 g0)) hn hin)⟩]))) x
  rw [View.read_apply, cast_eq] at h1
  refine h1.trans ?_
  refine (read_writes_whole (Val := Elt F) (Memref.whole cc3_scratch2 : Memref sig .scVector .vmem S128x128 .f32).view fs _ x).trans ?_
  refine (gather_apply (F := F) (srcB.view.read (Elt F) t1) (idxB_c3.view.read (Elt F) (idxBuf_c3 (F := F) d L i0 i1 g0)) hn hin x).trans ?_
  rw [srcB_read]
  unfold gathered
  refine congrArg t1 ?_
  funext a; apply Fin.ext
  match a with
  | ⟨0, _⟩ =>
    show (idxB_c3.view.read (Elt F) (idxBuf_c3 (F := F) d L i0 i1 g0) (ix1 (n := 128) (x 0))).toNat = (Cert.Spec.rowOf _).val
    rw [Cert.Spec.rowOf_of_lt (hin1 _), idxB_read_c3, tokB_c3]
  | ⟨1, _⟩ =>
    show (x 1).val = (k3_off2 L) 1 + 1 * (x 1).val
    rw [k3_off2_eq]
    simp

variable [FloatOps F] (sh : PosShare TreeShare)

/-- The task on the tile at grid coordinates `L`: from its rows of the token arrays, a read share of each table and
    its blocks of the results at any contents, to the same with the blocks at the gathered arrays. -/
theorem tile3 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes3 d L sh i0 i1 t0 t1
        ∗ scopedBufs (V d (cV3 L) (jV3 L)) ∗ scopedSems0 (V d (cV3 L) (jV3 L)) ∗ owes (V d (cV3 L) (jV3 L)) O W)
      ⊢ wp frame (wpE (defs₀ (F := F)) 𝒱₀ (V d (cV3 L) (jV3 L)) none) Set.univ
          (cc3__sc_gather L (Memref.whole main_v12_scv) (Memref.isWhole_whole _) (Memref.whole main_v13_scv) (Memref.isWhole_whole _) (Memref.whole main_arg2_scv) (Memref.isWhole_whole _) (Memref.whole main_arg3_scv) (Memref.isWhole_whole _) (Memref.whole main_v14_0_scv) (Memref.isWhole_whole _) (Memref.whole main_v14_1_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scoped0 cc3_scoped1)
          fun _ => iprop(tdRes3 d L sh i0 i1 t0 t1 ∗ scopedBufs (V d (cV3 L) (jV3 L)) ∗ scopedSems0 (V d (cV3 L) (jV3 L)) ∗ ∃ W', ⌜∀ p ∈ W', p ∈ W ∨ p.2 = none⌝ ∗ owes (V d (cV3 L) (jV3 L)) O W') := by
  simp only [cc3__sc_gather_eq_skeleton]; unfold cc3__sc_gather_skel
  simp only [k3_part1_eq_skeleton]; unfold k3_part1_skel
  rw [(K (F := F)).scopedBufs_V facts d (cV3 L) (jV3 L), SparseCore.Cfg.scopedSems0_V (Val := Elt F) d (cV3 L) (jV3 L), sems_c3, bufs_c3]
  unfold goRes3 tdRes3
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV3 L) (jV3 L)) hO) $$ Hlv
  ihave Hi0 := (Entails.of_eq (pts_rowA_c3 (F := F) d L _).symm) $$ Hi0
  ihave Hi1 := (Entails.of_eq (pts_rowB_c3 (F := F) d L _).symm) $$ Hi1
  ihave Ht0 := (Entails.of_eq (pts_tabA_c3 (F := F) d L _ _).symm) $$ Ht0
  ihave Ht1 := (Entails.of_eq (pts_tabB_c3 (F := F) d L _ _).symm) $$ Ht1
  ihave Ho0 := (Entails.of_eq (pts_blkA_c3 (F := F) d L _).symm) $$ Ho0
  ihave Ho1 := (Entails.of_eq (pts_blkB_c3 (F := F) d L _).symm) $$ Ho1
  ihave Hs0 := (Entails.of_eq (pts_s0_c3 (F := F) d L _).symm) $$ Hs0
  ihave Hs1 := (Entails.of_eq (pts_s1_c3 (F := F) d L _).symm) $$ Hs1
  ihave Hs2 := (Entails.of_eq (pts_s2_c3 (F := F) d L _).symm) $$ Hs2
  -- the offsets in range, at whatever the index scratch held before the two row copies
  have hinA := hinA_c3 (F := F) d L i0 i1 hin0
  have hinB := hinB_c3 (F := F) d L i0 i1 hin1
  sl_exec
  sl_step
  -- the two blocks are the gathered arrays'
  have hvA : ∀ y ∈ (blkA3 L).view.set,
      (blkA3 L).view.writes (Elt F) fo0 [⟨Rect.whole S128x128, tile3.sl.dma0_2 d L i0 i1 t0 fs1 hinA⟩] y = gathered i0 t0 y :=
    valA_c3 (F := F) d L i0 i1 t0 hin0 fo0 fs1 _ _ _
  have hvB : ∀ y ∈ (blkB3 L).view.set,
      (blkB3 L).view.writes (Elt F) fo1 [⟨Rect.whole S128x128, tile3.sl.dma0_3 d L i0 i1 t1 fs2 hinB⟩] y = gathered i1 t1 y :=
    valB_c3 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c3 (F := F) d L _)); iexact Hi0
    isplitl [Hi1]; · iapply (Entails.of_eq (pts_rowB_c3 (F := F) d L _)); iexact Hi1
    isplitl [Ht0]; · iapply (Entails.of_eq (pts_tabA_c3 (F := F) d L _ _)); iexact Ht0
    isplitl [Ht1]; · iapply (Entails.of_eq (pts_tabB_c3 (F := F) d L _ _)); iexact Ht1
    isplitl [Ho0]; · iapply (Entails.of_eq (pts_blkA_c3 (F := F) d L _)); iexact Ho0
    iapply (Entails.of_eq (pts_blkB_c3 (F := F) d L _)); iexact Ho1
  isplitl [Hs0 Hs1 Hs2 Hbufs]
  · isplitl [Hs0]; · iexists _; iapply (Entails.of_eq (pts_s0_c3 (F := F) d L _)); iexact Hs0
    isplitl [Hs1]; · iexists _; iapply (Entails.of_eq (pts_s1_c3 (F := F) d L _)); iexact Hs1
    isplitl [Hs2]; · iexists _; iapply (Entails.of_eq (pts_s2_c3 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KI

end
-- ==== Proof.TileObl.lean ====
/-
  The launch obligations of the four row-gather calls.

  The launch theorem asks, per call, that every tile's task run from what the call's handshake hands the tile to what
  the tile hands back. A tile's task is its kernel's body at the tile's grid coordinates; the body lemma of each call,
  at those coordinates, at the tile's read share of the tables and at the tokens the call's arrays hold (all below the
  tables' height, by the precondition), is that run. The body's waits were recorded at no call's index; the launch
  allows them also at the call's own.
-/
import proofs.«204601_g21792664060648_cont_8to1_111_20_alg».proof.Proof.Tile0
import proofs.«204601_g21792664060648_cont_8to1_111_20_alg».proof.Proof.Tile1
import proofs.«204601_g21792664060648_cont_8to1_111_20_alg».proof.Proof.Tile2
import proofs.«204601_g21792664060648_cont_8to1_111_20_alg».proof.Proof.Tile3
import proofs.«204601_g21792664060648_cont_8to1_111_20_alg».proof.Proof.Pay
import proofs.«204601_g21792664060648_cont_8to1_111_20_alg».proof.Proof.TokBound

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- Waits recorded at no call's index are among those the launch allows a task of call `q`. -/
theorem tile_obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (m : (ℓ : Loc nD τ sig) → Buf (Elt F) ℓ)

/-- Call 0's row of the body table, at the tile's coordinates. -/
theorem defs_vector_c0 (c : Fin τ.nSC) (s : Fin τ.nSub) :
    defs₀ (F := F) (.scVector c s) 0 ⟨⟩
      = SparseCore.onTile hcore0 hsub0 (fun c s => cc0__sc_gather (co0 c s) (Memref.whole main_v3_scv) (Memref.isWhole_whole _) (Memref.whole main_v4_scv) (Memref.isWhole_whole _) (Memref.whole main_arg2_scv) (Memref.isWhole_whole _) (Memref.whole main_arg3_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1) ⟨⟩ c s := rfl

/-- Call 0: each tile's task, from what the handshake hands it to what it hands back. -/
theorem tileObl_c0 (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs_vector_c0]; simp only [SparseCore.onTile, hc, and_self, ↓reduceDIte]
  exact (tile0 d (co0 ⟨_, hc.1⟩ ⟨_, hc.2⟩) _ _ _ _ (shT _ _) (tokA_lt hpre d 0) (tokB_lt hpre d 0) O W hO).trans (wp_mono frame _ _ fun _ => tile_obl_post)

/-- Call 1's row of the body table, at the tile's coordinates. -/
theorem defs_vector_c1 (c : Fin τ.nSC) (s : Fin τ.nSub) :
    defs₀ (F := F) (.scVector c s) 1 ⟨⟩
      = SparseCore.onTile hcore1 hsub1 (fun c s => cc1__sc_gather (co1 c s) (Memref.whole main_v6_scv) (Memref.isWhole_whole _) (Memref.whole main_v7_scv) (Memref.isWhole_whole _) (Memref.whole main_arg2_scv) (Memref.isWhole_whole _) (Memref.whole main_arg3_scv) (Memref.isWhole_whole _) (Memref.whole main_v8_0_scv) (Memref.isWhole_whole _) (Memref.whole main_v8_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0 cc1_scoped1) ⟨⟩ c s := rfl

/-- Call 1: each tile's task, from what the handshake hands it to what it hands back. -/
theorem tileObl_c1 (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ⟨⟩)) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs_vector_c1]; simp only [SparseCore.onTile, hc, and_self, ↓reduceDIte]
  exact (tile1 d (co1 ⟨_, hc.1⟩ ⟨_, hc.2⟩) _ _ _ _ (shT _ _) (tokA_lt hpre d 1) (tokB_lt hpre d 1) O W hO).trans (wp_mono frame _ _ fun _ => tile_obl_post)

/-- Call 2's row of the body table, at the tile's coordinates. -/
theorem defs_vector_c2 (c : Fin τ.nSC) (s : Fin τ.nSub) :
    defs₀ (F := F) (.scVector c s) 2 ⟨⟩
      = SparseCore.onTile hcore2 hsub2 (fun c s => cc2__sc_gather (co2 c s) (Memref.whole main_v9_scv) (Memref.isWhole_whole _) (Memref.whole main_v10_scv) (Memref.isWhole_whole _) (Memref.whole main_arg2_scv) (Memref.isWhole_whole _) (Memref.whole main_arg3_scv) (Memref.isWhole_whole _) (Memref.whole main_v11_0_scv) (Memref.isWhole_whole _) (Memref.whole main_v11_1_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scoped0 cc2_scoped1) ⟨⟩ c s := rfl

/-- Call 2: each tile's task, from what the handshake hands it to what it hands back. -/
theorem tileObl_c2 (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ⟨⟩)) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs_vector_c2]; simp only [SparseCore.onTile, hc, and_self, ↓reduceDIte]
  exact (tile2 d (co2 ⟨_, hc.1⟩ ⟨_, hc.2⟩) _ _ _ _ (shT _ _) (tokA_lt hpre d 2) (tokB_lt hpre d 2) O W hO).trans (wp_mono frame _ _ fun _ => tile_obl_post)

/-- Call 3's row of the body table, at the tile's coordinates. -/
theorem defs_vector_c3 (c : Fin τ.nSC) (s : Fin τ.nSub) :
    defs₀ (F := F) (.scVector c s) 3 ⟨⟩
      = SparseCore.onTile hcore3 hsub3 (fun c s => cc3__sc_gather (co3 c s) (Memref.whole main_v12_scv) (Memref.isWhole_whole _) (Memref.whole main_v13_scv) (Memref.isWhole_whole _) (Memref.whole main_arg2_scv) (Memref.isWhole_whole _) (Memref.whole main_arg3_scv) (Memref.isWhole_whole _) (Memref.whole main_v14_0_scv) (Memref.isWhole_whole _) (Memref.whole main_v14_1_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scoped0 cc3_scoped1) ⟨⟩ c s := rfl

/-- Call 3: each tile's task, from what the handshake hands it to what it hands back. -/
theorem tileObl_c3 (hpre : PreOK m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ⟨⟩)) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs_vector_c3]; simp only [SparseCore.onTile, hc, and_self, ↓reduceDIte]
  exact (tile3 d (co3 ⟨_, hc.1⟩ ⟨_, hc.2⟩) _ _ _ _ (shT _ _) (tokA_lt hpre d 3) (tokB_lt hpre d 3) O W hO).trans (wp_mono frame _ _ fun _ => tile_obl_post)

/-- Every call's tiles. -/
theorem tileObl (hpre : PreOK m) : ∀ q : Fin 4, (K (F := F)).TileObl (D (F := F)) 𝒱 (P m) v₀ q := fun q =>
  match q with
  | 0 => tileObl_c0 m hpre
  | 1 => tileObl_c1 m hpre
  | 2 => tileObl_c2 m hpre
  | 3 => tileObl_c3 m hpre

end Cert.Proof.KI

end
-- ==== Proof.MmBody.lean ====
/-
  The matrix-product kernel body on whole staging buffers.

  The body reads the two halves of the weight buffer (rows 0..127 and rows 128..255), the two gathered-row buffers and the
  bias buffer, and stores into the result buffer, whole,
      (rows₁ · W_upper + rows₂ · W_lower) + bias (broadcast along the rows).
  It changes nothing else: the four input buffers are left as they were read. The stored value is named as one pure term
  of the four buffers' contents (`mmOut`), through the payload of the printed body's one store.
-/
import proofs.«204601_g21792664060648_cont_8to1_111_20_alg».proof.Proof.Common
import proofs.«204601_g21792664060648_cont_8to1_111_20_alg».proof.Proof.Gen.KernelIdeal.Launch
import proofs.«204601_g21792664060648_cont_8to1_111_20_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's accesses -/

/-- Rows 0..127 of the weight buffer, -/
abbrev rWu : Rect S256x128 := Rect.unit (s := S256x128) ![0, 0] S128x128.size inb_S256x128_S128x128_0_0
/-- rows 128..255 of it, -/
abbrev rWl : Rect S256x128 := Rect.unit (s := S256x128) ![128, 0] S128x128.size inb_S256x128_S128x128_128_0
/-- a gathered-row buffer or the result buffer whole, -/
abbrev rX : Rect S4096x128 := Rect.unit (s := S4096x128) ![0, 0] S4096x128.size inb_S4096x128_S4096x128_0_0
/-- the bias buffer whole. -/
abbrev rB : Rect S1x128 := Rect.unit (s := S1x128) ![0, 0] S1x128.size inb_S1x128_S1x128_0_0

/-! ## What the body leaves in the result buffer -/

/-- The result buffer after the body, from the contents of the two gathered-row buffers, the weight buffer and the bias
    buffer: its one store, which covers it. -/
def mmOut (xa xb : Vec F S4096x128 .f32) (xw : Vec F S256x128 .f32) (xc : Vec F S1x128 .f32) : Vec F S4096x128 .f32 :=
  View.canon [⟨rX, k4_pay1 (View.ld xw rWu) (View.ld xw rWl) (View.ld xa rX) (View.ld xb rX) (View.ld xc rB)⟩]

/-- The one store covers the buffer. -/
theorem cover_mm (p0 : Vec F S4096x128 .f32) (y : S4096x128.Idx) :
    ∃ pc ∈ ([⟨rX, p0⟩] : List (View.Piece (Elt F) S4096x128 .f32)), y ∈ pc.1.set :=
  View.cover_of_tiled [⟨rX, p0⟩] S4096x128.size (by rfl) y

/-! ## The body's triple -/

set_option maxHeartbeats 1000000 in
/-- The body on whole staging memrefs, the inputs' at read contents and the result's at anything, runs to the continuation
    holding the inputs' as they were and the result's at `mmOut` of the inputs'. -/
theorem sound_mm (c : Dev nD) (E : Set ℕ) (i : grid4.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S4096x128 .f32) (harg5 : arg5.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg5 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg5 fullShare (mmOut xa xb xw xc)) -∗ K ⟨⟩))
      ⊢ wp frame (wpE (defs₀ (F := F)) Variants.none c none) E (cc4__mm_body i arg1 harg1 arg2 harg2 arg3 harg3 arg4 harg4 arg5 harg5) K := by
  simp only [cc4__mm_body_eq_skeleton]; unfold cc4__mm_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the first matrix-product region -/

/-- The contents of one of the TensorCore's buffers. -/
abbrev BufOf (d : Dev nD) (b : Ref sig .tc) : Type := Buf (Elt F) ((d.tc : Thread nD τ).loc b)

/-- Window `w`'s block at point `t`, read off contents `X` of its array. -/
def blk4 (d : Dev nD) (w : Fin cfg4.W) (X : BufOf (F := F) d (Pipeline.arrRef spec4 w)) (t : Fin cfg4.N) :
    ((cfg4.win w).xblock (cfg4.grid.coords t)).Idx → Elt F (cfg4.win w).elt :=
  ((cfg4.win w).blk t).view.read (Elt F) X

/-- The proof data: the five arrays at given contents; after the body each input's buffer at its block and the result's at
    `mmOut` of the input blocks; the invariant is the scoped buffers no window stages, untouched; what the core owes and the
    bound on its recorded pairs pass through. -/
def dat4 (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4)) : Dat τ (Elt F) (HIx 4) ℕ UU ℕ cfg4 d where
  A w := match w with
    | ⟨0, _⟩ => A
    | ⟨1, _⟩ => B
    | ⟨2, _⟩ => Wc
    | ⟨3, _⟩ => bc
    | ⟨4, _⟩ => prev
  after w t := match w with
    | ⟨0, _⟩ => blk4 d 0 A t
    | ⟨1, _⟩ => blk4 d 1 B t
    | ⟨2, _⟩ => blk4 d 2 Wc t
    | ⟨3, _⟩ => blk4 d 3 bc t
    | ⟨4, _⟩ => mmOut (blk4 d 0 A t) (blk4 d 1 B t) (blk4 d 2 Wc t) (blk4 d 3 bc t)
  Φ _ := Pipeline.scopedRest spec4 d
  q _ := fullShare
  owed _ := O
  recorded _ := Bd

section Dat4
variable (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4))

theorem A4_0 : (dat4 d A B Wc bc prev O Bd).A 0 = A := by dsimp only [dat4]
theorem A4_1 : (dat4 d A B Wc bc prev O Bd).A 1 = B := by dsimp only [dat4]
theorem A4_2 : (dat4 d A B Wc bc prev O Bd).A 2 = Wc := by dsimp only [dat4]
theorem A4_3 : (dat4 d A B Wc bc prev O Bd).A 3 = bc := by dsimp only [dat4]
theorem A4_4 : (dat4 d A B Wc bc prev O Bd).A 4 = prev := by dsimp only [dat4]

theorem after4_0 (t : Fin cfg4.N) : (dat4 d A B Wc bc prev O Bd).after 0 t = blk4 d 0 A t := by dsimp only [dat4]
theorem after4_1 (t : Fin cfg4.N) : (dat4 d A B Wc bc prev O Bd).after 1 t = blk4 d 1 B t := by dsimp only [dat4]
theorem after4_2 (t : Fin cfg4.N) : (dat4 d A B Wc bc prev O Bd).after 2 t = blk4 d 2 Wc t := by dsimp only [dat4]
theorem after4_3 (t : Fin cfg4.N) : (dat4 d A B Wc bc prev O Bd).after 3 t = blk4 d 3 bc t := by dsimp only [dat4]
theorem after4_4 (t : Fin cfg4.N) : (dat4 d A B Wc bc prev O Bd).after 4 t
    = mmOut (blk4 d 0 A t) (blk4 d 1 B t) (blk4 d 2 Wc t) (blk4 d 3 bc t) := by dsimp only [dat4]

/-- Each input's current staging buffer holds its block. -/
theorem before4_0 (t : Fin cfg4.N) (dd) : (dat4 d A B Wc bc prev O Bd).before 0 t dd = blk4 d 0 A t :=
  ((dat4 d A B Wc bc prev O Bd).before_in_eq_fetched 0 rfl (fun _ => rfl) (fun _ _ _ => rfl)
    (fun t => by rw [after4_0]; unfold Dat.blockOf blk4; rw [A4_0]; try rfl) t dd).trans
    (by unfold Dat.fetched Dat.blockOf blk4; rw [A4_0]; try rfl)
theorem before4_1 (t : Fin cfg4.N) (dd) : (dat4 d A B Wc bc prev O Bd).before 1 t dd = blk4 d 1 B t :=
  ((dat4 d A B Wc bc prev O Bd).before_in_eq_fetched 1 rfl (fun _ => rfl) (fun _ _ _ => rfl)
    (fun t => by rw [after4_1]; unfold Dat.blockOf blk4; rw [A4_1]; try rfl) t dd).trans
    (by unfold Dat.fetched Dat.blockOf blk4; rw [A4_1]; try rfl)
theorem before4_2 (t : Fin cfg4.N) (dd) : (dat4 d A B Wc bc prev O Bd).before 2 t dd = blk4 d 2 Wc t :=
  ((dat4 d A B Wc bc prev O Bd).before_in_eq_fetched 2 rfl (fun _ => rfl) (fun _ _ _ => rfl)
    (fun t => by rw [after4_2]; unfold Dat.blockOf blk4; rw [A4_2]; try rfl) t dd).trans
    (by unfold Dat.fetched Dat.blockOf blk4; rw [A4_2]; try rfl)
theorem before4_3 (t : Fin cfg4.N) (dd) : (dat4 d A B Wc bc prev O Bd).before 3 t dd = blk4 d 3 bc t :=
  ((dat4 d A B Wc bc prev O Bd).before_in_eq_fetched 3 rfl (fun _ => rfl) (fun _ _ _ => rfl)
    (fun t => by rw [after4_3]; unfold Dat.blockOf blk4; rw [A4_3]; try rfl) t dd).trans
    (by unfold Dat.fetched Dat.blockOf blk4; rw [A4_3]; try rfl)

/-! ## The body obligation -/

/-- What the body is called with at point `t`, the windows one by one, -/
def bodyPre4 (t : Fin cfg4.N) : sProp 𝕄 :=
  iprop((dat4 d A B Wc bc prev O Bd).Φ t.castSucc ∗ (dat4 d A B Wc bc prev O Bd).owesAt none t.castSucc
    ∗ (∃ dd, owns (d : Thread nD τ) (st4_0 t) fullShare ((dat4 d A B Wc bc prev O Bd).before 0 t dd))
    ∗ (∃ dd, owns (d : Thread nD τ) (st4_1 t) fullShare ((dat4 d A B Wc bc prev O Bd).before 1 t dd))
    ∗ (∃ dd, owns (d : Thread nD τ) (st4_2 t) fullShare ((dat4 d A B Wc bc prev O Bd).before 2 t dd))
    ∗ (∃ dd, owns (d : Thread nD τ) (st4_3 t) fullShare ((dat4 d A B Wc bc prev O Bd).before 3 t dd))
    ∗ (∃ dd, owns (d : Thread nD τ) (st4_4 t) fullShare ((dat4 d A B Wc bc prev O Bd).before 4 t dd)))

/-- and what it returns. -/
def bodyPost4 (t : Fin cfg4.N) : sProp 𝕄 :=
  iprop((dat4 d A B Wc bc prev O Bd).Φ t.succ ∗ (dat4 d A B Wc bc prev O Bd).owesAt none t.succ
    ∗ owns (d : Thread nD τ) (st4_0 t) fullShare ((dat4 d A B Wc bc prev O Bd).after 0 t)
    ∗ owns (d : Thread nD τ) (st4_1 t) fullShare ((dat4 d A B Wc bc prev O Bd).after 1 t)
    ∗ owns (d : Thread nD τ) (st4_2 t) fullShare ((dat4 d A B Wc bc prev O Bd).after 2 t)
    ∗ owns (d : Thread nD τ) (st4_3 t) fullShare ((dat4 d A B Wc bc prev O Bd).after 3 t)
    ∗ owns (d : Thread nD τ) (st4_4 t) fullShare ((dat4 d A B Wc bc prev O Bd).after 4 t))

/-- The body at the point: the inputs' memrefs hold their blocks, so the body's triple applies; the invariant and the core's
    `owes` pass through unread. -/
theorem sound_body4 (t : Fin cfg4.N) :
    bodyPre4 d A B Wc bc prev O Bd t ⊢ wp frame (wpE (defs₀ (F := F)) Variants.none d none) Set.univ (bodyAt4 t)
      (fun _ => bodyPost4 d A B Wc bc prev O Bd t) := by
  unfold bodyPre4 bodyPost4 bodyAt4
  simp only [before4_0, before4_1, before4_2, before4_3]
  rw [show (dat4 d A B Wc bc prev O Bd).Φ t.succ = (dat4 d A B Wc bc prev O Bd).Φ t.castSucc from rfl,
    show (dat4 d A B Wc bc prev O Bd).owesAt none t.succ = (dat4 d A B Wc bc prev O Bd).owesAt none t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_mm d Set.univ _ _ _ _ _ _ _ _ _ _ _ (blk4 d 0 A t) (blk4 d 1 B t) (blk4 d 2 Wc t) (blk4 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 : BodyObligation (dat4 d A B Wc bc prev O Bd) (defs₀ (F := F)) Variants.none none Set.univ := fun t => by
  rw [bigSep_W4, bigSep_W4]
  exact sound_body4 d A B Wc bc prev O Bd t

end Dat4

end Cert.Proof.KI

end
-- ==== Proof.RegionOut.lean ====
/-
  What a matrix-product region leaves in the result array, in closed form.

  The result array has 16384 rows; the region of call `p` overwrites rows `4096 p .. 4096 p + 4095` with the matrix-product
  block (`mmOut` of that call's two gathered-row arrays, the weight matrix and the bias row) and leaves the other rows as
  they were.
-/
import proofs.«204601_g21792664060648_cont_8to1_111_20_alg».proof.Proof.MmBody
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- Block `p` of `prev` overwritten with the matrix-product block. -/
def outAt (p : Fin 4) (a b : S4096x128.Idx → Elt F .f32) (w : S256x128.Idx → Elt F .f32) (bcv : S1x128.Idx → Elt F .f32)
    (prev : S16384x128.Idx → Elt F .f32) : S16384x128.Idx → Elt F .f32 :=
  fun j => if h : 4096 * p.val ≤ (j 0).val ∧ (j 0).val < 4096 * p.val + 4096 then
      mmOut a b w bcv (ix2 ⟨(j 0).val - 4096 * p.val, by omega⟩ (j 1))
    else prev j

theorem outAt_of_mem (p : Fin 4) (a b : S4096x128.Idx → Elt F .f32) (w : S256x128.Idx → Elt F .f32) (bcv : S1x128.Idx → Elt F .f32)
    (prev : S16384x128.Idx → Elt F .f32) (j : S16384x128.Idx) (h : 4096 * p.val ≤ (j 0).val ∧ (j 0).val < 4096 * p.val + 4096) :
    outAt p a b w bcv prev j = mmOut a b w bcv (ix2 ⟨(j 0).val - 4096 * p.val, by omega⟩ (j 1)) := dif_pos h

theorem outAt_of_not_mem (p : Fin 4) (a b : S4096x128.Idx → Elt F .f32) (w : S256x128.Idx → Elt F .f32) (bcv : S1x128.Idx → Elt F .f32)
    (prev : S16384x128.Idx → Elt F .f32) (j : S16384x128.Idx) (h : ¬(4096 * p.val ≤ (j 0).val ∧ (j 0).val < 4096 * p.val + 4096)) :
    outAt p a b w bcv prev j = prev j := dif_neg h

end Cert.Proof.KI

end
-- ==== Proof.Region0.lean ====
/-
  The first matrix-product region of @main, stepped over inside the whole program's TensorCore thread.

  The region's call runs the pipeline of one grid point: the four input windows — the two gathered-row arrays, the weight
  matrix, the bias row — are fetched whole into their staging buffers, the body runs, and the result window's staging buffer
  is written back over block 0 of the result array. The proof data says so (`dat4`, the body obligation `body_obligation4`);
  this module wraps it as the library's record of a kernel region (`reg0`) — the five arrays and what the core owes enter and
  leave, nothing else is touched — and enters the region from the thread of the whole program, whose body table extends the
  pipelines' (`wp_entry_lift`). The waits of the pipeline's staging cells sit at the kernels' own index, below everything
  the TensorCore can owe the handshakes.

  Last, the result array's contents after the region in closed form (`out0_eq`: block 0 overwritten with the matrix-product
  block, the other rows as before), by reading the pipeline's one write-back at an index.
-/
import proofs.«204601_g21792664060648_cont_8to1_111_20_alg».proof.Proof.MmBody
import proofs.«204601_g21792664060648_cont_8to1_111_20_alg».proof.Proof.RegionOut
import Idealize.ShloMosaic.Lib.Pipeline.Regions
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The region's record -/

/-- No pipeline of this program has a prefetched table: each has one admissible contents. -/
abbrev adm (p : Fin 4) : (pcfgs (F := F) p).Adm := (cfgs p).toPCfg_adm

/-- Proof data that says nothing: for the pipelines a region's family does not speak of. -/
def datNone (cfg : Pipeline.Cfg sig Λ₀) (c : Dev nD) : Dat τ (Elt F) (HIx 4) ℕ UU ℕ cfg c where
  A _ := Classical.arbitrary _
  after _ _ _ := Classical.arbitrary _
  Φ _ := BI.emp
  q _ := fullShare
  owed _ := 0

/-- A buffer of the TensorCore, whole, at contents `f`. -/
abbrev ptT (c : Dev nD) (b : Ref sig .tc) (f : BufOf (F := F) c b) : sProp 𝕄 := ((c.tc : Thread nD τ).loc b) ↦{fullShare} f

/-- What the TensorCore owes, its recorded pairs within a bound. -/
abbrev owesIn (c : Dev nD) (O : CellTallies nD τ sig (HIx 4)) (Bd : Set (SemLoc sig × HIx 4)) : sProp 𝕄 :=
  iprop(∃ W : Waits sig (HIx 4), ⌜↑W ⊆ Bd⌝ ∗ owes (c.tc : Thread nD τ) O W)

theorem prefHeld_none (p : Fin 4) (c : Dev nD) (q) (pf) :
    (Pipeline.prefHeld (Ix := HIx 4) (Name := ℕ) (U := UU) (Lvl := ℕ) (Val := Elt F) (pcfgs (F := F) p).pre c q pf : sProp 𝕄) = BI.emp := by
  unfold Pipeline.prefHeld
  show bigSep (Finset.univ : Finset (Fin 0)) _ = _
  rw [Finset.univ_eq_empty, BI.bigSep_empty]

theorem spec_pin0 : (Pipeline.pin (pcfgs (F := F)) adm 0).spec = spec4 := rfl
theorem Phi4 (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4)) (t) :
    (dat4 d A B Wc bc prev O Bd).Φ t = Pipeline.scopedRest spec4 d := by dsimp only [dat4]

section Region0
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))

/-- The family of proof data the first region runs under: its own pipeline's, and nothing of the others. -/
def fam0 : (p : Fin 4) → (c : Dev nD) → Dat τ (Elt F) (HIx 4) ℕ UU ℕ (Pipeline.pin (pcfgs (F := F)) adm p) c
  | ⟨0, _⟩ => fun c => dat4 c (A c) (B c) (Wc c) (bc c) (prev c) (O c) (Bd c)
  | ⟨1, _⟩ => fun c => datNone cfg5 c
  | ⟨2, _⟩ => fun c => datNone cfg6 c
  | ⟨3, _⟩ => fun c => datNone cfg7 c

theorem fam0_0 (c : Dev nD) : fam0 A B Wc bc prev O Bd 0 c = dat4 c (A c) (B c) (Wc c) (bc c) (prev c) (O c) (Bd c) := rfl

/-- The result array after the region: its first block overwritten by what the body left in the staging buffer. -/
def out0 (c : Dev nD) : BufOf (F := F) c main_v15 := (dat4 c (A c) (B c) (Wc c) (bc c) (prev c) (O c) (Bd c)).arrAt 4 1

/-- The five arrays of the pipeline, one by one. -/
theorem arrays4 (c : Dev nD) (Fa : (w : Fin cfg4.W) → Buf (Elt F) ((cfg4.win w).arr.view.loc (c.tc : Thread nD τ))) :
    ((dat4 c (A c) (B c) (Wc c) (bc c) (prev c) (O c) (Bd c)).arrays Fa : sProp 𝕄)
      = iprop(ptT c main_v5_0 (Fa 0) ∗ ptT c main_v5_1 (Fa 1) ∗ ptT c main_arg4 (Fa 2) ∗ ptT c main_v2 (Fa 3) ∗ ptT c main_v15 (Fa 4)) := by
  rw [Pipeline.arrays_eq (fun _ : Fin 1 => cfg4) (fun _ c' => dat4 c' (A c') (B c') (Wc c') (bc c') (prev c') (O c') (Bd c')) 0 c arr_whole4
    ((dat4 c (A c) (B c) (Wc c) (bc c) (prev c) (O c) (Bd c)).share_full fun _ => rfl) Fa, bigSep_W4]

/-- The thread state the first region is entered from, and the one it leaves. -/
def pre0 (c : Dev nD) : sProp 𝕄 :=
  iprop(ptT c main_v5_0 (A c) ∗ ptT c main_v5_1 (B c) ∗ ptT c main_arg4 (Wc c) ∗ ptT c main_v2 (bc c) ∗ ptT c main_v15 (prev c)
    ∗ owesIn c (O c) (Bd c))
def post0 (c : Dev nD) : sProp 𝕄 :=
  iprop(ptT c main_v5_0 (A c) ∗ ptT c main_v5_1 (B c) ∗ ptT c main_arg4 (Wc c) ∗ ptT c main_v2 (bc c) ∗ ptT c main_v15 (out0 A B Wc bc prev O Bd c)
    ∗ owesIn c (O c) (Bd c ∪ cfg4.waitPairs none))

variable (lv : GSem nD τ sig → HIx 4 → ℕ) (hlv : (K (F := F)).Refines lv) (hO : ∀ c g, O c g none = 0)

/-- The first matrix-product region's record. -/
def reg0 : Pipeline.RegionSeg (pcfgs (F := F)) adm (fam0 A B Wc bc prev O Bd) none defs₀ Variants.none (K (F := F)).L lv (0 : Fin 4) where
  win := winFacts4.to₀
  block_pos := block_pos4
  stage_whole := stage_whole4
  K := PEmpty
  osem k := k.elim
  ho := Pipeline.OwnSemFacts.none _
  hbody c := (body_obligation4 c (A c) (B c) (Wc c) (bc c) (prev c) (O c) (Bd c)).loose
  hwaits c := Pipeline.cellsWaits_intro _ _ _ _ c fun w s t => (K (F := F)).mayWait_none _ (hO c) lv hlv
  pre := pre0 A B Wc bc prev O Bd
  post := post0 A B Wc bc prev O Bd
  X _ := BI.emp
  Y _ := BI.emp
  Z _ := BI.emp
  hentry c := by
    rw [Pipeline.ownSems0_none, prefHeld_none, fam0_0, arrays4]
    unfold pre0
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam0_0, Phi4, spec_pin0]
    iintro ⟨-, -, HR⟩; iexact HR
  hout c := by
    rw [fam0_0, Pipeline.ownSems0_none, Phi4, spec_pin0]
    iintro HR
    isplitr; · iempintro
    isplitr; · iempintro
    iexact HR
  hexit c := by
    rw [fam0_0, arrays4]
    unfold post0
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region0

/-! ## Entering a region from the SparseCore program's TensorCore thread -/

/-- The region's call in the whole program's signature is the pipelines' program's call, lifted. -/
theorem lift_entry (d : Dev nD) (p : Fin 4) :
    (Prog.lift (.customCall (SparseCore.inner (Pipeline.entry p)) ()) : Prog (TpuEff nD τ sig (Elt F) (SparseCore.Sig (ΛP (F := F)) 4) (SparseCore.T d).2) PUnit)
      = SparseCore.liftProg (Prog.lift (.customCall (Pipeline.entry p) ())) := rfl

/-- So a proof of the call under the pipelines' body table is a proof of it under the whole program's. -/
theorem wp_entry_lift (d : Dev nD) (p : Fin 4) (Φ : PUnit → sProp 𝕄) :
    wp frame (wpE (D (F := F)) 𝒱 (T d) none) Set.univ (Prog.lift (.customCall (Pipeline.entry p) ())) Φ
      ⊢ wp frame (wpE ((K (F := F)).defs (D (F := F))) 𝒱 (T d) none) Set.univ (Prog.lift (.customCall (SparseCore.inner (Pipeline.entry p)) ())) Φ := by
  rw [lift_entry]
  exact (K (F := F)).wp_liftProg (D (F := F)) 𝒱 (T d) Set.univ none _ Φ

section Region0Thm
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The first matrix-product region inside @main on the TensorCore thread: from the level facts, the region boundary, the
    five arrays whole, what the core owes, and the pipeline's cells' ghost state and duty tokens, the call runs to the
    boundary, the four input arrays as they were, the result array with its first block overwritten, and the same owed. -/
theorem region0 (d : Dev nD) {Φ : PUnit → sProp 𝕄} :
    iprop(levAts (K (F := F)).L lv ∗ boundary (d.tc : Thread nD τ) ∗ pre0 A B Wc bc prev O Bd d
        ∗ Pipeline.cellsGhost (nD := nD) (τ := τ) cfgs (EP (F := F)) 0 d ∗ Pipeline.toksInit (nD := nD) (τ := τ) cfgs (EP (F := F)) 0 d
        ∗ (iprop(boundary (d.tc : Thread nD τ) ∗ post0 A B Wc bc prev O Bd d) -∗ Φ ⟨⟩))
      ⊢ wp frame (wpE ((K (F := F)).defs (D (F := F))) 𝒱 (T d) none) Set.univ
          (Prog.lift (.customCall (SparseCore.inner (Pipeline.entry 0)) ())) Φ := by
  refine .trans ?_ (wp_entry_lift d 0 Φ)
  have h := Pipeline.RegionSeg.wp (pcfgs (F := F)) adm (fam0 A B Wc bc prev O Bd) none cellOf_inj (EP (F := F)) defs₀ Variants.none
    (K (F := F)).L lv (reg0 A B Wc bc prev O Bd lv hlv hO) d none (fun _ hu => nomatch hu) (fun _ => .ret ⟨⟩) Φ
  rw [show (reg0 A B Wc bc prev O Bd lv hlv hO).pre d = pre0 A B Wc bc prev O Bd d from rfl,
    show (reg0 A B Wc bc prev O Bd lv hlv hO).post d = post0 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region0Thm

section Region0Thm'
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region0' (d : Dev nD) (W : Waits sig (HIx 4)) {Φ : PUnit → sProp 𝕄} :
    iprop(levAts (K (F := F)).L (K (F := F)).lev ∗ boundary (d.tc : Thread nD τ)
        ∗ ptT d main_v5_0 (A d) ∗ ptT d main_v5_1 (B d) ∗ ptT d main_arg4 (Wc d) ∗ ptT d main_v2 (bc d) ∗ ptT d main_v15 (prev d)
        ∗ owes (T d) (O d) W
        ∗ Pipeline.cellsGhost (nD := nD) (τ := τ) cfgs (EP (F := F)) 0 d ∗ Pipeline.toksInit (nD := nD) (τ := τ) cfgs (EP (F := F)) 0 d
        ∗ (iprop(boundary (d.tc : Thread nD τ)
              ∗ ptT d main_v5_0 (A d) ∗ ptT d main_v5_1 (B d) ∗ ptT d main_arg4 (Wc d) ∗ ptT d main_v2 (bc d)
              ∗ ptT d main_v15 (out0 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 0)) ())) Φ := by
  refine .trans ?_ (region0 A B Wc bc prev O (fun _ => (↑W : Set (SemLoc sig × HIx 4))) (K (F := F)).lev (by sl_refines_lev) hO d)
  unfold pre0 post0 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region0Thm'

/-! ## What the region leaves in the result array, in closed form -/

section Out0
open Idealize.ShloMosaic.ValueIdx

theorem N4pos : 0 < cfg4.N := by decide

/-- Where the windows' blocks sit at the one grid point: the inputs' at the origin, the result's at block 0 of its array. -/
theorem index4_0 : ∀ (t : Fin cfg4.N) (a : Fin 2), (cfg4.win 0).index t a = 0 := by decide
theorem index4_1 : ∀ (t : Fin cfg4.N) (a : Fin 2), (cfg4.win 1).index t a = 0 := by decide
theorem index4_2 : ∀ (t : Fin cfg4.N) (a : Fin 2), (cfg4.win 2).index t a = 0 := by decide
theorem index4_3 : ∀ (t : Fin cfg4.N) (a : Fin 2), (cfg4.win 3).index t a = 0 := by decide
theorem index4_4 : ∀ (t : Fin cfg4.N) (a : Fin 2), (cfg4.win 4).index t a = (![0, 0] : Fin 2 → ℕ) a := by decide

/-- An element of a window's block sits in the array at the block index times the block's size plus its own coordinate. -/
theorem emb4_0 (t : Fin cfg4.N) (y : ((cfg4.win 0).xblock (cfg4.grid.coords t)).Idx) (a : Fin 2) :
    ((((cfg4.win 0).blk t).view.emb y) a : ℕ) = (cfg4.win 0).index t a * (cfg4.win 0).size a + y a := (cfg4.win 0).rect_emb_val t y a
theorem emb4_1 (t : Fin cfg4.N) (y : ((cfg4.win 1).xblock (cfg4.grid.coords t)).Idx) (a : Fin 2) :
    ((((cfg4.win 1).blk t).view.emb y) a : ℕ) = (cfg4.win 1).index t a * (cfg4.win 1).size a + y a := (cfg4.win 1).rect_emb_val t y a
theorem emb4_2 (t : Fin cfg4.N) (y : ((cfg4.win 2).xblock (cfg4.grid.coords t)).Idx) (a : Fin 2) :
    ((((cfg4.win 2).blk t).view.emb y) a : ℕ) = (cfg4.win 2).index t a * (cfg4.win 2).size a + y a := (cfg4.win 2).rect_emb_val t y a
theorem emb4_3 (t : Fin cfg4.N) (y : ((cfg4.win 3).xblock (cfg4.grid.coords t)).Idx) (a : Fin 2) :
    ((((cfg4.win 3).blk t).view.emb y) a : ℕ) = (cfg4.win 3).index t a * (cfg4.win 3).size a + y a := (cfg4.win 3).rect_emb_val t y a
theorem emb4_4 (t : Fin cfg4.N) (y : ((cfg4.win 4).xblock (cfg4.grid.coords t)).Idx) (a : Fin 2) :
    ((((cfg4.win 4).blk t).view.emb y) a : ℕ) = (cfg4.win 4).index t a * (cfg4.win 4).size a + y a := (cfg4.win 4).rect_emb_val t y a

/-- An input window's block is its whole array. -/
theorem blk4_0_eq (d : Dev nD) (X : BufOf (F := F) d main_v5_0) (t : Fin cfg4.N) : blk4 d 0 X t = X := by
  funext y; unfold blk4; rw [View.read_apply, cast_eq]; congr 1; funext a; apply Fin.ext
  rw [emb4_0, index4_0]; omega
theorem blk4_1_eq (d : Dev nD) (X : BufOf (F := F) d main_v5_1) (t : Fin cfg4.N) : blk4 d 1 X t = X := by
  funext y; unfold blk4; rw [View.read_apply, cast_eq]; congr 1; funext a; apply Fin.ext
  rw [emb4_1, index4_1]; omega
theorem blk4_2_eq (d : Dev nD) (X : BufOf (F := F) d main_arg4) (t : Fin cfg4.N) : blk4 d 2 X t = X := by
  funext y; unfold blk4; rw [View.read_apply, cast_eq]; congr 1; funext a; apply Fin.ext
  rw [emb4_2, index4_2]; omega
theorem blk4_3_eq (d : Dev nD) (X : BufOf (F := F) d main_v2) (t : Fin cfg4.N) : blk4 d 3 X t = X := by
  funext y; unfold blk4; rw [View.read_apply, cast_eq]; congr 1; funext a; apply Fin.ext
  rw [emb4_3, index4_3]; omega

variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))

/-- The result array after the region is block 0 of the array before it overwritten with the matrix-product block. -/
theorem out0_eq (d : Dev nD) : out0 A B Wc bc prev O Bd d = outAt 0 (A d) (B d) (Wc d) (bc d) (prev d) := by
  funext j
  unfold out0
  rw [Pipeline.Dat.arrAt_succ_apply, dif_pos N4pos, if_pos (flush4_4 _)]
  have key : ∀ y, View.write (Elt F) ((cfg4.win 4).blk ⟨0, N4pos⟩).view
      ((dat4 d (A d) (B d) (Wc d) (bc d) (prev d) (O d) (Bd d)).arrAt 4 0)
      ((dat4 d (A d) (B d) (Wc d) (bc d) (prev d) (O d) (Bd d)).flushed 4 ⟨0, N4pos⟩) Finset.univ
      (((cfg4.win 4).blk ⟨0, N4pos⟩).view.emb y) = mmOut (A d) (B d) (Wc d) (bc d) y := fun y => by
    rw [View.write_emb_of_mem _ _ (Finset.mem_univ _), cast_eq]
    show (dat4 d (A d) (B d) (Wc d) (bc d) (prev d) (O d) (Bd d)).after 4 ⟨0, N4pos⟩ y = _
    rw [after4_4, blk4_0_eq, blk4_1_eq, blk4_2_eq, blk4_3_eq]
  by_cases h : 4096 * (0 : Fin 4).val ≤ (j 0).val ∧ (j 0).val < 4096 * (0 : Fin 4).val + 4096
  · rw [outAt_of_mem 0 _ _ _ _ _ j h]
    have h' : 4096 * 0 ≤ (j 0).val ∧ (j 0).val < 4096 * 0 + 4096 := h
    have hj : j = ((cfg4.win 4).blk ⟨0, N4pos⟩).view.emb (ix2 ⟨(j 0).val - 4096 * (0 : Fin 4).val, by omega⟩ (j 1)) := by
      funext a
      apply Fin.ext
      rw [emb4_4, index4_4]
      match a with
      | ⟨0, _⟩ => show (j 0).val = 0 * 4096 + ((j 0).val - 4096 * 0); omega
      | ⟨1, _⟩ => show (j 1).val = 0 * 128 + (j 1).val; omega
    conv_lhs => rw [hj]
    exact key _
  · rw [outAt_of_not_mem 0 _ _ _ _ _ j h, View.write_of_not_mem]
    · show (dat4 d (A d) (B d) (Wc d) (bc d) (prev d) (O d) (Bd d)).A 4 j = _
      rw [A4_4]
    · rw [View.setOn_univ]; intro hm
      obtain ⟨y, -, rfl⟩ := Finset.mem_map.mp hm
      apply h
      have hy : (y 0).val < 4096 := (y 0).isLt
      have e0 : ((((cfg4.win 4).blk ⟨0, N4pos⟩).view.emb y) 0 : ℕ) = 0 * 4096 + (y 0).val := by rw [emb4_4, index4_4]; rfl
      show 4096 * 0 ≤ _ ∧ _ < 4096 * 0 + 4096
      rw [e0]; omega

end Out0

section Region0Thm''
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (hO : ∀ c g, O c g none = 0)

include hO in
/-- The same with the result array's contents in closed form. -/
theorem region0'' (d : Dev nD) (W : Waits sig (HIx 4)) {Φ : PUnit → sProp 𝕄} :
    iprop(levAts (K (F := F)).L (K (F := F)).lev ∗ boundary (d.tc : Thread nD τ)
        ∗ ptT d main_v5_0 (A d) ∗ ptT d main_v5_1 (B d) ∗ ptT d main_arg4 (Wc d) ∗ ptT d main_v2 (bc d) ∗ ptT d main_v15 (prev d)
        ∗ owes (T d) (O d) W
        ∗ Pipeline.cellsGhost (nD := nD) (τ := τ) cfgs (EP (F := F)) 0 d ∗ Pipeline.toksInit (nD := nD) (τ := τ) cfgs (EP (F := F)) 0 d
        ∗ (iprop(boundary (d.tc : Thread nD τ)
              ∗ ptT d main_v5_0 (A d) ∗ ptT d main_v5_1 (B d) ∗ ptT d main_arg4 (Wc d) ∗ ptT d main_v2 (bc d)
              ∗ ptT d main_v15 (outAt 0 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 0)) ())) Φ := by
  have h := region0' A B Wc bc prev O hO d W (Φ := Φ)
  rw [out0_eq] at h
  exact h

end Region0Thm''

end Cert.Proof.KI

end
-- ==== Proof.Region1.lean ====
/-
  The second matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 1 of this call's result array, which holds
  the previous call's result in its other blocks (`out1_eq`).
-/
import proofs.«204601_g21792664060648_cont_8to1_111_20_alg».proof.Proof.Region0

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k5_pay1_eq : (k5_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm5 (c : Dev nD) (E : Set ℕ) (i : grid5.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc5__mm_body_alias i arg1 harg1 arg2 harg2 arg3 harg3 arg4 harg4 arg5 harg5 arg6 harg6) K := by
  simp only [cc5__mm_body_alias_eq_skeleton]; unfold cc5__mm_body_alias_skel
  rw [k5_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the second matrix-product region -/

/-- Window `w`'s block at point `t`, read off contents `X` of its array. -/
def blk5 (d : Dev nD) (w : Fin cfg5.W) (X : BufOf (F := F) d (Pipeline.arrRef spec5 w)) (t : Fin cfg5.N) :
    ((cfg5.win w).xblock (cfg5.grid.coords t)).Idx → Elt F (cfg5.win w).elt :=
  ((cfg5.win w).blk t).view.read (Elt F) X

/-- The proof data: the five arrays at given contents; after the body each input's buffer at its block and the result's at
    `mmOut` of the input blocks; the invariant is the scoped buffers no window stages, untouched; what the core owes and the
    bound on its recorded pairs pass through. -/
def dat5 (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4)) : Dat τ (Elt F) (HIx 4) ℕ UU ℕ cfg5 d where
  A w := match w with
    | ⟨0, _⟩ => A
    | ⟨1, _⟩ => B
    | ⟨2, _⟩ => Wc
    | ⟨3, _⟩ => bc
    | ⟨4, _⟩ => prev
  after w t := match w with
    | ⟨0, _⟩ => blk5 d 0 A t
    | ⟨1, _⟩ => blk5 d 1 B t
    | ⟨2, _⟩ => blk5 d 2 Wc t
    | ⟨3, _⟩ => blk5 d 3 bc t
    | ⟨4, _⟩ => mmOut (blk5 d 0 A t) (blk5 d 1 B t) (blk5 d 2 Wc t) (blk5 d 3 bc t)
  Φ _ := Pipeline.scopedRest spec5 d
  q _ := fullShare
  owed _ := O
  recorded _ := Bd

section Dat5
variable (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4))

theorem A5_0 : (dat5 d A B Wc bc prev O Bd).A 0 = A := by dsimp only [dat5]
theorem A5_1 : (dat5 d A B Wc bc prev O Bd).A 1 = B := by dsimp only [dat5]
theorem A5_2 : (dat5 d A B Wc bc prev O Bd).A 2 = Wc := by dsimp only [dat5]
theorem A5_3 : (dat5 d A B Wc bc prev O Bd).A 3 = bc := by dsimp only [dat5]
theorem A5_4 : (dat5 d A B Wc bc prev O Bd).A 4 = prev := by dsimp only [dat5]

theorem after5_0 (t : Fin cfg5.N) : (dat5 d A B Wc bc prev O Bd).after 0 t = blk5 d 0 A t := by dsimp only [dat5]
theorem after5_1 (t : Fin cfg5.N) : (dat5 d A B Wc bc prev O Bd).after 1 t = blk5 d 1 B t := by dsimp only [dat5]
theorem after5_2 (t : Fin cfg5.N) : (dat5 d A B Wc bc prev O Bd).after 2 t = blk5 d 2 Wc t := by dsimp only [dat5]
theorem after5_3 (t : Fin cfg5.N) : (dat5 d A B Wc bc prev O Bd).after 3 t = blk5 d 3 bc t := by dsimp only [dat5]
theorem after5_4 (t : Fin cfg5.N) : (dat5 d A B Wc bc prev O Bd).after 4 t
    = mmOut (blk5 d 0 A t) (blk5 d 1 B t) (blk5 d 2 Wc t) (blk5 d 3 bc t) := by dsimp only [dat5]

/-- Each input's current staging buffer holds its block. -/
theorem before5_0 (t : Fin cfg5.N) (dd) : (dat5 d A B Wc bc prev O Bd).before 0 t dd = blk5 d 0 A t :=
  ((dat5 d A B Wc bc prev O Bd).before_in_eq_fetched 0 rfl (fun _ => rfl) (fun _ _ _ => rfl)
    (fun t => by rw [after5_0]; unfold Dat.blockOf blk5; rw [A5_0]; try rfl) t dd).trans
    (by unfold Dat.fetched Dat.blockOf blk5; rw [A5_0]; try rfl)
theorem before5_1 (t : Fin cfg5.N) (dd) : (dat5 d A B Wc bc prev O Bd).before 1 t dd = blk5 d 1 B t :=
  ((dat5 d A B Wc bc prev O Bd).before_in_eq_fetched 1 rfl (fun _ => rfl) (fun _ _ _ => rfl)
    (fun t => by rw [after5_1]; unfold Dat.blockOf blk5; rw [A5_1]; try rfl) t dd).trans
    (by unfold Dat.fetched Dat.blockOf blk5; rw [A5_1]; try rfl)
theorem before5_2 (t : Fin cfg5.N) (dd) : (dat5 d A B Wc bc prev O Bd).before 2 t dd = blk5 d 2 Wc t :=
  ((dat5 d A B Wc bc prev O Bd).before_in_eq_fetched 2 rfl (fun _ => rfl) (fun _ _ _ => rfl)
    (fun t => by rw [after5_2]; unfold Dat.blockOf blk5; rw [A5_2]; try rfl) t dd).trans
    (by unfold Dat.fetched Dat.blockOf blk5; rw [A5_2]; try rfl)
theorem before5_3 (t : Fin cfg5.N) (dd) : (dat5 d A B Wc bc prev O Bd).before 3 t dd = blk5 d 3 bc t :=
  ((dat5 d A B Wc bc prev O Bd).before_in_eq_fetched 3 rfl (fun _ => rfl) (fun _ _ _ => rfl)
    (fun t => by rw [after5_3]; unfold Dat.blockOf blk5; rw [A5_3]; try rfl) t dd).trans
    (by unfold Dat.fetched Dat.blockOf blk5; rw [A5_3]; try rfl)

/-! ## The body obligation -/

/-- What the body is called with at point `t`, the windows one by one, -/
def bodyPre5 (t : Fin cfg5.N) : sProp 𝕄 :=
  iprop((dat5 d A B Wc bc prev O Bd).Φ t.castSucc ∗ (dat5 d A B Wc bc prev O Bd).owesAt none t.castSucc
    ∗ (∃ dd, owns (d : Thread nD τ) (st5_0 t) fullShare ((dat5 d A B Wc bc prev O Bd).before 0 t dd))
    ∗ (∃ dd, owns (d : Thread nD τ) (st5_1 t) fullShare ((dat5 d A B Wc bc prev O Bd).before 1 t dd))
    ∗ (∃ dd, owns (d : Thread nD τ) (st5_2 t) fullShare ((dat5 d A B Wc bc prev O Bd).before 2 t dd))
    ∗ (∃ dd, owns (d : Thread nD τ) (st5_3 t) fullShare ((dat5 d A B Wc bc prev O Bd).before 3 t dd))
    ∗ (∃ dd, owns (d : Thread nD τ) (st5_4 t) fullShare ((dat5 d A B Wc bc prev O Bd).before 4 t dd)))

/-- and what it returns. -/
def bodyPost5 (t : Fin cfg5.N) : sProp 𝕄 :=
  iprop((dat5 d A B Wc bc prev O Bd).Φ t.succ ∗ (dat5 d A B Wc bc prev O Bd).owesAt none t.succ
    ∗ owns (d : Thread nD τ) (st5_0 t) fullShare ((dat5 d A B Wc bc prev O Bd).after 0 t)
    ∗ owns (d : Thread nD τ) (st5_1 t) fullShare ((dat5 d A B Wc bc prev O Bd).after 1 t)
    ∗ owns (d : Thread nD τ) (st5_2 t) fullShare ((dat5 d A B Wc bc prev O Bd).after 2 t)
    ∗ owns (d : Thread nD τ) (st5_3 t) fullShare ((dat5 d A B Wc bc prev O Bd).after 3 t)
    ∗ owns (d : Thread nD τ) (st5_4 t) fullShare ((dat5 d A B Wc bc prev O Bd).after 4 t))

/-- The body at the point: the inputs' memrefs hold their blocks, so the body's triple applies; the invariant and the core's
    `owes` pass through unread. -/
theorem sound_body5 (t : Fin cfg5.N) :
    bodyPre5 d A B Wc bc prev O Bd t ⊢ wp frame (wpE (defs₀ (F := F)) Variants.none d none) Set.univ (bodyAt5 t)
      (fun _ => bodyPost5 d A B Wc bc prev O Bd t) := by
  unfold bodyPre5 bodyPost5 bodyAt5
  simp only [before5_0, before5_1, before5_2, before5_3]
  rw [show (dat5 d A B Wc bc prev O Bd).Φ t.succ = (dat5 d A B Wc bc prev O Bd).Φ t.castSucc from rfl,
    show (dat5 d A B Wc bc prev O Bd).owesAt none t.succ = (dat5 d A B Wc bc prev O Bd).owesAt none t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_mm5 d Set.univ _ _ _ _ _ _ _ _ _ _ _ _ _ (blk5 d 0 A t) (blk5 d 1 B t) (blk5 d 2 Wc t) (blk5 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 : BodyObligation (dat5 d A B Wc bc prev O Bd) (defs₀ (F := F)) Variants.none none Set.univ := fun t => by
  rw [bigSep_W5, bigSep_W5]
  exact sound_body5 d A B Wc bc prev O Bd t

end Dat5

/-! ## The region's record -/

theorem spec_pin1 : (Pipeline.pin (pcfgs (F := F)) adm 1).spec = spec5 := rfl
theorem Phi5 (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4)) (t) :
    (dat5 d A B Wc bc prev O Bd).Φ t = Pipeline.scopedRest spec5 d := by dsimp only [dat5]

section Region1
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))

/-- The family of proof data the second region runs under: its own pipeline's, and nothing of the others. -/
def fam1 : (p : Fin 4) → (c : Dev nD) → Dat τ (Elt F) (HIx 4) ℕ UU ℕ (Pipeline.pin (pcfgs (F := F)) adm p) c
  | ⟨0, _⟩ => fun c => datNone cfg4 c
  | ⟨1, _⟩ => fun c => dat5 c (A c) (B c) (Wc c) (bc c) (prev c) (O c) (Bd c)
  | ⟨2, _⟩ => fun c => datNone cfg6 c
  | ⟨3, _⟩ => fun c => datNone cfg7 c

theorem fam1_1 (c : Dev nD) : fam1 A B Wc bc prev O Bd 1 c = dat5 c (A c) (B c) (Wc c) (bc c) (prev c) (O c) (Bd c) := rfl

/-- The result array after the region: block 1 of it overwritten by what the body left in the staging buffer. -/
def out1 (c : Dev nD) : BufOf (F := F) c main_v16 := (dat5 c (A c) (B c) (Wc c) (bc c) (prev c) (O c) (Bd c)).arrAt 4 1

/-- The five arrays of the pipeline, one by one. -/
theorem arrays5 (c : Dev nD) (Fa : (w : Fin cfg5.W) → Buf (Elt F) ((cfg5.win w).arr.view.loc (c.tc : Thread nD τ))) :
    ((dat5 c (A c) (B c) (Wc c) (bc c) (prev c) (O c) (Bd c)).arrays Fa : sProp 𝕄)
      = iprop(ptT c main_v8_0 (Fa 0) ∗ ptT c main_v8_1 (Fa 1) ∗ ptT c main_arg4 (Fa 2) ∗ ptT c main_v2 (Fa 3) ∗ ptT c main_v16 (Fa 4)) := by
  rw [Pipeline.arrays_eq (fun _ : Fin 1 => cfg5) (fun _ c' => dat5 c' (A c') (B c') (Wc c') (bc c') (prev c') (O c') (Bd c')) 0 c arr_whole5
    ((dat5 c (A c) (B c) (Wc c) (bc c) (prev c) (O c) (Bd c)).share_full fun _ => rfl) Fa, bigSep_W5]

/-- The thread state the second region is entered from, and the one it leaves. -/
def pre1 (c : Dev nD) : sProp 𝕄 :=
  iprop(ptT c main_v8_0 (A c) ∗ ptT c main_v8_1 (B c) ∗ ptT c main_arg4 (Wc c) ∗ ptT c main_v2 (bc c) ∗ ptT c main_v16 (prev c)
    ∗ owesIn c (O c) (Bd c))
def post1 (c : Dev nD) : sProp 𝕄 :=
  iprop(ptT c main_v8_0 (A c) ∗ ptT c main_v8_1 (B c) ∗ ptT c main_arg4 (Wc c) ∗ ptT c main_v2 (bc c) ∗ ptT c main_v16 (out1 A B Wc bc prev O Bd c)
    ∗ owesIn c (O c) (Bd c ∪ cfg5.waitPairs none))

variable (lv : GSem nD τ sig → HIx 4 → ℕ) (hlv : (K (F := F)).Refines lv) (hO : ∀ c g, O c g none = 0)

/-- The second matrix-product region's record. -/
def reg1 : Pipeline.RegionSeg (pcfgs (F := F)) adm (fam1 A B Wc bc prev O Bd) none defs₀ Variants.none (K (F := F)).L lv (1 : Fin 4) where
  win := winFacts5.to₀
  block_pos := block_pos5
  stage_whole := stage_whole5
  K := PEmpty
  osem k := k.elim
  ho := Pipeline.OwnSemFacts.none _
  hbody c := (body_obligation5 c (A c) (B c) (Wc c) (bc c) (prev c) (O c) (Bd c)).loose
  hwaits c := Pipeline.cellsWaits_intro _ _ _ _ c fun w s t => (K (F := F)).mayWait_none _ (hO c) lv hlv
  pre := pre1 A B Wc bc prev O Bd
  post := post1 A B Wc bc prev O Bd
  X _ := BI.emp
  Y _ := BI.emp
  Z _ := BI.emp
  hentry c := by
    rw [Pipeline.ownSems0_none, prefHeld_none, fam1_1, arrays5]
    unfold pre1
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam1_1, Phi5, spec_pin1]
    iintro ⟨-, -, HR⟩; iexact HR
  hout c := by
    rw [fam1_1, Pipeline.ownSems0_none, Phi5, spec_pin1]
    iintro HR
    isplitr; · iempintro
    isplitr; · iempintro
    iexact HR
  hexit c := by
    rw [fam1_1, arrays5]
    unfold post1
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region1

section Region1Thm
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The second matrix-product region inside @main on the TensorCore thread: from the level facts, the region boundary, the
    five arrays whole, what the core owes, and the pipeline's cells' ghost state and duty tokens, the call runs to the
    boundary, the four input arrays as they were, the result array with block 1 of it overwritten, and the same owed. -/
theorem region1 (d : Dev nD) {Φ : PUnit → sProp 𝕄} :
    iprop(levAts (K (F := F)).L lv ∗ boundary (d.tc : Thread nD τ) ∗ pre1 A B Wc bc prev O Bd d
        ∗ Pipeline.cellsGhost (nD := nD) (τ := τ) cfgs (EP (F := F)) 1 d ∗ Pipeline.toksInit (nD := nD) (τ := τ) cfgs (EP (F := F)) 1 d
        ∗ (iprop(boundary (d.tc : Thread nD τ) ∗ post1 A B Wc bc prev O Bd d) -∗ Φ ⟨⟩))
      ⊢ wp frame (wpE ((K (F := F)).defs (D (F := F))) 𝒱 (T d) none) Set.univ
          (Prog.lift (.customCall (SparseCore.inner (Pipeline.entry 1)) ())) Φ := by
  refine .trans ?_ (wp_entry_lift d 1 Φ)
  have h := Pipeline.RegionSeg.wp (pcfgs (F := F)) adm (fam1 A B Wc bc prev O Bd) none cellOf_inj (EP (F := F)) defs₀ Variants.none
    (K (F := F)).L lv (reg1 A B Wc bc prev O Bd lv hlv hO) d none (fun _ hu => nomatch hu) (fun _ => .ret ⟨⟩) Φ
  rw [show (reg1 A B Wc bc prev O Bd lv hlv hO).pre d = pre1 A B Wc bc prev O Bd d from rfl,
    show (reg1 A B Wc bc prev O Bd lv hlv hO).post d = post1 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region1Thm

section Region1Thm'
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region1' (d : Dev nD) (W : Waits sig (HIx 4)) {Φ : PUnit → sProp 𝕄} :
    iprop(levAts (K (F := F)).L (K (F := F)).lev ∗ boundary (d.tc : Thread nD τ)
        ∗ ptT d main_v8_0 (A d) ∗ ptT d main_v8_1 (B d) ∗ ptT d main_arg4 (Wc d) ∗ ptT d main_v2 (bc d) ∗ ptT d main_v16 (prev d)
        ∗ owes (T d) (O d) W
        ∗ Pipeline.cellsGhost (nD := nD) (τ := τ) cfgs (EP (F := F)) 1 d ∗ Pipeline.toksInit (nD := nD) (τ := τ) cfgs (EP (F := F)) 1 d
        ∗ (iprop(boundary (d.tc : Thread nD τ)
              ∗ ptT d main_v8_0 (A d) ∗ ptT d main_v8_1 (B d) ∗ ptT d main_arg4 (Wc d) ∗ ptT d main_v2 (bc d)
              ∗ ptT d main_v16 (out1 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 1)) ())) Φ := by
  refine .trans ?_ (region1 A B Wc bc prev O (fun _ => (↑W : Set (SemLoc sig × HIx 4))) (K (F := F)).lev (by sl_refines_lev) hO d)
  unfold pre1 post1 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region1Thm'

/-! ## What the region leaves in the result array, in closed form -/

section Out1
open Idealize.ShloMosaic.ValueIdx

theorem N5pos : 0 < cfg5.N := by decide

/-- Where the windows' blocks sit at the one grid point: the inputs' at the origin, the result's at block 1 of its array. -/
theorem index5_0 : ∀ (t : Fin cfg5.N) (a : Fin 2), (cfg5.win 0).index t a = 0 := by decide
theorem index5_1 : ∀ (t : Fin cfg5.N) (a : Fin 2), (cfg5.win 1).index t a = 0 := by decide
theorem index5_2 : ∀ (t : Fin cfg5.N) (a : Fin 2), (cfg5.win 2).index t a = 0 := by decide
theorem index5_3 : ∀ (t : Fin cfg5.N) (a : Fin 2), (cfg5.win 3).index t a = 0 := by decide
theorem index5_4 : ∀ (t : Fin cfg5.N) (a : Fin 2), (cfg5.win 4).index t a = (![1, 0] : Fin 2 → ℕ) a := by decide

/-- An element of a window's block sits in the array at the block index times the block's size plus its own coordinate. -/
theorem emb5_0 (t : Fin cfg5.N) (y : ((cfg5.win 0).xblock (cfg5.grid.coords t)).Idx) (a : Fin 2) :
    ((((cfg5.win 0).blk t).view.emb y) a : ℕ) = (cfg5.win 0).index t a * (cfg5.win 0).size a + y a := (cfg5.win 0).rect_emb_val t y a
theorem emb5_1 (t : Fin cfg5.N) (y : ((cfg5.win 1).xblock (cfg5.grid.coords t)).Idx) (a : Fin 2) :
    ((((cfg5.win 1).blk t).view.emb y) a : ℕ) = (cfg5.win 1).index t a * (cfg5.win 1).size a + y a := (cfg5.win 1).rect_emb_val t y a
theorem emb5_2 (t : Fin cfg5.N) (y : ((cfg5.win 2).xblock (cfg5.grid.coords t)).Idx) (a : Fin 2) :
    ((((cfg5.win 2).blk t).view.emb y) a : ℕ) = (cfg5.win 2).index t a * (cfg5.win 2).size a + y a := (cfg5.win 2).rect_emb_val t y a
theorem emb5_3 (t : Fin cfg5.N) (y : ((cfg5.win 3).xblock (cfg5.grid.coords t)).Idx) (a : Fin 2) :
    ((((cfg5.win 3).blk t).view.emb y) a : ℕ) = (cfg5.win 3).index t a * (cfg5.win 3).size a + y a := (cfg5.win 3).rect_emb_val t y a
theorem emb5_4 (t : Fin cfg5.N) (y : ((cfg5.win 4).xblock (cfg5.grid.coords t)).Idx) (a : Fin 2) :
    ((((cfg5.win 4).blk t).view.emb y) a : ℕ) = (cfg5.win 4).index t a * (cfg5.win 4).size a + y a := (cfg5.win 4).rect_emb_val t y a

/-- An input window's block is its whole array. -/
theorem blk5_0_eq (d : Dev nD) (X : BufOf (F := F) d main_v8_0) (t : Fin cfg5.N) : blk5 d 0 X t = X := by
  funext y; unfold blk5; rw [View.read_apply, cast_eq]; congr 1; funext a; apply Fin.ext
  rw [emb5_0, index5_0]; omega
theorem blk5_1_eq (d : Dev nD) (X : BufOf (F := F) d main_v8_1) (t : Fin cfg5.N) : blk5 d 1 X t = X := by
  funext y; unfold blk5; rw [View.read_apply, cast_eq]; congr 1; funext a; apply Fin.ext
  rw [emb5_1, index5_1]; omega
theorem blk5_2_eq (d : Dev nD) (X : BufOf (F := F) d main_arg4) (t : Fin cfg5.N) : blk5 d 2 X t = X := by
  funext y; unfold blk5; rw [View.read_apply, cast_eq]; congr 1; funext a; apply Fin.ext
  rw [emb5_2, index5_2]; omega
theorem blk5_3_eq (d : Dev nD) (X : BufOf (F := F) d main_v2) (t : Fin cfg5.N) : blk5 d 3 X t = X := by
  funext y; unfold blk5; rw [View.read_apply, cast_eq]; congr 1; funext a; apply Fin.ext
  rw [emb5_3, index5_3]; omega

variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))

/-- The result array after the region is block 1 of the array before it overwritten with the matrix-product block. -/
theorem out1_eq (d : Dev nD) : out1 A B Wc bc prev O Bd d = outAt 1 (A d) (B d) (Wc d) (bc d) (prev d) := by
  funext j
  unfold out1
  rw [Pipeline.Dat.arrAt_succ_apply, dif_pos N5pos, if_pos (flush5_4 _)]
  have key : ∀ y, View.write (Elt F) ((cfg5.win 4).blk ⟨0, N5pos⟩).view
      ((dat5 d (A d) (B d) (Wc d) (bc d) (prev d) (O d) (Bd d)).arrAt 4 0)
      ((dat5 d (A d) (B d) (Wc d) (bc d) (prev d) (O d) (Bd d)).flushed 4 ⟨0, N5pos⟩) Finset.univ
      (((cfg5.win 4).blk ⟨0, N5pos⟩).view.emb y) = mmOut (A d) (B d) (Wc d) (bc d) y := fun y => by
    rw [View.write_emb_of_mem _ _ (Finset.mem_univ _), cast_eq]
    show (dat5 d (A d) (B d) (Wc d) (bc d) (prev d) (O d) (Bd d)).after 4 ⟨0, N5pos⟩ y = _
    rw [after5_4, blk5_0_eq, blk5_1_eq, blk5_2_eq, blk5_3_eq]
  by_cases h : 4096 * (1 : Fin 4).val ≤ (j 0).val ∧ (j 0).val < 4096 * (1 : Fin 4).val + 4096
  · rw [outAt_of_mem 1 _ _ _ _ _ j h]
    have h' : 4096 * 1 ≤ (j 0).val ∧ (j 0).val < 4096 * 1 + 4096 := h
    have hj : j = ((cfg5.win 4).blk ⟨0, N5pos⟩).view.emb (ix2 ⟨(j 0).val - 4096 * (1 : Fin 4).val, by omega⟩ (j 1)) := by
      funext a
      apply Fin.ext
      rw [emb5_4, index5_4]
      match a with
      | ⟨0, _⟩ => show (j 0).val = 1 * 4096 + ((j 0).val - 4096 * 1); omega
      | ⟨1, _⟩ => show (j 1).val = 0 * 128 + (j 1).val; omega
    conv_lhs => rw [hj]
    exact key _
  · rw [outAt_of_not_mem 1 _ _ _ _ _ j h, View.write_of_not_mem]
    · show (dat5 d (A d) (B d) (Wc d) (bc d) (prev d) (O d) (Bd d)).A 4 j = _
      rw [A5_4]
    · rw [View.setOn_univ]; intro hm
      obtain ⟨y, -, rfl⟩ := Finset.mem_map.mp hm
      apply h
      have hy : (y 0).val < 4096 := (y 0).isLt
      have e0 : ((((cfg5.win 4).blk ⟨0, N5pos⟩).view.emb y) 0 : ℕ) = 1 * 4096 + (y 0).val := by rw [emb5_4, index5_4]; rfl
      show 4096 * 1 ≤ _ ∧ _ < 4096 * 1 + 4096
      rw [e0]; omega

end Out1

section Region1Thm''
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (hO : ∀ c g, O c g none = 0)

include hO in
/-- The same with the result array's contents in closed form. -/
theorem region1'' (d : Dev nD) (W : Waits sig (HIx 4)) {Φ : PUnit → sProp 𝕄} :
    iprop(levAts (K (F := F)).L (K (F := F)).lev ∗ boundary (d.tc : Thread nD τ)
        ∗ ptT d main_v8_0 (A d) ∗ ptT d main_v8_1 (B d) ∗ ptT d main_arg4 (Wc d) ∗ ptT d main_v2 (bc d) ∗ ptT d main_v16 (prev d)
        ∗ owes (T d) (O d) W
        ∗ Pipeline.cellsGhost (nD := nD) (τ := τ) cfgs (EP (F := F)) 1 d ∗ Pipeline.toksInit (nD := nD) (τ := τ) cfgs (EP (F := F)) 1 d
        ∗ (iprop(boundary (d.tc : Thread nD τ)
              ∗ ptT d main_v8_0 (A d) ∗ ptT d main_v8_1 (B d) ∗ ptT d main_arg4 (Wc d) ∗ ptT d main_v2 (bc d)
              ∗ ptT d main_v16 (outAt 1 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 1)) ())) Φ := by
  have h := region1' A B Wc bc prev O hO d W (Φ := Φ)
  rw [out1_eq] at h
  exact h

end Region1Thm''

end Cert.Proof.KI

end
-- ==== Proof.Region2.lean ====
/-
  The third matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 2 of this call's result array, which holds
  the previous call's result in its other blocks (`out2_eq`).
-/
import proofs.«204601_g21792664060648_cont_8to1_111_20_alg».proof.Proof.Region0

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k6_pay1_eq : (k6_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm6 (c : Dev nD) (E : Set ℕ) (i : grid6.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc6__mm_body_alias i arg1 harg1 arg2 harg2 arg3 harg3 arg4 harg4 arg5 harg5 arg6 harg6) K := by
  simp only [cc6__mm_body_alias_eq_skeleton]; unfold cc6__mm_body_alias_skel
  rw [k6_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the third matrix-product region -/

/-- Window `w`'s block at point `t`, read off contents `X` of its array. -/
def blk6 (d : Dev nD) (w : Fin cfg6.W) (X : BufOf (F := F) d (Pipeline.arrRef spec6 w)) (t : Fin cfg6.N) :
    ((cfg6.win w).xblock (cfg6.grid.coords t)).Idx → Elt F (cfg6.win w).elt :=
  ((cfg6.win w).blk t).view.read (Elt F) X

/-- The proof data: the five arrays at given contents; after the body each input's buffer at its block and the result's at
    `mmOut` of the input blocks; the invariant is the scoped buffers no window stages, untouched; what the core owes and the
    bound on its recorded pairs pass through. -/
def dat6 (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4)) : Dat τ (Elt F) (HIx 4) ℕ UU ℕ cfg6 d where
  A w := match w with
    | ⟨0, _⟩ => A
    | ⟨1, _⟩ => B
    | ⟨2, _⟩ => Wc
    | ⟨3, _⟩ => bc
    | ⟨4, _⟩ => prev
  after w t := match w with
    | ⟨0, _⟩ => blk6 d 0 A t
    | ⟨1, _⟩ => blk6 d 1 B t
    | ⟨2, _⟩ => blk6 d 2 Wc t
    | ⟨3, _⟩ => blk6 d 3 bc t
    | ⟨4, _⟩ => mmOut (blk6 d 0 A t) (blk6 d 1 B t) (blk6 d 2 Wc t) (blk6 d 3 bc t)
  Φ _ := Pipeline.scopedRest spec6 d
  q _ := fullShare
  owed _ := O
  recorded _ := Bd

section Dat6
variable (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4))

theorem A6_0 : (dat6 d A B Wc bc prev O Bd).A 0 = A := by dsimp only [dat6]
theorem A6_1 : (dat6 d A B Wc bc prev O Bd).A 1 = B := by dsimp only [dat6]
theorem A6_2 : (dat6 d A B Wc bc prev O Bd).A 2 = Wc := by dsimp only [dat6]
theorem A6_3 : (dat6 d A B Wc bc prev O Bd).A 3 = bc := by dsimp only [dat6]
theorem A6_4 : (dat6 d A B Wc bc prev O Bd).A 4 = prev := by dsimp only [dat6]

theorem after6_0 (t : Fin cfg6.N) : (dat6 d A B Wc bc prev O Bd).after 0 t = blk6 d 0 A t := by dsimp only [dat6]
theorem after6_1 (t : Fin cfg6.N) : (dat6 d A B Wc bc prev O Bd).after 1 t = blk6 d 1 B t := by dsimp only [dat6]
theorem after6_2 (t : Fin cfg6.N) : (dat6 d A B Wc bc prev O Bd).after 2 t = blk6 d 2 Wc t := by dsimp only [dat6]
theorem after6_3 (t : Fin cfg6.N) : (dat6 d A B Wc bc prev O Bd).after 3 t = blk6 d 3 bc t := by dsimp only [dat6]
theorem after6_4 (t : Fin cfg6.N) : (dat6 d A B Wc bc prev O Bd).after 4 t
    = mmOut (blk6 d 0 A t) (blk6 d 1 B t) (blk6 d 2 Wc t) (blk6 d 3 bc t) := by dsimp only [dat6]

/-- Each input's current staging buffer holds its block. -/
theorem before6_0 (t : Fin cfg6.N) (dd) : (dat6 d A B Wc bc prev O Bd).before 0 t dd = blk6 d 0 A t :=
  ((dat6 d A B Wc bc prev O Bd).before_in_eq_fetched 0 rfl (fun _ => rfl) (fun _ _ _ => rfl)
    (fun t => by rw [after6_0]; unfold Dat.blockOf blk6; rw [A6_0]; try rfl) t dd).trans
    (by unfold Dat.fetched Dat.blockOf blk6; rw [A6_0]; try rfl)
theorem before6_1 (t : Fin cfg6.N) (dd) : (dat6 d A B Wc bc prev O Bd).before 1 t dd = blk6 d 1 B t :=
  ((dat6 d A B Wc bc prev O Bd).before_in_eq_fetched 1 rfl (fun _ => rfl) (fun _ _ _ => rfl)
    (fun t => by rw [after6_1]; unfold Dat.blockOf blk6; rw [A6_1]; try rfl) t dd).trans
    (by unfold Dat.fetched Dat.blockOf blk6; rw [A6_1]; try rfl)
theorem before6_2 (t : Fin cfg6.N) (dd) : (dat6 d A B Wc bc prev O Bd).before 2 t dd = blk6 d 2 Wc t :=
  ((dat6 d A B Wc bc prev O Bd).before_in_eq_fetched 2 rfl (fun _ => rfl) (fun _ _ _ => rfl)
    (fun t => by rw [after6_2]; unfold Dat.blockOf blk6; rw [A6_2]; try rfl) t dd).trans
    (by unfold Dat.fetched Dat.blockOf blk6; rw [A6_2]; try rfl)
theorem before6_3 (t : Fin cfg6.N) (dd) : (dat6 d A B Wc bc prev O Bd).before 3 t dd = blk6 d 3 bc t :=
  ((dat6 d A B Wc bc prev O Bd).before_in_eq_fetched 3 rfl (fun _ => rfl) (fun _ _ _ => rfl)
    (fun t => by rw [after6_3]; unfold Dat.blockOf blk6; rw [A6_3]; try rfl) t dd).trans
    (by unfold Dat.fetched Dat.blockOf blk6; rw [A6_3]; try rfl)

/-! ## The body obligation -/

/-- What the body is called with at point `t`, the windows one by one, -/
def bodyPre6 (t : Fin cfg6.N) : sProp 𝕄 :=
  iprop((dat6 d A B Wc bc prev O Bd).Φ t.castSucc ∗ (dat6 d A B Wc bc prev O Bd).owesAt none t.castSucc
    ∗ (∃ dd, owns (d : Thread nD τ) (st6_0 t) fullShare ((dat6 d A B Wc bc prev O Bd).before 0 t dd))
    ∗ (∃ dd, owns (d : Thread nD τ) (st6_1 t) fullShare ((dat6 d A B Wc bc prev O Bd).before 1 t dd))
    ∗ (∃ dd, owns (d : Thread nD τ) (st6_2 t) fullShare ((dat6 d A B Wc bc prev O Bd).before 2 t dd))
    ∗ (∃ dd, owns (d : Thread nD τ) (st6_3 t) fullShare ((dat6 d A B Wc bc prev O Bd).before 3 t dd))
    ∗ (∃ dd, owns (d : Thread nD τ) (st6_4 t) fullShare ((dat6 d A B Wc bc prev O Bd).before 4 t dd)))

/-- and what it returns. -/
def bodyPost6 (t : Fin cfg6.N) : sProp 𝕄 :=
  iprop((dat6 d A B Wc bc prev O Bd).Φ t.succ ∗ (dat6 d A B Wc bc prev O Bd).owesAt none t.succ
    ∗ owns (d : Thread nD τ) (st6_0 t) fullShare ((dat6 d A B Wc bc prev O Bd).after 0 t)
    ∗ owns (d : Thread nD τ) (st6_1 t) fullShare ((dat6 d A B Wc bc prev O Bd).after 1 t)
    ∗ owns (d : Thread nD τ) (st6_2 t) fullShare ((dat6 d A B Wc bc prev O Bd).after 2 t)
    ∗ owns (d : Thread nD τ) (st6_3 t) fullShare ((dat6 d A B Wc bc prev O Bd).after 3 t)
    ∗ owns (d : Thread nD τ) (st6_4 t) fullShare ((dat6 d A B Wc bc prev O Bd).after 4 t))

/-- The body at the point: the inputs' memrefs hold their blocks, so the body's triple applies; the invariant and the core's
    `owes` pass through unread. -/
theorem sound_body6 (t : Fin cfg6.N) :
    bodyPre6 d A B Wc bc prev O Bd t ⊢ wp frame (wpE (defs₀ (F := F)) Variants.none d none) Set.univ (bodyAt6 t)
      (fun _ => bodyPost6 d A B Wc bc prev O Bd t) := by
  unfold bodyPre6 bodyPost6 bodyAt6
  simp only [before6_0, before6_1, before6_2, before6_3]
  rw [show (dat6 d A B Wc bc prev O Bd).Φ t.succ = (dat6 d A B Wc bc prev O Bd).Φ t.castSucc from rfl,
    show (dat6 d A B Wc bc prev O Bd).owesAt none t.succ = (dat6 d A B Wc bc prev O Bd).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_mm6 d Set.univ _ _ _ _ _ _ _ _ _ _ _ _ _ (blk6 d 0 A t) (blk6 d 1 B t) (blk6 d 2 Wc t) (blk6 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 : BodyObligation (dat6 d A B Wc bc prev O Bd) (defs₀ (F := F)) Variants.none none Set.univ := fun t => by
  rw [bigSep_W6, bigSep_W6]
  exact sound_body6 d A B Wc bc prev O Bd t

end Dat6

/-! ## The region's record -/

theorem spec_pin2 : (Pipeline.pin (pcfgs (F := F)) adm 2).spec = spec6 := rfl
theorem Phi6 (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4)) (t) :
    (dat6 d A B Wc bc prev O Bd).Φ t = Pipeline.scopedRest spec6 d := by dsimp only [dat6]

section Region2
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))

/-- The family of proof data the third region runs under: its own pipeline's, and nothing of the others. -/
def fam2 : (p : Fin 4) → (c : Dev nD) → Dat τ (Elt F) (HIx 4) ℕ UU ℕ (Pipeline.pin (pcfgs (F := F)) adm p) c
  | ⟨0, _⟩ => fun c => datNone cfg4 c
  | ⟨1, _⟩ => fun c => datNone cfg5 c
  | ⟨2, _⟩ => fun c => dat6 c (A c) (B c) (Wc c) (bc c) (prev c) (O c) (Bd c)
  | ⟨3, _⟩ => fun c => datNone cfg7 c

theorem fam2_2 (c : Dev nD) : fam2 A B Wc bc prev O Bd 2 c = dat6 c (A c) (B c) (Wc c) (bc c) (prev c) (O c) (Bd c) := rfl

/-- The result array after the region: block 2 of it overwritten by what the body left in the staging buffer. -/
def out2 (c : Dev nD) : BufOf (F := F) c main_v17 := (dat6 c (A c) (B c) (Wc c) (bc c) (prev c) (O c) (Bd c)).arrAt 4 1

/-- The five arrays of the pipeline, one by one. -/
theorem arrays6 (c : Dev nD) (Fa : (w : Fin cfg6.W) → Buf (Elt F) ((cfg6.win w).arr.view.loc (c.tc : Thread nD τ))) :
    ((dat6 c (A c) (B c) (Wc c) (bc c) (prev c) (O c) (Bd c)).arrays Fa : sProp 𝕄)
      = iprop(ptT c main_v11_0 (Fa 0) ∗ ptT c main_v11_1 (Fa 1) ∗ ptT c main_arg4 (Fa 2) ∗ ptT c main_v2 (Fa 3) ∗ ptT c main_v17 (Fa 4)) := by
  rw [Pipeline.arrays_eq (fun _ : Fin 1 => cfg6) (fun _ c' => dat6 c' (A c') (B c') (Wc c') (bc c') (prev c') (O c') (Bd c')) 0 c arr_whole6
    ((dat6 c (A c) (B c) (Wc c) (bc c) (prev c) (O c) (Bd c)).share_full fun _ => rfl) Fa, bigSep_W6]

/-- The thread state the third region is entered from, and the one it leaves. -/
def pre2 (c : Dev nD) : sProp 𝕄 :=
  iprop(ptT c main_v11_0 (A c) ∗ ptT c main_v11_1 (B c) ∗ ptT c main_arg4 (Wc c) ∗ ptT c main_v2 (bc c) ∗ ptT c main_v17 (prev c)
    ∗ owesIn c (O c) (Bd c))
def post2 (c : Dev nD) : sProp 𝕄 :=
  iprop(ptT c main_v11_0 (A c) ∗ ptT c main_v11_1 (B c) ∗ ptT c main_arg4 (Wc c) ∗ ptT c main_v2 (bc c) ∗ ptT c main_v17 (out2 A B Wc bc prev O Bd c)
    ∗ owesIn c (O c) (Bd c ∪ cfg6.waitPairs none))

variable (lv : GSem nD τ sig → HIx 4 → ℕ) (hlv : (K (F := F)).Refines lv) (hO : ∀ c g, O c g none = 0)

/-- The third matrix-product region's record. -/
def reg2 : Pipeline.RegionSeg (pcfgs (F := F)) adm (fam2 A B Wc bc prev O Bd) none defs₀ Variants.none (K (F := F)).L lv (2 : Fin 4) where
  win := winFacts6.to₀
  block_pos := block_pos6
  stage_whole := stage_whole6
  K := PEmpty
  osem k := k.elim
  ho := Pipeline.OwnSemFacts.none _
  hbody c := (body_obligation6 c (A c) (B c) (Wc c) (bc c) (prev c) (O c) (Bd c)).loose
  hwaits c := Pipeline.cellsWaits_intro _ _ _ _ c fun w s t => (K (F := F)).mayWait_none _ (hO c) lv hlv
  pre := pre2 A B Wc bc prev O Bd
  post := post2 A B Wc bc prev O Bd
  X _ := BI.emp
  Y _ := BI.emp
  Z _ := BI.emp
  hentry c := by
    rw [Pipeline.ownSems0_none, prefHeld_none, fam2_2, arrays6]
    unfold pre2
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam2_2, Phi6, spec_pin2]
    iintro ⟨-, -, HR⟩; iexact HR
  hout c := by
    rw [fam2_2, Pipeline.ownSems0_none, Phi6, spec_pin2]
    iintro HR
    isplitr; · iempintro
    isplitr; · iempintro
    iexact HR
  hexit c := by
    rw [fam2_2, arrays6]
    unfold post2
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region2

section Region2Thm
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The third matrix-product region inside @main on the TensorCore thread: from the level facts, the region boundary, the
    five arrays whole, what the core owes, and the pipeline's cells' ghost state and duty tokens, the call runs to the
    boundary, the four input arrays as they were, the result array with block 2 of it overwritten, and the same owed. -/
theorem region2 (d : Dev nD) {Φ : PUnit → sProp 𝕄} :
    iprop(levAts (K (F := F)).L lv ∗ boundary (d.tc : Thread nD τ) ∗ pre2 A B Wc bc prev O Bd d
        ∗ Pipeline.cellsGhost (nD := nD) (τ := τ) cfgs (EP (F := F)) 2 d ∗ Pipeline.toksInit (nD := nD) (τ := τ) cfgs (EP (F := F)) 2 d
        ∗ (iprop(boundary (d.tc : Thread nD τ) ∗ post2 A B Wc bc prev O Bd d) -∗ Φ ⟨⟩))
      ⊢ wp frame (wpE ((K (F := F)).defs (D (F := F))) 𝒱 (T d) none) Set.univ
          (Prog.lift (.customCall (SparseCore.inner (Pipeline.entry 2)) ())) Φ := by
  refine .trans ?_ (wp_entry_lift d 2 Φ)
  have h := Pipeline.RegionSeg.wp (pcfgs (F := F)) adm (fam2 A B Wc bc prev O Bd) none cellOf_inj (EP (F := F)) defs₀ Variants.none
    (K (F := F)).L lv (reg2 A B Wc bc prev O Bd lv hlv hO) d none (fun _ hu => nomatch hu) (fun _ => .ret ⟨⟩) Φ
  rw [show (reg2 A B Wc bc prev O Bd lv hlv hO).pre d = pre2 A B Wc bc prev O Bd d from rfl,
    show (reg2 A B Wc bc prev O Bd lv hlv hO).post d = post2 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region2Thm

section Region2Thm'
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region2' (d : Dev nD) (W : Waits sig (HIx 4)) {Φ : PUnit → sProp 𝕄} :
    iprop(levAts (K (F := F)).L (K (F := F)).lev ∗ boundary (d.tc : Thread nD τ)
        ∗ ptT d main_v11_0 (A d) ∗ ptT d main_v11_1 (B d) ∗ ptT d main_arg4 (Wc d) ∗ ptT d main_v2 (bc d) ∗ ptT d main_v17 (prev d)
        ∗ owes (T d) (O d) W
        ∗ Pipeline.cellsGhost (nD := nD) (τ := τ) cfgs (EP (F := F)) 2 d ∗ Pipeline.toksInit (nD := nD) (τ := τ) cfgs (EP (F := F)) 2 d
        ∗ (iprop(boundary (d.tc : Thread nD τ)
              ∗ ptT d main_v11_0 (A d) ∗ ptT d main_v11_1 (B d) ∗ ptT d main_arg4 (Wc d) ∗ ptT d main_v2 (bc d)
              ∗ ptT d main_v17 (out2 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 2)) ())) Φ := by
  refine .trans ?_ (region2 A B Wc bc prev O (fun _ => (↑W : Set (SemLoc sig × HIx 4))) (K (F := F)).lev (by sl_refines_lev) hO d)
  unfold pre2 post2 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region2Thm'

/-! ## What the region leaves in the result array, in closed form -/

section Out2
open Idealize.ShloMosaic.ValueIdx

theorem N6pos : 0 < cfg6.N := by decide

/-- Where the windows' blocks sit at the one grid point: the inputs' at the origin, the result's at block 2 of its array. -/
theorem index6_0 : ∀ (t : Fin cfg6.N) (a : Fin 2), (cfg6.win 0).index t a = 0 := by decide
theorem index6_1 : ∀ (t : Fin cfg6.N) (a : Fin 2), (cfg6.win 1).index t a = 0 := by decide
theorem index6_2 : ∀ (t : Fin cfg6.N) (a : Fin 2), (cfg6.win 2).index t a = 0 := by decide
theorem index6_3 : ∀ (t : Fin cfg6.N) (a : Fin 2), (cfg6.win 3).index t a = 0 := by decide
theorem index6_4 : ∀ (t : Fin cfg6.N) (a : Fin 2), (cfg6.win 4).index t a = (![2, 0] : Fin 2 → ℕ) a := by decide

/-- An element of a window's block sits in the array at the block index times the block's size plus its own coordinate. -/
theorem emb6_0 (t : Fin cfg6.N) (y : ((cfg6.win 0).xblock (cfg6.grid.coords t)).Idx) (a : Fin 2) :
    ((((cfg6.win 0).blk t).view.emb y) a : ℕ) = (cfg6.win 0).index t a * (cfg6.win 0).size a + y a := (cfg6.win 0).rect_emb_val t y a
theorem emb6_1 (t : Fin cfg6.N) (y : ((cfg6.win 1).xblock (cfg6.grid.coords t)).Idx) (a : Fin 2) :
    ((((cfg6.win 1).blk t).view.emb y) a : ℕ) = (cfg6.win 1).index t a * (cfg6.win 1).size a + y a := (cfg6.win 1).rect_emb_val t y a
theorem emb6_2 (t : Fin cfg6.N) (y : ((cfg6.win 2).xblock (cfg6.grid.coords t)).Idx) (a : Fin 2) :
    ((((cfg6.win 2).blk t).view.emb y) a : ℕ) = (cfg6.win 2).index t a * (cfg6.win 2).size a + y a := (cfg6.win 2).rect_emb_val t y a
theorem emb6_3 (t : Fin cfg6.N) (y : ((cfg6.win 3).xblock (cfg6.grid.coords t)).Idx) (a : Fin 2) :
    ((((cfg6.win 3).blk t).view.emb y) a : ℕ) = (cfg6.win 3).index t a * (cfg6.win 3).size a + y a := (cfg6.win 3).rect_emb_val t y a
theorem emb6_4 (t : Fin cfg6.N) (y : ((cfg6.win 4).xblock (cfg6.grid.coords t)).Idx) (a : Fin 2) :
    ((((cfg6.win 4).blk t).view.emb y) a : ℕ) = (cfg6.win 4).index t a * (cfg6.win 4).size a + y a := (cfg6.win 4).rect_emb_val t y a

/-- An input window's block is its whole array. -/
theorem blk6_0_eq (d : Dev nD) (X : BufOf (F := F) d main_v11_0) (t : Fin cfg6.N) : blk6 d 0 X t = X := by
  funext y; unfold blk6; rw [View.read_apply, cast_eq]; congr 1; funext a; apply Fin.ext
  rw [emb6_0, index6_0]; omega
theorem blk6_1_eq (d : Dev nD) (X : BufOf (F := F) d main_v11_1) (t : Fin cfg6.N) : blk6 d 1 X t = X := by
  funext y; unfold blk6; rw [View.read_apply, cast_eq]; congr 1; funext a; apply Fin.ext
  rw [emb6_1, index6_1]; omega
theorem blk6_2_eq (d : Dev nD) (X : BufOf (F := F) d main_arg4) (t : Fin cfg6.N) : blk6 d 2 X t = X := by
  funext y; unfold blk6; rw [View.read_apply, cast_eq]; congr 1; funext a; apply Fin.ext
  rw [emb6_2, index6_2]; omega
theorem blk6_3_eq (d : Dev nD) (X : BufOf (F := F) d main_v2) (t : Fin cfg6.N) : blk6 d 3 X t = X := by
  funext y; unfold blk6; rw [View.read_apply, cast_eq]; congr 1; funext a; apply Fin.ext
  rw [emb6_3, index6_3]; omega

variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))

/-- The result array after the region is block 2 of the array before it overwritten with the matrix-product block. -/
theorem out2_eq (d : Dev nD) : out2 A B Wc bc prev O Bd d = outAt 2 (A d) (B d) (Wc d) (bc d) (prev d) := by
  funext j
  unfold out2
  rw [Pipeline.Dat.arrAt_succ_apply, dif_pos N6pos, if_pos (flush6_4 _)]
  have key : ∀ y, View.write (Elt F) ((cfg6.win 4).blk ⟨0, N6pos⟩).view
      ((dat6 d (A d) (B d) (Wc d) (bc d) (prev d) (O d) (Bd d)).arrAt 4 0)
      ((dat6 d (A d) (B d) (Wc d) (bc d) (prev d) (O d) (Bd d)).flushed 4 ⟨0, N6pos⟩) Finset.univ
      (((cfg6.win 4).blk ⟨0, N6pos⟩).view.emb y) = mmOut (A d) (B d) (Wc d) (bc d) y := fun y => by
    rw [View.write_emb_of_mem _ _ (Finset.mem_univ _), cast_eq]
    show (dat6 d (A d) (B d) (Wc d) (bc d) (prev d) (O d) (Bd d)).after 4 ⟨0, N6pos⟩ y = _
    rw [after6_4, blk6_0_eq, blk6_1_eq, blk6_2_eq, blk6_3_eq]
  by_cases h : 4096 * (2 : Fin 4).val ≤ (j 0).val ∧ (j 0).val < 4096 * (2 : Fin 4).val + 4096
  · rw [outAt_of_mem 2 _ _ _ _ _ j h]
    have h' : 4096 * 2 ≤ (j 0).val ∧ (j 0).val < 4096 * 2 + 4096 := h
    have hj : j = ((cfg6.win 4).blk ⟨0, N6pos⟩).view.emb (ix2 ⟨(j 0).val - 4096 * (2 : Fin 4).val, by omega⟩ (j 1)) := by
      funext a
      apply Fin.ext
      rw [emb6_4, index6_4]
      match a with
      | ⟨0, _⟩ => show (j 0).val = 2 * 4096 + ((j 0).val - 4096 * 2); omega
      | ⟨1, _⟩ => show (j 1).val = 0 * 128 + (j 1).val; omega
    conv_lhs => rw [hj]
    exact key _
  · rw [outAt_of_not_mem 2 _ _ _ _ _ j h, View.write_of_not_mem]
    · show (dat6 d (A d) (B d) (Wc d) (bc d) (prev d) (O d) (Bd d)).A 4 j = _
      rw [A6_4]
    · rw [View.setOn_univ]; intro hm
      obtain ⟨y, -, rfl⟩ := Finset.mem_map.mp hm
      apply h
      have hy : (y 0).val < 4096 := (y 0).isLt
      have e0 : ((((cfg6.win 4).blk ⟨0, N6pos⟩).view.emb y) 0 : ℕ) = 2 * 4096 + (y 0).val := by rw [emb6_4, index6_4]; rfl
      show 4096 * 2 ≤ _ ∧ _ < 4096 * 2 + 4096
      rw [e0]; omega

end Out2

section Region2Thm''
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (hO : ∀ c g, O c g none = 0)

include hO in
/-- The same with the result array's contents in closed form. -/
theorem region2'' (d : Dev nD) (W : Waits sig (HIx 4)) {Φ : PUnit → sProp 𝕄} :
    iprop(levAts (K (F := F)).L (K (F := F)).lev ∗ boundary (d.tc : Thread nD τ)
        ∗ ptT d main_v11_0 (A d) ∗ ptT d main_v11_1 (B d) ∗ ptT d main_arg4 (Wc d) ∗ ptT d main_v2 (bc d) ∗ ptT d main_v17 (prev d)
        ∗ owes (T d) (O d) W
        ∗ Pipeline.cellsGhost (nD := nD) (τ := τ) cfgs (EP (F := F)) 2 d ∗ Pipeline.toksInit (nD := nD) (τ := τ) cfgs (EP (F := F)) 2 d
        ∗ (iprop(boundary (d.tc : Thread nD τ)
              ∗ ptT d main_v11_0 (A d) ∗ ptT d main_v11_1 (B d) ∗ ptT d main_arg4 (Wc d) ∗ ptT d main_v2 (bc d)
              ∗ ptT d main_v17 (outAt 2 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 2)) ())) Φ := by
  have h := region2' A B Wc bc prev O hO d W (Φ := Φ)
  rw [out2_eq] at h
  exact h

end Region2Thm''

end Cert.Proof.KI

end
-- ==== Proof.Region3.lean ====
/-
  The fourth matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 3 of this call's result array, which holds
  the previous call's result in its other blocks (`out3_eq`).
-/
import proofs.«204601_g21792664060648_cont_8to1_111_20_alg».proof.Proof.Region0

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k7_pay1_eq : (k7_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm7 (c : Dev nD) (E : Set ℕ) (i : grid7.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc7__mm_body_alias i arg1 harg1 arg2 harg2 arg3 harg3 arg4 harg4 arg5 harg5 arg6 harg6) K := by
  simp only [cc7__mm_body_alias_eq_skeleton]; unfold cc7__mm_body_alias_skel
  rw [k7_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the fourth matrix-product region -/

/-- Window `w`'s block at point `t`, read off contents `X` of its array. -/
def blk7 (d : Dev nD) (w : Fin cfg7.W) (X : BufOf (F := F) d (Pipeline.arrRef spec7 w)) (t : Fin cfg7.N) :
    ((cfg7.win w).xblock (cfg7.grid.coords t)).Idx → Elt F (cfg7.win w).elt :=
  ((cfg7.win w).blk t).view.read (Elt F) X

/-- The proof data: the five arrays at given contents; after the body each input's buffer at its block and the result's at
    `mmOut` of the input blocks; the invariant is the scoped buffers no window stages, untouched; what the core owes and the
    bound on its recorded pairs pass through. -/
def dat7 (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4)) : Dat τ (Elt F) (HIx 4) ℕ UU ℕ cfg7 d where
  A w := match w with
    | ⟨0, _⟩ => A
    | ⟨1, _⟩ => B
    | ⟨2, _⟩ => Wc
    | ⟨3, _⟩ => bc
    | ⟨4, _⟩ => prev
  after w t := match w with
    | ⟨0, _⟩ => blk7 d 0 A t
    | ⟨1, _⟩ => blk7 d 1 B t
    | ⟨2, _⟩ => blk7 d 2 Wc t
    | ⟨3, _⟩ => blk7 d 3 bc t
    | ⟨4, _⟩ => mmOut (blk7 d 0 A t) (blk7 d 1 B t) (blk7 d 2 Wc t) (blk7 d 3 bc t)
  Φ _ := Pipeline.scopedRest spec7 d
  q _ := fullShare
  owed _ := O
  recorded _ := Bd

section Dat7
variable (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4))

theorem A7_0 : (dat7 d A B Wc bc prev O Bd).A 0 = A := by dsimp only [dat7]
theorem A7_1 : (dat7 d A B Wc bc prev O Bd).A 1 = B := by dsimp only [dat7]
theorem A7_2 : (dat7 d A B Wc bc prev O Bd).A 2 = Wc := by dsimp only [dat7]
theorem A7_3 : (dat7 d A B Wc bc prev O Bd).A 3 = bc := by dsimp only [dat7]
theorem A7_4 : (dat7 d A B Wc bc prev O Bd).A 4 = prev := by dsimp only [dat7]

theorem after7_0 (t : Fin cfg7.N) : (dat7 d A B Wc bc prev O Bd).after 0 t = blk7 d 0 A t := by dsimp only [dat7]
theorem after7_1 (t : Fin cfg7.N) : (dat7 d A B Wc bc prev O Bd).after 1 t = blk7 d 1 B t := by dsimp only [dat7]
theorem after7_2 (t : Fin cfg7.N) : (dat7 d A B Wc bc prev O Bd).after 2 t = blk7 d 2 Wc t := by dsimp only [dat7]
theorem after7_3 (t : Fin cfg7.N) : (dat7 d A B Wc bc prev O Bd).after 3 t = blk7 d 3 bc t := by dsimp only [dat7]
theorem after7_4 (t : Fin cfg7.N) : (dat7 d A B Wc bc prev O Bd).after 4 t
    = mmOut (blk7 d 0 A t) (blk7 d 1 B t) (blk7 d 2 Wc t) (blk7 d 3 bc t) := by dsimp only [dat7]

/-- Each input's current staging buffer holds its block. -/
theorem before7_0 (t : Fin cfg7.N) (dd) : (dat7 d A B Wc bc prev O Bd).before 0 t dd = blk7 d 0 A t :=
  ((dat7 d A B Wc bc prev O Bd).before_in_eq_fetched 0 rfl (fun _ => rfl) (fun _ _ _ => rfl)
    (fun t => by rw [after7_0]; unfold Dat.blockOf blk7; rw [A7_0]; try rfl) t dd).trans
    (by unfold Dat.fetched Dat.blockOf blk7; rw [A7_0]; try rfl)
theorem before7_1 (t : Fin cfg7.N) (dd) : (dat7 d A B Wc bc prev O Bd).before 1 t dd = blk7 d 1 B t :=
  ((dat7 d A B Wc bc prev O Bd).before_in_eq_fetched 1 rfl (fun _ => rfl) (fun _ _ _ => rfl)
    (fun t => by rw [after7_1]; unfold Dat.blockOf blk7; rw [A7_1]; try rfl) t dd).trans
    (by unfold Dat.fetched Dat.blockOf blk7; rw [A7_1]; try rfl)
theorem before7_2 (t : Fin cfg7.N) (dd) : (dat7 d A B Wc bc prev O Bd).before 2 t dd = blk7 d 2 Wc t :=
  ((dat7 d A B Wc bc prev O Bd).before_in_eq_fetched 2 rfl (fun _ => rfl) (fun _ _ _ => rfl)
    (fun t => by rw [after7_2]; unfold Dat.blockOf blk7; rw [A7_2]; try rfl) t dd).trans
    (by unfold Dat.fetched Dat.blockOf blk7; rw [A7_2]; try rfl)
theorem before7_3 (t : Fin cfg7.N) (dd) : (dat7 d A B Wc bc prev O Bd).before 3 t dd = blk7 d 3 bc t :=
  ((dat7 d A B Wc bc prev O Bd).before_in_eq_fetched 3 rfl (fun _ => rfl) (fun _ _ _ => rfl)
    (fun t => by rw [after7_3]; unfold Dat.blockOf blk7; rw [A7_3]; try rfl) t dd).trans
    (by unfold Dat.fetched Dat.blockOf blk7; rw [A7_3]; try rfl)

/-! ## The body obligation -/

/-- What the body is called with at point `t`, the windows one by one, -/
def bodyPre7 (t : Fin cfg7.N) : sProp 𝕄 :=
  iprop((dat7 d A B Wc bc prev O Bd).Φ t.castSucc ∗ (dat7 d A B Wc bc prev O Bd).owesAt none t.castSucc
    ∗ (∃ dd, owns (d : Thread nD τ) (st7_0 t) fullShare ((dat7 d A B Wc bc prev O Bd).before 0 t dd))
    ∗ (∃ dd, owns (d : Thread nD τ) (st7_1 t) fullShare ((dat7 d A B Wc bc prev O Bd).before 1 t dd))
    ∗ (∃ dd, owns (d : Thread nD τ) (st7_2 t) fullShare ((dat7 d A B Wc bc prev O Bd).before 2 t dd))
    ∗ (∃ dd, owns (d : Thread nD τ) (st7_3 t) fullShare ((dat7 d A B Wc bc prev O Bd).before 3 t dd))
    ∗ (∃ dd, owns (d : Thread nD τ) (st7_4 t) fullShare ((dat7 d A B Wc bc prev O Bd).before 4 t dd)))

/-- and what it returns. -/
def bodyPost7 (t : Fin cfg7.N) : sProp 𝕄 :=
  iprop((dat7 d A B Wc bc prev O Bd).Φ t.succ ∗ (dat7 d A B Wc bc prev O Bd).owesAt none t.succ
    ∗ owns (d : Thread nD τ) (st7_0 t) fullShare ((dat7 d A B Wc bc prev O Bd).after 0 t)
    ∗ owns (d : Thread nD τ) (st7_1 t) fullShare ((dat7 d A B Wc bc prev O Bd).after 1 t)
    ∗ owns (d : Thread nD τ) (st7_2 t) fullShare ((dat7 d A B Wc bc prev O Bd).after 2 t)
    ∗ owns (d : Thread nD τ) (st7_3 t) fullShare ((dat7 d A B Wc bc prev O Bd).after 3 t)
    ∗ owns (d : Thread nD τ) (st7_4 t) fullShare ((dat7 d A B Wc bc prev O Bd).after 4 t))

/-- The body at the point: the inputs' memrefs hold their blocks, so the body's triple applies; the invariant and the core's
    `owes` pass through unread. -/
theorem sound_body7 (t : Fin cfg7.N) :
    bodyPre7 d A B Wc bc prev O Bd t ⊢ wp frame (wpE (defs₀ (F := F)) Variants.none d none) Set.univ (bodyAt7 t)
      (fun _ => bodyPost7 d A B Wc bc prev O Bd t) := by
  unfold bodyPre7 bodyPost7 bodyAt7
  simp only [before7_0, before7_1, before7_2, before7_3]
  rw [show (dat7 d A B Wc bc prev O Bd).Φ t.succ = (dat7 d A B Wc bc prev O Bd).Φ t.castSucc from rfl,
    show (dat7 d A B Wc bc prev O Bd).owesAt none t.succ = (dat7 d A B Wc bc prev O Bd).owesAt none t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_mm7 d Set.univ _ _ _ _ _ _ _ _ _ _ _ _ _ (blk7 d 0 A t) (blk7 d 1 B t) (blk7 d 2 Wc t) (blk7 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 : BodyObligation (dat7 d A B Wc bc prev O Bd) (defs₀ (F := F)) Variants.none none Set.univ := fun t => by
  rw [bigSep_W7, bigSep_W7]
  exact sound_body7 d A B Wc bc prev O Bd t

end Dat7

/-! ## The region's record -/

theorem spec_pin3 : (Pipeline.pin (pcfgs (F := F)) adm 3).spec = spec7 := rfl
theorem Phi7 (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4)) (t) :
    (dat7 d A B Wc bc prev O Bd).Φ t = Pipeline.scopedRest spec7 d := by dsimp only [dat7]

section Region3
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))

/-- The family of proof data the fourth region runs under: its own pipeline's, and nothing of the others. -/
def fam3 : (p : Fin 4) → (c : Dev nD) → Dat τ (Elt F) (HIx 4) ℕ UU ℕ (Pipeline.pin (pcfgs (F := F)) adm p) c
  | ⟨0, _⟩ => fun c => datNone cfg4 c
  | ⟨1, _⟩ => fun c => datNone cfg5 c
  | ⟨2, _⟩ => fun c => datNone cfg6 c
  | ⟨3, _⟩ => fun c => dat7 c (A c) (B c) (Wc c) (bc c) (prev c) (O c) (Bd c)

theorem fam3_3 (c : Dev nD) : fam3 A B Wc bc prev O Bd 3 c = dat7 c (A c) (B c) (Wc c) (bc c) (prev c) (O c) (Bd c) := rfl

/-- The result array after the region: block 3 of it overwritten by what the body left in the staging buffer. -/
def out3 (c : Dev nD) : BufOf (F := F) c main_v18 := (dat7 c (A c) (B c) (Wc c) (bc c) (prev c) (O c) (Bd c)).arrAt 4 1

/-- The five arrays of the pipeline, one by one. -/
theorem arrays7 (c : Dev nD) (Fa : (w : Fin cfg7.W) → Buf (Elt F) ((cfg7.win w).arr.view.loc (c.tc : Thread nD τ))) :
    ((dat7 c (A c) (B c) (Wc c) (bc c) (prev c) (O c) (Bd c)).arrays Fa : sProp 𝕄)
      = iprop(ptT c main_v14_0 (Fa 0) ∗ ptT c main_v14_1 (Fa 1) ∗ ptT c main_arg4 (Fa 2) ∗ ptT c main_v2 (Fa 3) ∗ ptT c main_v18 (Fa 4)) := by
  rw [Pipeline.arrays_eq (fun _ : Fin 1 => cfg7) (fun _ c' => dat7 c' (A c') (B c') (Wc c') (bc c') (prev c') (O c') (Bd c')) 0 c arr_whole7
    ((dat7 c (A c) (B c) (Wc c) (bc c) (prev c) (O c) (Bd c)).share_full fun _ => rfl) Fa, bigSep_W7]

/-- The thread state the fourth region is entered from, and the one it leaves. -/
def pre3 (c : Dev nD) : sProp 𝕄 :=
  iprop(ptT c main_v14_0 (A c) ∗ ptT c main_v14_1 (B c) ∗ ptT c main_arg4 (Wc c) ∗ ptT c main_v2 (bc c) ∗ ptT c main_v18 (prev c)
    ∗ owesIn c (O c) (Bd c))
def post3 (c : Dev nD) : sProp 𝕄 :=
  iprop(ptT c main_v14_0 (A c) ∗ ptT c main_v14_1 (B c) ∗ ptT c main_arg4 (Wc c) ∗ ptT c main_v2 (bc c) ∗ ptT c main_v18 (out3 A B Wc bc prev O Bd c)
    ∗ owesIn c (O c) (Bd c ∪ cfg7.waitPairs none))

variable (lv : GSem nD τ sig → HIx 4 → ℕ) (hlv : (K (F := F)).Refines lv) (hO : ∀ c g, O c g none = 0)

/-- The fourth matrix-product region's record. -/
def reg3 : Pipeline.RegionSeg (pcfgs (F := F)) adm (fam3 A B Wc bc prev O Bd) none defs₀ Variants.none (K (F := F)).L lv (3 : Fin 4) where
  win := winFacts7.to₀
  block_pos := block_pos7
  stage_whole := stage_whole7
  K := PEmpty
  osem k := k.elim
  ho := Pipeline.OwnSemFacts.none _
  hbody c := (body_obligation7 c (A c) (B c) (Wc c) (bc c) (prev c) (O c) (Bd c)).loose
  hwaits c := Pipeline.cellsWaits_intro _ _ _ _ c fun w s t => (K (F := F)).mayWait_none _ (hO c) lv hlv
  pre := pre3 A B Wc bc prev O Bd
  post := post3 A B Wc bc prev O Bd
  X _ := BI.emp
  Y _ := BI.emp
  Z _ := BI.emp
  hentry c := by
    rw [Pipeline.ownSems0_none, prefHeld_none, fam3_3, arrays7]
    unfold pre3
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam3_3, Phi7, spec_pin3]
    iintro ⟨-, -, HR⟩; iexact HR
  hout c := by
    rw [fam3_3, Pipeline.ownSems0_none, Phi7, spec_pin3]
    iintro HR
    isplitr; · iempintro
    isplitr; · iempintro
    iexact HR
  hexit c := by
    rw [fam3_3, arrays7]
    unfold post3
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region3

section Region3Thm
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The fourth matrix-product region inside @main on the TensorCore thread: from the level facts, the region boundary, the
    five arrays whole, what the core owes, and the pipeline's cells' ghost state and duty tokens, the call runs to the
    boundary, the four input arrays as they were, the result array with block 3 of it overwritten, and the same owed. -/
theorem region3 (d : Dev nD) {Φ : PUnit → sProp 𝕄} :
    iprop(levAts (K (F := F)).L lv ∗ boundary (d.tc : Thread nD τ) ∗ pre3 A B Wc bc prev O Bd d
        ∗ Pipeline.cellsGhost (nD := nD) (τ := τ) cfgs (EP (F := F)) 3 d ∗ Pipeline.toksInit (nD := nD) (τ := τ) cfgs (EP (F := F)) 3 d
        ∗ (iprop(boundary (d.tc : Thread nD τ) ∗ post3 A B Wc bc prev O Bd d) -∗ Φ ⟨⟩))
      ⊢ wp frame (wpE ((K (F := F)).defs (D (F := F))) 𝒱 (T d) none) Set.univ
          (Prog.lift (.customCall (SparseCore.inner (Pipeline.entry 3)) ())) Φ := by
  refine .trans ?_ (wp_entry_lift d 3 Φ)
  have h := Pipeline.RegionSeg.wp (pcfgs (F := F)) adm (fam3 A B Wc bc prev O Bd) none cellOf_inj (EP (F := F)) defs₀ Variants.none
    (K (F := F)).L lv (reg3 A B Wc bc prev O Bd lv hlv hO) d none (fun _ hu => nomatch hu) (fun _ => .ret ⟨⟩) Φ
  rw [show (reg3 A B Wc bc prev O Bd lv hlv hO).pre d = pre3 A B Wc bc prev O Bd d from rfl,
    show (reg3 A B Wc bc prev O Bd lv hlv hO).post d = post3 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region3Thm

section Region3Thm'
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region3' (d : Dev nD) (W : Waits sig (HIx 4)) {Φ : PUnit → sProp 𝕄} :
    iprop(levAts (K (F := F)).L (K (F := F)).lev ∗ boundary (d.tc : Thread nD τ)
        ∗ ptT d main_v14_0 (A d) ∗ ptT d main_v14_1 (B d) ∗ ptT d main_arg4 (Wc d) ∗ ptT d main_v2 (bc d) ∗ ptT d main_v18 (prev d)
        ∗ owes (T d) (O d) W
        ∗ Pipeline.cellsGhost (nD := nD) (τ := τ) cfgs (EP (F := F)) 3 d ∗ Pipeline.toksInit (nD := nD) (τ := τ) cfgs (EP (F := F)) 3 d
        ∗ (iprop(boundary (d.tc : Thread nD τ)
              ∗ ptT d main_v14_0 (A d) ∗ ptT d main_v14_1 (B d) ∗ ptT d main_arg4 (Wc d) ∗ ptT d main_v2 (bc d)
              ∗ ptT d main_v18 (out3 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 3)) ())) Φ := by
  refine .trans ?_ (region3 A B Wc bc prev O (fun _ => (↑W : Set (SemLoc sig × HIx 4))) (K (F := F)).lev (by sl_refines_lev) hO d)
  unfold pre3 post3 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region3Thm'

/-! ## What the region leaves in the result array, in closed form -/

section Out3
open Idealize.ShloMosaic.ValueIdx

theorem N7pos : 0 < cfg7.N := by decide

/-- Where the windows' blocks sit at the one grid point: the inputs' at the origin, the result's at block 3 of its array. -/
theorem index7_0 : ∀ (t : Fin cfg7.N) (a : Fin 2), (cfg7.win 0).index t a = 0 := by decide
theorem index7_1 : ∀ (t : Fin cfg7.N) (a : Fin 2), (cfg7.win 1).index t a = 0 := by decide
theorem index7_2 : ∀ (t : Fin cfg7.N) (a : Fin 2), (cfg7.win 2).index t a = 0 := by decide
theorem index7_3 : ∀ (t : Fin cfg7.N) (a : Fin 2), (cfg7.win 3).index t a = 0 := by decide
theorem index7_4 : ∀ (t : Fin cfg7.N) (a : Fin 2), (cfg7.win 4).index t a = (![3, 0] : Fin 2 → ℕ) a := by decide

/-- An element of a window's block sits in the array at the block index times the block's size plus its own coordinate. -/
theorem emb7_0 (t : Fin cfg7.N) (y : ((cfg7.win 0).xblock (cfg7.grid.coords t)).Idx) (a : Fin 2) :
    ((((cfg7.win 0).blk t).view.emb y) a : ℕ) = (cfg7.win 0).index t a * (cfg7.win 0).size a + y a := (cfg7.win 0).rect_emb_val t y a
theorem emb7_1 (t : Fin cfg7.N) (y : ((cfg7.win 1).xblock (cfg7.grid.coords t)).Idx) (a : Fin 2) :
    ((((cfg7.win 1).blk t).view.emb y) a : ℕ) = (cfg7.win 1).index t a * (cfg7.win 1).size a + y a := (cfg7.win 1).rect_emb_val t y a
theorem emb7_2 (t : Fin cfg7.N) (y : ((cfg7.win 2).xblock (cfg7.grid.coords t)).Idx) (a : Fin 2) :
    ((((cfg7.win 2).blk t).view.emb y) a : ℕ) = (cfg7.win 2).index t a * (cfg7.win 2).size a + y a := (cfg7.win 2).rect_emb_val t y a
theorem emb7_3 (t : Fin cfg7.N) (y : ((cfg7.win 3).xblock (cfg7.grid.coords t)).Idx) (a : Fin 2) :
    ((((cfg7.win 3).blk t).view.emb y) a : ℕ) = (cfg7.win 3).index t a * (cfg7.win 3).size a + y a := (cfg7.win 3).rect_emb_val t y a
theorem emb7_4 (t : Fin cfg7.N) (y : ((cfg7.win 4).xblock (cfg7.grid.coords t)).Idx) (a : Fin 2) :
    ((((cfg7.win 4).blk t).view.emb y) a : ℕ) = (cfg7.win 4).index t a * (cfg7.win 4).size a + y a := (cfg7.win 4).rect_emb_val t y a

/-- An input window's block is its whole array. -/
theorem blk7_0_eq (d : Dev nD) (X : BufOf (F := F) d main_v14_0) (t : Fin cfg7.N) : blk7 d 0 X t = X := by
  funext y; unfold blk7; rw [View.read_apply, cast_eq]; congr 1; funext a; apply Fin.ext
  rw [emb7_0, index7_0]; omega
theorem blk7_1_eq (d : Dev nD) (X : BufOf (F := F) d main_v14_1) (t : Fin cfg7.N) : blk7 d 1 X t = X := by
  funext y; unfold blk7; rw [View.read_apply, cast_eq]; congr 1; funext a; apply Fin.ext
  rw [emb7_1, index7_1]; omega
theorem blk7_2_eq (d : Dev nD) (X : BufOf (F := F) d main_arg4) (t : Fin cfg7.N) : blk7 d 2 X t = X := by
  funext y; unfold blk7; rw [View.read_apply, cast_eq]; congr 1; funext a; apply Fin.ext
  rw [emb7_2, index7_2]; omega
theorem blk7_3_eq (d : Dev nD) (X : BufOf (F := F) d main_v2) (t : Fin cfg7.N) : blk7 d 3 X t = X := by
  funext y; unfold blk7; rw [View.read_apply, cast_eq]; congr 1; funext a; apply Fin.ext
  rw [emb7_3, index7_3]; omega

variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))

/-- The result array after the region is block 3 of the array before it overwritten with the matrix-product block. -/
theorem out3_eq (d : Dev nD) : out3 A B Wc bc prev O Bd d = outAt 3 (A d) (B d) (Wc d) (bc d) (prev d) := by
  funext j
  unfold out3
  rw [Pipeline.Dat.arrAt_succ_apply, dif_pos N7pos, if_pos (flush7_4 _)]
  have key : ∀ y, View.write (Elt F) ((cfg7.win 4).blk ⟨0, N7pos⟩).view
      ((dat7 d (A d) (B d) (Wc d) (bc d) (prev d) (O d) (Bd d)).arrAt 4 0)
      ((dat7 d (A d) (B d) (Wc d) (bc d) (prev d) (O d) (Bd d)).flushed 4 ⟨0, N7pos⟩) Finset.univ
      (((cfg7.win 4).blk ⟨0, N7pos⟩).view.emb y) = mmOut (A d) (B d) (Wc d) (bc d) y := fun y => by
    rw [View.write_emb_of_mem _ _ (Finset.mem_univ _), cast_eq]
    show (dat7 d (A d) (B d) (Wc d) (bc d) (prev d) (O d) (Bd d)).after 4 ⟨0, N7pos⟩ y = _
    rw [after7_4, blk7_0_eq, blk7_1_eq, blk7_2_eq, blk7_3_eq]
  by_cases h : 4096 * (3 : Fin 4).val ≤ (j 0).val ∧ (j 0).val < 4096 * (3 : Fin 4).val + 4096
  · rw [outAt_of_mem 3 _ _ _ _ _ j h]
    have h' : 4096 * 3 ≤ (j 0).val ∧ (j 0).val < 4096 * 3 + 4096 := h
    have hj : j = ((cfg7.win 4).blk ⟨0, N7pos⟩).view.emb (ix2 ⟨(j 0).val - 4096 * (3 : Fin 4).val, by omega⟩ (j 1)) := by
      funext a
      apply Fin.ext
      rw [emb7_4, index7_4]
      match a with
      | ⟨0, _⟩ => show (j 0).val = 3 * 4096 + ((j 0).val - 4096 * 3); omega
      | ⟨1, _⟩ => show (j 1).val = 0 * 128 + (j 1).val; omega
    conv_lhs => rw [hj]
    exact key _
  · rw [outAt_of_not_mem 3 _ _ _ _ _ j h, View.write_of_not_mem]
    · show (dat7 d (A d) (B d) (Wc d) (bc d) (prev d) (O d) (Bd d)).A 4 j = _
      rw [A7_4]
    · rw [View.setOn_univ]; intro hm
      obtain ⟨y, -, rfl⟩ := Finset.mem_map.mp hm
      apply h
      have hy : (y 0).val < 4096 := (y 0).isLt
      have e0 : ((((cfg7.win 4).blk ⟨0, N7pos⟩).view.emb y) 0 : ℕ) = 3 * 4096 + (y 0).val := by rw [emb7_4, index7_4]; rfl
      show 4096 * 3 ≤ _ ∧ _ < 4096 * 3 + 4096
      rw [e0]; omega

end Out3

section Region3Thm''
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (hO : ∀ c g, O c g none = 0)

include hO in
/-- The same with the result array's contents in closed form. -/
theorem region3'' (d : Dev nD) (W : Waits sig (HIx 4)) {Φ : PUnit → sProp 𝕄} :
    iprop(levAts (K (F := F)).L (K (F := F)).lev ∗ boundary (d.tc : Thread nD τ)
        ∗ ptT d main_v14_0 (A d) ∗ ptT d main_v14_1 (B d) ∗ ptT d main_arg4 (Wc d) ∗ ptT d main_v2 (bc d) ∗ ptT d main_v18 (prev d)
        ∗ owes (T d) (O d) W
        ∗ Pipeline.cellsGhost (nD := nD) (τ := τ) cfgs (EP (F := F)) 3 d ∗ Pipeline.toksInit (nD := nD) (τ := τ) cfgs (EP (F := F)) 3 d
        ∗ (iprop(boundary (d.tc : Thread nD τ)
              ∗ ptT d main_v14_0 (A d) ∗ ptT d main_v14_1 (B d) ∗ ptT d main_arg4 (Wc d) ∗ ptT d main_v2 (bc d)
              ∗ ptT d main_v18 (outAt 3 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 3)) ())) Φ := by
  have h := region3' A B Wc bc prev O hO d W (Φ := Φ)
  rw [out3_eq] at h
  exact h

end Region3Thm''

end Cert.Proof.KI

end
-- ==== Proof.Values.lean ====
/-
  The values @main computes, as functions of the launch memory.

  Region `q` multiplies the rows gathered for tokens `[4096q, 4096q + 4096)` by the two halves of the weights, adds the
  bias row, and overwrites block `q` of the result; the result after region `q` is the previous one with that block
  overwritten, starting from whatever the result array held at launch. After the fourth every block has been written.
-/
import proofs.«204601_g21792664060648_cont_8to1_111_20_alg».proof.Proof.Pay
import proofs.«204601_g21792664060648_cont_8to1_111_20_alg».proof.Proof.RegionOut

noncomputable section

namespace Cert.Proof.KI

open Cert.KernelIdeal Cert.KernelIdeal.Gen
open Idealize.ShloMosaic Idealize.ShloMosaic.ValueIdx
open Idealize.ShloMosaic.SparseCore (S V T)
open Idealize.SL.Sem

variable {F : FTy → Type}
variable (m : (ℓ : Loc nD τ sig) → Buf (Elt F) ℓ) [FloatOps F]

/-! ## The values @main computes -/

/-- The gathered operands of region `q`, the weights, the bias row. -/
def gA (q : Fin 4) (c : Dev nD) : S4096x128.Idx → Elt F .f32 := gathered (tokA m c q) (tblA m c)
def gB (q : Fin 4) (c : Dev nD) : S4096x128.Idx → Elt F .f32 := gathered (tokB m c q) (tblB m c)
def wts (c : Dev nD) : S256x128.Idx → Elt F .f32 := m ((SparseCore.T c).loc main_arg4)
def biasRow (c : Dev nD) : S1x128.Idx → Elt F .f32 := fun i => shapeCast S1x128 (m ((SparseCore.T c).loc main_arg5)) shapeCasts_S128_S1x128 i

/-- The result after each region: block `q` overwritten, on top of the previous one. -/
def res0 (c : Dev nD) : S16384x128.Idx → Elt F .f32 := outAt 0 (gA m 0 c) (gB m 0 c) (wts m c) (biasRow m c) (m ((SparseCore.T c).loc main_v15))
def res1 (c : Dev nD) : S16384x128.Idx → Elt F .f32 := outAt 1 (gA m 1 c) (gB m 1 c) (wts m c) (biasRow m c) (res0 m c)
def res2 (c : Dev nD) : S16384x128.Idx → Elt F .f32 := outAt 2 (gA m 2 c) (gB m 2 c) (wts m c) (biasRow m c) (res1 m c)
def res3 (c : Dev nD) : S16384x128.Idx → Elt F .f32 := outAt 3 (gA m 3 c) (gB m 3 c) (wts m c) (biasRow m c) (res2 m c)

end Cert.Proof.KI

end
-- ==== Proof.Main.lean ====
/-
  @main on the TensorCore, and the program's run.

  @main reshapes the two token inputs to 128 × 128 and the bias to a row; four times it slices thirty-two rows of
  tokens off each and has the SparseCores gather the rows of the two tables they name; then four times it multiplies a
  pair of gathered arrays by the two halves of the weights, adds the bias, and writes the product into its block of the
  result, each region after the first working on a copy of the previous one's result. Each step is one rule: a host
  operation reads one array and writes another; a SparseCore call takes its token arrays, read shares of the tables
  and its result arrays and returns the results at the gathered arrays; a region takes its two operands, the weights,
  the bias row and the previous result and returns the result with its block overwritten. At the end the result holds
  all four blocks and every argument is as it was launched.
-/
import proofs.«204601_g21792664060648_cont_8to1_111_20_alg».proof.Proof.Run1
import proofs.«204601_g21792664060648_cont_8to1_111_20_alg».proof.Proof.Run2
import proofs.«204601_g21792664060648_cont_8to1_111_20_alg».proof.Proof.Run3
import proofs.«204601_g21792664060648_cont_8to1_111_20_alg».proof.Proof.TabShares
import proofs.«204601_g21792664060648_cont_8to1_111_20_alg».proof.Proof.HostStep
import proofs.«204601_g21792664060648_cont_8to1_111_20_alg».proof.Proof.Arrays
import proofs.«204601_g21792664060648_cont_8to1_111_20_alg».proof.Proof.LaunchElem
import proofs.«204601_g21792664060648_cont_8to1_111_20_alg».proof.Proof.TcSt4
import proofs.«204601_g21792664060648_cont_8to1_111_20_alg».proof.Proof.Final
import proofs.«204601_g21792664060648_cont_8to1_111_20_alg».proof.Proof.TokBound
import proofs.«204601_g21792664060648_cont_8to1_111_20_alg».proof.Proof.TileObl
import proofs.«204601_g21792664060648_cont_8to1_111_20_alg».proof.Proof.Region0
import proofs.«204601_g21792664060648_cont_8to1_111_20_alg».proof.Proof.Region1
import proofs.«204601_g21792664060648_cont_8to1_111_20_alg».proof.Proof.Region2
import proofs.«204601_g21792664060648_cont_8to1_111_20_alg».proof.Proof.Region3
import proofs.«204601_g21792664060648_cont_8to1_111_20_alg».proof.Proof.RegionOut
import proofs.«204601_g21792664060648_cont_8to1_111_20_alg».proof.Proof.Values

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) (ρ : Dev nD → PrngReg) [FloatOps F]

/-! ## The regions' ghost state, one by one -/

theorem G_eq (d : Dev nD) :
    (G (F := F) d : sProp 𝕄) = iprop(
      (Pipeline.cellsGhost (nD := nD) (τ := τ) cfgs (EP (F := F)) 0 d ∗ Pipeline.toksInit (nD := nD) (τ := τ) cfgs (EP (F := F)) 0 d)
      ∗ (Pipeline.cellsGhost (nD := nD) (τ := τ) cfgs (EP (F := F)) 1 d ∗ Pipeline.toksInit (nD := nD) (τ := τ) cfgs (EP (F := F)) 1 d)
      ∗ (Pipeline.cellsGhost (nD := nD) (τ := τ) cfgs (EP (F := F)) 2 d ∗ Pipeline.toksInit (nD := nD) (τ := τ) cfgs (EP (F := F)) 2 d)
      ∗ (Pipeline.cellsGhost (nD := nD) (τ := τ) cfgs (EP (F := F)) 3 d ∗ Pipeline.toksInit (nD := nD) (τ := τ) cfgs (EP (F := F)) 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## @main -/

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m (res3 m) d) := by
  unfold SparseCore.Cfg.tcRes
  rw [unscopedBufs_eq]
  simp only [main, wp_bind, wp_pure]
  iintro ⟨#Hctx, Hst, ⟨Hbd, ⟨Ha0, Ha1, Ha2, Ha3, Ha4, Ha5, Hv0, Hv1, Hv2, Hv3, Hv4, Hv50, Hv51, Hv6, Hv7, Hv80, Hv81, Hv9, Hv10, Hv110, Hv111, Hv12, Hv13, Hv140, Hv141, Hv15, Hv16, Hv17, Hv18⟩, -, -⟩, HG⟩
  ihave HA := (tab_split (F := F) (tabA d) (m (tabA d))) $$ Ha2
  icases HA with ⟨HrA, HtA⟩
  ihave HB := (tab_split (F := F) (tabB d) (m (tabB d))) $$ Ha3
  icases HB with ⟨HrB, HtB⟩
  iapply (wp_reshape_step (F := F) d main_arg0 main_v0 rfl shapeCasts_S16384_S128x128 ⟨by decide, rfl⟩ ⟨by decide, rfl⟩ (by decide) (fun b => m (d, b)) _ _)
  isplitl [Hbd]; · iexact Hbd
  isplitl [Ha0]; · iexact Ha0
  isplitl [Hv0]; · iexact Hv0
  iintro ⟨Hbd, Ha0, Hv0⟩
  iapply (wp_reshape_step (F := F) d main_arg1 main_v1 rfl shapeCasts_S16384_S128x128 ⟨by decide, rfl⟩ ⟨by decide, rfl⟩ (by decide) (fun b => m (d, b)) _ _)
  isplitl [Hbd]; · iexact Hbd
  isplitl [Ha1]; · iexact Ha1
  isplitl [Hv1]; · iexact Hv1
  iintro ⟨Hbd, Ha1, Hv1⟩
  iapply (wp_reshape_step (F := F) d main_arg5 main_v2 rfl shapeCasts_S128_S1x128 ⟨by decide, rfl⟩ ⟨by decide, rfl⟩ (by decide) (fun b => m (d, b)) _ _)
  isplitl [Hbd]; · iexact Hbd
  isplitl [Ha5]; · iexact Ha5
  isplitl [Hv2]; · iexact Hv2
  iintro ⟨Hbd, Ha5, Hv2⟩
  iapply (wp_unary_step (F := F) d main_v0 main_v3 _ ⟨by decide, rfl⟩ ⟨by decide, rfl⟩ (by decide) (fun b => m (d, b)) _ _)
  isplitl [Hbd]; · iexact Hbd
  isplitl [Hv0]; · iexact Hv0
  isplitl [Hv3]; · iexact Hv3
  iintro ⟨Hbd, Hv0, Hv3⟩
  iapply (wp_unary_step (F := F) d main_v1 main_v4 _ ⟨by decide, rfl⟩ ⟨by decide, rfl⟩ (by decide) (fun b => m (d, b)) _ _)
  isplitl [Hbd]; · iexact Hbd
  isplitl [Hv1]; · iexact Hv1
  isplitl [Hv4]; · iexact Hv4
  iintro ⟨Hbd, Hv1, Hv4⟩
  iapply (run0 (F := F) m κ d _ _)
  isplitr; · iexact Hctx
  isplitl [Hst]; · iexact Hst
  isplitl [Hv3]; · iexact Hv3
  isplitl [Hv4]; · iexact Hv4
  isplitl [HtA]; · iexact HtA
  isplitl [HtB]; · iexact HtB
  isplitl [Hv50]; · iexact Hv50
  isplitl [Hv51]; · iexact Hv51
  iintro ⟨Hst, Hv3, Hv4, HtA, HtB, Hv50, Hv51⟩
  iapply (wp_unary_step (F := F) d main_v0 main_v6 _ ⟨by decide, rfl⟩ ⟨by decide, rfl⟩ (by decide) (fun b => m (d, b)) _ _)
  isplitl [Hbd]; · iexact Hbd
  isplitl [Hv0]; · iexact Hv0
  isplitl [Hv6]; · iexact Hv6
  iintro ⟨Hbd, Hv0, Hv6⟩
  iapply (wp_unary_step (F := F) d main_v1 main_v7 _ ⟨by decide, rfl⟩ ⟨by decide, rfl⟩ (by decide) (fun b => m (d, b)) _ _)
  isplitl [Hbd]; · iexact Hbd
  isplitl [Hv1]; · iexact Hv1
  isplitl [Hv7]; · iexact Hv7
  iintro ⟨Hbd, Hv1, Hv7⟩
  iapply (run1 (F := F) m κ d _ _)
  isplitr; · iexact Hctx
  isplitl [Hst]; · iexact Hst
  isplitl [Hv6]; · iexact Hv6
  isplitl [Hv7]; · iexact Hv7
  isplitl [HtA]; · iexact HtA
  isplitl [HtB]; · iexact HtB
  isplitl [Hv80]; · iexact Hv80
  isplitl [Hv81]; · iexact Hv81
  iintro ⟨Hst, Hv6, Hv7, HtA, HtB, Hv80, Hv81⟩
  iapply (wp_unary_step (F := F) d main_v0 main_v9 _ ⟨by decide, rfl⟩ ⟨by decide, rfl⟩ (by decide) (fun b => m (d, b)) _ _)
  isplitl [Hbd]; · iexact Hbd
  isplitl [Hv0]; · iexact Hv0
  isplitl [Hv9]; · iexact Hv9
  iintro ⟨Hbd, Hv0, Hv9⟩
  iapply (wp_unary_step (F := F) d main_v1 main_v10 _ ⟨by decide, rfl⟩ ⟨by decide, rfl⟩ (by decide) (fun b => m (d, b)) _ _)
  isplitl [Hbd]; · iexact Hbd
  isplitl [Hv1]; · iexact Hv1
  isplitl [Hv10]; · iexact Hv10
  iintro ⟨Hbd, Hv1, Hv10⟩
  iapply (run2 (F := F) m κ d _ _)
  isplitr; · iexact Hctx
  isplitl [Hst]; · iexact Hst
  isplitl [Hv9]; · iexact Hv9
  isplitl [Hv10]; · iexact Hv10
  isplitl [HtA]; · iexact HtA
  isplitl [HtB]; · iexact HtB
  isplitl [Hv110]; · iexact Hv110
  isplitl [Hv111]; · iexact Hv111
  iintro ⟨Hst, Hv9, Hv10, HtA, HtB, Hv110, Hv111⟩
  iapply (wp_unary_step (F := F) d main_v0 main_v12 _ ⟨by decide, rfl⟩ ⟨by decide, rfl⟩ (by decide) (fun b => m (d, b)) _ _)
  isplitl [Hbd]; · iexact Hbd
  isplitl [Hv0]; · iexact Hv0
  isplitl [Hv12]; · iexact Hv12
  iintro ⟨Hbd, Hv0, Hv12⟩
  iapply (wp_unary_step (F := F) d main_v1 main_v13 _ ⟨by decide, rfl⟩ ⟨by decide, rfl⟩ (by decide) (fun b => m (d, b)) _ _)
  isplitl [Hbd]; · iexact Hbd
  isplitl [Hv1]; · iexact Hv1
  isplitl [Hv13]; · iexact Hv13
  iintro ⟨Hbd, Hv1, Hv13⟩
  iapply (run3 (F := F) m κ d _ _)
  isplitr; · iexact Hctx
  isplitl [Hst]; · iexact Hst
  isplitl [Hv12]; · iexact Hv12
  isplitl [Hv13]; · iexact Hv13
  isplitl [HtA]; · iexact HtA
  isplitl [HtB]; · iexact HtB
  isplitl [Hv140]; · iexact Hv140
  isplitl [Hv141]; · iexact Hv141
  iintro ⟨Hst, Hv12, Hv13, HtA, HtB, Hv140, Hv141⟩
  -- after the last call the TensorCore owes nothing more
  ihave Hst4 := (Entails.of_eq (tcSt4_eq (F := F) d)) $$ Hst
  icases Hst4 with ⟨⟨%W0, %hW0, HO⟩, HR⟩
  ihave HG4 := (Entails.of_eq (G_eq (F := F) d)) $$ HG
  icases HG4 with ⟨⟨Hc0, Ht0⟩, ⟨Hc1, Ht1⟩, ⟨Hc2, Ht2⟩, ⟨Hc3, Ht3⟩⟩
  ihave Hlev := ((K (F := F)).ctx_levAts (EH := EH) (P := P m) κ) $$ Hctx
  iapply (region0'' (F := F) (gA m 0) (gB m 0) (wts m) (biasRow m) (fun c => m ((SparseCore.T c).loc main_v15)) (fun _ => 0) (fun _ _ => rfl) d W0)
  isplitl [Hlev]; · iexact Hlev
  isplitl [Hbd]; · iexact Hbd
  isplitl [Hv50]; · iexact Hv50
  isplitl [Hv51]; · iexact Hv51
  isplitl [Ha4]; · iexact Ha4
  isplitl [Hv2]; · iexact Hv2
  isplitl [Hv15]; · iexact Hv15
  isplitl [HO]; · iexact HO
  isplitl [Hc0]; · iexact Hc0
  isplitl [Ht0]; · iexact Ht0
  iintro ⟨Hbd, Hv50, Hv51, Ha4, Hv2, Hv15, %W1, %hW1, HO⟩
  iapply (wp_unary_step (F := F) d main_v15 main_v16 _ ⟨by decide, rfl⟩ ⟨by decide, rfl⟩ (by decide) (fun b => m (d, b)) _ _)
  isplitl [Hbd]; · iexact Hbd
  isplitl [Hv15]; · iexact Hv15
  isplitl [Hv16]; · iexact Hv16
  iintro ⟨Hbd, Hv15, Hv16⟩
  ihave Hlev := ((K (F := F)).ctx_levAts (EH := EH) (P := P m) κ) $$ Hctx
  iapply (region1'' (F := F) (gA m 1) (gB m 1) (wts m) (biasRow m) (res0 m) (fun _ => 0) (fun _ _ => rfl) d W1)
  isplitl [Hlev]; · iexact Hlev
  isplitl [Hbd]; · iexact Hbd
  isplitl [Hv80]; · iexact Hv80
  isplitl [Hv81]; · iexact Hv81
  isplitl [Ha4]; · iexact Ha4
  isplitl [Hv2]; · iexact Hv2
  isplitl [Hv16]; · iexact Hv16
  isplitl [HO]; · iexact HO
  isplitl [Hc1]; · iexact Hc1
  isplitl [Ht1]; · iexact Ht1
  iintro ⟨Hbd, Hv80, Hv81, Ha4, Hv2, Hv16, %W2, %hW2, HO⟩
  iapply (wp_unary_step (F := F) d main_v16 main_v17 _ ⟨by decide, rfl⟩ ⟨by decide, rfl⟩ (by decide) (fun b => m (d, b)) _ _)
  isplitl [Hbd]; · iexact Hbd
  isplitl [Hv16]; · iexact Hv16
  isplitl [Hv17]; · iexact Hv17
  iintro ⟨Hbd, Hv16, Hv17⟩
  ihave Hlev := ((K (F := F)).ctx_levAts (EH := EH) (P := P m) κ) $$ Hctx
  iapply (region2'' (F := F) (gA m 2) (gB m 2) (wts m) (biasRow m) (res1 m) (fun _ => 0) (fun _ _ => rfl) d W2)
  isplitl [Hlev]; · iexact Hlev
  isplitl [Hbd]; · iexact Hbd
  isplitl [Hv110]; · iexact Hv110
  isplitl [Hv111]; · iexact Hv111
  isplitl [Ha4]; · iexact Ha4
  isplitl [Hv2]; · iexact Hv2
  isplitl [Hv17]; · iexact Hv17
  isplitl [HO]; · iexact HO
  isplitl [Hc2]; · iexact Hc2
  isplitl [Ht2]; · iexact Ht2
  iintro ⟨Hbd, Hv110, Hv111, Ha4, Hv2, Hv17, %W3, %hW3, HO⟩
  iapply (wp_unary_step (F := F) d main_v17 main_v18 _ ⟨by decide, rfl⟩ ⟨by decide, rfl⟩ (by decide) (fun b => m (d, b)) _ _)
  isplitl [Hbd]; · iexact Hbd
  isplitl [Hv17]; · iexact Hv17
  isplitl [Hv18]; · iexact Hv18
  iintro ⟨Hbd, Hv17, Hv18⟩
  ihave Hlev := ((K (F := F)).ctx_levAts (EH := EH) (P := P m) κ) $$ Hctx
  iapply (region3'' (F := F) (gA m 3) (gB m 3) (wts m) (biasRow m) (res2 m) (fun _ => 0) (fun _ _ => rfl) d W3)
  isplitl [Hlev]; · iexact Hlev
  isplitl [Hbd]; · iexact Hbd
  isplitl [Hv140]; · iexact Hv140
  isplitl [Hv141]; · iexact Hv141
  isplitl [Ha4]; · iexact Ha4
  isplitl [Hv2]; · iexact Hv2
  isplitl [Hv18]; · iexact Hv18
  isplitl [HO]; · iexact HO
  isplitl [Hc3]; · iexact Hc3
  isplitl [Ht3]; · iexact Ht3
  iintro ⟨Hbd, Hv140, Hv141, Ha4, Hv2, Hv18, %W4, %hW4, HO⟩
  imodintro
  isplitl [HO HR]
  · iapply (Entails.of_eq (tcSt4_eq (F := F) d).symm)
    isplitl [HO]
    · iexists W4; isplitr
      · ipureintro; exact wBelow_of_none (wBelow_of_none (wBelow_of_none (wBelow_of_none hW0 hW1) hW2) hW3) hW4
      · iexact HO
    · iexact HR
  unfold FIN
  isplitl [Hv18]; · iexact Hv18
  isplitl [Ha0]; · iexact Ha0
  isplitl [Ha1]; · iexact Ha1
  isplitl [HrA HtA]
  · iapply (tab_join (F := F) (tabA d) (m (tabA d))); isplitl [HrA] <;> iassumption
  isplitl [HrB HtB]
  · iapply (tab_join (F := F) (tabB d) (m (tabB d))); isplitl [HrB] <;> iassumption
  isplitl [Ha4]; · iexact Ha4
  iexact Ha5

/-! ## The launch element, the run -/

theorem hu₀ : iprop((ownU (u₀ (F := F)) : sProp 𝕄) ∗ (P m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  iintro ⟨Hu, -, -⟩
  imod (hu₀_core (F := F)) $$ Hu with ⟨HH, HGs⟩
  imodintro
  isplitl [HH]; · iexact HH
  isplitl [HGs]; · iexact HGs
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-- Every weakly fair execution of the program's threads terminates, nothing faulting, with the result at the four
    blocks' products and every argument unchanged. -/
theorem run_main [∀ e, Nonempty (Elt F e)] (hpre : PreOK m) :
    θ_run (Cert.KernelIdeal.defs (F := F)) (Cert.KernelIdeal.threads (F := F)) ⟨m, fun _ => 0, ρ⟩ (QC m (res3 m)) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => tileObl m hpre q)
    (fun q _ => SparseCore.Cfg.VecSplit.of_plain (vecSplit m q))
    m ρ main (G (F := F)) (FIN m (res3 m)) (u₀ (F := F)) (hu₀ m) (hmain m ρ) (fq m (res3 m)) (hfin m (res3 m)) (QC m (res3 m)) (hQC m (res3 m))

end Cert.Proof.KI

end
-- ==== Proof.Bits.Common.lean ====
/-
  The idealized kernel's program as the launch theorem for programs with SparseCore kernels reads it, and the ghost
  state every module of this proof shares.

  The program is @main on the TensorCore — four calls of a row-gather kernel on the vector subcores, then four
  matrix-product kernel regions on the TensorCore — beside the fixed programs of the two sequencers and thirty-two
  vector subcores. Its threads synchronise only through the four launch handshakes; every copy a vector subcore makes is
  local to it and waited for on a semaphore of its own, so the kernels need no schedule of their own: the ghost state is
  the handshakes' rounds, beside the rounds of the TensorCore regions' staging cells and a copy of the transfers'
  counters.
-/
import proofs.«204601_g21792664060648_cont_8to1_111_20_alg».proof.Defs
import Idealize.ShloMosaic.Lib.SparseCore.Launch
import Idealize.ShloMosaic.Lib.StableHlo.Run
import Idealize.ShloMosaic.Lib.Pipeline.Kit
import Idealize.ShloMosaic.Lib.Tactic
import proofs.«204601_g21792664060648_cont_8to1_111_20_alg».proof.Proof.Gen.Kernel
import proofs.«204601_g21792664060648_cont_8to1_111_20_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 4) (Elt F) ℕ UU ℕ

/-- The handshakes' rounds, the left factor. -/
abbrev EH : Emb UH (MT nD τ sig (HIx 4) (Elt F) ℕ UU ℕ) := embL
/-- The staging cells' rounds, the middle factor. -/
def EP : Emb UP (MT nD τ sig (HIx 4) (Elt F) ℕ UU ℕ) :=
  (Emb.inl : Emb UP (UP × Counters)).trans (embR : Emb (UP × Counters) (MT nD τ sig (HIx 4) (Elt F) ℕ UU ℕ))

instance EP_landsIn : (EP : Emb UP 𝕄).LandsIn (upEmb : UEmb _ 𝕄) := by unfold EP embR; infer_instance

end Cert.Proof.KB

end
-- ==== Proof.Bits.TileRes.lean ====
/-
  The resources of one vector subcore's task in the row-gather kernel, and the value the task leaves.

  Tile `w = 2·subcore + core` of the 32 reads row `w` of each of two 32×128 token arrays, looks up in each of two
  100000×128 tables the 128 rows those tokens name, and writes them to rows `[128w, 128w + 128)` of each of two
  4096×128 result arrays. So row `y` of a result is the table's row named by token `(y / 128, y % 128)` of the token
  array: `gathered`, one function of the whole arrays, of which each tile writes its own block.
-/
import proofs.«204601_g21792664060648_cont_8to1_111_20_alg».proof.Proof.Spec
import proofs.«204601_g21792664060648_cont_8to1_111_20_alg».proof.Proof.Bits.Common

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The value -/

/-- Row `y` of a gathered array: the table's row named by token `(y / 128, y % 128)`. -/
def gathered (i : S32x128.Idx → BitVec 32) (t : S100000x128.Idx → Elt F .f32) : S4096x128.Idx → Elt F .f32 :=
  fun y => t (ix2 (Cert.Spec.rowOf (i (ix2 (⟨(y 0).val / 128, Nat.div_lt_of_lt_mul (y 0).isLt⟩ : Fin 32) (⟨(y 0).val % 128, Nat.mod_lt _ (by decide)⟩ : Fin 128)))) (y 1))

/-! ## Call 0: the tile, its slices, what it is handed and what it hands back -/

/-- The SparseCore and the vector subcore of the tile at grid coordinates `L`. -/
abbrev cV (L : grid0.Coords) : Fin τ.nSC := (L 0).castLE hcore0
abbrev jV (L : grid0.Coords) : Fin τ.nSub := (L 1).castLE hsub0

/-- The tile's row of the first and of the second token array, and its block of the first and of the second result,
    as the body slices them. -/
abbrev rowA0 (L : grid0.Coords) : Memref sig .scVector .hbm S1x128 .i32 :=
  (Memref.whole main_v3_scv).slice (Rect.unit (s := S32x128) (k0_off1 L) S1x128.size (k0_off1_inb L)) (fun _ => rfl)
abbrev rowB0 (L : grid0.Coords) : Memref sig .scVector .hbm S1x128 .i32 :=
  (Memref.whole main_v4_scv).slice (Rect.unit (s := S32x128) (k0_off1 L) S1x128.size (k0_off1_inb L)) (fun _ => rfl)
abbrev blkA0 (L : grid0.Coords) : Memref sig .scVector .hbm S128x128 .f32 :=
  (Memref.whole main_v5_0_scv).slice (Rect.unit (s := S4096x128) (k0_off2 L) S128x128.size (k0_off2_inb L)) (fun _ => rfl)
abbrev blkB0 (L : grid0.Coords) : Memref sig .scVector .hbm S128x128 .f32 :=
  (Memref.whole main_v5_1_scv).slice (Rect.unit (s := S4096x128) (k0_off2 L) S128x128.size (k0_off2_inb L)) (fun _ => rfl)

/-- The arrays in HBM, as the TensorCore names them: the two token arrays, the two tables, the two results. -/
abbrev tokA0 (d : Dev nD) : Loc nD τ sig := (SparseCore.T d).loc main_v3
abbrev tokB0 (d : Dev nD) : Loc nD τ sig := (SparseCore.T d).loc main_v4
abbrev tabA (d : Dev nD) : Loc nD τ sig := (SparseCore.T d).loc main_arg2
abbrev tabB (d : Dev nD) : Loc nD τ sig := (SparseCore.T d).loc main_arg3
abbrev outA0 (d : Dev nD) : Loc nD τ sig := (SparseCore.T d).loc main_v5_0
abbrev outB0 (d : Dev nD) : Loc nD τ sig := (SparseCore.T d).loc main_v5_1

variable (d : Dev nD) (L : grid0.Coords) (sh : PosShare TreeShare)
  (i0 i1 : S32x128.Idx → BitVec 32) (t0 t1 : S100000x128.Idx → Elt F .f32)

/-- What the tile is handed: its row of each token array, a read share of each table whole, its block of each result
    at some contents. -/
def goRes0 : sProp 𝕄 :=
  iprop((tokA0 d ↦[(rowA0 L).view.set]{fullShare} i0)
    ∗ (tokB0 d ↦[(rowB0 L).view.set]{fullShare} i1)
    ∗ (tabA d ↦{sh} (t0 : Buf (Elt F) (tabA d)))
    ∗ (tabB d ↦{sh} (t1 : Buf (Elt F) (tabB d)))
    ∗ (∃ f, outA0 d ↦[(blkA0 L).view.set]{fullShare} f)
    ∗ (∃ f, outB0 d ↦[(blkB0 L).view.set]{fullShare} f))

/-- What the tile hands back: the same, its two blocks now at the gathered arrays. -/
def tdRes0 : sProp 𝕄 :=
  iprop((tokA0 d ↦[(rowA0 L).view.set]{fullShare} i0)
    ∗ (tokB0 d ↦[(rowB0 L).view.set]{fullShare} i1)
    ∗ (tabA d ↦{sh} (t0 : Buf (Elt F) (tabA d)))
    ∗ (tabB d ↦{sh} (t1 : Buf (Elt F) (tabB d)))
    ∗ (outA0 d ↦[(blkA0 L).view.set]{fullShare} gathered i0 t0)
    ∗ (outB0 d ↦[(blkB0 L).view.set]{fullShare} gathered i1 t1))

end Cert.Proof.KB

end
-- ==== Proof.Bits.TileRes1.lean ====
/-
  The resources of one vector subcore's task in call 1 of the row-gather kernel: the same as call 0's, over this
  call's token slices and result arrays (the tables, and the gathered value, are the same).
-/
import proofs.«204601_g21792664060648_cont_8to1_111_20_alg».proof.Proof.Bits.TileRes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 1: the tile, its slices, what it is handed and what it hands back -/

/-- The SparseCore and the vector subcore of the tile at grid coordinates `L`. -/
abbrev cV1 (L : grid1.Coords) : Fin τ.nSC := (L 0).castLE hcore1
abbrev jV1 (L : grid1.Coords) : Fin τ.nSub := (L 1).castLE hsub1

/-- The tile's row of the first and of the second token array, and its block of the first and of the second result,
    as the body slices them. -/
abbrev rowA1 (L : grid1.Coords) : Memref sig .scVector .hbm S1x128 .i32 :=
  (Memref.whole main_v6_scv).slice (Rect.unit (s := S32x128) (k1_off1 L) S1x128.size (k1_off1_inb L)) (fun _ => rfl)
abbrev rowB1 (L : grid1.Coords) : Memref sig .scVector .hbm S1x128 .i32 :=
  (Memref.whole main_v7_scv).slice (Rect.unit (s := S32x128) (k1_off1 L) S1x128.size (k1_off1_inb L)) (fun _ => rfl)
abbrev blkA1 (L : grid1.Coords) : Memref sig .scVector .hbm S128x128 .f32 :=
  (Memref.whole main_v8_0_scv).slice (Rect.unit (s := S4096x128) (k1_off2 L) S128x128.size (k1_off2_inb L)) (fun _ => rfl)
abbrev blkB1 (L : grid1.Coords) : Memref sig .scVector .hbm S128x128 .f32 :=
  (Memref.whole main_v8_1_scv).slice (Rect.unit (s := S4096x128) (k1_off2 L) S128x128.size (k1_off2_inb L)) (fun _ => rfl)

/-- The arrays in HBM, as the TensorCore names them: the two token arrays, the two tables, the two results. -/
abbrev tokA1 (d : Dev nD) : Loc nD τ sig := (SparseCore.T d).loc main_v6
abbrev tokB1 (d : Dev nD) : Loc nD τ sig := (SparseCore.T d).loc main_v7
abbrev outA1 (d : Dev nD) : Loc nD τ sig := (SparseCore.T d).loc main_v8_0
abbrev outB1 (d : Dev nD) : Loc nD τ sig := (SparseCore.T d).loc main_v8_1

variable (d : Dev nD) (L : grid1.Coords) (sh : PosShare TreeShare)
  (i0 i1 : S32x128.Idx → BitVec 32) (t0 t1 : S100000x128.Idx → Elt F .f32)

/-- What the tile is handed: its row of each token array, a read share of each table whole, its block of each result
    at some contents. -/
def goRes1 : sProp 𝕄 :=
  iprop((tokA1 d ↦[(rowA1 L).view.set]{fullShare} i0)
    ∗ (tokB1 d ↦[(rowB1 L).view.set]{fullShare} i1)
    ∗ (tabA d ↦{sh} (t0 : Buf (Elt F) (tabA d)))
    ∗ (tabB d ↦{sh} (t1 : Buf (Elt F) (tabB d)))
    ∗ (∃ f, outA1 d ↦[(blkA1 L).view.set]{fullShare} f)
    ∗ (∃ f, outB1 d ↦[(blkB1 L).view.set]{fullShare} f))

/-- What the tile hands back: the same, its two blocks now at the gathered arrays. -/
def tdRes1 : sProp 𝕄 :=
  iprop((tokA1 d ↦[(rowA1 L).view.set]{fullShare} i0)
    ∗ (tokB1 d ↦[(rowB1 L).view.set]{fullShare} i1)
    ∗ (tabA d ↦{sh} (t0 : Buf (Elt F) (tabA d)))
    ∗ (tabB d ↦{sh} (t1 : Buf (Elt F) (tabB d)))
    ∗ (outA1 d ↦[(blkA1 L).view.set]{fullShare} gathered i0 t0)
    ∗ (outB1 d ↦[(blkB1 L).view.set]{fullShare} gathered i1 t1))

end Cert.Proof.KB

end
-- ==== Proof.Bits.TileRes2.lean ====
/-
  The resources of one vector subcore's task in call 2 of the row-gather kernel: the same as call 0's, over this
  call's token slices and result arrays (the tables, and the gathered value, are the same).
-/
import proofs.«204601_g21792664060648_cont_8to1_111_20_alg».proof.Proof.Bits.TileRes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 2: the tile, its slices, what it is handed and what it hands back -/

/-- The SparseCore and the vector subcore of the tile at grid coordinates `L`. -/
abbrev cV2 (L : grid2.Coords) : Fin τ.nSC := (L 0).castLE hcore2
abbrev jV2 (L : grid2.Coords) : Fin τ.nSub := (L 1).castLE hsub2

/-- The tile's row of the first and of the second token array, and its block of the first and of the second result,
    as the body slices them. -/
abbrev rowA2 (L : grid2.Coords) : Memref sig .scVector .hbm S1x128 .i32 :=
  (Memref.whole main_v9_scv).slice (Rect.unit (s := S32x128) (k2_off1 L) S1x128.size (k2_off1_inb L)) (fun _ => rfl)
abbrev rowB2 (L : grid2.Coords) : Memref sig .scVector .hbm S1x128 .i32 :=
  (Memref.whole main_v10_scv).slice (Rect.unit (s := S32x128) (k2_off1 L) S1x128.size (k2_off1_inb L)) (fun _ => rfl)
abbrev blkA2 (L : grid2.Coords) : Memref sig .scVector .hbm S128x128 .f32 :=
  (Memref.whole main_v11_0_scv).slice (Rect.unit (s := S4096x128) (k2_off2 L) S128x128.size (k2_off2_inb L)) (fun _ => rfl)
abbrev blkB2 (L : grid2.Coords) : Memref sig .scVector .hbm S128x128 .f32 :=
  (Memref.whole main_v11_1_scv).slice (Rect.unit (s := S4096x128) (k2_off2 L) S128x128.size (k2_off2_inb L)) (fun _ => rfl)

/-- The arrays in HBM, as the TensorCore names them: the two token arrays, the two tables, the two results. -/
abbrev tokA2 (d : Dev nD) : Loc nD τ sig := (SparseCore.T d).loc main_v9
abbrev tokB2 (d : Dev nD) : Loc nD τ sig := (SparseCore.T d).loc main_v10
abbrev outA2 (d : Dev nD) : Loc nD τ sig := (SparseCore.T d).loc main_v11_0
abbrev outB2 (d : Dev nD) : Loc nD τ sig := (SparseCore.T d).loc main_v11_1

variable (d : Dev nD) (L : grid2.Coords) (sh : PosShare TreeShare)
  (i0 i1 : S32x128.Idx → BitVec 32) (t0 t1 : S100000x128.Idx → Elt F .f32)

/-- What the tile is handed: its row of each token array, a read share of each table whole, its block of each result
    at some contents. -/
def goRes2 : sProp 𝕄 :=
  iprop((tokA2 d ↦[(rowA2 L).view.set]{fullShare} i0)
    ∗ (tokB2 d ↦[(rowB2 L).view.set]{fullShare} i1)
    ∗ (tabA d ↦{sh} (t0 : Buf (Elt F) (tabA d)))
    ∗ (tabB d ↦{sh} (t1 : Buf (Elt F) (tabB d)))
    ∗ (∃ f, outA2 d ↦[(blkA2 L).view.set]{fullShare} f)
    ∗ (∃ f, outB2 d ↦[(blkB2 L).view.set]{fullShare} f))

/-- What the tile hands back: the same, its two blocks now at the gathered arrays. -/
def tdRes2 : sProp 𝕄 :=
  iprop((tokA2 d ↦[(rowA2 L).view.set]{fullShare} i0)
    ∗ (tokB2 d ↦[(rowB2 L).view.set]{fullShare} i1)
    ∗ (tabA d ↦{sh} (t0 : Buf (Elt F) (tabA d)))
    ∗ (tabB d ↦{sh} (t1 : Buf (Elt F) (tabB d)))
    ∗ (outA2 d ↦[(blkA2 L).view.set]{fullShare} gathered i0 t0)
    ∗ (outB2 d ↦[(blkB2 L).view.set]{fullShare} gathered i1 t1))

end Cert.Proof.KB

end
-- ==== Proof.Bits.TileRes3.lean ====
/-
  The resources of one vector subcore's task in call 3 of the row-gather kernel: the same as call 0's, over this
  call's token slices and result arrays (the tables, and the gathered value, are the same).
-/
import proofs.«204601_g21792664060648_cont_8to1_111_20_alg».proof.Proof.Bits.TileRes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Call 3: the tile, its slices, what it is handed and what it hands back -/

/-- The SparseCore and the vector subcore of the tile at grid coordinates `L`. -/
abbrev cV3 (L : grid3.Coords) : Fin τ.nSC := (L 0).castLE hcore3
abbrev jV3 (L : grid3.Coords) : Fin τ.nSub := (L 1).castLE hsub3

/-- The tile's row of the first and of the second token array, and its block of the first and of the second result,
    as the body slices them. -/
abbrev rowA3 (L : grid3.Coords) : Memref sig .scVector .hbm S1x128 .i32 :=
  (Memref.whole main_v12_scv).slice (Rect.unit (s := S32x128) (k3_off1 L) S1x128.size (k3_off1_inb L)) (fun _ => rfl)
abbrev rowB3 (L : grid3.Coords) : Memref sig .scVector .hbm S1x128 .i32 :=
  (Memref.whole main_v13_scv).slice (Rect.unit (s := S32x128) (k3_off1 L) S1x128.size (k3_off1_inb L)) (fun _ => rfl)
abbrev blkA3 (L : grid3.Coords) : Memref sig .scVector .hbm S128x128 .f32 :=
  (Memref.whole main_v14_0_scv).slice (Rect.unit (s := S4096x128) (k3_off2 L) S128x128.size (k3_off2_inb L)) (fun _ => rfl)
abbrev blkB3 (L : grid3.Coords) : Memref sig .scVector .hbm S128x128 .f32 :=
  (Memref.whole main_v14_1_scv).slice (Rect.unit (s := S4096x128) (k3_off2 L) S128x128.size (k3_off2_inb L)) (fun _ => rfl)

/-- The arrays in HBM, as the TensorCore names them: the two token arrays, the two tables, the two results. -/
abbrev tokA3 (d : Dev nD) : Loc nD τ sig := (SparseCore.T d).loc main_v12
abbrev tokB3 (d : Dev nD) : Loc nD τ sig := (SparseCore.T d).loc main_v13
abbrev outA3 (d : Dev nD) : Loc nD τ sig := (SparseCore.T d).loc main_v14_0
abbrev outB3 (d : Dev nD) : Loc nD τ sig := (SparseCore.T d).loc main_v14_1

variable (d : Dev nD) (L : grid3.Coords) (sh : PosShare TreeShare)
  (i0 i1 : S32x128.Idx → BitVec 32) (t0 t1 : S100000x128.Idx → Elt F .f32)

/-- What the tile is handed: its row of each token array, a read share of each table whole, its block of each result
    at some contents. -/
def goRes3 : sProp 𝕄 :=
  iprop((tokA3 d ↦[(rowA3 L).view.set]{fullShare} i0)
    ∗ (tokB3 d ↦[(rowB3 L).view.set]{fullShare} i1)
    ∗ (tabA d ↦{sh} (t0 : Buf (Elt F) (tabA d)))
    ∗ (tabB d ↦{sh} (t1 : Buf (Elt F) (tabB d)))
    ∗ (∃ f, outA3 d ↦[(blkA3 L).view.set]{fullShare} f)
    ∗ (∃ f, outB3 d ↦[(blkB3 L).view.set]{fullShare} f))

/-- What the tile hands back: the same, its two blocks now at the gathered arrays. -/
def tdRes3 : sProp 𝕄 :=
  iprop((tokA3 d ↦[(rowA3 L).view.set]{fullShare} i0)
    ∗ (tokB3 d ↦[(rowB3 L).view.set]{fullShare} i1)
    ∗ (tabA d ↦{sh} (t0 : Buf (Elt F) (tabA d)))
    ∗ (tabB d ↦{sh} (t1 : Buf (Elt F) (tabB d)))
    ∗ (outA3 d ↦[(blkA3 L).view.set]{fullShare} gathered i0 t0)
    ∗ (outB3 d ↦[(blkB3 L).view.set]{fullShare} gathered i1 t1))

end Cert.Proof.KB

end
-- ==== Proof.Bits.Pay.lean ====
/-
  What the four launch handshakes carry for the four row-gather calls.

  When call `q` runs, its two token arrays hold rows `[32q, 32q + 32)` of the two token inputs reshaped to 128 × 128:
  `tokA q`, `tokB q`, functions of the launch memory. The TensorCore hands SparseCore `c` the resources of its sixteen
  tiles — tile `i` of SparseCore `c` works on token row `2i + c` and result rows `[128(2i + c), 128(2i + c) + 128)`
  and reads both tables through a read share of its own (the full share split in two, one part per SparseCore, each part
  in sixteen) — and takes back the same with the tiles' result blocks at the gathered arrays. A SparseCore's operands are
  its tiles' by definition, so the split of a call's operands among its tasks is the identity.
-/
import proofs.«204601_g21792664060648_cont_8to1_111_20_alg».proof.Proof.Bits.TileRes1
import proofs.«204601_g21792664060648_cont_8to1_111_20_alg».proof.Proof.Bits.TileRes2
import proofs.«204601_g21792664060648_cont_8to1_111_20_alg».proof.Proof.Bits.TileRes3

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ)

/-! ## The token arrays each call sees, and the tables -/

/-- The two token inputs reshaped to 128 × 128. -/
def tokSqA (d : Dev nD) : S128x128.Idx → BitVec 32 := shapeCast S128x128 (m ((SparseCore.T d).loc main_arg0)) shapeCasts_S16384_S128x128
def tokSqB (d : Dev nD) : S128x128.Idx → BitVec 32 := shapeCast S128x128 (m ((SparseCore.T d).loc main_arg1)) shapeCasts_S16384_S128x128

/-- Rows `[32q, 32q + 32)` of them: what call `q`'s token arrays hold. -/
def tokA (d : Dev nD) : Fin 4 → S32x128.Idx → BitVec 32
  | 0 => extractStridedSlice S32x128 ![0, 0] (tokSqA m d) slices_S128x128_S32x128_0_0
  | 1 => extractStridedSlice S32x128 ![32, 0] (tokSqA m d) slices_S128x128_S32x128_32_0
  | 2 => extractStridedSlice S32x128 ![64, 0] (tokSqA m d) slices_S128x128_S32x128_64_0
  | 3 => extractStridedSlice S32x128 ![96, 0] (tokSqA m d) slices_S128x128_S32x128_96_0
def tokB (d : Dev nD) : Fin 4 → S32x128.Idx → BitVec 32
  | 0 => extractStridedSlice S32x128 ![0, 0] (tokSqB m d) slices_S128x128_S32x128_0_0
  | 1 => extractStridedSlice S32x128 ![32, 0] (tokSqB m d) slices_S128x128_S32x128_32_0
  | 2 => extractStridedSlice S32x128 ![64, 0] (tokSqB m d) slices_S128x128_S32x128_64_0
  | 3 => extractStridedSlice S32x128 ![96, 0] (tokSqB m d) slices_S128x128_S32x128_96_0

/-- The two tables, at their launch contents throughout. -/
abbrev tblA (d : Dev nD) : S100000x128.Idx → Elt F .f32 := m (tabA d)
abbrev tblB (d : Dev nD) : S100000x128.Idx → Elt F .f32 := m (tabB d)

/-! ## Tiles -/

/-- The read share of tile `i` of SparseCore `c`. -/
def shT (c : Fin 2) (i : Fin 16) : PosShare TreeShare := Transfers.shareTok (Transfers.shareTok fullShare 2 c) 16 i

/-- Grid coordinates of tile `i` of SparseCore `c`, in each call's grid. -/
def co0 (c : Fin 2) (i : Fin 16) : grid0.Coords := fun | 0 => c | 1 => i | ⟨_ + 2, h⟩ => absurd h (Nat.not_lt.2 (Nat.le_add_left _ _))
def co1 (c : Fin 2) (i : Fin 16) : grid1.Coords := fun | 0 => c | 1 => i | ⟨_ + 2, h⟩ => absurd h (Nat.not_lt.2 (Nat.le_add_left _ _))
def co2 (c : Fin 2) (i : Fin 16) : grid2.Coords := fun | 0 => c | 1 => i | ⟨_ + 2, h⟩ => absurd h (Nat.not_lt.2 (Nat.le_add_left _ _))
def co3 (c : Fin 2) (i : Fin 16) : grid3.Coords := fun | 0 => c | 1 => i | ⟨_ + 2, h⟩ => absurd h (Nat.not_lt.2 (Nat.le_add_left _ _))

variable [FloatOps F]

/-- What tile `(c, i)` is handed at call `q`, and what it hands back. -/
def goAt (d : Dev nD) (c : Fin 2) (i : Fin 16) : Fin 4 → sProp 𝕄
  | 0 => goRes0 d (co0 c i) (shT c i) (tokA m d 0) (tokB m d 0) (tblA m d) (tblB m d)
  | 1 => goRes1 d (co1 c i) (shT c i) (tokA m d 1) (tokB m d 1) (tblA m d) (tblB m d)
  | 2 => goRes2 d (co2 c i) (shT c i) (tokA m d 2) (tokB m d 2) (tblA m d) (tblB m d)
  | 3 => goRes3 d (co3 c i) (shT c i) (tokA m d 3) (tokB m d 3) (tblA m d) (tblB m d)
def tdAt (d : Dev nD) (c : Fin 2) (i : Fin 16) : Fin 4 → sProp 𝕄
  | 0 => tdRes0 d (co0 c i) (shT c i) (tokA m d 0) (tokB m d 0) (tblA m d) (tblB m d)
  | 1 => tdRes1 d (co1 c i) (shT c i) (tokA m d 1) (tokB m d 1) (tblA m d) (tblB m d)
  | 2 => tdRes2 d (co2 c i) (shT c i) (tokA m d 2) (tokB m d 2) (tblA m d) (tblB m d)
  | 3 => tdRes3 d (co3 c i) (shT c i) (tokA m d 3) (tokB m d 3) (tblA m d) (tblB m d)

instance goAt_storable (d : Dev nD) (c : Fin 2) (i : Fin 16) (q : Fin 4) : BI.Storable (upEmb : UEmb _ 𝕄) (goAt m d c i q) := by
  match q with
  | 0 => unfold goAt goRes0; infer_instance
  | 1 => unfold goAt goRes1; infer_instance
  | 2 => unfold goAt goRes2; infer_instance
  | 3 => unfold goAt goRes3; infer_instance
instance tdAt_storable (d : Dev nD) (c : Fin 2) (i : Fin 16) (q : Fin 4) : BI.Storable (upEmb : UEmb _ 𝕄) (tdAt m d c i q) := by
  match q with
  | 0 => unfold tdAt tdRes0; infer_instance
  | 1 => unfold tdAt tdRes1; infer_instance
  | 2 => unfold tdAt tdRes2; infer_instance
  | 3 => unfold tdAt tdRes3; infer_instance

theorem nCore_eq (q : Fin 4) : (K (F := F)).nCore q = 2 := match q with | 0 => rfl | 1 => rfl | 2 => rfl | 3 => rfl
theorem nSub_eq (q : Fin 4) : (K (F := F)).nSub q = 16 := match q with | 0 => rfl | 1 => rfl | 2 => rfl | 3 => rfl

/-- The four calls' payloads. -/
def P : (K (F := F)).Pay (nD := nD) (Val := Elt F) (Name := ℕ) (U := UU) where
  st := fun q d c => bigSep Finset.univ fun i : Fin ((K (F := F)).nSub q) => goAt m d (Fin.cast (nCore_eq q) c) (Fin.cast (nSub_eq q) i) q
  dn := fun q d c => bigSep Finset.univ fun i : Fin ((K (F := F)).nSub q) => tdAt m d (Fin.cast (nCore_eq q) c) (Fin.cast (nSub_eq q) i) q
  go := fun q d c i => goAt m d (Fin.cast (nCore_eq q) c) (Fin.cast (nSub_eq q) i) q
  td := fun q d c i => tdAt m d (Fin.cast (nCore_eq q) c) (Fin.cast (nSub_eq q) i) q
  x := fun _ _ => iprop(emp)

instance P_storable : (P (F := F) m).IsStorable where
  st q d c := by unfold P; infer_instance
  dn q d c := by unfold P; infer_instance
  go q d c i := by unfold P; infer_instance
  td q d c i := by unfold P; infer_instance

/-- A SparseCore's operands are its tiles'; its results, theirs. -/
theorem vecSplit (q : Fin 4) : (K (F := F)).VecSplit' (P m) q := by
  intro d c
  show (bigSep Finset.univ fun i : Fin ((K (F := F)).nSub q) => (P m).go q d c i) ⊢ |={Set.univ}=> iprop(
      (bigSep Finset.univ fun i : Fin ((K (F := F)).nSub q) => (P m).go q d c i)
      ∗ ((bigSep Finset.univ fun i : Fin ((K (F := F)).nSub q) => (P m).td q d c i) -∗ bigSep Finset.univ fun i : Fin ((K (F := F)).nSub q) => (P m).td q d c i))
  iintro H; imodintro
  isplitl [H]; · iexact H
  iintro H; iexact H

end Cert.Proof.KB

end
-- ==== Proof.Bits.TileSets.lean ====
/-
  The tiles' rows and blocks partition the arrays.

  Tile `(c, i)` (SparseCore `c < 2`, vector subcore `i < 16`) owns row `2i + c` of a 32 × 128 token array and rows
  `[128(2i + c), 128(2i + c) + 128)` of a 4096 × 128 result array. Since `(c, i) ↦ 2i + c` is a bijection onto
  `[0, 32)`, the 32 rows are pairwise disjoint and cover the token array, and the 32 blocks the result array.
-/
import proofs.«204601_g21792664060648_cont_8to1_111_20_alg».proof.Proof.Bits.Common

namespace Cert.Proof.KB

open Cert.Kernel
open Idealize.ShloMosaic

/-- Membership in tile `(c, i)`'s token row. -/
theorem mem_tokRow (c : Fin 2) (i : Fin 16) (off : Fin 2 → Nat) (hoff : off = ![2 * i.val + c.val, 0])
    (inb : ∀ a, off a + S1x128.size a ≤ S32x128.size a) (y : S32x128.Idx) :
    y ∈ (Rect.unit (s := S32x128) off S1x128.size inb).set ↔ (y 0).val = 2 * i.val + c.val := by
  subst hoff
  rw [Rect.mem_set_unit]
  constructor
  · intro h
    have h0 := h 0
    simp only [Matrix.cons_val_zero] at h0
    have : S1x128.size 0 = 1 := rfl
    omega
  · intro h a
    match a with
    | ⟨0, _⟩ =>
      have : S1x128.size 0 = 1 := rfl
      show (![2 * i.val + c.val, 0] : Fin 2 → Nat) 0 ≤ (y 0).val ∧ (y 0).val < (![2 * i.val + c.val, 0] : Fin 2 → Nat) 0 + S1x128.size 0
      simp only [Matrix.cons_val_zero]; omega
    | ⟨1, _⟩ =>
      have h1 : (y 1).val < 128 := (y 1).isLt
      have : S1x128.size 1 = 128 := rfl
      show (![2 * i.val + c.val, 0] : Fin 2 → Nat) 1 ≤ (y 1).val ∧ (y 1).val < (![2 * i.val + c.val, 0] : Fin 2 → Nat) 1 + S1x128.size 1
      simp only [Matrix.cons_val_one, Matrix.cons_val_zero]; omega

/-- Membership in tile `(c, i)`'s result block. -/
theorem mem_outBlk (c : Fin 2) (i : Fin 16) (off : Fin 2 → Nat) (hoff : off = ![256 * i.val + 128 * c.val, 0])
    (inb : ∀ a, off a + S128x128.size a ≤ S4096x128.size a) (y : S4096x128.Idx) :
    y ∈ (Rect.unit (s := S4096x128) off S128x128.size inb).set ↔ (y 0).val / 128 = 2 * i.val + c.val := by
  subst hoff
  rw [Rect.mem_set_unit]
  constructor
  · intro h
    have h0 := h 0
    simp only [Matrix.cons_val_zero] at h0
    have : S128x128.size 0 = 128 := rfl
    omega
  · intro h a
    match a with
    | ⟨0, _⟩ =>
      have : S128x128.size 0 = 128 := rfl
      show (![256 * i.val + 128 * c.val, 0] : Fin 2 → Nat) 0 ≤ (y 0).val ∧ (y 0).val < (![256 * i.val + 128 * c.val, 0] : Fin 2 → Nat) 0 + S128x128.size 0
      simp only [Matrix.cons_val_zero]; omega
    | ⟨1, _⟩ =>
      have h1 : (y 1).val < 128 := (y 1).isLt
      have : S128x128.size 1 = 128 := rfl
      show (![256 * i.val + 128 * c.val, 0] : Fin 2 → Nat) 1 ≤ (y 1).val ∧ (y 1).val < (![256 * i.val + 128 * c.val, 0] : Fin 2 → Nat) 1 + S128x128.size 1
      simp only [Matrix.cons_val_one, Matrix.cons_val_zero]; omega

/-- A family of sets of a 32 × 128 array, the one of `(c, i)` being the indices of row `2i + c`, is a partition. -/
theorem rows_partition (K : Fin 2 × Fin 16 → Finset S32x128.Idx) (hK : ∀ p y, y ∈ K p ↔ (y 0).val = 2 * p.2.val + p.1.val) :
    (∀ p ∈ (Finset.univ : Finset (Fin 2 × Fin 16)), ∀ p' ∈ (Finset.univ : Finset (Fin 2 × Fin 16)), p ≠ p' → Disjoint (K p) (K p'))
      ∧ (Finset.univ : Finset (Fin 2 × Fin 16)).biUnion K = Finset.univ := by
  constructor
  · intro p _ p' _ hne
    refine Finset.disjoint_left.mpr fun y h h' => hne ?_
    have e := (hK p y).mp h; have e' := (hK p' y).mp h'
    have h1 := p.1.isLt; have h2 := p'.1.isLt
    exact Prod.ext (Fin.ext (by omega)) (Fin.ext (by omega))
  · refine Finset.eq_univ_iff_forall.mpr fun y => Finset.mem_biUnion.mpr ?_
    have hy : (y 0).val < 32 := (y 0).isLt
    exact ⟨(⟨(y 0).val % 2, Nat.mod_lt _ (by decide)⟩, ⟨(y 0).val / 2, by omega⟩), Finset.mem_univ _, (hK _ y).mpr (by show (y 0).val = 2 * ((y 0).val / 2) + (y 0).val % 2; omega)⟩

/-- The same for blocks of 128 rows of a 4096 × 128 array. -/
theorem blocks_partition (K : Fin 2 × Fin 16 → Finset S4096x128.Idx) (hK : ∀ p y, y ∈ K p ↔ (y 0).val / 128 = 2 * p.2.val + p.1.val) :
    (∀ p ∈ (Finset.univ : Finset (Fin 2 × Fin 16)), ∀ p' ∈ (Finset.univ : Finset (Fin 2 × Fin 16)), p ≠ p' → Disjoint (K p) (K p'))
      ∧ (Finset.univ : Finset (Fin 2 × Fin 16)).biUnion K = Finset.univ := by
  constructor
  · intro p _ p' _ hne
    refine Finset.disjoint_left.mpr fun y h h' => hne ?_
    have e := (hK p y).mp h; have e' := (hK p' y).mp h'
    have h1 := p.1.isLt; have h2 := p'.1.isLt
    exact Prod.ext (Fin.ext (by omega)) (Fin.ext (by omega))
  · refine Finset.eq_univ_iff_forall.mpr fun y => Finset.mem_biUnion.mpr ?_
    have hy : (y 0).val < 4096 := (y 0).isLt
    exact ⟨(⟨(y 0).val / 128 % 2, Nat.mod_lt _ (by decide)⟩, ⟨(y 0).val / 128 / 2, by omega⟩), Finset.mem_univ _,
      (hK _ y).mpr (by show (y 0).val / 128 = 2 * ((y 0).val / 128 / 2) + (y 0).val / 128 % 2; omega)⟩

end Cert.Proof.KB
-- ==== Proof.Bits.Split1.lean ====
/-
  Call 1: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Bits.Pay
import proofs.«204601_g21792664060648_cont_8to1_111_20_alg».proof.Proof.Bits.TileSets

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co1 (c : Fin 2) (i : Fin 16) : k1_off1 (co1 c i) = ![2 * i.val + c.val, 0] := k1_off1_eq (co1 c i)
theorem off2_co1 (c : Fin 2) (i : Fin 16) : k1_off2 (co1 c i) = ![256 * i.val + 128 * c.val, 0] := k1_off2_eq (co1 c i)

theorem mem_rowA1 (p : Fin 2 × Fin 16) (y : S32x128.Idx) : y ∈ (rowA1 (co1 p.1 p.2)).view.set ↔ (y 0).val = 2 * p.2.val + p.1.val := by
  rw [show (rowA1 (co1 p.1 p.2)).view.set = (Rect.unit (s := S32x128) (k1_off1 (co1 p.1 p.2)) S1x128.size (k1_off1_inb (co1 p.1 p.2))).set from View.set_slice_whole _ _]
  exact mem_tokRow p.1 p.2 _ (off1_co1 p.1 p.2) _ y
theorem mem_rowB1 (p : Fin 2 × Fin 16) (y : S32x128.Idx) : y ∈ (rowB1 (co1 p.1 p.2)).view.set ↔ (y 0).val = 2 * p.2.val + p.1.val := by
  rw [show (rowB1 (co1 p.1 p.2)).view.set = (Rect.unit (s := S32x128) (k1_off1 (co1 p.1 p.2)) S1x128.size (k1_off1_inb (co1 p.1 p.2))).set from View.set_slice_whole _ _]
  exact mem_tokRow p.1 p.2 _ (off1_co1 p.1 p.2) _ y
theorem mem_blkA1 (p : Fin 2 × Fin 16) (y : S4096x128.Idx) : y ∈ (blkA1 (co1 p.1 p.2)).view.set ↔ (y 0).val / 128 = 2 * p.2.val + p.1.val := by
  rw [show (blkA1 (co1 p.1 p.2)).view.set = (Rect.unit (s := S4096x128) (k1_off2 (co1 p.1 p.2)) S128x128.size (k1_off2_inb (co1 p.1 p.2))).set from View.set_slice_whole _ _]
  exact mem_outBlk p.1 p.2 _ (off2_co1 p.1 p.2) _ y
theorem mem_blkB1 (p : Fin 2 × Fin 16) (y : S4096x128.Idx) : y ∈ (blkB1 (co1 p.1 p.2)).view.set ↔ (y 0).val / 128 = 2 * p.2.val + p.1.val := by
  rw [show (blkB1 (co1 p.1 p.2)).view.set = (Rect.unit (s := S4096x128) (k1_off2 (co1 p.1 p.2)) S128x128.size (k1_off2_inb (co1 p.1 p.2))).set from View.set_slice_whole _ _]
  exact mem_outBlk p.1 p.2 _ (off2_co1 p.1 p.2) _ y

/-! ## Whole arrays as the tiles' pieces -/

variable (d : Dev nD)

theorem tokA1_rows (f : Buf (Elt F) (tokA1 d)) :
    (tokA1 d ↦{fullShare} f : sProp 𝕄) = bigSep Finset.univ fun c : Fin 2 => bigSep Finset.univ fun i : Fin 16 => tokA1 d ↦[(rowA1 (co1 c i)).view.set]{fullShare} f := by
  have hp := rows_partition (fun p : Fin 2 × Fin 16 => (rowA1 (co1 p.1 p.2)).view.set) mem_rowA1
  rw [← bigSep_univ_prod (fun p : Fin 2 × Fin 16 => (tokA1 d ↦[(rowA1 (co1 p.1 p.2)).view.set]{fullShare} f : sProp 𝕄)),
    ← pointsTo_biUnion Finset.univ (ℓ := tokA1 d) (fun p : Fin 2 × Fin 16 => (rowA1 (co1 p.1 p.2)).view.set) hp.1, hp.2]
theorem tokB1_rows (f : Buf (Elt F) (tokB1 d)) :
    (tokB1 d ↦{fullShare} f : sProp 𝕄) = bigSep Finset.univ fun c : Fin 2 => bigSep Finset.univ fun i : Fin 16 => tokB1 d ↦[(rowB1 (co1 c i)).view.set]{fullShare} f := by
  have hp := rows_partition (fun p : Fin 2 × Fin 16 => (rowB1 (co1 p.1 p.2)).view.set) mem_rowB1
  rw [← bigSep_univ_prod (fun p : Fin 2 × Fin 16 => (tokB1 d ↦[(rowB1 (co1 p.1 p.2)).view.set]{fullShare} f : sProp 𝕄)),
    ← pointsTo_biUnion Finset.univ (ℓ := tokB1 d) (fun p : Fin 2 × Fin 16 => (rowB1 (co1 p.1 p.2)).view.set) hp.1, hp.2]
theorem outA1_blks (f : Buf (Elt F) (outA1 d)) :
    (outA1 d ↦{fullShare} f : sProp 𝕄) = bigSep Finset.univ fun c : Fin 2 => bigSep Finset.univ fun i : Fin 16 => outA1 d ↦[(blkA1 (co1 c i)).view.set]{fullShare} f := by
  have hp := blocks_partition (fun p : Fin 2 × Fin 16 => (blkA1 (co1 p.1 p.2)).view.set) mem_blkA1
  rw [← bigSep_univ_prod (fun p : Fin 2 × Fin 16 => (outA1 d ↦[(blkA1 (co1 p.1 p.2)).view.set]{fullShare} f : sProp 𝕄)),
    ← pointsTo_biUnion Finset.univ (ℓ := outA1 d) (fun p : Fin 2 × Fin 16 => (blkA1 (co1 p.1 p.2)).view.set) hp.1, hp.2]
theorem outB1_blks (f : Buf (Elt F) (outB1 d)) :
    (outB1 d ↦{fullShare} f : sProp 𝕄) = bigSep Finset.univ fun c : Fin 2 => bigSep Finset.univ fun i : Fin 16 => outB1 d ↦[(blkB1 (co1 c i)).view.set]{fullShare} f := by
  have hp := blocks_partition (fun p : Fin 2 × Fin 16 => (blkB1 (co1 p.1 p.2)).view.set) mem_blkB1
  rw [← bigSep_univ_prod (fun p : Fin 2 × Fin 16 => (outB1 d ↦[(blkB1 (co1 p.1 p.2)).view.set]{fullShare} f : sProp 𝕄)),
    ← pointsTo_biUnion Finset.univ (ℓ := outB1 d) (fun p : Fin 2 × Fin 16 => (blkB1 (co1 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split1 (fa : Buf (Elt F) (outA1 d)) (fb : Buf (Elt F) (outB1 d)) :
    iprop((tokA1 d ↦{fullShare} i0) ∗ (tokB1 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA1 d ↦{fullShare} fa) ∗ (outB1 d ↦{fullShare} fb))
      ⊢ (bigSep Finset.univ fun c : Fin 2 => bigSep Finset.univ fun i : Fin 16 => goRes1 (F := F) d (co1 c i) (shT c i) i0 i1 t0 t1 : sProp 𝕄) := by
  rw [tokA1_rows, tokB1_rows, outA1_blks, outB1_blks]
  unfold goRes1
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA1 d ↦[(blkA1 (co1 c i)).view.set]{fullShare} fa : sProp 𝕄))
      ⊢ bigSep Finset.univ fun c : Fin 2 => bigSep Finset.univ fun i : Fin 16 => (iprop(∃ f, outA1 d ↦[(blkA1 (co1 c i)).view.set]{fullShare} f) : sProp 𝕄) :=
    bigSep_mono fun c _ => bigSep_mono fun i _ => exists_intro (Φ := fun f => (outA1 d ↦[(blkA1 (co1 c i)).view.set]{fullShare} f : sProp 𝕄)) fa
  have hob : (bigSep Finset.univ fun c : Fin 2 => bigSep Finset.univ fun i : Fin 16 => (outB1 d ↦[(blkB1 (co1 c i)).view.set]{fullShare} fb : sProp 𝕄))
      ⊢ bigSep Finset.univ fun c : Fin 2 => bigSep Finset.univ fun i : Fin 16 => (iprop(∃ f, outB1 d ↦[(blkB1 (co1 c i)).view.set]{fullShare} f) : sProp 𝕄) :=
    bigSep_mono fun c _ => bigSep_mono fun i _ => exists_intro (Φ := fun f => (outB1 d ↦[(blkB1 (co1 c i)).view.set]{fullShare} f : sProp 𝕄)) fb
  isplitl [Hoa]
  · iapply hoa; iexact Hoa
  · iapply hob; iexact Hob

/-- What the tiles hand back is the call's arrays again, the results at the gathered arrays. -/
theorem join1 :
    (bigSep Finset.univ fun c : Fin 2 => bigSep Finset.univ fun i : Fin 16 => tdRes1 (F := F) d (co1 c i) (shT c i) i0 i1 t0 t1 : sProp 𝕄)
      ⊢ iprop((tokA1 d ↦{fullShare} i0) ∗ (tokB1 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA1 d ↦{fullShare} gathered i0 t0) ∗ (outB1 d ↦{fullShare} gathered i1 t1)) := by
  rw [tokA1_rows, tokB1_rows, outA1_blks, outB1_blks]
  unfold tdRes1
  simp only [bigSep_sep']
  exact Entails.refl _

end Cert.Proof.KB

end
-- ==== Proof.Bits.Split0.lean ====
/-
  Call 0: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Bits.Pay
import proofs.«204601_g21792664060648_cont_8to1_111_20_alg».proof.Proof.Bits.TileSets

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co0 (c : Fin 2) (i : Fin 16) : k0_off1 (co0 c i) = ![2 * i.val + c.val, 0] := k0_off1_eq (co0 c i)
theorem off2_co0 (c : Fin 2) (i : Fin 16) : k0_off2 (co0 c i) = ![256 * i.val + 128 * c.val, 0] := k0_off2_eq (co0 c i)

theorem mem_rowA0 (p : Fin 2 × Fin 16) (y : S32x128.Idx) : y ∈ (rowA0 (co0 p.1 p.2)).view.set ↔ (y 0).val = 2 * p.2.val + p.1.val := by
  rw [show (rowA0 (co0 p.1 p.2)).view.set = (Rect.unit (s := S32x128) (k0_off1 (co0 p.1 p.2)) S1x128.size (k0_off1_inb (co0 p.1 p.2))).set from View.set_slice_whole _ _]
  exact mem_tokRow p.1 p.2 _ (off1_co0 p.1 p.2) _ y
theorem mem_rowB0 (p : Fin 2 × Fin 16) (y : S32x128.Idx) : y ∈ (rowB0 (co0 p.1 p.2)).view.set ↔ (y 0).val = 2 * p.2.val + p.1.val := by
  rw [show (rowB0 (co0 p.1 p.2)).view.set = (Rect.unit (s := S32x128) (k0_off1 (co0 p.1 p.2)) S1x128.size (k0_off1_inb (co0 p.1 p.2))).set from View.set_slice_whole _ _]
  exact mem_tokRow p.1 p.2 _ (off1_co0 p.1 p.2) _ y
theorem mem_blkA0 (p : Fin 2 × Fin 16) (y : S4096x128.Idx) : y ∈ (blkA0 (co0 p.1 p.2)).view.set ↔ (y 0).val / 128 = 2 * p.2.val + p.1.val := by
  rw [show (blkA0 (co0 p.1 p.2)).view.set = (Rect.unit (s := S4096x128) (k0_off2 (co0 p.1 p.2)) S128x128.size (k0_off2_inb (co0 p.1 p.2))).set from View.set_slice_whole _ _]
  exact mem_outBlk p.1 p.2 _ (off2_co0 p.1 p.2) _ y
theorem mem_blkB0 (p : Fin 2 × Fin 16) (y : S4096x128.Idx) : y ∈ (blkB0 (co0 p.1 p.2)).view.set ↔ (y 0).val / 128 = 2 * p.2.val + p.1.val := by
  rw [show (blkB0 (co0 p.1 p.2)).view.set = (Rect.unit (s := S4096x128) (k0_off2 (co0 p.1 p.2)) S128x128.size (k0_off2_inb (co0 p.1 p.2))).set from View.set_slice_whole _ _]
  exact mem_outBlk p.1 p.2 _ (off2_co0 p.1 p.2) _ y

/-! ## Whole arrays as the tiles' pieces -/

variable (d : Dev nD)

theorem tokA0_rows (f : Buf (Elt F) (tokA0 d)) :
    (tokA0 d ↦{fullShare} f : sProp 𝕄) = bigSep Finset.univ fun c : Fin 2 => bigSep Finset.univ fun i : Fin 16 => tokA0 d ↦[(rowA0 (co0 c i)).view.set]{fullShare} f := by
  have hp := rows_partition (fun p : Fin 2 × Fin 16 => (rowA0 (co0 p.1 p.2)).view.set) mem_rowA0
  rw [← bigSep_univ_prod (fun p : Fin 2 × Fin 16 => (tokA0 d ↦[(rowA0 (co0 p.1 p.2)).view.set]{fullShare} f : sProp 𝕄)),
    ← pointsTo_biUnion Finset.univ (ℓ := tokA0 d) (fun p : Fin 2 × Fin 16 => (rowA0 (co0 p.1 p.2)).view.set) hp.1, hp.2]
theorem tokB0_rows (f : Buf (Elt F) (tokB0 d)) :
    (tokB0 d ↦{fullShare} f : sProp 𝕄) = bigSep Finset.univ fun c : Fin 2 => bigSep Finset.univ fun i : Fin 16 => tokB0 d ↦[(rowB0 (co0 c i)).view.set]{fullShare} f := by
  have hp := rows_partition (fun p : Fin 2 × Fin 16 => (rowB0 (co0 p.1 p.2)).view.set) mem_rowB0
  rw [← bigSep_univ_prod (fun p : Fin 2 × Fin 16 => (tokB0 d ↦[(rowB0 (co0 p.1 p.2)).view.set]{fullShare} f : sProp 𝕄)),
    ← pointsTo_biUnion Finset.univ (ℓ := tokB0 d) (fun p : Fin 2 × Fin 16 => (rowB0 (co0 p.1 p.2)).view.set) hp.1, hp.2]
theorem outA0_blks (f : Buf (Elt F) (outA0 d)) :
    (outA0 d ↦{fullShare} f : sProp 𝕄) = bigSep Finset.univ fun c : Fin 2 => bigSep Finset.univ fun i : Fin 16 => outA0 d ↦[(blkA0 (co0 c i)).view.set]{fullShare} f := by
  have hp := blocks_partition (fun p : Fin 2 × Fin 16 => (blkA0 (co0 p.1 p.2)).view.set) mem_blkA0
  rw [← bigSep_univ_prod (fun p : Fin 2 × Fin 16 => (outA0 d ↦[(blkA0 (co0 p.1 p.2)).view.set]{fullShare} f : sProp 𝕄)),
    ← pointsTo_biUnion Finset.univ (ℓ := outA0 d) (fun p : Fin 2 × Fin 16 => (blkA0 (co0 p.1 p.2)).view.set) hp.1, hp.2]
theorem outB0_blks (f : Buf (Elt F) (outB0 d)) :
    (outB0 d ↦{fullShare} f : sProp 𝕄) = bigSep Finset.univ fun c : Fin 2 => bigSep Finset.univ fun i : Fin 16 => outB0 d ↦[(blkB0 (co0 c i)).view.set]{fullShare} f := by
  have hp := blocks_partition (fun p : Fin 2 × Fin 16 => (blkB0 (co0 p.1 p.2)).view.set) mem_blkB0
  rw [← bigSep_univ_prod (fun p : Fin 2 × Fin 16 => (outB0 d ↦[(blkB0 (co0 p.1 p.2)).view.set]{fullShare} f : sProp 𝕄)),
    ← pointsTo_biUnion Finset.univ (ℓ := outB0 d) (fun p : Fin 2 × Fin 16 => (blkB0 (co0 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split0 (fa : Buf (Elt F) (outA0 d)) (fb : Buf (Elt F) (outB0 d)) :
    iprop((tokA0 d ↦{fullShare} i0) ∗ (tokB0 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA0 d ↦{fullShare} fa) ∗ (outB0 d ↦{fullShare} fb))
      ⊢ (bigSep Finset.univ fun c : Fin 2 => bigSep Finset.univ fun i : Fin 16 => goRes0 (F := F) d (co0 c i) (shT c i) i0 i1 t0 t1 : sProp 𝕄) := by
  rw [tokA0_rows, tokB0_rows, outA0_blks, outB0_blks]
  unfold goRes0
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA0 d ↦[(blkA0 (co0 c i)).view.set]{fullShare} fa : sProp 𝕄))
      ⊢ bigSep Finset.univ fun c : Fin 2 => bigSep Finset.univ fun i : Fin 16 => (iprop(∃ f, outA0 d ↦[(blkA0 (co0 c i)).view.set]{fullShare} f) : sProp 𝕄) :=
    bigSep_mono fun c _ => bigSep_mono fun i _ => exists_intro (Φ := fun f => (outA0 d ↦[(blkA0 (co0 c i)).view.set]{fullShare} f : sProp 𝕄)) fa
  have hob : (bigSep Finset.univ fun c : Fin 2 => bigSep Finset.univ fun i : Fin 16 => (outB0 d ↦[(blkB0 (co0 c i)).view.set]{fullShare} fb : sProp 𝕄))
      ⊢ bigSep Finset.univ fun c : Fin 2 => bigSep Finset.univ fun i : Fin 16 => (iprop(∃ f, outB0 d ↦[(blkB0 (co0 c i)).view.set]{fullShare} f) : sProp 𝕄) :=
    bigSep_mono fun c _ => bigSep_mono fun i _ => exists_intro (Φ := fun f => (outB0 d ↦[(blkB0 (co0 c i)).view.set]{fullShare} f : sProp 𝕄)) fb
  isplitl [Hoa]
  · iapply hoa; iexact Hoa
  · iapply hob; iexact Hob

/-- What the tiles hand back is the call's arrays again, the results at the gathered arrays. -/
theorem join0 :
    (bigSep Finset.univ fun c : Fin 2 => bigSep Finset.univ fun i : Fin 16 => tdRes0 (F := F) d (co0 c i) (shT c i) i0 i1 t0 t1 : sProp 𝕄)
      ⊢ iprop((tokA0 d ↦{fullShare} i0) ∗ (tokB0 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA0 d ↦{fullShare} gathered i0 t0) ∗ (outB0 d ↦{fullShare} gathered i1 t1)) := by
  rw [tokA0_rows, tokB0_rows, outA0_blks, outB0_blks]
  unfold tdRes0
  simp only [bigSep_sep']
  exact Entails.refl _

end Cert.Proof.KB

end
-- ==== Proof.Bits.Run0.lean ====
/-
  Call 0 on the TensorCore: the call's arrays go out to the two SparseCores' tiles and come back, the two results at
  the gathered arrays.
-/
import proofs.«204601_g21792664060648_cont_8to1_111_20_alg».proof.Proof.Bits.Split0

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

/-- The tables as the thirty-two tiles' read shares. -/
abbrev tabShares (ℓ : Loc nD τ sig) (t : Buf (Elt F) ℓ) : sProp 𝕄 :=
  bigSep Finset.univ fun c : Fin 2 => bigSep Finset.univ fun i : Fin 16 => ℓ ↦{shT c i} t

theorem st0_eq (d : Dev nD) :
    (bigSep Finset.univ fun c : Fin ((K (F := F)).nCore 0) => (P m).st 0 d c)
      = bigSep Finset.univ fun c : Fin 2 => bigSep Finset.univ fun i : Fin 16 => goRes0 (F := F) d (co0 c i) (shT c i) (tokA m d 0) (tokB m d 0) (tblA m d) (tblB m d) := rfl
theorem dn0_eq (d : Dev nD) :
    (bigSep Finset.univ fun c : Fin ((K (F := F)).nCore 0) => (P m).dn 0 d c)
      = bigSep Finset.univ fun c : Fin 2 => bigSep Finset.univ fun i : Fin 16 => tdRes0 (F := F) d (co0 c i) (shT c i) (tokA m d 0) (tokB m d 0) (tblA m d) (tblB m d) := rfl

theorem run0 (κ : GSem nD τ sig → ℕ) (d : Dev nD) (fa : Buf (Elt F) (outA0 d)) (fb : Buf (Elt F) (outB0 d)) {Φ : PUnit → sProp 𝕄} :
    iprop((K (F := F)).ctx EH (P m) κ ∗ (K (F := F)).tcSt EH d 0
        ∗ (tokA0 d ↦{fullShare} tokA m d 0) ∗ (tokB0 d ↦{fullShare} tokB m d 0)
        ∗ tabShares (tabA d) (tblA m d) ∗ tabShares (tabB d) (tblB m d)
        ∗ (outA0 d ↦{fullShare} fa) ∗ (outB0 d ↦{fullShare} fb)
        ∗ (((K (F := F)).tcSt EH d 1
            ∗ (tokA0 d ↦{fullShare} tokA m d 0) ∗ (tokB0 d ↦{fullShare} tokB m d 0)
            ∗ tabShares (tabA d) (tblA m d) ∗ tabShares (tabB d) (tblB m d)
            ∗ (outA0 d ↦{fullShare} gathered (tokA m d 0) (tblA m d)) ∗ (outB0 d ↦{fullShare} gathered (tokB m d 0) (tblB m d))) -∗ Φ ⟨⟩))
      ⊢ wp frame (wpE ((K (F := F)).defs (D (F := F))) 𝒱 (SparseCore.T d) none) Set.univ ((K (F := F)).run d 0) Φ := by
  iintro ⟨#Hctx, Hst, Ha, Hb, Hta, Htb, Hoa, Hob, Hk⟩
  iapply ((K (F := F)).wp_run (D (F := F)) 𝒱 (EH := EH) (P := P m) κ d 0)
  isplitr; · iexact Hctx
  isplitl [Hst]; · iexact Hst
  isplitl [Ha Hb Hta Htb Hoa Hob]
  · rw [st0_eq]
    iapply (split0 (F := F) d (tokA m d 0) (tokB m d 0) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn0_eq m d)) $$ Hdn
  iapply (join0 (F := F) d (tokA m d 0) (tokB m d 0) (tblA m d) (tblB m d)); iexact Hdn'

end Cert.Proof.KB

end
-- ==== Proof.Bits.Run1.lean ====
/-
  Call 1 on the TensorCore: the call's arrays go out to the two SparseCores' tiles and come back, the two results at
  the gathered arrays.
-/
import proofs.«204601_g21792664060648_cont_8to1_111_20_alg».proof.Proof.Bits.Split1
import proofs.«204601_g21792664060648_cont_8to1_111_20_alg».proof.Proof.Bits.Run0

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st1_eq (d : Dev nD) :
    (bigSep Finset.univ fun c : Fin ((K (F := F)).nCore 1) => (P m).st 1 d c)
      = bigSep Finset.univ fun c : Fin 2 => bigSep Finset.univ fun i : Fin 16 => goRes1 (F := F) d (co1 c i) (shT c i) (tokA m d 1) (tokB m d 1) (tblA m d) (tblB m d) := rfl
theorem dn1_eq (d : Dev nD) :
    (bigSep Finset.univ fun c : Fin ((K (F := F)).nCore 1) => (P m).dn 1 d c)
      = bigSep Finset.univ fun c : Fin 2 => bigSep Finset.univ fun i : Fin 16 => tdRes1 (F := F) d (co1 c i) (shT c i) (tokA m d 1) (tokB m d 1) (tblA m d) (tblB m d) := rfl

theorem run1 (κ : GSem nD τ sig → ℕ) (d : Dev nD) (fa : Buf (Elt F) (outA1 d)) (fb : Buf (Elt F) (outB1 d)) {Φ : PUnit → sProp 𝕄} :
    iprop((K (F := F)).ctx EH (P m) κ ∗ (K (F := F)).tcSt EH d 1
        ∗ (tokA1 d ↦{fullShare} tokA m d 1) ∗ (tokB1 d ↦{fullShare} tokB m d 1)
        ∗ tabShares (tabA d) (tblA m d) ∗ tabShares (tabB d) (tblB m d)
        ∗ (outA1 d ↦{fullShare} fa) ∗ (outB1 d ↦{fullShare} fb)
        ∗ (((K (F := F)).tcSt EH d 2
            ∗ (tokA1 d ↦{fullShare} tokA m d 1) ∗ (tokB1 d ↦{fullShare} tokB m d 1)
            ∗ tabShares (tabA d) (tblA m d) ∗ tabShares (tabB d) (tblB m d)
            ∗ (outA1 d ↦{fullShare} gathered (tokA m d 1) (tblA m d)) ∗ (outB1 d ↦{fullShare} gathered (tokB m d 1) (tblB m d))) -∗ Φ ⟨⟩))
      ⊢ wp frame (wpE ((K (F := F)).defs (D (F := F))) 𝒱 (SparseCore.T d) none) Set.univ ((K (F := F)).run d 1) Φ := by
  iintro ⟨#Hctx, Hst, Ha, Hb, Hta, Htb, Hoa, Hob, Hk⟩
  iapply ((K (F := F)).wp_run (D (F := F)) 𝒱 (EH := EH) (P := P m) κ d 1)
  isplitr; · iexact Hctx
  isplitl [Hst]; · iexact Hst
  isplitl [Ha Hb Hta Htb Hoa Hob]
  · rw [st1_eq]
    iapply (split1 (F := F) d (tokA m d 1) (tokB m d 1) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn1_eq m d)) $$ Hdn
  iapply (join1 (F := F) d (tokA m d 1) (tokB m d 1) (tblA m d) (tblB m d)); iexact Hdn'

end Cert.Proof.KB

end
-- ==== Proof.Bits.Split2.lean ====
/-
  Call 2: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Bits.Pay
import proofs.«204601_g21792664060648_cont_8to1_111_20_alg».proof.Proof.Bits.TileSets

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co2 (c : Fin 2) (i : Fin 16) : k2_off1 (co2 c i) = ![2 * i.val + c.val, 0] := k2_off1_eq (co2 c i)
theorem off2_co2 (c : Fin 2) (i : Fin 16) : k2_off2 (co2 c i) = ![256 * i.val + 128 * c.val, 0] := k2_off2_eq (co2 c i)

theorem mem_rowA2 (p : Fin 2 × Fin 16) (y : S32x128.Idx) : y ∈ (rowA2 (co2 p.1 p.2)).view.set ↔ (y 0).val = 2 * p.2.val + p.1.val := by
  rw [show (rowA2 (co2 p.1 p.2)).view.set = (Rect.unit (s := S32x128) (k2_off1 (co2 p.1 p.2)) S1x128.size (k2_off1_inb (co2 p.1 p.2))).set from View.set_slice_whole _ _]
  exact mem_tokRow p.1 p.2 _ (off1_co2 p.1 p.2) _ y
theorem mem_rowB2 (p : Fin 2 × Fin 16) (y : S32x128.Idx) : y ∈ (rowB2 (co2 p.1 p.2)).view.set ↔ (y 0).val = 2 * p.2.val + p.1.val := by
  rw [show (rowB2 (co2 p.1 p.2)).view.set = (Rect.unit (s := S32x128) (k2_off1 (co2 p.1 p.2)) S1x128.size (k2_off1_inb (co2 p.1 p.2))).set from View.set_slice_whole _ _]
  exact mem_tokRow p.1 p.2 _ (off1_co2 p.1 p.2) _ y
theorem mem_blkA2 (p : Fin 2 × Fin 16) (y : S4096x128.Idx) : y ∈ (blkA2 (co2 p.1 p.2)).view.set ↔ (y 0).val / 128 = 2 * p.2.val + p.1.val := by
  rw [show (blkA2 (co2 p.1 p.2)).view.set = (Rect.unit (s := S4096x128) (k2_off2 (co2 p.1 p.2)) S128x128.size (k2_off2_inb (co2 p.1 p.2))).set from View.set_slice_whole _ _]
  exact mem_outBlk p.1 p.2 _ (off2_co2 p.1 p.2) _ y
theorem mem_blkB2 (p : Fin 2 × Fin 16) (y : S4096x128.Idx) : y ∈ (blkB2 (co2 p.1 p.2)).view.set ↔ (y 0).val / 128 = 2 * p.2.val + p.1.val := by
  rw [show (blkB2 (co2 p.1 p.2)).view.set = (Rect.unit (s := S4096x128) (k2_off2 (co2 p.1 p.2)) S128x128.size (k2_off2_inb (co2 p.1 p.2))).set from View.set_slice_whole _ _]
  exact mem_outBlk p.1 p.2 _ (off2_co2 p.1 p.2) _ y

/-! ## Whole arrays as the tiles' pieces -/

variable (d : Dev nD)

theorem tokA2_rows (f : Buf (Elt F) (tokA2 d)) :
    (tokA2 d ↦{fullShare} f : sProp 𝕄) = bigSep Finset.univ fun c : Fin 2 => bigSep Finset.univ fun i : Fin 16 => tokA2 d ↦[(rowA2 (co2 c i)).view.set]{fullShare} f := by
  have hp := rows_partition (fun p : Fin 2 × Fin 16 => (rowA2 (co2 p.1 p.2)).view.set) mem_rowA2
  rw [← bigSep_univ_prod (fun p : Fin 2 × Fin 16 => (tokA2 d ↦[(rowA2 (co2 p.1 p.2)).view.set]{fullShare} f : sProp 𝕄)),
    ← pointsTo_biUnion Finset.univ (ℓ := tokA2 d) (fun p : Fin 2 × Fin 16 => (rowA2 (co2 p.1 p.2)).view.set) hp.1, hp.2]
theorem tokB2_rows (f : Buf (Elt F) (tokB2 d)) :
    (tokB2 d ↦{fullShare} f : sProp 𝕄) = bigSep Finset.univ fun c : Fin 2 => bigSep Finset.univ fun i : Fin 16 => tokB2 d ↦[(rowB2 (co2 c i)).view.set]{fullShare} f := by
  have hp := rows_partition (fun p : Fin 2 × Fin 16 => (rowB2 (co2 p.1 p.2)).view.set) mem_rowB2
  rw [← bigSep_univ_prod (fun p : Fin 2 × Fin 16 => (tokB2 d ↦[(rowB2 (co2 p.1 p.2)).view.set]{fullShare} f : sProp 𝕄)),
    ← pointsTo_biUnion Finset.univ (ℓ := tokB2 d) (fun p : Fin 2 × Fin 16 => (rowB2 (co2 p.1 p.2)).view.set) hp.1, hp.2]
theorem outA2_blks (f : Buf (Elt F) (outA2 d)) :
    (outA2 d ↦{fullShare} f : sProp 𝕄) = bigSep Finset.univ fun c : Fin 2 => bigSep Finset.univ fun i : Fin 16 => outA2 d ↦[(blkA2 (co2 c i)).view.set]{fullShare} f := by
  have hp := blocks_partition (fun p : Fin 2 × Fin 16 => (blkA2 (co2 p.1 p.2)).view.set) mem_blkA2
  rw [← bigSep_univ_prod (fun p : Fin 2 × Fin 16 => (outA2 d ↦[(blkA2 (co2 p.1 p.2)).view.set]{fullShare} f : sProp 𝕄)),
    ← pointsTo_biUnion Finset.univ (ℓ := outA2 d) (fun p : Fin 2 × Fin 16 => (blkA2 (co2 p.1 p.2)).view.set) hp.1, hp.2]
theorem outB2_blks (f : Buf (Elt F) (outB2 d)) :
    (outB2 d ↦{fullShare} f : sProp 𝕄) = bigSep Finset.univ fun c : Fin 2 => bigSep Finset.univ fun i : Fin 16 => outB2 d ↦[(blkB2 (co2 c i)).view.set]{fullShare} f := by
  have hp := blocks_partition (fun p : Fin 2 × Fin 16 => (blkB2 (co2 p.1 p.2)).view.set) mem_blkB2
  rw [← bigSep_univ_prod (fun p : Fin 2 × Fin 16 => (outB2 d ↦[(blkB2 (co2 p.1 p.2)).view.set]{fullShare} f : sProp 𝕄)),
    ← pointsTo_biUnion Finset.univ (ℓ := outB2 d) (fun p : Fin 2 × Fin 16 => (blkB2 (co2 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split2 (fa : Buf (Elt F) (outA2 d)) (fb : Buf (Elt F) (outB2 d)) :
    iprop((tokA2 d ↦{fullShare} i0) ∗ (tokB2 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA2 d ↦{fullShare} fa) ∗ (outB2 d ↦{fullShare} fb))
      ⊢ (bigSep Finset.univ fun c : Fin 2 => bigSep Finset.univ fun i : Fin 16 => goRes2 (F := F) d (co2 c i) (shT c i) i0 i1 t0 t1 : sProp 𝕄) := by
  rw [tokA2_rows, tokB2_rows, outA2_blks, outB2_blks]
  unfold goRes2
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA2 d ↦[(blkA2 (co2 c i)).view.set]{fullShare} fa : sProp 𝕄))
      ⊢ bigSep Finset.univ fun c : Fin 2 => bigSep Finset.univ fun i : Fin 16 => (iprop(∃ f, outA2 d ↦[(blkA2 (co2 c i)).view.set]{fullShare} f) : sProp 𝕄) :=
    bigSep_mono fun c _ => bigSep_mono fun i _ => exists_intro (Φ := fun f => (outA2 d ↦[(blkA2 (co2 c i)).view.set]{fullShare} f : sProp 𝕄)) fa
  have hob : (bigSep Finset.univ fun c : Fin 2 => bigSep Finset.univ fun i : Fin 16 => (outB2 d ↦[(blkB2 (co2 c i)).view.set]{fullShare} fb : sProp 𝕄))
      ⊢ bigSep Finset.univ fun c : Fin 2 => bigSep Finset.univ fun i : Fin 16 => (iprop(∃ f, outB2 d ↦[(blkB2 (co2 c i)).view.set]{fullShare} f) : sProp 𝕄) :=
    bigSep_mono fun c _ => bigSep_mono fun i _ => exists_intro (Φ := fun f => (outB2 d ↦[(blkB2 (co2 c i)).view.set]{fullShare} f : sProp 𝕄)) fb
  isplitl [Hoa]
  · iapply hoa; iexact Hoa
  · iapply hob; iexact Hob

/-- What the tiles hand back is the call's arrays again, the results at the gathered arrays. -/
theorem join2 :
    (bigSep Finset.univ fun c : Fin 2 => bigSep Finset.univ fun i : Fin 16 => tdRes2 (F := F) d (co2 c i) (shT c i) i0 i1 t0 t1 : sProp 𝕄)
      ⊢ iprop((tokA2 d ↦{fullShare} i0) ∗ (tokB2 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA2 d ↦{fullShare} gathered i0 t0) ∗ (outB2 d ↦{fullShare} gathered i1 t1)) := by
  rw [tokA2_rows, tokB2_rows, outA2_blks, outB2_blks]
  unfold tdRes2
  simp only [bigSep_sep']
  exact Entails.refl _

end Cert.Proof.KB

end
-- ==== Proof.Bits.Run2.lean ====
/-
  Call 2 on the TensorCore: the call's arrays go out to the two SparseCores' tiles and come back, the two results at
  the gathered arrays.
-/
import proofs.«204601_g21792664060648_cont_8to1_111_20_alg».proof.Proof.Bits.Split2
import proofs.«204601_g21792664060648_cont_8to1_111_20_alg».proof.Proof.Bits.Run0

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st2_eq (d : Dev nD) :
    (bigSep Finset.univ fun c : Fin ((K (F := F)).nCore 2) => (P m).st 2 d c)
      = bigSep Finset.univ fun c : Fin 2 => bigSep Finset.univ fun i : Fin 16 => goRes2 (F := F) d (co2 c i) (shT c i) (tokA m d 2) (tokB m d 2) (tblA m d) (tblB m d) := rfl
theorem dn2_eq (d : Dev nD) :
    (bigSep Finset.univ fun c : Fin ((K (F := F)).nCore 2) => (P m).dn 2 d c)
      = bigSep Finset.univ fun c : Fin 2 => bigSep Finset.univ fun i : Fin 16 => tdRes2 (F := F) d (co2 c i) (shT c i) (tokA m d 2) (tokB m d 2) (tblA m d) (tblB m d) := rfl

theorem run2 (κ : GSem nD τ sig → ℕ) (d : Dev nD) (fa : Buf (Elt F) (outA2 d)) (fb : Buf (Elt F) (outB2 d)) {Φ : PUnit → sProp 𝕄} :
    iprop((K (F := F)).ctx EH (P m) κ ∗ (K (F := F)).tcSt EH d 2
        ∗ (tokA2 d ↦{fullShare} tokA m d 2) ∗ (tokB2 d ↦{fullShare} tokB m d 2)
        ∗ tabShares (tabA d) (tblA m d) ∗ tabShares (tabB d) (tblB m d)
        ∗ (outA2 d ↦{fullShare} fa) ∗ (outB2 d ↦{fullShare} fb)
        ∗ (((K (F := F)).tcSt EH d 3
            ∗ (tokA2 d ↦{fullShare} tokA m d 2) ∗ (tokB2 d ↦{fullShare} tokB m d 2)
            ∗ tabShares (tabA d) (tblA m d) ∗ tabShares (tabB d) (tblB m d)
            ∗ (outA2 d ↦{fullShare} gathered (tokA m d 2) (tblA m d)) ∗ (outB2 d ↦{fullShare} gathered (tokB m d 2) (tblB m d))) -∗ Φ ⟨⟩))
      ⊢ wp frame (wpE ((K (F := F)).defs (D (F := F))) 𝒱 (SparseCore.T d) none) Set.univ ((K (F := F)).run d 2) Φ := by
  iintro ⟨#Hctx, Hst, Ha, Hb, Hta, Htb, Hoa, Hob, Hk⟩
  iapply ((K (F := F)).wp_run (D (F := F)) 𝒱 (EH := EH) (P := P m) κ d 2)
  isplitr; · iexact Hctx
  isplitl [Hst]; · iexact Hst
  isplitl [Ha Hb Hta Htb Hoa Hob]
  · rw [st2_eq]
    iapply (split2 (F := F) d (tokA m d 2) (tokB m d 2) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn2_eq m d)) $$ Hdn
  iapply (join2 (F := F) d (tokA m d 2) (tokB m d 2) (tblA m d) (tblB m d)); iexact Hdn'

end Cert.Proof.KB

end
-- ==== Proof.Bits.Split3.lean ====
/-
  Call 3: the call's arrays handed to the thirty-two tiles and taken back.

  Each token array is the disjoint union of the tiles' rows and each result array of the tiles' blocks, so a points-to of
  a whole array is the separating conjunction of the tiles' pieces; and since every tile leaves its block at the ONE
  gathered array, the pieces taken back are the whole result array at that array.
-/
import proofs.«204601_g21792664060648_cont_8to1_111_20_alg».proof.Proof.Bits.Pay
import proofs.«204601_g21792664060648_cont_8to1_111_20_alg».proof.Proof.Bits.TileSets

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-! ## The tiles' sets -/

theorem off1_co3 (c : Fin 2) (i : Fin 16) : k3_off1 (co3 c i) = ![2 * i.val + c.val, 0] := k3_off1_eq (co3 c i)
theorem off2_co3 (c : Fin 2) (i : Fin 16) : k3_off2 (co3 c i) = ![256 * i.val + 128 * c.val, 0] := k3_off2_eq (co3 c i)

theorem mem_rowA3 (p : Fin 2 × Fin 16) (y : S32x128.Idx) : y ∈ (rowA3 (co3 p.1 p.2)).view.set ↔ (y 0).val = 2 * p.2.val + p.1.val := by
  rw [show (rowA3 (co3 p.1 p.2)).view.set = (Rect.unit (s := S32x128) (k3_off1 (co3 p.1 p.2)) S1x128.size (k3_off1_inb (co3 p.1 p.2))).set from View.set_slice_whole _ _]
  exact mem_tokRow p.1 p.2 _ (off1_co3 p.1 p.2) _ y
theorem mem_rowB3 (p : Fin 2 × Fin 16) (y : S32x128.Idx) : y ∈ (rowB3 (co3 p.1 p.2)).view.set ↔ (y 0).val = 2 * p.2.val + p.1.val := by
  rw [show (rowB3 (co3 p.1 p.2)).view.set = (Rect.unit (s := S32x128) (k3_off1 (co3 p.1 p.2)) S1x128.size (k3_off1_inb (co3 p.1 p.2))).set from View.set_slice_whole _ _]
  exact mem_tokRow p.1 p.2 _ (off1_co3 p.1 p.2) _ y
theorem mem_blkA3 (p : Fin 2 × Fin 16) (y : S4096x128.Idx) : y ∈ (blkA3 (co3 p.1 p.2)).view.set ↔ (y 0).val / 128 = 2 * p.2.val + p.1.val := by
  rw [show (blkA3 (co3 p.1 p.2)).view.set = (Rect.unit (s := S4096x128) (k3_off2 (co3 p.1 p.2)) S128x128.size (k3_off2_inb (co3 p.1 p.2))).set from View.set_slice_whole _ _]
  exact mem_outBlk p.1 p.2 _ (off2_co3 p.1 p.2) _ y
theorem mem_blkB3 (p : Fin 2 × Fin 16) (y : S4096x128.Idx) : y ∈ (blkB3 (co3 p.1 p.2)).view.set ↔ (y 0).val / 128 = 2 * p.2.val + p.1.val := by
  rw [show (blkB3 (co3 p.1 p.2)).view.set = (Rect.unit (s := S4096x128) (k3_off2 (co3 p.1 p.2)) S128x128.size (k3_off2_inb (co3 p.1 p.2))).set from View.set_slice_whole _ _]
  exact mem_outBlk p.1 p.2 _ (off2_co3 p.1 p.2) _ y

/-! ## Whole arrays as the tiles' pieces -/

variable (d : Dev nD)

theorem tokA3_rows (f : Buf (Elt F) (tokA3 d)) :
    (tokA3 d ↦{fullShare} f : sProp 𝕄) = bigSep Finset.univ fun c : Fin 2 => bigSep Finset.univ fun i : Fin 16 => tokA3 d ↦[(rowA3 (co3 c i)).view.set]{fullShare} f := by
  have hp := rows_partition (fun p : Fin 2 × Fin 16 => (rowA3 (co3 p.1 p.2)).view.set) mem_rowA3
  rw [← bigSep_univ_prod (fun p : Fin 2 × Fin 16 => (tokA3 d ↦[(rowA3 (co3 p.1 p.2)).view.set]{fullShare} f : sProp 𝕄)),
    ← pointsTo_biUnion Finset.univ (ℓ := tokA3 d) (fun p : Fin 2 × Fin 16 => (rowA3 (co3 p.1 p.2)).view.set) hp.1, hp.2]
theorem tokB3_rows (f : Buf (Elt F) (tokB3 d)) :
    (tokB3 d ↦{fullShare} f : sProp 𝕄) = bigSep Finset.univ fun c : Fin 2 => bigSep Finset.univ fun i : Fin 16 => tokB3 d ↦[(rowB3 (co3 c i)).view.set]{fullShare} f := by
  have hp := rows_partition (fun p : Fin 2 × Fin 16 => (rowB3 (co3 p.1 p.2)).view.set) mem_rowB3
  rw [← bigSep_univ_prod (fun p : Fin 2 × Fin 16 => (tokB3 d ↦[(rowB3 (co3 p.1 p.2)).view.set]{fullShare} f : sProp 𝕄)),
    ← pointsTo_biUnion Finset.univ (ℓ := tokB3 d) (fun p : Fin 2 × Fin 16 => (rowB3 (co3 p.1 p.2)).view.set) hp.1, hp.2]
theorem outA3_blks (f : Buf (Elt F) (outA3 d)) :
    (outA3 d ↦{fullShare} f : sProp 𝕄) = bigSep Finset.univ fun c : Fin 2 => bigSep Finset.univ fun i : Fin 16 => outA3 d ↦[(blkA3 (co3 c i)).view.set]{fullShare} f := by
  have hp := blocks_partition (fun p : Fin 2 × Fin 16 => (blkA3 (co3 p.1 p.2)).view.set) mem_blkA3
  rw [← bigSep_univ_prod (fun p : Fin 2 × Fin 16 => (outA3 d ↦[(blkA3 (co3 p.1 p.2)).view.set]{fullShare} f : sProp 𝕄)),
    ← pointsTo_biUnion Finset.univ (ℓ := outA3 d) (fun p : Fin 2 × Fin 16 => (blkA3 (co3 p.1 p.2)).view.set) hp.1, hp.2]
theorem outB3_blks (f : Buf (Elt F) (outB3 d)) :
    (outB3 d ↦{fullShare} f : sProp 𝕄) = bigSep Finset.univ fun c : Fin 2 => bigSep Finset.univ fun i : Fin 16 => outB3 d ↦[(blkB3 (co3 c i)).view.set]{fullShare} f := by
  have hp := blocks_partition (fun p : Fin 2 × Fin 16 => (blkB3 (co3 p.1 p.2)).view.set) mem_blkB3
  rw [← bigSep_univ_prod (fun p : Fin 2 × Fin 16 => (outB3 d ↦[(blkB3 (co3 p.1 p.2)).view.set]{fullShare} f : sProp 𝕄)),
    ← pointsTo_biUnion Finset.univ (ℓ := outB3 d) (fun p : Fin 2 × Fin 16 => (blkB3 (co3 p.1 p.2)).view.set) hp.1, hp.2]

/-! ## Handing over and taking back -/

variable (i0 i1 : S32x128.Idx → BitVec 32) (t0 t1 : S100000x128.Idx → Elt F .f32)

/-- The call's arrays, the tables as the tiles' read shares, are the tiles' resources. -/
theorem split3 (fa : Buf (Elt F) (outA3 d)) (fb : Buf (Elt F) (outB3 d)) :
    iprop((tokA3 d ↦{fullShare} i0) ∗ (tokB3 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA3 d ↦{fullShare} fa) ∗ (outB3 d ↦{fullShare} fb))
      ⊢ (bigSep Finset.univ fun c : Fin 2 => bigSep Finset.univ fun i : Fin 16 => goRes3 (F := F) d (co3 c i) (shT c i) i0 i1 t0 t1 : sProp 𝕄) := by
  rw [tokA3_rows, tokB3_rows, outA3_blks, outB3_blks]
  unfold goRes3
  simp only [bigSep_sep']
  iintro ⟨Ha, Hb, Hta, Htb, Hoa, Hob⟩
  isplitl [Ha]; · iexact Ha
  isplitl [Hb]; · iexact Hb
  isplitl [Hta]; · iexact Hta
  isplitl [Htb]; · iexact Htb
  have hoa : (bigSep Finset.univ fun c : Fin 2 => bigSep Finset.univ fun i : Fin 16 => (outA3 d ↦[(blkA3 (co3 c i)).view.set]{fullShare} fa : sProp 𝕄))
      ⊢ bigSep Finset.univ fun c : Fin 2 => bigSep Finset.univ fun i : Fin 16 => (iprop(∃ f, outA3 d ↦[(blkA3 (co3 c i)).view.set]{fullShare} f) : sProp 𝕄) :=
    bigSep_mono fun c _ => bigSep_mono fun i _ => exists_intro (Φ := fun f => (outA3 d ↦[(blkA3 (co3 c i)).view.set]{fullShare} f : sProp 𝕄)) fa
  have hob : (bigSep Finset.univ fun c : Fin 2 => bigSep Finset.univ fun i : Fin 16 => (outB3 d ↦[(blkB3 (co3 c i)).view.set]{fullShare} fb : sProp 𝕄))
      ⊢ bigSep Finset.univ fun c : Fin 2 => bigSep Finset.univ fun i : Fin 16 => (iprop(∃ f, outB3 d ↦[(blkB3 (co3 c i)).view.set]{fullShare} f) : sProp 𝕄) :=
    bigSep_mono fun c _ => bigSep_mono fun i _ => exists_intro (Φ := fun f => (outB3 d ↦[(blkB3 (co3 c i)).view.set]{fullShare} f : sProp 𝕄)) fb
  isplitl [Hoa]
  · iapply hoa; iexact Hoa
  · iapply hob; iexact Hob

/-- What the tiles hand back is the call's arrays again, the results at the gathered arrays. -/
theorem join3 :
    (bigSep Finset.univ fun c : Fin 2 => bigSep Finset.univ fun i : Fin 16 => tdRes3 (F := F) d (co3 c i) (shT c i) i0 i1 t0 t1 : sProp 𝕄)
      ⊢ iprop((tokA3 d ↦{fullShare} i0) ∗ (tokB3 d ↦{fullShare} i1)
        ∗ (bigSep Finset.univ fun c : Fin 2 => bigSep Finset.univ fun i : Fin 16 => tabA d ↦{shT c i} (t0 : Buf (Elt F) (tabA d)))
        ∗ (bigSep Finset.univ fun c : Fin 2 => bigSep Finset.univ fun i : Fin 16 => tabB d ↦{shT c i} (t1 : Buf (Elt F) (tabB d)))
        ∗ (outA3 d ↦{fullShare} gathered i0 t0) ∗ (outB3 d ↦{fullShare} gathered i1 t1)) := by
  rw [tokA3_rows, tokB3_rows, outA3_blks, outB3_blks]
  unfold tdRes3
  simp only [bigSep_sep']
  exact Entails.refl _

end Cert.Proof.KB

end
-- ==== Proof.Bits.Run3.lean ====
/-
  Call 3 on the TensorCore: the call's arrays go out to the two SparseCores' tiles and come back, the two results at
  the gathered arrays.
-/
import proofs.«204601_g21792664060648_cont_8to1_111_20_alg».proof.Proof.Bits.Split3
import proofs.«204601_g21792664060648_cont_8to1_111_20_alg».proof.Proof.Bits.Run0

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) [FloatOps F]

theorem st3_eq (d : Dev nD) :
    (bigSep Finset.univ fun c : Fin ((K (F := F)).nCore 3) => (P m).st 3 d c)
      = bigSep Finset.univ fun c : Fin 2 => bigSep Finset.univ fun i : Fin 16 => goRes3 (F := F) d (co3 c i) (shT c i) (tokA m d 3) (tokB m d 3) (tblA m d) (tblB m d) := rfl
theorem dn3_eq (d : Dev nD) :
    (bigSep Finset.univ fun c : Fin ((K (F := F)).nCore 3) => (P m).dn 3 d c)
      = bigSep Finset.univ fun c : Fin 2 => bigSep Finset.univ fun i : Fin 16 => tdRes3 (F := F) d (co3 c i) (shT c i) (tokA m d 3) (tokB m d 3) (tblA m d) (tblB m d) := rfl

theorem run3 (κ : GSem nD τ sig → ℕ) (d : Dev nD) (fa : Buf (Elt F) (outA3 d)) (fb : Buf (Elt F) (outB3 d)) {Φ : PUnit → sProp 𝕄} :
    iprop((K (F := F)).ctx EH (P m) κ ∗ (K (F := F)).tcSt EH d 3
        ∗ (tokA3 d ↦{fullShare} tokA m d 3) ∗ (tokB3 d ↦{fullShare} tokB m d 3)
        ∗ tabShares (tabA d) (tblA m d) ∗ tabShares (tabB d) (tblB m d)
        ∗ (outA3 d ↦{fullShare} fa) ∗ (outB3 d ↦{fullShare} fb)
        ∗ (((K (F := F)).tcSt EH d 4
            ∗ (tokA3 d ↦{fullShare} tokA m d 3) ∗ (tokB3 d ↦{fullShare} tokB m d 3)
            ∗ tabShares (tabA d) (tblA m d) ∗ tabShares (tabB d) (tblB m d)
            ∗ (outA3 d ↦{fullShare} gathered (tokA m d 3) (tblA m d)) ∗ (outB3 d ↦{fullShare} gathered (tokB m d 3) (tblB m d))) -∗ Φ ⟨⟩))
      ⊢ wp frame (wpE ((K (F := F)).defs (D (F := F))) 𝒱 (SparseCore.T d) none) Set.univ ((K (F := F)).run d 3) Φ := by
  iintro ⟨#Hctx, Hst, Ha, Hb, Hta, Htb, Hoa, Hob, Hk⟩
  iapply ((K (F := F)).wp_run (D (F := F)) 𝒱 (EH := EH) (P := P m) κ d 3)
  isplitr; · iexact Hctx
  isplitl [Hst]; · iexact Hst
  isplitl [Ha Hb Hta Htb Hoa Hob]
  · rw [st3_eq]
    iapply (split3 (F := F) d (tokA m d 3) (tokB m d 3) (tblA m d) (tblB m d) fa fb)
    isplitl [Ha]; · iexact Ha
    isplitl [Hb]; · iexact Hb
    isplitl [Hta]; · iexact Hta
    isplitl [Htb]; · iexact Htb
    isplitl [Hoa] <;> iassumption
  iintro ⟨Hst, Hdn⟩
  iapply Hk
  isplitl [Hst]; · iexact Hst
  ihave Hdn' := (Entails.of_eq (dn3_eq m d)) $$ Hdn
  iapply (join3 (F := F) d (tokA m d 3) (tokB m d 3) (tblA m d) (tblB m d)); iexact Hdn'

end Cert.Proof.KB

end
-- ==== Proof.Bits.TabShares.lean ====
/-
  A table's full share as the thirty-two tiles' read shares and a remainder.

  All thirty-two tiles read both tables whole at the same time, so each holds a read share of its own: the full share
  is split in two read tokens, one per SparseCore, and each of those in sixteen, one per tile; what is left over at each
  level stays with the TensorCore for the duration of the four calls and is joined back afterwards.
-/
import proofs.«204601_g21792664060648_cont_8to1_111_20_alg».proof.Proof.Bits.Run0

noncomputable section

namespace Cert.Proof.KB

open Cert.Kernel Cert.Kernel.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

/-- What stays with the TensorCore: the share left after the two SparseCores' tokens, and per SparseCore the share left
    after its sixteen tiles'. -/
def tabRem (ℓ : Loc nD τ sig) (t : Buf (Elt F) ℓ) : sProp 𝕄 :=
  iprop((ℓ ↦{Transfers.shareDrop fullShare 2} t)
    ∗ bigSep Finset.univ fun c : Fin 2 => ℓ ↦{Transfers.shareDrop (Transfers.shareTok fullShare 2 c) 16} t)

theorem tab_split (ℓ : Loc nD τ sig) (t : Buf (Elt F) ℓ) : (ℓ ↦{fullShare} t : sProp 𝕄) ⊢ iprop(tabRem ℓ t ∗ tabShares ℓ t) := by
  have e1 : (bigSep Finset.univ fun c : Fin 2 => (ℓ ↦{Transfers.shareTok fullShare 2 c} t : sProp 𝕄))
      ⊢ iprop((bigSep Finset.univ fun c : Fin 2 => ℓ ↦{Transfers.shareDrop (Transfers.shareTok fullShare 2 c) 16} t)
          ∗ bigSep Finset.univ fun c : Fin 2 => bigSep Finset.univ fun i : Fin 16 => ℓ ↦{shT c i} t) := by
    rw [← bigSep_sep']
    exact bigSep_mono fun c _ => (Transfers.pointsTo_toks (Transfers.shareTok fullShare 2 c) 16).1
  refine (Transfers.pointsTo_toks fullShare 2).1.trans ?_
  unfold tabRem
  iintro ⟨Hd, Hts⟩
  ihave H := e1 $$ Hts
  icases H with ⟨Hr, Hs⟩
  isplitl [Hd Hr]
  · isplitl [Hd] <;> iassumption
  · iexact Hs

theorem tab_join (ℓ : Loc nD τ sig) (t : Buf (Elt F) ℓ) : iprop(tabRem ℓ t ∗ tabShares ℓ t) ⊢ (ℓ ↦{fullShare} t : sProp 𝕄) := by
  have e1 : iprop((bigSep Finset.univ fun c : Fin 2 => ℓ ↦{Transfers.shareDrop (Transfers.shareTok fullShare 2 c) 16} t)
          ∗ bigSep Finset.univ fun c : Fin 2 => bigSep Finset.univ fun i : Fin 16 => ℓ ↦{shT c i} t)
      ⊢ (bigSep Finset.univ fun c : Fin 2 => (ℓ ↦{Transfers.shareTok fullShare 2 c} t : sProp 𝕄)) := by
    rw [← bigSep_sep']
    exact bigSep_mono fun c _ => (Transfers.pointsTo_toks (Transfers.shareTok fullShare 2 c) 16).2
  refine BIBase.Entails.trans ?_ (Transfers.pointsTo_toks fullShare 2).2
  unfold tabRem
  iintro ⟨⟨Hd, Hr⟩, Hs⟩
  isplitl [Hd]; · iexact Hd
  iapply e1
  isplitl [Hr] <;> iassumption

end Cert.Proof.KB

end
-- ==== Proof.Bits.HostStep.lean ====
/-
  One host operation of @main, stepped over on the TensorCore.

  A host operation with one operand `x` and one result `y` reads `x`'s array whole and writes `y`'s whole: holding
  both arrays, the one at `a` and the other at anything, the program goes on holding `x` at `a` still and `y` at the
  operation's function of `a` — `f a` for an elementwise or slicing operation, `a`'s elements in row-major order at
  `y`'s shape for a reshape. Every other array is untouched, so the rest of what @main holds is framed around the step.
-/
import proofs.«204601_g21792664060648_cont_8to1_111_20_alg».proof.Proof.Bits.Common

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}
local notation "𝕄" => MT nD τ sig (HIx 4) (Elt F) ℕ UU ℕ

theorem held_pair (d : Dev nD) {x' y' : DevRef τ sig} (hne : x' ≠ y') (W : Valuation τ sig (Elt F)) :
    (held (SparseCore.T d) {x', y'} W : sProp 𝕄) = iprop(((d, x') ↦{fullShare} W x') ∗ ((d, y') ↦{fullShare} W y')) := by
  unfold held
  rw [SparseCore.bigSep_insert' (by simpa using hne), bigSep_singleton]

variable [FloatOps F]

theorem wp_unary_step (d : Dev nD) (x y : Ref sig .tc) (f : x.ty.Contents (Elt F) → y.ty.Contents (Elt F))
    (hx : x.space ≠ .host ∧ (Proc.devRef .tc x : DevRef τ sig).isScoped = false) (hy : y.space ≠ .host ∧ (Proc.devRef .tc y : DevRef τ sig).isScoped = false)
    (hxy : (Proc.devRef .tc x : DevRef τ sig) ≠ Proc.devRef .tc y)
    (V₀ : Valuation τ sig (Elt F)) (a : x.ty.Contents (Elt F)) (b0 : y.ty.Contents (Elt F)) {Q : PUnit → sProp 𝕄} :
    iprop(boundary (SparseCore.T d) ∗ ((d, Proc.devRef .tc x) ↦{fullShare} a) ∗ ((d, Proc.devRef .tc y) ↦{fullShare} b0)
        ∗ ((boundary (SparseCore.T d) ∗ ((d, Proc.devRef .tc x) ↦{fullShare} a) ∗ ((d, Proc.devRef .tc y) ↦{fullShare} f a)) -∗ Q ⟨⟩))
      ⊢ wp frame (wpE ((K (F := F)).defs (D (F := F))) 𝒱 (SparseCore.T d) none) Set.univ
          (hlo rfl (StableHlo.unary x y f hx hy) (fun _ => .ret ⟨⟩)) Q := by
  iintro ⟨Hb, Hx, Hy, Hk⟩
  iapply (wp_hlo_within 𝒱 (SparseCore.T d) none Set.univ (op := StableHlo.unary x y f hx hy) (S := {Proc.devRef .tc x, Proc.devRef .tc y}) (Finset.Subset.refl _)
    (V := Function.update (Function.update V₀ (Proc.devRef .tc x) a) (Proc.devRef .tc y) b0)) $$ [Hb Hx Hy]
  · isplitl [Hb]; · iexact Hb
    rw [held_pair d hxy, Function.update_of_ne hxy, Function.update_self, Function.update_self]
    isplitl [Hx] <;> iassumption
  iintro ⟨Hb, Hheld⟩
  have e : (held (SparseCore.T d) {Proc.devRef .tc x, Proc.devRef .tc y}
      ((StableHlo.unary x y f hx hy).result (Function.update (Function.update V₀ (Proc.devRef .tc x) a) (Proc.devRef .tc y) b0)) : sProp 𝕄)
      = iprop(((d, Proc.devRef .tc x) ↦{fullShare} a) ∗ ((d, Proc.devRef .tc y) ↦{fullShare} f a)) := by
    rw [held_pair d hxy,
      (StableHlo.unary x y f hx hy).result_of_not_mem _ (show Proc.devRef .tc x ∉ (StableHlo.unary (τ := τ) x y f hx hy).writes from Finset.notMem_singleton.mpr hxy),
      StableHlo.unary_result, Function.update_of_ne hxy, Function.update_self]
  ihave Hh := (Entails.of_eq e) $$ Hheld
  icases Hh with ⟨Hx, Hy⟩
  rw [wp_ret]; imodintro
  iapply Hk
  isplitl [Hb]; · iexact Hb
  isplitl [Hx] <;> iassumption

theorem wp_reshape_step (d : Dev nD) (x y : Ref sig .tc) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (hxy : (Proc.devRef .tc x : DevRef τ sig) ≠ Proc.devRef .tc y)
    (V₀ : Valuation τ sig (Elt F)) (a : x.ty.Contents (Elt F)) (b0 : y.ty.Contents (Elt F)) {Q : PUnit → sProp 𝕄} :
    iprop(boundary (SparseCore.T d) ∗ ((d, Proc.devRef .tc x) ↦{fullShare} a) ∗ ((d, Proc.devRef .tc y) ↦{fullShare} b0)
        ∗ ((boundary (SparseCore.T d) ∗ ((d, Proc.devRef .tc x) ↦{fullShare} a)
            ∗ ((d, Proc.devRef .tc y) ↦{fullShare} (fun i => he ▸ shapeCast y.ty.shape a hn i : y.ty.Contents (Elt F)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  iintro ⟨Hb, Hx, Hy, Hk⟩
  iapply (wp_hlo_within 𝒱 (SparseCore.T d) none Set.univ (op := StableHlo.reshape x y he hn hx hy) (S := {Proc.devRef .tc x, Proc.devRef .tc y}) (Finset.Subset.refl _)
    (V := Function.update (Function.update V₀ (Proc.devRef .tc x) a) (Proc.devRef .tc y) b0)) $$ [Hb Hx Hy]
  · isplitl [Hb]; · iexact Hb
    rw [held_pair d hxy, Function.update_of_ne hxy, Function.update_self, Function.update_self]
    isplitl [Hx] <;> iassumption
  iintro ⟨Hb, Hheld⟩
  have e : (held (SparseCore.T d) {Proc.devRef .tc x, Proc.devRef .tc y}
      ((StableHlo.reshape x y he hn hx hy).result (Function.update (Function.update V₀ (Proc.devRef .tc x) a) (Proc.devRef .tc y) b0)) : sProp 𝕄)
      = iprop(((d, Proc.devRef .tc x) ↦{fullShare} a)
          ∗ ((d, Proc.devRef .tc y) ↦{fullShare} (fun i => he ▸ shapeCast y.ty.shape a hn i : y.ty.Contents (Elt F)))) := by
    rw [held_pair d hxy,
      (StableHlo.reshape x y he hn hx hy).result_of_not_mem _ (show Proc.devRef .tc x ∉ (StableHlo.reshape (τ := τ) (Val := Elt F) x y he hn hx hy).writes from Finset.notMem_singleton.mpr hxy),
      StableHlo.reshape_result, Function.update_of_ne hxy, Function.update_self]
  ihave Hh := (Entails.of_eq e) $$ Hheld
  icases Hh with ⟨Hx, Hy⟩
  rw [wp_ret]; imodintro
  iapply Hk
  isplitl [Hb]; · iexact Hb
  isplitl [Hx] <;> iassumption

end Cert.Proof.KB

end
-- ==== Proof.Bits.Arrays.lean ====
/-
  The arrays of @main, one by one.

  The launch deals the TensorCore every array of @main — the six arguments and the twenty-three values the program
  computes — whole, at its launch contents. Here that conjunction over all of them is written out array by array, so that
  each step of @main can name the ones it reads and writes.
-/
import proofs.«204601_g21792664060648_cont_8to1_111_20_alg».proof.Proof.Bits.Common

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

set_option maxHeartbeats 4000000 in
theorem unscopedBufs_eq (d : Dev nD) (W : (b : Ref sig .tc) → Buf (Elt F) ((d.tc : Thread nD τ).loc b)) :
    (unscopedBufs d W : sProp 𝕄) = iprop(
      ((SparseCore.T d).loc main_arg0 ↦{fullShare} W main_arg0)
      ∗ ((SparseCore.T d).loc main_arg1 ↦{fullShare} W main_arg1)
      ∗ ((SparseCore.T d).loc main_arg2 ↦{fullShare} W main_arg2)
      ∗ ((SparseCore.T d).loc main_arg3 ↦{fullShare} W main_arg3)
      ∗ ((SparseCore.T d).loc main_arg4 ↦{fullShare} W main_arg4)
      ∗ ((SparseCore.T d).loc main_arg5 ↦{fullShare} W main_arg5)
      ∗ ((SparseCore.T d).loc main_v0 ↦{fullShare} W main_v0)
      ∗ ((SparseCore.T d).loc main_v1 ↦{fullShare} W main_v1)
      ∗ ((SparseCore.T d).loc main_v2 ↦{fullShare} W main_v2)
      ∗ ((SparseCore.T d).loc main_v3 ↦{fullShare} W main_v3)
      ∗ ((SparseCore.T d).loc main_v4 ↦{fullShare} W main_v4)
      ∗ ((SparseCore.T d).loc main_v5_0 ↦{fullShare} W main_v5_0)
      ∗ ((SparseCore.T d).loc main_v5_1 ↦{fullShare} W main_v5_1)
      ∗ ((SparseCore.T d).loc main_v6 ↦{fullShare} W main_v6)
      ∗ ((SparseCore.T d).loc main_v7 ↦{fullShare} W main_v7)
      ∗ ((SparseCore.T d).loc main_v8_0 ↦{fullShare} W main_v8_0)
      ∗ ((SparseCore.T d).loc main_v8_1 ↦{fullShare} W main_v8_1)
      ∗ ((SparseCore.T d).loc main_v9 ↦{fullShare} W main_v9)
      ∗ ((SparseCore.T d).loc main_v10 ↦{fullShare} W main_v10)
      ∗ ((SparseCore.T d).loc main_v11_0 ↦{fullShare} W main_v11_0)
      ∗ ((SparseCore.T d).loc main_v11_1 ↦{fullShare} W main_v11_1)
      ∗ ((SparseCore.T d).loc main_v12 ↦{fullShare} W main_v12)
      ∗ ((SparseCore.T d).loc main_v13 ↦{fullShare} W main_v13)
      ∗ ((SparseCore.T d).loc main_v14_0 ↦{fullShare} W main_v14_0)
      ∗ ((SparseCore.T d).loc main_v14_1 ↦{fullShare} W main_v14_1)
      ∗ ((SparseCore.T d).loc main_v15 ↦{fullShare} W main_v15)
      ∗ ((SparseCore.T d).loc main_v16 ↦{fullShare} W main_v16)
      ∗ ((SparseCore.T d).loc main_v17 ↦{fullShare} W main_v17)
      ∗ ((SparseCore.T d).loc main_v18 ↦{fullShare} W main_v18)) := by
  unfold unscopedBufs
  rw [show (Finset.univ.filter fun b : Ref sig .tc => ¬ b.isScoped) = {main_arg0, main_arg1, main_arg2, main_arg3, main_arg4, main_arg5, main_v0, main_v1, main_v2, main_v3, main_v4, main_v5_0, main_v5_1, main_v6, main_v7, main_v8_0, main_v8_1, main_v9, main_v10, main_v11_0, main_v11_1, main_v12, main_v13, main_v14_0, main_v14_1, main_v15, main_v16, main_v17, main_v18} by decide +kernel,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KB

end
-- ==== Proof.Bits.LaunchElem.lean ====
/-
  The launch element of the ghost state, and what the launch deals @main from it.

  The element has three parts: the four handshake cells' rounds at their launch state, the rounds of the staging
  cells of the four TensorCore regions at theirs, and the transfers' counters at the unit. The first goes to the launch
  theorem; the second funds, per device and region, the ghost state of that region's staging cells and its duty tokens
  (no counter is consumed and no invariant allocated yet: each region allocates its cells' invariants when @main
  reaches it); the counters are dropped, no kernel of this program needing a schedule of its own.
-/
import proofs.«204601_g21792664060648_cont_8to1_111_20_alg».proof.Proof.Bits.Common
import proofs.«204601_g21792664060648_cont_8to1_111_20_alg».proof.Proof.Gen.Kernel.Launch

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-- The launch element: handshakes, staging cells, counters. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main on device `d` starts from beyond its arrays: each region's staging cells' ghost state and duty tokens. -/
def G (d : Dev nD) : sProp 𝕄 :=
  bigSep Finset.univ fun p : Fin 4 =>
    iprop(Pipeline.cellsGhost (nD := nD) (τ := τ) cfgs (EP (F := F)) p d ∗ Pipeline.toksInit (nD := nD) (τ := τ) cfgs (EP (F := F)) p d)

theorem bigSep_emp' {I : Type} (s : Finset I) : (bigSep s fun _ => iprop(emp)) = (iprop(emp) : sProp 𝕄) := bigSep_emp_const s

/-- The launch element yields the handshakes' rounds and every device's regions' ghost state. -/
theorem hu₀_core : (ownU (u₀ (F := F)) : sProp 𝕄)
    ⊢ |={Set.univ}=> iprop(BI.own (EH (initOf (K (F := F)).hsCells (K (F := F)).hsToks)) ∗ (bigSep Finset.univ fun d : Dev nD => G (F := F) d)) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  ihave HP' := (Entails.of_eq (show (BI.own (((Emb.inl : Emb UP (UP × Counters)).trans (embR : Emb (UP × Counters) 𝕄)) _) : sProp 𝕄) = BI.own ((EP (F := F)) _) from rfl)) $$ HP
  imod (Pipeline.fund_ghost (nD := nD) (τ := τ) cfgs (EP (F := F)) cellOf_inj) $$ HP' with ⟨Hg, Ht⟩
  imodintro
  isplitl [HH]; · iexact HH
  unfold G
  simp only [bigSep_sep']
  isplitl [Hg]; · iexact Hg
  iexact Ht

end Cert.Proof.KB

end
-- ==== Proof.Bits.TcSt4.lean ====
/-
  The TensorCore's handshake state after the last SparseCore call.

  After the fourth call the TensorCore owes the launch protocol nothing more: its state is what it owes — nothing —
  with its recorded waits bounded, beside its position on the handshake cells. The regions that follow wait only on
  their own staging semaphores, at the index no handshake uses, whose level is the lowest: recording such waits keeps
  the bound.
-/
import proofs.«204601_g21792664060648_cont_8to1_111_20_alg».proof.Proof.Bits.Common

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

/-- The rest of the TensorCore's state before call 4 (there is none): its position on its `done` cell and the rounds
    reached. -/
def tcRest4 (d : Dev nD) : sProp 𝕄 :=
  iprop(atPos EH ((K (F := F)).doneCell d) 4 ∅ 0 ∗ reached EH ((K (F := F)).doneCell d) 4
    ∗ (bigSep Finset.univ fun c : Fin τ.nSC => reached EH ((K (F := F)).startCell d c) ((K (F := F)).sRank c 4))
    ∗ bigSep (SparseCore.Cfg.callsFrom (Q := 4) 4) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt4_eq (d : Dev nD) :
    ((K (F := F)).tcSt EH d 4 : sProp 𝕄)
      = iprop((∃ W, ⌜(K (F := F)).WBelow (SparseCore.T d) W (8 * 4)⌝ ∗ owes (SparseCore.T d) (0 : CellTallies nD τ sig (HIx 4)) W) ∗ tcRest4 (F := F) d) := by
  unfold SparseCore.Cfg.tcSt tcRest4
  rw [(K (F := F)).Otc_end d (le_refl 4)]

/-- Waits recorded at the index no handshake uses keep the bound on the recorded waits. -/
theorem wBelow_of_none {d : Dev nD} {W W' : Waits sig (HIx 4)} {b : ℕ} (hW : (K (F := F)).WBelow (SparseCore.T d) W b)
    (h : ∀ p ∈ W', p ∈ W ∨ p.2 = none) : (K (F := F)).WBelow (SparseCore.T d) W' b := by
  intro p hp
  rcases h p hp with hp' | hp'
  · exact hW p hp'
  · rw [hp']; exact Nat.zero_le _

end Cert.Proof.KB

end
-- ==== Proof.Bits.Final.lean ====
/-
  What @main leaves for the claim, and how the final memory reads it.

  At its end @main holds its result array whole at its final contents and its six argument arrays whole at their launch
  contents. Whatever the physical final state, a points-to pins the contents of the array it names, so the final memory has
  the result at those contents and the arguments unchanged.
-/
import proofs.«204601_g21792664060648_cont_8to1_111_20_alg».proof.Proof.Bits.Common

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 4) (Elt F) ℕ UU ℕ

variable (m : (ℓ : Loc nD τ sig) → Buf (Elt F) ℓ) (vf : (d : Dev nD) → Buf (Elt F) ((SparseCore.T d).loc main_v18))

def FIN (d : Dev nD) : sProp 𝕄 :=
  iprop((((SparseCore.T d).loc main_v18) ↦{fullShare} vf d)
    ∗ (((SparseCore.T d).loc main_arg0) ↦{fullShare} m ((SparseCore.T d).loc main_arg0))
    ∗ (((SparseCore.T d).loc main_arg1) ↦{fullShare} m ((SparseCore.T d).loc main_arg1))
    ∗ (((SparseCore.T d).loc main_arg2) ↦{fullShare} m ((SparseCore.T d).loc main_arg2))
    ∗ (((SparseCore.T d).loc main_arg3) ↦{fullShare} m ((SparseCore.T d).loc main_arg3))
    ∗ (((SparseCore.T d).loc main_arg4) ↦{fullShare} m ((SparseCore.T d).loc main_arg4))
    ∗ (((SparseCore.T d).loc main_arg5) ↦{fullShare} m ((SparseCore.T d).loc main_arg5)))

def fq (d : Dev nD) (s' : Phys nD τ sig (Elt F)) : Prop :=
  s'.mem.mem ((SparseCore.T d).loc main_v18) = vf d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_arg5) = m ((SparseCore.T d).loc main_arg5)

theorem hfin (d : Dev nD) (s' : Phys nD τ sig (Elt F)) : iprop(FIN m vf d ∗ SI s') ⊢ (⌜fq m vf d s'⌝ : sProp 𝕄) := by
  unfold FIN
  iintro ⟨⟨H0, H1, H2, H3, H4, H5, H6⟩, HSI⟩
  ihave H := (persistent_entails_right (SI_pointsTo_agree (st := s') (ℓ := ((SparseCore.T d).loc main_v18)) (I := Finset.univ) (q := fullShare) (f := vf d))) $$ [HSI H0]
  · isplitl [HSI] <;> iassumption
  icases H with ⟨%h0, HSI, -⟩
  ihave H := (persistent_entails_right (SI_pointsTo_agree (st := s') (ℓ := ((SparseCore.T d).loc main_arg0)) (I := Finset.univ) (q := fullShare) (f := m ((SparseCore.T d).loc main_arg0)))) $$ [HSI H1]
  · isplitl [HSI] <;> iassumption
  icases H with ⟨%h1, HSI, -⟩
  ihave H := (persistent_entails_right (SI_pointsTo_agree (st := s') (ℓ := ((SparseCore.T d).loc main_arg1)) (I := Finset.univ) (q := fullShare) (f := m ((SparseCore.T d).loc main_arg1)))) $$ [HSI H2]
  · isplitl [HSI] <;> iassumption
  icases H with ⟨%h2, HSI, -⟩
  ihave H := (persistent_entails_right (SI_pointsTo_agree (st := s') (ℓ := ((SparseCore.T d).loc main_arg2)) (I := Finset.univ) (q := fullShare) (f := m ((SparseCore.T d).loc main_arg2)))) $$ [HSI H3]
  · isplitl [HSI] <;> iassumption
  icases H with ⟨%h3, HSI, -⟩
  ihave H := (persistent_entails_right (SI_pointsTo_agree (st := s') (ℓ := ((SparseCore.T d).loc main_arg3)) (I := Finset.univ) (q := fullShare) (f := m ((SparseCore.T d).loc main_arg3)))) $$ [HSI H4]
  · isplitl [HSI] <;> iassumption
  icases H with ⟨%h4, HSI, -⟩
  ihave H := (persistent_entails_right (SI_pointsTo_agree (st := s') (ℓ := ((SparseCore.T d).loc main_arg4)) (I := Finset.univ) (q := fullShare) (f := m ((SparseCore.T d).loc main_arg4)))) $$ [HSI H5]
  · isplitl [HSI] <;> iassumption
  icases H with ⟨%h5, HSI, -⟩
  ihave H := (SI_pointsTo_agree (st := s') (ℓ := ((SparseCore.T d).loc main_arg5)) (I := Finset.univ) (q := fullShare) (f := m ((SparseCore.T d).loc main_arg5))) $$ [HSI H6]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i)⟩

def QC : PUnit × MemSt nD τ sig (Elt F) → Prop := fun r => ∀ c : Dev nD,
  r.2.mem ((SparseCore.T c).loc main_v18) = vf c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)

theorem hQC (s' : Phys nD τ sig (Elt F)) (h : ∀ d, fq m vf d s') : QC m vf (⟨⟩, s'.mem) := fun c => h c

end Cert.Proof.KB

end
-- ==== Proof.Bits.TokBound.lean ====
/-
  The tokens every call sees are in range.

  The precondition bounds every entry of both token inputs by `0 ≤ t ≤ 99999`; as a natural number each is then below
  the tables' height 100000. A reshape and a slice only re-index: every entry of a call's token array is an entry of
  the input, so it is below the height too — which is what makes every row gather of every call name a row that exists.
-/
import proofs.«204601_g21792664060648_cont_8to1_111_20_alg».proof.Proof.Bits.Pay
import proofs.«204601_g21792664060648_cont_8to1_111_20_alg».proof.Proof.PreFacts
import proofs.«204601_g21792664060648_cont_8to1_111_20_alg».proof.Proof.Gen.Pre_input_domain

noncomputable section

namespace Cert.Proof.KB

open Cert.Kernel Cert.Kernel.Gen
open Idealize.ShloMosaic
open Idealize.ShloMosaic.SparseCore (S V T)
open Idealize.SL.Sem

variable {F : FTy → Type}
variable (m : (ℓ : Loc nD τ sig) → Buf (Elt F) ℓ)

/-- Every token of both inputs, on every device, is below the tables' height. -/
def PreOK : Prop :=
  ∀ d : Dev nD, (∀ j, (m ((SparseCore.T d).loc main_arg0) j).toNat < 100000) ∧ (∀ j, (m ((SparseCore.T d).loc main_arg1) j).toNat < 100000)

variable {m}

theorem tokA_lt (h : PreOK m) (d : Dev nD) (q : Fin 4) (j : S32x128.Idx) : (tokA m d q j).toNat < 100000 := by
  match q with
  | 0 => exact (h d).1 _
  | 1 => exact (h d).1 _
  | 2 => exact (h d).1 _
  | 3 => exact (h d).1 _
theorem tokB_lt (h : PreOK m) (d : Dev nD) (q : Fin 4) (j : S32x128.Idx) : (tokB m d q j).toNat < 100000 := by
  match q with
  | 0 => exact (h d).2 _
  | 1 => exact (h d).2 _
  | 2 => exact (h d).2 _
  | 3 => exact (h d).2 _

/-- The claim's precondition gives it. -/
theorem preOK_of_pre [FloatOps F] (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5))) = (fun _ => 1#1)) :
    PreOK m := fun d => Cert.PreFacts.tok_lt _ _ _ _ _ _ (h d)

end Cert.Proof.KB

end
-- ==== Proof.Bits.GatherRead.lean ====
/-
  Reading what whole-rectangle writes and row gathers leave.

  A buffer written whole through a view reads back as the payload. A gather of 128 rows of a 100000×128 table, by a
  list of 128 words, delivers at row `k` the table's row named by word `k` of the list. A rectangle at offset zero of
  full extent places every index at itself, so a table sliced whole reads as the table. Word `k` of a list of 128,
  seen as a 1×128 row, sits at column `k`.
-/
import proofs.«204601_g21792664060648_cont_8to1_111_20_alg».proof.Proof.Bits.TileRes
import Idealize.ShloMosaic.Lib.SparseCore.Stream

noncomputable section

namespace Cert.Proof.KB

open Cert.Kernel Cert.Kernel.Gen

open Idealize.ShloMosaic Idealize.ShloMosaic.ValueIdx
open Idealize.SL Idealize.SL.RA Idealize.SL.BI
open scoped Idealize.SL.BI

variable {F : FTy → Type}

/-- Two cells of one thread at different semaphores are different cells. -/
theorem cell_ne {thr : Thread nD τ} {a b : SemLoc sig} (h : a ≠ b) : ((thr, a) : GSem nD τ sig) ≠ (thr, b) :=
  fun e => h (Prod.mk.inj e).2

/-- A buffer written whole through a view reads as the payload through that view. -/
theorem read_writes_whole {sg : RefSig} {κ : Kind} {sp : Space} {s : Shape} {e : EltTy} {Val : EltTy → Type}
    (v : View sg κ sp s e) (f : v.ty.Contents Val) (w : s.Idx → Val e) (x : s.Idx) :
    v.read Val (v.writes Val f [⟨Rect.whole s, w⟩]) x = w x := by
  have h := View.read_writes_cons_emb v f (Rect.whole s) w [] x
  rwa [Rect.emb_whole_apply] at h

/-- Entry `k` of a list of 128 words, in row-major order, is the list at `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- The payload of a gather of 128 rows of a 100000×128 table: row `x 0` of the payload is the table's row named by
    word `x 0` of the list. -/
theorem gather_apply (t : S100000x128.Idx → Elt F .f32) (idx : S128.Idx → Elt F .i32)
    (hn : S128.numel = S128x128.size gathers_S100000x128_S128x128.axis')
    (h : ∀ x, (idx x).toNat < S100000x128.size gathers_S100000x128_S128x128.axis) (x : S128x128.Idx) :
    SparseCore.gatherPayload gathers_S100000x128_S128x128 t (SparseCore.rows idx hn h) x
      = t (ix2 (⟨(idx (ix1 (n := 128) (x 0))).toNat, h _⟩ : Fin 100000) (x 1)) := by
  unfold SparseCore.gatherPayload
  congr 1
  funext b
  apply Fin.ext
  match b with
  | ⟨0, _⟩ =>
    have h0 := Shape.Gathers.idx_axis gathers_S100000x128_S128x128 (SparseCore.rows idx hn h) x
    show ((gathers_S100000x128_S128x128.idx (SparseCore.rows idx hn h) x) gathers_S100000x128_S128x128.axis).val = _
    rw [h0]
    unfold SparseCore.rows
    simp only [rowMajor_symm_S128]
    rfl
  | ⟨1, _⟩ =>
    exact Shape.Gathers.idx_of_ne gathers_S100000x128_S128x128 (SparseCore.rows idx hn h) x ⟨1, by decide⟩ (by decide)

/-- The two tables, sliced whole as the kernels slice them. -/
abbrev srcA : Memref sig .scVector .hbm S100000x128 .f32 :=
  (Memref.whole main_arg2_scv).slice (Rect.unit (s := S100000x128) ![0, 0] S100000x128.size inb_S100000x128_S100000x128_0_0) (fun _ => rfl)
abbrev srcB : Memref sig .scVector .hbm S100000x128 .f32 :=
  (Memref.whole main_arg3_scv).slice (Rect.unit (s := S100000x128) ![0, 0] S100000x128.size inb_S100000x128_S100000x128_0_0) (fun _ => rfl)

/-- A rectangle at offset zero of full extent places an index at itself. -/
theorem full_emb (z : S100000x128.Idx) :
    (Rect.unit (s := S100000x128) ![0, 0] S100000x128.size inb_S100000x128_S100000x128_0_0).emb z = z := by
  funext a; apply Fin.ext
  rw [Rect.emb_apply]
  match a with
  | ⟨0, _⟩ => simp
  | ⟨1, _⟩ => simp

theorem srcA_read (t : S100000x128.Idx → Elt F .f32) (z : S100000x128.Idx) : srcA.view.read (Elt F) t z = t z := by
  rw [View.read_apply, cast_eq]
  show t ((Rect.unit (s := S100000x128) ![0, 0] S100000x128.size inb_S100000x128_S100000x128_0_0).emb z) = _
  rw [full_emb]
theorem srcB_read (t : S100000x128.Idx → Elt F .f32) (z : S100000x128.Idx) : srcB.view.read (Elt F) t z = t z := by
  rw [View.read_apply, cast_eq]
  show t ((Rect.unit (s := S100000x128) ![0, 0] S100000x128.size inb_S100000x128_S100000x128_0_0).emb z) = _
  rw [full_emb]

/-- Word `k` of a list of 128, seen as a 1×128 row, is at column `k`. -/
theorem unsq_apply (k : Fin 128) :
    Shape.reshapeEquiv squeezes_S1x128_S128.numel_eq (ix1 k) = (ix2 (0 : Fin 1) k : S1x128.Idx) :=
  Shape.reshapeEquiv_eq_of_rowMajor _ (by rw [Shape.rowMajor_val_two, Shape.rowMajor_val_one]; simp)

end Cert.Proof.KB

end
-- ==== Proof.Bits.Tile0.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.Bits.TileRes
import proofs.«204601_g21792664060648_cont_8to1_111_20_alg».proof.Proof.Bits.GatherRead
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid0.Coords)

/-- The cell of one of the tile's DMA semaphores. -/
abbrev cell_c0 (s : DmaSems sig S_) : GSem nD τ sig := (V d (cV L) (jV L), SemLoc.dma s.sem)

theorem cell_mem_c0 (s : DmaSems sig S_) (h : (SemLoc.dma s.sem : SemLoc sig).isScoped .scVector = true) :
    cell_c0 d L s ∈ ownCells (V d (cV L) (jV L)) := (mem_ownCells (g := cell_c0 d L s)).mpr ⟨rfl, h⟩

/-- The tile's own semaphores: the six this kernel uses, and the rest. -/
theorem sems_c0 :
    (ownSems0 (V d (cV L) (jV L)) : sProp 𝕄)
      = iprop(semVal (cell_c0 d L cc0_scratch3) 0 ∗ semVal (cell_c0 d L cc0_scratch4) 0 ∗ semVal (cell_c0 d L cc0_scratch5) 0
          ∗ semVal (cell_c0 d L cc0_scratch6) 0 ∗ semVal (cell_c0 d L cc0_scoped0) 0 ∗ semVal (cell_c0 d L cc0_scoped1) 0
          ∗ bigSep ((((((((ownCells (V d (cV L) (jV L))).erase (cell_c0 d L cc0_scratch3)).erase (cell_c0 d L cc0_scratch4)).erase (cell_c0 d L cc0_scratch5)).erase
              (cell_c0 d L cc0_scratch6)).erase (cell_c0 d L cc0_scoped0)).erase (cell_c0 d L cc0_scoped1))) fun g => semVal g 0) := by
  unfold SparseCore.Cfg.ownSems0
  rw [SparseCore.bigSep_erase' (cell_mem_c0 d L cc0_scratch3 (by decide)),
    SparseCore.bigSep_erase' (Finset.mem_erase.mpr ⟨cell_ne (by decide), cell_mem_c0 d L cc0_scratch4 (by decide)⟩),
    SparseCore.bigSep_erase' (Finset.mem_erase.mpr ⟨cell_ne (by decide), Finset.mem_erase.mpr ⟨cell_ne (by decide), cell_mem_c0 d L cc0_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c0 d L cc0_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c0 d L cc0_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c0 d L cc0_scoped1 (by decide)⟩⟩⟩⟩⟩)]

/-- The tile's own buffers: the three scratches of this kernel, at some contents, and the rest. -/
theorem bufs_c0 :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The arrays as the tile's memrefs address them are the TensorCore's arrays; the scratches are the tile's own. -/
theorem pts_rowA_c0 (f : Buf (Elt F) (tokA0 d)) :
    ((rowA0 L).view.loc (V d (cV L) (jV L)) ↦[(rowA0 L).view.set]{fullShare} f : sProp 𝕄) = tokA0 d ↦[(rowA0 L).view.set]{fullShare} f := rfl
theorem pts_rowB_c0 (f : Buf (Elt F) (tokB0 d)) :
    ((rowB0 L).view.loc (V d (cV L) (jV L)) ↦[(rowB0 L).view.set]{fullShare} f : sProp 𝕄) = tokB0 d ↦[(rowB0 L).view.set]{fullShare} f := rfl
theorem pts_blkA_c0 (f : Buf (Elt F) (outA0 d)) :
    ((blkA0 L).view.loc (V d (cV L) (jV L)) ↦[(blkA0 L).view.set]{fullShare} f : sProp 𝕄) = outA0 d ↦[(blkA0 L).view.set]{fullShare} f := rfl
theorem pts_blkB_c0 (f : Buf (Elt F) (outB0 d)) :
    ((blkB0 L).view.loc (V d (cV L) (jV L)) ↦[(blkB0 L).view.set]{fullShare} f : sProp 𝕄) = outB0 d ↦[(blkB0 L).view.set]{fullShare} f := rfl
theorem pts_tabA_c0 (q : PosShare TreeShare) (f : Buf (Elt F) (tabA d)) :
    ((Memref.whole main_arg2_scv : Memref sig .scVector .hbm S100000x128 .f32).view.loc (V d (cV L) (jV L)) ↦{q} f : sProp 𝕄) = tabA d ↦{q} f := rfl
theorem pts_tabB_c0 (q : PosShare TreeShare) (f : Buf (Elt F) (tabB d)) :
    ((Memref.whole main_arg3_scv : Memref sig .scVector .hbm S100000x128 .f32).view.loc (V d (cV L) (jV L)) ↦{q} f : sProp 𝕄) = tabB d ↦{q} f := rfl
theorem pts_s0_c0 (f : Buf (Elt F) ((V d (cV L) (jV L)).loc cc0_scratch0)) :
    ((Memref.whole cc0_scratch0 : Memref sig .scVector .vmem S2x128 .i32).view.loc (V d (cV L) (jV L)) ↦{fullShare} f : sProp 𝕄) = (V d (cV L) (jV L)).loc cc0_scratch0 ↦{fullShare} f := rfl
theorem pts_s1_c0 (f : Buf (Elt F) ((V d (cV L) (jV L)).loc cc0_scratch1)) :
    ((Memref.whole cc0_scratch1 : Memref sig .scVector .vmem S128x128 .f32).view.loc (V d (cV L) (jV L)) ↦{fullShare} f : sProp 𝕄) = (V d (cV L) (jV L)).loc cc0_scratch1 ↦{fullShare} f := rfl
theorem pts_s2_c0 (f : Buf (Elt F) ((V d (cV L) (jV L)).loc cc0_scratch2)) :
    ((Memref.whole cc0_scratch2 : Memref sig .scVector .vmem S128x128 .f32).view.loc (V d (cV L) (jV L)) ↦{fullShare} f : sProp 𝕄) = (V d (cV L) (jV L)).loc cc0_scratch2 ↦{fullShare} f := rfl

/-- The two rows of the index scratch, as offset lists. -/
abbrev idxA_c0 : Memref sig .scVector .vmem S128 .i32 :=
  ((Memref.whole cc0_scratch0).slice (Rect.unit (s := S2x128) ![0, 0] S1x128.size inb_S2x128_S1x128_0_0) (fun _ => rfl)).squeeze S128 squeezes_S1x128_S128
abbrev idxB_c0 : Memref sig .scVector .vmem S128 .i32 :=
  ((Memref.whole cc0_scratch0).slice (Rect.unit (s := S2x128) ![1, 0] S1x128.size inb_S2x128_S1x128_1_0) (fun _ => rfl)).squeeze S128 squeezes_S1x128_S128

/-- The index scratch after the two row copies, over any prior contents. -/
abbrev idxBuf_c0 (L : grid0.Coords) (i0 i1 : S32x128.Idx → BitVec 32) (g : Buf (Elt F) ((V d (cV L) (jV L)).loc cc0_scratch0)) :
    Buf (Elt F) ((V d (cV L) (jV L)).loc cc0_scratch0) :=
  (Memref.whole cc0_scratch0 : Memref sig .scVector .vmem S2x128 .i32).view.writes (Elt F) g
    [⟨Rect.unit (s := S2x128) ![1, 0] S1x128.size inb_S2x128_S1x128_1_0, ReadAs.same.apply ((rowB0 L).view.read (Elt F) i1)⟩,
     ⟨Rect.unit (s := S2x128) ![0, 0] S1x128.size inb_S2x128_S1x128_0_0, ReadAs.same.apply ((rowA0 L).view.read (Elt F) i0)⟩]

variable (i0 i1 : S32x128.Idx → BitVec 32)

/-- Entry `x` of the first offset list is the token at column `x` of the tile's row of the first token array,
    whatever the scratch held before the two row copies. -/
theorem idxA_read_c0 (g : Buf (Elt F) ((V d (cV L) (jV L)).loc cc0_scratch0)) (x : S128.Idx) :
    idxA_c0.view.read (Elt F) (idxBuf_c0 (F := F) d L i0 i1 g) x
      = (rowA0 L).view.read (Elt F) i0 (Shape.reshapeEquiv squeezes_S1x128_S128.numel_eq x) := by
  show (Memref.whole cc0_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc0_scratch0 : Memref sig .scVector .vmem S2x128 .i32).view g
    (⟨Rect.unit (s := S2x128) ![1, 0] S1x128.size inb_S2x128_S1x128_1_0, ReadAs.same.apply ((rowB0 L).view.read (Elt F) i1)⟩ : View.Piece (Elt F) S2x128 .i32)
    (⟨Rect.unit (s := S2x128) ![0, 0] S1x128.size inb_S2x128_S1x128_0_0, ReadAs.same.apply ((rowA0 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c0 (F := F) d L i0 i1 g = _ from hsw, View.read_writes_cons_emb]

theorem idxB_read_c0 (g : Buf (Elt F) ((V d (cV L) (jV L)).loc cc0_scratch0)) (x : S128.Idx) :
    idxB_c0.view.read (Elt F) (idxBuf_c0 (F := F) d L i0 i1 g) x
      = (rowB0 L).view.read (Elt F) i1 (Shape.reshapeEquiv squeezes_S1x128_S128.numel_eq x) := by
  show (Memref.whole cc0_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c0 (hin0 : ∀ j, (i0 j).toNat < 100000) (g : Buf (Elt F) ((V d (cV L) (jV L)).loc cc0_scratch0)) (x : S128.Idx) :
    (idxA_c0.view.read (Elt F) (idxBuf_c0 (F := F) d L i0 i1 g) x).toNat < 100000 := by
  rw [idxA_read_c0, View.read_apply, cast_eq]; exact hin0 _
theorem hinB_c0 (hin1 : ∀ j, (i1 j).toNat < 100000) (g : Buf (Elt F) ((V d (cV L) (jV L)).loc cc0_scratch0)) (x : S128.Idx) :
    (idxB_c0.view.read (Elt F) (idxBuf_c0 (F := F) d L i0 i1 g) x).toNat < 100000 := by
  rw [idxB_read_c0, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c0 (x : S128x128.Idx) :
    (rowA0 L).view.read (Elt F) i0 (Shape.reshapeEquiv squeezes_S1x128_S128.numel_eq (ix1 (n := 128) (x 0)))
      = i0 (ix2 (⟨(((blkA0 L).view.emb x) 0).val / 128, Nat.div_lt_of_lt_mul (((blkA0 L).view.emb x) 0).isLt⟩ : Fin 32)
          (⟨(((blkA0 L).view.emb x) 0).val % 128, Nat.mod_lt _ (by decide)⟩ : Fin 128)) := by
  rw [View.read_apply, cast_eq]
  refine congrArg i0 ?_
  refine (congrArg (rowA0 L).view.emb (unsq_apply (x 0))).trans ?_
  have hx : (x 0).val < 128 := (x 0).isLt
  have hL0 : (L 0).val < 2 := (L 0).isLt
  funext a; apply Fin.ext
  match a with
  | ⟨0, _⟩ =>
    show (k0_off1 L) 0 + 1 * 0 = ((k0_off2 L) 0 + 1 * (x 0).val) / 128
    rw [k0_off1_eq, k0_off2_eq]
    simp only [Matrix.cons_val_zero]
    omega
  | ⟨1, _⟩ =>
    show (k0_off1 L) 1 + 1 * (x 0).val = ((k0_off2 L) 0 + 1 * (x 0).val) % 128
    rw [k0_off1_eq, k0_off2_eq]
    simp only [Matrix.cons_val_zero, Matrix.cons_val_one]
    omega

/-- The block a tile writes of the first result is the gathered array's. -/
theorem valA_c0 (hin0 : ∀ j, (i0 j).toNat < 100000) (fo : Buf (Elt F) (outA0 d)) (fs : Buf (Elt F) ((V d (cV L) (jV L)).loc cc0_scratch1))
    (g0 : Buf (Elt F) ((V d (cV L) (jV L)).loc cc0_scratch0))
    (hn : S128.numel = S128x128.size gathers_S100000x128_S128x128.axis')
    (hin : ∀ x, (idxA_c0.view.read (Elt F) (idxBuf_c0 (F := F) d L i0 i1 g0) x).toNat < S100000x128.size gathers_S100000x128_S128x128.axis) :
    ∀ y ∈ (blkA0 L).view.set,
      (blkA0 L).view.writes (Elt F) fo [⟨Rect.whole S128x128, ReadAs.same.apply
          ((Memref.whole cc0_scratch1 : Memref sig .scVector .vmem S128x128 .f32).view.read (Elt F)
            ((Memref.whole cc0_scratch1 : Memref sig .scVector .vmem S128x128 .f32).view.writes (Elt F) fs
              [⟨Rect.whole S128x128, SparseCore.gatherPayload gathers_S100000x128_S128x128 (srcA.view.read (Elt F) t0)
                  (SparseCore.rows (idxA_c0.view.read (Elt F) (idxBuf_c0 (F := F) d L i0 i1 g0)) hn hin)⟩]))⟩] y
        = gathered i0 t0 y := by
  intro y hy
  obtain ⟨x, -, rfl⟩ := Finset.mem_map.mp hy
  have h1 := read_writes_whole (Val := Elt F) (blkA0 L).view fo (ReadAs.same.apply
          ((Memref.whole cc0_scratch1 : Memref sig .scVector .vmem S128x128 .f32).view.read (Elt F)
            ((Memref.whole cc0_scratch1 : Memref sig .scVector .vmem S128x128 .f32).view.writes (Elt F) fs
              [⟨Rect.whole S128x128, SparseCore.gatherPayload gathers_S100000x128_S128x128 (srcA.view.read (Elt F) t0)
                  (SparseCore.rows (idxA_c0.view.read (Elt F) (idxBuf_c0 (F := F) d L i0 i1 g0)) hn hin)⟩]))) x
  rw [View.read_apply, cast_eq] at h1
  refine h1.trans ?_
  refine (read_writes_whole (Val := Elt F) (Memref.whole cc0_scratch1 : Memref sig .scVector .vmem S128x128 .f32).view fs _ x).trans ?_
  refine (gather_apply (F := F) (srcA.view.read (Elt F) t0) (idxA_c0.view.read (Elt F) (idxBuf_c0 (F := F) d L i0 i1 g0)) hn hin x).trans ?_
  rw [srcA_read]
  unfold gathered
  refine congrArg t0 ?_
  funext a; apply Fin.ext
  match a with
  | ⟨0, _⟩ =>
    show (idxA_c0.view.read (Elt F) (idxBuf_c0 (F := F) d L i0 i1 g0) (ix1 (n := 128) (x 0))).toNat = (Cert.Spec.rowOf _).val
    rw [Cert.Spec.rowOf_of_lt (hin0 _), idxA_read_c0, tokA_c0]
  | ⟨1, _⟩ =>
    show (x 1).val = (k0_off2 L) 1 + 1 * (x 1).val
    rw [k0_off2_eq]
    simp

/-- The token by which row `x 0` of the tile's block is looked up: column `x 0` of the tile's row of the second token array is
    token `(y / 128, y % 128)` for `y` the row's place in the whole result. -/
theorem tokB_c0 (x : S128x128.Idx) :
    (rowB0 L).view.read (Elt F) i1 (Shape.reshapeEquiv squeezes_S1x128_S128.numel_eq (ix1 (n := 128) (x 0)))
      = i1 (ix2 (⟨(((blkB0 L).view.emb x) 0).val / 128, Nat.div_lt_of_lt_mul (((blkB0 L).view.emb x) 0).isLt⟩ : Fin 32)
          (⟨(((blkB0 L).view.emb x) 0).val % 128, Nat.mod_lt _ (by decide)⟩ : Fin 128)) := by
  rw [View.read_apply, cast_eq]
  refine congrArg i1 ?_
  refine (congrArg (rowB0 L).view.emb (unsq_apply (x 0))).trans ?_
  have hx : (x 0).val < 128 := (x 0).isLt
  have hL0 : (L 0).val < 2 := (L 0).isLt
  funext a; apply Fin.ext
  match a with
  | ⟨0, _⟩ =>
    show (k0_off1 L) 0 + 1 * 0 = ((k0_off2 L) 0 + 1 * (x 0).val) / 128
    rw [k0_off1_eq, k0_off2_eq]
    simp only [Matrix.cons_val_zero]
    omega
  | ⟨1, _⟩ =>
    show (k0_off1 L) 1 + 1 * (x 0).val = ((k0_off2 L) 0 + 1 * (x 0).val) % 128
    rw [k0_off1_eq, k0_off2_eq]
    simp only [Matrix.cons_val_zero, Matrix.cons_val_one]
    omega

/-- The block a tile writes of the second result is the gathered array's. -/
theorem valB_c0 (hin1 : ∀ j, (i1 j).toNat < 100000) (fo : Buf (Elt F) (outB0 d)) (fs : Buf (Elt F) ((V d (cV L) (jV L)).loc cc0_scratch2))
    (g0 : Buf (Elt F) ((V d (cV L) (jV L)).loc cc0_scratch0))
    (hn : S128.numel = S128x128.size gathers_S100000x128_S128x128.axis')
    (hin : ∀ x, (idxB_c0.view.read (Elt F) (idxBuf_c0 (F := F) d L i0 i1 g0) x).toNat < S100000x128.size gathers_S100000x128_S128x128.axis) :
    ∀ y ∈ (blkB0 L).view.set,
      (blkB0 L).view.writes (Elt F) fo [⟨Rect.whole S128x128, ReadAs.same.apply
          ((Memref.whole cc0_scratch2 : Memref sig .scVector .vmem S128x128 .f32).view.read (Elt F)
            ((Memref.whole cc0_scratch2 : Memref sig .scVector .vmem S128x128 .f32).view.writes (Elt F) fs
              [⟨Rect.whole S128x128, SparseCore.gatherPayload gathers_S100000x128_S128x128 (srcB.view.read (Elt F) t1)
                  (SparseCore.rows (idxB_c0.view.read (Elt F) (idxBuf_c0 (F := F) d L i0 i1 g0)) hn hin)⟩]))⟩] y
        = gathered i1 t1 y := by
  intro y hy
  obtain ⟨x, -, rfl⟩ := Finset.mem_map.mp hy
  have h1 := read_writes_whole (Val := Elt F) (blkB0 L).view fo (ReadAs.same.apply
          ((Memref.whole cc0_scratch2 : Memref sig .scVector .vmem S128x128 .f32).view.read (Elt F)
            ((Memref.whole cc0_scratch2 : Memref sig .scVector .vmem S128x128 .f32).view.writes (Elt F) fs
              [⟨Rect.whole S128x128, SparseCore.gatherPayload gathers_S100000x128_S128x128 (srcB.view.read (Elt F) t1)
                  (SparseCore.rows (idxB_c0.view.read (Elt F) (idxBuf_c0 (F := F) d L i0 i1 g0)) hn hin)⟩]))) x
  rw [View.read_apply, cast_eq] at h1
  refine h1.trans ?_
  refine (read_writes_whole (Val := Elt F) (Memref.whole cc0_scratch2 : Memref sig .scVector .vmem S128x128 .f32).view fs _ x).trans ?_
  refine (gather_apply (F := F) (srcB.view.read (Elt F) t1) (idxB_c0.view.read (Elt F) (idxBuf_c0 (F := F) d L i0 i1 g0)) hn hin x).trans ?_
  rw [srcB_read]
  unfold gathered
  refine congrArg t1 ?_
  funext a; apply Fin.ext
  match a with
  | ⟨0, _⟩ =>
    show (idxB_c0.view.read (Elt F) (idxBuf_c0 (F := F) d L i0 i1 g0) (ix1 (n := 128) (x 0))).toNat = (Cert.Spec.rowOf _).val
    rw [Cert.Spec.rowOf_of_lt (hin1 _), idxB_read_c0, tokB_c0]
  | ⟨1, _⟩ =>
    show (x 1).val = (k0_off2 L) 1 + 1 * (x 1).val
    rw [k0_off2_eq]
    simp

variable [FloatOps F] (sh : PosShare TreeShare)

/-- The task on the tile at grid coordinates `L`: from its rows of the token arrays, a read share of each table and
    its blocks of the results at any contents, to the same with the blocks at the gathered arrays. -/
theorem tile0 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes0 d L sh i0 i1 t0 t1
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L (Memref.whole main_v3_scv) (Memref.isWhole_whole _) (Memref.whole main_v4_scv) (Memref.isWhole_whole _) (Memref.whole main_arg2_scv) (Memref.isWhole_whole _) (Memref.whole main_arg3_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1)
          fun _ => iprop(tdRes0 d L sh i0 i1 t0 t1 ∗ scopedBufs (V d (cV L) (jV L)) ∗ scopedSems0 (V d (cV L) (jV L)) ∗ ∃ W', ⌜∀ p ∈ W', p ∈ W ∨ p.2 = none⌝ ∗ owes (V d (cV L) (jV L)) O W') := by
  simp only [cc0__sc_gather_eq_skeleton]; unfold cc0__sc_gather_skel
  simp only [k0_part1_eq_skeleton]; unfold k0_part1_skel
  rw [(K (F := F)).scopedBufs_V facts d (cV L) (jV L), SparseCore.Cfg.scopedSems0_V (Val := Elt F) d (cV L) (jV L), sems_c0, bufs_c0]
  unfold goRes0 tdRes0
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV L) (jV L)) hO) $$ Hlv
  ihave Hi0 := (Entails.of_eq (pts_rowA_c0 (F := F) d L _).symm) $$ Hi0
  ihave Hi1 := (Entails.of_eq (pts_rowB_c0 (F := F) d L _).symm) $$ Hi1
  ihave Ht0 := (Entails.of_eq (pts_tabA_c0 (F := F) d L _ _).symm) $$ Ht0
  ihave Ht1 := (Entails.of_eq (pts_tabB_c0 (F := F) d L _ _).symm) $$ Ht1
  ihave Ho0 := (Entails.of_eq (pts_blkA_c0 (F := F) d L _).symm) $$ Ho0
  ihave Ho1 := (Entails.of_eq (pts_blkB_c0 (F := F) d L _).symm) $$ Ho1
  ihave Hs0 := (Entails.of_eq (pts_s0_c0 (F := F) d L _).symm) $$ Hs0
  ihave Hs1 := (Entails.of_eq (pts_s1_c0 (F := F) d L _).symm) $$ Hs1
  ihave Hs2 := (Entails.of_eq (pts_s2_c0 (F := F) d L _).symm) $$ Hs2
  -- the offsets in range, at whatever the index scratch held before the two row copies
  have hinA := hinA_c0 (F := F) d L i0 i1 hin0
  have hinB := hinB_c0 (F := F) d L i0 i1 hin1
  sl_exec
  sl_step
  -- the two blocks are the gathered arrays'
  have hvA : ∀ y ∈ (blkA0 L).view.set,
      (blkA0 L).view.writes (Elt F) fo0 [⟨Rect.whole S128x128, tile0.sl.dma0_2 d L i0 i1 t0 fs1 hinA⟩] y = gathered i0 t0 y :=
    valA_c0 (F := F) d L i0 i1 t0 hin0 fo0 fs1 _ _ _
  have hvB : ∀ y ∈ (blkB0 L).view.set,
      (blkB0 L).view.writes (Elt F) fo1 [⟨Rect.whole S128x128, tile0.sl.dma0_3 d L i0 i1 t1 fs2 hinB⟩] y = gathered i1 t1 y :=
    valB_c0 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c0 (F := F) d L _)); iexact Hi0
    isplitl [Hi1]; · iapply (Entails.of_eq (pts_rowB_c0 (F := F) d L _)); iexact Hi1
    isplitl [Ht0]; · iapply (Entails.of_eq (pts_tabA_c0 (F := F) d L _ _)); iexact Ht0
    isplitl [Ht1]; · iapply (Entails.of_eq (pts_tabB_c0 (F := F) d L _ _)); iexact Ht1
    isplitl [Ho0]; · iapply (Entails.of_eq (pts_blkA_c0 (F := F) d L _)); iexact Ho0
    iapply (Entails.of_eq (pts_blkB_c0 (F := F) d L _)); iexact Ho1
  isplitl [Hs0 Hs1 Hs2 Hbufs]
  · isplitl [Hs0]; · iexists _; iapply (Entails.of_eq (pts_s0_c0 (F := F) d L _)); iexact Hs0
    isplitl [Hs1]; · iexists _; iapply (Entails.of_eq (pts_s1_c0 (F := F) d L _)); iexact Hs1
    isplitl [Hs2]; · iexists _; iapply (Entails.of_eq (pts_s2_c0 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KB

end
-- ==== Proof.Bits.Tile1.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.Bits.TileRes
import proofs.«204601_g21792664060648_cont_8to1_111_20_alg».proof.Proof.Bits.TileRes1
import proofs.«204601_g21792664060648_cont_8to1_111_20_alg».proof.Proof.Bits.GatherRead
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid1.Coords)

/-- The cell of one of the tile's DMA semaphores. -/
abbrev cell_c1 (s : DmaSems sig S_) : GSem nD τ sig := (V d (cV1 L) (jV1 L), SemLoc.dma s.sem)

theorem cell_mem_c1 (s : DmaSems sig S_) (h : (SemLoc.dma s.sem : SemLoc sig).isScoped .scVector = true) :
    cell_c1 d L s ∈ ownCells (V d (cV1 L) (jV1 L)) := (mem_ownCells (g := cell_c1 d L s)).mpr ⟨rfl, h⟩

/-- The tile's own semaphores: the six this kernel uses, and the rest. -/
theorem sems_c1 :
    (ownSems0 (V d (cV1 L) (jV1 L)) : sProp 𝕄)
      = iprop(semVal (cell_c1 d L cc1_scratch3) 0 ∗ semVal (cell_c1 d L cc1_scratch4) 0 ∗ semVal (cell_c1 d L cc1_scratch5) 0
          ∗ semVal (cell_c1 d L cc1_scratch6) 0 ∗ semVal (cell_c1 d L cc1_scoped0) 0 ∗ semVal (cell_c1 d L cc1_scoped1) 0
          ∗ bigSep ((((((((ownCells (V d (cV1 L) (jV1 L))).erase (cell_c1 d L cc1_scratch3)).erase (cell_c1 d L cc1_scratch4)).erase (cell_c1 d L cc1_scratch5)).erase
              (cell_c1 d L cc1_scratch6)).erase (cell_c1 d L cc1_scoped0)).erase (cell_c1 d L cc1_scoped1))) fun g => semVal g 0) := by
  unfold SparseCore.Cfg.ownSems0
  rw [SparseCore.bigSep_erase' (cell_mem_c1 d L cc1_scratch3 (by decide)),
    SparseCore.bigSep_erase' (Finset.mem_erase.mpr ⟨cell_ne (by decide), cell_mem_c1 d L cc1_scratch4 (by decide)⟩),
    SparseCore.bigSep_erase' (Finset.mem_erase.mpr ⟨cell_ne (by decide), Finset.mem_erase.mpr ⟨cell_ne (by decide), cell_mem_c1 d L cc1_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c1 d L cc1_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c1 d L cc1_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c1 d L cc1_scoped1 (by decide)⟩⟩⟩⟩⟩)]

/-- The tile's own buffers: the three scratches of this kernel, at some contents, and the rest. -/
theorem bufs_c1 :
    (ownBufs (V d (cV1 L) (jV1 L)) : sProp 𝕄)
      = iprop((∃ f, (V d (cV1 L) (jV1 L)).loc cc1_scratch0 ↦{fullShare} f) ∗ (∃ f, (V d (cV1 L) (jV1 L)).loc cc1_scratch1 ↦{fullShare} f)
          ∗ (∃ f, (V d (cV1 L) (jV1 L)).loc cc1_scratch2 ↦{fullShare} f)
          ∗ bigSep ((((ownRefs (τ := τ) (.scVector (cV1 L) (jV1 L))).erase ((Proc.scVector (cV1 L) (jV1 L)).devRef cc1_scratch0)).erase
              ((Proc.scVector (cV1 L) (jV1 L)).devRef cc1_scratch1)).erase ((Proc.scVector (cV1 L) (jV1 L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV1 L) (jV1 L))
    (b := (Proc.scVector (cV1 L) (jV1 L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV1 L) (jV1 L)) (b := (Proc.scVector (cV1 L) (jV1 L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV1 L) (jV1 L)) (b := (Proc.scVector (cV1 L) (jV1 L)).devRef cc1_scratch2) rfl⟩⟩)]

/-- The arrays as the tile's memrefs address them are the TensorCore's arrays; the scratches are the tile's own. -/
theorem pts_rowA_c1 (f : Buf (Elt F) (tokA1 d)) :
    ((rowA1 L).view.loc (V d (cV1 L) (jV1 L)) ↦[(rowA1 L).view.set]{fullShare} f : sProp 𝕄) = tokA1 d ↦[(rowA1 L).view.set]{fullShare} f := rfl
theorem pts_rowB_c1 (f : Buf (Elt F) (tokB1 d)) :
    ((rowB1 L).view.loc (V d (cV1 L) (jV1 L)) ↦[(rowB1 L).view.set]{fullShare} f : sProp 𝕄) = tokB1 d ↦[(rowB1 L).view.set]{fullShare} f := rfl
theorem pts_blkA_c1 (f : Buf (Elt F) (outA1 d)) :
    ((blkA1 L).view.loc (V d (cV1 L) (jV1 L)) ↦[(blkA1 L).view.set]{fullShare} f : sProp 𝕄) = outA1 d ↦[(blkA1 L).view.set]{fullShare} f := rfl
theorem pts_blkB_c1 (f : Buf (Elt F) (outB1 d)) :
    ((blkB1 L).view.loc (V d (cV1 L) (jV1 L)) ↦[(blkB1 L).view.set]{fullShare} f : sProp 𝕄) = outB1 d ↦[(blkB1 L).view.set]{fullShare} f := rfl
theorem pts_tabA_c1 (q : PosShare TreeShare) (f : Buf (Elt F) (tabA d)) :
    ((Memref.whole main_arg2_scv : Memref sig .scVector .hbm S100000x128 .f32).view.loc (V d (cV1 L) (jV1 L)) ↦{q} f : sProp 𝕄) = tabA d ↦{q} f := rfl
theorem pts_tabB_c1 (q : PosShare TreeShare) (f : Buf (Elt F) (tabB d)) :
    ((Memref.whole main_arg3_scv : Memref sig .scVector .hbm S100000x128 .f32).view.loc (V d (cV1 L) (jV1 L)) ↦{q} f : sProp 𝕄) = tabB d ↦{q} f := rfl
theorem pts_s0_c1 (f : Buf (Elt F) ((V d (cV1 L) (jV1 L)).loc cc1_scratch0)) :
    ((Memref.whole cc1_scratch0 : Memref sig .scVector .vmem S2x128 .i32).view.loc (V d (cV1 L) (jV1 L)) ↦{fullShare} f : sProp 𝕄) = (V d (cV1 L) (jV1 L)).loc cc1_scratch0 ↦{fullShare} f := rfl
theorem pts_s1_c1 (f : Buf (Elt F) ((V d (cV1 L) (jV1 L)).loc cc1_scratch1)) :
    ((Memref.whole cc1_scratch1 : Memref sig .scVector .vmem S128x128 .f32).view.loc (V d (cV1 L) (jV1 L)) ↦{fullShare} f : sProp 𝕄) = (V d (cV1 L) (jV1 L)).loc cc1_scratch1 ↦{fullShare} f := rfl
theorem pts_s2_c1 (f : Buf (Elt F) ((V d (cV1 L) (jV1 L)).loc cc1_scratch2)) :
    ((Memref.whole cc1_scratch2 : Memref sig .scVector .vmem S128x128 .f32).view.loc (V d (cV1 L) (jV1 L)) ↦{fullShare} f : sProp 𝕄) = (V d (cV1 L) (jV1 L)).loc cc1_scratch2 ↦{fullShare} f := rfl

/-- The two rows of the index scratch, as offset lists. -/
abbrev idxA_c1 : Memref sig .scVector .vmem S128 .i32 :=
  ((Memref.whole cc1_scratch0).slice (Rect.unit (s := S2x128) ![0, 0] S1x128.size inb_S2x128_S1x128_0_0) (fun _ => rfl)).squeeze S128 squeezes_S1x128_S128
abbrev idxB_c1 : Memref sig .scVector .vmem S128 .i32 :=
  ((Memref.whole cc1_scratch0).slice (Rect.unit (s := S2x128) ![1, 0] S1x128.size inb_S2x128_S1x128_1_0) (fun _ => rfl)).squeeze S128 squeezes_S1x128_S128

/-- The index scratch after the two row copies, over any prior contents. -/
abbrev idxBuf_c1 (L : grid1.Coords) (i0 i1 : S32x128.Idx → BitVec 32) (g : Buf (Elt F) ((V d (cV1 L) (jV1 L)).loc cc1_scratch0)) :
    Buf (Elt F) ((V d (cV1 L) (jV1 L)).loc cc1_scratch0) :=
  (Memref.whole cc1_scratch0 : Memref sig .scVector .vmem S2x128 .i32).view.writes (Elt F) g
    [⟨Rect.unit (s := S2x128) ![1, 0] S1x128.size inb_S2x128_S1x128_1_0, ReadAs.same.apply ((rowB1 L).view.read (Elt F) i1)⟩,
     ⟨Rect.unit (s := S2x128) ![0, 0] S1x128.size inb_S2x128_S1x128_0_0, ReadAs.same.apply ((rowA1 L).view.read (Elt F) i0)⟩]

variable (i0 i1 : S32x128.Idx → BitVec 32)

/-- Entry `x` of the first offset list is the token at column `x` of the tile's row of the first token array,
    whatever the scratch held before the two row copies. -/
theorem idxA_read_c1 (g : Buf (Elt F) ((V d (cV1 L) (jV1 L)).loc cc1_scratch0)) (x : S128.Idx) :
    idxA_c1.view.read (Elt F) (idxBuf_c1 (F := F) d L i0 i1 g) x
      = (rowA1 L).view.read (Elt F) i0 (Shape.reshapeEquiv squeezes_S1x128_S128.numel_eq x) := by
  show (Memref.whole cc1_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc1_scratch0 : Memref sig .scVector .vmem S2x128 .i32).view g
    (⟨Rect.unit (s := S2x128) ![1, 0] S1x128.size inb_S2x128_S1x128_1_0, ReadAs.same.apply ((rowB1 L).view.read (Elt F) i1)⟩ : View.Piece (Elt F) S2x128 .i32)
    (⟨Rect.unit (s := S2x128) ![0, 0] S1x128.size inb_S2x128_S1x128_0_0, ReadAs.same.apply ((rowA1 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c1 (F := F) d L i0 i1 g = _ from hsw, View.read_writes_cons_emb]

theorem idxB_read_c1 (g : Buf (Elt F) ((V d (cV1 L) (jV1 L)).loc cc1_scratch0)) (x : S128.Idx) :
    idxB_c1.view.read (Elt F) (idxBuf_c1 (F := F) d L i0 i1 g) x
      = (rowB1 L).view.read (Elt F) i1 (Shape.reshapeEquiv squeezes_S1x128_S128.numel_eq x) := by
  show (Memref.whole cc1_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c1 (hin0 : ∀ j, (i0 j).toNat < 100000) (g : Buf (Elt F) ((V d (cV1 L) (jV1 L)).loc cc1_scratch0)) (x : S128.Idx) :
    (idxA_c1.view.read (Elt F) (idxBuf_c1 (F := F) d L i0 i1 g) x).toNat < 100000 := by
  rw [idxA_read_c1, View.read_apply, cast_eq]; exact hin0 _
theorem hinB_c1 (hin1 : ∀ j, (i1 j).toNat < 100000) (g : Buf (Elt F) ((V d (cV1 L) (jV1 L)).loc cc1_scratch0)) (x : S128.Idx) :
    (idxB_c1.view.read (Elt F) (idxBuf_c1 (F := F) d L i0 i1 g) x).toNat < 100000 := by
  rw [idxB_read_c1, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c1 (x : S128x128.Idx) :
    (rowA1 L).view.read (Elt F) i0 (Shape.reshapeEquiv squeezes_S1x128_S128.numel_eq (ix1 (n := 128) (x 0)))
      = i0 (ix2 (⟨(((blkA1 L).view.emb x) 0).val / 128, Nat.div_lt_of_lt_mul (((blkA1 L).view.emb x) 0).isLt⟩ : Fin 32)
          (⟨(((blkA1 L).view.emb x) 0).val % 128, Nat.mod_lt _ (by decide)⟩ : Fin 128)) := by
  rw [View.read_apply, cast_eq]
  refine congrArg i0 ?_
  refine (congrArg (rowA1 L).view.emb (unsq_apply (x 0))).trans ?_
  have hx : (x 0).val < 128 := (x 0).isLt
  have hL0 : (L 0).val < 2 := (L 0).isLt
  funext a; apply Fin.ext
  match a with
  | ⟨0, _⟩ =>
    show (k1_off1 L) 0 + 1 * 0 = ((k1_off2 L) 0 + 1 * (x 0).val) / 128
    rw [k1_off1_eq, k1_off2_eq]
    simp only [Matrix.cons_val_zero]
    omega
  | ⟨1, _⟩ =>
    show (k1_off1 L) 1 + 1 * (x 0).val = ((k1_off2 L) 0 + 1 * (x 0).val) % 128
    rw [k1_off1_eq, k1_off2_eq]
    simp only [Matrix.cons_val_zero, Matrix.cons_val_one]
    omega

/-- The block a tile writes of the first result is the gathered array's. -/
theorem valA_c1 (hin0 : ∀ j, (i0 j).toNat < 100000) (fo : Buf (Elt F) (outA1 d)) (fs : Buf (Elt F) ((V d (cV1 L) (jV1 L)).loc cc1_scratch1))
    (g0 : Buf (Elt F) ((V d (cV1 L) (jV1 L)).loc cc1_scratch0))
    (hn : S128.numel = S128x128.size gathers_S100000x128_S128x128.axis')
    (hin : ∀ x, (idxA_c1.view.read (Elt F) (idxBuf_c1 (F := F) d L i0 i1 g0) x).toNat < S100000x128.size gathers_S100000x128_S128x128.axis) :
    ∀ y ∈ (blkA1 L).view.set,
      (blkA1 L).view.writes (Elt F) fo [⟨Rect.whole S128x128, ReadAs.same.apply
          ((Memref.whole cc1_scratch1 : Memref sig .scVector .vmem S128x128 .f32).view.read (Elt F)
            ((Memref.whole cc1_scratch1 : Memref sig .scVector .vmem S128x128 .f32).view.writes (Elt F) fs
              [⟨Rect.whole S128x128, SparseCore.gatherPayload gathers_S100000x128_S128x128 (srcA.view.read (Elt F) t0)
                  (SparseCore.rows (idxA_c1.view.read (Elt F) (idxBuf_c1 (F := F) d L i0 i1 g0)) hn hin)⟩]))⟩] y
        = gathered i0 t0 y := by
  intro y hy
  obtain ⟨x, -, rfl⟩ := Finset.mem_map.mp hy
  have h1 := read_writes_whole (Val := Elt F) (blkA1 L).view fo (ReadAs.same.apply
          ((Memref.whole cc1_scratch1 : Memref sig .scVector .vmem S128x128 .f32).view.read (Elt F)
            ((Memref.whole cc1_scratch1 : Memref sig .scVector .vmem S128x128 .f32).view.writes (Elt F) fs
              [⟨Rect.whole S128x128, SparseCore.gatherPayload gathers_S100000x128_S128x128 (srcA.view.read (Elt F) t0)
                  (SparseCore.rows (idxA_c1.view.read (Elt F) (idxBuf_c1 (F := F) d L i0 i1 g0)) hn hin)⟩]))) x
  rw [View.read_apply, cast_eq] at h1
  refine h1.trans ?_
  refine (read_writes_whole (Val := Elt F) (Memref.whole cc1_scratch1 : Memref sig .scVector .vmem S128x128 .f32).view fs _ x).trans ?_
  refine (gather_apply (F := F) (srcA.view.read (Elt F) t0) (idxA_c1.view.read (Elt F) (idxBuf_c1 (F := F) d L i0 i1 g0)) hn hin x).trans ?_
  rw [srcA_read]
  unfold gathered
  refine congrArg t0 ?_
  funext a; apply Fin.ext
  match a with
  | ⟨0, _⟩ =>
    show (idxA_c1.view.read (Elt F) (idxBuf_c1 (F := F) d L i0 i1 g0) (ix1 (n := 128) (x 0))).toNat = (Cert.Spec.rowOf _).val
    rw [Cert.Spec.rowOf_of_lt (hin0 _), idxA_read_c1, tokA_c1]
  | ⟨1, _⟩ =>
    show (x 1).val = (k1_off2 L) 1 + 1 * (x 1).val
    rw [k1_off2_eq]
    simp

/-- The token by which row `x 0` of the tile's block is looked up: column `x 0` of the tile's row of the second token array is
    token `(y / 128, y % 128)` for `y` the row's place in the whole result. -/
theorem tokB_c1 (x : S128x128.Idx) :
    (rowB1 L).view.read (Elt F) i1 (Shape.reshapeEquiv squeezes_S1x128_S128.numel_eq (ix1 (n := 128) (x 0)))
      = i1 (ix2 (⟨(((blkB1 L).view.emb x) 0).val / 128, Nat.div_lt_of_lt_mul (((blkB1 L).view.emb x) 0).isLt⟩ : Fin 32)
          (⟨(((blkB1 L).view.emb x) 0).val % 128, Nat.mod_lt _ (by decide)⟩ : Fin 128)) := by
  rw [View.read_apply, cast_eq]
  refine congrArg i1 ?_
  refine (congrArg (rowB1 L).view.emb (unsq_apply (x 0))).trans ?_
  have hx : (x 0).val < 128 := (x 0).isLt
  have hL0 : (L 0).val < 2 := (L 0).isLt
  funext a; apply Fin.ext
  match a with
  | ⟨0, _⟩ =>
    show (k1_off1 L) 0 + 1 * 0 = ((k1_off2 L) 0 + 1 * (x 0).val) / 128
    rw [k1_off1_eq, k1_off2_eq]
    simp only [Matrix.cons_val_zero]
    omega
  | ⟨1, _⟩ =>
    show (k1_off1 L) 1 + 1 * (x 0).val = ((k1_off2 L) 0 + 1 * (x 0).val) % 128
    rw [k1_off1_eq, k1_off2_eq]
    simp only [Matrix.cons_val_zero, Matrix.cons_val_one]
    omega

/-- The block a tile writes of the second result is the gathered array's. -/
theorem valB_c1 (hin1 : ∀ j, (i1 j).toNat < 100000) (fo : Buf (Elt F) (outB1 d)) (fs : Buf (Elt F) ((V d (cV1 L) (jV1 L)).loc cc1_scratch2))
    (g0 : Buf (Elt F) ((V d (cV1 L) (jV1 L)).loc cc1_scratch0))
    (hn : S128.numel = S128x128.size gathers_S100000x128_S128x128.axis')
    (hin : ∀ x, (idxB_c1.view.read (Elt F) (idxBuf_c1 (F := F) d L i0 i1 g0) x).toNat < S100000x128.size gathers_S100000x128_S128x128.axis) :
    ∀ y ∈ (blkB1 L).view.set,
      (blkB1 L).view.writes (Elt F) fo [⟨Rect.whole S128x128, ReadAs.same.apply
          ((Memref.whole cc1_scratch2 : Memref sig .scVector .vmem S128x128 .f32).view.read (Elt F)
            ((Memref.whole cc1_scratch2 : Memref sig .scVector .vmem S128x128 .f32).view.writes (Elt F) fs
              [⟨Rect.whole S128x128, SparseCore.gatherPayload gathers_S100000x128_S128x128 (srcB.view.read (Elt F) t1)
                  (SparseCore.rows (idxB_c1.view.read (Elt F) (idxBuf_c1 (F := F) d L i0 i1 g0)) hn hin)⟩]))⟩] y
        = gathered i1 t1 y := by
  intro y hy
  obtain ⟨x, -, rfl⟩ := Finset.mem_map.mp hy
  have h1 := read_writes_whole (Val := Elt F) (blkB1 L).view fo (ReadAs.same.apply
          ((Memref.whole cc1_scratch2 : Memref sig .scVector .vmem S128x128 .f32).view.read (Elt F)
            ((Memref.whole cc1_scratch2 : Memref sig .scVector .vmem S128x128 .f32).view.writes (Elt F) fs
              [⟨Rect.whole S128x128, SparseCore.gatherPayload gathers_S100000x128_S128x128 (srcB.view.read (Elt F) t1)
                  (SparseCore.rows (idxB_c1.view.read (Elt F) (idxBuf_c1 (F := F) d L i0 i1 g0)) hn hin)⟩]))) x
  rw [View.read_apply, cast_eq] at h1
  refine h1.trans ?_
  refine (read_writes_whole (Val := Elt F) (Memref.whole cc1_scratch2 : Memref sig .scVector .vmem S128x128 .f32).view fs _ x).trans ?_
  refine (gather_apply (F := F) (srcB.view.read (Elt F) t1) (idxB_c1.view.read (Elt F) (idxBuf_c1 (F := F) d L i0 i1 g0)) hn hin x).trans ?_
  rw [srcB_read]
  unfold gathered
  refine congrArg t1 ?_
  funext a; apply Fin.ext
  match a with
  | ⟨0, _⟩ =>
    show (idxB_c1.view.read (Elt F) (idxBuf_c1 (F := F) d L i0 i1 g0) (ix1 (n := 128) (x 0))).toNat = (Cert.Spec.rowOf _).val
    rw [Cert.Spec.rowOf_of_lt (hin1 _), idxB_read_c1, tokB_c1]
  | ⟨1, _⟩ =>
    show (x 1).val = (k1_off2 L) 1 + 1 * (x 1).val
    rw [k1_off2_eq]
    simp

variable [FloatOps F] (sh : PosShare TreeShare)

/-- The task on the tile at grid coordinates `L`: from its rows of the token arrays, a read share of each table and
    its blocks of the results at any contents, to the same with the blocks at the gathered arrays. -/
theorem tile1 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes1 d L sh i0 i1 t0 t1
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__sc_gather L (Memref.whole main_v6_scv) (Memref.isWhole_whole _) (Memref.whole main_v7_scv) (Memref.isWhole_whole _) (Memref.whole main_arg2_scv) (Memref.isWhole_whole _) (Memref.whole main_arg3_scv) (Memref.isWhole_whole _) (Memref.whole main_v8_0_scv) (Memref.isWhole_whole _) (Memref.whole main_v8_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0 cc1_scoped1)
          fun _ => iprop(tdRes1 d L sh i0 i1 t0 t1 ∗ scopedBufs (V d (cV1 L) (jV1 L)) ∗ scopedSems0 (V d (cV1 L) (jV1 L)) ∗ ∃ W', ⌜∀ p ∈ W', p ∈ W ∨ p.2 = none⌝ ∗ owes (V d (cV1 L) (jV1 L)) O W') := by
  simp only [cc1__sc_gather_eq_skeleton]; unfold cc1__sc_gather_skel
  simp only [k1_part1_eq_skeleton]; unfold k1_part1_skel
  rw [(K (F := F)).scopedBufs_V facts d (cV1 L) (jV1 L), SparseCore.Cfg.scopedSems0_V (Val := Elt F) d (cV1 L) (jV1 L), sems_c1, bufs_c1]
  unfold goRes1 tdRes1
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV1 L) (jV1 L)) hO) $$ Hlv
  ihave Hi0 := (Entails.of_eq (pts_rowA_c1 (F := F) d L _).symm) $$ Hi0
  ihave Hi1 := (Entails.of_eq (pts_rowB_c1 (F := F) d L _).symm) $$ Hi1
  ihave Ht0 := (Entails.of_eq (pts_tabA_c1 (F := F) d L _ _).symm) $$ Ht0
  ihave Ht1 := (Entails.of_eq (pts_tabB_c1 (F := F) d L _ _).symm) $$ Ht1
  ihave Ho0 := (Entails.of_eq (pts_blkA_c1 (F := F) d L _).symm) $$ Ho0
  ihave Ho1 := (Entails.of_eq (pts_blkB_c1 (F := F) d L _).symm) $$ Ho1
  ihave Hs0 := (Entails.of_eq (pts_s0_c1 (F := F) d L _).symm) $$ Hs0
  ihave Hs1 := (Entails.of_eq (pts_s1_c1 (F := F) d L _).symm) $$ Hs1
  ihave Hs2 := (Entails.of_eq (pts_s2_c1 (F := F) d L _).symm) $$ Hs2
  -- the offsets in range, at whatever the index scratch held before the two row copies
  have hinA := hinA_c1 (F := F) d L i0 i1 hin0
  have hinB := hinB_c1 (F := F) d L i0 i1 hin1
  sl_exec
  sl_step
  -- the two blocks are the gathered arrays'
  have hvA : ∀ y ∈ (blkA1 L).view.set,
      (blkA1 L).view.writes (Elt F) fo0 [⟨Rect.whole S128x128, tile1.sl.dma0_2 d L i0 i1 t0 fs1 hinA⟩] y = gathered i0 t0 y :=
    valA_c1 (F := F) d L i0 i1 t0 hin0 fo0 fs1 _ _ _
  have hvB : ∀ y ∈ (blkB1 L).view.set,
      (blkB1 L).view.writes (Elt F) fo1 [⟨Rect.whole S128x128, tile1.sl.dma0_3 d L i0 i1 t1 fs2 hinB⟩] y = gathered i1 t1 y :=
    valB_c1 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c1 (F := F) d L _)); iexact Hi0
    isplitl [Hi1]; · iapply (Entails.of_eq (pts_rowB_c1 (F := F) d L _)); iexact Hi1
    isplitl [Ht0]; · iapply (Entails.of_eq (pts_tabA_c1 (F := F) d L _ _)); iexact Ht0
    isplitl [Ht1]; · iapply (Entails.of_eq (pts_tabB_c1 (F := F) d L _ _)); iexact Ht1
    isplitl [Ho0]; · iapply (Entails.of_eq (pts_blkA_c1 (F := F) d L _)); iexact Ho0
    iapply (Entails.of_eq (pts_blkB_c1 (F := F) d L _)); iexact Ho1
  isplitl [Hs0 Hs1 Hs2 Hbufs]
  · isplitl [Hs0]; · iexists _; iapply (Entails.of_eq (pts_s0_c1 (F := F) d L _)); iexact Hs0
    isplitl [Hs1]; · iexists _; iapply (Entails.of_eq (pts_s1_c1 (F := F) d L _)); iexact Hs1
    isplitl [Hs2]; · iexists _; iapply (Entails.of_eq (pts_s2_c1 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KB

end
-- ==== Proof.Bits.Tile2.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.Bits.TileRes
import proofs.«204601_g21792664060648_cont_8to1_111_20_alg».proof.Proof.Bits.TileRes2
import proofs.«204601_g21792664060648_cont_8to1_111_20_alg».proof.Proof.Bits.GatherRead
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid2.Coords)

/-- The cell of one of the tile's DMA semaphores. -/
abbrev cell_c2 (s : DmaSems sig S_) : GSem nD τ sig := (V d (cV2 L) (jV2 L), SemLoc.dma s.sem)

theorem cell_mem_c2 (s : DmaSems sig S_) (h : (SemLoc.dma s.sem : SemLoc sig).isScoped .scVector = true) :
    cell_c2 d L s ∈ ownCells (V d (cV2 L) (jV2 L)) := (mem_ownCells (g := cell_c2 d L s)).mpr ⟨rfl, h⟩

/-- The tile's own semaphores: the six this kernel uses, and the rest. -/
theorem sems_c2 :
    (ownSems0 (V d (cV2 L) (jV2 L)) : sProp 𝕄)
      = iprop(semVal (cell_c2 d L cc2_scratch3) 0 ∗ semVal (cell_c2 d L cc2_scratch4) 0 ∗ semVal (cell_c2 d L cc2_scratch5) 0
          ∗ semVal (cell_c2 d L cc2_scratch6) 0 ∗ semVal (cell_c2 d L cc2_scoped0) 0 ∗ semVal (cell_c2 d L cc2_scoped1) 0
          ∗ bigSep ((((((((ownCells (V d (cV2 L) (jV2 L))).erase (cell_c2 d L cc2_scratch3)).erase (cell_c2 d L cc2_scratch4)).erase (cell_c2 d L cc2_scratch5)).erase
              (cell_c2 d L cc2_scratch6)).erase (cell_c2 d L cc2_scoped0)).erase (cell_c2 d L cc2_scoped1))) fun g => semVal g 0) := by
  unfold SparseCore.Cfg.ownSems0
  rw [SparseCore.bigSep_erase' (cell_mem_c2 d L cc2_scratch3 (by decide)),
    SparseCore.bigSep_erase' (Finset.mem_erase.mpr ⟨cell_ne (by decide), cell_mem_c2 d L cc2_scratch4 (by decide)⟩),
    SparseCore.bigSep_erase' (Finset.mem_erase.mpr ⟨cell_ne (by decide), Finset.mem_erase.mpr ⟨cell_ne (by decide), cell_mem_c2 d L cc2_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c2 d L cc2_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c2 d L cc2_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c2 d L cc2_scoped1 (by decide)⟩⟩⟩⟩⟩)]

/-- The tile's own buffers: the three scratches of this kernel, at some contents, and the rest. -/
theorem bufs_c2 :
    (ownBufs (V d (cV2 L) (jV2 L)) : sProp 𝕄)
      = iprop((∃ f, (V d (cV2 L) (jV2 L)).loc cc2_scratch0 ↦{fullShare} f) ∗ (∃ f, (V d (cV2 L) (jV2 L)).loc cc2_scratch1 ↦{fullShare} f)
          ∗ (∃ f, (V d (cV2 L) (jV2 L)).loc cc2_scratch2 ↦{fullShare} f)
          ∗ bigSep ((((ownRefs (τ := τ) (.scVector (cV2 L) (jV2 L))).erase ((Proc.scVector (cV2 L) (jV2 L)).devRef cc2_scratch0)).erase
              ((Proc.scVector (cV2 L) (jV2 L)).devRef cc2_scratch1)).erase ((Proc.scVector (cV2 L) (jV2 L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV2 L) (jV2 L)) (b := (Proc.scVector (cV2 L) (jV2 L)).devRef cc2_scratch2) rfl⟩⟩)]

/-- The arrays as the tile's memrefs address them are the TensorCore's arrays; the scratches are the tile's own. -/
theorem pts_rowA_c2 (f : Buf (Elt F) (tokA2 d)) :
    ((rowA2 L).view.loc (V d (cV2 L) (jV2 L)) ↦[(rowA2 L).view.set]{fullShare} f : sProp 𝕄) = tokA2 d ↦[(rowA2 L).view.set]{fullShare} f := rfl
theorem pts_rowB_c2 (f : Buf (Elt F) (tokB2 d)) :
    ((rowB2 L).view.loc (V d (cV2 L) (jV2 L)) ↦[(rowB2 L).view.set]{fullShare} f : sProp 𝕄) = tokB2 d ↦[(rowB2 L).view.set]{fullShare} f := rfl
theorem pts_blkA_c2 (f : Buf (Elt F) (outA2 d)) :
    ((blkA2 L).view.loc (V d (cV2 L) (jV2 L)) ↦[(blkA2 L).view.set]{fullShare} f : sProp 𝕄) = outA2 d ↦[(blkA2 L).view.set]{fullShare} f := rfl
theorem pts_blkB_c2 (f : Buf (Elt F) (outB2 d)) :
    ((blkB2 L).view.loc (V d (cV2 L) (jV2 L)) ↦[(blkB2 L).view.set]{fullShare} f : sProp 𝕄) = outB2 d ↦[(blkB2 L).view.set]{fullShare} f := rfl
theorem pts_tabA_c2 (q : PosShare TreeShare) (f : Buf (Elt F) (tabA d)) :
    ((Memref.whole main_arg2_scv : Memref sig .scVector .hbm S100000x128 .f32).view.loc (V d (cV2 L) (jV2 L)) ↦{q} f : sProp 𝕄) = tabA d ↦{q} f := rfl
theorem pts_tabB_c2 (q : PosShare TreeShare) (f : Buf (Elt F) (tabB d)) :
    ((Memref.whole main_arg3_scv : Memref sig .scVector .hbm S100000x128 .f32).view.loc (V d (cV2 L) (jV2 L)) ↦{q} f : sProp 𝕄) = tabB d ↦{q} f := rfl
theorem pts_s0_c2 (f : Buf (Elt F) ((V d (cV2 L) (jV2 L)).loc cc2_scratch0)) :
    ((Memref.whole cc2_scratch0 : Memref sig .scVector .vmem S2x128 .i32).view.loc (V d (cV2 L) (jV2 L)) ↦{fullShare} f : sProp 𝕄) = (V d (cV2 L) (jV2 L)).loc cc2_scratch0 ↦{fullShare} f := rfl
theorem pts_s1_c2 (f : Buf (Elt F) ((V d (cV2 L) (jV2 L)).loc cc2_scratch1)) :
    ((Memref.whole cc2_scratch1 : Memref sig .scVector .vmem S128x128 .f32).view.loc (V d (cV2 L) (jV2 L)) ↦{fullShare} f : sProp 𝕄) = (V d (cV2 L) (jV2 L)).loc cc2_scratch1 ↦{fullShare} f := rfl
theorem pts_s2_c2 (f : Buf (Elt F) ((V d (cV2 L) (jV2 L)).loc cc2_scratch2)) :
    ((Memref.whole cc2_scratch2 : Memref sig .scVector .vmem S128x128 .f32).view.loc (V d (cV2 L) (jV2 L)) ↦{fullShare} f : sProp 𝕄) = (V d (cV2 L) (jV2 L)).loc cc2_scratch2 ↦{fullShare} f := rfl

/-- The two rows of the index scratch, as offset lists. -/
abbrev idxA_c2 : Memref sig .scVector .vmem S128 .i32 :=
  ((Memref.whole cc2_scratch0).slice (Rect.unit (s := S2x128) ![0, 0] S1x128.size inb_S2x128_S1x128_0_0) (fun _ => rfl)).squeeze S128 squeezes_S1x128_S128
abbrev idxB_c2 : Memref sig .scVector .vmem S128 .i32 :=
  ((Memref.whole cc2_scratch0).slice (Rect.unit (s := S2x128) ![1, 0] S1x128.size inb_S2x128_S1x128_1_0) (fun _ => rfl)).squeeze S128 squeezes_S1x128_S128

/-- The index scratch after the two row copies, over any prior contents. -/
abbrev idxBuf_c2 (L : grid2.Coords) (i0 i1 : S32x128.Idx → BitVec 32) (g : Buf (Elt F) ((V d (cV2 L) (jV2 L)).loc cc2_scratch0)) :
    Buf (Elt F) ((V d (cV2 L) (jV2 L)).loc cc2_scratch0) :=
  (Memref.whole cc2_scratch0 : Memref sig .scVector .vmem S2x128 .i32).view.writes (Elt F) g
    [⟨Rect.unit (s := S2x128) ![1, 0] S1x128.size inb_S2x128_S1x128_1_0, ReadAs.same.apply ((rowB2 L).view.read (Elt F) i1)⟩,
     ⟨Rect.unit (s := S2x128) ![0, 0] S1x128.size inb_S2x128_S1x128_0_0, ReadAs.same.apply ((rowA2 L).view.read (Elt F) i0)⟩]

variable (i0 i1 : S32x128.Idx → BitVec 32)

/-- Entry `x` of the first offset list is the token at column `x` of the tile's row of the first token array,
    whatever the scratch held before the two row copies. -/
theorem idxA_read_c2 (g : Buf (Elt F) ((V d (cV2 L) (jV2 L)).loc cc2_scratch0)) (x : S128.Idx) :
    idxA_c2.view.read (Elt F) (idxBuf_c2 (F := F) d L i0 i1 g) x
      = (rowA2 L).view.read (Elt F) i0 (Shape.reshapeEquiv squeezes_S1x128_S128.numel_eq x) := by
  show (Memref.whole cc2_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc2_scratch0 : Memref sig .scVector .vmem S2x128 .i32).view g
    (⟨Rect.unit (s := S2x128) ![1, 0] S1x128.size inb_S2x128_S1x128_1_0, ReadAs.same.apply ((rowB2 L).view.read (Elt F) i1)⟩ : View.Piece (Elt F) S2x128 .i32)
    (⟨Rect.unit (s := S2x128) ![0, 0] S1x128.size inb_S2x128_S1x128_0_0, ReadAs.same.apply ((rowA2 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c2 (F := F) d L i0 i1 g = _ from hsw, View.read_writes_cons_emb]

theorem idxB_read_c2 (g : Buf (Elt F) ((V d (cV2 L) (jV2 L)).loc cc2_scratch0)) (x : S128.Idx) :
    idxB_c2.view.read (Elt F) (idxBuf_c2 (F := F) d L i0 i1 g) x
      = (rowB2 L).view.read (Elt F) i1 (Shape.reshapeEquiv squeezes_S1x128_S128.numel_eq x) := by
  show (Memref.whole cc2_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c2 (hin0 : ∀ j, (i0 j).toNat < 100000) (g : Buf (Elt F) ((V d (cV2 L) (jV2 L)).loc cc2_scratch0)) (x : S128.Idx) :
    (idxA_c2.view.read (Elt F) (idxBuf_c2 (F := F) d L i0 i1 g) x).toNat < 100000 := by
  rw [idxA_read_c2, View.read_apply, cast_eq]; exact hin0 _
theorem hinB_c2 (hin1 : ∀ j, (i1 j).toNat < 100000) (g : Buf (Elt F) ((V d (cV2 L) (jV2 L)).loc cc2_scratch0)) (x : S128.Idx) :
    (idxB_c2.view.read (Elt F) (idxBuf_c2 (F := F) d L i0 i1 g) x).toNat < 100000 := by
  rw [idxB_read_c2, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c2 (x : S128x128.Idx) :
    (rowA2 L).view.read (Elt F) i0 (Shape.reshapeEquiv squeezes_S1x128_S128.numel_eq (ix1 (n := 128) (x 0)))
      = i0 (ix2 (⟨(((blkA2 L).view.emb x) 0).val / 128, Nat.div_lt_of_lt_mul (((blkA2 L).view.emb x) 0).isLt⟩ : Fin 32)
          (⟨(((blkA2 L).view.emb x) 0).val % 128, Nat.mod_lt _ (by decide)⟩ : Fin 128)) := by
  rw [View.read_apply, cast_eq]
  refine congrArg i0 ?_
  refine (congrArg (rowA2 L).view.emb (unsq_apply (x 0))).trans ?_
  have hx : (x 0).val < 128 := (x 0).isLt
  have hL0 : (L 0).val < 2 := (L 0).isLt
  funext a; apply Fin.ext
  match a with
  | ⟨0, _⟩ =>
    show (k2_off1 L) 0 + 1 * 0 = ((k2_off2 L) 0 + 1 * (x 0).val) / 128
    rw [k2_off1_eq, k2_off2_eq]
    simp only [Matrix.cons_val_zero]
    omega
  | ⟨1, _⟩ =>
    show (k2_off1 L) 1 + 1 * (x 0).val = ((k2_off2 L) 0 + 1 * (x 0).val) % 128
    rw [k2_off1_eq, k2_off2_eq]
    simp only [Matrix.cons_val_zero, Matrix.cons_val_one]
    omega

/-- The block a tile writes of the first result is the gathered array's. -/
theorem valA_c2 (hin0 : ∀ j, (i0 j).toNat < 100000) (fo : Buf (Elt F) (outA2 d)) (fs : Buf (Elt F) ((V d (cV2 L) (jV2 L)).loc cc2_scratch1))
    (g0 : Buf (Elt F) ((V d (cV2 L) (jV2 L)).loc cc2_scratch0))
    (hn : S128.numel = S128x128.size gathers_S100000x128_S128x128.axis')
    (hin : ∀ x, (idxA_c2.view.read (Elt F) (idxBuf_c2 (F := F) d L i0 i1 g0) x).toNat < S100000x128.size gathers_S100000x128_S128x128.axis) :
    ∀ y ∈ (blkA2 L).view.set,
      (blkA2 L).view.writes (Elt F) fo [⟨Rect.whole S128x128, ReadAs.same.apply
          ((Memref.whole cc2_scratch1 : Memref sig .scVector .vmem S128x128 .f32).view.read (Elt F)
            ((Memref.whole cc2_scratch1 : Memref sig .scVector .vmem S128x128 .f32).view.writes (Elt F) fs
              [⟨Rect.whole S128x128, SparseCore.gatherPayload gathers_S100000x128_S128x128 (srcA.view.read (Elt F) t0)
                  (SparseCore.rows (idxA_c2.view.read (Elt F) (idxBuf_c2 (F := F) d L i0 i1 g0)) hn hin)⟩]))⟩] y
        = gathered i0 t0 y := by
  intro y hy
  obtain ⟨x, -, rfl⟩ := Finset.mem_map.mp hy
  have h1 := read_writes_whole (Val := Elt F) (blkA2 L).view fo (ReadAs.same.apply
          ((Memref.whole cc2_scratch1 : Memref sig .scVector .vmem S128x128 .f32).view.read (Elt F)
            ((Memref.whole cc2_scratch1 : Memref sig .scVector .vmem S128x128 .f32).view.writes (Elt F) fs
              [⟨Rect.whole S128x128, SparseCore.gatherPayload gathers_S100000x128_S128x128 (srcA.view.read (Elt F) t0)
                  (SparseCore.rows (idxA_c2.view.read (Elt F) (idxBuf_c2 (F := F) d L i0 i1 g0)) hn hin)⟩]))) x
  rw [View.read_apply, cast_eq] at h1
  refine h1.trans ?_
  refine (read_writes_whole (Val := Elt F) (Memref.whole cc2_scratch1 : Memref sig .scVector .vmem S128x128 .f32).view fs _ x).trans ?_
  refine (gather_apply (F := F) (srcA.view.read (Elt F) t0) (idxA_c2.view.read (Elt F) (idxBuf_c2 (F := F) d L i0 i1 g0)) hn hin x).trans ?_
  rw [srcA_read]
  unfold gathered
  refine congrArg t0 ?_
  funext a; apply Fin.ext
  match a with
  | ⟨0, _⟩ =>
    show (idxA_c2.view.read (Elt F) (idxBuf_c2 (F := F) d L i0 i1 g0) (ix1 (n := 128) (x 0))).toNat = (Cert.Spec.rowOf _).val
    rw [Cert.Spec.rowOf_of_lt (hin0 _), idxA_read_c2, tokA_c2]
  | ⟨1, _⟩ =>
    show (x 1).val = (k2_off2 L) 1 + 1 * (x 1).val
    rw [k2_off2_eq]
    simp

/-- The token by which row `x 0` of the tile's block is looked up: column `x 0` of the tile's row of the second token array is
    token `(y / 128, y % 128)` for `y` the row's place in the whole result. -/
theorem tokB_c2 (x : S128x128.Idx) :
    (rowB2 L).view.read (Elt F) i1 (Shape.reshapeEquiv squeezes_S1x128_S128.numel_eq (ix1 (n := 128) (x 0)))
      = i1 (ix2 (⟨(((blkB2 L).view.emb x) 0).val / 128, Nat.div_lt_of_lt_mul (((blkB2 L).view.emb x) 0).isLt⟩ : Fin 32)
          (⟨(((blkB2 L).view.emb x) 0).val % 128, Nat.mod_lt _ (by decide)⟩ : Fin 128)) := by
  rw [View.read_apply, cast_eq]
  refine congrArg i1 ?_
  refine (congrArg (rowB2 L).view.emb (unsq_apply (x 0))).trans ?_
  have hx : (x 0).val < 128 := (x 0).isLt
  have hL0 : (L 0).val < 2 := (L 0).isLt
  funext a; apply Fin.ext
  match a with
  | ⟨0, _⟩ =>
    show (k2_off1 L) 0 + 1 * 0 = ((k2_off2 L) 0 + 1 * (x 0).val) / 128
    rw [k2_off1_eq, k2_off2_eq]
    simp only [Matrix.cons_val_zero]
    omega
  | ⟨1, _⟩ =>
    show (k2_off1 L) 1 + 1 * (x 0).val = ((k2_off2 L) 0 + 1 * (x 0).val) % 128
    rw [k2_off1_eq, k2_off2_eq]
    simp only [Matrix.cons_val_zero, Matrix.cons_val_one]
    omega

/-- The block a tile writes of the second result is the gathered array's. -/
theorem valB_c2 (hin1 : ∀ j, (i1 j).toNat < 100000) (fo : Buf (Elt F) (outB2 d)) (fs : Buf (Elt F) ((V d (cV2 L) (jV2 L)).loc cc2_scratch2))
    (g0 : Buf (Elt F) ((V d (cV2 L) (jV2 L)).loc cc2_scratch0))
    (hn : S128.numel = S128x128.size gathers_S100000x128_S128x128.axis')
    (hin : ∀ x, (idxB_c2.view.read (Elt F) (idxBuf_c2 (F := F) d L i0 i1 g0) x).toNat < S100000x128.size gathers_S100000x128_S128x128.axis) :
    ∀ y ∈ (blkB2 L).view.set,
      (blkB2 L).view.writes (Elt F) fo [⟨Rect.whole S128x128, ReadAs.same.apply
          ((Memref.whole cc2_scratch2 : Memref sig .scVector .vmem S128x128 .f32).view.read (Elt F)
            ((Memref.whole cc2_scratch2 : Memref sig .scVector .vmem S128x128 .f32).view.writes (Elt F) fs
              [⟨Rect.whole S128x128, SparseCore.gatherPayload gathers_S100000x128_S128x128 (srcB.view.read (Elt F) t1)
                  (SparseCore.rows (idxB_c2.view.read (Elt F) (idxBuf_c2 (F := F) d L i0 i1 g0)) hn hin)⟩]))⟩] y
        = gathered i1 t1 y := by
  intro y hy
  obtain ⟨x, -, rfl⟩ := Finset.mem_map.mp hy
  have h1 := read_writes_whole (Val := Elt F) (blkB2 L).view fo (ReadAs.same.apply
          ((Memref.whole cc2_scratch2 : Memref sig .scVector .vmem S128x128 .f32).view.read (Elt F)
            ((Memref.whole cc2_scratch2 : Memref sig .scVector .vmem S128x128 .f32).view.writes (Elt F) fs
              [⟨Rect.whole S128x128, SparseCore.gatherPayload gathers_S100000x128_S128x128 (srcB.view.read (Elt F) t1)
                  (SparseCore.rows (idxB_c2.view.read (Elt F) (idxBuf_c2 (F := F) d L i0 i1 g0)) hn hin)⟩]))) x
  rw [View.read_apply, cast_eq] at h1
  refine h1.trans ?_
  refine (read_writes_whole (Val := Elt F) (Memref.whole cc2_scratch2 : Memref sig .scVector .vmem S128x128 .f32).view fs _ x).trans ?_
  refine (gather_apply (F := F) (srcB.view.read (Elt F) t1) (idxB_c2.view.read (Elt F) (idxBuf_c2 (F := F) d L i0 i1 g0)) hn hin x).trans ?_
  rw [srcB_read]
  unfold gathered
  refine congrArg t1 ?_
  funext a; apply Fin.ext
  match a with
  | ⟨0, _⟩ =>
    show (idxB_c2.view.read (Elt F) (idxBuf_c2 (F := F) d L i0 i1 g0) (ix1 (n := 128) (x 0))).toNat = (Cert.Spec.rowOf _).val
    rw [Cert.Spec.rowOf_of_lt (hin1 _), idxB_read_c2, tokB_c2]
  | ⟨1, _⟩ =>
    show (x 1).val = (k2_off2 L) 1 + 1 * (x 1).val
    rw [k2_off2_eq]
    simp

variable [FloatOps F] (sh : PosShare TreeShare)

/-- The task on the tile at grid coordinates `L`: from its rows of the token arrays, a read share of each table and
    its blocks of the results at any contents, to the same with the blocks at the gathered arrays. -/
theorem tile2 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes2 d L sh i0 i1 t0 t1
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2__sc_gather L (Memref.whole main_v9_scv) (Memref.isWhole_whole _) (Memref.whole main_v10_scv) (Memref.isWhole_whole _) (Memref.whole main_arg2_scv) (Memref.isWhole_whole _) (Memref.whole main_arg3_scv) (Memref.isWhole_whole _) (Memref.whole main_v11_0_scv) (Memref.isWhole_whole _) (Memref.whole main_v11_1_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scoped0 cc2_scoped1)
          fun _ => iprop(tdRes2 d L sh i0 i1 t0 t1 ∗ scopedBufs (V d (cV2 L) (jV2 L)) ∗ scopedSems0 (V d (cV2 L) (jV2 L)) ∗ ∃ W', ⌜∀ p ∈ W', p ∈ W ∨ p.2 = none⌝ ∗ owes (V d (cV2 L) (jV2 L)) O W') := by
  simp only [cc2__sc_gather_eq_skeleton]; unfold cc2__sc_gather_skel
  simp only [k2_part1_eq_skeleton]; unfold k2_part1_skel
  rw [(K (F := F)).scopedBufs_V facts d (cV2 L) (jV2 L), SparseCore.Cfg.scopedSems0_V (Val := Elt F) d (cV2 L) (jV2 L), sems_c2, bufs_c2]
  unfold goRes2 tdRes2
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV2 L) (jV2 L)) hO) $$ Hlv
  ihave Hi0 := (Entails.of_eq (pts_rowA_c2 (F := F) d L _).symm) $$ Hi0
  ihave Hi1 := (Entails.of_eq (pts_rowB_c2 (F := F) d L _).symm) $$ Hi1
  ihave Ht0 := (Entails.of_eq (pts_tabA_c2 (F := F) d L _ _).symm) $$ Ht0
  ihave Ht1 := (Entails.of_eq (pts_tabB_c2 (F := F) d L _ _).symm) $$ Ht1
  ihave Ho0 := (Entails.of_eq (pts_blkA_c2 (F := F) d L _).symm) $$ Ho0
  ihave Ho1 := (Entails.of_eq (pts_blkB_c2 (F := F) d L _).symm) $$ Ho1
  ihave Hs0 := (Entails.of_eq (pts_s0_c2 (F := F) d L _).symm) $$ Hs0
  ihave Hs1 := (Entails.of_eq (pts_s1_c2 (F := F) d L _).symm) $$ Hs1
  ihave Hs2 := (Entails.of_eq (pts_s2_c2 (F := F) d L _).symm) $$ Hs2
  -- the offsets in range, at whatever the index scratch held before the two row copies
  have hinA := hinA_c2 (F := F) d L i0 i1 hin0
  have hinB := hinB_c2 (F := F) d L i0 i1 hin1
  sl_exec
  sl_step
  -- the two blocks are the gathered arrays'
  have hvA : ∀ y ∈ (blkA2 L).view.set,
      (blkA2 L).view.writes (Elt F) fo0 [⟨Rect.whole S128x128, tile2.sl.dma0_2 d L i0 i1 t0 fs1 hinA⟩] y = gathered i0 t0 y :=
    valA_c2 (F := F) d L i0 i1 t0 hin0 fo0 fs1 _ _ _
  have hvB : ∀ y ∈ (blkB2 L).view.set,
      (blkB2 L).view.writes (Elt F) fo1 [⟨Rect.whole S128x128, tile2.sl.dma0_3 d L i0 i1 t1 fs2 hinB⟩] y = gathered i1 t1 y :=
    valB_c2 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c2 (F := F) d L _)); iexact Hi0
    isplitl [Hi1]; · iapply (Entails.of_eq (pts_rowB_c2 (F := F) d L _)); iexact Hi1
    isplitl [Ht0]; · iapply (Entails.of_eq (pts_tabA_c2 (F := F) d L _ _)); iexact Ht0
    isplitl [Ht1]; · iapply (Entails.of_eq (pts_tabB_c2 (F := F) d L _ _)); iexact Ht1
    isplitl [Ho0]; · iapply (Entails.of_eq (pts_blkA_c2 (F := F) d L _)); iexact Ho0
    iapply (Entails.of_eq (pts_blkB_c2 (F := F) d L _)); iexact Ho1
  isplitl [Hs0 Hs1 Hs2 Hbufs]
  · isplitl [Hs0]; · iexists _; iapply (Entails.of_eq (pts_s0_c2 (F := F) d L _)); iexact Hs0
    isplitl [Hs1]; · iexists _; iapply (Entails.of_eq (pts_s1_c2 (F := F) d L _)); iexact Hs1
    isplitl [Hs2]; · iexists _; iapply (Entails.of_eq (pts_s2_c2 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KB

end
-- ==== Proof.Bits.Tile3.lean ====
/-
  One vector subcore's task of the row-gather kernel, at a symbolic tile, with the value it leaves.

  The task copies the tile's row of each of the two token arrays into rows 0 and 1 of its index scratch, gathers from
  each table the 128 rows those tokens name, and copies the two gathered 128×128 blocks out to the tile's block of the
  two results. Every copy and every gather completes on a semaphore of its own and is waited for before what it wrote
  is read, so the task runs with no schedule: each transfer is issued from the semaphore's counter at zero and its wait
  hands back what it delivered.

  The value is carried in the run. After the two row copies, entry `x` of each offset list is the token at column `x`
  of the tile's row, whatever the scratch held before; that makes every offset a row of the table (the tokens are
  below the table's height) and names what each gather delivers. Row `x` of the tile's block of a result is then the
  table's row named by token `(w, x)`, `w` the tile's number; with `y = 128 w + x` the row's place in the whole
  result this is token `(y / 128, y % 128)`: the block agrees with `gathered`, one function of the whole arrays.
-/
import proofs.«204601_g21792664060648_cont_8to1_111_20_alg».proof.Proof.Bits.TileRes
import proofs.«204601_g21792664060648_cont_8to1_111_20_alg».proof.Proof.Bits.TileRes3
import proofs.«204601_g21792664060648_cont_8to1_111_20_alg».proof.Proof.Bits.GatherRead
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

section Tile

variable (d : Dev nD) (L : grid3.Coords)

/-- The cell of one of the tile's DMA semaphores. -/
abbrev cell_c3 (s : DmaSems sig S_) : GSem nD τ sig := (V d (cV3 L) (jV3 L), SemLoc.dma s.sem)

theorem cell_mem_c3 (s : DmaSems sig S_) (h : (SemLoc.dma s.sem : SemLoc sig).isScoped .scVector = true) :
    cell_c3 d L s ∈ ownCells (V d (cV3 L) (jV3 L)) := (mem_ownCells (g := cell_c3 d L s)).mpr ⟨rfl, h⟩

/-- The tile's own semaphores: the six this kernel uses, and the rest. -/
theorem sems_c3 :
    (ownSems0 (V d (cV3 L) (jV3 L)) : sProp 𝕄)
      = iprop(semVal (cell_c3 d L cc3_scratch3) 0 ∗ semVal (cell_c3 d L cc3_scratch4) 0 ∗ semVal (cell_c3 d L cc3_scratch5) 0
          ∗ semVal (cell_c3 d L cc3_scratch6) 0 ∗ semVal (cell_c3 d L cc3_scoped0) 0 ∗ semVal (cell_c3 d L cc3_scoped1) 0
          ∗ bigSep ((((((((ownCells (V d (cV3 L) (jV3 L))).erase (cell_c3 d L cc3_scratch3)).erase (cell_c3 d L cc3_scratch4)).erase (cell_c3 d L cc3_scratch5)).erase
              (cell_c3 d L cc3_scratch6)).erase (cell_c3 d L cc3_scoped0)).erase (cell_c3 d L cc3_scoped1))) fun g => semVal g 0) := by
  unfold SparseCore.Cfg.ownSems0
  rw [SparseCore.bigSep_erase' (cell_mem_c3 d L cc3_scratch3 (by decide)),
    SparseCore.bigSep_erase' (Finset.mem_erase.mpr ⟨cell_ne (by decide), cell_mem_c3 d L cc3_scratch4 (by decide)⟩),
    SparseCore.bigSep_erase' (Finset.mem_erase.mpr ⟨cell_ne (by decide), Finset.mem_erase.mpr ⟨cell_ne (by decide), cell_mem_c3 d L cc3_scratch5 (by decide)⟩⟩),
    SparseCore.bigSep_erase' (Finset.mem_erase.mpr ⟨cell_ne (by decide), Finset.mem_erase.mpr ⟨cell_ne (by decide), Finset.mem_erase.mpr ⟨cell_ne (by decide),
      cell_mem_c3 d L cc3_scratch6 (by decide)⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), cell_mem_c3 d L cc3_scoped0 (by decide)⟩⟩⟩⟩),
    SparseCore.bigSep_erase' (Finset.mem_erase.mpr ⟨cell_ne (by decide), Finset.mem_erase.mpr ⟨cell_ne (by decide), Finset.mem_erase.mpr ⟨cell_ne (by decide),
      Finset.mem_erase.mpr ⟨cell_ne (by decide), Finset.mem_erase.mpr ⟨cell_ne (by decide), cell_mem_c3 d L cc3_scoped1 (by decide)⟩⟩⟩⟩⟩)]

/-- The tile's own buffers: the three scratches of this kernel, at some contents, and the rest. -/
theorem bufs_c3 :
    (ownBufs (V d (cV3 L) (jV3 L)) : sProp 𝕄)
      = iprop((∃ f, (V d (cV3 L) (jV3 L)).loc cc3_scratch0 ↦{fullShare} f) ∗ (∃ f, (V d (cV3 L) (jV3 L)).loc cc3_scratch1 ↦{fullShare} f)
          ∗ (∃ f, (V d (cV3 L) (jV3 L)).loc cc3_scratch2 ↦{fullShare} f)
          ∗ bigSep ((((ownRefs (τ := τ) (.scVector (cV3 L) (jV3 L))).erase ((Proc.scVector (cV3 L) (jV3 L)).devRef cc3_scratch0)).erase
              ((Proc.scVector (cV3 L) (jV3 L)).devRef cc3_scratch1)).erase ((Proc.scVector (cV3 L) (jV3 L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV3 L) (jV3 L))
    (b := (Proc.scVector (cV3 L) (jV3 L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV3 L) (jV3 L)) (b := (Proc.scVector (cV3 L) (jV3 L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV3 L) (jV3 L)) (b := (Proc.scVector (cV3 L) (jV3 L)).devRef cc3_scratch2) rfl⟩⟩)]

/-- The arrays as the tile's memrefs address them are the TensorCore's arrays; the scratches are the tile's own. -/
theorem pts_rowA_c3 (f : Buf (Elt F) (tokA3 d)) :
    ((rowA3 L).view.loc (V d (cV3 L) (jV3 L)) ↦[(rowA3 L).view.set]{fullShare} f : sProp 𝕄) = tokA3 d ↦[(rowA3 L).view.set]{fullShare} f := rfl
theorem pts_rowB_c3 (f : Buf (Elt F) (tokB3 d)) :
    ((rowB3 L).view.loc (V d (cV3 L) (jV3 L)) ↦[(rowB3 L).view.set]{fullShare} f : sProp 𝕄) = tokB3 d ↦[(rowB3 L).view.set]{fullShare} f := rfl
theorem pts_blkA_c3 (f : Buf (Elt F) (outA3 d)) :
    ((blkA3 L).view.loc (V d (cV3 L) (jV3 L)) ↦[(blkA3 L).view.set]{fullShare} f : sProp 𝕄) = outA3 d ↦[(blkA3 L).view.set]{fullShare} f := rfl
theorem pts_blkB_c3 (f : Buf (Elt F) (outB3 d)) :
    ((blkB3 L).view.loc (V d (cV3 L) (jV3 L)) ↦[(blkB3 L).view.set]{fullShare} f : sProp 𝕄) = outB3 d ↦[(blkB3 L).view.set]{fullShare} f := rfl
theorem pts_tabA_c3 (q : PosShare TreeShare) (f : Buf (Elt F) (tabA d)) :
    ((Memref.whole main_arg2_scv : Memref sig .scVector .hbm S100000x128 .f32).view.loc (V d (cV3 L) (jV3 L)) ↦{q} f : sProp 𝕄) = tabA d ↦{q} f := rfl
theorem pts_tabB_c3 (q : PosShare TreeShare) (f : Buf (Elt F) (tabB d)) :
    ((Memref.whole main_arg3_scv : Memref sig .scVector .hbm S100000x128 .f32).view.loc (V d (cV3 L) (jV3 L)) ↦{q} f : sProp 𝕄) = tabB d ↦{q} f := rfl
theorem pts_s0_c3 (f : Buf (Elt F) ((V d (cV3 L) (jV3 L)).loc cc3_scratch0)) :
    ((Memref.whole cc3_scratch0 : Memref sig .scVector .vmem S2x128 .i32).view.loc (V d (cV3 L) (jV3 L)) ↦{fullShare} f : sProp 𝕄) = (V d (cV3 L) (jV3 L)).loc cc3_scratch0 ↦{fullShare} f := rfl
theorem pts_s1_c3 (f : Buf (Elt F) ((V d (cV3 L) (jV3 L)).loc cc3_scratch1)) :
    ((Memref.whole cc3_scratch1 : Memref sig .scVector .vmem S128x128 .f32).view.loc (V d (cV3 L) (jV3 L)) ↦{fullShare} f : sProp 𝕄) = (V d (cV3 L) (jV3 L)).loc cc3_scratch1 ↦{fullShare} f := rfl
theorem pts_s2_c3 (f : Buf (Elt F) ((V d (cV3 L) (jV3 L)).loc cc3_scratch2)) :
    ((Memref.whole cc3_scratch2 : Memref sig .scVector .vmem S128x128 .f32).view.loc (V d (cV3 L) (jV3 L)) ↦{fullShare} f : sProp 𝕄) = (V d (cV3 L) (jV3 L)).loc cc3_scratch2 ↦{fullShare} f := rfl

/-- The two rows of the index scratch, as offset lists. -/
abbrev idxA_c3 : Memref sig .scVector .vmem S128 .i32 :=
  ((Memref.whole cc3_scratch0).slice (Rect.unit (s := S2x128) ![0, 0] S1x128.size inb_S2x128_S1x128_0_0) (fun _ => rfl)).squeeze S128 squeezes_S1x128_S128
abbrev idxB_c3 : Memref sig .scVector .vmem S128 .i32 :=
  ((Memref.whole cc3_scratch0).slice (Rect.unit (s := S2x128) ![1, 0] S1x128.size inb_S2x128_S1x128_1_0) (fun _ => rfl)).squeeze S128 squeezes_S1x128_S128

/-- The index scratch after the two row copies, over any prior contents. -/
abbrev idxBuf_c3 (L : grid3.Coords) (i0 i1 : S32x128.Idx → BitVec 32) (g : Buf (Elt F) ((V d (cV3 L) (jV3 L)).loc cc3_scratch0)) :
    Buf (Elt F) ((V d (cV3 L) (jV3 L)).loc cc3_scratch0) :=
  (Memref.whole cc3_scratch0 : Memref sig .scVector .vmem S2x128 .i32).view.writes (Elt F) g
    [⟨Rect.unit (s := S2x128) ![1, 0] S1x128.size inb_S2x128_S1x128_1_0, ReadAs.same.apply ((rowB3 L).view.read (Elt F) i1)⟩,
     ⟨Rect.unit (s := S2x128) ![0, 0] S1x128.size inb_S2x128_S1x128_0_0, ReadAs.same.apply ((rowA3 L).view.read (Elt F) i0)⟩]

variable (i0 i1 : S32x128.Idx → BitVec 32)

/-- Entry `x` of the first offset list is the token at column `x` of the tile's row of the first token array,
    whatever the scratch held before the two row copies. -/
theorem idxA_read_c3 (g : Buf (Elt F) ((V d (cV3 L) (jV3 L)).loc cc3_scratch0)) (x : S128.Idx) :
    idxA_c3.view.read (Elt F) (idxBuf_c3 (F := F) d L i0 i1 g) x
      = (rowA3 L).view.read (Elt F) i0 (Shape.reshapeEquiv squeezes_S1x128_S128.numel_eq x) := by
  show (Memref.whole cc3_scratch0 : Memref sig .scVector .vmem S2x128 .i32).view.read (Elt F) _
      ((Rect.unit (s := S2x128) ![0, 0] S1x128.size inb_S2x128_S1x128_0_0).emb (Shape.reshapeEquiv squeezes_S1x128_S128.numel_eq x)) = _
  have hsw := View.writes_swap (Memref.whole cc3_scratch0 : Memref sig .scVector .vmem S2x128 .i32).view g
    (⟨Rect.unit (s := S2x128) ![1, 0] S1x128.size inb_S2x128_S1x128_1_0, ReadAs.same.apply ((rowB3 L).view.read (Elt F) i1)⟩ : View.Piece (Elt F) S2x128 .i32)
    (⟨Rect.unit (s := S2x128) ![0, 0] S1x128.size inb_S2x128_S1x128_0_0, ReadAs.same.apply ((rowA3 L).view.read (Elt F) i0)⟩ : View.Piece (Elt F) S2x128 .i32) []
    (Rect.unit_disjoint (s := S2x128) (inb := inb_S2x128_S1x128_1_0) (inb' := inb_S2x128_S1x128_0_0) 0 (Or.inr (by decide : (![0, 0] : Fin 2 → Nat) 0 + S1x128.size 0 ≤ (![1, 0] : Fin 2 → Nat) 0)))
  rw [show idxBuf_c3 (F := F) d L i0 i1 g = _ from hsw, View.read_writes_cons_emb]

theorem idxB_read_c3 (g : Buf (Elt F) ((V d (cV3 L) (jV3 L)).loc cc3_scratch0)) (x : S128.Idx) :
    idxB_c3.view.read (Elt F) (idxBuf_c3 (F := F) d L i0 i1 g) x
      = (rowB3 L).view.read (Elt F) i1 (Shape.reshapeEquiv squeezes_S1x128_S128.numel_eq x) := by
  show (Memref.whole cc3_scratch0 : Memref sig .scVector .vmem S2x128 .i32).view.read (Elt F) _
      ((Rect.unit (s := S2x128) ![1, 0] S1x128.size inb_S2x128_S1x128_1_0).emb (Shape.reshapeEquiv squeezes_S1x128_S128.numel_eq x)) = _
  rw [View.read_writes_cons_emb]

/-- The offsets are in range whenever the tokens are. -/
theorem hinA_c3 (hin0 : ∀ j, (i0 j).toNat < 100000) (g : Buf (Elt F) ((V d (cV3 L) (jV3 L)).loc cc3_scratch0)) (x : S128.Idx) :
    (idxA_c3.view.read (Elt F) (idxBuf_c3 (F := F) d L i0 i1 g) x).toNat < 100000 := by
  rw [idxA_read_c3, View.read_apply, cast_eq]; exact hin0 _
theorem hinB_c3 (hin1 : ∀ j, (i1 j).toNat < 100000) (g : Buf (Elt F) ((V d (cV3 L) (jV3 L)).loc cc3_scratch0)) (x : S128.Idx) :
    (idxB_c3.view.read (Elt F) (idxBuf_c3 (F := F) d L i0 i1 g) x).toNat < 100000 := by
  rw [idxB_read_c3, View.read_apply, cast_eq]; exact hin1 _

variable (t0 t1 : S100000x128.Idx → Elt F .f32)

/-- The token by which row `x 0` of the tile's block is looked up: column `x 0` of the tile's row of the token array is
    token `(y / 128, y % 128)` for `y` the row's place in the whole result. -/
theorem tokA_c3 (x : S128x128.Idx) :
    (rowA3 L).view.read (Elt F) i0 (Shape.reshapeEquiv squeezes_S1x128_S128.numel_eq (ix1 (n := 128) (x 0)))
      = i0 (ix2 (⟨(((blkA3 L).view.emb x) 0).val / 128, Nat.div_lt_of_lt_mul (((blkA3 L).view.emb x) 0).isLt⟩ : Fin 32)
          (⟨(((blkA3 L).view.emb x) 0).val % 128, Nat.mod_lt _ (by decide)⟩ : Fin 128)) := by
  rw [View.read_apply, cast_eq]
  refine congrArg i0 ?_
  refine (congrArg (rowA3 L).view.emb (unsq_apply (x 0))).trans ?_
  have hx : (x 0).val < 128 := (x 0).isLt
  have hL0 : (L 0).val < 2 := (L 0).isLt
  funext a; apply Fin.ext
  match a with
  | ⟨0, _⟩ =>
    show (k3_off1 L) 0 + 1 * 0 = ((k3_off2 L) 0 + 1 * (x 0).val) / 128
    rw [k3_off1_eq, k3_off2_eq]
    simp only [Matrix.cons_val_zero]
    omega
  | ⟨1, _⟩ =>
    show (k3_off1 L) 1 + 1 * (x 0).val = ((k3_off2 L) 0 + 1 * (x 0).val) % 128
    rw [k3_off1_eq, k3_off2_eq]
    simp only [Matrix.cons_val_zero, Matrix.cons_val_one]
    omega

/-- The block a tile writes of the first result is the gathered array's. -/
theorem valA_c3 (hin0 : ∀ j, (i0 j).toNat < 100000) (fo : Buf (Elt F) (outA3 d)) (fs : Buf (Elt F) ((V d (cV3 L) (jV3 L)).loc cc3_scratch1))
    (g0 : Buf (Elt F) ((V d (cV3 L) (jV3 L)).loc cc3_scratch0))
    (hn : S128.numel = S128x128.size gathers_S100000x128_S128x128.axis')
    (hin : ∀ x, (idxA_c3.view.read (Elt F) (idxBuf_c3 (F := F) d L i0 i1 g0) x).toNat < S100000x128.size gathers_S100000x128_S128x128.axis) :
    ∀ y ∈ (blkA3 L).view.set,
      (blkA3 L).view.writes (Elt F) fo [⟨Rect.whole S128x128, ReadAs.same.apply
          ((Memref.whole cc3_scratch1 : Memref sig .scVector .vmem S128x128 .f32).view.read (Elt F)
            ((Memref.whole cc3_scratch1 : Memref sig .scVector .vmem S128x128 .f32).view.writes (Elt F) fs
              [⟨Rect.whole S128x128, SparseCore.gatherPayload gathers_S100000x128_S128x128 (srcA.view.read (Elt F) t0)
                  (SparseCore.rows (idxA_c3.view.read (Elt F) (idxBuf_c3 (F := F) d L i0 i1 g0)) hn hin)⟩]))⟩] y
        = gathered i0 t0 y := by
  intro y hy
  obtain ⟨x, -, rfl⟩ := Finset.mem_map.mp hy
  have h1 := read_writes_whole (Val := Elt F) (blkA3 L).view fo (ReadAs.same.apply
          ((Memref.whole cc3_scratch1 : Memref sig .scVector .vmem S128x128 .f32).view.read (Elt F)
            ((Memref.whole cc3_scratch1 : Memref sig .scVector .vmem S128x128 .f32).view.writes (Elt F) fs
              [⟨Rect.whole S128x128, SparseCore.gatherPayload gathers_S100000x128_S128x128 (srcA.view.read (Elt F) t0)
                  (SparseCore.rows (idxA_c3.view.read (Elt F) (idxBuf_c3 (F := F) d L i0 i1 g0)) hn hin)⟩]))) x
  rw [View.read_apply, cast_eq] at h1
  refine h1.trans ?_
  refine (read_writes_whole (Val := Elt F) (Memref.whole cc3_scratch1 : Memref sig .scVector .vmem S128x128 .f32).view fs _ x).trans ?_
  refine (gather_apply (F := F) (srcA.view.read (Elt F) t0) (idxA_c3.view.read (Elt F) (idxBuf_c3 (F := F) d L i0 i1 g0)) hn hin x).trans ?_
  rw [srcA_read]
  unfold gathered
  refine congrArg t0 ?_
  funext a; apply Fin.ext
  match a with
  | ⟨0, _⟩ =>
    show (idxA_c3.view.read (Elt F) (idxBuf_c3 (F := F) d L i0 i1 g0) (ix1 (n := 128) (x 0))).toNat = (Cert.Spec.rowOf _).val
    rw [Cert.Spec.rowOf_of_lt (hin0 _), idxA_read_c3, tokA_c3]
  | ⟨1, _⟩ =>
    show (x 1).val = (k3_off2 L) 1 + 1 * (x 1).val
    rw [k3_off2_eq]
    simp

/-- The token by which row `x 0` of the tile's block is looked up: column `x 0` of the tile's row of the second token array is
    token `(y / 128, y % 128)` for `y` the row's place in the whole result. -/
theorem tokB_c3 (x : S128x128.Idx) :
    (rowB3 L).view.read (Elt F) i1 (Shape.reshapeEquiv squeezes_S1x128_S128.numel_eq (ix1 (n := 128) (x 0)))
      = i1 (ix2 (⟨(((blkB3 L).view.emb x) 0).val / 128, Nat.div_lt_of_lt_mul (((blkB3 L).view.emb x) 0).isLt⟩ : Fin 32)
          (⟨(((blkB3 L).view.emb x) 0).val % 128, Nat.mod_lt _ (by decide)⟩ : Fin 128)) := by
  rw [View.read_apply, cast_eq]
  refine congrArg i1 ?_
  refine (congrArg (rowB3 L).view.emb (unsq_apply (x 0))).trans ?_
  have hx : (x 0).val < 128 := (x 0).isLt
  have hL0 : (L 0).val < 2 := (L 0).isLt
  funext a; apply Fin.ext
  match a with
  | ⟨0, _⟩ =>
    show (k3_off1 L) 0 + 1 * 0 = ((k3_off2 L) 0 + 1 * (x 0).val) / 128
    rw [k3_off1_eq, k3_off2_eq]
    simp only [Matrix.cons_val_zero]
    omega
  | ⟨1, _⟩ =>
    show (k3_off1 L) 1 + 1 * (x 0).val = ((k3_off2 L) 0 + 1 * (x 0).val) % 128
    rw [k3_off1_eq, k3_off2_eq]
    simp only [Matrix.cons_val_zero, Matrix.cons_val_one]
    omega

/-- The block a tile writes of the second result is the gathered array's. -/
theorem valB_c3 (hin1 : ∀ j, (i1 j).toNat < 100000) (fo : Buf (Elt F) (outB3 d)) (fs : Buf (Elt F) ((V d (cV3 L) (jV3 L)).loc cc3_scratch2))
    (g0 : Buf (Elt F) ((V d (cV3 L) (jV3 L)).loc cc3_scratch0))
    (hn : S128.numel = S128x128.size gathers_S100000x128_S128x128.axis')
    (hin : ∀ x, (idxB_c3.view.read (Elt F) (idxBuf_c3 (F := F) d L i0 i1 g0) x).toNat < S100000x128.size gathers_S100000x128_S128x128.axis) :
    ∀ y ∈ (blkB3 L).view.set,
      (blkB3 L).view.writes (Elt F) fo [⟨Rect.whole S128x128, ReadAs.same.apply
          ((Memref.whole cc3_scratch2 : Memref sig .scVector .vmem S128x128 .f32).view.read (Elt F)
            ((Memref.whole cc3_scratch2 : Memref sig .scVector .vmem S128x128 .f32).view.writes (Elt F) fs
              [⟨Rect.whole S128x128, SparseCore.gatherPayload gathers_S100000x128_S128x128 (srcB.view.read (Elt F) t1)
                  (SparseCore.rows (idxB_c3.view.read (Elt F) (idxBuf_c3 (F := F) d L i0 i1 g0)) hn hin)⟩]))⟩] y
        = gathered i1 t1 y := by
  intro y hy
  obtain ⟨x, -, rfl⟩ := Finset.mem_map.mp hy
  have h1 := read_writes_whole (Val := Elt F) (blkB3 L).view fo (ReadAs.same.apply
          ((Memref.whole cc3_scratch2 : Memref sig .scVector .vmem S128x128 .f32).view.read (Elt F)
            ((Memref.whole cc3_scratch2 : Memref sig .scVector .vmem S128x128 .f32).view.writes (Elt F) fs
              [⟨Rect.whole S128x128, SparseCore.gatherPayload gathers_S100000x128_S128x128 (srcB.view.read (Elt F) t1)
                  (SparseCore.rows (idxB_c3.view.read (Elt F) (idxBuf_c3 (F := F) d L i0 i1 g0)) hn hin)⟩]))) x
  rw [View.read_apply, cast_eq] at h1
  refine h1.trans ?_
  refine (read_writes_whole (Val := Elt F) (Memref.whole cc3_scratch2 : Memref sig .scVector .vmem S128x128 .f32).view fs _ x).trans ?_
  refine (gather_apply (F := F) (srcB.view.read (Elt F) t1) (idxB_c3.view.read (Elt F) (idxBuf_c3 (F := F) d L i0 i1 g0)) hn hin x).trans ?_
  rw [srcB_read]
  unfold gathered
  refine congrArg t1 ?_
  funext a; apply Fin.ext
  match a with
  | ⟨0, _⟩ =>
    show (idxB_c3.view.read (Elt F) (idxBuf_c3 (F := F) d L i0 i1 g0) (ix1 (n := 128) (x 0))).toNat = (Cert.Spec.rowOf _).val
    rw [Cert.Spec.rowOf_of_lt (hin1 _), idxB_read_c3, tokB_c3]
  | ⟨1, _⟩ =>
    show (x 1).val = (k3_off2 L) 1 + 1 * (x 1).val
    rw [k3_off2_eq]
    simp

variable [FloatOps F] (sh : PosShare TreeShare)

/-- The task on the tile at grid coordinates `L`: from its rows of the token arrays, a read share of each table and
    its blocks of the results at any contents, to the same with the blocks at the gathered arrays. -/
theorem tile3 (hin0 : ∀ j, (i0 j).toNat < 100000) (hin1 : ∀ j, (i1 j).toNat < 100000)
    (O : CellTallies nD τ sig (HIx 4)) (W : Waits sig (HIx 4)) (hO : ∀ g, O g none = 0) :
    iprop(levAts (K (F := F)).L (K (F := F)).lev ∗ emp ∗ goRes3 d L sh i0 i1 t0 t1
        ∗ scopedBufs (V d (cV3 L) (jV3 L)) ∗ scopedSems0 (V d (cV3 L) (jV3 L)) ∗ owes (V d (cV3 L) (jV3 L)) O W)
      ⊢ wp frame (wpE (defs₀ (F := F)) 𝒱₀ (V d (cV3 L) (jV3 L)) none) Set.univ
          (cc3__sc_gather L (Memref.whole main_v12_scv) (Memref.isWhole_whole _) (Memref.whole main_v13_scv) (Memref.isWhole_whole _) (Memref.whole main_arg2_scv) (Memref.isWhole_whole _) (Memref.whole main_arg3_scv) (Memref.isWhole_whole _) (Memref.whole main_v14_0_scv) (Memref.isWhole_whole _) (Memref.whole main_v14_1_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scoped0 cc3_scoped1)
          fun _ => iprop(tdRes3 d L sh i0 i1 t0 t1 ∗ scopedBufs (V d (cV3 L) (jV3 L)) ∗ scopedSems0 (V d (cV3 L) (jV3 L)) ∗ ∃ W', ⌜∀ p ∈ W', p ∈ W ∨ p.2 = none⌝ ∗ owes (V d (cV3 L) (jV3 L)) O W') := by
  simp only [cc3__sc_gather_eq_skeleton]; unfold cc3__sc_gather_skel
  simp only [k3_part1_eq_skeleton]; unfold k3_part1_skel
  rw [(K (F := F)).scopedBufs_V facts d (cV3 L) (jV3 L), SparseCore.Cfg.scopedSems0_V (Val := Elt F) d (cV3 L) (jV3 L), sems_c3, bufs_c3]
  unfold goRes3 tdRes3
  iintro ⟨#Hlv, -, ⟨Hi0, Hi1, Ht0, Ht1, ⟨%fo0, Ho0⟩, ⟨%fo1, Ho1⟩⟩, ⟨⟨%fs0, Hs0⟩, ⟨%fs1, Hs1⟩, ⟨%fs2, Hs2⟩, Hbufs⟩, ⟨Hm3, Hm4, Hm5, Hm6, Hc0, Hc1, Hsems⟩, HO⟩
  ihave Hmw := ((K (F := F)).mayWaits_none (thr := V d (cV3 L) (jV3 L)) hO) $$ Hlv
  ihave Hi0 := (Entails.of_eq (pts_rowA_c3 (F := F) d L _).symm) $$ Hi0
  ihave Hi1 := (Entails.of_eq (pts_rowB_c3 (F := F) d L _).symm) $$ Hi1
  ihave Ht0 := (Entails.of_eq (pts_tabA_c3 (F := F) d L _ _).symm) $$ Ht0
  ihave Ht1 := (Entails.of_eq (pts_tabB_c3 (F := F) d L _ _).symm) $$ Ht1
  ihave Ho0 := (Entails.of_eq (pts_blkA_c3 (F := F) d L _).symm) $$ Ho0
  ihave Ho1 := (Entails.of_eq (pts_blkB_c3 (F := F) d L _).symm) $$ Ho1
  ihave Hs0 := (Entails.of_eq (pts_s0_c3 (F := F) d L _).symm) $$ Hs0
  ihave Hs1 := (Entails.of_eq (pts_s1_c3 (F := F) d L _).symm) $$ Hs1
  ihave Hs2 := (Entails.of_eq (pts_s2_c3 (F := F) d L _).symm) $$ Hs2
  -- the offsets in range, at whatever the index scratch held before the two row copies
  have hinA := hinA_c3 (F := F) d L i0 i1 hin0
  have hinB := hinB_c3 (F := F) d L i0 i1 hin1
  sl_exec
  sl_step
  -- the two blocks are the gathered arrays'
  have hvA : ∀ y ∈ (blkA3 L).view.set,
      (blkA3 L).view.writes (Elt F) fo0 [⟨Rect.whole S128x128, tile3.sl.dma0_2 d L i0 i1 t0 fs1 hinA⟩] y = gathered i0 t0 y :=
    valA_c3 (F := F) d L i0 i1 t0 hin0 fo0 fs1 _ _ _
  have hvB : ∀ y ∈ (blkB3 L).view.set,
      (blkB3 L).view.writes (Elt F) fo1 [⟨Rect.whole S128x128, tile3.sl.dma0_3 d L i0 i1 t1 fs2 hinB⟩] y = gathered i1 t1 y :=
    valB_c3 (F := F) d L i0 i1 t1 hin1 fo1 fs2 _ _ _
  ihave Ho0 := (Entails.of_eq (pointsTo_congr hvA)) $$ Ho0
  ihave Ho1 := (Entails.of_eq (pointsTo_congr hvB)) $$ Ho1
  isplitl [Hi0 Hi1 Ht0 Ht1 Ho0 Ho1]
  · isplitl [Hi0]; · iapply (Entails.of_eq (pts_rowA_c3 (F := F) d L _)); iexact Hi0
    isplitl [Hi1]; · iapply (Entails.of_eq (pts_rowB_c3 (F := F) d L _)); iexact Hi1
    isplitl [Ht0]; · iapply (Entails.of_eq (pts_tabA_c3 (F := F) d L _ _)); iexact Ht0
    isplitl [Ht1]; · iapply (Entails.of_eq (pts_tabB_c3 (F := F) d L _ _)); iexact Ht1
    isplitl [Ho0]; · iapply (Entails.of_eq (pts_blkA_c3 (F := F) d L _)); iexact Ho0
    iapply (Entails.of_eq (pts_blkB_c3 (F := F) d L _)); iexact Ho1
  isplitl [Hs0 Hs1 Hs2 Hbufs]
  · isplitl [Hs0]; · iexists _; iapply (Entails.of_eq (pts_s0_c3 (F := F) d L _)); iexact Hs0
    isplitl [Hs1]; · iexists _; iapply (Entails.of_eq (pts_s1_c3 (F := F) d L _)); iexact Hs1
    isplitl [Hs2]; · iexists _; iapply (Entails.of_eq (pts_s2_c3 (F := F) d L _)); iexact Hs2
    iexact Hbufs
  isplitl [Hm3 Hm4 Hm5 Hm6 Hc0 Hc1 Hsems]
  · isplitl [Hm3]; · iexact Hm3
    isplitl [Hm4]; · iexact Hm4
    isplitl [Hm5]; · iexact Hm5
    isplitl [Hm6]; · iexact Hm6
    isplitl [Hc0]; · iexact Hc0
    isplitl [Hc1]; · iexact Hc1
    iexact Hsems
  iexists _; isplitr
  swap
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp

end Tile

end Cert.Proof.KB

end
-- ==== Proof.Bits.TileObl.lean ====
/-
  The launch obligations of the four row-gather calls.

  The launch theorem asks, per call, that every tile's task run from what the call's handshake hands the tile to what
  the tile hands back. A tile's task is its kernel's body at the tile's grid coordinates; the body lemma of each call,
  at those coordinates, at the tile's read share of the tables and at the tokens the call's arrays hold (all below the
  tables' height, by the precondition), is that run. The body's waits were recorded at no call's index; the launch
  allows them also at the call's own.
-/
import proofs.«204601_g21792664060648_cont_8to1_111_20_alg».proof.Proof.Bits.Tile0
import proofs.«204601_g21792664060648_cont_8to1_111_20_alg».proof.Proof.Bits.Tile1
import proofs.«204601_g21792664060648_cont_8to1_111_20_alg».proof.Proof.Bits.Tile2
import proofs.«204601_g21792664060648_cont_8to1_111_20_alg».proof.Proof.Bits.Tile3
import proofs.«204601_g21792664060648_cont_8to1_111_20_alg».proof.Proof.Bits.Pay
import proofs.«204601_g21792664060648_cont_8to1_111_20_alg».proof.Proof.Bits.TokBound

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- Waits recorded at no call's index are among those the launch allows a task of call `q`. -/
theorem tile_obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (m : (ℓ : Loc nD τ sig) → Buf (Elt F) ℓ)

/-- Call 0's row of the body table, at the tile's coordinates. -/
theorem defs_vector_c0 (c : Fin τ.nSC) (s : Fin τ.nSub) :
    defs₀ (F := F) (.scVector c s) 0 ⟨⟩
      = SparseCore.onTile hcore0 hsub0 (fun c s => cc0__sc_gather (co0 c s) (Memref.whole main_v3_scv) (Memref.isWhole_whole _) (Memref.whole main_v4_scv) (Memref.isWhole_whole _) (Memref.whole main_arg2_scv) (Memref.isWhole_whole _) (Memref.whole main_arg3_scv) (Memref.isWhole_whole _) (Memref.whole main_v5_0_scv) (Memref.isWhole_whole _) (Memref.whole main_v5_1_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scoped0 cc0_scoped1) ⟨⟩ c s := rfl

/-- Call 0: each tile's task, from what the handshake hands it to what it hands back. -/
theorem tileObl_c0 (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs_vector_c0]; simp only [SparseCore.onTile, hc, and_self, ↓reduceDIte]
  exact (tile0 d (co0 ⟨_, hc.1⟩ ⟨_, hc.2⟩) _ _ _ _ (shT _ _) (tokA_lt hpre d 0) (tokB_lt hpre d 0) O W hO).trans (wp_mono frame _ _ fun _ => tile_obl_post)

/-- Call 1's row of the body table, at the tile's coordinates. -/
theorem defs_vector_c1 (c : Fin τ.nSC) (s : Fin τ.nSub) :
    defs₀ (F := F) (.scVector c s) 1 ⟨⟩
      = SparseCore.onTile hcore1 hsub1 (fun c s => cc1__sc_gather (co1 c s) (Memref.whole main_v6_scv) (Memref.isWhole_whole _) (Memref.whole main_v7_scv) (Memref.isWhole_whole _) (Memref.whole main_arg2_scv) (Memref.isWhole_whole _) (Memref.whole main_arg3_scv) (Memref.isWhole_whole _) (Memref.whole main_v8_0_scv) (Memref.isWhole_whole _) (Memref.whole main_v8_1_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0 cc1_scoped1) ⟨⟩ c s := rfl

/-- Call 1: each tile's task, from what the handshake hands it to what it hands back. -/
theorem tileObl_c1 (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ⟨⟩)) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs_vector_c1]; simp only [SparseCore.onTile, hc, and_self, ↓reduceDIte]
  exact (tile1 d (co1 ⟨_, hc.1⟩ ⟨_, hc.2⟩) _ _ _ _ (shT _ _) (tokA_lt hpre d 1) (tokB_lt hpre d 1) O W hO).trans (wp_mono frame _ _ fun _ => tile_obl_post)

/-- Call 2's row of the body table, at the tile's coordinates. -/
theorem defs_vector_c2 (c : Fin τ.nSC) (s : Fin τ.nSub) :
    defs₀ (F := F) (.scVector c s) 2 ⟨⟩
      = SparseCore.onTile hcore2 hsub2 (fun c s => cc2__sc_gather (co2 c s) (Memref.whole main_v9_scv) (Memref.isWhole_whole _) (Memref.whole main_v10_scv) (Memref.isWhole_whole _) (Memref.whole main_arg2_scv) (Memref.isWhole_whole _) (Memref.whole main_arg3_scv) (Memref.isWhole_whole _) (Memref.whole main_v11_0_scv) (Memref.isWhole_whole _) (Memref.whole main_v11_1_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scoped0 cc2_scoped1) ⟨⟩ c s := rfl

/-- Call 2: each tile's task, from what the handshake hands it to what it hands back. -/
theorem tileObl_c2 (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 2 ⟨⟩)) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs_vector_c2]; simp only [SparseCore.onTile, hc, and_self, ↓reduceDIte]
  exact (tile2 d (co2 ⟨_, hc.1⟩ ⟨_, hc.2⟩) _ _ _ _ (shT _ _) (tokA_lt hpre d 2) (tokB_lt hpre d 2) O W hO).trans (wp_mono frame _ _ fun _ => tile_obl_post)

/-- Call 3's row of the body table, at the tile's coordinates. -/
theorem defs_vector_c3 (c : Fin τ.nSC) (s : Fin τ.nSub) :
    defs₀ (F := F) (.scVector c s) 3 ⟨⟩
      = SparseCore.onTile hcore3 hsub3 (fun c s => cc3__sc_gather (co3 c s) (Memref.whole main_v12_scv) (Memref.isWhole_whole _) (Memref.whole main_v13_scv) (Memref.isWhole_whole _) (Memref.whole main_arg2_scv) (Memref.isWhole_whole _) (Memref.whole main_arg3_scv) (Memref.isWhole_whole _) (Memref.whole main_v14_0_scv) (Memref.isWhole_whole _) (Memref.whole main_v14_1_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scoped0 cc3_scoped1) ⟨⟩ c s := rfl

/-- Call 3: each tile's task, from what the handshake hands it to what it hands back. -/
theorem tileObl_c3 (hpre : PreOK m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 3 ⟨⟩)) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs_vector_c3]; simp only [SparseCore.onTile, hc, and_self, ↓reduceDIte]
  exact (tile3 d (co3 ⟨_, hc.1⟩ ⟨_, hc.2⟩) _ _ _ _ (shT _ _) (tokA_lt hpre d 3) (tokB_lt hpre d 3) O W hO).trans (wp_mono frame _ _ fun _ => tile_obl_post)

/-- Every call's tiles. -/
theorem tileObl (hpre : PreOK m) : ∀ q : Fin 4, (K (F := F)).TileObl (D (F := F)) 𝒱 (P m) v₀ q := fun q =>
  match q with
  | 0 => tileObl_c0 m hpre
  | 1 => tileObl_c1 m hpre
  | 2 => tileObl_c2 m hpre
  | 3 => tileObl_c3 m hpre

end Cert.Proof.KB

end
-- ==== Proof.Bits.MmBody.lean ====
/-
  The matrix-product kernel body on whole staging buffers.

  The body reads the two halves of the weight buffer (rows 0..127 and rows 128..255), the two gathered-row buffers and the
  bias buffer, and stores into the result buffer, whole,
      (rows₁ · W_upper + rows₂ · W_lower) + bias (broadcast along the rows).
  It changes nothing else: the four input buffers are left as they were read. The stored value is named as one pure term
  of the four buffers' contents (`mmOut`), through the payload of the printed body's one store.
-/
import proofs.«204601_g21792664060648_cont_8to1_111_20_alg».proof.Proof.Bits.Common
import proofs.«204601_g21792664060648_cont_8to1_111_20_alg».proof.Proof.Gen.Kernel.Launch
import proofs.«204601_g21792664060648_cont_8to1_111_20_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's accesses -/

/-- Rows 0..127 of the weight buffer, -/
abbrev rWu : Rect S256x128 := Rect.unit (s := S256x128) ![0, 0] S128x128.size inb_S256x128_S128x128_0_0
/-- rows 128..255 of it, -/
abbrev rWl : Rect S256x128 := Rect.unit (s := S256x128) ![128, 0] S128x128.size inb_S256x128_S128x128_128_0
/-- a gathered-row buffer or the result buffer whole, -/
abbrev rX : Rect S4096x128 := Rect.unit (s := S4096x128) ![0, 0] S4096x128.size inb_S4096x128_S4096x128_0_0
/-- the bias buffer whole. -/
abbrev rB : Rect S1x128 := Rect.unit (s := S1x128) ![0, 0] S1x128.size inb_S1x128_S1x128_0_0

/-! ## What the body leaves in the result buffer -/

/-- The result buffer after the body, from the contents of the two gathered-row buffers, the weight buffer and the bias
    buffer: its one store, which covers it. -/
def mmOut (xa xb : Vec F S4096x128 .f32) (xw : Vec F S256x128 .f32) (xc : Vec F S1x128 .f32) : Vec F S4096x128 .f32 :=
  View.canon [⟨rX, k4_pay1 (View.ld xw rWu) (View.ld xw rWl) (View.ld xa rX) (View.ld xb rX) (View.ld xc rB)⟩]

/-- The one store covers the buffer. -/
theorem cover_mm (p0 : Vec F S4096x128 .f32) (y : S4096x128.Idx) :
    ∃ pc ∈ ([⟨rX, p0⟩] : List (View.Piece (Elt F) S4096x128 .f32)), y ∈ pc.1.set :=
  View.cover_of_tiled [⟨rX, p0⟩] S4096x128.size (by rfl) y

/-! ## The body's triple -/

set_option maxHeartbeats 1000000 in
/-- The body on whole staging memrefs, the inputs' at read contents and the result's at anything, runs to the continuation
    holding the inputs' as they were and the result's at `mmOut` of the inputs'. -/
theorem sound_mm (c : Dev nD) (E : Set ℕ) (i : grid4.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .vmem S4096x128 .f32) (harg5 : arg5.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg5 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg5 fullShare (mmOut xa xb xw xc)) -∗ K ⟨⟩))
      ⊢ wp frame (wpE (defs₀ (F := F)) Variants.none c none) E (cc4__mm_body i arg1 harg1 arg2 harg2 arg3 harg3 arg4 harg4 arg5 harg5) K := by
  simp only [cc4__mm_body_eq_skeleton]; unfold cc4__mm_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the first matrix-product region -/

/-- The contents of one of the TensorCore's buffers. -/
abbrev BufOf (d : Dev nD) (b : Ref sig .tc) : Type := Buf (Elt F) ((d.tc : Thread nD τ).loc b)

/-- Window `w`'s block at point `t`, read off contents `X` of its array. -/
def blk4 (d : Dev nD) (w : Fin cfg4.W) (X : BufOf (F := F) d (Pipeline.arrRef spec4 w)) (t : Fin cfg4.N) :
    ((cfg4.win w).xblock (cfg4.grid.coords t)).Idx → Elt F (cfg4.win w).elt :=
  ((cfg4.win w).blk t).view.read (Elt F) X

/-- The proof data: the five arrays at given contents; after the body each input's buffer at its block and the result's at
    `mmOut` of the input blocks; the invariant is the scoped buffers no window stages, untouched; what the core owes and the
    bound on its recorded pairs pass through. -/
def dat4 (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4)) : Dat τ (Elt F) (HIx 4) ℕ UU ℕ cfg4 d where
  A w := match w with
    | ⟨0, _⟩ => A
    | ⟨1, _⟩ => B
    | ⟨2, _⟩ => Wc
    | ⟨3, _⟩ => bc
    | ⟨4, _⟩ => prev
  after w t := match w with
    | ⟨0, _⟩ => blk4 d 0 A t
    | ⟨1, _⟩ => blk4 d 1 B t
    | ⟨2, _⟩ => blk4 d 2 Wc t
    | ⟨3, _⟩ => blk4 d 3 bc t
    | ⟨4, _⟩ => mmOut (blk4 d 0 A t) (blk4 d 1 B t) (blk4 d 2 Wc t) (blk4 d 3 bc t)
  Φ _ := Pipeline.scopedRest spec4 d
  q _ := fullShare
  owed _ := O
  recorded _ := Bd

section Dat4
variable (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4))

theorem A4_0 : (dat4 d A B Wc bc prev O Bd).A 0 = A := by dsimp only [dat4]
theorem A4_1 : (dat4 d A B Wc bc prev O Bd).A 1 = B := by dsimp only [dat4]
theorem A4_2 : (dat4 d A B Wc bc prev O Bd).A 2 = Wc := by dsimp only [dat4]
theorem A4_3 : (dat4 d A B Wc bc prev O Bd).A 3 = bc := by dsimp only [dat4]
theorem A4_4 : (dat4 d A B Wc bc prev O Bd).A 4 = prev := by dsimp only [dat4]

theorem after4_0 (t : Fin cfg4.N) : (dat4 d A B Wc bc prev O Bd).after 0 t = blk4 d 0 A t := by dsimp only [dat4]
theorem after4_1 (t : Fin cfg4.N) : (dat4 d A B Wc bc prev O Bd).after 1 t = blk4 d 1 B t := by dsimp only [dat4]
theorem after4_2 (t : Fin cfg4.N) : (dat4 d A B Wc bc prev O Bd).after 2 t = blk4 d 2 Wc t := by dsimp only [dat4]
theorem after4_3 (t : Fin cfg4.N) : (dat4 d A B Wc bc prev O Bd).after 3 t = blk4 d 3 bc t := by dsimp only [dat4]
theorem after4_4 (t : Fin cfg4.N) : (dat4 d A B Wc bc prev O Bd).after 4 t
    = mmOut (blk4 d 0 A t) (blk4 d 1 B t) (blk4 d 2 Wc t) (blk4 d 3 bc t) := by dsimp only [dat4]

/-- Each input's current staging buffer holds its block. -/
theorem before4_0 (t : Fin cfg4.N) (dd) : (dat4 d A B Wc bc prev O Bd).before 0 t dd = blk4 d 0 A t :=
  ((dat4 d A B Wc bc prev O Bd).before_in_eq_fetched 0 rfl (fun _ => rfl) (fun _ _ _ => rfl)
    (fun t => by rw [after4_0]; unfold Dat.blockOf blk4; rw [A4_0]; try rfl) t dd).trans
    (by unfold Dat.fetched Dat.blockOf blk4; rw [A4_0]; try rfl)
theorem before4_1 (t : Fin cfg4.N) (dd) : (dat4 d A B Wc bc prev O Bd).before 1 t dd = blk4 d 1 B t :=
  ((dat4 d A B Wc bc prev O Bd).before_in_eq_fetched 1 rfl (fun _ => rfl) (fun _ _ _ => rfl)
    (fun t => by rw [after4_1]; unfold Dat.blockOf blk4; rw [A4_1]; try rfl) t dd).trans
    (by unfold Dat.fetched Dat.blockOf blk4; rw [A4_1]; try rfl)
theorem before4_2 (t : Fin cfg4.N) (dd) : (dat4 d A B Wc bc prev O Bd).before 2 t dd = blk4 d 2 Wc t :=
  ((dat4 d A B Wc bc prev O Bd).before_in_eq_fetched 2 rfl (fun _ => rfl) (fun _ _ _ => rfl)
    (fun t => by rw [after4_2]; unfold Dat.blockOf blk4; rw [A4_2]; try rfl) t dd).trans
    (by unfold Dat.fetched Dat.blockOf blk4; rw [A4_2]; try rfl)
theorem before4_3 (t : Fin cfg4.N) (dd) : (dat4 d A B Wc bc prev O Bd).before 3 t dd = blk4 d 3 bc t :=
  ((dat4 d A B Wc bc prev O Bd).before_in_eq_fetched 3 rfl (fun _ => rfl) (fun _ _ _ => rfl)
    (fun t => by rw [after4_3]; unfold Dat.blockOf blk4; rw [A4_3]; try rfl) t dd).trans
    (by unfold Dat.fetched Dat.blockOf blk4; rw [A4_3]; try rfl)

/-! ## The body obligation -/

/-- What the body is called with at point `t`, the windows one by one, -/
def bodyPre4 (t : Fin cfg4.N) : sProp 𝕄 :=
  iprop((dat4 d A B Wc bc prev O Bd).Φ t.castSucc ∗ (dat4 d A B Wc bc prev O Bd).owesAt none t.castSucc
    ∗ (∃ dd, owns (d : Thread nD τ) (st4_0 t) fullShare ((dat4 d A B Wc bc prev O Bd).before 0 t dd))
    ∗ (∃ dd, owns (d : Thread nD τ) (st4_1 t) fullShare ((dat4 d A B Wc bc prev O Bd).before 1 t dd))
    ∗ (∃ dd, owns (d : Thread nD τ) (st4_2 t) fullShare ((dat4 d A B Wc bc prev O Bd).before 2 t dd))
    ∗ (∃ dd, owns (d : Thread nD τ) (st4_3 t) fullShare ((dat4 d A B Wc bc prev O Bd).before 3 t dd))
    ∗ (∃ dd, owns (d : Thread nD τ) (st4_4 t) fullShare ((dat4 d A B Wc bc prev O Bd).before 4 t dd)))

/-- and what it returns. -/
def bodyPost4 (t : Fin cfg4.N) : sProp 𝕄 :=
  iprop((dat4 d A B Wc bc prev O Bd).Φ t.succ ∗ (dat4 d A B Wc bc prev O Bd).owesAt none t.succ
    ∗ owns (d : Thread nD τ) (st4_0 t) fullShare ((dat4 d A B Wc bc prev O Bd).after 0 t)
    ∗ owns (d : Thread nD τ) (st4_1 t) fullShare ((dat4 d A B Wc bc prev O Bd).after 1 t)
    ∗ owns (d : Thread nD τ) (st4_2 t) fullShare ((dat4 d A B Wc bc prev O Bd).after 2 t)
    ∗ owns (d : Thread nD τ) (st4_3 t) fullShare ((dat4 d A B Wc bc prev O Bd).after 3 t)
    ∗ owns (d : Thread nD τ) (st4_4 t) fullShare ((dat4 d A B Wc bc prev O Bd).after 4 t))

/-- The body at the point: the inputs' memrefs hold their blocks, so the body's triple applies; the invariant and the core's
    `owes` pass through unread. -/
theorem sound_body4 (t : Fin cfg4.N) :
    bodyPre4 d A B Wc bc prev O Bd t ⊢ wp frame (wpE (defs₀ (F := F)) Variants.none d none) Set.univ (bodyAt4 t)
      (fun _ => bodyPost4 d A B Wc bc prev O Bd t) := by
  unfold bodyPre4 bodyPost4 bodyAt4
  simp only [before4_0, before4_1, before4_2, before4_3]
  rw [show (dat4 d A B Wc bc prev O Bd).Φ t.succ = (dat4 d A B Wc bc prev O Bd).Φ t.castSucc from rfl,
    show (dat4 d A B Wc bc prev O Bd).owesAt none t.succ = (dat4 d A B Wc bc prev O Bd).owesAt none t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_mm d Set.univ _ _ _ _ _ _ _ _ _ _ _ (blk4 d 0 A t) (blk4 d 1 B t) (blk4 d 2 Wc t) (blk4 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 : BodyObligation (dat4 d A B Wc bc prev O Bd) (defs₀ (F := F)) Variants.none none Set.univ := fun t => by
  rw [bigSep_W4, bigSep_W4]
  exact sound_body4 d A B Wc bc prev O Bd t

end Dat4

end Cert.Proof.KB

end
-- ==== Proof.Bits.RegionOut.lean ====
/-
  What a matrix-product region leaves in the result array, in closed form.

  The result array has 16384 rows; the region of call `p` overwrites rows `4096 p .. 4096 p + 4095` with the matrix-product
  block (`mmOut` of that call's two gathered-row arrays, the weight matrix and the bias row) and leaves the other rows as
  they were.
-/
import proofs.«204601_g21792664060648_cont_8to1_111_20_alg».proof.Proof.Bits.MmBody
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- Block `p` of `prev` overwritten with the matrix-product block. -/
def outAt (p : Fin 4) (a b : S4096x128.Idx → Elt F .f32) (w : S256x128.Idx → Elt F .f32) (bcv : S1x128.Idx → Elt F .f32)
    (prev : S16384x128.Idx → Elt F .f32) : S16384x128.Idx → Elt F .f32 :=
  fun j => if h : 4096 * p.val ≤ (j 0).val ∧ (j 0).val < 4096 * p.val + 4096 then
      mmOut a b w bcv (ix2 ⟨(j 0).val - 4096 * p.val, by omega⟩ (j 1))
    else prev j

theorem outAt_of_mem (p : Fin 4) (a b : S4096x128.Idx → Elt F .f32) (w : S256x128.Idx → Elt F .f32) (bcv : S1x128.Idx → Elt F .f32)
    (prev : S16384x128.Idx → Elt F .f32) (j : S16384x128.Idx) (h : 4096 * p.val ≤ (j 0).val ∧ (j 0).val < 4096 * p.val + 4096) :
    outAt p a b w bcv prev j = mmOut a b w bcv (ix2 ⟨(j 0).val - 4096 * p.val, by omega⟩ (j 1)) := dif_pos h

theorem outAt_of_not_mem (p : Fin 4) (a b : S4096x128.Idx → Elt F .f32) (w : S256x128.Idx → Elt F .f32) (bcv : S1x128.Idx → Elt F .f32)
    (prev : S16384x128.Idx → Elt F .f32) (j : S16384x128.Idx) (h : ¬(4096 * p.val ≤ (j 0).val ∧ (j 0).val < 4096 * p.val + 4096)) :
    outAt p a b w bcv prev j = prev j := dif_neg h

end Cert.Proof.KB

end
-- ==== Proof.Bits.Region0.lean ====
/-
  The first matrix-product region of @main, stepped over inside the whole program's TensorCore thread.

  The region's call runs the pipeline of one grid point: the four input windows — the two gathered-row arrays, the weight
  matrix, the bias row — are fetched whole into their staging buffers, the body runs, and the result window's staging buffer
  is written back over block 0 of the result array. The proof data says so (`dat4`, the body obligation `body_obligation4`);
  this module wraps it as the library's record of a kernel region (`reg0`) — the five arrays and what the core owes enter and
  leave, nothing else is touched — and enters the region from the thread of the whole program, whose body table extends the
  pipelines' (`wp_entry_lift`). The waits of the pipeline's staging cells sit at the kernels' own index, below everything
  the TensorCore can owe the handshakes.

  Last, the result array's contents after the region in closed form (`out0_eq`: block 0 overwritten with the matrix-product
  block, the other rows as before), by reading the pipeline's one write-back at an index.
-/
import proofs.«204601_g21792664060648_cont_8to1_111_20_alg».proof.Proof.Bits.MmBody
import proofs.«204601_g21792664060648_cont_8to1_111_20_alg».proof.Proof.Bits.RegionOut
import Idealize.ShloMosaic.Lib.Pipeline.Regions
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The region's record -/

/-- No pipeline of this program has a prefetched table: each has one admissible contents. -/
abbrev adm (p : Fin 4) : (pcfgs (F := F) p).Adm := (cfgs p).toPCfg_adm

/-- Proof data that says nothing: for the pipelines a region's family does not speak of. -/
def datNone (cfg : Pipeline.Cfg sig Λ₀) (c : Dev nD) : Dat τ (Elt F) (HIx 4) ℕ UU ℕ cfg c where
  A _ := Classical.arbitrary _
  after _ _ _ := Classical.arbitrary _
  Φ _ := BI.emp
  q _ := fullShare
  owed _ := 0

/-- A buffer of the TensorCore, whole, at contents `f`. -/
abbrev ptT (c : Dev nD) (b : Ref sig .tc) (f : BufOf (F := F) c b) : sProp 𝕄 := ((c.tc : Thread nD τ).loc b) ↦{fullShare} f

/-- What the TensorCore owes, its recorded pairs within a bound. -/
abbrev owesIn (c : Dev nD) (O : CellTallies nD τ sig (HIx 4)) (Bd : Set (SemLoc sig × HIx 4)) : sProp 𝕄 :=
  iprop(∃ W : Waits sig (HIx 4), ⌜↑W ⊆ Bd⌝ ∗ owes (c.tc : Thread nD τ) O W)

theorem prefHeld_none (p : Fin 4) (c : Dev nD) (q) (pf) :
    (Pipeline.prefHeld (Ix := HIx 4) (Name := ℕ) (U := UU) (Lvl := ℕ) (Val := Elt F) (pcfgs (F := F) p).pre c q pf : sProp 𝕄) = BI.emp := by
  unfold Pipeline.prefHeld
  show bigSep (Finset.univ : Finset (Fin 0)) _ = _
  rw [Finset.univ_eq_empty, BI.bigSep_empty]

theorem spec_pin0 : (Pipeline.pin (pcfgs (F := F)) adm 0).spec = spec4 := rfl
theorem Phi4 (d : Dev nD) (A : BufOf (F := F) d main_v5_0) (B : BufOf (F := F) d main_v5_1) (Wc : BufOf (F := F) d main_arg4)
    (bc : BufOf (F := F) d main_v2) (prev : BufOf (F := F) d main_v15)
    (O : CellTallies nD τ sig (HIx 4)) (Bd : Set (SemLoc sig × HIx 4)) (t) :
    (dat4 d A B Wc bc prev O Bd).Φ t = Pipeline.scopedRest spec4 d := by dsimp only [dat4]

section Region0
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))

/-- The family of proof data the first region runs under: its own pipeline's, and nothing of the others. -/
def fam0 : (p : Fin 4) → (c : Dev nD) → Dat τ (Elt F) (HIx 4) ℕ UU ℕ (Pipeline.pin (pcfgs (F := F)) adm p) c
  | ⟨0, _⟩ => fun c => dat4 c (A c) (B c) (Wc c) (bc c) (prev c) (O c) (Bd c)
  | ⟨1, _⟩ => fun c => datNone cfg5 c
  | ⟨2, _⟩ => fun c => datNone cfg6 c
  | ⟨3, _⟩ => fun c => datNone cfg7 c

theorem fam0_0 (c : Dev nD) : fam0 A B Wc bc prev O Bd 0 c = dat4 c (A c) (B c) (Wc c) (bc c) (prev c) (O c) (Bd c) := rfl

/-- The result array after the region: its first block overwritten by what the body left in the staging buffer. -/
def out0 (c : Dev nD) : BufOf (F := F) c main_v15 := (dat4 c (A c) (B c) (Wc c) (bc c) (prev c) (O c) (Bd c)).arrAt 4 1

/-- The five arrays of the pipeline, one by one. -/
theorem arrays4 (c : Dev nD) (Fa : (w : Fin cfg4.W) → Buf (Elt F) ((cfg4.win w).arr.view.loc (c.tc : Thread nD τ))) :
    ((dat4 c (A c) (B c) (Wc c) (bc c) (prev c) (O c) (Bd c)).arrays Fa : sProp 𝕄)
      = iprop(ptT c main_v5_0 (Fa 0) ∗ ptT c main_v5_1 (Fa 1) ∗ ptT c main_arg4 (Fa 2) ∗ ptT c main_v2 (Fa 3) ∗ ptT c main_v15 (Fa 4)) := by
  rw [Pipeline.arrays_eq (fun _ : Fin 1 => cfg4) (fun _ c' => dat4 c' (A c') (B c') (Wc c') (bc c') (prev c') (O c') (Bd c')) 0 c arr_whole4
    ((dat4 c (A c) (B c) (Wc c) (bc c) (prev c) (O c) (Bd c)).share_full fun _ => rfl) Fa, bigSep_W4]

/-- The thread state the first region is entered from, and the one it leaves. -/
def pre0 (c : Dev nD) : sProp 𝕄 :=
  iprop(ptT c main_v5_0 (A c) ∗ ptT c main_v5_1 (B c) ∗ ptT c main_arg4 (Wc c) ∗ ptT c main_v2 (bc c) ∗ ptT c main_v15 (prev c)
    ∗ owesIn c (O c) (Bd c))
def post0 (c : Dev nD) : sProp 𝕄 :=
  iprop(ptT c main_v5_0 (A c) ∗ ptT c main_v5_1 (B c) ∗ ptT c main_arg4 (Wc c) ∗ ptT c main_v2 (bc c) ∗ ptT c main_v15 (out0 A B Wc bc prev O Bd c)
    ∗ owesIn c (O c) (Bd c ∪ cfg4.waitPairs none))

variable (lv : GSem nD τ sig → HIx 4 → ℕ) (hlv : (K (F := F)).Refines lv) (hO : ∀ c g, O c g none = 0)

/-- The first matrix-product region's record. -/
def reg0 : Pipeline.RegionSeg (pcfgs (F := F)) adm (fam0 A B Wc bc prev O Bd) none defs₀ Variants.none (K (F := F)).L lv (0 : Fin 4) where
  win := winFacts4.to₀
  block_pos := block_pos4
  stage_whole := stage_whole4
  K := PEmpty
  osem k := k.elim
  ho := Pipeline.OwnSemFacts.none _
  hbody c := (body_obligation4 c (A c) (B c) (Wc c) (bc c) (prev c) (O c) (Bd c)).loose
  hwaits c := Pipeline.cellsWaits_intro _ _ _ _ c fun w s t => (K (F := F)).mayWait_none _ (hO c) lv hlv
  pre := pre0 A B Wc bc prev O Bd
  post := post0 A B Wc bc prev O Bd
  X _ := BI.emp
  Y _ := BI.emp
  Z _ := BI.emp
  hentry c := by
    rw [Pipeline.ownSems0_none, prefHeld_none, fam0_0, arrays4]
    unfold pre0
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam0_0, Phi4, spec_pin0]
    iintro ⟨-, -, HR⟩; iexact HR
  hout c := by
    rw [fam0_0, Pipeline.ownSems0_none, Phi4, spec_pin0]
    iintro HR
    isplitr; · iempintro
    isplitr; · iempintro
    iexact HR
  hexit c := by
    rw [fam0_0, arrays4]
    unfold post0
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region0

/-! ## Entering a region from the SparseCore program's TensorCore thread -/

/-- The region's call in the whole program's signature is the pipelines' program's call, lifted. -/
theorem lift_entry (d : Dev nD) (p : Fin 4) :
    (Prog.lift (.customCall (SparseCore.inner (Pipeline.entry p)) ()) : Prog (TpuEff nD τ sig (Elt F) (SparseCore.Sig (ΛP (F := F)) 4) (SparseCore.T d).2) PUnit)
      = SparseCore.liftProg (Prog.lift (.customCall (Pipeline.entry p) ())) := rfl

/-- So a proof of the call under the pipelines' body table is a proof of it under the whole program's. -/
theorem wp_entry_lift (d : Dev nD) (p : Fin 4) (Φ : PUnit → sProp 𝕄) :
    wp frame (wpE (D (F := F)) 𝒱 (T d) none) Set.univ (Prog.lift (.customCall (Pipeline.entry p) ())) Φ
      ⊢ wp frame (wpE ((K (F := F)).defs (D (F := F))) 𝒱 (T d) none) Set.univ (Prog.lift (.customCall (SparseCore.inner (Pipeline.entry p)) ())) Φ := by
  rw [lift_entry]
  exact (K (F := F)).wp_liftProg (D (F := F)) 𝒱 (T d) Set.univ none _ Φ

section Region0Thm
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The first matrix-product region inside @main on the TensorCore thread: from the level facts, the region boundary, the
    five arrays whole, what the core owes, and the pipeline's cells' ghost state and duty tokens, the call runs to the
    boundary, the four input arrays as they were, the result array with its first block overwritten, and the same owed. -/
theorem region0 (d : Dev nD) {Φ : PUnit → sProp 𝕄} :
    iprop(levAts (K (F := F)).L lv ∗ boundary (d.tc : Thread nD τ) ∗ pre0 A B Wc bc prev O Bd d
        ∗ Pipeline.cellsGhost (nD := nD) (τ := τ) cfgs (EP (F := F)) 0 d ∗ Pipeline.toksInit (nD := nD) (τ := τ) cfgs (EP (F := F)) 0 d
        ∗ (iprop(boundary (d.tc : Thread nD τ) ∗ post0 A B Wc bc prev O Bd d) -∗ Φ ⟨⟩))
      ⊢ wp frame (wpE ((K (F := F)).defs (D (F := F))) 𝒱 (T d) none) Set.univ
          (Prog.lift (.customCall (SparseCore.inner (Pipeline.entry 0)) ())) Φ := by
  refine .trans ?_ (wp_entry_lift d 0 Φ)
  have h := Pipeline.RegionSeg.wp (pcfgs (F := F)) adm (fam0 A B Wc bc prev O Bd) none cellOf_inj (EP (F := F)) defs₀ Variants.none
    (K (F := F)).L lv (reg0 A B Wc bc prev O Bd lv hlv hO) d none (fun _ hu => nomatch hu) (fun _ => .ret ⟨⟩) Φ
  rw [show (reg0 A B Wc bc prev O Bd lv hlv hO).pre d = pre0 A B Wc bc prev O Bd d from rfl,
    show (reg0 A B Wc bc prev O Bd lv hlv hO).post d = post0 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region0Thm

section Region0Thm'
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region0' (d : Dev nD) (W : Waits sig (HIx 4)) {Φ : PUnit → sProp 𝕄} :
    iprop(levAts (K (F := F)).L (K (F := F)).lev ∗ boundary (d.tc : Thread nD τ)
        ∗ ptT d main_v5_0 (A d) ∗ ptT d main_v5_1 (B d) ∗ ptT d main_arg4 (Wc d) ∗ ptT d main_v2 (bc d) ∗ ptT d main_v15 (prev d)
        ∗ owes (T d) (O d) W
        ∗ Pipeline.cellsGhost (nD := nD) (τ := τ) cfgs (EP (F := F)) 0 d ∗ Pipeline.toksInit (nD := nD) (τ := τ) cfgs (EP (F := F)) 0 d
        ∗ (iprop(boundary (d.tc : Thread nD τ)
              ∗ ptT d main_v5_0 (A d) ∗ ptT d main_v5_1 (B d) ∗ ptT d main_arg4 (Wc d) ∗ ptT d main_v2 (bc d)
              ∗ ptT d main_v15 (out0 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 0)) ())) Φ := by
  refine .trans ?_ (region0 A B Wc bc prev O (fun _ => (↑W : Set (SemLoc sig × HIx 4))) (K (F := F)).lev (by sl_refines_lev) hO d)
  unfold pre0 post0 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region0Thm'

/-! ## What the region leaves in the result array, in closed form -/

section Out0
open Idealize.ShloMosaic.ValueIdx

theorem N4pos : 0 < cfg4.N := by decide

/-- Where the windows' blocks sit at the one grid point: the inputs' at the origin, the result's at block 0 of its array. -/
theorem index4_0 : ∀ (t : Fin cfg4.N) (a : Fin 2), (cfg4.win 0).index t a = 0 := by decide
theorem index4_1 : ∀ (t : Fin cfg4.N) (a : Fin 2), (cfg4.win 1).index t a = 0 := by decide
theorem index4_2 : ∀ (t : Fin cfg4.N) (a : Fin 2), (cfg4.win 2).index t a = 0 := by decide
theorem index4_3 : ∀ (t : Fin cfg4.N) (a : Fin 2), (cfg4.win 3).index t a = 0 := by decide
theorem index4_4 : ∀ (t : Fin cfg4.N) (a : Fin 2), (cfg4.win 4).index t a = (![0, 0] : Fin 2 → ℕ) a := by decide

/-- An element of a window's block sits in the array at the block index times the block's size plus its own coordinate. -/
theorem emb4_0 (t : Fin cfg4.N) (y : ((cfg4.win 0).xblock (cfg4.grid.coords t)).Idx) (a : Fin 2) :
    ((((cfg4.win 0).blk t).view.emb y) a : ℕ) = (cfg4.win 0).index t a * (cfg4.win 0).size a + y a := (cfg4.win 0).rect_emb_val t y a
theorem emb4_1 (t : Fin cfg4.N) (y : ((cfg4.win 1).xblock (cfg4.grid.coords t)).Idx) (a : Fin 2) :
    ((((cfg4.win 1).blk t).view.emb y) a : ℕ) = (cfg4.win 1).index t a * (cfg4.win 1).size a + y a := (cfg4.win 1).rect_emb_val t y a
theorem emb4_2 (t : Fin cfg4.N) (y : ((cfg4.win 2).xblock (cfg4.grid.coords t)).Idx) (a : Fin 2) :
    ((((cfg4.win 2).blk t).view.emb y) a : ℕ) = (cfg4.win 2).index t a * (cfg4.win 2).size a + y a := (cfg4.win 2).rect_emb_val t y a
theorem emb4_3 (t : Fin cfg4.N) (y : ((cfg4.win 3).xblock (cfg4.grid.coords t)).Idx) (a : Fin 2) :
    ((((cfg4.win 3).blk t).view.emb y) a : ℕ) = (cfg4.win 3).index t a * (cfg4.win 3).size a + y a := (cfg4.win 3).rect_emb_val t y a
theorem emb4_4 (t : Fin cfg4.N) (y : ((cfg4.win 4).xblock (cfg4.grid.coords t)).Idx) (a : Fin 2) :
    ((((cfg4.win 4).blk t).view.emb y) a : ℕ) = (cfg4.win 4).index t a * (cfg4.win 4).size a + y a := (cfg4.win 4).rect_emb_val t y a

/-- An input window's block is its whole array. -/
theorem blk4_0_eq (d : Dev nD) (X : BufOf (F := F) d main_v5_0) (t : Fin cfg4.N) : blk4 d 0 X t = X := by
  funext y; unfold blk4; rw [View.read_apply, cast_eq]; congr 1; funext a; apply Fin.ext
  rw [emb4_0, index4_0]; omega
theorem blk4_1_eq (d : Dev nD) (X : BufOf (F := F) d main_v5_1) (t : Fin cfg4.N) : blk4 d 1 X t = X := by
  funext y; unfold blk4; rw [View.read_apply, cast_eq]; congr 1; funext a; apply Fin.ext
  rw [emb4_1, index4_1]; omega
theorem blk4_2_eq (d : Dev nD) (X : BufOf (F := F) d main_arg4) (t : Fin cfg4.N) : blk4 d 2 X t = X := by
  funext y; unfold blk4; rw [View.read_apply, cast_eq]; congr 1; funext a; apply Fin.ext
  rw [emb4_2, index4_2]; omega
theorem blk4_3_eq (d : Dev nD) (X : BufOf (F := F) d main_v2) (t : Fin cfg4.N) : blk4 d 3 X t = X := by
  funext y; unfold blk4; rw [View.read_apply, cast_eq]; congr 1; funext a; apply Fin.ext
  rw [emb4_3, index4_3]; omega

variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (Bd : Dev nD → Set (SemLoc sig × HIx 4))

/-- The result array after the region is block 0 of the array before it overwritten with the matrix-product block. -/
theorem out0_eq (d : Dev nD) : out0 A B Wc bc prev O Bd d = outAt 0 (A d) (B d) (Wc d) (bc d) (prev d) := by
  funext j
  unfold out0
  rw [Pipeline.Dat.arrAt_succ_apply, dif_pos N4pos, if_pos (flush4_4 _)]
  have key : ∀ y, View.write (Elt F) ((cfg4.win 4).blk ⟨0, N4pos⟩).view
      ((dat4 d (A d) (B d) (Wc d) (bc d) (prev d) (O d) (Bd d)).arrAt 4 0)
      ((dat4 d (A d) (B d) (Wc d) (bc d) (prev d) (O d) (Bd d)).flushed 4 ⟨0, N4pos⟩) Finset.univ
      (((cfg4.win 4).blk ⟨0, N4pos⟩).view.emb y) = mmOut (A d) (B d) (Wc d) (bc d) y := fun y => by
    rw [View.write_emb_of_mem _ _ (Finset.mem_univ _), cast_eq]
    show (dat4 d (A d) (B d) (Wc d) (bc d) (prev d) (O d) (Bd d)).after 4 ⟨0, N4pos⟩ y = _
    rw [after4_4, blk4_0_eq, blk4_1_eq, blk4_2_eq, blk4_3_eq]
  by_cases h : 4096 * (0 : Fin 4).val ≤ (j 0).val ∧ (j 0).val < 4096 * (0 : Fin 4).val + 4096
  · rw [outAt_of_mem 0 _ _ _ _ _ j h]
    have h' : 4096 * 0 ≤ (j 0).val ∧ (j 0).val < 4096 * 0 + 4096 := h
    have hj : j = ((cfg4.win 4).blk ⟨0, N4pos⟩).view.emb (ix2 ⟨(j 0).val - 4096 * (0 : Fin 4).val, by omega⟩ (j 1)) := by
      funext a
      apply Fin.ext
      rw [emb4_4, index4_4]
      match a with
      | ⟨0, _⟩ => show (j 0).val = 0 * 4096 + ((j 0).val - 4096 * 0); omega
      | ⟨1, _⟩ => show (j 1).val = 0 * 128 + (j 1).val; omega
    conv_lhs => rw [hj]
    exact key _
  · rw [outAt_of_not_mem 0 _ _ _ _ _ j h, View.write_of_not_mem]
    · show (dat4 d (A d) (B d) (Wc d) (bc d) (prev d) (O d) (Bd d)).A 4 j = _
      rw [A4_4]
    · rw [View.setOn_univ]; intro hm
      obtain ⟨y, -, rfl⟩ := Finset.mem_map.mp hm
      apply h
      have hy : (y 0).val < 4096 := (y 0).isLt
      have e0 : ((((cfg4.win 4).blk ⟨0, N4pos⟩).view.emb y) 0 : ℕ) = 0 * 4096 + (y 0).val := by rw [emb4_4, index4_4]; rfl
      show 4096 * 0 ≤ _ ∧ _ < 4096 * 0 + 4096
      rw [e0]; omega

end Out0

section Region0Thm''
variable (A : (c : Dev nD) → BufOf (F := F) c main_v5_0) (B : (c : Dev nD) → BufOf (F := F) c main_v5_1)
    (Wc : (c : Dev nD) → BufOf (F := F) c main_arg4) (bc : (c : Dev nD) → BufOf (F := F) c main_v2)
    (prev : (c : Dev nD) → BufOf (F := F) c main_v15)
    (O : Dev nD → CellTallies nD τ sig (HIx 4)) (hO : ∀ c g, O c g none = 0)

include hO in
/-- The same with the result array's contents in closed form. -/
theorem region0'' (d : Dev nD) (W : Waits sig (HIx 4)) {Φ : PUnit → sProp 𝕄} :
    iprop(levAts (K (F := F)).L (K (F := F)).lev ∗ boundary (d.tc : Thread nD τ)
        ∗ ptT d main_v5_0 (A d) ∗ ptT d main_v5_1 (B d) ∗ ptT d main_arg4 (Wc d) ∗ ptT d main_v2 (bc d) ∗ ptT d main_v15 (prev d)
        ∗ owes (T d) (O d) W
        ∗ Pipeline.cellsGhost (nD := nD) (τ := τ) cfgs (EP (F := F)) 0 d ∗ Pipeline.toksInit (nD := nD) (τ := τ) cfgs (EP (F := F)) 0 d
        ∗ (iprop(boundary (d.tc : Thread nD τ)
              ∗ ptT d main_v5_0 (A d) ∗ ptT d main_v5_1 (B d) ∗ ptT d main_arg4 (Wc d) ∗ ptT d main_v2 (bc d)
              ∗ ptT d main_v15 (outAt 0 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 0)) ())) Φ := by
  have h := region0' A B Wc bc prev O hO d W (Φ := Φ)
  rw [out0_eq] at h
  exact h

end Region0Thm''

end Cert.Proof.KB

end
-- ==== Proof.Bits.Region1.lean ====
/-
  The second matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 1 of this call's result array, which holds
  the previous call's result in its other blocks (`out1_eq`).
-/
import proofs.«204601_g21792664060648_cont_8to1_111_20_alg».proof.Proof.Bits.Region0

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k5_pay1_eq : (k5_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm5 (c : Dev nD) (E : Set ℕ) (i : grid5.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc5__mm_body_alias i arg1 harg1 arg2 harg2 arg3 harg3 arg4 harg4 arg5 harg5 arg6 harg6) K := by
  simp only [cc5__mm_body_alias_eq_skeleton]; unfold cc5__mm_body_alias_skel
  rw [k5_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the second matrix-product region -/

/-- Window `w`'s block at point `t`, read off contents `X` of its array. -/
def blk5 (d : Dev nD) (w : Fin cfg5.W) (X : BufOf (F := F) d (Pipeline.arrRef spec5 w)) (t : Fin cfg5.N) :
    ((cfg5.win w).xblock (cfg5.grid.coords t)).Idx → Elt F (cfg5.win w).elt :=
  ((cfg5.win w).blk t).view.read (Elt F) X

/-- The proof data: the five arrays at given contents; after the body each input's buffer at its block and the result's at
    `mmOut` of the input blocks; the invariant is the scoped buffers no window stages, untouched; what the core owes and the
    bound on its recorded pairs pass through. -/
def dat5 (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4)) : Dat τ (Elt F) (HIx 4) ℕ UU ℕ cfg5 d where
  A w := match w with
    | ⟨0, _⟩ => A
    | ⟨1, _⟩ => B
    | ⟨2, _⟩ => Wc
    | ⟨3, _⟩ => bc
    | ⟨4, _⟩ => prev
  after w t := match w with
    | ⟨0, _⟩ => blk5 d 0 A t
    | ⟨1, _⟩ => blk5 d 1 B t
    | ⟨2, _⟩ => blk5 d 2 Wc t
    | ⟨3, _⟩ => blk5 d 3 bc t
    | ⟨4, _⟩ => mmOut (blk5 d 0 A t) (blk5 d 1 B t) (blk5 d 2 Wc t) (blk5 d 3 bc t)
  Φ _ := Pipeline.scopedRest spec5 d
  q _ := fullShare
  owed _ := O
  recorded _ := Bd

section Dat5
variable (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4))

theorem A5_0 : (dat5 d A B Wc bc prev O Bd).A 0 = A := by dsimp only [dat5]
theorem A5_1 : (dat5 d A B Wc bc prev O Bd).A 1 = B := by dsimp only [dat5]
theorem A5_2 : (dat5 d A B Wc bc prev O Bd).A 2 = Wc := by dsimp only [dat5]
theorem A5_3 : (dat5 d A B Wc bc prev O Bd).A 3 = bc := by dsimp only [dat5]
theorem A5_4 : (dat5 d A B Wc bc prev O Bd).A 4 = prev := by dsimp only [dat5]

theorem after5_0 (t : Fin cfg5.N) : (dat5 d A B Wc bc prev O Bd).after 0 t = blk5 d 0 A t := by dsimp only [dat5]
theorem after5_1 (t : Fin cfg5.N) : (dat5 d A B Wc bc prev O Bd).after 1 t = blk5 d 1 B t := by dsimp only [dat5]
theorem after5_2 (t : Fin cfg5.N) : (dat5 d A B Wc bc prev O Bd).after 2 t = blk5 d 2 Wc t := by dsimp only [dat5]
theorem after5_3 (t : Fin cfg5.N) : (dat5 d A B Wc bc prev O Bd).after 3 t = blk5 d 3 bc t := by dsimp only [dat5]
theorem after5_4 (t : Fin cfg5.N) : (dat5 d A B Wc bc prev O Bd).after 4 t
    = mmOut (blk5 d 0 A t) (blk5 d 1 B t) (blk5 d 2 Wc t) (blk5 d 3 bc t) := by dsimp only [dat5]

/-- Each input's current staging buffer holds its block. -/
theorem before5_0 (t : Fin cfg5.N) (dd) : (dat5 d A B Wc bc prev O Bd).before 0 t dd = blk5 d 0 A t :=
  ((dat5 d A B Wc bc prev O Bd).before_in_eq_fetched 0 rfl (fun _ => rfl) (fun _ _ _ => rfl)
    (fun t => by rw [after5_0]; unfold Dat.blockOf blk5; rw [A5_0]; try rfl) t dd).trans
    (by unfold Dat.fetched Dat.blockOf blk5; rw [A5_0]; try rfl)
theorem before5_1 (t : Fin cfg5.N) (dd) : (dat5 d A B Wc bc prev O Bd).before 1 t dd = blk5 d 1 B t :=
  ((dat5 d A B Wc bc prev O Bd).before_in_eq_fetched 1 rfl (fun _ => rfl) (fun _ _ _ => rfl)
    (fun t => by rw [after5_1]; unfold Dat.blockOf blk5; rw [A5_1]; try rfl) t dd).trans
    (by unfold Dat.fetched Dat.blockOf blk5; rw [A5_1]; try rfl)
theorem before5_2 (t : Fin cfg5.N) (dd) : (dat5 d A B Wc bc prev O Bd).before 2 t dd = blk5 d 2 Wc t :=
  ((dat5 d A B Wc bc prev O Bd).before_in_eq_fetched 2 rfl (fun _ => rfl) (fun _ _ _ => rfl)
    (fun t => by rw [after5_2]; unfold Dat.blockOf blk5; rw [A5_2]; try rfl) t dd).trans
    (by unfold Dat.fetched Dat.blockOf blk5; rw [A5_2]; try rfl)
theorem before5_3 (t : Fin cfg5.N) (dd) : (dat5 d A B Wc bc prev O Bd).before 3 t dd = blk5 d 3 bc t :=
  ((dat5 d A B Wc bc prev O Bd).before_in_eq_fetched 3 rfl (fun _ => rfl) (fun _ _ _ => rfl)
    (fun t => by rw [after5_3]; unfold Dat.blockOf blk5; rw [A5_3]; try rfl) t dd).trans
    (by unfold Dat.fetched Dat.blockOf blk5; rw [A5_3]; try rfl)

/-! ## The body obligation -/

/-- What the body is called with at point `t`, the windows one by one, -/
def bodyPre5 (t : Fin cfg5.N) : sProp 𝕄 :=
  iprop((dat5 d A B Wc bc prev O Bd).Φ t.castSucc ∗ (dat5 d A B Wc bc prev O Bd).owesAt none t.castSucc
    ∗ (∃ dd, owns (d : Thread nD τ) (st5_0 t) fullShare ((dat5 d A B Wc bc prev O Bd).before 0 t dd))
    ∗ (∃ dd, owns (d : Thread nD τ) (st5_1 t) fullShare ((dat5 d A B Wc bc prev O Bd).before 1 t dd))
    ∗ (∃ dd, owns (d : Thread nD τ) (st5_2 t) fullShare ((dat5 d A B Wc bc prev O Bd).before 2 t dd))
    ∗ (∃ dd, owns (d : Thread nD τ) (st5_3 t) fullShare ((dat5 d A B Wc bc prev O Bd).before 3 t dd))
    ∗ (∃ dd, owns (d : Thread nD τ) (st5_4 t) fullShare ((dat5 d A B Wc bc prev O Bd).before 4 t dd)))

/-- and what it returns. -/
def bodyPost5 (t : Fin cfg5.N) : sProp 𝕄 :=
  iprop((dat5 d A B Wc bc prev O Bd).Φ t.succ ∗ (dat5 d A B Wc bc prev O Bd).owesAt none t.succ
    ∗ owns (d : Thread nD τ) (st5_0 t) fullShare ((dat5 d A B Wc bc prev O Bd).after 0 t)
    ∗ owns (d : Thread nD τ) (st5_1 t) fullShare ((dat5 d A B Wc bc prev O Bd).after 1 t)
    ∗ owns (d : Thread nD τ) (st5_2 t) fullShare ((dat5 d A B Wc bc prev O Bd).after 2 t)
    ∗ owns (d : Thread nD τ) (st5_3 t) fullShare ((dat5 d A B Wc bc prev O Bd).after 3 t)
    ∗ owns (d : Thread nD τ) (st5_4 t) fullShare ((dat5 d A B Wc bc prev O Bd).after 4 t))

/-- The body at the point: the inputs' memrefs hold their blocks, so the body's triple applies; the invariant and the core's
    `owes` pass through unread. -/
theorem sound_body5 (t : Fin cfg5.N) :
    bodyPre5 d A B Wc bc prev O Bd t ⊢ wp frame (wpE (defs₀ (F := F)) Variants.none d none) Set.univ (bodyAt5 t)
      (fun _ => bodyPost5 d A B Wc bc prev O Bd t) := by
  unfold bodyPre5 bodyPost5 bodyAt5
  simp only [before5_0, before5_1, before5_2, before5_3]
  rw [show (dat5 d A B Wc bc prev O Bd).Φ t.succ = (dat5 d A B Wc bc prev O Bd).Φ t.castSucc from rfl,
    show (dat5 d A B Wc bc prev O Bd).owesAt none t.succ = (dat5 d A B Wc bc prev O Bd).owesAt none t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_mm5 d Set.univ _ _ _ _ _ _ _ _ _ _ _ _ _ (blk5 d 0 A t) (blk5 d 1 B t) (blk5 d 2 Wc t) (blk5 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 : BodyObligation (dat5 d A B Wc bc prev O Bd) (defs₀ (F := F)) Variants.none none Set.univ := fun t => by
  rw [bigSep_W5, bigSep_W5]
  exact sound_body5 d A B Wc bc prev O Bd t

end Dat5

/-! ## The region's record -/

theorem spec_pin1 : (Pipeline.pin (pcfgs (F := F)) adm 1).spec = spec5 := rfl
theorem Phi5 (d : Dev nD) (A : BufOf (F := F) d main_v8_0) (B : BufOf (F := F) d main_v8_1) (Wc : BufOf (F := F) d main_arg4)
    (bc : BufOf (F := F) d main_v2) (prev : BufOf (F := F) d main_v16)
    (O : CellTallies nD τ sig (HIx 4)) (Bd : Set (SemLoc sig × HIx 4)) (t) :
    (dat5 d A B Wc bc prev O Bd).Φ t = Pipeline.scopedRest spec5 d := by dsimp only [dat5]

section Region1
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))

/-- The family of proof data the second region runs under: its own pipeline's, and nothing of the others. -/
def fam1 : (p : Fin 4) → (c : Dev nD) → Dat τ (Elt F) (HIx 4) ℕ UU ℕ (Pipeline.pin (pcfgs (F := F)) adm p) c
  | ⟨0, _⟩ => fun c => datNone cfg4 c
  | ⟨1, _⟩ => fun c => dat5 c (A c) (B c) (Wc c) (bc c) (prev c) (O c) (Bd c)
  | ⟨2, _⟩ => fun c => datNone cfg6 c
  | ⟨3, _⟩ => fun c => datNone cfg7 c

theorem fam1_1 (c : Dev nD) : fam1 A B Wc bc prev O Bd 1 c = dat5 c (A c) (B c) (Wc c) (bc c) (prev c) (O c) (Bd c) := rfl

/-- The result array after the region: block 1 of it overwritten by what the body left in the staging buffer. -/
def out1 (c : Dev nD) : BufOf (F := F) c main_v16 := (dat5 c (A c) (B c) (Wc c) (bc c) (prev c) (O c) (Bd c)).arrAt 4 1

/-- The five arrays of the pipeline, one by one. -/
theorem arrays5 (c : Dev nD) (Fa : (w : Fin cfg5.W) → Buf (Elt F) ((cfg5.win w).arr.view.loc (c.tc : Thread nD τ))) :
    ((dat5 c (A c) (B c) (Wc c) (bc c) (prev c) (O c) (Bd c)).arrays Fa : sProp 𝕄)
      = iprop(ptT c main_v8_0 (Fa 0) ∗ ptT c main_v8_1 (Fa 1) ∗ ptT c main_arg4 (Fa 2) ∗ ptT c main_v2 (Fa 3) ∗ ptT c main_v16 (Fa 4)) := by
  rw [Pipeline.arrays_eq (fun _ : Fin 1 => cfg5) (fun _ c' => dat5 c' (A c') (B c') (Wc c') (bc c') (prev c') (O c') (Bd c')) 0 c arr_whole5
    ((dat5 c (A c) (B c) (Wc c) (bc c) (prev c) (O c) (Bd c)).share_full fun _ => rfl) Fa, bigSep_W5]

/-- The thread state the second region is entered from, and the one it leaves. -/
def pre1 (c : Dev nD) : sProp 𝕄 :=
  iprop(ptT c main_v8_0 (A c) ∗ ptT c main_v8_1 (B c) ∗ ptT c main_arg4 (Wc c) ∗ ptT c main_v2 (bc c) ∗ ptT c main_v16 (prev c)
    ∗ owesIn c (O c) (Bd c))
def post1 (c : Dev nD) : sProp 𝕄 :=
  iprop(ptT c main_v8_0 (A c) ∗ ptT c main_v8_1 (B c) ∗ ptT c main_arg4 (Wc c) ∗ ptT c main_v2 (bc c) ∗ ptT c main_v16 (out1 A B Wc bc prev O Bd c)
    ∗ owesIn c (O c) (Bd c ∪ cfg5.waitPairs none))

variable (lv : GSem nD τ sig → HIx 4 → ℕ) (hlv : (K (F := F)).Refines lv) (hO : ∀ c g, O c g none = 0)

/-- The second matrix-product region's record. -/
def reg1 : Pipeline.RegionSeg (pcfgs (F := F)) adm (fam1 A B Wc bc prev O Bd) none defs₀ Variants.none (K (F := F)).L lv (1 : Fin 4) where
  win := winFacts5.to₀
  block_pos := block_pos5
  stage_whole := stage_whole5
  K := PEmpty
  osem k := k.elim
  ho := Pipeline.OwnSemFacts.none _
  hbody c := (body_obligation5 c (A c) (B c) (Wc c) (bc c) (prev c) (O c) (Bd c)).loose
  hwaits c := Pipeline.cellsWaits_intro _ _ _ _ c fun w s t => (K (F := F)).mayWait_none _ (hO c) lv hlv
  pre := pre1 A B Wc bc prev O Bd
  post := post1 A B Wc bc prev O Bd
  X _ := BI.emp
  Y _ := BI.emp
  Z _ := BI.emp
  hentry c := by
    rw [Pipeline.ownSems0_none, prefHeld_none, fam1_1, arrays5]
    unfold pre1
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam1_1, Phi5, spec_pin1]
    iintro ⟨-, -, HR⟩; iexact HR
  hout c := by
    rw [fam1_1, Pipeline.ownSems0_none, Phi5, spec_pin1]
    iintro HR
    isplitr; · iempintro
    isplitr; · iempintro
    iexact HR
  hexit c := by
    rw [fam1_1, arrays5]
    unfold post1
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region1

section Region1Thm
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The second matrix-product region inside @main on the TensorCore thread: from the level facts, the region boundary, the
    five arrays whole, what the core owes, and the pipeline's cells' ghost state and duty tokens, the call runs to the
    boundary, the four input arrays as they were, the result array with block 1 of it overwritten, and the same owed. -/
theorem region1 (d : Dev nD) {Φ : PUnit → sProp 𝕄} :
    iprop(levAts (K (F := F)).L lv ∗ boundary (d.tc : Thread nD τ) ∗ pre1 A B Wc bc prev O Bd d
        ∗ Pipeline.cellsGhost (nD := nD) (τ := τ) cfgs (EP (F := F)) 1 d ∗ Pipeline.toksInit (nD := nD) (τ := τ) cfgs (EP (F := F)) 1 d
        ∗ (iprop(boundary (d.tc : Thread nD τ) ∗ post1 A B Wc bc prev O Bd d) -∗ Φ ⟨⟩))
      ⊢ wp frame (wpE ((K (F := F)).defs (D (F := F))) 𝒱 (T d) none) Set.univ
          (Prog.lift (.customCall (SparseCore.inner (Pipeline.entry 1)) ())) Φ := by
  refine .trans ?_ (wp_entry_lift d 1 Φ)
  have h := Pipeline.RegionSeg.wp (pcfgs (F := F)) adm (fam1 A B Wc bc prev O Bd) none cellOf_inj (EP (F := F)) defs₀ Variants.none
    (K (F := F)).L lv (reg1 A B Wc bc prev O Bd lv hlv hO) d none (fun _ hu => nomatch hu) (fun _ => .ret ⟨⟩) Φ
  rw [show (reg1 A B Wc bc prev O Bd lv hlv hO).pre d = pre1 A B Wc bc prev O Bd d from rfl,
    show (reg1 A B Wc bc prev O Bd lv hlv hO).post d = post1 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region1Thm

section Region1Thm'
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region1' (d : Dev nD) (W : Waits sig (HIx 4)) {Φ : PUnit → sProp 𝕄} :
    iprop(levAts (K (F := F)).L (K (F := F)).lev ∗ boundary (d.tc : Thread nD τ)
        ∗ ptT d main_v8_0 (A d) ∗ ptT d main_v8_1 (B d) ∗ ptT d main_arg4 (Wc d) ∗ ptT d main_v2 (bc d) ∗ ptT d main_v16 (prev d)
        ∗ owes (T d) (O d) W
        ∗ Pipeline.cellsGhost (nD := nD) (τ := τ) cfgs (EP (F := F)) 1 d ∗ Pipeline.toksInit (nD := nD) (τ := τ) cfgs (EP (F := F)) 1 d
        ∗ (iprop(boundary (d.tc : Thread nD τ)
              ∗ ptT d main_v8_0 (A d) ∗ ptT d main_v8_1 (B d) ∗ ptT d main_arg4 (Wc d) ∗ ptT d main_v2 (bc d)
              ∗ ptT d main_v16 (out1 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 1)) ())) Φ := by
  refine .trans ?_ (region1 A B Wc bc prev O (fun _ => (↑W : Set (SemLoc sig × HIx 4))) (K (F := F)).lev (by sl_refines_lev) hO d)
  unfold pre1 post1 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region1Thm'

/-! ## What the region leaves in the result array, in closed form -/

section Out1
open Idealize.ShloMosaic.ValueIdx

theorem N5pos : 0 < cfg5.N := by decide

/-- Where the windows' blocks sit at the one grid point: the inputs' at the origin, the result's at block 1 of its array. -/
theorem index5_0 : ∀ (t : Fin cfg5.N) (a : Fin 2), (cfg5.win 0).index t a = 0 := by decide
theorem index5_1 : ∀ (t : Fin cfg5.N) (a : Fin 2), (cfg5.win 1).index t a = 0 := by decide
theorem index5_2 : ∀ (t : Fin cfg5.N) (a : Fin 2), (cfg5.win 2).index t a = 0 := by decide
theorem index5_3 : ∀ (t : Fin cfg5.N) (a : Fin 2), (cfg5.win 3).index t a = 0 := by decide
theorem index5_4 : ∀ (t : Fin cfg5.N) (a : Fin 2), (cfg5.win 4).index t a = (![1, 0] : Fin 2 → ℕ) a := by decide

/-- An element of a window's block sits in the array at the block index times the block's size plus its own coordinate. -/
theorem emb5_0 (t : Fin cfg5.N) (y : ((cfg5.win 0).xblock (cfg5.grid.coords t)).Idx) (a : Fin 2) :
    ((((cfg5.win 0).blk t).view.emb y) a : ℕ) = (cfg5.win 0).index t a * (cfg5.win 0).size a + y a := (cfg5.win 0).rect_emb_val t y a
theorem emb5_1 (t : Fin cfg5.N) (y : ((cfg5.win 1).xblock (cfg5.grid.coords t)).Idx) (a : Fin 2) :
    ((((cfg5.win 1).blk t).view.emb y) a : ℕ) = (cfg5.win 1).index t a * (cfg5.win 1).size a + y a := (cfg5.win 1).rect_emb_val t y a
theorem emb5_2 (t : Fin cfg5.N) (y : ((cfg5.win 2).xblock (cfg5.grid.coords t)).Idx) (a : Fin 2) :
    ((((cfg5.win 2).blk t).view.emb y) a : ℕ) = (cfg5.win 2).index t a * (cfg5.win 2).size a + y a := (cfg5.win 2).rect_emb_val t y a
theorem emb5_3 (t : Fin cfg5.N) (y : ((cfg5.win 3).xblock (cfg5.grid.coords t)).Idx) (a : Fin 2) :
    ((((cfg5.win 3).blk t).view.emb y) a : ℕ) = (cfg5.win 3).index t a * (cfg5.win 3).size a + y a := (cfg5.win 3).rect_emb_val t y a
theorem emb5_4 (t : Fin cfg5.N) (y : ((cfg5.win 4).xblock (cfg5.grid.coords t)).Idx) (a : Fin 2) :
    ((((cfg5.win 4).blk t).view.emb y) a : ℕ) = (cfg5.win 4).index t a * (cfg5.win 4).size a + y a := (cfg5.win 4).rect_emb_val t y a

/-- An input window's block is its whole array. -/
theorem blk5_0_eq (d : Dev nD) (X : BufOf (F := F) d main_v8_0) (t : Fin cfg5.N) : blk5 d 0 X t = X := by
  funext y; unfold blk5; rw [View.read_apply, cast_eq]; congr 1; funext a; apply Fin.ext
  rw [emb5_0, index5_0]; omega
theorem blk5_1_eq (d : Dev nD) (X : BufOf (F := F) d main_v8_1) (t : Fin cfg5.N) : blk5 d 1 X t = X := by
  funext y; unfold blk5; rw [View.read_apply, cast_eq]; congr 1; funext a; apply Fin.ext
  rw [emb5_1, index5_1]; omega
theorem blk5_2_eq (d : Dev nD) (X : BufOf (F := F) d main_arg4) (t : Fin cfg5.N) : blk5 d 2 X t = X := by
  funext y; unfold blk5; rw [View.read_apply, cast_eq]; congr 1; funext a; apply Fin.ext
  rw [emb5_2, index5_2]; omega
theorem blk5_3_eq (d : Dev nD) (X : BufOf (F := F) d main_v2) (t : Fin cfg5.N) : blk5 d 3 X t = X := by
  funext y; unfold blk5; rw [View.read_apply, cast_eq]; congr 1; funext a; apply Fin.ext
  rw [emb5_3, index5_3]; omega

variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (Bd : Dev nD → Set (SemLoc sig × HIx 4))

/-- The result array after the region is block 1 of the array before it overwritten with the matrix-product block. -/
theorem out1_eq (d : Dev nD) : out1 A B Wc bc prev O Bd d = outAt 1 (A d) (B d) (Wc d) (bc d) (prev d) := by
  funext j
  unfold out1
  rw [Pipeline.Dat.arrAt_succ_apply, dif_pos N5pos, if_pos (flush5_4 _)]
  have key : ∀ y, View.write (Elt F) ((cfg5.win 4).blk ⟨0, N5pos⟩).view
      ((dat5 d (A d) (B d) (Wc d) (bc d) (prev d) (O d) (Bd d)).arrAt 4 0)
      ((dat5 d (A d) (B d) (Wc d) (bc d) (prev d) (O d) (Bd d)).flushed 4 ⟨0, N5pos⟩) Finset.univ
      (((cfg5.win 4).blk ⟨0, N5pos⟩).view.emb y) = mmOut (A d) (B d) (Wc d) (bc d) y := fun y => by
    rw [View.write_emb_of_mem _ _ (Finset.mem_univ _), cast_eq]
    show (dat5 d (A d) (B d) (Wc d) (bc d) (prev d) (O d) (Bd d)).after 4 ⟨0, N5pos⟩ y = _
    rw [after5_4, blk5_0_eq, blk5_1_eq, blk5_2_eq, blk5_3_eq]
  by_cases h : 4096 * (1 : Fin 4).val ≤ (j 0).val ∧ (j 0).val < 4096 * (1 : Fin 4).val + 4096
  · rw [outAt_of_mem 1 _ _ _ _ _ j h]
    have h' : 4096 * 1 ≤ (j 0).val ∧ (j 0).val < 4096 * 1 + 4096 := h
    have hj : j = ((cfg5.win 4).blk ⟨0, N5pos⟩).view.emb (ix2 ⟨(j 0).val - 4096 * (1 : Fin 4).val, by omega⟩ (j 1)) := by
      funext a
      apply Fin.ext
      rw [emb5_4, index5_4]
      match a with
      | ⟨0, _⟩ => show (j 0).val = 1 * 4096 + ((j 0).val - 4096 * 1); omega
      | ⟨1, _⟩ => show (j 1).val = 0 * 128 + (j 1).val; omega
    conv_lhs => rw [hj]
    exact key _
  · rw [outAt_of_not_mem 1 _ _ _ _ _ j h, View.write_of_not_mem]
    · show (dat5 d (A d) (B d) (Wc d) (bc d) (prev d) (O d) (Bd d)).A 4 j = _
      rw [A5_4]
    · rw [View.setOn_univ]; intro hm
      obtain ⟨y, -, rfl⟩ := Finset.mem_map.mp hm
      apply h
      have hy : (y 0).val < 4096 := (y 0).isLt
      have e0 : ((((cfg5.win 4).blk ⟨0, N5pos⟩).view.emb y) 0 : ℕ) = 1 * 4096 + (y 0).val := by rw [emb5_4, index5_4]; rfl
      show 4096 * 1 ≤ _ ∧ _ < 4096 * 1 + 4096
      rw [e0]; omega

end Out1

section Region1Thm''
variable (A : (c : Dev nD) → BufOf (F := F) c main_v8_0) (B : (c : Dev nD) → BufOf (F := F) c main_v8_1)
    (Wc : (c : Dev nD) → BufOf (F := F) c main_arg4) (bc : (c : Dev nD) → BufOf (F := F) c main_v2)
    (prev : (c : Dev nD) → BufOf (F := F) c main_v16)
    (O : Dev nD → CellTallies nD τ sig (HIx 4)) (hO : ∀ c g, O c g none = 0)

include hO in
/-- The same with the result array's contents in closed form. -/
theorem region1'' (d : Dev nD) (W : Waits sig (HIx 4)) {Φ : PUnit → sProp 𝕄} :
    iprop(levAts (K (F := F)).L (K (F := F)).lev ∗ boundary (d.tc : Thread nD τ)
        ∗ ptT d main_v8_0 (A d) ∗ ptT d main_v8_1 (B d) ∗ ptT d main_arg4 (Wc d) ∗ ptT d main_v2 (bc d) ∗ ptT d main_v16 (prev d)
        ∗ owes (T d) (O d) W
        ∗ Pipeline.cellsGhost (nD := nD) (τ := τ) cfgs (EP (F := F)) 1 d ∗ Pipeline.toksInit (nD := nD) (τ := τ) cfgs (EP (F := F)) 1 d
        ∗ (iprop(boundary (d.tc : Thread nD τ)
              ∗ ptT d main_v8_0 (A d) ∗ ptT d main_v8_1 (B d) ∗ ptT d main_arg4 (Wc d) ∗ ptT d main_v2 (bc d)
              ∗ ptT d main_v16 (outAt 1 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 1)) ())) Φ := by
  have h := region1' A B Wc bc prev O hO d W (Φ := Φ)
  rw [out1_eq] at h
  exact h

end Region1Thm''

end Cert.Proof.KB

end
-- ==== Proof.Bits.Region2.lean ====
/-
  The third matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 2 of this call's result array, which holds
  the previous call's result in its other blocks (`out2_eq`).
-/
import proofs.«204601_g21792664060648_cont_8to1_111_20_alg».proof.Proof.Bits.Region0

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k6_pay1_eq : (k6_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm6 (c : Dev nD) (E : Set ℕ) (i : grid6.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc6__mm_body_alias i arg1 harg1 arg2 harg2 arg3 harg3 arg4 harg4 arg5 harg5 arg6 harg6) K := by
  simp only [cc6__mm_body_alias_eq_skeleton]; unfold cc6__mm_body_alias_skel
  rw [k6_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the third matrix-product region -/

/-- Window `w`'s block at point `t`, read off contents `X` of its array. -/
def blk6 (d : Dev nD) (w : Fin cfg6.W) (X : BufOf (F := F) d (Pipeline.arrRef spec6 w)) (t : Fin cfg6.N) :
    ((cfg6.win w).xblock (cfg6.grid.coords t)).Idx → Elt F (cfg6.win w).elt :=
  ((cfg6.win w).blk t).view.read (Elt F) X

/-- The proof data: the five arrays at given contents; after the body each input's buffer at its block and the result's at
    `mmOut` of the input blocks; the invariant is the scoped buffers no window stages, untouched; what the core owes and the
    bound on its recorded pairs pass through. -/
def dat6 (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4)) : Dat τ (Elt F) (HIx 4) ℕ UU ℕ cfg6 d where
  A w := match w with
    | ⟨0, _⟩ => A
    | ⟨1, _⟩ => B
    | ⟨2, _⟩ => Wc
    | ⟨3, _⟩ => bc
    | ⟨4, _⟩ => prev
  after w t := match w with
    | ⟨0, _⟩ => blk6 d 0 A t
    | ⟨1, _⟩ => blk6 d 1 B t
    | ⟨2, _⟩ => blk6 d 2 Wc t
    | ⟨3, _⟩ => blk6 d 3 bc t
    | ⟨4, _⟩ => mmOut (blk6 d 0 A t) (blk6 d 1 B t) (blk6 d 2 Wc t) (blk6 d 3 bc t)
  Φ _ := Pipeline.scopedRest spec6 d
  q _ := fullShare
  owed _ := O
  recorded _ := Bd

section Dat6
variable (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4))

theorem A6_0 : (dat6 d A B Wc bc prev O Bd).A 0 = A := by dsimp only [dat6]
theorem A6_1 : (dat6 d A B Wc bc prev O Bd).A 1 = B := by dsimp only [dat6]
theorem A6_2 : (dat6 d A B Wc bc prev O Bd).A 2 = Wc := by dsimp only [dat6]
theorem A6_3 : (dat6 d A B Wc bc prev O Bd).A 3 = bc := by dsimp only [dat6]
theorem A6_4 : (dat6 d A B Wc bc prev O Bd).A 4 = prev := by dsimp only [dat6]

theorem after6_0 (t : Fin cfg6.N) : (dat6 d A B Wc bc prev O Bd).after 0 t = blk6 d 0 A t := by dsimp only [dat6]
theorem after6_1 (t : Fin cfg6.N) : (dat6 d A B Wc bc prev O Bd).after 1 t = blk6 d 1 B t := by dsimp only [dat6]
theorem after6_2 (t : Fin cfg6.N) : (dat6 d A B Wc bc prev O Bd).after 2 t = blk6 d 2 Wc t := by dsimp only [dat6]
theorem after6_3 (t : Fin cfg6.N) : (dat6 d A B Wc bc prev O Bd).after 3 t = blk6 d 3 bc t := by dsimp only [dat6]
theorem after6_4 (t : Fin cfg6.N) : (dat6 d A B Wc bc prev O Bd).after 4 t
    = mmOut (blk6 d 0 A t) (blk6 d 1 B t) (blk6 d 2 Wc t) (blk6 d 3 bc t) := by dsimp only [dat6]

/-- Each input's current staging buffer holds its block. -/
theorem before6_0 (t : Fin cfg6.N) (dd) : (dat6 d A B Wc bc prev O Bd).before 0 t dd = blk6 d 0 A t :=
  ((dat6 d A B Wc bc prev O Bd).before_in_eq_fetched 0 rfl (fun _ => rfl) (fun _ _ _ => rfl)
    (fun t => by rw [after6_0]; unfold Dat.blockOf blk6; rw [A6_0]; try rfl) t dd).trans
    (by unfold Dat.fetched Dat.blockOf blk6; rw [A6_0]; try rfl)
theorem before6_1 (t : Fin cfg6.N) (dd) : (dat6 d A B Wc bc prev O Bd).before 1 t dd = blk6 d 1 B t :=
  ((dat6 d A B Wc bc prev O Bd).before_in_eq_fetched 1 rfl (fun _ => rfl) (fun _ _ _ => rfl)
    (fun t => by rw [after6_1]; unfold Dat.blockOf blk6; rw [A6_1]; try rfl) t dd).trans
    (by unfold Dat.fetched Dat.blockOf blk6; rw [A6_1]; try rfl)
theorem before6_2 (t : Fin cfg6.N) (dd) : (dat6 d A B Wc bc prev O Bd).before 2 t dd = blk6 d 2 Wc t :=
  ((dat6 d A B Wc bc prev O Bd).before_in_eq_fetched 2 rfl (fun _ => rfl) (fun _ _ _ => rfl)
    (fun t => by rw [after6_2]; unfold Dat.blockOf blk6; rw [A6_2]; try rfl) t dd).trans
    (by unfold Dat.fetched Dat.blockOf blk6; rw [A6_2]; try rfl)
theorem before6_3 (t : Fin cfg6.N) (dd) : (dat6 d A B Wc bc prev O Bd).before 3 t dd = blk6 d 3 bc t :=
  ((dat6 d A B Wc bc prev O Bd).before_in_eq_fetched 3 rfl (fun _ => rfl) (fun _ _ _ => rfl)
    (fun t => by rw [after6_3]; unfold Dat.blockOf blk6; rw [A6_3]; try rfl) t dd).trans
    (by unfold Dat.fetched Dat.blockOf blk6; rw [A6_3]; try rfl)

/-! ## The body obligation -/

/-- What the body is called with at point `t`, the windows one by one, -/
def bodyPre6 (t : Fin cfg6.N) : sProp 𝕄 :=
  iprop((dat6 d A B Wc bc prev O Bd).Φ t.castSucc ∗ (dat6 d A B Wc bc prev O Bd).owesAt none t.castSucc
    ∗ (∃ dd, owns (d : Thread nD τ) (st6_0 t) fullShare ((dat6 d A B Wc bc prev O Bd).before 0 t dd))
    ∗ (∃ dd, owns (d : Thread nD τ) (st6_1 t) fullShare ((dat6 d A B Wc bc prev O Bd).before 1 t dd))
    ∗ (∃ dd, owns (d : Thread nD τ) (st6_2 t) fullShare ((dat6 d A B Wc bc prev O Bd).before 2 t dd))
    ∗ (∃ dd, owns (d : Thread nD τ) (st6_3 t) fullShare ((dat6 d A B Wc bc prev O Bd).before 3 t dd))
    ∗ (∃ dd, owns (d : Thread nD τ) (st6_4 t) fullShare ((dat6 d A B Wc bc prev O Bd).before 4 t dd)))

/-- and what it returns. -/
def bodyPost6 (t : Fin cfg6.N) : sProp 𝕄 :=
  iprop((dat6 d A B Wc bc prev O Bd).Φ t.succ ∗ (dat6 d A B Wc bc prev O Bd).owesAt none t.succ
    ∗ owns (d : Thread nD τ) (st6_0 t) fullShare ((dat6 d A B Wc bc prev O Bd).after 0 t)
    ∗ owns (d : Thread nD τ) (st6_1 t) fullShare ((dat6 d A B Wc bc prev O Bd).after 1 t)
    ∗ owns (d : Thread nD τ) (st6_2 t) fullShare ((dat6 d A B Wc bc prev O Bd).after 2 t)
    ∗ owns (d : Thread nD τ) (st6_3 t) fullShare ((dat6 d A B Wc bc prev O Bd).after 3 t)
    ∗ owns (d : Thread nD τ) (st6_4 t) fullShare ((dat6 d A B Wc bc prev O Bd).after 4 t))

/-- The body at the point: the inputs' memrefs hold their blocks, so the body's triple applies; the invariant and the core's
    `owes` pass through unread. -/
theorem sound_body6 (t : Fin cfg6.N) :
    bodyPre6 d A B Wc bc prev O Bd t ⊢ wp frame (wpE (defs₀ (F := F)) Variants.none d none) Set.univ (bodyAt6 t)
      (fun _ => bodyPost6 d A B Wc bc prev O Bd t) := by
  unfold bodyPre6 bodyPost6 bodyAt6
  simp only [before6_0, before6_1, before6_2, before6_3]
  rw [show (dat6 d A B Wc bc prev O Bd).Φ t.succ = (dat6 d A B Wc bc prev O Bd).Φ t.castSucc from rfl,
    show (dat6 d A B Wc bc prev O Bd).owesAt none t.succ = (dat6 d A B Wc bc prev O Bd).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_mm6 d Set.univ _ _ _ _ _ _ _ _ _ _ _ _ _ (blk6 d 0 A t) (blk6 d 1 B t) (blk6 d 2 Wc t) (blk6 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 : BodyObligation (dat6 d A B Wc bc prev O Bd) (defs₀ (F := F)) Variants.none none Set.univ := fun t => by
  rw [bigSep_W6, bigSep_W6]
  exact sound_body6 d A B Wc bc prev O Bd t

end Dat6

/-! ## The region's record -/

theorem spec_pin2 : (Pipeline.pin (pcfgs (F := F)) adm 2).spec = spec6 := rfl
theorem Phi6 (d : Dev nD) (A : BufOf (F := F) d main_v11_0) (B : BufOf (F := F) d main_v11_1) (Wc : BufOf (F := F) d main_arg4)
    (bc : BufOf (F := F) d main_v2) (prev : BufOf (F := F) d main_v17)
    (O : CellTallies nD τ sig (HIx 4)) (Bd : Set (SemLoc sig × HIx 4)) (t) :
    (dat6 d A B Wc bc prev O Bd).Φ t = Pipeline.scopedRest spec6 d := by dsimp only [dat6]

section Region2
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))

/-- The family of proof data the third region runs under: its own pipeline's, and nothing of the others. -/
def fam2 : (p : Fin 4) → (c : Dev nD) → Dat τ (Elt F) (HIx 4) ℕ UU ℕ (Pipeline.pin (pcfgs (F := F)) adm p) c
  | ⟨0, _⟩ => fun c => datNone cfg4 c
  | ⟨1, _⟩ => fun c => datNone cfg5 c
  | ⟨2, _⟩ => fun c => dat6 c (A c) (B c) (Wc c) (bc c) (prev c) (O c) (Bd c)
  | ⟨3, _⟩ => fun c => datNone cfg7 c

theorem fam2_2 (c : Dev nD) : fam2 A B Wc bc prev O Bd 2 c = dat6 c (A c) (B c) (Wc c) (bc c) (prev c) (O c) (Bd c) := rfl

/-- The result array after the region: block 2 of it overwritten by what the body left in the staging buffer. -/
def out2 (c : Dev nD) : BufOf (F := F) c main_v17 := (dat6 c (A c) (B c) (Wc c) (bc c) (prev c) (O c) (Bd c)).arrAt 4 1

/-- The five arrays of the pipeline, one by one. -/
theorem arrays6 (c : Dev nD) (Fa : (w : Fin cfg6.W) → Buf (Elt F) ((cfg6.win w).arr.view.loc (c.tc : Thread nD τ))) :
    ((dat6 c (A c) (B c) (Wc c) (bc c) (prev c) (O c) (Bd c)).arrays Fa : sProp 𝕄)
      = iprop(ptT c main_v11_0 (Fa 0) ∗ ptT c main_v11_1 (Fa 1) ∗ ptT c main_arg4 (Fa 2) ∗ ptT c main_v2 (Fa 3) ∗ ptT c main_v17 (Fa 4)) := by
  rw [Pipeline.arrays_eq (fun _ : Fin 1 => cfg6) (fun _ c' => dat6 c' (A c') (B c') (Wc c') (bc c') (prev c') (O c') (Bd c')) 0 c arr_whole6
    ((dat6 c (A c) (B c) (Wc c) (bc c) (prev c) (O c) (Bd c)).share_full fun _ => rfl) Fa, bigSep_W6]

/-- The thread state the third region is entered from, and the one it leaves. -/
def pre2 (c : Dev nD) : sProp 𝕄 :=
  iprop(ptT c main_v11_0 (A c) ∗ ptT c main_v11_1 (B c) ∗ ptT c main_arg4 (Wc c) ∗ ptT c main_v2 (bc c) ∗ ptT c main_v17 (prev c)
    ∗ owesIn c (O c) (Bd c))
def post2 (c : Dev nD) : sProp 𝕄 :=
  iprop(ptT c main_v11_0 (A c) ∗ ptT c main_v11_1 (B c) ∗ ptT c main_arg4 (Wc c) ∗ ptT c main_v2 (bc c) ∗ ptT c main_v17 (out2 A B Wc bc prev O Bd c)
    ∗ owesIn c (O c) (Bd c ∪ cfg6.waitPairs none))

variable (lv : GSem nD τ sig → HIx 4 → ℕ) (hlv : (K (F := F)).Refines lv) (hO : ∀ c g, O c g none = 0)

/-- The third matrix-product region's record. -/
def reg2 : Pipeline.RegionSeg (pcfgs (F := F)) adm (fam2 A B Wc bc prev O Bd) none defs₀ Variants.none (K (F := F)).L lv (2 : Fin 4) where
  win := winFacts6.to₀
  block_pos := block_pos6
  stage_whole := stage_whole6
  K := PEmpty
  osem k := k.elim
  ho := Pipeline.OwnSemFacts.none _
  hbody c := (body_obligation6 c (A c) (B c) (Wc c) (bc c) (prev c) (O c) (Bd c)).loose
  hwaits c := Pipeline.cellsWaits_intro _ _ _ _ c fun w s t => (K (F := F)).mayWait_none _ (hO c) lv hlv
  pre := pre2 A B Wc bc prev O Bd
  post := post2 A B Wc bc prev O Bd
  X _ := BI.emp
  Y _ := BI.emp
  Z _ := BI.emp
  hentry c := by
    rw [Pipeline.ownSems0_none, prefHeld_none, fam2_2, arrays6]
    unfold pre2
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam2_2, Phi6, spec_pin2]
    iintro ⟨-, -, HR⟩; iexact HR
  hout c := by
    rw [fam2_2, Pipeline.ownSems0_none, Phi6, spec_pin2]
    iintro HR
    isplitr; · iempintro
    isplitr; · iempintro
    iexact HR
  hexit c := by
    rw [fam2_2, arrays6]
    unfold post2
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region2

section Region2Thm
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The third matrix-product region inside @main on the TensorCore thread: from the level facts, the region boundary, the
    five arrays whole, what the core owes, and the pipeline's cells' ghost state and duty tokens, the call runs to the
    boundary, the four input arrays as they were, the result array with block 2 of it overwritten, and the same owed. -/
theorem region2 (d : Dev nD) {Φ : PUnit → sProp 𝕄} :
    iprop(levAts (K (F := F)).L lv ∗ boundary (d.tc : Thread nD τ) ∗ pre2 A B Wc bc prev O Bd d
        ∗ Pipeline.cellsGhost (nD := nD) (τ := τ) cfgs (EP (F := F)) 2 d ∗ Pipeline.toksInit (nD := nD) (τ := τ) cfgs (EP (F := F)) 2 d
        ∗ (iprop(boundary (d.tc : Thread nD τ) ∗ post2 A B Wc bc prev O Bd d) -∗ Φ ⟨⟩))
      ⊢ wp frame (wpE ((K (F := F)).defs (D (F := F))) 𝒱 (T d) none) Set.univ
          (Prog.lift (.customCall (SparseCore.inner (Pipeline.entry 2)) ())) Φ := by
  refine .trans ?_ (wp_entry_lift d 2 Φ)
  have h := Pipeline.RegionSeg.wp (pcfgs (F := F)) adm (fam2 A B Wc bc prev O Bd) none cellOf_inj (EP (F := F)) defs₀ Variants.none
    (K (F := F)).L lv (reg2 A B Wc bc prev O Bd lv hlv hO) d none (fun _ hu => nomatch hu) (fun _ => .ret ⟨⟩) Φ
  rw [show (reg2 A B Wc bc prev O Bd lv hlv hO).pre d = pre2 A B Wc bc prev O Bd d from rfl,
    show (reg2 A B Wc bc prev O Bd lv hlv hO).post d = post2 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region2Thm

section Region2Thm'
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region2' (d : Dev nD) (W : Waits sig (HIx 4)) {Φ : PUnit → sProp 𝕄} :
    iprop(levAts (K (F := F)).L (K (F := F)).lev ∗ boundary (d.tc : Thread nD τ)
        ∗ ptT d main_v11_0 (A d) ∗ ptT d main_v11_1 (B d) ∗ ptT d main_arg4 (Wc d) ∗ ptT d main_v2 (bc d) ∗ ptT d main_v17 (prev d)
        ∗ owes (T d) (O d) W
        ∗ Pipeline.cellsGhost (nD := nD) (τ := τ) cfgs (EP (F := F)) 2 d ∗ Pipeline.toksInit (nD := nD) (τ := τ) cfgs (EP (F := F)) 2 d
        ∗ (iprop(boundary (d.tc : Thread nD τ)
              ∗ ptT d main_v11_0 (A d) ∗ ptT d main_v11_1 (B d) ∗ ptT d main_arg4 (Wc d) ∗ ptT d main_v2 (bc d)
              ∗ ptT d main_v17 (out2 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 2)) ())) Φ := by
  refine .trans ?_ (region2 A B Wc bc prev O (fun _ => (↑W : Set (SemLoc sig × HIx 4))) (K (F := F)).lev (by sl_refines_lev) hO d)
  unfold pre2 post2 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region2Thm'

/-! ## What the region leaves in the result array, in closed form -/

section Out2
open Idealize.ShloMosaic.ValueIdx

theorem N6pos : 0 < cfg6.N := by decide

/-- Where the windows' blocks sit at the one grid point: the inputs' at the origin, the result's at block 2 of its array. -/
theorem index6_0 : ∀ (t : Fin cfg6.N) (a : Fin 2), (cfg6.win 0).index t a = 0 := by decide
theorem index6_1 : ∀ (t : Fin cfg6.N) (a : Fin 2), (cfg6.win 1).index t a = 0 := by decide
theorem index6_2 : ∀ (t : Fin cfg6.N) (a : Fin 2), (cfg6.win 2).index t a = 0 := by decide
theorem index6_3 : ∀ (t : Fin cfg6.N) (a : Fin 2), (cfg6.win 3).index t a = 0 := by decide
theorem index6_4 : ∀ (t : Fin cfg6.N) (a : Fin 2), (cfg6.win 4).index t a = (![2, 0] : Fin 2 → ℕ) a := by decide

/-- An element of a window's block sits in the array at the block index times the block's size plus its own coordinate. -/
theorem emb6_0 (t : Fin cfg6.N) (y : ((cfg6.win 0).xblock (cfg6.grid.coords t)).Idx) (a : Fin 2) :
    ((((cfg6.win 0).blk t).view.emb y) a : ℕ) = (cfg6.win 0).index t a * (cfg6.win 0).size a + y a := (cfg6.win 0).rect_emb_val t y a
theorem emb6_1 (t : Fin cfg6.N) (y : ((cfg6.win 1).xblock (cfg6.grid.coords t)).Idx) (a : Fin 2) :
    ((((cfg6.win 1).blk t).view.emb y) a : ℕ) = (cfg6.win 1).index t a * (cfg6.win 1).size a + y a := (cfg6.win 1).rect_emb_val t y a
theorem emb6_2 (t : Fin cfg6.N) (y : ((cfg6.win 2).xblock (cfg6.grid.coords t)).Idx) (a : Fin 2) :
    ((((cfg6.win 2).blk t).view.emb y) a : ℕ) = (cfg6.win 2).index t a * (cfg6.win 2).size a + y a := (cfg6.win 2).rect_emb_val t y a
theorem emb6_3 (t : Fin cfg6.N) (y : ((cfg6.win 3).xblock (cfg6.grid.coords t)).Idx) (a : Fin 2) :
    ((((cfg6.win 3).blk t).view.emb y) a : ℕ) = (cfg6.win 3).index t a * (cfg6.win 3).size a + y a := (cfg6.win 3).rect_emb_val t y a
theorem emb6_4 (t : Fin cfg6.N) (y : ((cfg6.win 4).xblock (cfg6.grid.coords t)).Idx) (a : Fin 2) :
    ((((cfg6.win 4).blk t).view.emb y) a : ℕ) = (cfg6.win 4).index t a * (cfg6.win 4).size a + y a := (cfg6.win 4).rect_emb_val t y a

/-- An input window's block is its whole array. -/
theorem blk6_0_eq (d : Dev nD) (X : BufOf (F := F) d main_v11_0) (t : Fin cfg6.N) : blk6 d 0 X t = X := by
  funext y; unfold blk6; rw [View.read_apply, cast_eq]; congr 1; funext a; apply Fin.ext
  rw [emb6_0, index6_0]; omega
theorem blk6_1_eq (d : Dev nD) (X : BufOf (F := F) d main_v11_1) (t : Fin cfg6.N) : blk6 d 1 X t = X := by
  funext y; unfold blk6; rw [View.read_apply, cast_eq]; congr 1; funext a; apply Fin.ext
  rw [emb6_1, index6_1]; omega
theorem blk6_2_eq (d : Dev nD) (X : BufOf (F := F) d main_arg4) (t : Fin cfg6.N) : blk6 d 2 X t = X := by
  funext y; unfold blk6; rw [View.read_apply, cast_eq]; congr 1; funext a; apply Fin.ext
  rw [emb6_2, index6_2]; omega
theorem blk6_3_eq (d : Dev nD) (X : BufOf (F := F) d main_v2) (t : Fin cfg6.N) : blk6 d 3 X t = X := by
  funext y; unfold blk6; rw [View.read_apply, cast_eq]; congr 1; funext a; apply Fin.ext
  rw [emb6_3, index6_3]; omega

variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (Bd : Dev nD → Set (SemLoc sig × HIx 4))

/-- The result array after the region is block 2 of the array before it overwritten with the matrix-product block. -/
theorem out2_eq (d : Dev nD) : out2 A B Wc bc prev O Bd d = outAt 2 (A d) (B d) (Wc d) (bc d) (prev d) := by
  funext j
  unfold out2
  rw [Pipeline.Dat.arrAt_succ_apply, dif_pos N6pos, if_pos (flush6_4 _)]
  have key : ∀ y, View.write (Elt F) ((cfg6.win 4).blk ⟨0, N6pos⟩).view
      ((dat6 d (A d) (B d) (Wc d) (bc d) (prev d) (O d) (Bd d)).arrAt 4 0)
      ((dat6 d (A d) (B d) (Wc d) (bc d) (prev d) (O d) (Bd d)).flushed 4 ⟨0, N6pos⟩) Finset.univ
      (((cfg6.win 4).blk ⟨0, N6pos⟩).view.emb y) = mmOut (A d) (B d) (Wc d) (bc d) y := fun y => by
    rw [View.write_emb_of_mem _ _ (Finset.mem_univ _), cast_eq]
    show (dat6 d (A d) (B d) (Wc d) (bc d) (prev d) (O d) (Bd d)).after 4 ⟨0, N6pos⟩ y = _
    rw [after6_4, blk6_0_eq, blk6_1_eq, blk6_2_eq, blk6_3_eq]
  by_cases h : 4096 * (2 : Fin 4).val ≤ (j 0).val ∧ (j 0).val < 4096 * (2 : Fin 4).val + 4096
  · rw [outAt_of_mem 2 _ _ _ _ _ j h]
    have h' : 4096 * 2 ≤ (j 0).val ∧ (j 0).val < 4096 * 2 + 4096 := h
    have hj : j = ((cfg6.win 4).blk ⟨0, N6pos⟩).view.emb (ix2 ⟨(j 0).val - 4096 * (2 : Fin 4).val, by omega⟩ (j 1)) := by
      funext a
      apply Fin.ext
      rw [emb6_4, index6_4]
      match a with
      | ⟨0, _⟩ => show (j 0).val = 2 * 4096 + ((j 0).val - 4096 * 2); omega
      | ⟨1, _⟩ => show (j 1).val = 0 * 128 + (j 1).val; omega
    conv_lhs => rw [hj]
    exact key _
  · rw [outAt_of_not_mem 2 _ _ _ _ _ j h, View.write_of_not_mem]
    · show (dat6 d (A d) (B d) (Wc d) (bc d) (prev d) (O d) (Bd d)).A 4 j = _
      rw [A6_4]
    · rw [View.setOn_univ]; intro hm
      obtain ⟨y, -, rfl⟩ := Finset.mem_map.mp hm
      apply h
      have hy : (y 0).val < 4096 := (y 0).isLt
      have e0 : ((((cfg6.win 4).blk ⟨0, N6pos⟩).view.emb y) 0 : ℕ) = 2 * 4096 + (y 0).val := by rw [emb6_4, index6_4]; rfl
      show 4096 * 2 ≤ _ ∧ _ < 4096 * 2 + 4096
      rw [e0]; omega

end Out2

section Region2Thm''
variable (A : (c : Dev nD) → BufOf (F := F) c main_v11_0) (B : (c : Dev nD) → BufOf (F := F) c main_v11_1)
    (Wc : (c : Dev nD) → BufOf (F := F) c main_arg4) (bc : (c : Dev nD) → BufOf (F := F) c main_v2)
    (prev : (c : Dev nD) → BufOf (F := F) c main_v17)
    (O : Dev nD → CellTallies nD τ sig (HIx 4)) (hO : ∀ c g, O c g none = 0)

include hO in
/-- The same with the result array's contents in closed form. -/
theorem region2'' (d : Dev nD) (W : Waits sig (HIx 4)) {Φ : PUnit → sProp 𝕄} :
    iprop(levAts (K (F := F)).L (K (F := F)).lev ∗ boundary (d.tc : Thread nD τ)
        ∗ ptT d main_v11_0 (A d) ∗ ptT d main_v11_1 (B d) ∗ ptT d main_arg4 (Wc d) ∗ ptT d main_v2 (bc d) ∗ ptT d main_v17 (prev d)
        ∗ owes (T d) (O d) W
        ∗ Pipeline.cellsGhost (nD := nD) (τ := τ) cfgs (EP (F := F)) 2 d ∗ Pipeline.toksInit (nD := nD) (τ := τ) cfgs (EP (F := F)) 2 d
        ∗ (iprop(boundary (d.tc : Thread nD τ)
              ∗ ptT d main_v11_0 (A d) ∗ ptT d main_v11_1 (B d) ∗ ptT d main_arg4 (Wc d) ∗ ptT d main_v2 (bc d)
              ∗ ptT d main_v17 (outAt 2 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 2)) ())) Φ := by
  have h := region2' A B Wc bc prev O hO d W (Φ := Φ)
  rw [out2_eq] at h
  exact h

end Region2Thm''

end Cert.Proof.KB

end
-- ==== Proof.Bits.Region3.lean ====
/-
  The fourth matrix-product region of @main, stepped over inside the whole program's TensorCore thread.

  As the first region's module, for this call's pipeline: its two gathered-row arrays, the weight matrix and the bias row are
  fetched whole, the body — the same arithmetic, with one more argument, left in HBM, that it never touches — runs at the one
  grid point, and the result window's staging buffer is written back over block 3 of this call's result array, which holds
  the previous call's result in its other blocks (`out3_eq`).
-/
import proofs.«204601_g21792664060648_cont_8to1_111_20_alg».proof.Proof.Bits.Region0

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

/-! ## The body's triple -/

/-- This call's body computes the same value as the first call's. -/
theorem k7_pay1_eq : (k7_pay1 (F := F)) = k4_pay1 := rfl

set_option maxHeartbeats 1000000 in
/-- The body on whole staging memrefs — the argument left in HBM is never touched —, the inputs' at read contents and the
    result's at anything, runs to the continuation holding the inputs' as they were and the result's at `mmOut` of the
    inputs'. -/
theorem sound_mm7 (c : Dev nD) (E : Set ℕ) (i : grid7.Coords)
    (arg1 : Memref sig .tc .vmem S4096x128 .f32) (harg1 : arg1.IsWhole) (arg2 : Memref sig .tc .vmem S4096x128 .f32) (harg2 : arg2.IsWhole)
    (arg3 : Memref sig .tc .vmem S256x128 .f32) (harg3 : arg3.IsWhole) (arg4 : Memref sig .tc .vmem S1x128 .f32) (harg4 : arg4.IsWhole)
    (arg5 : Memref sig .tc .hbm S16384x128 .f32) (harg5 : arg5.IsWhole)
    (arg6 : Memref sig .tc .vmem S4096x128 .f32) (harg6 : arg6.IsWhole)
    (xa xb : Vec F S4096x128 .f32) (xw : Vec F S256x128 .f32) (xc : Vec F S1x128 .f32) (K : PUnit → sProp 𝕄) :
    iprop(owns (c : Thread nD τ) arg1 fullShare xa ∗ owns (c : Thread nD τ) arg2 fullShare xb ∗ owns (c : Thread nD τ) arg3 fullShare xw
        ∗ owns (c : Thread nD τ) arg4 fullShare xc ∗ (∃ d, owns (c : Thread nD τ) arg6 fullShare d)
        ∗ (iprop(owns (c : Thread nD τ) arg1 fullShare xa ∗ owns (c : Thread nD τ) arg2 fullShare xb ∗ owns (c : Thread nD τ) arg3 fullShare xw
            ∗ owns (c : Thread nD τ) arg4 fullShare xc ∗ owns (c : Thread nD τ) arg6 fullShare (mmOut xa xb xw xc)) -∗ K ⟨⟩))
      ⊢ wp frame (wpE (defs₀ (F := F)) Variants.none c none) E (cc7__mm_body_alias i arg1 harg1 arg2 harg2 arg3 harg3 arg4 harg4 arg5 harg5 arg6 harg6) K := by
  simp only [cc7__mm_body_alias_eq_skeleton]; unfold cc7__mm_body_alias_skel
  rw [k7_pay1_eq]
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_mm _)

/-! ## The proof data of the fourth matrix-product region -/

/-- Window `w`'s block at point `t`, read off contents `X` of its array. -/
def blk7 (d : Dev nD) (w : Fin cfg7.W) (X : BufOf (F := F) d (Pipeline.arrRef spec7 w)) (t : Fin cfg7.N) :
    ((cfg7.win w).xblock (cfg7.grid.coords t)).Idx → Elt F (cfg7.win w).elt :=
  ((cfg7.win w).blk t).view.read (Elt F) X

/-- The proof data: the five arrays at given contents; after the body each input's buffer at its block and the result's at
    `mmOut` of the input blocks; the invariant is the scoped buffers no window stages, untouched; what the core owes and the
    bound on its recorded pairs pass through. -/
def dat7 (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4)) : Dat τ (Elt F) (HIx 4) ℕ UU ℕ cfg7 d where
  A w := match w with
    | ⟨0, _⟩ => A
    | ⟨1, _⟩ => B
    | ⟨2, _⟩ => Wc
    | ⟨3, _⟩ => bc
    | ⟨4, _⟩ => prev
  after w t := match w with
    | ⟨0, _⟩ => blk7 d 0 A t
    | ⟨1, _⟩ => blk7 d 1 B t
    | ⟨2, _⟩ => blk7 d 2 Wc t
    | ⟨3, _⟩ => blk7 d 3 bc t
    | ⟨4, _⟩ => mmOut (blk7 d 0 A t) (blk7 d 1 B t) (blk7 d 2 Wc t) (blk7 d 3 bc t)
  Φ _ := Pipeline.scopedRest spec7 d
  q _ := fullShare
  owed _ := O
  recorded _ := Bd

section Dat7
variable (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4))

theorem A7_0 : (dat7 d A B Wc bc prev O Bd).A 0 = A := by dsimp only [dat7]
theorem A7_1 : (dat7 d A B Wc bc prev O Bd).A 1 = B := by dsimp only [dat7]
theorem A7_2 : (dat7 d A B Wc bc prev O Bd).A 2 = Wc := by dsimp only [dat7]
theorem A7_3 : (dat7 d A B Wc bc prev O Bd).A 3 = bc := by dsimp only [dat7]
theorem A7_4 : (dat7 d A B Wc bc prev O Bd).A 4 = prev := by dsimp only [dat7]

theorem after7_0 (t : Fin cfg7.N) : (dat7 d A B Wc bc prev O Bd).after 0 t = blk7 d 0 A t := by dsimp only [dat7]
theorem after7_1 (t : Fin cfg7.N) : (dat7 d A B Wc bc prev O Bd).after 1 t = blk7 d 1 B t := by dsimp only [dat7]
theorem after7_2 (t : Fin cfg7.N) : (dat7 d A B Wc bc prev O Bd).after 2 t = blk7 d 2 Wc t := by dsimp only [dat7]
theorem after7_3 (t : Fin cfg7.N) : (dat7 d A B Wc bc prev O Bd).after 3 t = blk7 d 3 bc t := by dsimp only [dat7]
theorem after7_4 (t : Fin cfg7.N) : (dat7 d A B Wc bc prev O Bd).after 4 t
    = mmOut (blk7 d 0 A t) (blk7 d 1 B t) (blk7 d 2 Wc t) (blk7 d 3 bc t) := by dsimp only [dat7]

/-- Each input's current staging buffer holds its block. -/
theorem before7_0 (t : Fin cfg7.N) (dd) : (dat7 d A B Wc bc prev O Bd).before 0 t dd = blk7 d 0 A t :=
  ((dat7 d A B Wc bc prev O Bd).before_in_eq_fetched 0 rfl (fun _ => rfl) (fun _ _ _ => rfl)
    (fun t => by rw [after7_0]; unfold Dat.blockOf blk7; rw [A7_0]; try rfl) t dd).trans
    (by unfold Dat.fetched Dat.blockOf blk7; rw [A7_0]; try rfl)
theorem before7_1 (t : Fin cfg7.N) (dd) : (dat7 d A B Wc bc prev O Bd).before 1 t dd = blk7 d 1 B t :=
  ((dat7 d A B Wc bc prev O Bd).before_in_eq_fetched 1 rfl (fun _ => rfl) (fun _ _ _ => rfl)
    (fun t => by rw [after7_1]; unfold Dat.blockOf blk7; rw [A7_1]; try rfl) t dd).trans
    (by unfold Dat.fetched Dat.blockOf blk7; rw [A7_1]; try rfl)
theorem before7_2 (t : Fin cfg7.N) (dd) : (dat7 d A B Wc bc prev O Bd).before 2 t dd = blk7 d 2 Wc t :=
  ((dat7 d A B Wc bc prev O Bd).before_in_eq_fetched 2 rfl (fun _ => rfl) (fun _ _ _ => rfl)
    (fun t => by rw [after7_2]; unfold Dat.blockOf blk7; rw [A7_2]; try rfl) t dd).trans
    (by unfold Dat.fetched Dat.blockOf blk7; rw [A7_2]; try rfl)
theorem before7_3 (t : Fin cfg7.N) (dd) : (dat7 d A B Wc bc prev O Bd).before 3 t dd = blk7 d 3 bc t :=
  ((dat7 d A B Wc bc prev O Bd).before_in_eq_fetched 3 rfl (fun _ => rfl) (fun _ _ _ => rfl)
    (fun t => by rw [after7_3]; unfold Dat.blockOf blk7; rw [A7_3]; try rfl) t dd).trans
    (by unfold Dat.fetched Dat.blockOf blk7; rw [A7_3]; try rfl)

/-! ## The body obligation -/

/-- What the body is called with at point `t`, the windows one by one, -/
def bodyPre7 (t : Fin cfg7.N) : sProp 𝕄 :=
  iprop((dat7 d A B Wc bc prev O Bd).Φ t.castSucc ∗ (dat7 d A B Wc bc prev O Bd).owesAt none t.castSucc
    ∗ (∃ dd, owns (d : Thread nD τ) (st7_0 t) fullShare ((dat7 d A B Wc bc prev O Bd).before 0 t dd))
    ∗ (∃ dd, owns (d : Thread nD τ) (st7_1 t) fullShare ((dat7 d A B Wc bc prev O Bd).before 1 t dd))
    ∗ (∃ dd, owns (d : Thread nD τ) (st7_2 t) fullShare ((dat7 d A B Wc bc prev O Bd).before 2 t dd))
    ∗ (∃ dd, owns (d : Thread nD τ) (st7_3 t) fullShare ((dat7 d A B Wc bc prev O Bd).before 3 t dd))
    ∗ (∃ dd, owns (d : Thread nD τ) (st7_4 t) fullShare ((dat7 d A B Wc bc prev O Bd).before 4 t dd)))

/-- and what it returns. -/
def bodyPost7 (t : Fin cfg7.N) : sProp 𝕄 :=
  iprop((dat7 d A B Wc bc prev O Bd).Φ t.succ ∗ (dat7 d A B Wc bc prev O Bd).owesAt none t.succ
    ∗ owns (d : Thread nD τ) (st7_0 t) fullShare ((dat7 d A B Wc bc prev O Bd).after 0 t)
    ∗ owns (d : Thread nD τ) (st7_1 t) fullShare ((dat7 d A B Wc bc prev O Bd).after 1 t)
    ∗ owns (d : Thread nD τ) (st7_2 t) fullShare ((dat7 d A B Wc bc prev O Bd).after 2 t)
    ∗ owns (d : Thread nD τ) (st7_3 t) fullShare ((dat7 d A B Wc bc prev O Bd).after 3 t)
    ∗ owns (d : Thread nD τ) (st7_4 t) fullShare ((dat7 d A B Wc bc prev O Bd).after 4 t))

/-- The body at the point: the inputs' memrefs hold their blocks, so the body's triple applies; the invariant and the core's
    `owes` pass through unread. -/
theorem sound_body7 (t : Fin cfg7.N) :
    bodyPre7 d A B Wc bc prev O Bd t ⊢ wp frame (wpE (defs₀ (F := F)) Variants.none d none) Set.univ (bodyAt7 t)
      (fun _ => bodyPost7 d A B Wc bc prev O Bd t) := by
  unfold bodyPre7 bodyPost7 bodyAt7
  simp only [before7_0, before7_1, before7_2, before7_3]
  rw [show (dat7 d A B Wc bc prev O Bd).Φ t.succ = (dat7 d A B Wc bc prev O Bd).Φ t.castSucc from rfl,
    show (dat7 d A B Wc bc prev O Bd).owesAt none t.succ = (dat7 d A B Wc bc prev O Bd).owesAt none t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_mm7 d Set.univ _ _ _ _ _ _ _ _ _ _ _ _ _ (blk7 d 0 A t) (blk7 d 1 B t) (blk7 d 2 Wc t) (blk7 d 3 bc t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation7 : BodyObligation (dat7 d A B Wc bc prev O Bd) (defs₀ (F := F)) Variants.none none Set.univ := fun t => by
  rw [bigSep_W7, bigSep_W7]
  exact sound_body7 d A B Wc bc prev O Bd t

end Dat7

/-! ## The region's record -/

theorem spec_pin3 : (Pipeline.pin (pcfgs (F := F)) adm 3).spec = spec7 := rfl
theorem Phi7 (d : Dev nD) (A : BufOf (F := F) d main_v14_0) (B : BufOf (F := F) d main_v14_1) (Wc : BufOf (F := F) d main_arg4)
    (bc : BufOf (F := F) d main_v2) (prev : BufOf (F := F) d main_v18)
    (O : CellTallies nD τ sig (HIx 4)) (Bd : Set (SemLoc sig × HIx 4)) (t) :
    (dat7 d A B Wc bc prev O Bd).Φ t = Pipeline.scopedRest spec7 d := by dsimp only [dat7]

section Region3
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))

/-- The family of proof data the fourth region runs under: its own pipeline's, and nothing of the others. -/
def fam3 : (p : Fin 4) → (c : Dev nD) → Dat τ (Elt F) (HIx 4) ℕ UU ℕ (Pipeline.pin (pcfgs (F := F)) adm p) c
  | ⟨0, _⟩ => fun c => datNone cfg4 c
  | ⟨1, _⟩ => fun c => datNone cfg5 c
  | ⟨2, _⟩ => fun c => datNone cfg6 c
  | ⟨3, _⟩ => fun c => dat7 c (A c) (B c) (Wc c) (bc c) (prev c) (O c) (Bd c)

theorem fam3_3 (c : Dev nD) : fam3 A B Wc bc prev O Bd 3 c = dat7 c (A c) (B c) (Wc c) (bc c) (prev c) (O c) (Bd c) := rfl

/-- The result array after the region: block 3 of it overwritten by what the body left in the staging buffer. -/
def out3 (c : Dev nD) : BufOf (F := F) c main_v18 := (dat7 c (A c) (B c) (Wc c) (bc c) (prev c) (O c) (Bd c)).arrAt 4 1

/-- The five arrays of the pipeline, one by one. -/
theorem arrays7 (c : Dev nD) (Fa : (w : Fin cfg7.W) → Buf (Elt F) ((cfg7.win w).arr.view.loc (c.tc : Thread nD τ))) :
    ((dat7 c (A c) (B c) (Wc c) (bc c) (prev c) (O c) (Bd c)).arrays Fa : sProp 𝕄)
      = iprop(ptT c main_v14_0 (Fa 0) ∗ ptT c main_v14_1 (Fa 1) ∗ ptT c main_arg4 (Fa 2) ∗ ptT c main_v2 (Fa 3) ∗ ptT c main_v18 (Fa 4)) := by
  rw [Pipeline.arrays_eq (fun _ : Fin 1 => cfg7) (fun _ c' => dat7 c' (A c') (B c') (Wc c') (bc c') (prev c') (O c') (Bd c')) 0 c arr_whole7
    ((dat7 c (A c) (B c) (Wc c) (bc c) (prev c) (O c) (Bd c)).share_full fun _ => rfl) Fa, bigSep_W7]

/-- The thread state the fourth region is entered from, and the one it leaves. -/
def pre3 (c : Dev nD) : sProp 𝕄 :=
  iprop(ptT c main_v14_0 (A c) ∗ ptT c main_v14_1 (B c) ∗ ptT c main_arg4 (Wc c) ∗ ptT c main_v2 (bc c) ∗ ptT c main_v18 (prev c)
    ∗ owesIn c (O c) (Bd c))
def post3 (c : Dev nD) : sProp 𝕄 :=
  iprop(ptT c main_v14_0 (A c) ∗ ptT c main_v14_1 (B c) ∗ ptT c main_arg4 (Wc c) ∗ ptT c main_v2 (bc c) ∗ ptT c main_v18 (out3 A B Wc bc prev O Bd c)
    ∗ owesIn c (O c) (Bd c ∪ cfg7.waitPairs none))

variable (lv : GSem nD τ sig → HIx 4 → ℕ) (hlv : (K (F := F)).Refines lv) (hO : ∀ c g, O c g none = 0)

/-- The fourth matrix-product region's record. -/
def reg3 : Pipeline.RegionSeg (pcfgs (F := F)) adm (fam3 A B Wc bc prev O Bd) none defs₀ Variants.none (K (F := F)).L lv (3 : Fin 4) where
  win := winFacts7.to₀
  block_pos := block_pos7
  stage_whole := stage_whole7
  K := PEmpty
  osem k := k.elim
  ho := Pipeline.OwnSemFacts.none _
  hbody c := (body_obligation7 c (A c) (B c) (Wc c) (bc c) (prev c) (O c) (Bd c)).loose
  hwaits c := Pipeline.cellsWaits_intro _ _ _ _ c fun w s t => (K (F := F)).mayWait_none _ (hO c) lv hlv
  pre := pre3 A B Wc bc prev O Bd
  post := post3 A B Wc bc prev O Bd
  X _ := BI.emp
  Y _ := BI.emp
  Z _ := BI.emp
  hentry c := by
    rw [Pipeline.ownSems0_none, prefHeld_none, fam3_3, arrays7]
    unfold pre3
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · iempintro
    isplitl [HO]
    · unfold Pipeline.Dat.owesAt Pipeline.owesWithin Pipeline.Dat.bound owesIn
      icases HO with ⟨%W, %hW, HO⟩; iexists W; isplitr; · ipureintro; exact fun x hx => Or.inl (hW hx)
      iexact HO
    isplitr <;> iempintro
  hin c := by
    rw [fam3_3, Phi7, spec_pin3]
    iintro ⟨-, -, HR⟩; iexact HR
  hout c := by
    rw [fam3_3, Pipeline.ownSems0_none, Phi7, spec_pin3]
    iintro HR
    isplitr; · iempintro
    isplitr; · iempintro
    iexact HR
  hexit c := by
    rw [fam3_3, arrays7]
    unfold post3
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iexact HO

end Region3

section Region3Thm
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))
    (lv : GSem nD τ sig → HIx 4 → ℕ) (hlv : (K (F := F)).Refines lv) (hO : ∀ c g, O c g none = 0)

include hlv hO in
set_option backward.isDefEq.respectTransparency.types false in
/-- The fourth matrix-product region inside @main on the TensorCore thread: from the level facts, the region boundary, the
    five arrays whole, what the core owes, and the pipeline's cells' ghost state and duty tokens, the call runs to the
    boundary, the four input arrays as they were, the result array with block 3 of it overwritten, and the same owed. -/
theorem region3 (d : Dev nD) {Φ : PUnit → sProp 𝕄} :
    iprop(levAts (K (F := F)).L lv ∗ boundary (d.tc : Thread nD τ) ∗ pre3 A B Wc bc prev O Bd d
        ∗ Pipeline.cellsGhost (nD := nD) (τ := τ) cfgs (EP (F := F)) 3 d ∗ Pipeline.toksInit (nD := nD) (τ := τ) cfgs (EP (F := F)) 3 d
        ∗ (iprop(boundary (d.tc : Thread nD τ) ∗ post3 A B Wc bc prev O Bd d) -∗ Φ ⟨⟩))
      ⊢ wp frame (wpE ((K (F := F)).defs (D (F := F))) 𝒱 (T d) none) Set.univ
          (Prog.lift (.customCall (SparseCore.inner (Pipeline.entry 3)) ())) Φ := by
  refine .trans ?_ (wp_entry_lift d 3 Φ)
  have h := Pipeline.RegionSeg.wp (pcfgs (F := F)) adm (fam3 A B Wc bc prev O Bd) none cellOf_inj (EP (F := F)) defs₀ Variants.none
    (K (F := F)).L lv (reg3 A B Wc bc prev O Bd lv hlv hO) d none (fun _ hu => nomatch hu) (fun _ => .ret ⟨⟩) Φ
  rw [show (reg3 A B Wc bc prev O Bd lv hlv hO).pre d = pre3 A B Wc bc prev O Bd d from rfl,
    show (reg3 A B Wc bc prev O Bd lv hlv hO).post d = post3 A B Wc bc prev O Bd d from rfl] at h
  refine .trans ?_ h
  iintro ⟨Hlev, Hb, Hpre, Hg, Ht, Hk⟩
  isplitl [Hk]
  · iintro H; rw [wp_ret]; imodintro; iapply Hk; iexact H
  isplitl [Hb]; · iexact Hb
  isplitl [Hpre]; · iexact Hpre
  isplitl [Hlev]; · iexact Hlev
  isplitl [Hg] <;> iassumption

end Region3Thm

section Region3Thm'
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (hO : ∀ c g, O c g none = 0)

include hO in
/-- The same at the handshakes' own level assignment, the core's recorded pairs given as a set `W`: the pairs recorded on
    the way are `W`'s or sit at the kernels' own index. -/
theorem region3' (d : Dev nD) (W : Waits sig (HIx 4)) {Φ : PUnit → sProp 𝕄} :
    iprop(levAts (K (F := F)).L (K (F := F)).lev ∗ boundary (d.tc : Thread nD τ)
        ∗ ptT d main_v14_0 (A d) ∗ ptT d main_v14_1 (B d) ∗ ptT d main_arg4 (Wc d) ∗ ptT d main_v2 (bc d) ∗ ptT d main_v18 (prev d)
        ∗ owes (T d) (O d) W
        ∗ Pipeline.cellsGhost (nD := nD) (τ := τ) cfgs (EP (F := F)) 3 d ∗ Pipeline.toksInit (nD := nD) (τ := τ) cfgs (EP (F := F)) 3 d
        ∗ (iprop(boundary (d.tc : Thread nD τ)
              ∗ ptT d main_v14_0 (A d) ∗ ptT d main_v14_1 (B d) ∗ ptT d main_arg4 (Wc d) ∗ ptT d main_v2 (bc d)
              ∗ ptT d main_v18 (out3 A B Wc bc prev O (fun _ => (↑W : Set (SemLoc sig × HIx 4))) d)
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 3)) ())) Φ := by
  refine .trans ?_ (region3 A B Wc bc prev O (fun _ => (↑W : Set (SemLoc sig × HIx 4))) (K (F := F)).lev (by sl_refines_lev) hO d)
  unfold pre3 post3 owesIn
  iintro ⟨Hlev, Hb, H0, H1, H2, H3, H4, HO, Hg, Ht, Hk⟩
  isplitl [Hlev]; · iexact Hlev
  isplitl [Hb]; · iexact Hb
  isplitl [H0 H1 H2 H3 H4 HO]
  · isplitl [H0]; · iexact H0
    isplitl [H1]; · iexact H1
    isplitl [H2]; · iexact H2
    isplitl [H3]; · iexact H3
    isplitl [H4]; · iexact H4
    iexists W; isplitr; · ipureintro; exact fun _ h => h
    iexact HO
  isplitl [Hg]; · iexact Hg
  isplitl [Ht]; · iexact Ht
  iintro ⟨Hb, H0, H1, H2, H3, H4, ⟨%W', %hW', HO⟩⟩
  iapply Hk
  isplitl [Hb]; · iexact Hb
  isplitl [H0]; · iexact H0
  isplitl [H1]; · iexact H1
  isplitl [H2]; · iexact H2
  isplitl [H3]; · iexact H3
  isplitl [H4]; · iexact H4
  iexists W'; isplitr
  · ipureintro; intro p hp
    rcases hW' (Finset.mem_coe.mpr hp) with h | ⟨w, s, rfl⟩
    · exact Or.inl (Finset.mem_coe.mp h)
    · exact Or.inr rfl
  iexact HO

end Region3Thm'

/-! ## What the region leaves in the result array, in closed form -/

section Out3
open Idealize.ShloMosaic.ValueIdx

theorem N7pos : 0 < cfg7.N := by decide

/-- Where the windows' blocks sit at the one grid point: the inputs' at the origin, the result's at block 3 of its array. -/
theorem index7_0 : ∀ (t : Fin cfg7.N) (a : Fin 2), (cfg7.win 0).index t a = 0 := by decide
theorem index7_1 : ∀ (t : Fin cfg7.N) (a : Fin 2), (cfg7.win 1).index t a = 0 := by decide
theorem index7_2 : ∀ (t : Fin cfg7.N) (a : Fin 2), (cfg7.win 2).index t a = 0 := by decide
theorem index7_3 : ∀ (t : Fin cfg7.N) (a : Fin 2), (cfg7.win 3).index t a = 0 := by decide
theorem index7_4 : ∀ (t : Fin cfg7.N) (a : Fin 2), (cfg7.win 4).index t a = (![3, 0] : Fin 2 → ℕ) a := by decide

/-- An element of a window's block sits in the array at the block index times the block's size plus its own coordinate. -/
theorem emb7_0 (t : Fin cfg7.N) (y : ((cfg7.win 0).xblock (cfg7.grid.coords t)).Idx) (a : Fin 2) :
    ((((cfg7.win 0).blk t).view.emb y) a : ℕ) = (cfg7.win 0).index t a * (cfg7.win 0).size a + y a := (cfg7.win 0).rect_emb_val t y a
theorem emb7_1 (t : Fin cfg7.N) (y : ((cfg7.win 1).xblock (cfg7.grid.coords t)).Idx) (a : Fin 2) :
    ((((cfg7.win 1).blk t).view.emb y) a : ℕ) = (cfg7.win 1).index t a * (cfg7.win 1).size a + y a := (cfg7.win 1).rect_emb_val t y a
theorem emb7_2 (t : Fin cfg7.N) (y : ((cfg7.win 2).xblock (cfg7.grid.coords t)).Idx) (a : Fin 2) :
    ((((cfg7.win 2).blk t).view.emb y) a : ℕ) = (cfg7.win 2).index t a * (cfg7.win 2).size a + y a := (cfg7.win 2).rect_emb_val t y a
theorem emb7_3 (t : Fin cfg7.N) (y : ((cfg7.win 3).xblock (cfg7.grid.coords t)).Idx) (a : Fin 2) :
    ((((cfg7.win 3).blk t).view.emb y) a : ℕ) = (cfg7.win 3).index t a * (cfg7.win 3).size a + y a := (cfg7.win 3).rect_emb_val t y a
theorem emb7_4 (t : Fin cfg7.N) (y : ((cfg7.win 4).xblock (cfg7.grid.coords t)).Idx) (a : Fin 2) :
    ((((cfg7.win 4).blk t).view.emb y) a : ℕ) = (cfg7.win 4).index t a * (cfg7.win 4).size a + y a := (cfg7.win 4).rect_emb_val t y a

/-- An input window's block is its whole array. -/
theorem blk7_0_eq (d : Dev nD) (X : BufOf (F := F) d main_v14_0) (t : Fin cfg7.N) : blk7 d 0 X t = X := by
  funext y; unfold blk7; rw [View.read_apply, cast_eq]; congr 1; funext a; apply Fin.ext
  rw [emb7_0, index7_0]; omega
theorem blk7_1_eq (d : Dev nD) (X : BufOf (F := F) d main_v14_1) (t : Fin cfg7.N) : blk7 d 1 X t = X := by
  funext y; unfold blk7; rw [View.read_apply, cast_eq]; congr 1; funext a; apply Fin.ext
  rw [emb7_1, index7_1]; omega
theorem blk7_2_eq (d : Dev nD) (X : BufOf (F := F) d main_arg4) (t : Fin cfg7.N) : blk7 d 2 X t = X := by
  funext y; unfold blk7; rw [View.read_apply, cast_eq]; congr 1; funext a; apply Fin.ext
  rw [emb7_2, index7_2]; omega
theorem blk7_3_eq (d : Dev nD) (X : BufOf (F := F) d main_v2) (t : Fin cfg7.N) : blk7 d 3 X t = X := by
  funext y; unfold blk7; rw [View.read_apply, cast_eq]; congr 1; funext a; apply Fin.ext
  rw [emb7_3, index7_3]; omega

variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (Bd : Dev nD → Set (SemLoc sig × HIx 4))

/-- The result array after the region is block 3 of the array before it overwritten with the matrix-product block. -/
theorem out3_eq (d : Dev nD) : out3 A B Wc bc prev O Bd d = outAt 3 (A d) (B d) (Wc d) (bc d) (prev d) := by
  funext j
  unfold out3
  rw [Pipeline.Dat.arrAt_succ_apply, dif_pos N7pos, if_pos (flush7_4 _)]
  have key : ∀ y, View.write (Elt F) ((cfg7.win 4).blk ⟨0, N7pos⟩).view
      ((dat7 d (A d) (B d) (Wc d) (bc d) (prev d) (O d) (Bd d)).arrAt 4 0)
      ((dat7 d (A d) (B d) (Wc d) (bc d) (prev d) (O d) (Bd d)).flushed 4 ⟨0, N7pos⟩) Finset.univ
      (((cfg7.win 4).blk ⟨0, N7pos⟩).view.emb y) = mmOut (A d) (B d) (Wc d) (bc d) y := fun y => by
    rw [View.write_emb_of_mem _ _ (Finset.mem_univ _), cast_eq]
    show (dat7 d (A d) (B d) (Wc d) (bc d) (prev d) (O d) (Bd d)).after 4 ⟨0, N7pos⟩ y = _
    rw [after7_4, blk7_0_eq, blk7_1_eq, blk7_2_eq, blk7_3_eq]
  by_cases h : 4096 * (3 : Fin 4).val ≤ (j 0).val ∧ (j 0).val < 4096 * (3 : Fin 4).val + 4096
  · rw [outAt_of_mem 3 _ _ _ _ _ j h]
    have h' : 4096 * 3 ≤ (j 0).val ∧ (j 0).val < 4096 * 3 + 4096 := h
    have hj : j = ((cfg7.win 4).blk ⟨0, N7pos⟩).view.emb (ix2 ⟨(j 0).val - 4096 * (3 : Fin 4).val, by omega⟩ (j 1)) := by
      funext a
      apply Fin.ext
      rw [emb7_4, index7_4]
      match a with
      | ⟨0, _⟩ => show (j 0).val = 3 * 4096 + ((j 0).val - 4096 * 3); omega
      | ⟨1, _⟩ => show (j 1).val = 0 * 128 + (j 1).val; omega
    conv_lhs => rw [hj]
    exact key _
  · rw [outAt_of_not_mem 3 _ _ _ _ _ j h, View.write_of_not_mem]
    · show (dat7 d (A d) (B d) (Wc d) (bc d) (prev d) (O d) (Bd d)).A 4 j = _
      rw [A7_4]
    · rw [View.setOn_univ]; intro hm
      obtain ⟨y, -, rfl⟩ := Finset.mem_map.mp hm
      apply h
      have hy : (y 0).val < 4096 := (y 0).isLt
      have e0 : ((((cfg7.win 4).blk ⟨0, N7pos⟩).view.emb y) 0 : ℕ) = 3 * 4096 + (y 0).val := by rw [emb7_4, index7_4]; rfl
      show 4096 * 3 ≤ _ ∧ _ < 4096 * 3 + 4096
      rw [e0]; omega

end Out3

section Region3Thm''
variable (A : (c : Dev nD) → BufOf (F := F) c main_v14_0) (B : (c : Dev nD) → BufOf (F := F) c main_v14_1)
    (Wc : (c : Dev nD) → BufOf (F := F) c main_arg4) (bc : (c : Dev nD) → BufOf (F := F) c main_v2)
    (prev : (c : Dev nD) → BufOf (F := F) c main_v18)
    (O : Dev nD → CellTallies nD τ sig (HIx 4)) (hO : ∀ c g, O c g none = 0)

include hO in
/-- The same with the result array's contents in closed form. -/
theorem region3'' (d : Dev nD) (W : Waits sig (HIx 4)) {Φ : PUnit → sProp 𝕄} :
    iprop(levAts (K (F := F)).L (K (F := F)).lev ∗ boundary (d.tc : Thread nD τ)
        ∗ ptT d main_v14_0 (A d) ∗ ptT d main_v14_1 (B d) ∗ ptT d main_arg4 (Wc d) ∗ ptT d main_v2 (bc d) ∗ ptT d main_v18 (prev d)
        ∗ owes (T d) (O d) W
        ∗ Pipeline.cellsGhost (nD := nD) (τ := τ) cfgs (EP (F := F)) 3 d ∗ Pipeline.toksInit (nD := nD) (τ := τ) cfgs (EP (F := F)) 3 d
        ∗ (iprop(boundary (d.tc : Thread nD τ)
              ∗ ptT d main_v14_0 (A d) ∗ ptT d main_v14_1 (B d) ∗ ptT d main_arg4 (Wc d) ∗ ptT d main_v2 (bc d)
              ∗ ptT d main_v18 (outAt 3 (A d) (B d) (Wc d) (bc d) (prev d))
              ∗ ∃ W' : Waits sig (HIx 4), ⌜∀ p ∈ W', p ∈ W ∨ p.2 = none⌝ ∗ owes (T d) (O d) W') -∗ Φ ⟨⟩))
      ⊢ wp frame (wpE ((K (F := F)).defs (D (F := F))) 𝒱 (T d) none) Set.univ
          (Prog.lift (.customCall (SparseCore.inner (Pipeline.entry 3)) ())) Φ := by
  have h := region3' A B Wc bc prev O hO d W (Φ := Φ)
  rw [out3_eq] at h
  exact h

end Region3Thm''

end Cert.Proof.KB

end
-- ==== Proof.Bits.Values.lean ====
/-
  The values @main computes, as functions of the launch memory.

  Region `q` multiplies the rows gathered for tokens `[4096q, 4096q + 4096)` by the two halves of the weights, adds the
  bias row, and overwrites block `q` of the result; the result after region `q` is the previous one with that block
  overwritten, starting from whatever the result array held at launch. After the fourth every block has been written.
-/
import proofs.«204601_g21792664060648_cont_8to1_111_20_alg».proof.Proof.Bits.Pay
import proofs.«204601_g21792664060648_cont_8to1_111_20_alg».proof.Proof.Bits.RegionOut

noncomputable section

namespace Cert.Proof.KB

open Cert.Kernel Cert.Kernel.Gen
open Idealize.ShloMosaic Idealize.ShloMosaic.ValueIdx
open Idealize.ShloMosaic.SparseCore (S V T)
open Idealize.SL.Sem

variable {F : FTy → Type}
variable (m : (ℓ : Loc nD τ sig) → Buf (Elt F) ℓ) [FloatOps F]

/-! ## The values @main computes -/

/-- The gathered operands of region `q`, the weights, the bias row. -/
def gA (q : Fin 4) (c : Dev nD) : S4096x128.Idx → Elt F .f32 := gathered (tokA m c q) (tblA m c)
def gB (q : Fin 4) (c : Dev nD) : S4096x128.Idx → Elt F .f32 := gathered (tokB m c q) (tblB m c)
def wts (c : Dev nD) : S256x128.Idx → Elt F .f32 := m ((SparseCore.T c).loc main_arg4)
def biasRow (c : Dev nD) : S1x128.Idx → Elt F .f32 := fun i => shapeCast S1x128 (m ((SparseCore.T c).loc main_arg5)) shapeCasts_S128_S1x128 i

/-- The result after each region: block `q` overwritten, on top of the previous one. -/
def res0 (c : Dev nD) : S16384x128.Idx → Elt F .f32 := outAt 0 (gA m 0 c) (gB m 0 c) (wts m c) (biasRow m c) (m ((SparseCore.T c).loc main_v15))
def res1 (c : Dev nD) : S16384x128.Idx → Elt F .f32 := outAt 1 (gA m 1 c) (gB m 1 c) (wts m c) (biasRow m c) (res0 m c)
def res2 (c : Dev nD) : S16384x128.Idx → Elt F .f32 := outAt 2 (gA m 2 c) (gB m 2 c) (wts m c) (biasRow m c) (res1 m c)
def res3 (c : Dev nD) : S16384x128.Idx → Elt F .f32 := outAt 3 (gA m 3 c) (gB m 3 c) (wts m c) (biasRow m c) (res2 m c)

end Cert.Proof.KB

end
-- ==== Proof.Bits.Main.lean ====
/-
  @main on the TensorCore, and the program's run.

  @main reshapes the two token inputs to 128 × 128 and the bias to a row; four times it slices thirty-two rows of
  tokens off each and has the SparseCores gather the rows of the two tables they name; then four times it multiplies a
  pair of gathered arrays by the two halves of the weights, adds the bias, and writes the product into its block of the
  result, each region after the first working on a copy of the previous one's result. Each step is one rule: a host
  operation reads one array and writes another; a SparseCore call takes its token arrays, read shares of the tables
  and its result arrays and returns the results at the gathered arrays; a region takes its two operands, the weights,
  the bias row and the previous result and returns the result with its block overwritten. At the end the result holds
  all four blocks and every argument is as it was launched.
-/
import proofs.«204601_g21792664060648_cont_8to1_111_20_alg».proof.Proof.Bits.Run1
import proofs.«204601_g21792664060648_cont_8to1_111_20_alg».proof.Proof.Bits.Run2
import proofs.«204601_g21792664060648_cont_8to1_111_20_alg».proof.Proof.Bits.Run3
import proofs.«204601_g21792664060648_cont_8to1_111_20_alg».proof.Proof.Bits.TabShares
import proofs.«204601_g21792664060648_cont_8to1_111_20_alg».proof.Proof.Bits.HostStep
import proofs.«204601_g21792664060648_cont_8to1_111_20_alg».proof.Proof.Bits.Arrays
import proofs.«204601_g21792664060648_cont_8to1_111_20_alg».proof.Proof.Bits.LaunchElem
import proofs.«204601_g21792664060648_cont_8to1_111_20_alg».proof.Proof.Bits.TcSt4
import proofs.«204601_g21792664060648_cont_8to1_111_20_alg».proof.Proof.Bits.Final
import proofs.«204601_g21792664060648_cont_8to1_111_20_alg».proof.Proof.Bits.TokBound
import proofs.«204601_g21792664060648_cont_8to1_111_20_alg».proof.Proof.Bits.TileObl
import proofs.«204601_g21792664060648_cont_8to1_111_20_alg».proof.Proof.Bits.Region0
import proofs.«204601_g21792664060648_cont_8to1_111_20_alg».proof.Proof.Bits.Region1
import proofs.«204601_g21792664060648_cont_8to1_111_20_alg».proof.Proof.Bits.Region2
import proofs.«204601_g21792664060648_cont_8to1_111_20_alg».proof.Proof.Bits.Region3
import proofs.«204601_g21792664060648_cont_8to1_111_20_alg».proof.Proof.Bits.RegionOut
import proofs.«204601_g21792664060648_cont_8to1_111_20_alg».proof.Proof.Bits.Values

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 4) (Elt F) ℕ UU ℕ

variable (m : (ℓ : Loc nD τ sig) → Buf (Elt F) ℓ) (ρ : Dev nD → PrngReg) [FloatOps F]

/-! ## The regions' ghost state, one by one -/

theorem G_eq (d : Dev nD) :
    (G (F := F) d : sProp 𝕄) = iprop(
      (Pipeline.cellsGhost (nD := nD) (τ := τ) cfgs (EP (F := F)) 0 d ∗ Pipeline.toksInit (nD := nD) (τ := τ) cfgs (EP (F := F)) 0 d)
      ∗ (Pipeline.cellsGhost (nD := nD) (τ := τ) cfgs (EP (F := F)) 1 d ∗ Pipeline.toksInit (nD := nD) (τ := τ) cfgs (EP (F := F)) 1 d)
      ∗ (Pipeline.cellsGhost (nD := nD) (τ := τ) cfgs (EP (F := F)) 2 d ∗ Pipeline.toksInit (nD := nD) (τ := τ) cfgs (EP (F := F)) 2 d)
      ∗ (Pipeline.cellsGhost (nD := nD) (τ := τ) cfgs (EP (F := F)) 3 d ∗ Pipeline.toksInit (nD := nD) (τ := τ) cfgs (EP (F := F)) 3 d)) := by
  unfold G
  rw [show (Finset.univ : Finset (Fin 4)) = {0, 1, 2, 3} by decide, SparseCore.bigSep_insert' (by decide), SparseCore.bigSep_insert' (by decide),
    SparseCore.bigSep_insert' (by decide), bigSep_singleton]

/-! ## @main -/

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m (res3 m) d) := by
  unfold SparseCore.Cfg.tcRes
  rw [unscopedBufs_eq]
  simp only [main, wp_bind, wp_pure]
  iintro ⟨#Hctx, Hst, ⟨Hbd, ⟨Ha0, Ha1, Ha2, Ha3, Ha4, Ha5, Hv0, Hv1, Hv2, Hv3, Hv4, Hv50, Hv51, Hv6, Hv7, Hv80, Hv81, Hv9, Hv10, Hv110, Hv111, Hv12, Hv13, Hv140, Hv141, Hv15, Hv16, Hv17, Hv18⟩, -, -⟩, HG⟩
  ihave HA := (tab_split (F := F) (tabA d) (m (tabA d))) $$ Ha2
  icases HA with ⟨HrA, HtA⟩
  ihave HB := (tab_split (F := F) (tabB d) (m (tabB d))) $$ Ha3
  icases HB with ⟨HrB, HtB⟩
  iapply (wp_reshape_step (F := F) d main_arg0 main_v0 rfl shapeCasts_S16384_S128x128 ⟨by decide, rfl⟩ ⟨by decide, rfl⟩ (by decide) (fun b => m (d, b)) _ _)
  isplitl [Hbd]; · iexact Hbd
  isplitl [Ha0]; · iexact Ha0
  isplitl [Hv0]; · iexact Hv0
  iintro ⟨Hbd, Ha0, Hv0⟩
  iapply (wp_reshape_step (F := F) d main_arg1 main_v1 rfl shapeCasts_S16384_S128x128 ⟨by decide, rfl⟩ ⟨by decide, rfl⟩ (by decide) (fun b => m (d, b)) _ _)
  isplitl [Hbd]; · iexact Hbd
  isplitl [Ha1]; · iexact Ha1
  isplitl [Hv1]; · iexact Hv1
  iintro ⟨Hbd, Ha1, Hv1⟩
  iapply (wp_reshape_step (F := F) d main_arg5 main_v2 rfl shapeCasts_S128_S1x128 ⟨by decide, rfl⟩ ⟨by decide, rfl⟩ (by decide) (fun b => m (d, b)) _ _)
  isplitl [Hbd]; · iexact Hbd
  isplitl [Ha5]; · iexact Ha5
  isplitl [Hv2]; · iexact Hv2
  iintro ⟨Hbd, Ha5, Hv2⟩
  iapply (wp_unary_step (F := F) d main_v0 main_v3 _ ⟨by decide, rfl⟩ ⟨by decide, rfl⟩ (by decide) (fun b => m (d, b)) _ _)
  isplitl [Hbd]; · iexact Hbd
  isplitl [Hv0]; · iexact Hv0
  isplitl [Hv3]; · iexact Hv3
  iintro ⟨Hbd, Hv0, Hv3⟩
  iapply (wp_unary_step (F := F) d main_v1 main_v4 _ ⟨by decide, rfl⟩ ⟨by decide, rfl⟩ (by decide) (fun b => m (d, b)) _ _)
  isplitl [Hbd]; · iexact Hbd
  isplitl [Hv1]; · iexact Hv1
  isplitl [Hv4]; · iexact Hv4
  iintro ⟨Hbd, Hv1, Hv4⟩
  iapply (run0 (F := F) m κ d _ _)
  isplitr; · iexact Hctx
  isplitl [Hst]; · iexact Hst
  isplitl [Hv3]; · iexact Hv3
  isplitl [Hv4]; · iexact Hv4
  isplitl [HtA]; · iexact HtA
  isplitl [HtB]; · iexact HtB
  isplitl [Hv50]; · iexact Hv50
  isplitl [Hv51]; · iexact Hv51
  iintro ⟨Hst, Hv3, Hv4, HtA, HtB, Hv50, Hv51⟩
  iapply (wp_unary_step (F := F) d main_v0 main_v6 _ ⟨by decide, rfl⟩ ⟨by decide, rfl⟩ (by decide) (fun b => m (d, b)) _ _)
  isplitl [Hbd]; · iexact Hbd
  isplitl [Hv0]; · iexact Hv0
  isplitl [Hv6]; · iexact Hv6
  iintro ⟨Hbd, Hv0, Hv6⟩
  iapply (wp_unary_step (F := F) d main_v1 main_v7 _ ⟨by decide, rfl⟩ ⟨by decide, rfl⟩ (by decide) (fun b => m (d, b)) _ _)
  isplitl [Hbd]; · iexact Hbd
  isplitl [Hv1]; · iexact Hv1
  isplitl [Hv7]; · iexact Hv7
  iintro ⟨Hbd, Hv1, Hv7⟩
  iapply (run1 (F := F) m κ d _ _)
  isplitr; · iexact Hctx
  isplitl [Hst]; · iexact Hst
  isplitl [Hv6]; · iexact Hv6
  isplitl [Hv7]; · iexact Hv7
  isplitl [HtA]; · iexact HtA
  isplitl [HtB]; · iexact HtB
  isplitl [Hv80]; · iexact Hv80
  isplitl [Hv81]; · iexact Hv81
  iintro ⟨Hst, Hv6, Hv7, HtA, HtB, Hv80, Hv81⟩
  iapply (wp_unary_step (F := F) d main_v0 main_v9 _ ⟨by decide, rfl⟩ ⟨by decide, rfl⟩ (by decide) (fun b => m (d, b)) _ _)
  isplitl [Hbd]; · iexact Hbd
  isplitl [Hv0]; · iexact Hv0
  isplitl [Hv9]; · iexact Hv9
  iintro ⟨Hbd, Hv0, Hv9⟩
  iapply (wp_unary_step (F := F) d main_v1 main_v10 _ ⟨by decide, rfl⟩ ⟨by decide, rfl⟩ (by decide) (fun b => m (d, b)) _ _)
  isplitl [Hbd]; · iexact Hbd
  isplitl [Hv1]; · iexact Hv1
  isplitl [Hv10]; · iexact Hv10
  iintro ⟨Hbd, Hv1, Hv10⟩
  iapply (run2 (F := F) m κ d _ _)
  isplitr; · iexact Hctx
  isplitl [Hst]; · iexact Hst
  isplitl [Hv9]; · iexact Hv9
  isplitl [Hv10]; · iexact Hv10
  isplitl [HtA]; · iexact HtA
  isplitl [HtB]; · iexact HtB
  isplitl [Hv110]; · iexact Hv110
  isplitl [Hv111]; · iexact Hv111
  iintro ⟨Hst, Hv9, Hv10, HtA, HtB, Hv110, Hv111⟩
  iapply (wp_unary_step (F := F) d main_v0 main_v12 _ ⟨by decide, rfl⟩ ⟨by decide, rfl⟩ (by decide) (fun b => m (d, b)) _ _)
  isplitl [Hbd]; · iexact Hbd
  isplitl [Hv0]; · iexact Hv0
  isplitl [Hv12]; · iexact Hv12
  iintro ⟨Hbd, Hv0, Hv12⟩
  iapply (wp_unary_step (F := F) d main_v1 main_v13 _ ⟨by decide, rfl⟩ ⟨by decide, rfl⟩ (by decide) (fun b => m (d, b)) _ _)
  isplitl [Hbd]; · iexact Hbd
  isplitl [Hv1]; · iexact Hv1
  isplitl [Hv13]; · iexact Hv13
  iintro ⟨Hbd, Hv1, Hv13⟩
  iapply (run3 (F := F) m κ d _ _)
  isplitr; · iexact Hctx
  isplitl [Hst]; · iexact Hst
  isplitl [Hv12]; · iexact Hv12
  isplitl [Hv13]; · iexact Hv13
  isplitl [HtA]; · iexact HtA
  isplitl [HtB]; · iexact HtB
  isplitl [Hv140]; · iexact Hv140
  isplitl [Hv141]; · iexact Hv141
  iintro ⟨Hst, Hv12, Hv13, HtA, HtB, Hv140, Hv141⟩
  -- after the last call the TensorCore owes nothing more
  ihave Hst4 := (Entails.of_eq (tcSt4_eq (F := F) d)) $$ Hst
  icases Hst4 with ⟨⟨%W0, %hW0, HO⟩, HR⟩
  ihave HG4 := (Entails.of_eq (G_eq (F := F) d)) $$ HG
  icases HG4 with ⟨⟨Hc0, Ht0⟩, ⟨Hc1, Ht1⟩, ⟨Hc2, Ht2⟩, ⟨Hc3, Ht3⟩⟩
  ihave Hlev := ((K (F := F)).ctx_levAts (EH := EH) (P := P m) κ) $$ Hctx
  iapply (region0'' (F := F) (gA m 0) (gB m 0) (wts m) (biasRow m) (fun c => m ((SparseCore.T c).loc main_v15)) (fun _ => 0) (fun _ _ => rfl) d W0)
  isplitl [Hlev]; · iexact Hlev
  isplitl [Hbd]; · iexact Hbd
  isplitl [Hv50]; · iexact Hv50
  isplitl [Hv51]; · iexact Hv51
  isplitl [Ha4]; · iexact Ha4
  isplitl [Hv2]; · iexact Hv2
  isplitl [Hv15]; · iexact Hv15
  isplitl [HO]; · iexact HO
  isplitl [Hc0]; · iexact Hc0
  isplitl [Ht0]; · iexact Ht0
  iintro ⟨Hbd, Hv50, Hv51, Ha4, Hv2, Hv15, %W1, %hW1, HO⟩
  iapply (wp_unary_step (F := F) d main_v15 main_v16 _ ⟨by decide, rfl⟩ ⟨by decide, rfl⟩ (by decide) (fun b => m (d, b)) _ _)
  isplitl [Hbd]; · iexact Hbd
  isplitl [Hv15]; · iexact Hv15
  isplitl [Hv16]; · iexact Hv16
  iintro ⟨Hbd, Hv15, Hv16⟩
  ihave Hlev := ((K (F := F)).ctx_levAts (EH := EH) (P := P m) κ) $$ Hctx
  iapply (region1'' (F := F) (gA m 1) (gB m 1) (wts m) (biasRow m) (res0 m) (fun _ => 0) (fun _ _ => rfl) d W1)
  isplitl [Hlev]; · iexact Hlev
  isplitl [Hbd]; · iexact Hbd
  isplitl [Hv80]; · iexact Hv80
  isplitl [Hv81]; · iexact Hv81
  isplitl [Ha4]; · iexact Ha4
  isplitl [Hv2]; · iexact Hv2
  isplitl [Hv16]; · iexact Hv16
  isplitl [HO]; · iexact HO
  isplitl [Hc1]; · iexact Hc1
  isplitl [Ht1]; · iexact Ht1
  iintro ⟨Hbd, Hv80, Hv81, Ha4, Hv2, Hv16, %W2, %hW2, HO⟩
  iapply (wp_unary_step (F := F) d main_v16 main_v17 _ ⟨by decide, rfl⟩ ⟨by decide, rfl⟩ (by decide) (fun b => m (d, b)) _ _)
  isplitl [Hbd]; · iexact Hbd
  isplitl [Hv16]; · iexact Hv16
  isplitl [Hv17]; · iexact Hv17
  iintro ⟨Hbd, Hv16, Hv17⟩
  ihave Hlev := ((K (F := F)).ctx_levAts (EH := EH) (P := P m) κ) $$ Hctx
  iapply (region2'' (F := F) (gA m 2) (gB m 2) (wts m) (biasRow m) (res1 m) (fun _ => 0) (fun _ _ => rfl) d W2)
  isplitl [Hlev]; · iexact Hlev
  isplitl [Hbd]; · iexact Hbd
  isplitl [Hv110]; · iexact Hv110
  isplitl [Hv111]; · iexact Hv111
  isplitl [Ha4]; · iexact Ha4
  isplitl [Hv2]; · iexact Hv2
  isplitl [Hv17]; · iexact Hv17
  isplitl [HO]; · iexact HO
  isplitl [Hc2]; · iexact Hc2
  isplitl [Ht2]; · iexact Ht2
  iintro ⟨Hbd, Hv110, Hv111, Ha4, Hv2, Hv17, %W3, %hW3, HO⟩
  iapply (wp_unary_step (F := F) d main_v17 main_v18 _ ⟨by decide, rfl⟩ ⟨by decide, rfl⟩ (by decide) (fun b => m (d, b)) _ _)
  isplitl [Hbd]; · iexact Hbd
  isplitl [Hv17]; · iexact Hv17
  isplitl [Hv18]; · iexact Hv18
  iintro ⟨Hbd, Hv17, Hv18⟩
  ihave Hlev := ((K (F := F)).ctx_levAts (EH := EH) (P := P m) κ) $$ Hctx
  iapply (region3'' (F := F) (gA m 3) (gB m 3) (wts m) (biasRow m) (res2 m) (fun _ => 0) (fun _ _ => rfl) d W3)
  isplitl [Hlev]; · iexact Hlev
  isplitl [Hbd]; · iexact Hbd
  isplitl [Hv140]; · iexact Hv140
  isplitl [Hv141]; · iexact Hv141
  isplitl [Ha4]; · iexact Ha4
  isplitl [Hv2]; · iexact Hv2
  isplitl [Hv18]; · iexact Hv18
  isplitl [HO]; · iexact HO
  isplitl [Hc3]; · iexact Hc3
  isplitl [Ht3]; · iexact Ht3
  iintro ⟨Hbd, Hv140, Hv141, Ha4, Hv2, Hv18, %W4, %hW4, HO⟩
  imodintro
  isplitl [HO HR]
  · iapply (Entails.of_eq (tcSt4_eq (F := F) d).symm)
    isplitl [HO]
    · iexists W4; isplitr
      · ipureintro; exact wBelow_of_none (wBelow_of_none (wBelow_of_none (wBelow_of_none hW0 hW1) hW2) hW3) hW4
      · iexact HO
    · iexact HR
  unfold FIN
  isplitl [Hv18]; · iexact Hv18
  isplitl [Ha0]; · iexact Ha0
  isplitl [Ha1]; · iexact Ha1
  isplitl [HrA HtA]
  · iapply (tab_join (F := F) (tabA d) (m (tabA d))); isplitl [HrA] <;> iassumption
  isplitl [HrB HtB]
  · iapply (tab_join (F := F) (tabB d) (m (tabB d))); isplitl [HrB] <;> iassumption
  isplitl [Ha4]; · iexact Ha4
  iexact Ha5

/-! ## The launch element, the run -/

theorem hu₀ : iprop((ownU (u₀ (F := F)) : sProp 𝕄) ∗ (P m).oxCred ∗ (K (F := F)).freeSems0)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  iintro ⟨Hu, -, -⟩
  imod (hu₀_core (F := F)) $$ Hu with ⟨HH, HGs⟩
  imodintro
  isplitl [HH]; · iexact HH
  isplitl [HGs]; · iexact HGs
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

/-- Every weakly fair execution of the program's threads terminates, nothing faulting, with the result at the four
    blocks' products and every argument unchanged. -/
theorem run_main [∀ e, Nonempty (Elt F e)] (hpre : PreOK m) :
    θ_run (Cert.Kernel.defs (F := F)) (Cert.Kernel.threads (F := F)) ⟨m, fun _ => 0, ρ⟩ (QC m (res3 m)) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => tileObl m hpre q)
    (fun q _ => SparseCore.Cfg.VecSplit.of_plain (vecSplit m q))
    m ρ main (G (F := F)) (FIN m (res3 m)) (u₀ (F := F)) (hu₀ m) (hmain m ρ) (fq m (res3 m)) (hfin m (res3 m)) (QC m (res3 m)) (hQC m (res3 m))

end Cert.Proof.KB

end
-- ==== Proof.KValue.lean ====
/-
  The kernel side's value, read back at coordinates.

  Call `q` of the four works on rows `[4096 q, 4096 q + 4096)` of the batch. Its token arrays are rows `[32 q, 32 q + 32)`
  of the token inputs reshaped to 128 × 128, so token `(a, b)` of call `q` is batch entry `128 (32 q + a) + b`; row `r` of
  a gathered array is named by token `(r / 128, r % 128)`, which is batch entry `4096 q + r` since
  `128 (r / 128) + r % 128 = r`. The bias operand is the bias as one row. So an output whose block `q`, row `r`, column
  `n` is the two 128-term products of the gathered rows with the two halves of the weight, plus the bias, is the
  specification at row `4096 q + r`: every batch row is `4096 q + r` for one `q < 4` and one `r < 4096`.
-/
import proofs.«204601_g21792664060648_cont_8to1_111_20_alg».proof.Proof.Pay
import Idealize.ShloMosaic.Lib.Pipeline.Value

noncomputable section

open scoped BigOperators

namespace Cert.Proof.KI

open Cert.KernelIdeal Cert.KernelIdeal.Gen
open Idealize.ShloMosaic Idealize.ShloMosaic.ValueIdx

variable (m : (ℓ : Loc nD τ sig) → Buf (Elt Ideal) ℓ) (d : Dev nD)

/-! ## The arguments -/

/-- The two token inputs, the weight and the bias, at their launch contents. -/
abbrev argA : S16384.Idx → BitVec 32 := m ((SparseCore.T d).loc main_arg0)
abbrev argB : S16384.Idx → BitVec 32 := m ((SparseCore.T d).loc main_arg1)
abbrev argW : S256x128.Idx → EReal := m ((SparseCore.T d).loc main_arg4)
abbrev argBias : S128.Idx → EReal := m ((SparseCore.T d).loc main_arg5)

/-! ## A reshape and a slice at an index -/

/-- The 16384 entries as 128 rows of 128: entry `(R, b)` is entry `128 R + b`. -/
theorem square_apply (x : S16384.Idx → BitVec 32) (R b : Fin 128) :
    shapeCast S128x128 x shapeCasts_S16384_S128x128 (ix2 R b) = x (ix1 ⟨128 * R.val + b.val, by omega⟩) := by
  have h1 := Shape.rowMajor_val_one (d := ![16384]) (ix1 (⟨128 * R.val + b.val, by omega⟩ : Fin 16384))
  have h2 := Shape.rowMajor_val_two (d := ![128, 128]) (ix2 R b)
  refine shapeCast_apply _ _ _ _ (h1.trans (Eq.trans ?_ h2.symm))
  show 128 * R.val + b.val = R.val * 128 + b.val
  omega

/-- Thirty-two rows from row `o` on: entry `(a, b)` of the slice is entry `(o + a, b)`. -/
theorem rows_apply (o : Nat) (ho : o + 32 ≤ 128) (x : S128x128.Idx → BitVec 32) (h : S128x128.Slices ![o, 0] S32x128)
    (a : Fin 32) (b : Fin 128) :
    extractStridedSlice S32x128 ![o, 0] x h (ix2 a b) = x (ix2 ⟨o + a.val, by omega⟩ b) :=
  extractStridedSlice_apply _ _ _ _ _ (by intro c; match c with | ⟨0, _⟩ => rfl | ⟨1, _⟩ => exact (Nat.zero_add _).symm)

/-! ## The tokens of a call -/

/-- Token `(a, b)` of call `q` is batch entry `128 (32 q + a) + b`. -/
theorem tokA_apply (q : Fin 4) (a : Fin 32) (b : Fin 128) :
    tokA m d q (ix2 a b) = argA m d (ix1 ⟨128 * (32 * q.val + a.val) + b.val, by omega⟩) := by
  have key : ∀ (o : Nat) (ho : o + 32 ≤ 128) (h : S128x128.Slices ![o, 0] S32x128),
      extractStridedSlice S32x128 ![o, 0] (tokSqA m d) h (ix2 a b)
        = argA m d (ix1 ⟨128 * (o + a.val) + b.val, by omega⟩) := by
    intro o ho h
    rw [rows_apply o ho]
    exact square_apply _ _ _
  match q with
  | 0 => exact key 0 (by omega) slices_S128x128_S32x128_0_0
  | 1 => exact key 32 (by omega) slices_S128x128_S32x128_32_0
  | 2 => exact key 64 (by omega) slices_S128x128_S32x128_64_0
  | 3 => exact key 96 (by omega) slices_S128x128_S32x128_96_0

theorem tokB_apply (q : Fin 4) (a : Fin 32) (b : Fin 128) :
    tokB m d q (ix2 a b) = argB m d (ix1 ⟨128 * (32 * q.val + a.val) + b.val, by omega⟩) := by
  have key : ∀ (o : Nat) (ho : o + 32 ≤ 128) (h : S128x128.Slices ![o, 0] S32x128),
      extractStridedSlice S32x128 ![o, 0] (tokSqB m d) h (ix2 a b)
        = argB m d (ix1 ⟨128 * (o + a.val) + b.val, by omega⟩) := by
    intro o ho h
    rw [rows_apply o ho]
    exact square_apply _ _ _
  match q with
  | 0 => exact key 0 (by omega) slices_S128x128_S32x128_0_0
  | 1 => exact key 32 (by omega) slices_S128x128_S32x128_32_0
  | 2 => exact key 64 (by omega) slices_S128x128_S32x128_64_0
  | 3 => exact key 96 (by omega) slices_S128x128_S32x128_96_0

/-! ## A gathered row -/

/-- Row `r` of call `q`'s first gathered array is the first table's row at the token of batch entry `4096 q + r`. -/
theorem gatheredA_apply (q : Fin 4) (r : Fin 4096) (k : Fin 128) :
    gathered (tokA m d q) (tblA m d) (ix2 r k)
      = tblA m d (ix2 (Cert.Spec.rowOf (argA m d (ix1 ⟨4096 * q.val + r.val, by omega⟩))) k) := by
  show tblA m d (ix2 (Cert.Spec.rowOf (tokA m d q (ix2 (⟨r.val / 128, _⟩ : Fin 32) (⟨r.val % 128, _⟩ : Fin 128)))) k) = _
  rw [tokA_apply]
  refine congrArg (fun t => tblA m d (ix2 (Cert.Spec.rowOf (argA m d (ix1 t))) k)) (Fin.ext ?_)
  show 128 * (32 * q.val + r.val / 128) + r.val % 128 = 4096 * q.val + r.val
  omega

/-- The same of the second. -/
theorem gatheredB_apply (q : Fin 4) (r : Fin 4096) (k : Fin 128) :
    gathered (tokB m d q) (tblB m d) (ix2 r k)
      = tblB m d (ix2 (Cert.Spec.rowOf (argB m d (ix1 ⟨4096 * q.val + r.val, by omega⟩))) k) := by
  show tblB m d (ix2 (Cert.Spec.rowOf (tokB m d q (ix2 (⟨r.val / 128, _⟩ : Fin 32) (⟨r.val % 128, _⟩ : Fin 128)))) k) = _
  rw [tokB_apply]
  refine congrArg (fun t => tblB m d (ix2 (Cert.Spec.rowOf (argB m d (ix1 t))) k)) (Fin.ext ?_)
  show 128 * (32 * q.val + r.val / 128) + r.val % 128 = 4096 * q.val + r.val
  omega

/-! ## The bias -/

/-- The bias as one row of 128. -/
def b2 : S1x128.Idx → EReal := fun i => shapeCast S1x128 (argBias m d) shapeCasts_S128_S1x128 i

theorem b2_apply (n : Fin 128) : b2 m d (ix2 0 n) = argBias m d (ix1 n) := by
  have h1 := Shape.rowMajor_val_one (d := ![128]) (ix1 n)
  have h2 := Shape.rowMajor_val_two (d := ![1, 128]) (ix2 (0 : Fin 1) n)
  refine shapeCast_apply _ _ _ _ (h1.trans (Eq.trans ?_ h2.symm))
  show n.val = 0 * 128 + n.val
  omega

/-! ## The bridge -/

/-- An array whose block `q`, row `r`, column `n` is the gathered rows' two products with the halves of the weight plus
    the bias is the specification of the arguments. -/
theorem out_eq_G (out : S16384x128.Idx → EReal)
    (hout : ∀ (q : Fin 4) (r : Fin 4096) (n : Fin 128), out (ix2 ⟨4096 * q.val + r.val, by omega⟩ n)
        = ((∑ k : Fin 128, gathered (tokA m d q) (tblA m d) (ix2 r k) * argW m d (ix2 (Cert.Spec.upper k) n))
           + (∑ k : Fin 128, gathered (tokB m d q) (tblB m d) (ix2 r k) * argW m d (ix2 (Cert.Spec.lower k) n)))
          + b2 m d (ix2 0 n)) :
    out = Cert.Spec.G (argA m d) (argB m d) (tblA m d) (tblB m d) (argW m d) (argBias m d) := by
  funext j
  obtain ⟨R, n, rfl⟩ : ∃ (R : Fin 16384) (n : Fin 128), j = ix2 R n := ⟨j 0, j 1, eq_ix2 j⟩
  obtain ⟨q, r, rfl⟩ : ∃ (q : Fin 4) (r : Fin 4096), R = ⟨4096 * q.val + r.val, by omega⟩ :=
    ⟨⟨R.val / 4096, by omega⟩, ⟨R.val % 4096, Nat.mod_lt _ (by decide)⟩,
      Fin.ext (by show R.val = 4096 * (R.val / 4096) + R.val % 4096; omega)⟩
  rw [hout q r n, Cert.Spec.G_apply]
  unfold Cert.Spec.at'
  refine congrArg₂ (· + ·) (congrArg₂ (· + ·) ?_ ?_) (b2_apply m d n)
  · exact Finset.sum_congr rfl fun k _ => by rw [gatheredA_apply]
  · exact Finset.sum_congr rfl fun k _ => by rw [gatheredB_apply]

end Cert.Proof.KI

end
-- ==== Proof.MmValue.lean ====
/-
  What the matrix-product body stores, read at row `r` and column `n`.

  The body's one store covers the result buffer, so the buffer is the stored value. That value is the product of the first
  gathered-row buffer with rows `[0, 128)` of the weight buffer, plus the product of the second with rows `[128, 256)`,
  plus the one-row bias broadcast along the rows; each product, accumulated into zero, is at `(r, n)` the 128-term sum
  over the contracted coordinate. Row `k` of the upper half of the weight is its row `k`, row `k` of the lower half its
  row `128 + k`.
-/
import proofs.«204601_g21792664060648_cont_8to1_111_20_alg».proof.Proof.MmBody
import proofs.«204601_g21792664060648_cont_8to1_111_20_alg».proof.Proof.Spec
import Idealize.ShloMosaic.Lib.Pipeline.Value
import Idealize.ShloMosaic.Lib.ValueIdx
import Idealize.ShloMosaic.PureOps.Ideal.Laws

noncomputable section

open scoped BigOperators

namespace Cert.Proof.KI

open Cert.KernelIdeal Cert.KernelIdeal.Gen
open Idealize.ShloMosaic Idealize.ShloMosaic.ValueIdx

/-! ## The loads -/

/-- Zero offsets on both axes. -/
theorem off_zero2 {s : Shape} (hs : s.rank = 2) (off : Fin s.rank → Nat) (h0 : off ⟨0, by omega⟩ = 0) (h1 : off ⟨1, by omega⟩ = 0) :
    off = fun _ => 0 := by
  funext a
  have : a = ⟨0, by omega⟩ ∨ a = ⟨1, by omega⟩ := by
    have := a.isLt
    rcases Nat.lt_or_ge a.val 1 with h | h
    · exact Or.inl (Fin.ext (by show a.val = 0; omega))
    · exact Or.inr (Fin.ext (by show a.val = 1; omega))
  rcases this with rfl | rfl
  · exact h0
  · exact h1

/-- Row `k` of the upper half of the weight buffer is its row `k`. -/
theorem ldWu_apply (xw : Vec Ideal S256x128 .f32) (k n : Fin 128) :
    View.ld (Val := Elt Ideal) xw rWu (ix2 k n) = xw (ix2 (Cert.Spec.upper k) n) := by
  show xw (rWu.idx (ix2 k n)) = _
  refine congrArg xw (funext fun a => Fin.ext ?_)
  match a with
  | ⟨0, _⟩ => show 0 + 1 * k.val = k.val; omega
  | ⟨1, _⟩ => show 0 + 1 * n.val = n.val; omega

/-- Row `k` of the lower half is its row `128 + k`. -/
theorem ldWl_apply (xw : Vec Ideal S256x128 .f32) (k n : Fin 128) :
    View.ld (Val := Elt Ideal) xw rWl (ix2 k n) = xw (ix2 (Cert.Spec.lower k) n) := by
  show xw (rWl.idx (ix2 k n)) = _
  refine congrArg xw (funext fun a => Fin.ext ?_)
  match a with
  | ⟨0, _⟩ => show 128 + 1 * k.val = 128 + k.val; omega
  | ⟨1, _⟩ => show 0 + 1 * n.val = n.val; omega

/-! ## One product at an index -/

/-- The product's left operand index at output `(r, n)` and contracted coordinate `i` is `(r, i)` … -/
theorem mm_lhsIdx (r : Fin 4096) (n : Fin 128) (i : Fin 128) :
    dot_S4096x128_S128x128_S4096x128_1_0_0_1_n_n.lhsIdx (ix2 r n) ((contrEquiv1 dot_S4096x128_S128x128_S4096x128_1_0_0_1_n_n 128 rfl rfl).symm i) = ix2 r i := by
  funext a
  refine Fin.ext ?_
  match a with
  | ⟨0, _⟩ => rfl
  | ⟨1, _⟩ => exact contrEquiv1_symm_val dot_S4096x128_S128x128_S4096x128_1_0_0_1_n_n 128 rfl rfl i

/-- … and the right operand's is `(i, n)`. -/
theorem mm_rhsIdx (r : Fin 4096) (n : Fin 128) (i : Fin 128) :
    dot_S4096x128_S128x128_S4096x128_1_0_0_1_n_n.rhsIdx (ix2 r n) ((contrEquiv1 dot_S4096x128_S128x128_S4096x128_1_0_0_1_n_n 128 rfl rfl).symm i) = ix2 i n := by
  funext a
  refine Fin.ext ?_
  match a with
  | ⟨0, _⟩ => exact contrEquiv1_symm_val dot_S4096x128_S128x128_S4096x128_1_0_0_1_n_n 128 rfl rfl i
  | ⟨1, _⟩ => rfl

/-- A product accumulated into zero, at `(r, n)`: the sum over the 128 contracted coordinates. -/
theorem mm_apply (x : FVec Ideal S4096x128 .f32) (w : FVec Ideal S128x128 .f32) (r : Fin 4096) (n : Fin 128) :
    matmul dot_S4096x128_S128x128_S4096x128_1_0_0_1_n_n none x w (constant (F := Ideal) S4096x128 .f32 0x00000000#32) (ix2 r n)
      = ∑ k : Fin 128, x (ix2 r k) * w (ix2 k n) := by
  show FloatOps.matmul _ _ x w _ (ix2 r n) = _
  rw [Ideal.matmul_constant_zero_apply, ← Equiv.sum_comp (contrEquiv1 dot_S4096x128_S128x128_S4096x128_1_0_0_1_n_n 128 rfl rfl).symm]
  exact Finset.sum_congr rfl fun i _ => by rw [mm_lhsIdx, mm_rhsIdx]

/-- The one-row bias broadcast along the rows is its entry `n` at every row. -/
theorem bcast_apply (v : FVec Ideal S1x128 .f32) (r : Fin 4096) (n : Fin 128) :
    broadcastTo S4096x128 v broadcasts_S1x128_S4096x128 (ix2 r n) = v (ix2 0 n) :=
  broadcastTo_apply _ _ _ (ix2 0 n) (by intro a; match a with | ⟨0, _⟩ => rfl | ⟨1, _⟩ => rfl)

/-! ## The stored block -/

theorem mmOut_apply (xa xb : S4096x128.Idx → EReal) (xw : S256x128.Idx → EReal) (xc : S1x128.Idx → EReal)
    (r : Fin 4096) (n : Fin 128) :
    mmOut (F := Ideal) xa xb xw xc (ix2 r n)
      = ((∑ k : Fin 128, xa (ix2 r k) * xw (ix2 (Cert.Spec.upper k) n))
          + (∑ k : Fin 128, xb (ix2 r k) * xw (ix2 (Cert.Spec.lower k) n))) + xc (ix2 0 n) := by
  have z4 : (![0, 0] : Fin S4096x128.rank → Nat) = fun _ => 0 := off_zero2 (s := S4096x128) rfl ![0, 0] rfl rfl
  have z1 : (![0, 0] : Fin S1x128.rank → Nat) = fun _ => 0 := off_zero2 (s := S1x128) rfl ![0, 0] rfl rfl
  unfold mmOut
  rw [View.canon_unit_zero z4,
    View.ld_unit_zero (Val := Elt Ideal) (S := S4096x128) (e := .f32) z4 _ xa,
    View.ld_unit_zero (Val := Elt Ideal) (S := S4096x128) (e := .f32) z4 _ xb,
    View.ld_unit_zero (Val := Elt Ideal) (S := S1x128) (e := .f32) z1 _ xc]
  unfold k4_pay1
  rw [shapeCast_self, shapeCast_self, shapeCast_self, addf_apply, addf_apply, mm_apply, mm_apply, bcast_apply]
  refine congrArg₂ (· + ·) (congrArg₂ (· + ·) ?_ ?_) rfl
  · exact Finset.sum_congr rfl fun k _ => by rw [ldWu_apply]
  · exact Finset.sum_congr rfl fun k _ => by rw [ldWl_apply]

end Cert.Proof.KI

end
-- ==== Proof.KFinal.lean ====
/-
  The kernel's result is the specification.

  The result array is written block by block: block `p` (rows `[4096 p, 4096 p + 4096)`) by the `p`-th matrix-product
  region, each on top of what the earlier ones left. Row `4096 q + r` with `r < 4096` lies in block `q` and in no other,
  so after the last region it still holds what region `q` stored there: the later regions pass it by. What region `q`
  stored is the two products of the rows gathered for call `q` with the halves of the weight, plus the bias — and that,
  at every `q` and `r`, is the specification.
-/
import proofs.«204601_g21792664060648_cont_8to1_111_20_alg».proof.Proof.Values
import proofs.«204601_g21792664060648_cont_8to1_111_20_alg».proof.Proof.KValue
import proofs.«204601_g21792664060648_cont_8to1_111_20_alg».proof.Proof.MmValue
import proofs.«204601_g21792664060648_cont_8to1_111_20_alg».proof.Proof.RegionOut

noncomputable section

open scoped BigOperators

namespace Cert.Proof.KI

open Cert.KernelIdeal Cert.KernelIdeal.Gen
open Idealize.ShloMosaic Idealize.ShloMosaic.ValueIdx

/-! ## One overwrite at a row of its block, and at a row of another -/

section Overwrite
variable {F : FTy → Type} [FloatOps F]

/-- At row `r` of its own block the overwrite reads the stored block's row `r`. -/
theorem outAt_block (p : Fin 4) (a b : S4096x128.Idx → Elt F .f32) (w : S256x128.Idx → Elt F .f32)
    (bcv : S1x128.Idx → Elt F .f32) (prev : S16384x128.Idx → Elt F .f32) (r : Fin 4096) (n : Fin 128) :
    outAt p a b w bcv prev (ix2 ⟨4096 * p.val + r.val, by omega⟩ n) = mmOut a b w bcv (ix2 r n) := by
  rw [outAt_of_mem p a b w bcv prev _
    (by show 4096 * p.val ≤ 4096 * p.val + r.val ∧ 4096 * p.val + r.val < 4096 * p.val + 4096; omega)]
  refine congrArg (mmOut a b w bcv) ?_
  funext c
  refine Fin.ext ?_
  match c with
  | ⟨0, _⟩ => show 4096 * p.val + r.val - 4096 * p.val = r.val; omega
  | ⟨1, _⟩ => rfl

/-- At a row of another block it reads what was there. -/
theorem outAt_other (p q : Fin 4) (hpq : q ≠ p) (a b : S4096x128.Idx → Elt F .f32) (w : S256x128.Idx → Elt F .f32)
    (bcv : S1x128.Idx → Elt F .f32) (prev : S16384x128.Idx → Elt F .f32) (r : Fin 4096) (n : Fin 128) :
    outAt p a b w bcv prev (ix2 ⟨4096 * q.val + r.val, by omega⟩ n) = prev (ix2 ⟨4096 * q.val + r.val, by omega⟩ n) := by
  refine outAt_of_not_mem p a b w bcv prev _ ?_
  show ¬(4096 * p.val ≤ 4096 * q.val + r.val ∧ 4096 * q.val + r.val < 4096 * p.val + 4096)
  have hne : q.val ≠ p.val := fun h => hpq (Fin.ext h)
  omega

end Overwrite

/-! ## The final result, row by row -/

variable (m : (ℓ : Loc nD τ sig) → Buf (Elt Ideal) ℓ) (d : Dev nD)

/-- Row `4096 q + r` of the final result is row `r` of what region `q` stored. -/
theorem res3_at (q : Fin 4) (r : Fin 4096) (n : Fin 128) :
    res3 m d (ix2 ⟨4096 * q.val + r.val, by omega⟩ n)
      = mmOut (gA m q d) (gB m q d) (wts m d) (biasRow m d) (ix2 r n) := by
  match q with
  | 3 =>
    unfold res3
    exact outAt_block 3 _ _ _ _ _ r n
  | 2 =>
    unfold res3
    rw [outAt_other 3 2 (by decide)]
    unfold res2
    exact outAt_block 2 _ _ _ _ _ r n
  | 1 =>
    unfold res3
    rw [outAt_other 3 1 (by decide)]
    unfold res2
    rw [outAt_other 2 1 (by decide)]
    unfold res1
    exact outAt_block 1 _ _ _ _ _ r n
  | 0 =>
    unfold res3
    rw [outAt_other 3 0 (by decide)]
    unfold res2
    rw [outAt_other 2 0 (by decide)]
    unfold res1
    rw [outAt_other 1 0 (by decide)]
    unfold res0
    exact outAt_block 0 _ _ _ _ _ r n

/-- The final result is the specification of the arguments. -/
theorem res3_eq_G :
    res3 m d = Cert.Spec.G (argA m d) (argB m d) (tblA m d) (tblB m d) (argW m d) (argBias m d) :=
  out_eq_G m d (res3 m d) fun q r n =>
    (res3_at m d q r n).trans ((mmOut_apply (gA m q d) (gB m q d) (wts m d) (biasRow m d) r n).trans rfl)

end Cert.Proof.KI

end
-- ==== Proof.RefRun.lean ====
/-
  The reference program's run: its operations in order, the value they leave in the result array as one term of the
  six argument arrays, and the argument arrays unchanged.

  The program is a straight line of array operations. Each of the two table look-ups is the lowering of
  `take(table, tok, axis = 0)`: a token below zero is first wrapped by the table's height (`wrapIdx`), the rows the wrapped
  tokens name are gathered, and a row whose wrapped token is outside `[0, 99999]` is replaced by a row of NaN
  (`takeTerm`). The two [16384, 128] look-ups are joined along the columns into a [16384, 256] array, contracted with the
  [256, 128] weight over the 256 columns, and the bias is added along the rows (`refTerm`).
-/
import proofs.«204601_g21792664060648_cont_8to1_111_20_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The value -/

/-- The tokens as the one-column index array of the gather, a negative token `t` replaced by `t + 100000`. -/
def wrapIdx (tok : IVec S16384 32) : IVec S16384x1 32 :=
  broadcastInDim S16384x1 ![0] bcast_S16384_S16384x1_0
    (select (cmpi .slt tok (broadcastInDim S16384 ![] bcast_S_S16384 (constantI S_ 32 0#32)))
      (addi tok (broadcastInDim S16384 ![] bcast_S_S16384 (constantI S_ 32 100000#32))) tok)

/-- `take(tab, tok, axis = 0)`: row `r` is the table's row at the wrapped token of `r` where that index lies in
    `[0, 99999]`, a row of NaN elsewhere. -/
def takeTerm (tab : FVec F S100000x128 .f32) (tok : IVec S16384 32) : FVec F S16384x128 .f32 :=
  select
    (broadcastInDim S16384x128 ![0] bcast_S16384_S16384x128_0
      (Host.reduce IntOp.andi
        (andi (cmpi .sge (wrapIdx tok) (broadcastInDim S16384x1 ![] bcast_S_S16384x1 (constantI S_ 32 0#32)))
          (cmpi .sle (wrapIdx tok)
            (broadcastInDim S16384x1 ![0, 1] bcast_S1x1_S16384x1_0_1
              (broadcastInDim S1x1 ![1] bcast_S1_S1x1_1 (constantI S1 32 99999#32)))))
        (constantI S_ 1 1#1) reducesTo_S16384x1_S16384_d1 h_S_))
    (Host.gather gather_S100000x128_S16384x1_S16384x128_1_0_n_n_0_1_1128 tab (wrapIdx tok))
    (broadcastInDim S16384x128 ![] bcast_S_S16384x128 (constant S_ .f32 0x7FC00000#32))

/-- The reference's result as a term of its six arguments:
    `concat(take(a2, a0), take(a3, a1), axis 1) @ a4 + a5`. -/
def refTerm (a0 a1 : IVec S16384 32) (a2 a3 : FVec F S100000x128 .f32) (a4 : FVec F S256x128 .f32)
    (a5 : FVec F S128 .f32) : FVec F S16384x128 .f32 :=
  addf
    (Host.dotGeneral dot_S16384x256_S256x128_S16384x128_1_0_0_1_n_n none
      (concatenate S16384x256 1 [⟨S16384x128, takeTerm a2 a0⟩, ⟨S16384x128, takeTerm a3 a1⟩] concatenates_S16384x128_S16384x128_S16384x256_d1)
      a4)
    (broadcastInDim S16384x128 ![0, 1] bcast_S1x128_S16384x128_0_1 (broadcastInDim S1x128 ![1] bcast_S128_S1x128_1 a5))

/-! ## The operations -/

/-- The program's 51 operations in order: the 23 of the first look-up (the select of the wrap is the seventh), the 23 of
    the second, then the join, the contraction, the bias's two broadcasts and the sum. -/
abbrev ops : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v2 main_arg4 main_v3 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg5 main_v4 (broadcastInDim S1x128 ![1] bcast_S128_S1x128_1 : (⟨S128, .f32⟩ : BufTy).Contents (Elt F) → (⟨S1x128, .f32⟩ : BufTy).Contents (Elt F)),
    unary main_v4 main_v5 (broadcastInDim S16384x128 ![0, 1] bcast_S1x128_S16384x128_0_1 : (⟨S1x128, .f32⟩ : BufTy).Contents (Elt F) → (⟨S16384x128, .f32⟩ : BufTy).Contents (Elt F)),
    binary main_v3 main_v5 main_v6 (addf : (⟨S16384x128, .f32⟩ : BufTy).Contents (Elt F) → (⟨S16384x128, .f32⟩ : BufTy).Contents (Elt F) → (⟨S16384x128, .f32⟩ : BufTy).Contents (Elt F)) ]

-- fifty-one binds re-associated: the rewrite under the chain recurses once per statement
set_option maxRecDepth 2048 in
/-- The program is that straight line: the two functions unfolded where they are called, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..,
    unary_bufs_sub .., unary_bufs_sub .., binary_bufs_sub ..⟩

end Cert.ReferenceIdeal.RefRun

end
-- ==== Proof.RefRun2.lean ====
/-
  The reference program's run, second part: what the operations leave in each array of interest, and the run itself.
-/
import proofs.«204601_g21792664060648_cont_8to1_111_20_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Folding a line in pieces -/

/-- The fold over two lines run one after the other is the second's, from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation writing one array named in a list writes inside the list. -/
theorem sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.2 (List.mem_toFinset.2 (List.mem_map.2 ⟨y, h, rfl⟩))

/-- The first look-up's 23 operations. -/
abbrev seg0 : List (HloOp τ sig (Elt F)) :=
  [
    TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- The second look-up's 23 operations. -/
abbrev seg1 : List (HloOp τ sig (Elt F)) :=
  [
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

/-- The last five: the join, the contraction, the bias's two broadcasts, the sum. -/
abbrev seg2 : List (HloOp τ sig (Elt F)) :=
  [
    binary main_v0 main_v1 main_v2 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v2 main_arg4 main_v3 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg5 main_v4 (broadcastInDim S1x128 ![1] bcast_S128_S1x128_1 : (⟨S128, .f32⟩ : BufTy).Contents (Elt F) → (⟨S1x128, .f32⟩ : BufTy).Contents (Elt F)),
    unary main_v4 main_v5 (broadcastInDim S16384x128 ![0, 1] bcast_S1x128_S16384x128_0_1 : (⟨S1x128, .f32⟩ : BufTy).Contents (Elt F) → (⟨S16384x128, .f32⟩ : BufTy).Contents (Elt F)),
    binary main_v3 main_v5 main_v6 (addf : (⟨S16384x128, .f32⟩ : BufTy).Contents (Elt F) → (⟨S16384x128, .f32⟩ : BufTy).Contents (Elt F) → (⟨S16384x128, .f32⟩ : BufTy).Contents (Elt F)) ]

theorem ops_eq : (ops : List (HloOp τ sig (Elt F))) = seg0 ++ (seg1 ++ seg2) := rfl

/-- The arrays each piece writes, in order. -/
abbrev wr0 : List (Ref sig .tc) :=
  [main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v0]
abbrev wr1 : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10, main_call1_v11,
    main_call1_c_3, main_call1_v12, main_call1_v13, main_call1_v14, main_call1_cst, main_call1_v15, main_v1]
abbrev wr2 : List (Ref sig .tc) := [main_v2, main_v3, main_v4, main_v5, main_v6]

theorem seg0_writes : (seg0 : List (HloOp τ sig (Elt F))).Forall fun op =>
    op.writes ⊆ (wr0.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide)⟩

/-- An array the piece does not write keeps its contents. -/
theorem keep0 (W : Valuation τ sig (Elt F)) (r : Ref sig .tc) (hr : r ∉ wr0) :
    after seg0 W (Proc.devRef .tc r) = W (Proc.devRef .tc r) :=
  after_of_writes_sub seg0 W seg0_writes hr

theorem seg1_writes : (seg1 : List (HloOp τ sig (Elt F))).Forall fun op =>
    op.writes ⊆ (wr1.map (Proc.devRef (τ := τ) .tc)).toFinset :=
  ⟨sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide), sub_of_mem (by decide),
    sub_of_mem (by decide), sub_of_mem (by decide), sub_of_mem (by decide)⟩

/-- An array the piece does not write keeps its contents. -/
theorem keep1 (W : Valuation τ sig (Elt F)) (r : Ref sig .tc) (hr : r ∉ wr1) :
    after seg1 W (Proc.devRef .tc r) = W (Proc.devRef .tc r) :=
  after_of_writes_sub seg1 W seg1_writes hr

theorem seg2_writes : (seg2 : List (HloOp τ sig (Elt F))).Forall fun op =>
    op.writes ⊆ (wr2.map (Proc.devRef (τ := τ) .tc)).toFinset :=
  ⟨sub_of_mem (by decide), sub_of_mem (by decide), sub_of_mem (by decide), sub_of_mem (by decide),
    sub_of_mem (by decide)⟩

/-- An array the piece does not write keeps its contents. -/
theorem keep2 (W : Valuation τ sig (Elt F)) (r : Ref sig .tc) (hr : r ∉ wr2) :
    after seg2 W (Proc.devRef .tc r) = W (Proc.devRef .tc r) :=
  after_of_writes_sub seg2 W seg2_writes hr

/-! ## What each piece computes -/

attribute [local irreducible] Host.reduce Host.gather in
set_option maxRecDepth 8192 in
set_option maxHeartbeats 400000 in
/-- The first look-up leaves `takeTerm` of its table and its tokens: each operation's result read back at its own array,
    every other array left as it was (the reduction and the gather stay folded). -/
theorem seg0_val (W : Valuation τ sig (Elt F)) :
    after seg0 W (main_v0 : DevRef τ sig) = takeTerm (W (main_arg2 : DevRef τ sig)) (W (main_arg0 : DevRef τ sig)) := by
  after_results_simp
  rfl

attribute [local irreducible] Host.reduce Host.gather in
set_option maxRecDepth 8192 in
set_option maxHeartbeats 400000 in
/-- The second look-up leaves `takeTerm` of its table and its tokens: each operation's result read back at its own array,
    every other array left as it was (the reduction and the gather stay folded). -/
theorem seg1_val (W : Valuation τ sig (Elt F)) :
    after seg1 W (main_v1 : DevRef τ sig) = takeTerm (W (main_arg3 : DevRef τ sig)) (W (main_arg1 : DevRef τ sig)) := by
  after_results_simp
  rfl

attribute [local irreducible] concatenate in
set_option maxRecDepth 8192 in
/-- The last five leave the joined look-ups contracted with the weight, plus the bias along the rows. -/
theorem seg2_val (W : Valuation τ sig (Elt F)) :
    after seg2 W (main_v6 : DevRef τ sig)
      = addf
          (Host.dotGeneral dot_S16384x256_S256x128_S16384x128_1_0_0_1_n_n none
            (concatenate S16384x256 1 [⟨S16384x128, W (main_v0 : DevRef τ sig)⟩, ⟨S16384x128, W (main_v1 : DevRef τ sig)⟩] concatenates_S16384x128_S16384x128_S16384x256_d1)
            (W (main_arg4 : DevRef τ sig)))
          (broadcastInDim S16384x128 ![0, 1] bcast_S1x128_S16384x128_0_1
            (broadcastInDim S1x128 ![1] bcast_S128_S1x128_1 (W (main_arg5 : DevRef τ sig)))) := by
  simp only [after_cons, after_nil]
  rfl

/-! ## The whole line -/

/-- The result array after the whole line is `refTerm` of the six arguments' contents. -/
theorem out_eq (V : Valuation τ sig (Elt F)) :
    after ops V (main_v6 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  have e0 : after seg1 (after seg0 V) (main_v0 : DevRef τ sig) = takeTerm (V (main_arg2 : DevRef τ sig)) (V (main_arg0 : DevRef τ sig)) := by
    rw [keep1 _ main_v0 (by decide), seg0_val]
  have e1 : after seg1 (after seg0 V) (main_v1 : DevRef τ sig) = takeTerm (V (main_arg3 : DevRef τ sig)) (V (main_arg1 : DevRef τ sig)) := by
    rw [seg1_val, keep0 _ main_arg3 (by decide), keep0 _ main_arg1 (by decide)]
  have e4 : after seg1 (after seg0 V) (main_arg4 : DevRef τ sig) = V (main_arg4 : DevRef τ sig) := by
    rw [keep1 _ main_arg4 (by decide), keep0 _ main_arg4 (by decide)]
  have e5 : after seg1 (after seg0 V) (main_arg5 : DevRef τ sig) = V (main_arg5 : DevRef τ sig) := by
    rw [keep1 _ main_arg5 (by decide), keep0 _ main_arg5 (by decide)]
  rw [ops_eq, after_app, after_app, seg2_val, e0, e1, e4, e5]
  rfl

theorem arg0_eq (V : Valuation τ sig (Elt F)) :
    after ops V (main_arg0 : DevRef τ sig) = V (main_arg0 : DevRef τ sig) := by
  rw [ops_eq, after_app, after_app, keep2 _ main_arg0 (by decide), keep1 _ main_arg0 (by decide),
    keep0 _ main_arg0 (by decide)]

theorem arg1_eq (V : Valuation τ sig (Elt F)) :
    after ops V (main_arg1 : DevRef τ sig) = V (main_arg1 : DevRef τ sig) := by
  rw [ops_eq, after_app, after_app, keep2 _ main_arg1 (by decide), keep1 _ main_arg1 (by decide),
    keep0 _ main_arg1 (by decide)]

theorem arg2_eq (V : Valuation τ sig (Elt F)) :
    after ops V (main_arg2 : DevRef τ sig) = V (main_arg2 : DevRef τ sig) := by
  rw [ops_eq, after_app, after_app, keep2 _ main_arg2 (by decide), keep1 _ main_arg2 (by decide),
    keep0 _ main_arg2 (by decide)]

theorem arg3_eq (V : Valuation τ sig (Elt F)) :
    after ops V (main_arg3 : DevRef τ sig) = V (main_arg3 : DevRef τ sig) := by
  rw [ops_eq, after_app, after_app, keep2 _ main_arg3 (by decide), keep1 _ main_arg3 (by decide),
    keep0 _ main_arg3 (by decide)]

theorem arg4_eq (V : Valuation τ sig (Elt F)) :
    after ops V (main_arg4 : DevRef τ sig) = V (main_arg4 : DevRef τ sig) := by
  rw [ops_eq, after_app, after_app, keep2 _ main_arg4 (by decide), keep1 _ main_arg4 (by decide),
    keep0 _ main_arg4 (by decide)]

theorem arg5_eq (V : Valuation τ sig (Elt F)) :
    after ops V (main_arg5 : DevRef τ sig) = V (main_arg5 : DevRef τ sig) := by
  rw [ops_eq, after_app, after_app, keep2 _ main_arg5 (by decide), keep1 _ main_arg5 (by decide),
    keep0 _ main_arg5 (by decide)]

/-! ## The run -/

/-- From any memory with zero counters, every weakly fair execution of the reference terminates with the result array at
    `refTerm` of the six argument arrays' initial contents, and those six arrays unchanged. -/
theorem run (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F)))
      ⟨m, fun _ => 0, g⟩ (fun r => ∀ c : Dev Cert.ReferenceIdeal.nD,
      r.2.mem ((c.tc : Thread Cert.ReferenceIdeal.nD Cert.ReferenceIdeal.τ).loc Cert.ReferenceIdeal.main_v6)
          = refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run defs _ _).mono (fun _ h c => ⟨(h c main_v6).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m g)

end Cert.ReferenceIdeal.RefRun

end
-- ==== Proof.LibGatherRows.lean ====
/-
  `stablehlo.gather` of whole rows of a rank-2 operand, read at an index.

  What `jnp.take(x, idx, axis = 0)` of a table `x : [N, C]` at an integer array `idx : [R]` lowers to: `lax.gather` with
  offset_dims `[1]`, collapsed_slice_dims `[0]`, start_index_map `[0]`, slice_sizes `[1, C]` and index_vector_dim 1
  over the indices as a column `[R, 1]`. Result element `(r, n)` is `x` at row `idx[r, 0]` — read as a signed integer
  and clamped into `[0, N − 1]`, as StableHLO's gather clamps every start index — and column `n`.
-/
import Idealize.ShloMosaic.Lib.ValueIdx

namespace Idealize.ShloMosaic.ValueIdx

section TakeRows
variable {α : Type}

/-- Those dimension numbers for an operand `[N, C]`, start indices `[R, 1]` and result `[R, C]`; their conditions `wf`
    are decided on a program's literal shapes. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER READ AT `(r, n)`: the operand at row `idx[r, 0]`, read signed and clamped into `[0, N − 1]`, and
    column `n`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (ix2 (y 0) ⟨0, Nat.one_pos⟩)).toInt.toNat (N - 1), by omega⟩ (y 1)) := by
  unfold Host.gather
  refine congrArg x ?_
  rw [eq_ix2 ((takeRowsDims N R C wf).operandIdx y idx)]
  have h0 : (takeRowsDims N R C wf).operandIdx y idx 0
      = (⟨min (idx (ix2 (y 0) ⟨0, Nat.one_pos⟩)).toInt.toNat (N - 1), by omega⟩ : Fin N) := by
    refine Fin.ext ?_
    show (takeRowsDims N R C wf).start y idx 0 + (takeRowsDims N R C wf).batchCoord y 0
      + (takeRowsDims N R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N R C wf).startIndexMap from List.mem_singleton.mpr rfl)]
    have hsi : ∀ c : Fin (takeRowsDims N R C wf).startIndexMap.length,
        (takeRowsDims N R C wf).siIdx y c = ix2 (y 0) ⟨0, Nat.one_pos⟩ := by
      intro c
      funext b; refine Fin.ext ?_
      match b with
      | ⟨0, _⟩ => rfl
      | ⟨1, _⟩ =>
        show c.val = 0
        exact Nat.lt_one_iff.mp c.isLt
    rw [hsi]
    rfl
  have h1 : (takeRowsDims N R C wf).operandIdx y idx 1 = y 1 := by
    refine Fin.ext ?_
    show (takeRowsDims N R C wf).start y idx 1 + (takeRowsDims N R C wf).batchCoord y 1
      + (takeRowsDims N R C wf).offCoord y 1 = _
    rw [GatherDims.batchCoord_eq_zero _ _ _ List.not_mem_nil, Nat.add_zero]
    unfold GatherDims.start
    rw [dif_neg (show (1 : Fin 2) ∉ (takeRowsDims N R C wf).startIndexMap from
      fun h => absurd (congrArg Fin.val (List.mem_singleton.mp h)) Nat.one_ne_zero), Nat.zero_add]
    unfold GatherDims.offCoord
    rw [dif_pos (show (1 : Fin 2) ∈ (takeRowsDims N R C wf).sKept from (GatherDims.mem_sKept _ _).mpr
      ⟨fun h => absurd (congrArg Fin.val (List.mem_singleton.mp h)) Nat.one_ne_zero, List.not_mem_nil⟩)]
    rfl
  rw [h0, h1]
  rfl

end TakeRows

end Idealize.ShloMosaic.ValueIdx
-- ==== Proof.RefValue.lean ====
/-
  Under the token bounds the reference's term is the specification.

  Read at row `r` and column `n`. A token `t` with `0 ≤ t ≤ 99999` is not negative, so the wrap `t < 0 → t + 100000` is
  not taken; the in-range test is true of every row, so no row is replaced by NaN; and the gather's clamp into
  `[0, 99999]` leaves `t` alone. So each look-up's row `r` is the table's row `t`. Column `k < 128` of the joined
  array is the first look-up's column `k`, column `128 + k` the second's; the sum over the 256 joined columns is the sum
  over the first 128 plus the sum over the last 128; and the bias, broadcast along the rows, is its entry `n`.
  Nothing here needs an entry to be finite: a sum split in two is a regrouping.
-/
import proofs.«204601_g21792664060648_cont_8to1_111_20_alg».proof.Proof.RefRun
import proofs.«204601_g21792664060648_cont_8to1_111_20_alg».proof.Proof.Spec
import proofs.«204601_g21792664060648_cont_8to1_111_20_alg».proof.Proof.LibGatherRows
import Idealize.ShloMosaic.Lib.ReduceAll
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## A token in range, as a signed word -/

theorem toInt_eq_toNat {t : BitVec 32} (h : t.toNat < 100000) : t.toInt = (t.toNat : Int) :=
  BitVec.toInt_eq_toNat_of_lt (by omega)

/-- It is not below zero. -/
theorem slt_zero {t : BitVec 32} (h : t.toNat < 100000) : IntOp.cmpi .slt t 0#32 = 0#1 := by
  apply eq_zero_of_ne_one
  rw [IntOp.cmpi_slt, toInt_eq_toNat h, show (0#32 : BitVec 32).toInt = 0 from by decide]
  omega

/-- It is at least zero … -/
theorem sge_zero {t : BitVec 32} (h : t.toNat < 100000) : IntOp.cmpi .sge t 0#32 = 1#1 := by
  rw [IntOp.cmpi_sge, toInt_eq_toNat h, show (0#32 : BitVec 32).toInt = 0 from by decide]
  omega

/-- … and at most the last row. -/
theorem sle_last {t : BitVec 32} (h : t.toNat < 100000) : IntOp.cmpi .sle t 99999#32 = 1#1 := by
  rw [IntOp.cmpi_sle, toInt_eq_toNat h, show (99999#32 : BitVec 32).toInt = 99999 from by decide]
  omega

/-! ## An "all" over ones -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and`, from 1, of an array of ones is 1 at every index. -/
theorem reduce_andi_of_all {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_one x hx _

/-! ## One look-up at an index -/

/-- The wrapped index of row `r` is the token itself. -/
theorem wrapIdx_apply (tok : IVec S16384 32) (r : Fin 16384) (c : Fin 1) (h : (tok (ix1 r)).toNat < 100000) :
    wrapIdx tok (ix2 r c) = tok (ix1 r) := by
  unfold wrapIdx
  rw [broadcastInDim_apply _ _ _ _ (ix1 r) (by intro a; match a with | ⟨0, _⟩ => rfl), select_apply]
  show Scalar.select (IntOp.cmpi .slt (tok (ix1 r)) 0#32) _ _ = _
  rw [slt_zero h, select_zero]

/-- The in-range test is true of every row. -/
theorem inRange_apply (tok : IVec S16384 32) (hall : ∀ j, (tok j).toNat < 100000) (r : Fin 16384) :
    Host.reduce IntOp.andi
      (andi (cmpi .sge (wrapIdx tok) (broadcastInDim S16384x1 ![] bcast_S_S16384x1 (constantI S_ 32 0#32)))
        (cmpi .sle (wrapIdx tok)
          (broadcastInDim S16384x1 ![0, 1] bcast_S1x1_S16384x1_0_1
            (broadcastInDim S1x1 ![1] bcast_S1_S1x1_1 (constantI S1 32 99999#32)))))
      (constantI S_ 1 1#1) reducesTo_S16384x1_S16384_d1 h_S_ (ix1 r) = 1#1 := by
  refine reduce_andi_of_all _ _ _ _ (fun _ => rfl) (fun i => ?_) _
  obtain ⟨r', c, rfl⟩ : ∃ (r' : Fin 16384) (c : Fin 1), i = ix2 r' c := ⟨i 0, i 1, eq_ix2 i⟩
  show IntOp.andi (IntOp.cmpi .sge (wrapIdx tok (ix2 r' c)) 0#32) (IntOp.cmpi .sle (wrapIdx tok (ix2 r' c)) 99999#32) = 1#1
  rw [wrapIdx_apply tok r' c (hall _)]
  exact IntOp.andi_eq_one.2 ⟨sge_zero (hall _), sle_last (hall _)⟩

/-- Row `r` of a look-up is the table's row at the token of `r`. -/
theorem takeTerm_apply (tab : FVec Ideal S100000x128 .f32) (tok : IVec S16384 32) (hall : ∀ j, (tok j).toNat < 100000)
    (r : Fin 16384) (k : Fin 128) :
    takeTerm tab tok (ix2 r k) = tab (ix2 (Cert.Spec.rowOf (tok (ix1 r))) k) := by
  unfold takeTerm
  rw [select_apply, broadcastInDim_apply _ _ _ _ (ix1 r) (by intro a; match a with | ⟨0, _⟩ => rfl),
    inRange_apply tok hall r, select_one]
  show Host.gather (takeRowsDims 100000 16384 128 gather_S100000x128_S16384x1_S16384x128_1_0_n_n_0_1_1128_wf) tab
    (wrapIdx tok) (ix2 r k) = _
  rw [gather_takeRows_apply (by decide)]
  refine congrArg tab ?_
  have hw : wrapIdx tok (ix2 r ⟨0, Nat.one_pos⟩) = tok (ix1 r) := wrapIdx_apply tok r _ (hall _)
  funext a
  refine Fin.ext ?_
  match a with
  | ⟨0, _⟩ =>
    show min (wrapIdx tok (ix2 r ⟨0, Nat.one_pos⟩)).toInt.toNat (100000 - 1) = (tok (ix1 r)).toNat % 100000
    rw [hw, toInt_eq_toNat (hall _), Int.toNat_natCast]
    have := hall (ix1 r)
    omega
  | ⟨1, _⟩ => rfl

/-! ## The join, the contraction and the bias at an index -/

/-- Column `k < 128` of the joined array is the first piece's column `k`. -/
theorem concat_upper (x₁ x₂ : FVec Ideal S16384x128 .f32) (r : Fin 16384) (k : Fin 128) :
    concatenate S16384x256 1 [⟨S16384x128, x₁⟩, ⟨S16384x128, x₂⟩] concatenates_S16384x128_S16384x128_S16384x256_d1
      (ix2 r (Cert.Spec.upper k)) = x₁ (ix2 r k) :=
  concatenate_pair_apply_left (t := S16384x256) 1 x₁ x₂ _ _ rfl (ix2 r k)
    (by intro b; match b with | ⟨0, _⟩ => rfl | ⟨1, _⟩ => rfl)

/-- Column `128 + k` of the joined array is the second piece's column `k`. -/
theorem concat_lower (x₁ x₂ : FVec Ideal S16384x128 .f32) (r : Fin 16384) (k : Fin 128) :
    concatenate S16384x256 1 [⟨S16384x128, x₁⟩, ⟨S16384x128, x₂⟩] concatenates_S16384x128_S16384x128_S16384x256_d1
      (ix2 r (Cert.Spec.lower k)) = x₂ (ix2 r k) :=
  concatenate_pair_apply_right (t := S16384x256) 1 x₁ x₂ _ _ rfl rfl (ix2 r k)
    (by intro b hb; match b, hb with | ⟨0, _⟩, _ => rfl | ⟨1, _⟩, hb => exact absurd rfl hb)
    (by show k.val + 128 = 128 + k.val; omega)

/-- A sum over 256 terms is the sum of its first 128 plus the sum of its last 128. -/
theorem sum_split (f : Fin 256 → EReal) :
    ∑ k, f k = ∑ k : Fin 128, f (Cert.Spec.upper k) + ∑ k : Fin 128, f (Cert.Spec.lower k) := by
  refine (Fin.sum_univ_add (a := 128) (b := 128) f).trans ?_
  congr 1 <;> exact Finset.sum_congr rfl (fun k _ => congrArg f (Fin.ext rfl))

/-- The contraction's left operand index at output `(r, n)` and contracted coordinate `i` is `(r, i)` … -/
theorem lhsIdx_eq (r : Fin 16384) (n : Fin 128) (i : Fin 256) :
    dot_S16384x256_S256x128_S16384x128_1_0_0_1_n_n.lhsIdx (ix2 r n)
      ((contrEquiv1 dot_S16384x256_S256x128_S16384x128_1_0_0_1_n_n 256 rfl rfl).symm i) = ix2 r i := by
  funext a
  refine Fin.ext ?_
  match a with
  | ⟨0, _⟩ => rfl
  | ⟨1, _⟩ => exact contrEquiv1_symm_val dot_S16384x256_S256x128_S16384x128_1_0_0_1_n_n 256 rfl rfl i

/-- … and the right operand's is `(i, n)`. -/
theorem rhsIdx_eq (r : Fin 16384) (n : Fin 128) (i : Fin 256) :
    dot_S16384x256_S256x128_S16384x128_1_0_0_1_n_n.rhsIdx (ix2 r n)
      ((contrEquiv1 dot_S16384x256_S256x128_S16384x128_1_0_0_1_n_n 256 rfl rfl).symm i) = ix2 i n := by
  funext a
  refine Fin.ext ?_
  match a with
  | ⟨0, _⟩ => exact contrEquiv1_symm_val dot_S16384x256_S256x128_S16384x128_1_0_0_1_n_n 256 rfl rfl i
  | ⟨1, _⟩ => rfl

/-- The contraction at `(r, n)` as a sum over the 256 joined columns. -/
theorem dot_apply (x : FVec Ideal S16384x256 .f32) (w : FVec Ideal S256x128 .f32) (r : Fin 16384) (n : Fin 128) :
    Host.dotGeneral dot_S16384x256_S256x128_S16384x128_1_0_0_1_n_n none x w (ix2 r n)
      = ∑ i : Fin 256, x (ix2 r i) * w (ix2 i n) := by
  show FloatOps.dotGeneral _ _ _ x w (ix2 r n) = _
  rw [Ideal.dotGeneral_apply,
    ← Equiv.sum_comp (contrEquiv1 dot_S16384x256_S256x128_S16384x128_1_0_0_1_n_n 256 rfl rfl).symm]
  exact Finset.sum_congr rfl fun i _ => by rw [lhsIdx_eq, rhsIdx_eq]

/-- The bias broadcast along the rows is its entry `n` at every row. -/
theorem bias_apply (b : FVec Ideal S128 .f32) (r : Fin 16384) (n : Fin 128) :
    broadcastInDim S16384x128 ![0, 1] bcast_S1x128_S16384x128_0_1 (broadcastInDim S1x128 ![1] bcast_S128_S1x128_1 b)
      (ix2 r n) = b (ix1 n) := by
  rw [broadcastInDim_apply _ _ _ _ (ix2 ⟨0, Nat.one_pos⟩ n) (by intro a; match a with | ⟨0, _⟩ => rfl | ⟨1, _⟩ => rfl),
    broadcastInDim_apply _ _ _ _ (ix1 n) (by intro a; match a with | ⟨0, _⟩ => rfl)]

/-! ## The reference is the specification -/

theorem refTerm_eq_G (a0 a1 : IVec S16384 32) (a2 a3 : FVec Ideal S100000x128 .f32) (a4 : FVec Ideal S256x128 .f32)
    (a5 : FVec Ideal S128 .f32) (h0 : ∀ j, (a0 j).toNat < 100000) (h1 : ∀ j, (a1 j).toNat < 100000) :
    refTerm (F := Ideal) a0 a1 a2 a3 a4 a5 = Cert.Spec.G a0 a1 a2 a3 a4 a5 := by
  funext j
  obtain ⟨r, n, rfl⟩ : ∃ (r : Fin 16384) (n : Fin 128), j = ix2 r n := ⟨j 0, j 1, eq_ix2 j⟩
  rw [Cert.Spec.G_apply]
  unfold refTerm Cert.Spec.at'
  rw [addf_apply, dot_apply, bias_apply, sum_split]
  refine congrArg₂ (· + ·) (congrArg₂ (· + ·) ?_ ?_) rfl
  · exact Finset.sum_congr rfl fun k _ => by rw [concat_upper, takeTerm_apply a2 a0 h0]
  · exact Finset.sum_congr rfl fun k _ => by rw [concat_lower, takeTerm_apply a3 a1 h1]

end Cert.ReferenceIdeal.RefValue

end
-- ==== Proof.lean ====
/-
  The certificate's claim.

  Both idealized programs compute, on the extended reals, one function of the six inputs: row `r` of the result is the
  affine image, through the weights and the bias, of the concatenation of the two table rows the tokens of batch entry
  `r` name (`Cert.Spec.G`).
  The kernel gets there in eight steps: four times the SparseCores' thirty-two vector subcores gather the rows named by
  4096 tokens of each kind — every token is below the tables' height by the precondition, so every gather names a row
  that exists, and every copy is waited for on a semaphore of its own, so nothing races —, and four times a TensorCore
  region multiplies a pair of gathered arrays by the upper and the lower half of the weights, adds the bias, and writes
  block `q` of the result. The reference looks the rows up (under the same bounds its wrap of negative indices is not
  taken and its in-bounds mask is true), concatenates them, and contracts all 256 columns at once; a 256-term sum is its
  two 128-term halves, by associativity alone, so no finiteness is used.
  The three frames are the runs with the values dropped; the word-level program's run is the idealized one's text at the
  other float instance. The ideal pass rewrote nothing, so `preserves` holds trivially.
-/
import proofs.«204601_g21792664060648_cont_8to1_111_20_alg».proof.Defs
import proofs.«204601_g21792664060648_cont_8to1_111_20_alg».proof.Proof.Gen.Kernel
import proofs.«204601_g21792664060648_cont_8to1_111_20_alg».proof.Proof.Gen.KernelIdeal
import proofs.«204601_g21792664060648_cont_8to1_111_20_alg».proof.Proof.Gen.ReferenceIdeal
import proofs.«204601_g21792664060648_cont_8to1_111_20_alg».proof.Proof.Gen.Pre_input_domain
import proofs.«204601_g21792664060648_cont_8to1_111_20_alg».proof.Proof.Main
import proofs.«204601_g21792664060648_cont_8to1_111_20_alg».proof.Proof.Bits.Main
import proofs.«204601_g21792664060648_cont_8to1_111_20_alg».proof.Proof.KFinal
import proofs.«204601_g21792664060648_cont_8to1_111_20_alg».proof.Proof.RefRun2
import proofs.«204601_g21792664060648_cont_8to1_111_20_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_input_domain := Cert.Pre_input_domain.Gen.facts) := fun m g hpre =>
  (θ_run Cert.Kernel.defs _ _).mono (fun _ h c => (h c).2) (Cert.Proof.KB.run_main (F := Bits) m g (Cert.Proof.KB.preOK_of_pre m hpre))

theorem frame_kernelIdeal : Cert.frame_KernelIdeal (hKernelIdeal := Cert.KernelIdeal.Gen.facts) (hPre_input_domain := Cert.Pre_input_domain.Gen.facts) := fun m g hpre =>
  (θ_run Cert.KernelIdeal.defs _ _).mono (fun _ h c => (h c).2) (Cert.Proof.KI.run_main (F := Ideal) m g (Cert.Proof.KI.preOK_of_pre m hpre))

theorem frame_referenceIdeal : Cert.frame_ReferenceIdeal (hReferenceIdeal := Cert.ReferenceIdeal.Gen.facts) (hPre_input_domain := Cert.Pre_input_domain.Gen.facts) := fun m g _ =>
  (θ_run Cert.ReferenceIdeal.defs _ _).mono (fun _ h c => (h c).2) (Cert.ReferenceIdeal.RefRun.run (F := Ideal) m g)

/-- Both runs end with the result at `Cert.Spec.G` of the arguments, which agree. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hok := Cert.Proof.KI.preOK_of_pre m hpre
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Proof.KI.res3_eq_G m c), (h c).2⟩)
      (Cert.Proof.KI.run_main (F := Ideal) m g hok)
  · refine (θ_run Cert.ReferenceIdeal.defs _ _).mono (fun _ h c => ⟨?_, (h c).2⟩) (Cert.ReferenceIdeal.RefRun.run (F := Ideal) m' g')
    obtain ⟨e0, e1, e2, e3, e4, e5⟩ := hagree c
    rw [(h c).1, e0, e1, e2, e3, e4, e5]
    exact Cert.ReferenceIdeal.RefValue.refTerm_eq_G _ _ _ _ _ _ (hok c).1 (hok c).2

theorem claim : Cert.Claim := ⟨Cert.Kernel.Gen.facts, Cert.KernelIdeal.Gen.facts, Cert.ReferenceIdeal.Gen.facts, Cert.Pre_input_domain.Gen.facts,
  frame_kernel, frame_kernelIdeal, frame_referenceIdeal, trivial, algebraic⟩

end Cert.Proof

end
